-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v158)) (v1 : (c : Dev Cert.KernelIdeal.nD) → Buf (Elt Ideal) ((c.tc : Thread Cert.KernelIdeal.nD Cert.KernelIdeal.τ).loc Cert.KernelIdeal.main_v165)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v158) = v0 c
          ∧ r.2.mem ((c.tc : Thread Cert.KernelIdeal.nD Cert.KernelIdeal.τ).loc Cert.KernelIdeal.main_v165) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_v185) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S600000 : Shape := ⟨1, ![600000]⟩
abbrev S2x4x128x128 : Shape := ⟨4, ![2, 4, 128, 128]⟩
abbrev S2x4x128 : Shape := ⟨3, ![2, 4, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S600000 : S_.BroadcastsInDim S600000 (![] : Fin 0 → Fin S600000.rank)
  reducesTo_S600000_S_d0 : S600000.ReducesTo [0] S_
  bcast_S_S2x4x128x128 : S_.BroadcastsInDim S2x4x128x128 (![] : Fin 0 → Fin S2x4x128x128.rank)
  reducesTo_S2x4x128x128_S_d0_1_2_3 : S2x4x128x128.ReducesTo [0, 1, 2, 3] S_
  bcast_S_S2x4x128 : S_.BroadcastsInDim S2x4x128 (![] : Fin 0 → Fin S2x4x128.rank)
  reducesTo_S2x4x128_S_d0_1_2 : S2x4x128.ReducesTo [0, 1, 2] S_

variable [Facts]

def fn_part1 {F : FTy → Type} [FloatOps F] (main_arg6 : FVec F S2x4x128 .f32) (main_v13 : IVec S_ 1) (main_v16 : IVec S2x4x128x128 1) : IVec S_ 1 :=
  let main_c_5 : IVec S_ 1 := constantI S_ 1 1#1
  let main_v17 : IVec S_ 1 := (fun x v => Host.reduce IntOp.andi x v reducesTo_S2x4x128x128_S_d0_1_2_3 h_S_) main_v16 main_c_5
  let main_v18 : IVec S_ 1 := andi main_v13 main_v17
  let main_v19 : FVec F S2x4x128 .f32 := Host.absf main_arg6
  let main_cst_6 : FVec F S_ .f32 := constant S_ .f32 0x7F800000#32
  let main_v20 : FVec F S2x4x128 .f32 := broadcastInDim S2x4x128 ![] bcast_S_S2x4x128 main_cst_6
  let main_v21 : IVec S2x4x128 1 := cmpf .olt main_v19 main_v20
  let main_c_7 : IVec S_ 1 := constantI S_ 1 1#1
  let main_v22 : IVec S_ 1 := (fun x v => Host.reduce IntOp.andi x v reducesTo_S2x4x128_S_d0_1_2 h_S_) main_v21 main_c_7
  let main_v23 : IVec S_ 1 := andi main_v18 main_v22
  main_v23

def fn {F : FTy → Type} [FloatOps F] (main_arg0 : FVec F S100000x128 .f32) (main_arg1 : FVec F S50000x128 .f32) (main_arg2 : IVec S600000 32) (main_arg3 : IVec S600000 32) (main_arg4 : FVec F S600000 .f32) (main_arg5 : FVec F S2x4x128x128 .f32) (main_arg6 : FVec F S2x4x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S600000 .f32 := Host.absf main_arg4
  let main_cst_2 : FVec F S_ .f32 := constant S_ .f32 0x7F800000#32
  let main_v10 : FVec F S600000 .f32 := broadcastInDim S600000 ![] bcast_S_S600000 main_cst_2
  let main_v11 : IVec S600000 1 := cmpf .olt main_v9 main_v10
  let main_c_3 : IVec S_ 1 := constantI S_ 1 1#1
  let main_v12 : IVec S_ 1 := (fun x v => Host.reduce IntOp.andi x v reducesTo_S600000_S_d0 h_S_) main_v11 main_c_3
  let main_v13 : IVec S_ 1 := andi main_v8 main_v12
  let main_v14 : FVec F S2x4x128x128 .f32 := Host.absf main_arg5
  let main_cst_4 : FVec F S_ .f32 := constant S_ .f32 0x7F800000#32
  let main_v15 : FVec F S2x4x128x128 .f32 := broadcastInDim S2x4x128x128 ![] bcast_S_S2x4x128x128 main_cst_4
  let main_v16 : IVec S2x4x128x128 1 := cmpf .olt main_v14 main_v15
  fn_part1 (F := F) main_arg6 main_v13 main_v16
-- ==== Kernel.lean ====
abbrev S100000x128 : Shape := ⟨2, ![100000, 128]⟩
abbrev S50000x128 : Shape := ⟨2, ![50000, 128]⟩
abbrev S600000 : Shape := ⟨1, ![600000]⟩
abbrev S2x4x128x128 : Shape := ⟨4, ![2, 4, 128, 128]⟩
abbrev S2x4x128 : Shape := ⟨3, ![2, 4, 128]⟩
abbrev S1x1x128x128 : Shape := ⟨4, ![1, 1, 128, 128]⟩
abbrev S128x128 : Shape := ⟨2, ![128, 128]⟩
abbrev S2000x128 : Shape := ⟨2, ![2000, 128]⟩
abbrev S_ : Shape := ⟨0, ![]⟩
abbrev S600000x1 : Shape := ⟨2, ![600000, 1]⟩
abbrev S600000x128 : Shape := ⟨2, ![600000, 128]⟩
abbrev S8000x128 : Shape := ⟨2, ![8000, 128]⟩
abbrev S8000x1 : Shape := ⟨2, ![8000, 1]⟩
abbrev S1x1x128 : Shape := ⟨3, ![1, 1, 128]⟩
abbrev S128 : Shape := ⟨1, ![128]⟩
abbrev S1x128 : Shape := ⟨2, ![1, 128]⟩
abbrev S100000x1x128 : Shape := ⟨3, ![100000, 1, 128]⟩
abbrev S100000x3x128 : Shape := ⟨3, ![100000, 3, 128]⟩
abbrev S50000x1x128 : Shape := ⟨3, ![50000, 1, 128]⟩
abbrev S50000x3x128 : Shape := ⟨3, ![50000, 3, 128]⟩

abbrev nBuf : Space → Nat
  | .hbm => 201
  | .vmem => 128
  | .smem => 0
  | _ => 0

abbrev hbmTy0_0 (i : Nat) : BufTy := match i % 128 with
  | 0 => ⟨S100000x128, .f32⟩
  | 1 => ⟨S50000x128, .f32⟩
  | 2 => ⟨S600000, .i32⟩
  | 3 => ⟨S600000, .i32⟩
  | 4 => ⟨S600000, .f32⟩
  | 5 => ⟨S2x4x128x128, .f32⟩
  | 6 => ⟨S2x4x128, .f32⟩
  | 7 => ⟨S1x1x128x128, .f32⟩
  | 8 => ⟨S128x128, .f32⟩
  | 9 => ⟨S100000x128, .f32⟩
  | 10 => ⟨S_, .i32⟩
  | 11 => ⟨S600000, .i32⟩
  | 12 => ⟨S600000, .i1⟩
  | 13 => ⟨S_, .i32⟩
  | 14 => ⟨S600000, .i32⟩
  | 15 => ⟨S600000, .i32⟩
  | 16 => ⟨S600000, .i32⟩
  | 17 => ⟨S600000x1, .i32⟩
  | 18 => ⟨S600000x128, .f32⟩
  | 19 => ⟨S600000x1, .f32⟩
  | 20 => ⟨S600000x128, .f32⟩
  | 21 => ⟨S_, .f32⟩
  | 22 => ⟨S50000x128, .f32⟩
  | 23 => ⟨S600000x1, .i32⟩
  | 24 => ⟨S50000x128, .f32⟩
  | 25 => ⟨S1x1x128, .f32⟩
  | 26 => ⟨S128, .f32⟩
  | 27 => ⟨S1x128, .f32⟩
  | 28 => ⟨S50000x128, .f32⟩
  | 29 => ⟨S1x1x128x128, .f32⟩
  | 30 => ⟨S128x128, .f32⟩
  | 31 => ⟨S50000x128, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000x128, .f32⟩
  | 41 => ⟨S600000x1, .f32⟩
  | 42 => ⟨S600000x128, .f32⟩
  | 43 => ⟨S_, .f32⟩
  | 44 => ⟨S100000x128, .f32⟩
  | 45 => ⟨S600000x1, .i32⟩
  | 46 => ⟨S100000x128, .f32⟩
  | 47 => ⟨S1x1x128, .f32⟩
  | 48 => ⟨S128, .f32⟩
  | 49 => ⟨S1x128, .f32⟩
  | 50 => ⟨S100000x128, .f32⟩
  | 51 => ⟨S1x1x128x128, .f32⟩
  | 52 => ⟨S128x128, .f32⟩
  | 53 => ⟨S50000x128, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000x128, .f32⟩
  | 63 => ⟨S600000x1, .f32⟩
  | 64 => ⟨S600000x128, .f32⟩
  | 65 => ⟨S_, .f32⟩
  | 66 => ⟨S100000x128, .f32⟩
  | 67 => ⟨S600000x1, .i32⟩
  | 68 => ⟨S100000x128, .f32⟩
  | 69 => ⟨S1x1x128, .f32⟩
  | 70 => ⟨S128, .f32⟩
  | 71 => ⟨S1x128, .f32⟩
  | 72 => ⟨S100000x128, .f32⟩
  | 73 => ⟨S1x1x128x128, .f32⟩
  | 74 => ⟨S128x128, .f32⟩
  | 75 => ⟨S100000x128, .f32⟩
  | 76 => ⟨S_, .i32⟩
  | 77 => ⟨S600000, .i32⟩
  | 78 => ⟨S600000, .i1⟩
  | 79 => ⟨S_, .i32⟩
  | 80 => ⟨S600000, .i32⟩
  | 81 => ⟨S600000, .i32⟩
  | 82 => ⟨S600000, .i32⟩
  | 83 => ⟨S600000x1, .i32⟩
  | 84 => ⟨S600000x128, .f32⟩
  | 85 => ⟨S600000x1, .f32⟩
  | 86 => ⟨S600000x128, .f32⟩
  | 87 => ⟨S_, .f32⟩
  | 88 => ⟨S50000x128, .f32⟩
  | 89 => ⟨S600000x1, .i32⟩
  | 90 => ⟨S50000x128, .f32⟩
  | 91 => ⟨S1x1x128, .f32⟩
  | 92 => ⟨S128, .f32⟩
  | 93 => ⟨S1x128, .f32⟩
  | 94 => ⟨S50000x128, .f32⟩
  | 95 => ⟨S1x1x128x128, .f32⟩
  | 96 => ⟨S128x128, .f32⟩
  | 97 => ⟨S100000x128, .f32⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S600000x128, .f32⟩
  | 107 => ⟨S600000x1, .f32⟩
  | 108 => ⟨S600000x128, .f32⟩
  | 109 => ⟨S_, .f32⟩
  | 110 => ⟨S50000x128, .f32⟩
  | 111 => ⟨S600000x1, .i32⟩
  | 112 => ⟨S50000x128, .f32⟩
  | 113 => ⟨S1x1x128, .f32⟩
  | 114 => ⟨S128, .f32⟩
  | 115 => ⟨S1x128, .f32⟩
  | 116 => ⟨S50000x128, .f32⟩
  | 117 => ⟨S1x1x128x128, .f32⟩
  | 118 => ⟨S128x128, .f32⟩
  | 119 => ⟨S50000x128, .f32⟩
  | 120 => ⟨S_, .i32⟩
  | 121 => ⟨S600000, .i32⟩
  | 122 => ⟨S600000, .i1⟩
  | 123 => ⟨S_, .i32⟩
  | 124 => ⟨S600000, .i32⟩
  | 125 => ⟨S600000, .i32⟩
  | 126 => ⟨S600000, .i32⟩
  | 127 => ⟨S600000x1, .i32⟩
  | _ => ⟨S100000x128, .f32⟩

abbrev hbmTy0_1 (i : Nat) : BufTy := match i % 128 with
  | 0 => ⟨S600000x128, .f32⟩
  | 1 => ⟨S600000x1, .f32⟩
  | 2 => ⟨S600000x128, .f32⟩
  | 3 => ⟨S_, .f32⟩
  | 4 => ⟨S100000x128, .f32⟩
  | 5 => ⟨S600000x1, .i32⟩
  | 6 => ⟨S100000x128, .f32⟩
  | 7 => ⟨S1x1x128, .f32⟩
  | 8 => ⟨S128, .f32⟩
  | 9 => ⟨S1x128, .f32⟩
  | 10 => ⟨S100000x128, .f32⟩
  | 11 => ⟨S1x1x128x128, .f32⟩
  | 12 => ⟨S128x128, .f32⟩
  | 13 => ⟨S50000x128, .f32⟩
  | 14 => ⟨S_, .i32⟩
  | 15 => ⟨S600000, .i32⟩
  | 16 => ⟨S600000, .i1⟩
  | 17 => ⟨S_, .i32⟩
  | 18 => ⟨S600000, .i32⟩
  | 19 => ⟨S600000, .i32⟩
  | 20 => ⟨S600000, .i32⟩
  | 21 => ⟨S600000x1, .i32⟩
  | 22 => ⟨S600000x128, .f32⟩
  | 23 => ⟨S600000x1, .f32⟩
  | 24 => ⟨S600000x128, .f32⟩
  | 25 => ⟨S_, .f32⟩
  | 26 => ⟨S100000x128, .f32⟩
  | 27 => ⟨S600000x1, .i32⟩
  | 28 => ⟨S100000x128, .f32⟩
  | 29 => ⟨S1x1x128, .f32⟩
  | 30 => ⟨S128, .f32⟩
  | 31 => ⟨S1x128, .f32⟩
  | 32 => ⟨S100000x128, .f32⟩
  | 33 => ⟨S1x1x128x128, .f32⟩
  | 34 => ⟨S128x128, .f32⟩
  | 35 => ⟨S100000x128, .f32⟩
  | 36 => ⟨S_, .i32⟩
  | 37 => ⟨S600000, .i32⟩
  | 38 => ⟨S600000, .i1⟩
  | 39 => ⟨S_, .i32⟩
  | 40 => ⟨S600000, .i32⟩
  | 41 => ⟨S600000, .i32⟩
  | 42 => ⟨S600000, .i32⟩
  | 43 => ⟨S600000x1, .i32⟩
  | 44 => ⟨S600000x128, .f32⟩
  | 45 => ⟨S600000x1, .f32⟩
  | 46 => ⟨S600000x128, .f32⟩
  | 47 => ⟨S_, .f32⟩
  | 48 => ⟨S50000x128, .f32⟩
  | 49 => ⟨S600000x1, .i32⟩
  | 50 => ⟨S50000x128, .f32⟩
  | 51 => ⟨S1x1x128, .f32⟩
  | 52 => ⟨S128, .f32⟩
  | 53 => ⟨S1x128, .f32⟩
  | 54 => ⟨S50000x128, .f32⟩
  | 55 => ⟨S100000x1x128, .f32⟩
  | 56 => ⟨S100000x1x128, .f32⟩
  | 57 => ⟨S100000x1x128, .f32⟩
  | 58 => ⟨S100000x3x128, .f32⟩
  | 59 => ⟨S_, .f32⟩
  | 60 => ⟨S100000x128, .f32⟩
  | 61 => ⟨S_, .f32⟩
  | 62 => ⟨S100000x128, .f32⟩
  | 63 => ⟨S100000x128, .f32⟩
  | 64 => ⟨S50000x1x128, .f32⟩
  | 65 => ⟨S50000x1x128, .f32⟩
  | 66 => ⟨S50000x1x128, .f32⟩
  | 67 => ⟨S50000x3x128, .f32⟩
  | 68 => ⟨S_, .f32⟩
  | 69 => ⟨S50000x128, .f32⟩
  | 70 => ⟨S_, .f32⟩
  | 71 => ⟨S50000x128, .f32⟩
  | 72 => ⟨S50000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S8000x128, .f32⟩
  | .local _ .vmem, ⟨6, _⟩ => ⟨S8000x128, .f32⟩
  | .local _ .vmem, ⟨7, _⟩ => ⟨S8000x1, .f32⟩
  | .local _ .vmem, ⟨8, _⟩ => ⟨S8000x1, .f32⟩
  | .local _ .vmem, ⟨9, _⟩ => ⟨S8000x128, .f32⟩
  | .local _ .vmem, ⟨10, _⟩ => ⟨S8000x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S2000x128, .f32⟩
  | .local _ .vmem, ⟨20, _⟩ => ⟨S2000x128, .f32⟩
  | .local _ .vmem, ⟨21, _⟩ => ⟨S8000x128, .f32⟩
  | .local _ .vmem, ⟨22, _⟩ => ⟨S8000x128, .f32⟩
  | .local _ .vmem, ⟨23, _⟩ => ⟨S8000x1, .f32⟩
  | .local _ .vmem, ⟨24, _⟩ => ⟨S8000x1, .f32⟩
  | .local _ .vmem, ⟨25, _⟩ => ⟨S8000x128, .f32⟩
  | .local _ .vmem, ⟨26, _⟩ => ⟨S8000x128, .f32⟩
  | .local _ .vmem, ⟨27, _⟩ => ⟨S2000x128, .f32⟩
  | .local _ .vmem, ⟨28, _⟩ => ⟨S2000x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S128x128, .f32⟩
  | .local _ .vmem, ⟨35, _⟩ => ⟨S2000x128, .f32⟩
  | .local _ .vmem, ⟨36, _⟩ => ⟨S2000x128, .f32⟩
  | .local _ .vmem, ⟨37, _⟩ => ⟨S8000x128, .f32⟩
  | .local _ .vmem, ⟨38, _⟩ => ⟨S8000x128, .f32⟩
  | .local _ .vmem, ⟨39, _⟩ => ⟨S8000x1, .f32⟩
  | .local _ .vmem, ⟨40, _⟩ => ⟨S8000x1, .f32⟩
  | .local _ .vmem, ⟨41, _⟩ => ⟨S8000x128, .f32⟩
  | .local _ .vmem, ⟨42, _⟩ => ⟨S8000x128, .f32⟩
  | .local _ .vmem, ⟨43, _⟩ => ⟨S2000x128, .f32⟩
  | .local _ .vmem, ⟨44, _⟩ => ⟨S2000x128, .f32⟩
  | .local _ .vmem, ⟨45, _⟩ => ⟨S1x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S128x128, .f32⟩
  | .local _ .vmem, ⟨51, _⟩ => ⟨S2000x128, .f32⟩
  | .local _ .vmem, ⟨52, _⟩ => ⟨S2000x128, .f32⟩
  | .local _ .vmem, ⟨53, _⟩ => ⟨S8000x128, .f32⟩
  | .local _ .vmem, ⟨54, _⟩ => ⟨S8000x128, .f32⟩
  | .local _ .vmem, ⟨55, _⟩ => ⟨S8000x1, .f32⟩
  | .local _ .vmem, ⟨56, _⟩ => ⟨S8000x1, .f32⟩
  | .local _ .vmem, ⟨57, _⟩ => ⟨S8000x128, .f32⟩
  | .local _ .vmem, ⟨58, _⟩ => ⟨S8000x128, .f32⟩
  | .local _ .vmem, ⟨59, _⟩ => ⟨S2000x128, .f32⟩
  | .local _ .vmem, ⟨60, _⟩ => ⟨S2000x128, .f32⟩
  | .local _ .vmem, ⟨61, _⟩ => ⟨S1x128, .f32⟩
  | .local _ .vmem, ⟨62, _⟩ => ⟨S2000x128, .f32⟩
  | .local _ .vmem, ⟨63, _⟩ => ⟨S2000x128, .f32⟩
  | .local _ .vmem, ⟨64, _⟩ => ⟨S2000x128, .f32⟩
  | .local _ .vmem, ⟨65, _⟩ => ⟨S2000x128, .f32⟩
  | .local _ .vmem, ⟨66, _⟩ => ⟨S128x128, .f32⟩
  | .local _ .vmem, ⟨67, _⟩ => ⟨S2000x128, .f32⟩
  | .local _ .vmem, ⟨68, _⟩ => ⟨S2000x128, .f32⟩
  | .local _ .vmem, ⟨69, _⟩ => ⟨S8000x128, .f32⟩
  | .local _ .vmem, ⟨70, _⟩ => ⟨S8000x128, .f32⟩
  | .local _ .vmem, ⟨71, _⟩ => ⟨S8000x1, .f32⟩
  | .local _ .vmem, ⟨72, _⟩ => ⟨S8000x1, .f32⟩
  | .local _ .vmem, ⟨73, _⟩ => ⟨S8000x128, .f32⟩
  | .local _ .vmem, ⟨74, _⟩ => ⟨S8000x128, .f32⟩
  | .local _ .vmem, ⟨75, _⟩ => ⟨S2000x128, .f32⟩
  | .local _ .vmem, ⟨76, _⟩ => ⟨S2000x128, .f32⟩
  | .local _ .vmem, ⟨77, _⟩ => ⟨S1x128, .f32⟩
  | .local _ .vmem, ⟨78, _⟩ => ⟨S2000x128, .f32⟩
  | .local _ .vmem, ⟨79, _⟩ => ⟨S2000x128, .f32⟩
  | .local _ .vmem, ⟨80, _⟩ => ⟨S2000x128, .f32⟩
  | .local _ .vmem, ⟨81, _⟩ => ⟨S2000x128, .f32⟩
  | .local _ .vmem, ⟨82, _⟩ => ⟨S128x128, .f32⟩
  | .local _ .vmem, ⟨83, _⟩ => ⟨S2000x128, .f32⟩
  | .local _ .vmem, ⟨84, _⟩ => ⟨S2000x128, .f32⟩
  | .local _ .vmem, ⟨85, _⟩ => ⟨S8000x128, .f32⟩
  | .local _ .vmem, ⟨86, _⟩ => ⟨S8000x128, .f32⟩
  | .local _ .vmem, ⟨87, _⟩ => ⟨S8000x1, .f32⟩
  | .local _ .vmem, ⟨88, _⟩ => ⟨S8000x1, .f32⟩
  | .local _ .vmem, ⟨89, _⟩ => ⟨S8000x128, .f32⟩
  | .local _ .vmem, ⟨90, _⟩ => ⟨S8000x128, .f32⟩
  | .local _ .vmem, ⟨91, _⟩ => ⟨S2000x128, .f32⟩
  | .local _ .vmem, ⟨92, _⟩ => ⟨S2000x128, .f32⟩
  | .local _ .vmem, ⟨93, _⟩ => ⟨S1x128, .f32⟩
  | .local _ .vmem, ⟨94, _⟩ => ⟨S2000x128, .f32⟩
  | .local _ .vmem, ⟨95, _⟩ => ⟨S2000x128, .f32⟩
  | .local _ .vmem, ⟨96, _⟩ => ⟨S2000x128, .f32⟩
  | .local _ .vmem, ⟨97, _⟩ => ⟨S2000x128, .f32⟩
  | .local _ .vmem, ⟨98, _⟩ => ⟨S128x128, .f32⟩
  | .local _ .vmem, ⟨99, _⟩ => ⟨S2000x128, .f32⟩
  | .local _ .vmem, ⟨100, _⟩ => ⟨S2000x128, .f32⟩
  | .local _ .vmem, ⟨101, _⟩ => ⟨S8000x128, .f32⟩
  | .local _ .vmem, ⟨102, _⟩ => ⟨S8000x128, .f32⟩
  | .local _ .vmem, ⟨103, _⟩ => ⟨S8000x1, .f32⟩
  | .local _ .vmem, ⟨104, _⟩ => ⟨S8000x1, .f32⟩
  | .local _ .vmem, ⟨105, _⟩ => ⟨S8000x128, .f32⟩
  | .local _ .vmem, ⟨106, _⟩ => ⟨S8000x128, .f32⟩
  | .local _ .vmem, ⟨107, _⟩ => ⟨S2000x128, .f32⟩
  | .local _ .vmem, ⟨108, _⟩ => ⟨S2000x128, .f32⟩
  | .local _ .vmem, ⟨109, _⟩ => ⟨S1x128, .f32⟩
  | .local _ .vmem, ⟨110, _⟩ => ⟨S2000x128, .f32⟩
  | .local _ .vmem, ⟨111, _⟩ => ⟨S2000x128, .f32⟩
  | .local _ .vmem, ⟨112, _⟩ => ⟨S2000x128, .f32⟩
  | .local _ .vmem, ⟨113, _⟩ => ⟨S2000x128, .f32⟩
  | .local _ .vmem, ⟨114, _⟩ => ⟨S128x128, .f32⟩
  | .local _ .vmem, ⟨115, _⟩ => ⟨S2000x128, .f32⟩
  | .local _ .vmem, ⟨116, _⟩ => ⟨S2000x128, .f32⟩
  | .local _ .vmem, ⟨117, _⟩ => ⟨S8000x128, .f32⟩
  | .local _ .vmem, ⟨118, _⟩ => ⟨S8000x128, .f32⟩
  | .local _ .vmem, ⟨119, _⟩ => ⟨S8000x1, .f32⟩
  | .local _ .vmem, ⟨120, _⟩ => ⟨S8000x1, .f32⟩
  | .local _ .vmem, ⟨121, _⟩ => ⟨S8000x128, .f32⟩
  | .local _ .vmem, ⟨122, _⟩ => ⟨S8000x128, .f32⟩
  | .local _ .vmem, ⟨123, _⟩ => ⟨S2000x128, .f32⟩
  | .local _ .vmem, ⟨124, _⟩ => ⟨S2000x128, .f32⟩
  | .local _ .vmem, ⟨125, _⟩ => ⟨S1x128, .f32⟩
  | .local _ .vmem, ⟨126, _⟩ => ⟨S2000x128, .f32⟩
  | .local _ .vmem, ⟨127, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | .vmem, ⟨120, _⟩ => true
  | .vmem, ⟨121, _⟩ => true
  | .vmem, ⟨122, _⟩ => true
  | .vmem, ⟨123, _⟩ => true
  | .vmem, ⟨124, _⟩ => true
  | .vmem, ⟨125, _⟩ => true
  | .vmem, ⟨126, _⟩ => true
  | .vmem, ⟨127, _⟩ => true
  | _, _ => false

abbrev semScoped : Fin 0 → Bool
  | ⟨_, h⟩ => absurd h (Nat.not_lt_zero _)

abbrev dmaSemScoped : Fin 128 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | ⟨127, _⟩ => true
  | _ => false

abbrev sig : RefSig :=
  ofTc nBuf bufTy 0 128 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_4 : Ref sig .tc := ⟨.hbm, 54, rfl⟩
abbrev main_v41 : Ref sig .tc := ⟨.hbm, 55, rfl⟩
abbrev main_v42 : Ref sig .tc := ⟨.hbm, 56, rfl⟩
abbrev main_c_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_c_7 : Ref sig .tc := ⟨.hbm, 76, rfl⟩
abbrev main_v60 : Ref sig .tc := ⟨.hbm, 77, rfl⟩
abbrev main_v61 : Ref sig .tc := ⟨.hbm, 78, rfl⟩
abbrev main_c_8 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_9 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_c_10 : Ref sig .tc := ⟨.hbm, 98, rfl⟩
abbrev main_v79 : Ref sig .tc := ⟨.hbm, 99, rfl⟩
abbrev main_v80 : Ref sig .tc := ⟨.hbm, 100, rfl⟩
abbrev main_c_11 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_cst_12 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_c_13 : Ref sig .tc := ⟨.hbm, 120, rfl⟩
abbrev main_v98 : Ref sig .tc := ⟨.hbm, 121, rfl⟩
abbrev main_v99 : Ref sig .tc := ⟨.hbm, 122, rfl⟩
abbrev main_c_14 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_cst_15 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_c_16 : Ref sig .tc := ⟨.hbm, 142, rfl⟩
abbrev main_v117 : Ref sig .tc := ⟨.hbm, 143, rfl⟩
abbrev main_v118 : Ref sig .tc := ⟨.hbm, 144, rfl⟩
abbrev main_c_17 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_cst_18 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_c_19 : Ref sig .tc := ⟨.hbm, 164, rfl⟩
abbrev main_v136 : Ref sig .tc := ⟨.hbm, 165, rfl⟩
abbrev main_v137 : Ref sig .tc := ⟨.hbm, 166, rfl⟩
abbrev main_c_20 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_cst_21 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_cst_22 : Ref sig .tc := ⟨.hbm, 187, rfl⟩
abbrev main_v156 : Ref sig .tc := ⟨.hbm, 188, rfl⟩
abbrev main_cst_23 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_cst_24 : Ref sig .tc := ⟨.hbm, 196, rfl⟩
abbrev main_v163 : Ref sig .tc := ⟨.hbm, 197, rfl⟩
abbrev main_cst_25 : Ref sig .tc := ⟨.hbm, 198, rfl⟩
abbrev main_v164 : Ref sig .tc := ⟨.hbm, 199, rfl⟩
abbrev main_v165 : Ref sig .tc := ⟨.hbm, 200, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg1_1 : Ref sig .tc := ⟨.vmem, 40, rfl⟩
abbrev cc7_stg2_0 : Ref sig .tc := ⟨.vmem, 41, rfl⟩
abbrev cc7_stg2_1 : Ref sig .tc := ⟨.vmem, 42, rfl⟩
abbrev cc8_stg0_0 : Ref sig .tc := ⟨.vmem, 43, rfl⟩
abbrev cc8_stg0_1 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg2_1 : Ref sig .tc := ⟨.vmem, 47, rfl⟩
abbrev cc9_stg0_0 : Ref sig .tc := ⟨.vmem, 48, rfl⟩
abbrev cc9_stg0_1 : Ref sig .tc := ⟨.vmem, 49, rfl⟩
abbrev cc9_stg1_0 : Ref sig .tc := ⟨.vmem, 50, rfl⟩
abbrev cc9_stg2_0 : Ref sig .tc := ⟨.vmem, 51, rfl⟩
abbrev cc9_stg2_1 : Ref sig .tc := ⟨.vmem, 52, rfl⟩
abbrev cc10_stg0_0 : Ref sig .tc := ⟨.vmem, 53, rfl⟩
abbrev cc10_stg0_1 : Ref sig .tc := ⟨.vmem, 54, rfl⟩
abbrev cc10_stg1_0 : Ref sig .tc := ⟨.vmem, 55, rfl⟩
abbrev cc10_stg1_1 : Ref sig .tc := ⟨.vmem, 56, rfl⟩
abbrev cc10_stg2_0 : Ref sig .tc := ⟨.vmem, 57, rfl⟩
abbrev cc10_stg2_1 : Ref sig .tc := ⟨.vmem, 58, rfl⟩
abbrev cc11_stg0_0 : Ref sig .tc := ⟨.vmem, 59, rfl⟩
abbrev cc11_stg0_1 : Ref sig .tc := ⟨.vmem, 60, rfl⟩
abbrev cc11_stg1_0 : Ref sig .tc := ⟨.vmem, 61, rfl⟩
abbrev cc11_stg2_0 : Ref sig .tc := ⟨.vmem, 62, rfl⟩
abbrev cc11_stg2_1 : Ref sig .tc := ⟨.vmem, 63, rfl⟩
abbrev cc12_stg0_0 : Ref sig .tc := ⟨.vmem, 64, rfl⟩
abbrev cc12_stg0_1 : Ref sig .tc := ⟨.vmem, 65, rfl⟩
abbrev cc12_stg1_0 : Ref sig .tc := ⟨.vmem, 66, rfl⟩
abbrev cc12_stg2_0 : Ref sig .tc := ⟨.vmem, 67, rfl⟩
abbrev cc12_stg2_1 : Ref sig .tc := ⟨.vmem, 68, rfl⟩
abbrev cc13_stg0_0 : Ref sig .tc := ⟨.vmem, 69, rfl⟩
abbrev cc13_stg0_1 : Ref sig .tc := ⟨.vmem, 70, rfl⟩
abbrev cc13_stg1_0 : Ref sig .tc := ⟨.vmem, 71, rfl⟩
abbrev cc13_stg1_1 : Ref sig .tc := ⟨.vmem, 72, rfl⟩
abbrev cc13_stg2_0 : Ref sig .tc := ⟨.vmem, 73, rfl⟩
abbrev cc13_stg2_1 : Ref sig .tc := ⟨.vmem, 74, rfl⟩
abbrev cc14_stg0_0 : Ref sig .tc := ⟨.vmem, 75, rfl⟩
abbrev cc14_stg0_1 : Ref sig .tc := ⟨.vmem, 76, rfl⟩
abbrev cc14_stg1_0 : Ref sig .tc := ⟨.vmem, 77, rfl⟩
abbrev cc14_stg2_0 : Ref sig .tc := ⟨.vmem, 78, rfl⟩
abbrev cc14_stg2_1 : Ref sig .tc := ⟨.vmem, 79, rfl⟩
abbrev cc15_stg0_0 : Ref sig .tc := ⟨.vmem, 80, rfl⟩
abbrev cc15_stg0_1 : Ref sig .tc := ⟨.vmem, 81, rfl⟩
abbrev cc15_stg1_0 : Ref sig .tc := ⟨.vmem, 82, rfl⟩
abbrev cc15_stg2_0 : Ref sig .tc := ⟨.vmem, 83, rfl⟩
abbrev cc15_stg2_1 : Ref sig .tc := ⟨.vmem, 84, rfl⟩
abbrev cc16_stg0_0 : Ref sig .tc := ⟨.vmem, 85, rfl⟩
abbrev cc16_stg0_1 : Ref sig .tc := ⟨.vmem, 86, rfl⟩
abbrev cc16_stg1_0 : Ref sig .tc := ⟨.vmem, 87, rfl⟩
abbrev cc16_stg1_1 : Ref sig .tc := ⟨.vmem, 88, rfl⟩
abbrev cc16_stg2_0 : Ref sig .tc := ⟨.vmem, 89, rfl⟩
abbrev cc16_stg2_1 : Ref sig .tc := ⟨.vmem, 90, rfl⟩
abbrev cc17_stg0_0 : Ref sig .tc := ⟨.vmem, 91, rfl⟩
abbrev cc17_stg0_1 : Ref sig .tc := ⟨.vmem, 92, rfl⟩
abbrev cc17_stg1_0 : Ref sig .tc := ⟨.vmem, 93, rfl⟩
abbrev cc17_stg2_0 : Ref sig .tc := ⟨.vmem, 94, rfl⟩
abbrev cc17_stg2_1 : Ref sig .tc := ⟨.vmem, 95, rfl⟩
abbrev cc18_stg0_0 : Ref sig .tc := ⟨.vmem, 96, rfl⟩
abbrev cc18_stg0_1 : Ref sig .tc := ⟨.vmem, 97, rfl⟩
abbrev cc18_stg1_0 : Ref sig .tc := ⟨.vmem, 98, rfl⟩
abbrev cc18_stg2_0 : Ref sig .tc := ⟨.vmem, 99, rfl⟩
abbrev cc18_stg2_1 : Ref sig .tc := ⟨.vmem, 100, rfl⟩
abbrev cc19_stg0_0 : Ref sig .tc := ⟨.vmem, 101, rfl⟩
abbrev cc19_stg0_1 : Ref sig .tc := ⟨.vmem, 102, rfl⟩
abbrev cc19_stg1_0 : Ref sig .tc := ⟨.vmem, 103, rfl⟩
abbrev cc19_stg1_1 : Ref sig .tc := ⟨.vmem, 104, rfl⟩
abbrev cc19_stg2_0 : Ref sig .tc := ⟨.vmem, 105, rfl⟩
abbrev cc19_stg2_1 : Ref sig .tc := ⟨.vmem, 106, rfl⟩
abbrev cc20_stg0_0 : Ref sig .tc := ⟨.vmem, 107, rfl⟩
abbrev cc20_stg0_1 : Ref sig .tc := ⟨.vmem, 108, rfl⟩
abbrev cc20_stg1_0 : Ref sig .tc := ⟨.vmem, 109, rfl⟩
abbrev cc20_stg2_0 : Ref sig .tc := ⟨.vmem, 110, rfl⟩
abbrev cc20_stg2_1 : Ref sig .tc := ⟨.vmem, 111, rfl⟩
abbrev cc21_stg0_0 : Ref sig .tc := ⟨.vmem, 112, rfl⟩
abbrev cc21_stg0_1 : Ref sig .tc := ⟨.vmem, 113, rfl⟩
abbrev cc21_stg1_0 : Ref sig .tc := ⟨.vmem, 114, rfl⟩
abbrev cc21_stg2_0 : Ref sig .tc := ⟨.vmem, 115, rfl⟩
abbrev cc21_stg2_1 : Ref sig .tc := ⟨.vmem, 116, rfl⟩
abbrev cc22_stg0_0 : Ref sig .tc := ⟨.vmem, 117, rfl⟩
abbrev cc22_stg0_1 : Ref sig .tc := ⟨.vmem, 118, rfl⟩
abbrev cc22_stg1_0 : Ref sig .tc := ⟨.vmem, 119, rfl⟩
abbrev cc22_stg1_1 : Ref sig .tc := ⟨.vmem, 120, rfl⟩
abbrev cc22_stg2_0 : Ref sig .tc := ⟨.vmem, 121, rfl⟩
abbrev cc22_stg2_1 : Ref sig .tc := ⟨.vmem, 122, rfl⟩
abbrev cc23_stg0_0 : Ref sig .tc := ⟨.vmem, 123, rfl⟩
abbrev cc23_stg0_1 : Ref sig .tc := ⟨.vmem, 124, rfl⟩
abbrev cc23_stg1_0 : Ref sig .tc := ⟨.vmem, 125, rfl⟩
abbrev cc23_stg2_0 : Ref sig .tc := ⟨.vmem, 126, rfl⟩
abbrev cc23_stg2_1 : Ref sig .tc := ⟨.vmem, 127, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem1_1 : DmaSem sig := 40
abbrev cc7_sem2_0 : DmaSem sig := 41
abbrev cc7_sem2_1 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem2_1 : DmaSem sig := 47
abbrev cc9_sem0_0 : DmaSem sig := 48
abbrev cc9_sem0_1 : DmaSem sig := 49
abbrev cc9_sem1_0 : DmaSem sig := 50
abbrev cc9_sem2_0 : DmaSem sig := 51
abbrev cc9_sem2_1 : DmaSem sig := 52
abbrev cc10_sem0_0 : DmaSem sig := 53
abbrev cc10_sem0_1 : DmaSem sig := 54
abbrev cc10_sem1_0 : DmaSem sig := 55
abbrev cc10_sem1_1 : DmaSem sig := 56
abbrev cc10_sem2_0 : DmaSem sig := 57
abbrev cc10_sem2_1 : DmaSem sig := 58
abbrev cc11_sem0_0 : DmaSem sig := 59
abbrev cc11_sem0_1 : DmaSem sig := 60
abbrev cc11_sem1_0 : DmaSem sig := 61
abbrev cc11_sem2_0 : DmaSem sig := 62
abbrev cc11_sem2_1 : DmaSem sig := 63
abbrev cc12_sem0_0 : DmaSem sig := 64
abbrev cc12_sem0_1 : DmaSem sig := 65
abbrev cc12_sem1_0 : DmaSem sig := 66
abbrev cc12_sem2_0 : DmaSem sig := 67
abbrev cc12_sem2_1 : DmaSem sig := 68
abbrev cc13_sem0_0 : DmaSem sig := 69
abbrev cc13_sem0_1 : DmaSem sig := 70
abbrev cc13_sem1_0 : DmaSem sig := 71
abbrev cc13_sem1_1 : DmaSem sig := 72
abbrev cc13_sem2_0 : DmaSem sig := 73
abbrev cc13_sem2_1 : DmaSem sig := 74
abbrev cc14_sem0_0 : DmaSem sig := 75
abbrev cc14_sem0_1 : DmaSem sig := 76
abbrev cc14_sem1_0 : DmaSem sig := 77
abbrev cc14_sem2_0 : DmaSem sig := 78
abbrev cc14_sem2_1 : DmaSem sig := 79
abbrev cc15_sem0_0 : DmaSem sig := 80
abbrev cc15_sem0_1 : DmaSem sig := 81
abbrev cc15_sem1_0 : DmaSem sig := 82
abbrev cc15_sem2_0 : DmaSem sig := 83
abbrev cc15_sem2_1 : DmaSem sig := 84
abbrev cc16_sem0_0 : DmaSem sig := 85
abbrev cc16_sem0_1 : DmaSem sig := 86
abbrev cc16_sem1_0 : DmaSem sig := 87
abbrev cc16_sem1_1 : DmaSem sig := 88
abbrev cc16_sem2_0 : DmaSem sig := 89
abbrev cc16_sem2_1 : DmaSem sig := 90
abbrev cc17_sem0_0 : DmaSem sig := 91
abbrev cc17_sem0_1 : DmaSem sig := 92
abbrev cc17_sem1_0 : DmaSem sig := 93
abbrev cc17_sem2_0 : DmaSem sig := 94
abbrev cc17_sem2_1 : DmaSem sig := 95
abbrev cc18_sem0_0 : DmaSem sig := 96
abbrev cc18_sem0_1 : DmaSem sig := 97
abbrev cc18_sem1_0 : DmaSem sig := 98
abbrev cc18_sem2_0 : DmaSem sig := 99
abbrev cc18_sem2_1 : DmaSem sig := 100
abbrev cc19_sem0_0 : DmaSem sig := 101
abbrev cc19_sem0_1 : DmaSem sig := 102
abbrev cc19_sem1_0 : DmaSem sig := 103
abbrev cc19_sem1_1 : DmaSem sig := 104
abbrev cc19_sem2_0 : DmaSem sig := 105
abbrev cc19_sem2_1 : DmaSem sig := 106
abbrev cc20_sem0_0 : DmaSem sig := 107
abbrev cc20_sem0_1 : DmaSem sig := 108
abbrev cc20_sem1_0 : DmaSem sig := 109
abbrev cc20_sem2_0 : DmaSem sig := 110
abbrev cc20_sem2_1 : DmaSem sig := 111
abbrev cc21_sem0_0 : DmaSem sig := 112
abbrev cc21_sem0_1 : DmaSem sig := 113
abbrev cc21_sem1_0 : DmaSem sig := 114
abbrev cc21_sem2_0 : DmaSem sig := 115
abbrev cc21_sem2_1 : DmaSem sig := 116
abbrev cc22_sem0_0 : DmaSem sig := 117
abbrev cc22_sem0_1 : DmaSem sig := 118
abbrev cc22_sem1_0 : DmaSem sig := 119
abbrev cc22_sem1_1 : DmaSem sig := 120
abbrev cc22_sem2_0 : DmaSem sig := 121
abbrev cc22_sem2_1 : DmaSem sig := 122
abbrev cc23_sem0_0 : DmaSem sig := 123
abbrev cc23_sem0_1 : DmaSem sig := 124
abbrev cc23_sem1_0 : DmaSem sig := 125
abbrev cc23_sem2_0 : DmaSem sig := 126
abbrev cc23_sem2_1 : DmaSem sig := 127

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![75], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![75], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![75], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S8000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S8000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S2000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S2000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![75], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S8000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S8000x1 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S8000x128 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S2000x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![50], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S2000x128 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![75], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S8000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S8000x1 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S8000x128 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![25], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S2000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 2 → Memref sig .tc .vmem S2000x128 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![25], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S2000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S128x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 2 → Memref sig .tc .vmem S2000x128 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![75], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S8000x128 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S8000x1 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S8000x128 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev grid17 : Pipeline.Grid := ⟨1, ![50], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S2000x128 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S1x128 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 2 → Memref sig .tc .vmem S2000x128 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev grid18 : Pipeline.Grid := ⟨1, ![25], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S2000x128 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S128x128 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 2 → Memref sig .tc .vmem S2000x128 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev grid19 : Pipeline.Grid := ⟨1, ![75], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S8000x128 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S8000x1 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev stage19_2 : Fin 2 → Memref sig .tc .vmem S8000x128 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev grid20 : Pipeline.Grid := ⟨1, ![50], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_2 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S2000x128 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 1 → Memref sig .tc .vmem S1x128 .f32 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))
abbrev reads20_1 : Fin grid20.rank → Bool := ![false]

abbrev stage20_2 : Fin 2 → Memref sig .tc .vmem S2000x128 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![true]

abbrev grid21 : Pipeline.Grid := ⟨1, ![50], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_2 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S2000x128 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 1 → Memref sig .tc .vmem S128x128 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![false]

abbrev stage21_2 : Fin 2 → Memref sig .tc .vmem S2000x128 .f32 := fun | 0 => Memref.whole cc21_stg2_0 | 1 => Memref.whole cc21_stg2_1 | ⟨_ + 2, h⟩ => absurd h (Nat.not_lt.2 (Nat.le_add_left _ _))
abbrev sem21_2 : Fin 2 → DmaSem sig := fun | 0 => cc21_sem2_0 | 1 => cc21_sem2_1 | ⟨_ + 2, h⟩ => absurd h (Nat.not_lt.2 (Nat.le_add_left _ _))
abbrev reads21_2 : Fin grid21.rank → Bool := ![true]

abbrev grid22 : Pipeline.Grid := ⟨1, ![75], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_2 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage22_0 : Fin 2 → Memref sig .tc .vmem S8000x128 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 2 → Memref sig .tc .vmem S8000x1 .f32 := fun | 0 => Memref.whole cc22_stg1_0 | 1 => Memref.whole cc22_stg1_1 | ⟨_ + 2, h⟩ => absurd h (Nat.not_lt.2 (Nat.le_add_left _ _))
abbrev sem22_1 : Fin 2 → DmaSem sig := fun | 0 => cc22_sem1_0 | 1 => cc22_sem1_1 | ⟨_ + 2, h⟩ => absurd h (Nat.not_lt.2 (Nat.le_add_left _ _))
abbrev reads22_1 : Fin grid22.rank → Bool := ![true]

abbrev stage22_2 : Fin 2 → Memref sig .tc .vmem S8000x128 .f32 := fun | 0 => Memref.whole cc22_stg2_0 | 1 => Memref.whole cc22_stg2_1 | ⟨_ + 2, h⟩ => absurd h (Nat.not_lt.2 (Nat.le_add_left _ _))
abbrev sem22_2 : Fin 2 → DmaSem sig := fun | 0 => cc22_sem2_0 | 1 => cc22_sem2_1 | ⟨_ + 2, h⟩ => absurd h (Nat.not_lt.2 (Nat.le_add_left _ _))
abbrev reads22_2 : Fin grid22.rank → Bool := ![true]

abbrev grid23 : Pipeline.Grid := ⟨1, ![25], ![false]⟩

def cc23_transform_0 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_1 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_2 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage23_0 : Fin 2 → Memref sig .tc .vmem S2000x128 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true]

abbrev stage23_1 : Fin 1 → Memref sig .tc .vmem S1x128 .f32 := fun | 0 => Memref.whole cc23_stg1_0 | ⟨_ + 1, h⟩ => absurd h (Nat.not_lt.2 (Nat.le_add_left _ _))
abbrev sem23_1 : Fin 1 → DmaSem sig := fun | 0 => cc23_sem1_0 | ⟨_ + 1, h⟩ => absurd h (Nat.not_lt.2 (Nat.le_add_left _ _))
abbrev reads23_1 : Fin grid23.rank → Bool := ![false]

abbrev stage23_2 : Fin 2 → Memref sig .tc .vmem S2000x128 .f32 := fun | 0 => Memref.whole cc23_stg2_0 | 1 => Memref.whole cc23_stg2_1 | ⟨_ + 2, h⟩ => absurd h (Nat.not_lt.2 (Nat.le_add_left _ _))
abbrev sem23_2 : Fin 2 → DmaSem sig := fun | 0 => cc23_sem2_0 | 1 => cc23_sem2_1 | ⟨_ + 2, h⟩ => absurd h (Nat.not_lt.2 (Nat.le_add_left _ _))
abbrev reads23_2 : Fin grid23.rank → Bool := ![true]

class Facts₀ : Prop where
  slices_S2x4x128x128_S1x1x128x128_0_0_0_0 : S2x4x128x128.Slices ![0, 0, 0, 0] S1x1x128x128
  shapeCasts_S1x1x128x128_S128x128 : S1x1x128x128.ShapeCasts S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S600000 : S_.BroadcastsInDim S600000 (![] : Fin 0 → Fin S600000.rank)
  bcast_S600000_S600000x1_0 : S600000.BroadcastsInDim S600000x1 (![0] : Fin 1 → Fin S600000x1.rank)
  shapeCasts_S600000_S600000x1 : S600000.ShapeCasts S600000x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x128 : S8000x1.Broadcasts S8000x128
  bcast_S_S50000x128 : S_.BroadcastsInDim S50000x128 (![] : Fin 0 → Fin S50000x128.rank)
  slices_S2x4x128_S1x1x128_0_0_0 : S2x4x128.Slices ![0, 0, 0] S1x1x128
  shapeCasts_S1x1x128_S128 : S1x1x128.ShapeCasts S128
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S2x4x128x128_S1x1x128x128_0_1_0_0 : S2x4x128x128.Slices ![0, 1, 0, 0] S1x1x128x128
  bcast_S_S100000x128 : S_.BroadcastsInDim S100000x128 (![] : Fin 0 → Fin S100000x128.rank)
  slices_S2x4x128_S1x1x128_0_1_0 : S2x4x128.Slices ![0, 1, 0] S1x1x128
  slices_S2x4x128x128_S1x1x128x128_0_2_0_0 : S2x4x128x128.Slices ![0, 2, 0, 0] S1x1x128x128
  slices_S2x4x128_S1x1x128_0_2_0 : S2x4x128.Slices ![0, 2, 0] S1x1x128
  slices_S2x4x128x128_S1x1x128x128_0_3_0_0 : S2x4x128x128.Slices ![0, 3, 0, 0] S1x1x128x128
  slices_S2x4x128_S1x1x128_0_3_0 : S2x4x128.Slices ![0, 3, 0] S1x1x128
  slices_S2x4x128x128_S1x1x128x128_1_0_0_0 : S2x4x128x128.Slices ![1, 0, 0, 0] S1x1x128x128
  slices_S2x4x128_S1x1x128_1_0_0 : S2x4x128.Slices ![1, 0, 0] S1x1x128
  slices_S2x4x128x128_S1x1x128x128_1_1_0_0 : S2x4x128x128.Slices ![1, 1, 0, 0] S1x1x128x128
  slices_S2x4x128_S1x1x128_1_1_0 : S2x4x128.Slices ![1, 1, 0] S1x1x128
  slices_S2x4x128x128_S1x1x128x128_1_2_0_0 : S2x4x128x128.Slices ![1, 2, 0, 0] S1x1x128x128
  slices_S2x4x128_S1x1x128_1_2_0 : S2x4x128.Slices ![1, 2, 0] S1x1x128
  slices_S2x4x128x128_S1x1x128x128_1_3_0_0 : S2x4x128x128.Slices ![1, 3, 0, 0] S1x1x128x128
  slices_S2x4x128_S1x1x128_1_3_0 : S2x4x128.Slices ![1, 3, 0] S1x1x128
  bcast_S100000x128_S100000x1x128_0_2 : S100000x128.BroadcastsInDim S100000x1x128 (![0, 2] : Fin 2 → Fin S100000x1x128.rank)
  concatenates_S100000x1x128_S100000x1x128_S100000x1x128_S100000x3x128_d1 : Shape.Concatenates [S100000x1x128, S100000x1x128, S100000x1x128] S100000x3x128 1
  reducesTo_S100000x3x128_S100000x128_d1 : S100000x3x128.ReducesTo [1] S100000x128
  h_S_ : 0 < S_.numel
  bcast_S50000x128_S50000x1x128_0_2 : S50000x128.BroadcastsInDim S50000x1x128 (![0, 2] : Fin 2 → Fin S50000x1x128.rank)
  concatenates_S50000x1x128_S50000x1x128_S50000x1x128_S50000x3x128_d1 : Shape.Concatenates [S50000x1x128, S50000x1x128, S50000x1x128] S50000x3x128 1
  reducesTo_S50000x3x128_S50000x128_d1 : S50000x3x128.ReducesTo [1] S50000x128
  dot_S2000x128_S128x128_S2000x128_1_0_0_1_n_n_wf : DotDims.WF S2000x128 S128x128 S2000x128 [1] [0] [0] [1] [] []
  gather_S100000x128_S600000x1_S600000x128_1_0_n_n_0_1_1128_wf : GatherDims.WF S100000x128 S600000x1 S600000x128 [1] [0] [] [0] [] 1 ![1, 128]
  scatter_S50000x128_S600000x1_S600000x128_1_0_0_1_wf : ScatterDims.WF S50000x128 S600000x1 S600000x128 [1] [0] [0] 1
  gather_S50000x128_S600000x1_S600000x128_1_0_n_n_0_1_1128_wf : GatherDims.WF S50000x128 S600000x1 S600000x128 [1] [0] [] [0] [] 1 ![1, 128]
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S600000x128.size a
  hwx1_0 : ∀ i : grid1.Coords, EltTy.bits .f32 = 32 ∨ (Rect.block (s := S600000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S600000x1.size a
  hwx1_1 : ∀ i : grid1.Coords, EltTy.bits .f32 = 32 ∨ (Rect.block (s := S600000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S600000x128.size a
  hwx1_2 : ∀ i : grid1.Coords, EltTy.bits .f32 = 32 ∨ (Rect.block (s := S600000x128) S8000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S600000x128.size a
  hwx4_0 : ∀ i : grid4.Coords, EltTy.bits .f32 = 32 ∨ (Rect.block (s := S600000x128) S8000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x1.size a ≤ S600000x1.size a
  hwx4_1 : ∀ i : grid4.Coords, EltTy.bits .f32 = 32 ∨ (Rect.block (s := S600000x1) S8000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x128.size a ≤ S600000x128.size a
  hwx4_2 : ∀ i : grid4.Coords, EltTy.bits .f32 = 32 ∨ (Rect.block (s := S600000x128) S8000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S100000x128.size a
  hwx5_2 : ∀ i : grid5.Coords, EltTy.bits .f32 = 32 ∨ (Rect.block (s := S100000x128) S2000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S50000x128.size a
  hwx6_2 : ∀ i : grid6.Coords, EltTy.bits .f32 = 32 ∨ (Rect.block (s := S50000x128) S2000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8000x128.size a ≤ S600000x128.size a
  hwx7_0 : ∀ i : grid7.Coords, EltTy.bits .f32 = 32 ∨ (Rect.block (s := S600000x128) S8000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S8000x1.size a ≤ S600000x1.size a
  hwx7_1 : ∀ i : grid7.Coords, EltTy.bits .f32 = 32 ∨ (Rect.block (s := S600000x1) S8000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S8000x128.size a ≤ S600000x128.size a
  hwx7_2 : ∀ i : grid7.Coords, EltTy.bits .f32 = 32 ∨ (Rect.block (s := S600000x128) S8000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S100000x128.size a
  hwx8_0 : ∀ i : grid8.Coords, EltTy.bits .f32 = 32 ∨ (Rect.block (s := S100000x128) S2000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x128.size a ≤ S100000x128.size a
  hwx8_2 : ∀ i : grid8.Coords, EltTy.bits .f32 = 32 ∨ (Rect.block (s := S100000x128) S2000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S100000x128.size a
  hwx9_0 : ∀ i : grid9.Coords, EltTy.bits .f32 = 32 ∨ (Rect.block (s := S100000x128) S2000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x128.size a ≤ S100000x128.size a
  hwx9_2 : ∀ i : grid9.Coords, EltTy.bits .f32 = 32 ∨ (Rect.block (s := S100000x128) S2000x128.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S8000x128.size a ≤ S600000x128.size a
  hwx10_0 : ∀ i : grid10.Coords, EltTy.bits .f32 = 32 ∨ (Rect.block (s := S600000x128) S8000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S8000x1.size a ≤ S600000x1.size a
  hwx10_1 : ∀ i : grid10.Coords, EltTy.bits .f32 = 32 ∨ (Rect.block (s := S600000x1) S8000x1.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S8000x128.size a ≤ S600000x128.size a
  hwx10_2 : ∀ i : grid10.Coords, EltTy.bits .f32 = 32 ∨ (Rect.block (s := S600000x128) S8000x128.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S50000x128.size a
  hwx11_0 : ∀ i : grid11.Coords, EltTy.bits .f32 = 32 ∨ (Rect.block (s := S50000x128) S2000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S2000x128.size a ≤ S50000x128.size a
  hwx11_2 : ∀ i : grid11.Coords, EltTy.bits .f32 = 32 ∨ (Rect.block (s := S50000x128) S2000x128.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x128.size a ≤ S100000x128.size a
  hwx12_0 : ∀ i : grid12.Coords, EltTy.bits .f32 = 32 ∨ (Rect.block (s := S100000x128) S2000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S2000x128.size a ≤ S100000x128.size a
  hwx12_2 : ∀ i : grid12.Coords, EltTy.bits .f32 = 32 ∨ (Rect.block (s := S100000x128) S2000x128.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S8000x128.size a ≤ S600000x128.size a
  hwx13_0 : ∀ i : grid13.Coords, EltTy.bits .f32 = 32 ∨ (Rect.block (s := S600000x128) S8000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S8000x1.size a ≤ S600000x1.size a
  hwx13_1 : ∀ i : grid13.Coords, EltTy.bits .f32 = 32 ∨ (Rect.block (s := S600000x1) S8000x1.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S8000x128.size a ≤ S600000x128.size a
  hwx13_2 : ∀ i : grid13.Coords, EltTy.bits .f32 = 32 ∨ (Rect.block (s := S600000x128) S8000x128.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x128.size a ≤ S50000x128.size a
  hwx14_0 : ∀ i : grid14.Coords, EltTy.bits .f32 = 32 ∨ (Rect.block (s := S50000x128) S2000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x128.size a ≤ S1x128.size a
  hwx14_1 : ∀ i : grid14.Coords, EltTy.bits .f32 = 32 ∨ (Rect.block (s := S1x128) S1x128.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S2000x128.size a ≤ S50000x128.size a
  hwx14_2 : ∀ i : grid14.Coords, EltTy.bits .f32 = 32 ∨ (Rect.block (s := S50000x128) S2000x128.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S2000x128.size a ≤ S50000x128.size a
  hwx15_0 : ∀ i : grid15.Coords, EltTy.bits .f32 = 32 ∨ (Rect.block (s := S50000x128) S2000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S128x128.size a ≤ S128x128.size a
  hwx15_1 : ∀ i : grid15.Coords, EltTy.bits .f32 = 32 ∨ (Rect.block (s := S128x128) S128x128.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S2000x128.size a ≤ S50000x128.size a
  hwx15_2 : ∀ i : grid15.Coords, EltTy.bits .f32 = 32 ∨ (Rect.block (s := S50000x128) S2000x128.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S8000x128.size a ≤ S600000x128.size a
  hwx16_0 : ∀ i : grid16.Coords, EltTy.bits .f32 = 32 ∨ (Rect.block (s := S600000x128) S8000x128.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S8000x1.size a ≤ S600000x1.size a
  hwx16_1 : ∀ i : grid16.Coords, EltTy.bits .f32 = 32 ∨ (Rect.block (s := S600000x1) S8000x1.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S8000x128.size a ≤ S600000x128.size a
  hwx16_2 : ∀ i : grid16.Coords, EltTy.bits .f32 = 32 ∨ (Rect.block (s := S600000x128) S8000x128.size (cc16_transform_2 i) (hinb16_2 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S2000x128.size a ≤ S100000x128.size a
  hwx17_0 : ∀ i : grid17.Coords, EltTy.bits .f32 = 32 ∨ (Rect.block (s := S100000x128) S2000x128.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S1x128.size a ≤ S1x128.size a
  hwx17_1 : ∀ i : grid17.Coords, EltTy.bits .f32 = 32 ∨ (Rect.block (s := S1x128) S1x128.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S2000x128.size a ≤ S100000x128.size a
  hwx17_2 : ∀ i : grid17.Coords, EltTy.bits .f32 = 32 ∨ (Rect.block (s := S100000x128) S2000x128.size (cc17_transform_2 i) (hinb17_2 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S2000x128.size a ≤ S50000x128.size a
  hwx18_0 : ∀ i : grid18.Coords, EltTy.bits .f32 = 32 ∨ (Rect.block (s := S50000x128) S2000x128.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S128x128.size a ≤ S128x128.size a
  hwx18_1 : ∀ i : grid18.Coords, EltTy.bits .f32 = 32 ∨ (Rect.block (s := S128x128) S128x128.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S2000x128.size a ≤ S50000x128.size a
  hwx18_2 : ∀ i : grid18.Coords, EltTy.bits .f32 = 32 ∨ (Rect.block (s := S50000x128) S2000x128.size (cc18_transform_2 i) (hinb18_2 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S8000x128.size a ≤ S600000x128.size a
  hwx19_0 : ∀ i : grid19.Coords, EltTy.bits .f32 = 32 ∨ (Rect.block (s := S600000x128) S8000x128.size (cc19_transform_0 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S8000x1.size a ≤ S600000x1.size a
  hwx19_1 : ∀ i : grid19.Coords, EltTy.bits .f32 = 32 ∨ (Rect.block (s := S600000x1) S8000x1.size (cc19_transform_1 i) (hinb19_1 i)).WholeWords (EltTy.packing .f32)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S8000x128.size a ≤ S600000x128.size a
  hwx19_2 : ∀ i : grid19.Coords, EltTy.bits .f32 = 32 ∨ (Rect.block (s := S600000x128) S8000x128.size (cc19_transform_2 i) (hinb19_2 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S2000x128.size a ≤ S100000x128.size a
  hwx20_0 : ∀ i : grid20.Coords, EltTy.bits .f32 = 32 ∨ (Rect.block (s := S100000x128) S2000x128.size (cc20_transform_0 i) (hinb20_0 i)).WholeWords (EltTy.packing .f32)
  hstage20_1 : ∀ j, (stage20_1 j).IsWhole
  nbuf20_1 : grid20.bufCount reads20_1 true = 1
  hreads20_1 : ∀ i i' : grid20.Coords, (∀ a, reads20_1 a = true → i a = i' a) → cc20_transform_1 i = cc20_transform_1 i'
  hinb20_1 : ∀ (i : grid20.Coords) a, (cc20_transform_1 i a + 1) * S1x128.size a ≤ S1x128.size a
  hwx20_1 : ∀ i : grid20.Coords, EltTy.bits .f32 = 32 ∨ (Rect.block (s := S1x128) S1x128.size (cc20_transform_1 i) (hinb20_1 i)).WholeWords (EltTy.packing .f32)
  hstage20_2 : ∀ j, (stage20_2 j).IsWhole
  nbuf20_2 : grid20.bufCount reads20_2 false = 2
  hreads20_2 : ∀ i i' : grid20.Coords, (∀ a, reads20_2 a = true → i a = i' a) → cc20_transform_2 i = cc20_transform_2 i'
  hinb20_2 : ∀ (i : grid20.Coords) a, (cc20_transform_2 i a + 1) * S2000x128.size a ≤ S100000x128.size a
  hwx20_2 : ∀ i : grid20.Coords, EltTy.bits .f32 = 32 ∨ (Rect.block (s := S100000x128) S2000x128.size (cc20_transform_2 i) (hinb20_2 i)).WholeWords (EltTy.packing .f32)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S2000x128.size a ≤ S100000x128.size a
  hwx21_0 : ∀ i : grid21.Coords, EltTy.bits .f32 = 32 ∨ (Rect.block (s := S100000x128) S2000x128.size (cc21_transform_0 i) (hinb21_0 i)).WholeWords (EltTy.packing .f32)
  hstage21_1 : ∀ j, (stage21_1 j).IsWhole
  nbuf21_1 : grid21.bufCount reads21_1 true = 1
  hreads21_1 : ∀ i i' : grid21.Coords, (∀ a, reads21_1 a = true → i a = i' a) → cc21_transform_1 i = cc21_transform_1 i'
  hinb21_1 : ∀ (i : grid21.Coords) a, (cc21_transform_1 i a + 1) * S128x128.size a ≤ S128x128.size a
  hwx21_1 : ∀ i : grid21.Coords, EltTy.bits .f32 = 32 ∨ (Rect.block (s := S128x128) S128x128.size (cc21_transform_1 i) (hinb21_1 i)).WholeWords (EltTy.packing .f32)
  hstage21_2 : ∀ j, (stage21_2 j).IsWhole
  nbuf21_2 : grid21.bufCount reads21_2 false = 2
  hreads21_2 : ∀ i i' : grid21.Coords, (∀ a, reads21_2 a = true → i a = i' a) → cc21_transform_2 i = cc21_transform_2 i'
  hinb21_2 : ∀ (i : grid21.Coords) a, (cc21_transform_2 i a + 1) * S2000x128.size a ≤ S100000x128.size a
  hwx21_2 : ∀ i : grid21.Coords, EltTy.bits .f32 = 32 ∨ (Rect.block (s := S100000x128) S2000x128.size (cc21_transform_2 i) (hinb21_2 i)).WholeWords (EltTy.packing .f32)
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S8000x128.size a ≤ S600000x128.size a
  hwx22_0 : ∀ i : grid22.Coords, EltTy.bits .f32 = 32 ∨ (Rect.block (s := S600000x128) S8000x128.size (cc22_transform_0 i) (hinb22_0 i)).WholeWords (EltTy.packing .f32)
  hstage22_1 : ∀ j, (stage22_1 j).IsWhole
  nbuf22_1 : grid22.bufCount reads22_1 false = 2
  hreads22_1 : ∀ i i' : grid22.Coords, (∀ a, reads22_1 a = true → i a = i' a) → cc22_transform_1 i = cc22_transform_1 i'
  hinb22_1 : ∀ (i : grid22.Coords) a, (cc22_transform_1 i a + 1) * S8000x1.size a ≤ S600000x1.size a
  hwx22_1 : ∀ i : grid22.Coords, EltTy.bits .f32 = 32 ∨ (Rect.block (s := S600000x1) S8000x1.size (cc22_transform_1 i) (hinb22_1 i)).WholeWords (EltTy.packing .f32)
  hstage22_2 : ∀ j, (stage22_2 j).IsWhole
  nbuf22_2 : grid22.bufCount reads22_2 false = 2
  hreads22_2 : ∀ i i' : grid22.Coords, (∀ a, reads22_2 a = true → i a = i' a) → cc22_transform_2 i = cc22_transform_2 i'
  hinb22_2 : ∀ (i : grid22.Coords) a, (cc22_transform_2 i a + 1) * S8000x128.size a ≤ S600000x128.size a
  hwx22_2 : ∀ i : grid22.Coords, EltTy.bits .f32 = 32 ∨ (Rect.block (s := S600000x128) S8000x128.size (cc22_transform_2 i) (hinb22_2 i)).WholeWords (EltTy.packing .f32)
  hrank23 : 0 < grid23.rank
  hstage23_0 : ∀ j, (stage23_0 j).IsWhole
  nbuf23_0 : grid23.bufCount reads23_0 false = 2
  hreads23_0 : ∀ i i' : grid23.Coords, (∀ a, reads23_0 a = true → i a = i' a) → cc23_transform_0 i = cc23_transform_0 i'
  hinb23_0 : ∀ (i : grid23.Coords) a, (cc23_transform_0 i a + 1) * S2000x128.size a ≤ S50000x128.size a
  hwx23_0 : ∀ i : grid23.Coords, EltTy.bits .f32 = 32 ∨ (Rect.block (s := S50000x128) S2000x128.size (cc23_transform_0 i) (hinb23_0 i)).WholeWords (EltTy.packing .f32)
  hstage23_1 : ∀ j, (stage23_1 j).IsWhole
  nbuf23_1 : grid23.bufCount reads23_1 true = 1
  hreads23_1 : ∀ i i' : grid23.Coords, (∀ a, reads23_1 a = true → i a = i' a) → cc23_transform_1 i = cc23_transform_1 i'
  hinb23_1 : ∀ (i : grid23.Coords) a, (cc23_transform_1 i a + 1) * S1x128.size a ≤ S1x128.size a
  hwx23_1 : ∀ i : grid23.Coords, EltTy.bits .f32 = 32 ∨ (Rect.block (s := S1x128) S1x128.size (cc23_transform_1 i) (hinb23_1 i)).WholeWords (EltTy.packing .f32)
  hstage23_2 : ∀ j, (stage23_2 j).IsWhole
  nbuf23_2 : grid23.bufCount reads23_2 false = 2
  hreads23_2 : ∀ i i' : grid23.Coords, (∀ a, reads23_2 a = true → i a = i' a) → cc23_transform_2 i = cc23_transform_2 i'
  hinb23_2 : ∀ (i : grid23.Coords) a, (cc23_transform_2 i a + 1) * S2000x128.size a ≤ S50000x128.size a
  hwx23_2 : ∀ i : grid23.Coords, EltTy.bits .f32 = 32 ∨ (Rect.block (s := S50000x128) S2000x128.size (cc23_transform_2 i) (hinb23_2 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v9) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S8000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v14) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg1) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v21) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v28) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v29) S8000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v30) S8000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v33) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v36) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v37) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v18) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v39) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v40) S2000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v47) S8000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v48) S8000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v49) S8000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v52) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v55) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v56) S2000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v37) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v58) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v59) S2000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v66) S8000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v67) S8000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v68) S8000x128.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v71) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v74) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v75) S2000x128.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v56) S2000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v77) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v78) S2000x128.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v85) S8000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v86) S8000x1.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v87) S8000x128.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v90) S2000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v93) S1x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v94) S2000x128.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v75) S2000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v96) S128x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v97) S2000x128.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v104) S8000x128.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v105) S8000x1.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v106) S8000x128.size cc16_transform_2 reads16_2 true false 2 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev win17_0 : Pipeline.Window sig grid17 :=
  Pipeline.Window.ofSpec (Memref.whole main_v109) S2000x128.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v112) S1x128.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v113) S2000x128.size cc17_transform_2 reads17_2 true false 2 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

abbrev win18_0 : Pipeline.Window sig grid18 :=
  Pipeline.Window.ofSpec (Memref.whole main_v94) S2000x128.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v115) S128x128.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v116) S2000x128.size cc18_transform_2 reads18_2 true false 2 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

abbrev win19_0 : Pipeline.Window sig grid19 :=
  Pipeline.Window.ofSpec (Memref.whole main_v123) S8000x128.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v124) S8000x1.size cc19_transform_1 reads19_1 false false 2 stage19_1 sem19_1
    hrank19 hreads19_1 hinb19_1 nbuf19_1 (Memref.isWhole_whole _) hwx19_1 hstage19_1

abbrev win19_2 : Pipeline.Window sig grid19 :=
  Pipeline.Window.ofSpec (Memref.whole main_v125) S8000x128.size cc19_transform_2 reads19_2 true false 2 stage19_2 sem19_2
    hrank19 hreads19_2 hinb19_2 nbuf19_2 (Memref.isWhole_whole _) hwx19_2 hstage19_2

abbrev win19 : Fin 3 → Pipeline.Window sig grid19 := fun | 0 => win19_0 | 1 => win19_1 | 2 => win19_2 | ⟨_ + 3, h⟩ => absurd h (Nat.not_lt.2 (Nat.le_add_left _ _))
abbrev spec19 : Fin 3 → Pipeline.WinSpec sig grid19.rank := fun w => (win19 w).toWinSpec

abbrev win20_0 : Pipeline.Window sig grid20 :=
  Pipeline.Window.ofSpec (Memref.whole main_v128) S2000x128.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v131) S1x128.size cc20_transform_1 reads20_1 false true 1 stage20_1 sem20_1
    hrank20 hreads20_1 hinb20_1 nbuf20_1 (Memref.isWhole_whole _) hwx20_1 hstage20_1

abbrev win20_2 : Pipeline.Window sig grid20 :=
  Pipeline.Window.ofSpec (Memref.whole main_v132) S2000x128.size cc20_transform_2 reads20_2 true false 2 stage20_2 sem20_2
    hrank20 hreads20_2 hinb20_2 nbuf20_2 (Memref.isWhole_whole _) hwx20_2 hstage20_2

abbrev win20 : Fin 3 → Pipeline.Window sig grid20 := fun | 0 => win20_0 | 1 => win20_1 | 2 => win20_2 | ⟨_ + 3, h⟩ => absurd h (Nat.not_lt.2 (Nat.le_add_left _ _))
abbrev spec20 : Fin 3 → Pipeline.WinSpec sig grid20.rank := fun w => (win20 w).toWinSpec

abbrev win21_0 : Pipeline.Window sig grid21 :=
  Pipeline.Window.ofSpec (Memref.whole main_v113) S2000x128.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v134) S128x128.size cc21_transform_1 reads21_1 false true 1 stage21_1 sem21_1
    hrank21 hreads21_1 hinb21_1 nbuf21_1 (Memref.isWhole_whole _) hwx21_1 hstage21_1

abbrev win21_2 : Pipeline.Window sig grid21 :=
  Pipeline.Window.ofSpec (Memref.whole main_v135) S2000x128.size cc21_transform_2 reads21_2 true false 2 stage21_2 sem21_2
    hrank21 hreads21_2 hinb21_2 nbuf21_2 (Memref.isWhole_whole _) hwx21_2 hstage21_2

abbrev win21 : Fin 3 → Pipeline.Window sig grid21 := fun | 0 => win21_0 | 1 => win21_1 | 2 => win21_2 | ⟨_ + 3, h⟩ => absurd h (Nat.not_lt.2 (Nat.le_add_left _ _))
abbrev spec21 : Fin 3 → Pipeline.WinSpec sig grid21.rank := fun w => (win21 w).toWinSpec

abbrev win22_0 : Pipeline.Window sig grid22 :=
  Pipeline.Window.ofSpec (Memref.whole main_v142) S8000x128.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v143) S8000x1.size cc22_transform_1 reads22_1 false false 2 stage22_1 sem22_1
    hrank22 hreads22_1 hinb22_1 nbuf22_1 (Memref.isWhole_whole _) hwx22_1 hstage22_1

abbrev win22_2 : Pipeline.Window sig grid22 :=
  Pipeline.Window.ofSpec (Memref.whole main_v144) S8000x128.size cc22_transform_2 reads22_2 true false 2 stage22_2 sem22_2
    hrank22 hreads22_2 hinb22_2 nbuf22_2 (Memref.isWhole_whole _) hwx22_2 hstage22_2

abbrev win22 : Fin 3 → Pipeline.Window sig grid22 := fun | 0 => win22_0 | 1 => win22_1 | 2 => win22_2 | ⟨_ + 3, h⟩ => absurd h (Nat.not_lt.2 (Nat.le_add_left _ _))
abbrev spec22 : Fin 3 → Pipeline.WinSpec sig grid22.rank := fun w => (win22 w).toWinSpec

abbrev win23_0 : Pipeline.Window sig grid23 :=
  Pipeline.Window.ofSpec (Memref.whole main_v147) S2000x128.size cc23_transform_0 reads23_0 false false 2 stage23_0 sem23_0
    hrank23 hreads23_0 hinb23_0 nbuf23_0 (Memref.isWhole_whole _) hwx23_0 hstage23_0

abbrev win23_1 : Pipeline.Window sig grid23 :=
  Pipeline.Window.ofSpec (Memref.whole main_v150) S1x128.size cc23_transform_1 reads23_1 false true 1 stage23_1 sem23_1
    hrank23 hreads23_1 hinb23_1 nbuf23_1 (Memref.isWhole_whole _) hwx23_1 hstage23_1

abbrev win23_2 : Pipeline.Window sig grid23 :=
  Pipeline.Window.ofSpec (Memref.whole main_v151) S2000x128.size cc23_transform_2 reads23_2 true false 2 stage23_2 sem23_2
    hrank23 hreads23_2 hinb23_2 nbuf23_2 (Memref.isWhole_whole _) hwx23_2 hstage23_2

abbrev win23 : Fin 3 → Pipeline.Window sig grid23 := fun | 0 => win23_0 | 1 => win23_1 | 2 => win23_2 | ⟨_ + 3, h⟩ => absurd h (Nat.not_lt.2 (Nat.le_add_left _ _))
abbrev spec23 : Fin 3 → Pipeline.WinSpec sig grid23.rank := fun w => (win23 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S600000 : Shape := ⟨1, ![600000]⟩
abbrev S2x4x128x128 : Shape := ⟨4, ![2, 4, 128, 128]⟩
abbrev S2x4x128 : Shape := ⟨3, ![2, 4, 128]⟩
abbrev S1x1x128x128 : Shape := ⟨4, ![1, 1, 128, 128]⟩
abbrev S128x128 : Shape := ⟨2, ![128, 128]⟩
abbrev S600000x1 : Shape := ⟨2, ![600000, 1]⟩
abbrev S_ : Shape := ⟨0, ![]⟩
abbrev S600000x128 : Shape := ⟨2, ![600000, 128]⟩
abbrev S1x1x128 : Shape := ⟨3, ![1, 1, 128]⟩
abbrev S128 : Shape := ⟨1, ![128]⟩
abbrev S1x128 : Shape := ⟨2, ![1, 128]⟩
abbrev S100000x1x128 : Shape := ⟨3, ![100000, 1, 128]⟩
abbrev S100000x3x128 : Shape := ⟨3, ![100000, 3, 128]⟩
abbrev S50000x1x128 : Shape := ⟨3, ![50000, 1, 128]⟩
abbrev S50000x3x128 : Shape := ⟨3, ![50000, 3, 128]⟩

abbrev nBuf : Space → Nat
  | .hbm => 229
  | .vmem => 0
  | .smem => 0
  | _ => 0

abbrev hbmTy0_0 (i : Nat) : BufTy := match i % 128 with
  | 0 => ⟨S100000x128, .f32⟩
  | 1 => ⟨S50000x128, .f32⟩
  | 2 => ⟨S600000, .i32⟩
  | 3 => ⟨S600000, .i32⟩
  | 4 => ⟨S600000, .f32⟩
  | 5 => ⟨S2x4x128x128, .f32⟩
  | 6 => ⟨S2x4x128, .f32⟩
  | 7 => ⟨S1x1x128x128, .f32⟩
  | 8 => ⟨S128x128, .f32⟩
  | 9 => ⟨S100000x128, .f32⟩
  | 10 => ⟨S600000x1, .f32⟩
  | 11 => ⟨S_, .i32⟩
  | 12 => ⟨S600000, .i32⟩
  | 13 => ⟨S600000, .i1⟩
  | 14 => ⟨S_, .i32⟩
  | 15 => ⟨S600000, .i32⟩
  | 16 => ⟨S600000, .i32⟩
  | 17 => ⟨S600000, .i32⟩
  | 18 => ⟨S600000x1, .i32⟩
  | 19 => ⟨S600000x128, .f32⟩
  | 20 => ⟨S600000x128, .f32⟩
  | 21 => ⟨S600000x128, .f32⟩
  | 22 => ⟨S_, .f32⟩
  | 23 => ⟨S50000x128, .f32⟩
  | 24 => ⟨S600000x1, .i32⟩
  | 25 => ⟨S50000x128, .f32⟩
  | 26 => ⟨S1x1x128, .f32⟩
  | 27 => ⟨S128, .f32⟩
  | 28 => ⟨S1x128, .f32⟩
  | 29 => ⟨S50000x128, .f32⟩
  | 30 => ⟨S50000x128, .f32⟩
  | 31 => ⟨S1x1x128x128, .f32⟩
  | 32 => ⟨S128x128, .f32⟩
  | 33 => ⟨S50000x128, .f32⟩
  | 34 => ⟨S600000x1, .f32⟩
  | 35 => ⟨S_, .i32⟩
  | 36 => ⟨S600000, .i32⟩
  | 37 => ⟨S600000, .i1⟩
  | 38 => ⟨S_, .i32⟩
  | 39 => ⟨S600000, .i32⟩
  | 40 => ⟨S600000, .i32⟩
  | 41 => ⟨S600000, .i32⟩
  | 42 => ⟨S600000x1, .i32⟩
  | 43 => ⟨S600000x128, .f32⟩
  | 44 => ⟨S600000x128, .f32⟩
  | 45 => ⟨S600000x128, .f32⟩
  | 46 => ⟨S_, .f32⟩
  | 47 => ⟨S100000x128, .f32⟩
  | 48 => ⟨S600000x1, .i32⟩
  | 49 => ⟨S100000x128, .f32⟩
  | 50 => ⟨S1x1x128, .f32⟩
  | 51 => ⟨S128, .f32⟩
  | 52 => ⟨S1x128, .f32⟩
  | 53 => ⟨S100000x128, .f32⟩
  | 54 => ⟨S100000x128, .f32⟩
  | 55 => ⟨S1x1x128x128, .f32⟩
  | 56 => ⟨S128x128, .f32⟩
  | 57 => ⟨S50000x128, .f32⟩
  | 58 => ⟨S600000x1, .f32⟩
  | 59 => ⟨S_, .i32⟩
  | 60 => ⟨S600000, .i32⟩
  | 61 => ⟨S600000, .i1⟩
  | 62 => ⟨S_, .i32⟩
  | 63 => ⟨S600000, .i32⟩
  | 64 => ⟨S600000, .i32⟩
  | 65 => ⟨S600000, .i32⟩
  | 66 => ⟨S600000x1, .i32⟩
  | 67 => ⟨S600000x128, .f32⟩
  | 68 => ⟨S600000x128, .f32⟩
  | 69 => ⟨S600000x128, .f32⟩
  | 70 => ⟨S_, .f32⟩
  | 71 => ⟨S100000x128, .f32⟩
  | 72 => ⟨S600000x1, .i32⟩
  | 73 => ⟨S100000x128, .f32⟩
  | 74 => ⟨S1x1x128, .f32⟩
  | 75 => ⟨S128, .f32⟩
  | 76 => ⟨S1x128, .f32⟩
  | 77 => ⟨S100000x128, .f32⟩
  | 78 => ⟨S100000x128, .f32⟩
  | 79 => ⟨S1x1x128x128, .f32⟩
  | 80 => ⟨S128x128, .f32⟩
  | 81 => ⟨S100000x128, .f32⟩
  | 82 => ⟨S600000x1, .f32⟩
  | 83 => ⟨S_, .i32⟩
  | 84 => ⟨S600000, .i32⟩
  | 85 => ⟨S600000, .i1⟩
  | 86 => ⟨S_, .i32⟩
  | 87 => ⟨S600000, .i32⟩
  | 88 => ⟨S600000, .i32⟩
  | 89 => ⟨S600000, .i32⟩
  | 90 => ⟨S600000x1, .i32⟩
  | 91 => ⟨S600000x128, .f32⟩
  | 92 => ⟨S600000x128, .f32⟩
  | 93 => ⟨S600000x128, .f32⟩
  | 94 => ⟨S_, .f32⟩
  | 95 => ⟨S50000x128, .f32⟩
  | 96 => ⟨S600000x1, .i32⟩
  | 97 => ⟨S50000x128, .f32⟩
  | 98 => ⟨S1x1x128, .f32⟩
  | 99 => ⟨S128, .f32⟩
  | 100 => ⟨S1x128, .f32⟩
  | 101 => ⟨S50000x128, .f32⟩
  | 102 => ⟨S50000x128, .f32⟩
  | 103 => ⟨S_, .f32⟩
  | 104 => ⟨S100000x128, .f32⟩
  | 105 => ⟨S100000x128, .f32⟩
  | 106 => ⟨S_, .f32⟩
  | 107 => ⟨S50000x128, .f32⟩
  | 108 => ⟨S50000x128, .f32⟩
  | 109 => ⟨S1x1x128x128, .f32⟩
  | 110 => ⟨S128x128, .f32⟩
  | 111 => ⟨S100000x128, .f32⟩
  | 112 => ⟨S600000x1, .f32⟩
  | 113 => ⟨S_, .i32⟩
  | 114 => ⟨S600000, .i32⟩
  | 115 => ⟨S600000, .i1⟩
  | 116 => ⟨S_, .i32⟩
  | 117 => ⟨S600000, .i32⟩
  | 118 => ⟨S600000, .i32⟩
  | 119 => ⟨S600000, .i32⟩
  | 120 => ⟨S600000x1, .i32⟩
  | 121 => ⟨S600000x128, .f32⟩
  | 122 => ⟨S600000x128, .f32⟩
  | 123 => ⟨S600000x128, .f32⟩
  | 124 => ⟨S_, .f32⟩
  | 125 => ⟨S50000x128, .f32⟩
  | 126 => ⟨S600000x1, .i32⟩
  | 127 => ⟨S50000x128, .f32⟩
  | _ => ⟨S100000x128, .f32⟩

abbrev hbmTy0_1 (i : Nat) : BufTy := match i % 128 with
  | 0 => ⟨S1x1x128, .f32⟩
  | 1 => ⟨S128, .f32⟩
  | 2 => ⟨S1x128, .f32⟩
  | 3 => ⟨S50000x128, .f32⟩
  | 4 => ⟨S50000x128, .f32⟩
  | 5 => ⟨S1x1x128x128, .f32⟩
  | 6 => ⟨S128x128, .f32⟩
  | 7 => ⟨S50000x128, .f32⟩
  | 8 => ⟨S600000x1, .f32⟩
  | 9 => ⟨S_, .i32⟩
  | 10 => ⟨S600000, .i32⟩
  | 11 => ⟨S600000, .i1⟩
  | 12 => ⟨S_, .i32⟩
  | 13 => ⟨S600000, .i32⟩
  | 14 => ⟨S600000, .i32⟩
  | 15 => ⟨S600000, .i32⟩
  | 16 => ⟨S600000x1, .i32⟩
  | 17 => ⟨S600000x128, .f32⟩
  | 18 => ⟨S600000x128, .f32⟩
  | 19 => ⟨S600000x128, .f32⟩
  | 20 => ⟨S_, .f32⟩
  | 21 => ⟨S100000x128, .f32⟩
  | 22 => ⟨S600000x1, .i32⟩
  | 23 => ⟨S100000x128, .f32⟩
  | 24 => ⟨S1x1x128, .f32⟩
  | 25 => ⟨S128, .f32⟩
  | 26 => ⟨S1x128, .f32⟩
  | 27 => ⟨S100000x128, .f32⟩
  | 28 => ⟨S100000x128, .f32⟩
  | 29 => ⟨S1x1x128x128, .f32⟩
  | 30 => ⟨S128x128, .f32⟩
  | 31 => ⟨S50000x128, .f32⟩
  | 32 => ⟨S600000x1, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000x128, .f32⟩
  | 42 => ⟨S600000x128, .f32⟩
  | 43 => ⟨S600000x128, .f32⟩
  | 44 => ⟨S_, .f32⟩
  | 45 => ⟨S100000x128, .f32⟩
  | 46 => ⟨S600000x1, .i32⟩
  | 47 => ⟨S100000x128, .f32⟩
  | 48 => ⟨S1x1x128, .f32⟩
  | 49 => ⟨S128, .f32⟩
  | 50 => ⟨S1x128, .f32⟩
  | 51 => ⟨S100000x128, .f32⟩
  | 52 => ⟨S100000x128, .f32⟩
  | 53 => ⟨S1x1x128x128, .f32⟩
  | 54 => ⟨S128x128, .f32⟩
  | 55 => ⟨S100000x128, .f32⟩
  | 56 => ⟨S600000x1, .f32⟩
  | 57 => ⟨S_, .i32⟩
  | 58 => ⟨S600000, .i32⟩
  | 59 => ⟨S600000, .i1⟩
  | 60 => ⟨S_, .i32⟩
  | 61 => ⟨S600000, .i32⟩
  | 62 => ⟨S600000, .i32⟩
  | 63 => ⟨S600000, .i32⟩
  | 64 => ⟨S600000x1, .i32⟩
  | 65 => ⟨S600000x128, .f32⟩
  | 66 => ⟨S600000x128, .f32⟩
  | 67 => ⟨S600000x128, .f32⟩
  | 68 => ⟨S_, .f32⟩
  | 69 => ⟨S50000x128, .f32⟩
  | 70 => ⟨S600000x1, .i32⟩
  | 71 => ⟨S50000x128, .f32⟩
  | 72 => ⟨S1x1x128, .f32⟩
  | 73 => ⟨S128, .f32⟩
  | 74 => ⟨S1x128, .f32⟩
  | 75 => ⟨S50000x128, .f32⟩
  | 76 => ⟨S50000x128, .f32⟩
  | 77 => ⟨S_, .f32⟩
  | 78 => ⟨S100000x128, .f32⟩
  | 79 => ⟨S100000x128, .f32⟩
  | 80 => ⟨S_, .f32⟩
  | 81 => ⟨S50000x128, .f32⟩
  | 82 => ⟨S50000x128, .f32⟩
  | 83 => ⟨S100000x1x128, .f32⟩
  | 84 => ⟨S100000x1x128, .f32⟩
  | 85 => ⟨S100000x1x128, .f32⟩
  | 86 => ⟨S100000x3x128, .f32⟩
  | 87 => ⟨S_, .f32⟩
  | 88 => ⟨S100000x128, .f32⟩
  | 89 => ⟨S_, .f32⟩
  | 90 => ⟨S100000x128, .f32⟩
  | 91 => ⟨S100000x128, .f32⟩
  | 92 => ⟨S50000x1x128, .f32⟩
  | 93 => ⟨S50000x1x128, .f32⟩
  | 94 => ⟨S50000x1x128, .f32⟩
  | 95 => ⟨S50000x3x128, .f32⟩
  | 96 => ⟨S_, .f32⟩
  | 97 => ⟨S50000x128, .f32⟩
  | 98 => ⟨S_, .f32⟩
  | 99 => ⟨S50000x128, .f32⟩
  | 100 => ⟨S50000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_1 : Ref sig .tc := ⟨.hbm, 35, rfl⟩
abbrev main_v25 : Ref sig .tc := ⟨.hbm, 36, rfl⟩
abbrev main_v26 : Ref sig .tc := ⟨.hbm, 37, rfl⟩
abbrev main_c_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_4 : Ref sig .tc := ⟨.hbm, 59, rfl⟩
abbrev main_v46 : Ref sig .tc := ⟨.hbm, 60, rfl⟩
abbrev main_v47 : Ref sig .tc := ⟨.hbm, 61, rfl⟩
abbrev main_c_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_6 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_c_7 : Ref sig .tc := ⟨.hbm, 83, rfl⟩
abbrev main_v67 : Ref sig .tc := ⟨.hbm, 84, rfl⟩
abbrev main_v68 : Ref sig .tc := ⟨.hbm, 85, rfl⟩
abbrev main_c_8 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_9 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_call0_cst : Ref sig .tc := ⟨.hbm, 103, rfl⟩
abbrev main_call0_v0 : Ref sig .tc := ⟨.hbm, 104, rfl⟩
abbrev main_v84 : Ref sig .tc := ⟨.hbm, 105, rfl⟩
abbrev main_call1_cst : Ref sig .tc := ⟨.hbm, 106, rfl⟩
abbrev main_call1_v0 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_c_10 : Ref sig .tc := ⟨.hbm, 113, rfl⟩
abbrev main_v90 : Ref sig .tc := ⟨.hbm, 114, rfl⟩
abbrev main_v91 : Ref sig .tc := ⟨.hbm, 115, rfl⟩
abbrev main_c_11 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_12 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_c_13 : Ref sig .tc := ⟨.hbm, 137, rfl⟩
abbrev main_v111 : Ref sig .tc := ⟨.hbm, 138, rfl⟩
abbrev main_v112 : Ref sig .tc := ⟨.hbm, 139, rfl⟩
abbrev main_c_14 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_cst_15 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_c_16 : Ref sig .tc := ⟨.hbm, 161, rfl⟩
abbrev main_v132 : Ref sig .tc := ⟨.hbm, 162, rfl⟩
abbrev main_v133 : Ref sig .tc := ⟨.hbm, 163, rfl⟩
abbrev main_c_17 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_cst_18 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_c_19 : Ref sig .tc := ⟨.hbm, 185, rfl⟩
abbrev main_v153 : Ref sig .tc := ⟨.hbm, 186, rfl⟩
abbrev main_v154 : Ref sig .tc := ⟨.hbm, 187, rfl⟩
abbrev main_c_20 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_cst_21 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_call2_cst : Ref sig .tc := ⟨.hbm, 205, rfl⟩
abbrev main_call2_v0 : Ref sig .tc := ⟨.hbm, 206, rfl⟩
abbrev main_v170 : Ref sig .tc := ⟨.hbm, 207, rfl⟩
abbrev main_call3_cst : Ref sig .tc := ⟨.hbm, 208, rfl⟩
abbrev main_call3_v0 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_cst_22 : Ref sig .tc := ⟨.hbm, 215, rfl⟩
abbrev main_v176 : Ref sig .tc := ⟨.hbm, 216, rfl⟩
abbrev main_cst_23 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_cst_24 : Ref sig .tc := ⟨.hbm, 224, rfl⟩
abbrev main_v183 : Ref sig .tc := ⟨.hbm, 225, rfl⟩
abbrev main_cst_25 : Ref sig .tc := ⟨.hbm, 226, rfl⟩
abbrev main_v184 : Ref sig .tc := ⟨.hbm, 227, rfl⟩
abbrev main_v185 : Ref sig .tc := ⟨.hbm, 228, rfl⟩

abbrev nD : Nat := 1
abbrev τ : Topo := Topo.v7x

variable {F : FTy → Type} [FloatOps F]

class Facts₀ : Prop where
  slices_S2x4x128x128_S1x1x128x128_0_0_0_0 : S2x4x128x128.Slices ![0, 0, 0, 0] S1x1x128x128
  shapeCasts_S1x1x128x128_S128x128 : S1x1x128x128.ShapeCasts S128x128
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  slices_S2x4x128_S1x1x128_0_0_0 : S2x4x128.Slices ![0, 0, 0] S1x1x128
  shapeCasts_S1x1x128_S128 : S1x1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x4x128x128_S1x1x128x128_0_1_0_0 : S2x4x128x128.Slices ![0, 1, 0, 0] S1x1x128x128
  bcast_S_S100000x128 : S_.BroadcastsInDim S100000x128 (![] : Fin 0 → Fin S100000x128.rank)
  slices_S2x4x128_S1x1x128_0_1_0 : S2x4x128.Slices ![0, 1, 0] S1x1x128
  bcast_S1x128_S100000x128_0_1 : S1x128.BroadcastsInDim S100000x128 (![0, 1] : Fin 2 → Fin S100000x128.rank)
  slices_S2x4x128x128_S1x1x128x128_0_2_0_0 : S2x4x128x128.Slices ![0, 2, 0, 0] S1x1x128x128
  slices_S2x4x128_S1x1x128_0_2_0 : S2x4x128.Slices ![0, 2, 0] S1x1x128
  slices_S2x4x128x128_S1x1x128x128_0_3_0_0 : S2x4x128x128.Slices ![0, 3, 0, 0] S1x1x128x128
  slices_S2x4x128_S1x1x128_0_3_0 : S2x4x128.Slices ![0, 3, 0] S1x1x128
  slices_S2x4x128x128_S1x1x128x128_1_0_0_0 : S2x4x128x128.Slices ![1, 0, 0, 0] S1x1x128x128
  slices_S2x4x128_S1x1x128_1_0_0 : S2x4x128.Slices ![1, 0, 0] S1x1x128
  slices_S2x4x128x128_S1x1x128x128_1_1_0_0 : S2x4x128x128.Slices ![1, 1, 0, 0] S1x1x128x128
  slices_S2x4x128_S1x1x128_1_1_0 : S2x4x128.Slices ![1, 1, 0] S1x1x128
  slices_S2x4x128x128_S1x1x128x128_1_2_0_0 : S2x4x128x128.Slices ![1, 2, 0, 0] S1x1x128x128
  slices_S2x4x128_S1x1x128_1_2_0 : S2x4x128.Slices ![1, 2, 0] S1x1x128
  slices_S2x4x128x128_S1x1x128x128_1_3_0_0 : S2x4x128x128.Slices ![1, 3, 0, 0] S1x1x128x128
  slices_S2x4x128_S1x1x128_1_3_0 : S2x4x128.Slices ![1, 3, 0] S1x1x128
  bcast_S100000x128_S100000x1x128_0_2 : S100000x128.BroadcastsInDim S100000x1x128 (![0, 2] : Fin 2 → Fin S100000x1x128.rank)
  concatenates_S100000x1x128_S100000x1x128_S100000x1x128_S100000x3x128_d1 : Shape.Concatenates [S100000x1x128, S100000x1x128, S100000x1x128] S100000x3x128 1
  reducesTo_S100000x3x128_S100000x128_d1 : S100000x3x128.ReducesTo [1] S100000x128
  h_S_ : 0 < S_.numel
  bcast_S50000x128_S50000x1x128_0_2 : S50000x128.BroadcastsInDim S50000x1x128 (![0, 2] : Fin 2 → Fin S50000x1x128.rank)
  concatenates_S50000x1x128_S50000x1x128_S50000x1x128_S50000x3x128_d1 : Shape.Concatenates [S50000x1x128, S50000x1x128, S50000x1x128] S50000x3x128 1
  reducesTo_S50000x3x128_S50000x128_d1 : S50000x3x128.ReducesTo [1] S50000x128
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S100000x128_S600000x1_S600000x128_1_0_0_1_wf : ScatterDims.WF S100000x128 S600000x1 S600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.K.Body0.lean ====
/- Region 0 of @main: one row block of the product u · W[0,0] per grid point.
   The pipeline has three windows: the rows of the left operand (a block of 2000 rows at point t), the whole
   128 x 128 right operand (the same block at every point, fetched once) and the rows of the result. The body
   reads both input blocks, multiplies them on the matrix unit into a zero accumulator and stores the product
   over the whole output block. Stated at the contents `V` the buffers hold when the region is entered:
   the block each window holds at a point, what the body leaves in the output block as a function of the two
   input blocks, the body's triple, the pipeline's proof data and the body obligation at every point. -/
import proofs.«104107_j50560355009131_1_alg».proof.Proof.Gen.Kernel.Launch
import proofs.«104107_j50560355009131_1_alg».proof.Proof.Gen.Kernel.Skeleton
import proofs.«104107_j50560355009131_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block of rows at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The right operand's staging buffer holds the whole matrix at every point, fetched there or not (its block
    index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole block of 2000 rows, and the whole right operand, as rectangles. -/
abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0

/-- What the body leaves in the output block: its one store, the product of the two blocks it read. -/
def out0_2 (x0 : Vec F S2000x128 .f32) (x1 : Vec F S128x128 .f32) : Vec F S2000x128 .f32 :=
  View.canon [⟨r0_0, k0_pay1 (View.ld x0 r0_0) (View.ld x1 r0_1)⟩]

/-- The one store covers the output block. -/
theorem cover0_2 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

set_option maxHeartbeats 1000000 in
/-- The body on whole staging memrefs, the inputs' at contents `x0`, `x1` and the output's at anything, runs to the
    continuation with the inputs' as they were and the output's at `out0_2 x0 x1`. -/
theorem sound_kernel0 (c : Dev nD) (E : Set ℕ) (i : grid0.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` each
    input's buffer at its block and the output's at the product of the two blocks; the class invariant; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/- Region 1 of @main: the edge scaling of layer 0, block 0. The rows of u · W[0,0] have been gathered along the
   edges (row e is the product's row at edge e's user index); this region multiplies row e by the edge weight
   w[e], 8000 edges per grid point. The pipeline has three windows: the gathered rows (a block of 8000 rows at
   point t), the matching 8000 entries of the 600000 x 1 column of edge weights (a new block at every point)
   and the rows of the result. The body reads both input blocks, spreads the column along each row and stores
   the entrywise product over the whole output block. Stated at the contents `V` the buffers hold when the
   region is entered: the block each window holds at a point, what the body leaves in the output block as a
   function of the two input blocks, the body's triple, the pipeline's proof data and the body obligation at
   every point. -/
import proofs.«104107_j50560355009131_1_alg».proof.Proof.Gen.Kernel.Launch
import proofs.«104107_j50560355009131_1_alg».proof.Proof.Gen.Kernel.Skeleton
import proofs.«104107_j50560355009131_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The gathered rows' staging buffer holds its block of 8000 rows at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The edge weights' staging buffer holds the 8000 weights of the same edges at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole block of 8000 rows, and the whole block of 8000 weights, as rectangles. -/
abbrev r1_0 : Rect S8000x128 := Rect.unit (s := S8000x128) ![0, 0] S8000x128.size inb_S8000x128_S8000x128_0_0
abbrev r1_1 : Rect S8000x1 := Rect.unit (s := S8000x1) ![0, 0] S8000x1.size inb_S8000x1_S8000x1_0_0

/-- What the body leaves in the output block: its one store, each row it read times that row's weight. -/
def out1_2 (x0 : Vec F S8000x128 .f32) (x1 : Vec F S8000x1 .f32) : Vec F S8000x128 .f32 :=
  View.canon [⟨r1_0, k1_pay1 (View.ld x0 r1_0) (View.ld x1 r1_1)⟩]

/-- The one store covers the output block. -/
theorem cover1_2 (p0 : Vec F S8000x128 .f32) (y : S8000x128.Idx) :
    ∃ pc ∈ ([⟨r1_0, p0⟩] : List (View.Piece (Elt F) S8000x128 .f32)), y ∈ pc.1.set :=
  View.cover_of_tiled [⟨r1_0, p0⟩] S8000x128.size (by rfl) y

set_option maxHeartbeats 1000000 in
/-- The body on whole staging memrefs, the inputs' at contents `x0`, `x1` and the output's at anything, runs to the
    continuation with the inputs' as they were and the output's at `out1_2 x0 x1`. -/
theorem sound_kernel1 (c : Dev nD) (E : Set ℕ) (i : grid1.Coords) (arg1 : Memref sig .tc .vmem S8000x128 .f32) (harg1 : arg1.IsWhole) (arg2 : Memref sig .tc .vmem S8000x1 .f32) (harg2 : arg2.IsWhole) (arg3 : Memref sig .tc .vmem S8000x128 .f32) (harg3 : arg3.IsWhole)
    (x0 : Vec F S8000x128 .f32) (x1 : Vec F S8000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the region finds them; after the body at point `t` each
    input's buffer at its block and the output's at the rows of the first block scaled by the weights of the
    second; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
/- Region 2 of @main: the bias step of layer 0, block 0. The scaled rows of region 1 have been summed into one
   row per item (row n is the sum of the scaled rows of the edges whose item index is n, 50000 rows); this
   region adds the bias b[0,0] to every row, 2000 rows per grid point, with no activation after it. The
   pipeline has three windows: the summed rows (a block of 2000 rows at point t), the bias as a 1 x 128 row
   (the same block at every point, fetched once) and the rows of the result. The body reads both input blocks,
   repeats the one row down the 2000 rows and stores the entrywise sum over the whole output block. Stated at
   the contents `V` the buffers hold when the region is entered: the block each window holds at a point, what
   the body leaves in the output block as a function of the two input blocks, the body's triple, the
   pipeline's proof data and the body obligation at every point. -/
import proofs.«104107_j50560355009131_1_alg».proof.Proof.Gen.Kernel.Launch
import proofs.«104107_j50560355009131_1_alg».proof.Proof.Gen.Kernel.Skeleton
import proofs.«104107_j50560355009131_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The summed rows' staging buffer holds its block of 2000 rows at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The bias row's staging buffer holds the whole row at every point, fetched there or not (its block index
    never moves). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole block of 2000 rows, and the whole bias row, as rectangles. -/
abbrev r2_0 : Rect S2000x128 := Rect.unit (s := S2000x128) ![0, 0] S2000x128.size inb_S2000x128_S2000x128_0_0
abbrev r2_1 : Rect S1x128 := Rect.unit (s := S1x128) ![0, 0] S1x128.size inb_S1x128_S1x128_0_0

/-- What the body leaves in the output block: its one store, each row it read plus the bias row. -/
def out2_2 (x0 : Vec F S2000x128 .f32) (x1 : Vec F S1x128 .f32) : Vec F S2000x128 .f32 :=
  View.canon [⟨r2_0, k2_pay1 (View.ld x0 r2_0) (View.ld x1 r2_1)⟩]

/-- The one store covers the output block. -/
theorem cover2_2 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

set_option maxHeartbeats 1000000 in
/-- The body on whole staging memrefs, the inputs' at contents `x0`, `x1` and the output's at anything, runs to the
    continuation with the inputs' as they were and the output's at `out2_2 x0 x1`. -/
theorem sound_kernel2 (c : Dev nD) (E : Set ℕ) (i : grid2.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__bias_act_kernel i arg1 harg1 arg2 harg2 arg3 harg3) K := by
  simp only [cc2__bias_act_kernel_eq_skeleton]; unfold cc2__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the region finds them; after the body at point `t` each
    input's buffer at its block and the output's at the rows of the first block each plus the bias row; the
    class invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Body3.lean ====
/- Region 3 of @main: one row block of the product v · W[0,1] per grid point, v the second feature matrix
   (50000 rows, 25 blocks of 2000).
   The pipeline has three windows: the rows of the left operand (a block of 2000 rows at point t), the whole
   128 x 128 right operand (the same block at every point, fetched once) and the rows of the result. The body
   reads both input blocks, rounds each to bf16, multiplies them on the matrix unit into a zero f32 accumulator
   and stores the product over the whole output block. Stated at the contents `V` the buffers hold when the
   region is entered: the block each window holds at a point, what the body leaves in the output block as a
   function of the two input blocks, the body's triple, the pipeline's proof data and the body obligation at
   every point. -/
import proofs.«104107_j50560355009131_1_alg».proof.Proof.Gen.Kernel.Launch
import proofs.«104107_j50560355009131_1_alg».proof.Proof.Gen.Kernel.Skeleton
import proofs.«104107_j50560355009131_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left operand's staging buffer holds its block of rows of v at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The right operand's staging buffer holds the whole of W[0,1] at every point, fetched there or not (its block
    index never moves). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole block of 2000 rows, and the whole right operand, as rectangles. -/
abbrev r3_0 : Rect S2000x128 := Rect.unit (s := S2000x128) ![0, 0] S2000x128.size inb_S2000x128_S2000x128_0_0
abbrev r3_1 : Rect S128x128 := Rect.unit (s := S128x128) ![0, 0] S128x128.size inb_S128x128_S128x128_0_0

/-- What the body leaves in the output block: its one store, the product of the two blocks it read. -/
def out3_2 (x0 : Vec F S2000x128 .f32) (x1 : Vec F S128x128 .f32) : Vec F S2000x128 .f32 :=
  View.canon [⟨r3_0, k3_pay1 (View.ld x0 r3_0) (View.ld x1 r3_1)⟩]

/-- The one store covers the output block. -/
theorem cover3_2 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

set_option maxHeartbeats 1000000 in
/-- The body on whole staging memrefs, the inputs' at contents `x0`, `x1` and the output's at anything, runs to the
    continuation with the inputs' as they were and the output's at `out3_2 x0 x1`. The body also reads the output
    block before it stores over the whole of it; what it read there is not used. -/
theorem sound_kernel3 (c : Dev nD) (E : Set ℕ) (i : grid3.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data on core `c`: the arrays as the region finds them; after the body at point `t` each
    input's buffer at its block and the output's at the product of the two blocks; the class invariant; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Body4.lean ====
/- Region 4 of @main: the edge scaling of layer 0, block 1. The rows of v · W[0,1] have been gathered along the
   edges (row e is the product's row at edge e's item index); this region multiplies row e by the edge weight
   w[e], 8000 edges per grid point. The pipeline has three windows: the gathered rows (a block of 8000 rows at
   point t), the matching 8000 entries of the 600000 x 1 column of edge weights (a new block at every point)
   and the rows of the result. The body reads both input blocks, spreads the column along each row and stores
   the entrywise product over the whole output block. Stated at the contents `V` the buffers hold when the
   region is entered: the block each window holds at a point, what the body leaves in the output block as a
   function of the two input blocks, the body's triple, the pipeline's proof data and the body obligation at
   every point. -/
import proofs.«104107_j50560355009131_1_alg».proof.Proof.Gen.Kernel.Launch
import proofs.«104107_j50560355009131_1_alg».proof.Proof.Gen.Kernel.Skeleton
import proofs.«104107_j50560355009131_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The gathered rows' staging buffer holds its block of 8000 rows at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The edge weights' staging buffer holds the 8000 weights of the same edges at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole block of 8000 rows, and the whole block of 8000 weights, as rectangles. -/
abbrev r4_0 : Rect S8000x128 := Rect.unit (s := S8000x128) ![0, 0] S8000x128.size inb_S8000x128_S8000x128_0_0
abbrev r4_1 : Rect S8000x1 := Rect.unit (s := S8000x1) ![0, 0] S8000x1.size inb_S8000x1_S8000x1_0_0

/-- What the body leaves in the output block: its one store, each row it read times that row's weight. -/
def out4_2 (x0 : Vec F S8000x128 .f32) (x1 : Vec F S8000x1 .f32) : Vec F S8000x128 .f32 :=
  View.canon [⟨r4_0, k4_pay1 (View.ld x0 r4_0) (View.ld x1 r4_1)⟩]

/-- The one store covers the output block. -/
theorem cover4_2 (p0 : Vec F S8000x128 .f32) (y : S8000x128.Idx) :
    ∃ pc ∈ ([⟨r4_0, p0⟩] : List (View.Piece (Elt F) S8000x128 .f32)), y ∈ pc.1.set :=
  View.cover_of_tiled [⟨r4_0, p0⟩] S8000x128.size (by rfl) y

set_option maxHeartbeats 1000000 in
/-- The body on whole staging memrefs, the inputs' at contents `x0`, `x1` and the output's at anything, runs to the
    continuation with the inputs' as they were and the output's at `out4_2 x0 x1`. -/
theorem sound_kernel4 (c : Dev nD) (E : Set ℕ) (i : grid4.Coords) (arg1 : Memref sig .tc .vmem S8000x128 .f32) (harg1 : arg1.IsWhole) (arg2 : Memref sig .tc .vmem S8000x1 .f32) (harg2 : arg2.IsWhole) (arg3 : Memref sig .tc .vmem S8000x128 .f32) (harg3 : arg3.IsWhole)
    (x0 : Vec F S8000x128 .f32) (x1 : Vec F S8000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__scale_kernel i arg1 harg1 arg2 harg2 arg3 harg3) K := by
  simp only [cc4__scale_kernel_eq_skeleton]; unfold cc4__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The pipeline's proof data on core `c`: the arrays as the region finds them; after the body at point `t` each
    input's buffer at its block and the output's at the rows of the first block scaled by the weights of the
    second; the class invariant; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Body5.lean ====
/- Region 5 of @main: the bias step of layer 0, block 1. The scaled rows of region 4 have been summed into one
   row per user (row n is the sum of the scaled rows of the edges whose user index is n, 100000 rows); this
   region adds the bias b[0,1] to every row, 2000 rows per grid point, with no activation after it. The
   pipeline has three windows: the summed rows (a block of 2000 rows at point t), the bias as a 1 x 128 row
   (the same block at every point, fetched once) and the rows of the result. The body reads both input blocks,
   repeats the one row down the 2000 rows and stores the entrywise sum over the whole output block. Stated at
   the contents `V` the buffers hold when the region is entered: the block each window holds at a point, what
   the body leaves in the output block as a function of the two input blocks, the body's triple, the
   pipeline's proof data and the body obligation at every point. -/
import proofs.«104107_j50560355009131_1_alg».proof.Proof.Gen.Kernel.Launch
import proofs.«104107_j50560355009131_1_alg».proof.Proof.Gen.Kernel.Skeleton
import proofs.«104107_j50560355009131_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The summed rows' staging buffer holds its block of 2000 rows at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The bias row's staging buffer holds the whole row at every point, fetched there or not (its block index
    never moves). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The whole block of 2000 rows, and the whole bias row, as rectangles. -/
abbrev r5_0 : Rect S2000x128 := Rect.unit (s := S2000x128) ![0, 0] S2000x128.size inb_S2000x128_S2000x128_0_0
abbrev r5_1 : Rect S1x128 := Rect.unit (s := S1x128) ![0, 0] S1x128.size inb_S1x128_S1x128_0_0

/-- What the body leaves in the output block: its one store, each row it read plus the bias row. -/
def out5_2 (x0 : Vec F S2000x128 .f32) (x1 : Vec F S1x128 .f32) : Vec F S2000x128 .f32 :=
  View.canon [⟨r5_0, k5_pay1 (View.ld x0 r5_0) (View.ld x1 r5_1)⟩]

/-- The one store covers the output block. -/
theorem cover5_2 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

set_option maxHeartbeats 1000000 in
/-- The body on whole staging memrefs, the inputs' at contents `x0`, `x1` and the output's at anything, runs to the
    continuation with the inputs' as they were and the output's at `out5_2 x0 x1`. -/
theorem sound_kernel5 (c : Dev nD) (E : Set ℕ) (i : grid5.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__bias_act_kernel i arg1 harg1 arg2 harg2 arg3 harg3) K := by
  simp only [cc5__bias_act_kernel_eq_skeleton]; unfold cc5__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The pipeline's proof data on core `c`: the arrays as the region finds them; after the body at point `t` each
    input's buffer at its block and the output's at the rows of the first block each plus the bias row; the
    class invariant; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so `sound_kernel5` applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Body6.lean ====
/- Region 6 of @main: one row block of the product user_ho · W[0,2] per grid point, user_ho the 50000 rows that
   layer 0's block 0 ends with (segment sums plus b[0,0]; 25 blocks of 2000).
   The pipeline has three windows: the rows of the left operand (a block of 2000 rows at point t), the whole
   128 x 128 right operand (the same block at every point, fetched once) and the rows of the result. The body
   reads both input blocks, rounds each to bf16, multiplies them on the matrix unit into a zero f32 accumulator
   and stores the product over the whole output block. Stated at the contents `V` the buffers hold when the
   region is entered: the block each window holds at a point, what the body leaves in the output block as a
   function of the two input blocks, the body's triple, the pipeline's proof data and the body obligation at
   every point. -/
import proofs.«104107_j50560355009131_1_alg».proof.Proof.Gen.Kernel.Launch
import proofs.«104107_j50560355009131_1_alg».proof.Proof.Gen.Kernel.Skeleton
import proofs.«104107_j50560355009131_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The left operand's staging buffer holds its block of rows of user_ho at every point. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- The right operand's staging buffer holds the whole of W[0,2] at every point, fetched there or not (its block
    index never moves). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The whole block of 2000 rows, and the whole right operand, as rectangles. -/
abbrev r6_0 : Rect S2000x128 := Rect.unit (s := S2000x128) ![0, 0] S2000x128.size inb_S2000x128_S2000x128_0_0
abbrev r6_1 : Rect S128x128 := Rect.unit (s := S128x128) ![0, 0] S128x128.size inb_S128x128_S128x128_0_0

/-- What the body leaves in the output block: its one store, the product of the two blocks it read. -/
def out6_2 (x0 : Vec F S2000x128 .f32) (x1 : Vec F S128x128 .f32) : Vec F S2000x128 .f32 :=
  View.canon [⟨r6_0, k6_pay1 (View.ld x0 r6_0) (View.ld x1 r6_1)⟩]

/-- The one store covers the output block. -/
theorem cover6_2 (p0 : Vec F S2000x128 .f32) (y : S2000x128.Idx) :
    ∃ pc ∈ ([⟨r6_0, p0⟩] : List (View.Piece (Elt F) S2000x128 .f32)), y ∈ pc.1.set :=
  View.cover_of_tiled [⟨r6_0, p0⟩] S2000x128.size (by rfl) y

set_option maxHeartbeats 1000000 in
/-- The body on whole staging memrefs, the inputs' at contents `x0`, `x1` and the output's at anything, runs to the
    continuation with the inputs' as they were and the output's at `out6_2 x0 x1`. The body also reads the output
    block before it stores over the whole of it; what it read there is not used. -/
theorem sound_kernel6 (c : Dev nD) (E : Set ℕ) (i : grid6.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-- The pipeline's proof data on core `c`: the arrays as the region finds them; after the body at point `t` each
    input's buffer at its block and the output's at the product of the two blocks; the class invariant; nothing
    owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so `sound_kernel6` applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Body7.lean ====
/- Region 7 of @main: the edge scaling of layer 0, block 2. The rows of h · W[0,2], h the result of block 0
   (region 2), have been gathered along the edges (row e is the product's row at edge e's item index); this
   region multiplies row e by the edge weight w[e], 8000 edges per grid point. The pipeline has three windows:
   the gathered rows (a block of 8000 rows at point t), the matching 8000 entries of the 600000 x 1 column of
   edge weights (a new block at every point) and the rows of the result. The body reads both input blocks,
   spreads the column along each row and stores the entrywise product over the whole output block. Stated at
   the contents `V` the buffers hold when the region is entered: the block each window holds at a point, what
   the body leaves in the output block as a function of the two input blocks, the body's triple, the
   pipeline's proof data and the body obligation at every point. -/
import proofs.«104107_j50560355009131_1_alg».proof.Proof.Gen.Kernel.Launch
import proofs.«104107_j50560355009131_1_alg».proof.Proof.Gen.Kernel.Skeleton
import proofs.«104107_j50560355009131_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The gathered rows' staging buffer holds its block of 8000 rows at every point. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- The edge weights' staging buffer holds the 8000 weights of the same edges at every point. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The whole block of 8000 rows, and the whole block of 8000 weights, as rectangles. -/
abbrev r7_0 : Rect S8000x128 := Rect.unit (s := S8000x128) ![0, 0] S8000x128.size inb_S8000x128_S8000x128_0_0
abbrev r7_1 : Rect S8000x1 := Rect.unit (s := S8000x1) ![0, 0] S8000x1.size inb_S8000x1_S8000x1_0_0

/-- What the body leaves in the output block: its one store, each row it read times that row's weight. -/
def out7_2 (x0 : Vec F S8000x128 .f32) (x1 : Vec F S8000x1 .f32) : Vec F S8000x128 .f32 :=
  View.canon [⟨r7_0, k7_pay1 (View.ld x0 r7_0) (View.ld x1 r7_1)⟩]

/-- The one store covers the output block. -/
theorem cover7_2 (p0 : Vec F S8000x128 .f32) (y : S8000x128.Idx) :
    ∃ pc ∈ ([⟨r7_0, p0⟩] : List (View.Piece (Elt F) S8000x128 .f32)), y ∈ pc.1.set :=
  View.cover_of_tiled [⟨r7_0, p0⟩] S8000x128.size (by rfl) y

set_option maxHeartbeats 1000000 in
/-- The body on whole staging memrefs, the inputs' at contents `x0`, `x1` and the output's at anything, runs to the
    continuation with the inputs' as they were and the output's at `out7_2 x0 x1`. -/
theorem sound_kernel7 (c : Dev nD) (E : Set ℕ) (i : grid7.Coords) (arg1 : Memref sig .tc .vmem S8000x128 .f32) (harg1 : arg1.IsWhole) (arg2 : Memref sig .tc .vmem S8000x1 .f32) (harg2 : arg2.IsWhole) (arg3 : Memref sig .tc .vmem S8000x128 .f32) (harg3 : arg3.IsWhole)
    (x0 : Vec F S8000x128 .f32) (x1 : Vec F S8000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__scale_kernel i arg1 harg1 arg2 harg2 arg3 harg3) K := by
  simp only [cc7__scale_kernel_eq_skeleton]; unfold cc7__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-- The pipeline's proof data on core `c`: the arrays as the region finds them; after the body at point `t` each
    input's buffer at its block and the output's at the rows of the first block scaled by the weights of the
    second; the class invariant; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the inputs' memrefs hold their blocks, so `sound_kernel7` applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ (grid7.coords t) _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.Body8.lean ====
/- Region 8 of @main: one row block of relu(s + b[0,2]) per grid point, s the 100000 rows of segment sums of the
   scaled gathered rows of user_ho · W[0,2] (50 blocks of 2000) and b[0,2] the 128 biases of layer 0, block 2; the
   result is the u that layer 1 starts from.
   The pipeline has three windows: the rows of s (a block of 2000 rows at point t), the one-row bias (the same
   1 x 128 block at every point, fetched once) and the rows of the result. The body reads both input blocks, adds
   the bias row to every row of the block, takes the maximum with zero entrywise and stores that over the whole
   output block. Stated at the contents `V` the buffers hold when the region is entered: the block each window
   holds at a point, what the body leaves in the output block as a function of the two input blocks, the body's
   triple, the pipeline's proof data and the body obligation at every point. -/
import proofs.«104107_j50560355009131_1_alg».proof.Proof.Gen.Kernel.Launch
import proofs.«104107_j50560355009131_1_alg».proof.Proof.Gen.Kernel.Skeleton
import proofs.«104107_j50560355009131_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The staging buffer of the rows holds its block of 2000 rows of segment sums at every point. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- The bias's staging buffer holds the whole row b[0,2] at every point, fetched there or not (its block index
    never moves). -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The whole block of 2000 rows, and the whole one-row bias, as rectangles. -/
abbrev r8_0 : Rect S2000x128 := Rect.unit (s := S2000x128) ![0, 0] S2000x128.size inb_S2000x128_S2000x128_0_0
abbrev r8_1 : Rect S1x128 := Rect.unit (s := S1x128) ![0, 0] S1x128.size inb_S1x128_S1x128_0_0

/-- What the body leaves in the output block: its one store, the rows it read plus the bias row, cut off below at
    zero. -/
def out8_2 (x0 : Vec F S2000x128 .f32) (x1 : Vec F S1x128 .f32) : Vec F S2000x128 .f32 :=
  View.canon [⟨r8_0, k8_pay1 (View.ld x0 r8_0) (View.ld x1 r8_1)⟩]

/-- The one store covers the output block. -/
theorem cover8_2 (p0 : Vec F S2000x128 .f32) (y : S2000x128.Idx) :
    ∃ pc ∈ ([⟨r8_0, p0⟩] : List (View.Piece (Elt F) S2000x128 .f32)), y ∈ pc.1.set :=
  View.cover_of_tiled [⟨r8_0, p0⟩] S2000x128.size (by rfl) y

set_option maxHeartbeats 1000000 in
/-- The body on whole staging memrefs, the inputs' at contents `x0`, `x1` and the output's at anything, runs to the
    continuation with the inputs' as they were and the output's at `out8_2 x0 x1`. The body also reads the output
    block before it stores over the whole of it; what it read there is not used. -/
theorem sound_kernel8 (c : Dev nD) (E : Set ℕ) (i : grid8.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out8_2 x0 x1)) -∗ K ⟨⟩))
      ⊢ wp frame (wpE (defs₀ (F := F)) Variants.none c none) E (cc8__bias_act_kernel i arg1 harg1 arg2 harg2 arg3 harg3) K := by
  simp only [cc8__bias_act_kernel_eq_skeleton]; unfold cc8__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-- The pipeline's proof data on core `c`: the arrays as the region finds them; after the body at point `t` each
    input's buffer at its block and the output's at the rows plus the bias row, cut off below at zero; the class
    invariant; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' memrefs hold their blocks, so `sound_kernel8` applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ (grid8.coords t) _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.Body9.lean ====
/- Region 9 of @main: one row block of the product item_ho · W[0,3] per grid point, item_ho the 100000 rows that
   layer 0's block 1 ends with (segment sums plus b[0,1]; 50 blocks of 2000).
   The pipeline has three windows: the rows of the left operand (a block of 2000 rows at point t), the whole
   128 x 128 right operand (the same block at every point, fetched once) and the rows of the result. The body
   reads both input blocks, rounds each to bf16, multiplies them on the matrix unit into a zero f32 accumulator
   and stores the product over the whole output block. Stated at the contents `V` the buffers hold when the
   region is entered: the block each window holds at a point, what the body leaves in the output block as a
   function of the two input blocks, the body's triple, the pipeline's proof data and the body obligation at
   every point. -/
import proofs.«104107_j50560355009131_1_alg».proof.Proof.Gen.Kernel.Launch
import proofs.«104107_j50560355009131_1_alg».proof.Proof.Gen.Kernel.Skeleton
import proofs.«104107_j50560355009131_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The left operand's staging buffer holds its block of rows of item_ho at every point. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- The right operand's staging buffer holds the whole of W[0,3] at every point, fetched there or not (its block
    index never moves). -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- The whole block of 2000 rows, and the whole right operand, as rectangles. -/
abbrev r9_0 : Rect S2000x128 := Rect.unit (s := S2000x128) ![0, 0] S2000x128.size inb_S2000x128_S2000x128_0_0
abbrev r9_1 : Rect S128x128 := Rect.unit (s := S128x128) ![0, 0] S128x128.size inb_S128x128_S128x128_0_0

/-- What the body leaves in the output block: its one store, the product of the two blocks it read. -/
def out9_2 (x0 : Vec F S2000x128 .f32) (x1 : Vec F S128x128 .f32) : Vec F S2000x128 .f32 :=
  View.canon [⟨r9_0, k9_pay1 (View.ld x0 r9_0) (View.ld x1 r9_1)⟩]

/-- The one store covers the output block. -/
theorem cover9_2 (p0 : Vec F S2000x128 .f32) (y : S2000x128.Idx) :
    ∃ pc ∈ ([⟨r9_0, p0⟩] : List (View.Piece (Elt F) S2000x128 .f32)), y ∈ pc.1.set :=
  View.cover_of_tiled [⟨r9_0, p0⟩] S2000x128.size (by rfl) y

set_option maxHeartbeats 1000000 in
/-- The body on whole staging memrefs, the inputs' at contents `x0`, `x1` and the output's at anything, runs to the
    continuation with the inputs' as they were and the output's at `out9_2 x0 x1`. The body also reads the output
    block before it stores over the whole of it; what it read there is not used. -/
theorem sound_kernel9 (c : Dev nD) (E : Set ℕ) (i : grid9.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9__matmul_kernel i arg1 harg1 arg2 harg2 arg3 harg3) K := by
  simp only [cc9__matmul_kernel_eq_skeleton]; unfold cc9__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-- The pipeline's proof data on core `c`: the arrays as the region finds them; after the body at point `t` each
    input's buffer at its block and the output's at the product of the two blocks; the class invariant; nothing
    owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' memrefs hold their blocks, so `sound_kernel9` applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ (grid9.coords t) _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.Body10.lean ====
/- Region 10 of @main: the edge scaling of layer 0, block 3. The rows of h · W[0,3], h the result of block 1
   (region 5), have been gathered along the edges (row e is the product's row at edge e's user index); this
   region multiplies row e by the edge weight w[e], 8000 edges per grid point. The pipeline has three windows:
   the gathered rows (a block of 8000 rows at point t), the matching 8000 entries of the 600000 x 1 column of
   edge weights (a new block at every point) and the rows of the result. The body reads both input blocks,
   spreads the column along each row and stores the entrywise product over the whole output block. Stated at
   the contents `V` the buffers hold when the region is entered: the block each window holds at a point, what
   the body leaves in the output block as a function of the two input blocks, the body's triple, the
   pipeline's proof data and the body obligation at every point. -/
import proofs.«104107_j50560355009131_1_alg».proof.Proof.Gen.Kernel.Launch
import proofs.«104107_j50560355009131_1_alg».proof.Proof.Gen.Kernel.Skeleton
import proofs.«104107_j50560355009131_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The gathered rows' staging buffer holds its block of 8000 rows at every point. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
/-- The edge weights' staging buffer holds the 8000 weights of the same edges at every point. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- The whole block of 8000 rows, and the whole block of 8000 weights, as rectangles. -/
abbrev r10_0 : Rect S8000x128 := Rect.unit (s := S8000x128) ![0, 0] S8000x128.size inb_S8000x128_S8000x128_0_0
abbrev r10_1 : Rect S8000x1 := Rect.unit (s := S8000x1) ![0, 0] S8000x1.size inb_S8000x1_S8000x1_0_0

/-- What the body leaves in the output block: its one store, each row it read times that row's weight. -/
def out10_2 (x0 : Vec F S8000x128 .f32) (x1 : Vec F S8000x1 .f32) : Vec F S8000x128 .f32 :=
  View.canon [⟨r10_0, k10_pay1 (View.ld x0 r10_0) (View.ld x1 r10_1)⟩]

/-- The one store covers the output block. -/
theorem cover10_2 (p0 : Vec F S8000x128 .f32) (y : S8000x128.Idx) :
    ∃ pc ∈ ([⟨r10_0, p0⟩] : List (View.Piece (Elt F) S8000x128 .f32)), y ∈ pc.1.set :=
  View.cover_of_tiled [⟨r10_0, p0⟩] S8000x128.size (by rfl) y

set_option maxHeartbeats 1000000 in
/-- The body on whole staging memrefs, the inputs' at contents `x0`, `x1` and the output's at anything, runs to the
    continuation with the inputs' as they were and the output's at `out10_2 x0 x1`. -/
theorem sound_kernel10 (c : Dev nD) (E : Set ℕ) (i : grid10.Coords) (arg1 : Memref sig .tc .vmem S8000x128 .f32) (harg1 : arg1.IsWhole) (arg2 : Memref sig .tc .vmem S8000x1 .f32) (harg2 : arg2.IsWhole) (arg3 : Memref sig .tc .vmem S8000x128 .f32) (harg3 : arg3.IsWhole)
    (x0 : Vec F S8000x128 .f32) (x1 : Vec F S8000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out10_2 x0 x1)) -∗ K ⟨⟩))
      ⊢ wp frame (wpE (defs₀ (F := F)) Variants.none c none) E (cc10__scale_kernel i arg1 harg1 arg2 harg2 arg3 harg3) K := by
  simp only [cc10__scale_kernel_eq_skeleton]; unfold cc10__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-- The pipeline's proof data on core `c`: the arrays as the region finds them; after the body at point `t` each
    input's buffer at its block and the output's at the rows of the first block scaled by the weights of the
    second; the class invariant; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the inputs' memrefs hold their blocks, so `sound_kernel10` applies; the invariant and
    the core's dues pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ (grid10.coords t) _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.K.Body11.lean ====
/- Region 11 of @main: one row block of relu(s + b[0,3]) per grid point, s the 50000 rows of segment sums of the
   scaled gathered rows of item_ho · W[0,3] (25 blocks of 2000) and b[0,3] the 128 biases of layer 0, block 3; the
   result is the v that layer 1 starts from.
   The pipeline has three windows: the rows of s (a block of 2000 rows at point t), the one-row bias (the same
   1 x 128 block at every point, fetched once) and the rows of the result. The body reads both input blocks, adds
   the bias row to every row of the block, takes the maximum with zero entrywise and stores that over the whole
   output block. Stated at the contents `V` the buffers hold when the region is entered: the block each window
   holds at a point, what the body leaves in the output block as a function of the two input blocks, the body's
   triple, the pipeline's proof data and the body obligation at every point. -/
import proofs.«104107_j50560355009131_1_alg».proof.Proof.Gen.Kernel.Launch
import proofs.«104107_j50560355009131_1_alg».proof.Proof.Gen.Kernel.Skeleton
import proofs.«104107_j50560355009131_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- The staging buffer of the rows holds its block of 2000 rows of segment sums at every point. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- The bias's staging buffer holds the whole row b[0,3] at every point, fetched there or not (its block index
    never moves). -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- The whole block of 2000 rows, and the whole one-row bias, as rectangles. -/
abbrev r11_0 : Rect S2000x128 := Rect.unit (s := S2000x128) ![0, 0] S2000x128.size inb_S2000x128_S2000x128_0_0
abbrev r11_1 : Rect S1x128 := Rect.unit (s := S1x128) ![0, 0] S1x128.size inb_S1x128_S1x128_0_0

/-- What the body leaves in the output block: its one store, the rows it read plus the bias row, cut off below at
    zero. -/
def out11_2 (x0 : Vec F S2000x128 .f32) (x1 : Vec F S1x128 .f32) : Vec F S2000x128 .f32 :=
  View.canon [⟨r11_0, k11_pay1 (View.ld x0 r11_0) (View.ld x1 r11_1)⟩]

/-- The one store covers the output block. -/
theorem cover11_2 (p0 : Vec F S2000x128 .f32) (y : S2000x128.Idx) :
    ∃ pc ∈ ([⟨r11_0, p0⟩] : List (View.Piece (Elt F) S2000x128 .f32)), y ∈ pc.1.set :=
  View.cover_of_tiled [⟨r11_0, p0⟩] S2000x128.size (by rfl) y

set_option maxHeartbeats 1000000 in
/-- The body on whole staging memrefs, the inputs' at contents `x0`, `x1` and the output's at anything, runs to the
    continuation with the inputs' as they were and the output's at `out11_2 x0 x1`. The body also reads the output
    block before it stores over the whole of it; what it read there is not used. -/
theorem sound_kernel11 (c : Dev nD) (E : Set ℕ) (i : grid11.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out11_2 x0 x1)) -∗ K ⟨⟩))
      ⊢ wp frame (wpE (defs₀ (F := F)) Variants.none c none) E (cc11__bias_act_kernel i arg1 harg1 arg2 harg2 arg3 harg3) K := by
  simp only [cc11__bias_act_kernel_eq_skeleton]; unfold cc11__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover11_2 _)

/-- The pipeline's proof data on core `c`: the arrays as the region finds them; after the body at point `t` each
    input's buffer at its block and the output's at the rows plus the bias row, cut off below at zero; the class
    invariant; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out11_2 (iblk11 V c 0 t) (iblk11 V c 1 t)
  Φ _ := Pipeline.ΦA spec11 c
  q _ := fullShare
  owed _ := 0

theorem A_eq11 (c : Dev nD) (w : Fin cfg11.W) : (dat11 V c).A w = V c (Pipeline.arrRef spec11 w) := by
  dsimp only [dat11]
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = out11_2 (iblk11 V c 0 t) (iblk11 V c 1 t) := by dsimp only [dat11]
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

/-- What the body is called with at point `t`, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t))

/-- The body at any point: the inputs' memrefs hold their blocks, so `sound_kernel11` applies; the invariant and
    the core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).Φ t.succ = (dat11 V c).Φ t.castSucc from rfl,
    show (dat11 V c).owesAt () t.succ = (dat11 V c).owesAt () t.castSucc from rfl,
    after11_0, after11_1, after11_2]
  iintro ⟨HΦ, Ho, ⟨%d0, H0⟩, ⟨%d1, H1⟩, ⟨%d2, H2⟩⟩
  iapply (sound_kernel11 c Set.univ (grid11.coords t) _ _ _ _ _ _ (iblk11 V c 0 t) (iblk11 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.K.Body12.lean ====
/- Region 12 of @main: one row block of the product u · W[1,0] per grid point, u the 100000 rows that layer 1
   starts from (layer 0's block 2 after its bias and relu; 50 blocks of 2000).
   The pipeline has three windows: the rows of the left operand (a block of 2000 rows at point t), the whole
   128 x 128 right operand (the same block at every point, fetched once) and the rows of the result. The body
   reads both input blocks, rounds each to bf16, multiplies them on the matrix unit into a zero f32 accumulator
   and stores the product over the whole output block. Stated at the contents `V` the buffers hold when the
   region is entered: the block each window holds at a point, what the body leaves in the output block as a
   function of the two input blocks, the body's triple, the pipeline's proof data and the body obligation at
   every point. -/
import proofs.«104107_j50560355009131_1_alg».proof.Proof.Gen.Kernel.Launch
import proofs.«104107_j50560355009131_1_alg».proof.Proof.Gen.Kernel.Skeleton
import proofs.«104107_j50560355009131_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- The left operand's staging buffer holds its block of rows of u at every point. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
/-- The right operand's staging buffer holds the whole of W[1,0] at every point, fetched there or not (its block
    index never moves). -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- The whole block of 2000 rows, and the whole right operand, as rectangles. -/
abbrev r12_0 : Rect S2000x128 := Rect.unit (s := S2000x128) ![0, 0] S2000x128.size inb_S2000x128_S2000x128_0_0
abbrev r12_1 : Rect S128x128 := Rect.unit (s := S128x128) ![0, 0] S128x128.size inb_S128x128_S128x128_0_0

/-- What the body leaves in the output block: its one store, the product of the two blocks it read. -/
def out12_2 (x0 : Vec F S2000x128 .f32) (x1 : Vec F S128x128 .f32) : Vec F S2000x128 .f32 :=
  View.canon [⟨r12_0, k12_pay1 (View.ld x0 r12_0) (View.ld x1 r12_1)⟩]

/-- The one store covers the output block. -/
theorem cover12_2 (p0 : Vec F S2000x128 .f32) (y : S2000x128.Idx) :
    ∃ pc ∈ ([⟨r12_0, p0⟩] : List (View.Piece (Elt F) S2000x128 .f32)), y ∈ pc.1.set :=
  View.cover_of_tiled [⟨r12_0, p0⟩] S2000x128.size (by rfl) y

set_option maxHeartbeats 1000000 in
/-- The body on whole staging memrefs, the inputs' at contents `x0`, `x1` and the output's at anything, runs to the
    continuation with the inputs' as they were and the output's at `out12_2 x0 x1`. The body also reads the output
    block before it stores over the whole of it; what it read there is not used. -/
theorem sound_kernel12 (c : Dev nD) (E : Set ℕ) (i : grid12.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out12_2 x0 x1)) -∗ K ⟨⟩))
      ⊢ wp frame (wpE (defs₀ (F := F)) Variants.none c none) E (cc12__matmul_kernel i arg1 harg1 arg2 harg2 arg3 harg3) K := by
  simp only [cc12__matmul_kernel_eq_skeleton]; unfold cc12__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

/-- The pipeline's proof data on core `c`: the arrays as the region finds them; after the body at point `t` each
    input's buffer at its block and the output's at the product of the two blocks; the class invariant; nothing
    owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by
  dsimp only [dat12]
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-- What the body is called with at point `t`, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

/-- The body at any point: the inputs' memrefs hold their blocks, so `sound_kernel12` applies; the invariant and
    the core's dues pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ (grid12.coords t) _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation12 (c : Dev nD) : BodyObligation (dat12 (F := F) V c) (defs₀ (F := F)) Variants.none () Set.univ := fun t => by
  rw [bigSep_W12, bigSep_W12]
  exact sound_body12 V c t

end Cert.Kernel.Hand

end
-- ==== Proof.K.Body13.lean ====
/- Region 13 of @main: the edge scaling of layer 1, block 0. The rows of u' · W[1,0], u' the user rows layer 0
   leaves (the result of region 8), have been gathered along the edges (row e is the product's row at edge e's
   user index); this region multiplies row e by the edge weight w[e], 8000 edges per grid point. The pipeline
   has three windows: the gathered rows (a block of 8000 rows at point t), the matching 8000 entries of the
   600000 x 1 column of edge weights (a new block at every point) and the rows of the result. The body reads
   both input blocks, spreads the column along each row and stores the entrywise product over the whole output
   block. Stated at the contents `V` the buffers hold when the region is entered: the block each window holds
   at a point, what the body leaves in the output block as a function of the two input blocks, the body's
   triple, the pipeline's proof data and the body obligation at every point. -/
import proofs.«104107_j50560355009131_1_alg».proof.Proof.Gen.Kernel.Launch
import proofs.«104107_j50560355009131_1_alg».proof.Proof.Gen.Kernel.Skeleton
import proofs.«104107_j50560355009131_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- The gathered rows' staging buffer holds its block of 8000 rows at every point. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
/-- The edge weights' staging buffer holds the 8000 weights of the same edges at every point. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- The whole block of 8000 rows, and the whole block of 8000 weights, as rectangles. -/
abbrev r13_0 : Rect S8000x128 := Rect.unit (s := S8000x128) ![0, 0] S8000x128.size inb_S8000x128_S8000x128_0_0
abbrev r13_1 : Rect S8000x1 := Rect.unit (s := S8000x1) ![0, 0] S8000x1.size inb_S8000x1_S8000x1_0_0

/-- What the body leaves in the output block: its one store, each row it read times that row's weight. -/
def out13_2 (x0 : Vec F S8000x128 .f32) (x1 : Vec F S8000x1 .f32) : Vec F S8000x128 .f32 :=
  View.canon [⟨r13_0, k13_pay1 (View.ld x0 r13_0) (View.ld x1 r13_1)⟩]

/-- The one store covers the output block. -/
theorem cover13_2 (p0 : Vec F S8000x128 .f32) (y : S8000x128.Idx) :
    ∃ pc ∈ ([⟨r13_0, p0⟩] : List (View.Piece (Elt F) S8000x128 .f32)), y ∈ pc.1.set :=
  View.cover_of_tiled [⟨r13_0, p0⟩] S8000x128.size (by rfl) y

set_option maxHeartbeats 1000000 in
/-- The body on whole staging memrefs, the inputs' at contents `x0`, `x1` and the output's at anything, runs to the
    continuation with the inputs' as they were and the output's at `out13_2 x0 x1`. -/
theorem sound_kernel13 (c : Dev nD) (E : Set ℕ) (i : grid13.Coords) (arg1 : Memref sig .tc .vmem S8000x128 .f32) (harg1 : arg1.IsWhole) (arg2 : Memref sig .tc .vmem S8000x1 .f32) (harg2 : arg2.IsWhole) (arg3 : Memref sig .tc .vmem S8000x128 .f32) (harg3 : arg3.IsWhole)
    (x0 : Vec F S8000x128 .f32) (x1 : Vec F S8000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out13_2 x0 x1)) -∗ K ⟨⟩))
      ⊢ wp frame (wpE (defs₀ (F := F)) Variants.none c none) E (cc13__scale_kernel i arg1 harg1 arg2 harg2 arg3 harg3) K := by
  simp only [cc13__scale_kernel_eq_skeleton]; unfold cc13__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover13_2 _)

/-- The pipeline's proof data on core `c`: the arrays as the region finds them; after the body at point `t` each
    input's buffer at its block and the output's at the rows of the first block scaled by the weights of the
    second; the class invariant; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => out13_2 (iblk13 V c 0 t) (iblk13 V c 1 t)
  Φ _ := Pipeline.ΦA spec13 c
  q _ := fullShare
  owed _ := 0

theorem A_eq13 (c : Dev nD) (w : Fin cfg13.W) : (dat13 V c).A w = V c (Pipeline.arrRef spec13 w) := by
  dsimp only [dat13]
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = out13_2 (iblk13 V c 0 t) (iblk13 V c 1 t) := by dsimp only [dat13]
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-- What the body is called with at point `t`, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t))

/-- The body at any point: the inputs' memrefs hold their blocks, so `sound_kernel13` applies; the invariant and
    the core's dues pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).Φ t.succ = (dat13 V c).Φ t.castSucc from rfl,
    show (dat13 V c).owesAt () t.succ = (dat13 V c).owesAt () t.castSucc from rfl,
    after13_0, after13_1, after13_2]
  iintro ⟨HΦ, Ho, ⟨%d0, H0⟩, ⟨%d1, H1⟩, ⟨%d2, H2⟩⟩
  iapply (sound_kernel13 c Set.univ (grid13.coords t) _ _ _ _ _ _ (iblk13 V c 0 t) (iblk13 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation13 (c : Dev nD) : BodyObligation (dat13 (F := F) V c) (defs₀ (F := F)) Variants.none () Set.univ := fun t => by
  rw [bigSep_W13, bigSep_W13]
  exact sound_body13 V c t

end Cert.Kernel.Hand

end
-- ==== Proof.K.Body14.lean ====
/- Region 14 of @main: the bias step of layer 1, block 0. The scaled rows of region 13 have been summed into one
   row per item (row n is the sum of the scaled rows of the edges whose item index is n, 50000 rows); this
   region adds the bias b[1,0] to every row, 2000 rows per grid point, with no activation after it. The
   pipeline has three windows: the summed rows (a block of 2000 rows at point t), the bias as a 1 x 128 row
   (the same block at every point, fetched once) and the rows of the result. The body reads both input blocks,
   repeats the one row down the 2000 rows and stores the entrywise sum over the whole output block. Stated at
   the contents `V` the buffers hold when the region is entered: the block each window holds at a point, what
   the body leaves in the output block as a function of the two input blocks, the body's triple, the
   pipeline's proof data and the body obligation at every point. -/
import proofs.«104107_j50560355009131_1_alg».proof.Proof.Gen.Kernel.Launch
import proofs.«104107_j50560355009131_1_alg».proof.Proof.Gen.Kernel.Skeleton
import proofs.«104107_j50560355009131_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- The summed rows' staging buffer holds its block of 2000 rows at every point. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
/-- The bias row's staging buffer holds the whole row at every point, fetched there or not (its block index
    never moves). -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- The whole block of 2000 rows, and the whole bias row, as rectangles. -/
abbrev r14_0 : Rect S2000x128 := Rect.unit (s := S2000x128) ![0, 0] S2000x128.size inb_S2000x128_S2000x128_0_0
abbrev r14_1 : Rect S1x128 := Rect.unit (s := S1x128) ![0, 0] S1x128.size inb_S1x128_S1x128_0_0

/-- What the body leaves in the output block: its one store, each row it read plus the bias row. -/
def out14_2 (x0 : Vec F S2000x128 .f32) (x1 : Vec F S1x128 .f32) : Vec F S2000x128 .f32 :=
  View.canon [⟨r14_0, k14_pay1 (View.ld x0 r14_0) (View.ld x1 r14_1)⟩]

/-- The one store covers the output block. -/
theorem cover14_2 (p0 : Vec F S2000x128 .f32) (y : S2000x128.Idx) :
    ∃ pc ∈ ([⟨r14_0, p0⟩] : List (View.Piece (Elt F) S2000x128 .f32)), y ∈ pc.1.set :=
  View.cover_of_tiled [⟨r14_0, p0⟩] S2000x128.size (by rfl) y

set_option maxHeartbeats 1000000 in
/-- The body on whole staging memrefs, the inputs' at contents `x0`, `x1` and the output's at anything, runs to the
    continuation with the inputs' as they were and the output's at `out14_2 x0 x1`. -/
theorem sound_kernel14 (c : Dev nD) (E : Set ℕ) (i : grid14.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out14_2 x0 x1)) -∗ K ⟨⟩))
      ⊢ wp frame (wpE (defs₀ (F := F)) Variants.none c none) E (cc14__bias_act_kernel i arg1 harg1 arg2 harg2 arg3 harg3) K := by
  simp only [cc14__bias_act_kernel_eq_skeleton]; unfold cc14__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover14_2 _)

/-- The pipeline's proof data on core `c`: the arrays as the region finds them; after the body at point `t` each
    input's buffer at its block and the output's at the rows of the first block each plus the bias row; the
    class invariant; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => out14_2 (iblk14 V c 0 t) (iblk14 V c 1 t)
  Φ _ := Pipeline.ΦA spec14 c
  q _ := fullShare
  owed _ := 0

theorem A_eq14 (c : Dev nD) (w : Fin cfg14.W) : (dat14 V c).A w = V c (Pipeline.arrRef spec14 w) := by
  dsimp only [dat14]
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = out14_2 (iblk14 V c 0 t) (iblk14 V c 1 t) := by dsimp only [dat14]
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d

/-- What the body is called with at point `t`, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t))

/-- The body at any point: the inputs' memrefs hold their blocks, so `sound_kernel14` applies; the invariant and
    the core's dues pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1]
  rw [show (dat14 V c).Φ t.succ = (dat14 V c).Φ t.castSucc from rfl,
    show (dat14 V c).owesAt () t.succ = (dat14 V c).owesAt () t.castSucc from rfl,
    after14_0, after14_1, after14_2]
  iintro ⟨HΦ, Ho, ⟨%d0, H0⟩, ⟨%d1, H1⟩, ⟨%d2, H2⟩⟩
  iapply (sound_kernel14 c Set.univ (grid14.coords t) _ _ _ _ _ _ (iblk14 V c 0 t) (iblk14 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation14 (c : Dev nD) : BodyObligation (dat14 (F := F) V c) (defs₀ (F := F)) Variants.none () Set.univ := fun t => by
  rw [bigSep_W14, bigSep_W14]
  exact sound_body14 V c t

end Cert.Kernel.Hand

end
-- ==== Proof.K.Body15.lean ====
/- Region 15 of @main: one row block of the product v · W[1,1] per grid point, v the 50000 rows that layer 1
   starts from (layer 0's block 3 after its bias and relu; 25 blocks of 2000).
   The pipeline has three windows: the rows of the left operand (a block of 2000 rows at point t), the whole
   128 x 128 right operand (the same block at every point, fetched once) and the rows of the result. The body
   reads both input blocks, rounds each to bf16, multiplies them on the matrix unit into a zero f32 accumulator
   and stores the product over the whole output block. Stated at the contents `V` the buffers hold when the
   region is entered: the block each window holds at a point, what the body leaves in the output block as a
   function of the two input blocks, the body's triple, the pipeline's proof data and the body obligation at
   every point. -/
import proofs.«104107_j50560355009131_1_alg».proof.Proof.Gen.Kernel.Launch
import proofs.«104107_j50560355009131_1_alg».proof.Proof.Gen.Kernel.Skeleton
import proofs.«104107_j50560355009131_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- The left operand's staging buffer holds its block of rows of v at every point. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
/-- The right operand's staging buffer holds the whole of W[1,1] at every point, fetched there or not (its block
    index never moves). -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-- The whole block of 2000 rows, and the whole right operand, as rectangles. -/
abbrev r15_0 : Rect S2000x128 := Rect.unit (s := S2000x128) ![0, 0] S2000x128.size inb_S2000x128_S2000x128_0_0
abbrev r15_1 : Rect S128x128 := Rect.unit (s := S128x128) ![0, 0] S128x128.size inb_S128x128_S128x128_0_0

/-- What the body leaves in the output block: its one store, the product of the two blocks it read. -/
def out15_2 (x0 : Vec F S2000x128 .f32) (x1 : Vec F S128x128 .f32) : Vec F S2000x128 .f32 :=
  View.canon [⟨r15_0, k15_pay1 (View.ld x0 r15_0) (View.ld x1 r15_1)⟩]

/-- The one store covers the output block. -/
theorem cover15_2 (p0 : Vec F S2000x128 .f32) (y : S2000x128.Idx) :
    ∃ pc ∈ ([⟨r15_0, p0⟩] : List (View.Piece (Elt F) S2000x128 .f32)), y ∈ pc.1.set :=
  View.cover_of_tiled [⟨r15_0, p0⟩] S2000x128.size (by rfl) y

set_option maxHeartbeats 1000000 in
/-- The body on whole staging memrefs, the inputs' at contents `x0`, `x1` and the output's at anything, runs to the
    continuation with the inputs' as they were and the output's at `out15_2 x0 x1`. The body also reads the output
    block before it stores over the whole of it; what it read there is not used. -/
theorem sound_kernel15 (c : Dev nD) (E : Set ℕ) (i : grid15.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out15_2 x0 x1)) -∗ K ⟨⟩))
      ⊢ wp frame (wpE (defs₀ (F := F)) Variants.none c none) E (cc15__matmul_kernel i arg1 harg1 arg2 harg2 arg3 harg3) K := by
  simp only [cc15__matmul_kernel_eq_skeleton]; unfold cc15__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover15_2 _)

/-- The pipeline's proof data on core `c`: the arrays as the region finds them; after the body at point `t` each
    input's buffer at its block and the output's at the product of the two blocks; the class invariant; nothing
    owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => out15_2 (iblk15 V c 0 t) (iblk15 V c 1 t)
  Φ _ := Pipeline.ΦA spec15 c
  q _ := fullShare
  owed _ := 0

theorem A_eq15 (c : Dev nD) (w : Fin cfg15.W) : (dat15 V c).A w = V c (Pipeline.arrRef spec15 w) := by
  dsimp only [dat15]
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = out15_2 (iblk15 V c 0 t) (iblk15 V c 1 t) := by dsimp only [dat15]
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d

/-- What the body is called with at point `t`, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t))

/-- The body at any point: the inputs' memrefs hold their blocks, so `sound_kernel15` applies; the invariant and
    the core's dues pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1]
  rw [show (dat15 V c).Φ t.succ = (dat15 V c).Φ t.castSucc from rfl,
    show (dat15 V c).owesAt () t.succ = (dat15 V c).owesAt () t.castSucc from rfl,
    after15_0, after15_1, after15_2]
  iintro ⟨HΦ, Ho, ⟨%d0, H0⟩, ⟨%d1, H1⟩, ⟨%d2, H2⟩⟩
  iapply (sound_kernel15 c Set.univ (grid15.coords t) _ _ _ _ _ _ (iblk15 V c 0 t) (iblk15 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation15 (c : Dev nD) : BodyObligation (dat15 (F := F) V c) (defs₀ (F := F)) Variants.none () Set.univ := fun t => by
  rw [bigSep_W15, bigSep_W15]
  exact sound_body15 V c t

end Cert.Kernel.Hand

end
-- ==== Proof.K.Body16.lean ====
/- Region 16 of @main: the edge scaling of layer 1, block 1. The rows of v' · W[1,1], v' the item rows layer 0
   leaves (the result of region 11), have been gathered along the edges (row e is the product's row at edge
   e's item index); this region multiplies row e by the edge weight w[e], 8000 edges per grid point. The
   pipeline has three windows: the gathered rows (a block of 8000 rows at point t), the matching 8000 entries
   of the 600000 x 1 column of edge weights (a new block at every point) and the rows of the result. The body
   reads both input blocks, spreads the column along each row and stores the entrywise product over the whole
   output block. Stated at the contents `V` the buffers hold when the region is entered: the block each window
   holds at a point, what the body leaves in the output block as a function of the two input blocks, the
   body's triple, the pipeline's proof data and the body obligation at every point. -/
import proofs.«104107_j50560355009131_1_alg».proof.Proof.Gen.Kernel.Launch
import proofs.«104107_j50560355009131_1_alg».proof.Proof.Gen.Kernel.Skeleton
import proofs.«104107_j50560355009131_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- The gathered rows' staging buffer holds its block of 8000 rows at every point. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)
/-- The edge weights' staging buffer holds the 8000 weights of the same edges at every point. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

/-- The whole block of 8000 rows, and the whole block of 8000 weights, as rectangles. -/
abbrev r16_0 : Rect S8000x128 := Rect.unit (s := S8000x128) ![0, 0] S8000x128.size inb_S8000x128_S8000x128_0_0
abbrev r16_1 : Rect S8000x1 := Rect.unit (s := S8000x1) ![0, 0] S8000x1.size inb_S8000x1_S8000x1_0_0

/-- What the body leaves in the output block: its one store, each row it read times that row's weight. -/
def out16_2 (x0 : Vec F S8000x128 .f32) (x1 : Vec F S8000x1 .f32) : Vec F S8000x128 .f32 :=
  View.canon [⟨r16_0, k16_pay1 (View.ld x0 r16_0) (View.ld x1 r16_1)⟩]

/-- The one store covers the output block. -/
theorem cover16_2 (p0 : Vec F S8000x128 .f32) (y : S8000x128.Idx) :
    ∃ pc ∈ ([⟨r16_0, p0⟩] : List (View.Piece (Elt F) S8000x128 .f32)), y ∈ pc.1.set :=
  View.cover_of_tiled [⟨r16_0, p0⟩] S8000x128.size (by rfl) y

set_option maxHeartbeats 1000000 in
/-- The body on whole staging memrefs, the inputs' at contents `x0`, `x1` and the output's at anything, runs to the
    continuation with the inputs' as they were and the output's at `out16_2 x0 x1`. -/
theorem sound_kernel16 (c : Dev nD) (E : Set ℕ) (i : grid16.Coords) (arg1 : Memref sig .tc .vmem S8000x128 .f32) (harg1 : arg1.IsWhole) (arg2 : Memref sig .tc .vmem S8000x1 .f32) (harg2 : arg2.IsWhole) (arg3 : Memref sig .tc .vmem S8000x128 .f32) (harg3 : arg3.IsWhole)
    (x0 : Vec F S8000x128 .f32) (x1 : Vec F S8000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out16_2 x0 x1)) -∗ K ⟨⟩))
      ⊢ wp frame (wpE (defs₀ (F := F)) Variants.none c none) E (cc16__scale_kernel i arg1 harg1 arg2 harg2 arg3 harg3) K := by
  simp only [cc16__scale_kernel_eq_skeleton]; unfold cc16__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover16_2 _)

/-- The pipeline's proof data on core `c`: the arrays as the region finds them; after the body at point `t` each
    input's buffer at its block and the output's at the rows of the first block scaled by the weights of the
    second; the class invariant; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => out16_2 (iblk16 V c 0 t) (iblk16 V c 1 t)
  Φ _ := Pipeline.ΦA spec16 c
  q _ := fullShare
  owed _ := 0

theorem A_eq16 (c : Dev nD) (w : Fin cfg16.W) : (dat16 V c).A w = V c (Pipeline.arrRef spec16 w) := by
  dsimp only [dat16]
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = out16_2 (iblk16 V c 0 t) (iblk16 V c 1 t) := by dsimp only [dat16]
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d

/-- What the body is called with at point `t`, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d)))

/-- and what it returns. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t))

/-- The body at any point: the inputs' memrefs hold their blocks, so `sound_kernel16` applies; the invariant and
    the core's dues pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1]
  rw [show (dat16 V c).Φ t.succ = (dat16 V c).Φ t.castSucc from rfl,
    show (dat16 V c).owesAt () t.succ = (dat16 V c).owesAt () t.castSucc from rfl,
    after16_0, after16_1, after16_2]
  iintro ⟨HΦ, Ho, ⟨%d0, H0⟩, ⟨%d1, H1⟩, ⟨%d2, H2⟩⟩
  iapply (sound_kernel16 c Set.univ (grid16.coords t) _ _ _ _ _ _ (iblk16 V c 0 t) (iblk16 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation16 (c : Dev nD) : BodyObligation (dat16 (F := F) V c) (defs₀ (F := F)) Variants.none () Set.univ := fun t => by
  rw [bigSep_W16, bigSep_W16]
  exact sound_body16 V c t

end Cert.Kernel.Hand

end
-- ==== Proof.K.Body17.lean ====
/- Region 17 of @main: the bias step of layer 1, block 1. The scaled rows of region 16 have been summed into one
   row per user (row n is the sum of the scaled rows of the edges whose user index is n, 100000 rows); this
   region adds the bias b[1,1] to every row, 2000 rows per grid point, with no activation after it. The
   pipeline has three windows: the summed rows (a block of 2000 rows at point t), the bias as a 1 x 128 row
   (the same block at every point, fetched once) and the rows of the result. The body reads both input blocks,
   repeats the one row down the 2000 rows and stores the entrywise sum over the whole output block. Stated at
   the contents `V` the buffers hold when the region is entered: the block each window holds at a point, what
   the body leaves in the output block as a function of the two input blocks, the body's triple, the
   pipeline's proof data and the body obligation at every point. -/
import proofs.«104107_j50560355009131_1_alg».proof.Proof.Gen.Kernel.Launch
import proofs.«104107_j50560355009131_1_alg».proof.Proof.Gen.Kernel.Skeleton
import proofs.«104107_j50560355009131_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- The summed rows' staging buffer holds its block of 2000 rows at every point. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)
/-- The bias row's staging buffer holds the whole row at every point, fetched there or not (its block index
    never moves). -/
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

/-- The whole block of 2000 rows, and the whole bias row, as rectangles. -/
abbrev r17_0 : Rect S2000x128 := Rect.unit (s := S2000x128) ![0, 0] S2000x128.size inb_S2000x128_S2000x128_0_0
abbrev r17_1 : Rect S1x128 := Rect.unit (s := S1x128) ![0, 0] S1x128.size inb_S1x128_S1x128_0_0

/-- What the body leaves in the output block: its one store, each row it read plus the bias row. -/
def out17_2 (x0 : Vec F S2000x128 .f32) (x1 : Vec F S1x128 .f32) : Vec F S2000x128 .f32 :=
  View.canon [⟨r17_0, k17_pay1 (View.ld x0 r17_0) (View.ld x1 r17_1)⟩]

/-- The one store covers the output block. -/
theorem cover17_2 (p0 : Vec F S2000x128 .f32) (y : S2000x128.Idx) :
    ∃ pc ∈ ([⟨r17_0, p0⟩] : List (View.Piece (Elt F) S2000x128 .f32)), y ∈ pc.1.set :=
  View.cover_of_tiled [⟨r17_0, p0⟩] S2000x128.size (by rfl) y

set_option maxHeartbeats 1000000 in
/-- The body on whole staging memrefs, the inputs' at contents `x0`, `x1` and the output's at anything, runs to the
    continuation with the inputs' as they were and the output's at `out17_2 x0 x1`. -/
theorem sound_kernel17 (c : Dev nD) (E : Set ℕ) (i : grid17.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out17_2 x0 x1)) -∗ K ⟨⟩))
      ⊢ wp frame (wpE (defs₀ (F := F)) Variants.none c none) E (cc17__bias_act_kernel i arg1 harg1 arg2 harg2 arg3 harg3) K := by
  simp only [cc17__bias_act_kernel_eq_skeleton]; unfold cc17__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover17_2 _)

/-- The pipeline's proof data on core `c`: the arrays as the region finds them; after the body at point `t` each
    input's buffer at its block and the output's at the rows of the first block each plus the bias row; the
    class invariant; nothing owed; full shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => out17_2 (iblk17 V c 0 t) (iblk17 V c 1 t)
  Φ _ := Pipeline.ΦA spec17 c
  q _ := fullShare
  owed _ := 0

theorem A_eq17 (c : Dev nD) (w : Fin cfg17.W) : (dat17 V c).A w = V c (Pipeline.arrRef spec17 w) := by
  dsimp only [dat17]
theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = out17_2 (iblk17 V c 0 t) (iblk17 V c 1 t) := by dsimp only [dat17]
theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d

/-- What the body is called with at point `t`, -/
def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d)))

/-- and what it returns. -/
def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t))

/-- The body at any point: the inputs' memrefs hold their blocks, so `sound_kernel17` applies; the invariant and
    the core's dues pass through unread. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1]
  rw [show (dat17 V c).Φ t.succ = (dat17 V c).Φ t.castSucc from rfl,
    show (dat17 V c).owesAt () t.succ = (dat17 V c).owesAt () t.castSucc from rfl,
    after17_0, after17_1, after17_2]
  iintro ⟨HΦ, Ho, ⟨%d0, H0⟩, ⟨%d1, H1⟩, ⟨%d2, H2⟩⟩
  iapply (sound_kernel17 c Set.univ (grid17.coords t) _ _ _ _ _ _ (iblk17 V c 0 t) (iblk17 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation17 (c : Dev nD) : BodyObligation (dat17 (F := F) V c) (defs₀ (F := F)) Variants.none () Set.univ := fun t => by
  rw [bigSep_W17, bigSep_W17]
  exact sound_body17 V c t

end Cert.Kernel.Hand

end
-- ==== Proof.K.Body18.lean ====
/- Region 18 of @main: one row block of the product user_ho · W[1,2] per grid point, user_ho the 50000 rows that
   layer 1's block 0 ends with (segment sums plus b[1,0]; 25 blocks of 2000).
   The pipeline has three windows: the rows of the left operand (a block of 2000 rows at point t), the whole
   128 x 128 right operand (the same block at every point, fetched once) and the rows of the result. The body
   reads both input blocks, rounds each to bf16, multiplies them on the matrix unit into a zero f32 accumulator
   and stores the product over the whole output block. Stated at the contents `V` the buffers hold when the
   region is entered: the block each window holds at a point, what the body leaves in the output block as a
   function of the two input blocks, the body's triple, the pipeline's proof data and the body obligation at
   every point. -/
import proofs.«104107_j50560355009131_1_alg».proof.Proof.Gen.Kernel.Launch
import proofs.«104107_j50560355009131_1_alg».proof.Proof.Gen.Kernel.Skeleton
import proofs.«104107_j50560355009131_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- The left operand's staging buffer holds its block of rows of user_ho at every point. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)
/-- The right operand's staging buffer holds the whole of W[1,2] at every point, fetched there or not (its block
    index never moves). -/
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

/-- The whole block of 2000 rows, and the whole right operand, as rectangles. -/
abbrev r18_0 : Rect S2000x128 := Rect.unit (s := S2000x128) ![0, 0] S2000x128.size inb_S2000x128_S2000x128_0_0
abbrev r18_1 : Rect S128x128 := Rect.unit (s := S128x128) ![0, 0] S128x128.size inb_S128x128_S128x128_0_0

/-- What the body leaves in the output block: its one store, the product of the two blocks it read. -/
def out18_2 (x0 : Vec F S2000x128 .f32) (x1 : Vec F S128x128 .f32) : Vec F S2000x128 .f32 :=
  View.canon [⟨r18_0, k18_pay1 (View.ld x0 r18_0) (View.ld x1 r18_1)⟩]

/-- The one store covers the output block. -/
theorem cover18_2 (p0 : Vec F S2000x128 .f32) (y : S2000x128.Idx) :
    ∃ pc ∈ ([⟨r18_0, p0⟩] : List (View.Piece (Elt F) S2000x128 .f32)), y ∈ pc.1.set :=
  View.cover_of_tiled [⟨r18_0, p0⟩] S2000x128.size (by rfl) y

set_option maxHeartbeats 1000000 in
/-- The body on whole staging memrefs, the inputs' at contents `x0`, `x1` and the output's at anything, runs to the
    continuation with the inputs' as they were and the output's at `out18_2 x0 x1`. The body also reads the output
    block before it stores over the whole of it; what it read there is not used. -/
theorem sound_kernel18 (c : Dev nD) (E : Set ℕ) (i : grid18.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out18_2 x0 x1)) -∗ K ⟨⟩))
      ⊢ wp frame (wpE (defs₀ (F := F)) Variants.none c none) E (cc18__matmul_kernel i arg1 harg1 arg2 harg2 arg3 harg3) K := by
  simp only [cc18__matmul_kernel_eq_skeleton]; unfold cc18__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover18_2 _)

/-- The pipeline's proof data on core `c`: the arrays as the region finds them; after the body at point `t` each
    input's buffer at its block and the output's at the product of the two blocks; the class invariant; nothing
    owed; full shares. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => out18_2 (iblk18 V c 0 t) (iblk18 V c 1 t)
  Φ _ := Pipeline.ΦA spec18 c
  q _ := fullShare
  owed _ := 0

theorem A_eq18 (c : Dev nD) (w : Fin cfg18.W) : (dat18 V c).A w = V c (Pipeline.arrRef spec18 w) := by
  dsimp only [dat18]
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = out18_2 (iblk18 V c 0 t) (iblk18 V c 1 t) := by dsimp only [dat18]
theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d

/-- What the body is called with at point `t`, -/
def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d)))

/-- and what it returns. -/
def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t))

/-- The body at any point: the inputs' memrefs hold their blocks, so `sound_kernel18` applies; the invariant and
    the core's dues pass through unread. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1]
  rw [show (dat18 V c).Φ t.succ = (dat18 V c).Φ t.castSucc from rfl,
    show (dat18 V c).owesAt () t.succ = (dat18 V c).owesAt () t.castSucc from rfl,
    after18_0, after18_1, after18_2]
  iintro ⟨HΦ, Ho, ⟨%d0, H0⟩, ⟨%d1, H1⟩, ⟨%d2, H2⟩⟩
  iapply (sound_kernel18 c Set.univ (grid18.coords t) _ _ _ _ _ _ (iblk18 V c 0 t) (iblk18 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation18 (c : Dev nD) : BodyObligation (dat18 (F := F) V c) (defs₀ (F := F)) Variants.none () Set.univ := fun t => by
  rw [bigSep_W18, bigSep_W18]
  exact sound_body18 V c t

end Cert.Kernel.Hand

end
-- ==== Proof.K.Body19.lean ====
/- Region 19 of @main: the edge scaling of layer 1, block 2. The rows of h · W[1,2], h the result of block 0 of
   this layer (region 14), have been gathered along the edges (row e is the product's row at edge e's item
   index); this region multiplies row e by the edge weight w[e], 8000 edges per grid point. The pipeline has
   three windows: the gathered rows (a block of 8000 rows at point t), the matching 8000 entries of the
   600000 x 1 column of edge weights (a new block at every point) and the rows of the result. The body reads
   both input blocks, spreads the column along each row and stores the entrywise product over the whole output
   block. Stated at the contents `V` the buffers hold when the region is entered: the block each window holds
   at a point, what the body leaves in the output block as a function of the two input blocks, the body's
   triple, the pipeline's proof data and the body obligation at every point. -/
import proofs.«104107_j50560355009131_1_alg».proof.Proof.Gen.Kernel.Launch
import proofs.«104107_j50560355009131_1_alg».proof.Proof.Gen.Kernel.Skeleton
import proofs.«104107_j50560355009131_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- The gathered rows' staging buffer holds its block of 8000 rows at every point. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)
/-- The edge weights' staging buffer holds the 8000 weights of the same edges at every point. -/
theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)

/-- The whole block of 8000 rows, and the whole block of 8000 weights, as rectangles. -/
abbrev r19_0 : Rect S8000x128 := Rect.unit (s := S8000x128) ![0, 0] S8000x128.size inb_S8000x128_S8000x128_0_0
abbrev r19_1 : Rect S8000x1 := Rect.unit (s := S8000x1) ![0, 0] S8000x1.size inb_S8000x1_S8000x1_0_0

/-- What the body leaves in the output block: its one store, each row it read times that row's weight. -/
def out19_2 (x0 : Vec F S8000x128 .f32) (x1 : Vec F S8000x1 .f32) : Vec F S8000x128 .f32 :=
  View.canon [⟨r19_0, k19_pay1 (View.ld x0 r19_0) (View.ld x1 r19_1)⟩]

/-- The one store covers the output block. -/
theorem cover19_2 (p0 : Vec F S8000x128 .f32) (y : S8000x128.Idx) :
    ∃ pc ∈ ([⟨r19_0, p0⟩] : List (View.Piece (Elt F) S8000x128 .f32)), y ∈ pc.1.set :=
  View.cover_of_tiled [⟨r19_0, p0⟩] S8000x128.size (by rfl) y

set_option maxHeartbeats 1000000 in
/-- The body on whole staging memrefs, the inputs' at contents `x0`, `x1` and the output's at anything, runs to the
    continuation with the inputs' as they were and the output's at `out19_2 x0 x1`. -/
theorem sound_kernel19 (c : Dev nD) (E : Set ℕ) (i : grid19.Coords) (arg1 : Memref sig .tc .vmem S8000x128 .f32) (harg1 : arg1.IsWhole) (arg2 : Memref sig .tc .vmem S8000x1 .f32) (harg2 : arg2.IsWhole) (arg3 : Memref sig .tc .vmem S8000x128 .f32) (harg3 : arg3.IsWhole)
    (x0 : Vec F S8000x128 .f32) (x1 : Vec F S8000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out19_2 x0 x1)) -∗ K ⟨⟩))
      ⊢ wp frame (wpE (defs₀ (F := F)) Variants.none c none) E (cc19__scale_kernel i arg1 harg1 arg2 harg2 arg3 harg3) K := by
  simp only [cc19__scale_kernel_eq_skeleton]; unfold cc19__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover19_2 _)

/-- The pipeline's proof data on core `c`: the arrays as the region finds them; after the body at point `t` each
    input's buffer at its block and the output's at the rows of the first block scaled by the weights of the
    second; the class invariant; nothing owed; full shares. -/
def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => out19_2 (iblk19 V c 0 t) (iblk19 V c 1 t)
  Φ _ := Pipeline.ΦA spec19 c
  q _ := fullShare
  owed _ := 0

theorem A_eq19 (c : Dev nD) (w : Fin cfg19.W) : (dat19 V c).A w = V c (Pipeline.arrRef spec19 w) := by
  dsimp only [dat19]
theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = out19_2 (iblk19 V c 0 t) (iblk19 V c 1 t) := by dsimp only [dat19]
theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d

/-- What the body is called with at point `t`, -/
def bodyPre19 (c : Dev nD) (t : Fin cfg19.N) : sProp 𝕄 :=
  iprop((dat19 V c).Φ t.castSucc ∗ (dat19 V c).owesAt () t.castSucc
    ∗ (∃ d, owns (c : Thread nD τ) (st19_0 t) fullShare ((dat19 V c).before 0 t d))
    ∗ (∃ d, owns (c : Thread nD τ) (st19_1 t) fullShare ((dat19 V c).before 1 t d))
    ∗ (∃ d, owns (c : Thread nD τ) (st19_2 t) fullShare ((dat19 V c).before 2 t d)))

/-- and what it returns. -/
def bodyPost19 (c : Dev nD) (t : Fin cfg19.N) : sProp 𝕄 :=
  iprop((dat19 V c).Φ t.succ ∗ (dat19 V c).owesAt () t.succ
    ∗ owns (c : Thread nD τ) (st19_0 t) fullShare ((dat19 V c).after 0 t)
    ∗ owns (c : Thread nD τ) (st19_1 t) fullShare ((dat19 V c).after 1 t)
    ∗ owns (c : Thread nD τ) (st19_2 t) fullShare ((dat19 V c).after 2 t))

/-- The body at any point: the inputs' memrefs hold their blocks, so `sound_kernel19` applies; the invariant and
    the core's dues pass through unread. -/
theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1]
  rw [show (dat19 V c).Φ t.succ = (dat19 V c).Φ t.castSucc from rfl,
    show (dat19 V c).owesAt () t.succ = (dat19 V c).owesAt () t.castSucc from rfl,
    after19_0, after19_1, after19_2]
  iintro ⟨HΦ, Ho, ⟨%d0, H0⟩, ⟨%d1, H1⟩, ⟨%d2, H2⟩⟩
  iapply (sound_kernel19 c Set.univ (grid19.coords t) _ _ _ _ _ _ (iblk19 V c 0 t) (iblk19 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation19 (c : Dev nD) : BodyObligation (dat19 (F := F) V c) (defs₀ (F := F)) Variants.none () Set.univ := fun t => by
  rw [bigSep_W19, bigSep_W19]
  exact sound_body19 V c t

end Cert.Kernel.Hand

end
-- ==== Proof.K.Body20.lean ====
/- Region 20 of @main: one row block of relu(s + b[1,2]) per grid point, s the 100000 rows of segment sums of the
   scaled gathered rows of user_ho · W[1,2] (50 blocks of 2000) and b[1,2] the 128 biases of layer 1, block 2; the
   result is the u that layer 1 ends with.
   The pipeline has three windows: the rows of s (a block of 2000 rows at point t), the one-row bias (the same
   1 x 128 block at every point, fetched once) and the rows of the result. The body reads both input blocks, adds
   the bias row to every row of the block, takes the maximum with zero entrywise and stores that over the whole
   output block. Stated at the contents `V` the buffers hold when the region is entered: the block each window
   holds at a point, what the body leaves in the output block as a function of the two input blocks, the body's
   triple, the pipeline's proof data and the body obligation at every point. -/
import proofs.«104107_j50560355009131_1_alg».proof.Proof.Gen.Kernel.Launch
import proofs.«104107_j50560355009131_1_alg».proof.Proof.Gen.Kernel.Skeleton
import proofs.«104107_j50560355009131_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

/-- The staging buffer of the rows holds its block of 2000 rows of segment sums at every point. -/
theorem before20_0_of {c : Dev nD} (dat : Dat τ (Elt F) Unit ℕ (UR sig nD τ) ℕ cfg20 c) (hA : dat.A 0 = V c (Pipeline.arrRef spec20 0))
    (hafter : ∀ t, dat.after 0 t = iblk20 V c 0 t) (t : Fin cfg20.N) (d) : dat.before 0 t d = iblk20 V c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)
/-- The bias's staging buffer holds the whole row b[1,2] at every point, fetched there or not (its block index
    never moves). -/
theorem before20_1_of {c : Dev nD} (dat : Dat τ (Elt F) Unit ℕ (UR sig nD τ) ℕ cfg20 c) (hA : dat.A 1 = V c (Pipeline.arrRef spec20 1))
    (hafter : ∀ t, dat.after 1 t = iblk20 V c 1 t) (t : Fin cfg20.N) (d) : dat.before 1 t d = iblk20 V c 1 t :=
  (dat.before_in_eq_fetched 1 rfl (fun _ => rfl) (fun _ _ _ => rfl) (fun t => by rw [hafter]; unfold Dat.blockOf iblk20; rw [hA]; try rfl) t d).trans
    (by unfold Dat.fetched Dat.blockOf iblk20; rw [hA]; try rfl)

/-- The whole block of 2000 rows, and the whole one-row bias, as rectangles. -/
abbrev r20_0 : Rect S2000x128 := Rect.unit (s := S2000x128) ![0, 0] S2000x128.size inb_S2000x128_S2000x128_0_0
abbrev r20_1 : Rect S1x128 := Rect.unit (s := S1x128) ![0, 0] S1x128.size inb_S1x128_S1x128_0_0

/-- What the body leaves in the output block: its one store, the rows it read plus the bias row, cut off below at
    zero. -/
def out20_2 (x0 : Vec F S2000x128 .f32) (x1 : Vec F S1x128 .f32) : Vec F S2000x128 .f32 :=
  View.canon [⟨r20_0, k20_pay1 (View.ld x0 r20_0) (View.ld x1 r20_1)⟩]

/-- The one store covers the output block. -/
theorem cover20_2 (p0 : Vec F S2000x128 .f32) (y : S2000x128.Idx) :
    ∃ pc ∈ ([⟨r20_0, p0⟩] : List (View.Piece (Elt F) S2000x128 .f32)), y ∈ pc.1.set :=
  View.cover_of_tiled [⟨r20_0, p0⟩] S2000x128.size (by rfl) y

set_option maxHeartbeats 1000000 in
/-- The body on whole staging memrefs, the inputs' at contents `x0`, `x1` and the output's at anything, runs to the
    continuation with the inputs' as they were and the output's at `out20_2 x0 x1`. The body also reads the output
    block before it stores over the whole of it; what it read there is not used. -/
theorem sound_kernel20 (c : Dev nD) (E : Set ℕ) (i : grid20.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out20_2 x0 x1)) -∗ K ⟨⟩))
      ⊢ wp frame (wpE (defs₀ (F := F)) Variants.none c none) E (cc20__bias_act_kernel i arg1 harg1 arg2 harg2 arg3 harg3) K := by
  simp only [cc20__bias_act_kernel_eq_skeleton]; unfold cc20__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover20_2 _)

/-- The pipeline's proof data on core `c`: the arrays as the region finds them; after the body at point `t` each
    input's buffer at its block and the output's at the rows plus the bias row, cut off below at zero; the class
    invariant; nothing owed; full shares. -/
def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => out20_2 (iblk20 V c 0 t) (iblk20 V c 1 t)
  Φ _ := Pipeline.ΦA spec20 c
  q _ := fullShare
  owed _ := 0

theorem A_eq20 (c : Dev nD) (w : Fin cfg20.W) : (dat20 V c).A w = V c (Pipeline.arrRef spec20 w) := by
  dsimp only [dat20]
theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = out20_2 (iblk20 V c 0 t) (iblk20 V c 1 t) := by dsimp only [dat20]
theorem before20_0 (c : Dev nD) (t : Fin cfg20.N) (d) : (dat20 V c).before 0 t d = iblk20 V c 0 t :=
  before20_0_of V (dat20 V c) (A_eq20 V c 0) (after20_0 V c) t d
theorem before20_1 (c : Dev nD) (t : Fin cfg20.N) (d) : (dat20 V c).before 1 t d = iblk20 V c 1 t :=
  before20_1_of V (dat20 V c) (A_eq20 V c 1) (after20_1 V c) t d

/-- What the body is called with at point `t`, -/
def bodyPre20 (c : Dev nD) (t : Fin cfg20.N) : sProp 𝕄 :=
  iprop((dat20 V c).Φ t.castSucc ∗ (dat20 V c).owesAt () t.castSucc
    ∗ (∃ d, owns (c : Thread nD τ) (st20_0 t) fullShare ((dat20 V c).before 0 t d))
    ∗ (∃ d, owns (c : Thread nD τ) (st20_1 t) fullShare ((dat20 V c).before 1 t d))
    ∗ (∃ d, owns (c : Thread nD τ) (st20_2 t) fullShare ((dat20 V c).before 2 t d)))

/-- and what it returns. -/
def bodyPost20 (c : Dev nD) (t : Fin cfg20.N) : sProp 𝕄 :=
  iprop((dat20 V c).Φ t.succ ∗ (dat20 V c).owesAt () t.succ
    ∗ owns (c : Thread nD τ) (st20_0 t) fullShare ((dat20 V c).after 0 t)
    ∗ owns (c : Thread nD τ) (st20_1 t) fullShare ((dat20 V c).after 1 t)
    ∗ owns (c : Thread nD τ) (st20_2 t) fullShare ((dat20 V c).after 2 t))

/-- The body at any point: the inputs' memrefs hold their blocks, so `sound_kernel20` applies; the invariant and
    the core's dues pass through unread. -/
theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1]
  rw [show (dat20 V c).Φ t.succ = (dat20 V c).Φ t.castSucc from rfl,
    show (dat20 V c).owesAt () t.succ = (dat20 V c).owesAt () t.castSucc from rfl,
    after20_0, after20_1, after20_2]
  iintro ⟨HΦ, Ho, ⟨%d0, H0⟩, ⟨%d1, H1⟩, ⟨%d2, H2⟩⟩
  iapply (sound_kernel20 c Set.univ (grid20.coords t) _ _ _ _ _ _ (iblk20 V c 0 t) (iblk20 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation20 (c : Dev nD) : BodyObligation (dat20 (F := F) V c) (defs₀ (F := F)) Variants.none () Set.univ := fun t => by
  rw [bigSep_W20, bigSep_W20]
  exact sound_body20 V c t

end Cert.Kernel.Hand

end
-- ==== Proof.K.Body21.lean ====
/- Region 21 of @main: one row block of the product item_ho · W[1,3] per grid point, item_ho the 100000 rows that
   layer 1's block 1 ends with (segment sums plus b[1,1]; 50 blocks of 2000).
   The pipeline has three windows: the rows of the left operand (a block of 2000 rows at point t), the whole
   128 x 128 right operand (the same block at every point, fetched once) and the rows of the result. The body
   reads both input blocks, rounds each to bf16, multiplies them on the matrix unit into a zero f32 accumulator
   and stores the product over the whole output block. Stated at the contents `V` the buffers hold when the
   region is entered: the block each window holds at a point, what the body leaves in the output block as a
   function of the two input blocks, the body's triple, the pipeline's proof data and the body obligation at
   every point. -/
import proofs.«104107_j50560355009131_1_alg».proof.Proof.Gen.Kernel.Launch
import proofs.«104107_j50560355009131_1_alg».proof.Proof.Gen.Kernel.Skeleton
import proofs.«104107_j50560355009131_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

/-- The left operand's staging buffer holds its block of rows of item_ho at every point. -/
theorem before21_0_of {c : Dev nD} (dat : Dat τ (Elt F) Unit ℕ (UR sig nD τ) ℕ cfg21 c) (hA : dat.A 0 = V c (Pipeline.arrRef spec21 0))
    (hafter : ∀ t, dat.after 0 t = iblk21 V c 0 t) (t : Fin cfg21.N) (d) : dat.before 0 t d = iblk21 V c 0 t :=
  (dat.before_in_eq_fetched 0 rfl (fun _ => rfl) (fun _ _ _ => rfl) (fun t => by rw [hafter]; unfold Dat.blockOf iblk21; rw [hA]; try rfl) t d).trans
    (by unfold Dat.fetched Dat.blockOf iblk21; rw [hA]; try rfl)
/-- The right operand's staging buffer holds the whole of W[1,3] at every point, fetched there or not (its block
    index never moves). -/
theorem before21_1_of {c : Dev nD} (dat : Dat τ (Elt F) Unit ℕ (UR sig nD τ) ℕ cfg21 c) (hA : dat.A 1 = V c (Pipeline.arrRef spec21 1))
    (hafter : ∀ t, dat.after 1 t = iblk21 V c 1 t) (t : Fin cfg21.N) (d) : dat.before 1 t d = iblk21 V c 1 t :=
  (dat.before_in_eq_fetched 1 rfl (fun _ => rfl) (fun _ _ _ => rfl) (fun t => by rw [hafter]; unfold Dat.blockOf iblk21; rw [hA]; try rfl) t d).trans
    (by unfold Dat.fetched Dat.blockOf iblk21; rw [hA]; try rfl)

/-- The whole block of 2000 rows, and the whole right operand, as rectangles. -/
abbrev r21_0 : Rect S2000x128 := Rect.unit (s := S2000x128) ![0, 0] S2000x128.size inb_S2000x128_S2000x128_0_0
abbrev r21_1 : Rect S128x128 := Rect.unit (s := S128x128) ![0, 0] S128x128.size inb_S128x128_S128x128_0_0

/-- What the body leaves in the output block: its one store, the product of the two blocks it read. -/
def out21_2 (x0 : Vec F S2000x128 .f32) (x1 : Vec F S128x128 .f32) : Vec F S2000x128 .f32 :=
  View.canon [⟨r21_0, k21_pay1 (View.ld x0 r21_0) (View.ld x1 r21_1)⟩]

/-- The one store covers the output block. -/
theorem cover21_2 (p0 : Vec F S2000x128 .f32) (y : S2000x128.Idx) :
    ∃ pc ∈ ([⟨r21_0, p0⟩] : List (View.Piece (Elt F) S2000x128 .f32)), y ∈ pc.1.set :=
  View.cover_of_tiled [⟨r21_0, p0⟩] S2000x128.size (by rfl) y

set_option maxHeartbeats 1000000 in
/-- The body on whole staging memrefs, the inputs' at contents `x0`, `x1` and the output's at anything, runs to the
    continuation with the inputs' as they were and the output's at `out21_2 x0 x1`. The body also reads the output
    block before it stores over the whole of it; what it read there is not used. -/
theorem sound_kernel21 (c : Dev nD) (E : Set ℕ) (i : grid21.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out21_2 x0 x1)) -∗ K ⟨⟩))
      ⊢ wp frame (wpE (defs₀ (F := F)) Variants.none c none) E (cc21__matmul_kernel i arg1 harg1 arg2 harg2 arg3 harg3) K := by
  simp only [cc21__matmul_kernel_eq_skeleton]; unfold cc21__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover21_2 _)

/-- The pipeline's proof data on core `c`: the arrays as the region finds them; after the body at point `t` each
    input's buffer at its block and the output's at the product of the two blocks; the class invariant; nothing
    owed; full shares. -/
def dat21 (c : Dev nD) : Dat τ (Elt F) Unit ℕ (UR sig nD τ) ℕ cfg21 c where
  A w := V c (Pipeline.arrRef spec21 w)
  after w t := match w with
    | ⟨0, _⟩ => iblk21 V c 0 t
    | ⟨1, _⟩ => iblk21 V c 1 t
    | ⟨2, _⟩ => out21_2 (iblk21 V c 0 t) (iblk21 V c 1 t)
  Φ _ := Pipeline.ΦA spec21 c
  q _ := fullShare
  owed _ := 0

theorem A_eq21 (c : Dev nD) (w : Fin cfg21.W) : (dat21 V c).A w = V c (Pipeline.arrRef spec21 w) := by
  dsimp only [dat21]
theorem after21_0 (c : Dev nD) (t : Fin cfg21.N) : (dat21 V c).after 0 t = iblk21 V c 0 t := by dsimp only [dat21]
theorem after21_1 (c : Dev nD) (t : Fin cfg21.N) : (dat21 V c).after 1 t = iblk21 V c 1 t := by dsimp only [dat21]
theorem after21_2 (c : Dev nD) (t : Fin cfg21.N) : (dat21 V c).after 2 t = out21_2 (iblk21 V c 0 t) (iblk21 V c 1 t) := by dsimp only [dat21]
theorem before21_0 (c : Dev nD) (t : Fin cfg21.N) (d) : (dat21 V c).before 0 t d = iblk21 V c 0 t :=
  before21_0_of V (dat21 V c) (A_eq21 V c 0) (after21_0 V c) t d
theorem before21_1 (c : Dev nD) (t : Fin cfg21.N) (d) : (dat21 V c).before 1 t d = iblk21 V c 1 t :=
  before21_1_of V (dat21 V c) (A_eq21 V c 1) (after21_1 V c) t d

/-- What the body is called with at point `t`, -/
def bodyPre21 (c : Dev nD) (t : Fin cfg21.N) : sProp 𝕄 :=
  iprop((dat21 V c).Φ t.castSucc ∗ (dat21 V c).owesAt () t.castSucc
    ∗ (∃ d, owns (c : Thread nD τ) (st21_0 t) fullShare ((dat21 V c).before 0 t d))
    ∗ (∃ d, owns (c : Thread nD τ) (st21_1 t) fullShare ((dat21 V c).before 1 t d))
    ∗ (∃ d, owns (c : Thread nD τ) (st21_2 t) fullShare ((dat21 V c).before 2 t d)))

/-- and what it returns. -/
def bodyPost21 (c : Dev nD) (t : Fin cfg21.N) : sProp 𝕄 :=
  iprop((dat21 V c).Φ t.succ ∗ (dat21 V c).owesAt () t.succ
    ∗ owns (c : Thread nD τ) (st21_0 t) fullShare ((dat21 V c).after 0 t)
    ∗ owns (c : Thread nD τ) (st21_1 t) fullShare ((dat21 V c).after 1 t)
    ∗ owns (c : Thread nD τ) (st21_2 t) fullShare ((dat21 V c).after 2 t))

/-- The body at any point: the inputs' memrefs hold their blocks, so `sound_kernel21` applies; the invariant and
    the core's dues pass through unread. -/
theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0, before21_1]
  rw [show (dat21 V c).Φ t.succ = (dat21 V c).Φ t.castSucc from rfl,
    show (dat21 V c).owesAt () t.succ = (dat21 V c).owesAt () t.castSucc from rfl,
    after21_0, after21_1, after21_2]
  iintro ⟨HΦ, Ho, ⟨%d0, H0⟩, ⟨%d1, H1⟩, ⟨%d2, H2⟩⟩
  iapply (sound_kernel21 c Set.univ (grid21.coords t) _ _ _ _ _ _ (iblk21 V c 0 t) (iblk21 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation21 (c : Dev nD) : BodyObligation (dat21 (F := F) V c) (defs₀ (F := F)) Variants.none () Set.univ := fun t => by
  rw [bigSep_W21, bigSep_W21]
  exact sound_body21 V c t

end Cert.Kernel.Hand

end
-- ==== Proof.K.Body22.lean ====
/- Region 22 of @main: the edge scaling of layer 1, block 3. The rows of h · W[1,3], h the result of block 1 of
   this layer (region 17), have been gathered along the edges (row e is the product's row at edge e's user
   index); this region multiplies row e by the edge weight w[e], 8000 edges per grid point. The pipeline has
   three windows: the gathered rows (a block of 8000 rows at point t), the matching 8000 entries of the
   600000 x 1 column of edge weights (a new block at every point) and the rows of the result. The body reads
   both input blocks, spreads the column along each row and stores the entrywise product over the whole output
   block. Stated at the contents `V` the buffers hold when the region is entered: the block each window holds
   at a point, what the body leaves in the output block as a function of the two input blocks, the body's
   triple, the pipeline's proof data and the body obligation at every point. -/
import proofs.«104107_j50560355009131_1_alg».proof.Proof.Gen.Kernel.Launch
import proofs.«104107_j50560355009131_1_alg».proof.Proof.Gen.Kernel.Skeleton
import proofs.«104107_j50560355009131_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk22 (c : Dev nD) (w : Fin cfg22.W) (t : Fin cfg22.N) : ((cfg22.win w).xblock (cfg22.grid.coords t)).Idx → Elt F (cfg22.win w).elt :=
  ((cfg22.win w).blk t).view.read (Elt F) (V c (Pipeline.arrRef spec22 w))

/-- The gathered rows' staging buffer holds its block of 8000 rows at every point. -/
theorem before22_0_of {c : Dev nD} (dat : Dat τ (Elt F) Unit ℕ (UR sig nD τ) ℕ cfg22 c) (hA : dat.A 0 = V c (Pipeline.arrRef spec22 0))
    (hafter : ∀ t, dat.after 0 t = iblk22 V c 0 t) (t : Fin cfg22.N) (d) : dat.before 0 t d = iblk22 V c 0 t :=
  (dat.before_in_eq_fetched 0 rfl (fun _ => rfl) (fun _ _ _ => rfl) (fun t => by rw [hafter]; unfold Dat.blockOf iblk22; rw [hA]; try rfl) t d).trans
    (by unfold Dat.fetched Dat.blockOf iblk22; rw [hA]; try rfl)
/-- The edge weights' staging buffer holds the 8000 weights of the same edges at every point. -/
theorem before22_1_of {c : Dev nD} (dat : Dat τ (Elt F) Unit ℕ (UR sig nD τ) ℕ cfg22 c) (hA : dat.A 1 = V c (Pipeline.arrRef spec22 1))
    (hafter : ∀ t, dat.after 1 t = iblk22 V c 1 t) (t : Fin cfg22.N) (d) : dat.before 1 t d = iblk22 V c 1 t :=
  (dat.before_in_eq_fetched 1 rfl (fun _ => rfl) (fun _ _ _ => rfl) (fun t => by rw [hafter]; unfold Dat.blockOf iblk22; rw [hA]; try rfl) t d).trans
    (by unfold Dat.fetched Dat.blockOf iblk22; rw [hA]; try rfl)

/-- The whole block of 8000 rows, and the whole block of 8000 weights, as rectangles. -/
abbrev r22_0 : Rect S8000x128 := Rect.unit (s := S8000x128) ![0, 0] S8000x128.size inb_S8000x128_S8000x128_0_0
abbrev r22_1 : Rect S8000x1 := Rect.unit (s := S8000x1) ![0, 0] S8000x1.size inb_S8000x1_S8000x1_0_0

/-- What the body leaves in the output block: its one store, each row it read times that row's weight. -/
def out22_2 (x0 : Vec F S8000x128 .f32) (x1 : Vec F S8000x1 .f32) : Vec F S8000x128 .f32 :=
  View.canon [⟨r22_0, k22_pay1 (View.ld x0 r22_0) (View.ld x1 r22_1)⟩]

/-- The one store covers the output block. -/
theorem cover22_2 (p0 : Vec F S8000x128 .f32) (y : S8000x128.Idx) :
    ∃ pc ∈ ([⟨r22_0, p0⟩] : List (View.Piece (Elt F) S8000x128 .f32)), y ∈ pc.1.set :=
  View.cover_of_tiled [⟨r22_0, p0⟩] S8000x128.size (by rfl) y

set_option maxHeartbeats 1000000 in
/-- The body on whole staging memrefs, the inputs' at contents `x0`, `x1` and the output's at anything, runs to the
    continuation with the inputs' as they were and the output's at `out22_2 x0 x1`. -/
theorem sound_kernel22 (c : Dev nD) (E : Set ℕ) (i : grid22.Coords) (arg1 : Memref sig .tc .vmem S8000x128 .f32) (harg1 : arg1.IsWhole) (arg2 : Memref sig .tc .vmem S8000x1 .f32) (harg2 : arg2.IsWhole) (arg3 : Memref sig .tc .vmem S8000x128 .f32) (harg3 : arg3.IsWhole)
    (x0 : Vec F S8000x128 .f32) (x1 : Vec F S8000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out22_2 x0 x1)) -∗ K ⟨⟩))
      ⊢ wp frame (wpE (defs₀ (F := F)) Variants.none c none) E (cc22__scale_kernel i arg1 harg1 arg2 harg2 arg3 harg3) K := by
  simp only [cc22__scale_kernel_eq_skeleton]; unfold cc22__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover22_2 _)

/-- The pipeline's proof data on core `c`: the arrays as the region finds them; after the body at point `t` each
    input's buffer at its block and the output's at the rows of the first block scaled by the weights of the
    second; the class invariant; nothing owed; full shares. -/
def dat22 (c : Dev nD) : Dat τ (Elt F) Unit ℕ (UR sig nD τ) ℕ cfg22 c where
  A w := V c (Pipeline.arrRef spec22 w)
  after w t := match w with
    | ⟨0, _⟩ => iblk22 V c 0 t
    | ⟨1, _⟩ => iblk22 V c 1 t
    | ⟨2, _⟩ => out22_2 (iblk22 V c 0 t) (iblk22 V c 1 t)
  Φ _ := Pipeline.ΦA spec22 c
  q _ := fullShare
  owed _ := 0

theorem A_eq22 (c : Dev nD) (w : Fin cfg22.W) : (dat22 V c).A w = V c (Pipeline.arrRef spec22 w) := by
  dsimp only [dat22]
theorem after22_0 (c : Dev nD) (t : Fin cfg22.N) : (dat22 V c).after 0 t = iblk22 V c 0 t := by dsimp only [dat22]
theorem after22_1 (c : Dev nD) (t : Fin cfg22.N) : (dat22 V c).after 1 t = iblk22 V c 1 t := by dsimp only [dat22]
theorem after22_2 (c : Dev nD) (t : Fin cfg22.N) : (dat22 V c).after 2 t = out22_2 (iblk22 V c 0 t) (iblk22 V c 1 t) := by dsimp only [dat22]
theorem before22_0 (c : Dev nD) (t : Fin cfg22.N) (d) : (dat22 V c).before 0 t d = iblk22 V c 0 t :=
  before22_0_of V (dat22 V c) (A_eq22 V c 0) (after22_0 V c) t d
theorem before22_1 (c : Dev nD) (t : Fin cfg22.N) (d) : (dat22 V c).before 1 t d = iblk22 V c 1 t :=
  before22_1_of V (dat22 V c) (A_eq22 V c 1) (after22_1 V c) t d

/-- What the body is called with at point `t`, -/
def bodyPre22 (c : Dev nD) (t : Fin cfg22.N) : sProp 𝕄 :=
  iprop((dat22 V c).Φ t.castSucc ∗ (dat22 V c).owesAt () t.castSucc
    ∗ (∃ d, owns (c : Thread nD τ) (st22_0 t) fullShare ((dat22 V c).before 0 t d))
    ∗ (∃ d, owns (c : Thread nD τ) (st22_1 t) fullShare ((dat22 V c).before 1 t d))
    ∗ (∃ d, owns (c : Thread nD τ) (st22_2 t) fullShare ((dat22 V c).before 2 t d)))

/-- and what it returns. -/
def bodyPost22 (c : Dev nD) (t : Fin cfg22.N) : sProp 𝕄 :=
  iprop((dat22 V c).Φ t.succ ∗ (dat22 V c).owesAt () t.succ
    ∗ owns (c : Thread nD τ) (st22_0 t) fullShare ((dat22 V c).after 0 t)
    ∗ owns (c : Thread nD τ) (st22_1 t) fullShare ((dat22 V c).after 1 t)
    ∗ owns (c : Thread nD τ) (st22_2 t) fullShare ((dat22 V c).after 2 t))

/-- The body at any point: the inputs' memrefs hold their blocks, so `sound_kernel22` applies; the invariant and
    the core's dues pass through unread. -/
theorem sound_body22 (c : Dev nD) (t : Fin cfg22.N) :
    bodyPre22 V c t ⊢ wp frame (wpE (defs₀ (F := F)) Variants.none c none) Set.univ (bodyAt22 t) (fun _ => bodyPost22 V c t) := by
  unfold bodyPre22 bodyPost22 bodyAt22
  simp only [before22_0, before22_1]
  rw [show (dat22 V c).Φ t.succ = (dat22 V c).Φ t.castSucc from rfl,
    show (dat22 V c).owesAt () t.succ = (dat22 V c).owesAt () t.castSucc from rfl,
    after22_0, after22_1, after22_2]
  iintro ⟨HΦ, Ho, ⟨%d0, H0⟩, ⟨%d1, H1⟩, ⟨%d2, H2⟩⟩
  iapply (sound_kernel22 c Set.univ (grid22.coords t) _ _ _ _ _ _ (iblk22 V c 0 t) (iblk22 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation22 (c : Dev nD) : BodyObligation (dat22 (F := F) V c) (defs₀ (F := F)) Variants.none () Set.univ := fun t => by
  rw [bigSep_W22, bigSep_W22]
  exact sound_body22 V c t

end Cert.Kernel.Hand

end
-- ==== Proof.K.Body23.lean ====
/- Region 23 of @main: one row block of relu(s + b[1,3]) per grid point, s the 50000 rows of segment sums of the
   scaled gathered rows of item_ho · W[1,3] (25 blocks of 2000) and b[1,3] the 128 biases of layer 1, block 3; the
   result is the v that layer 1 ends with.
   The pipeline has three windows: the rows of s (a block of 2000 rows at point t), the one-row bias (the same
   1 x 128 block at every point, fetched once) and the rows of the result. The body reads both input blocks, adds
   the bias row to every row of the block, takes the maximum with zero entrywise and stores that over the whole
   output block. Stated at the contents `V` the buffers hold when the region is entered: the block each window
   holds at a point, what the body leaves in the output block as a function of the two input blocks, the body's
   triple, the pipeline's proof data and the body obligation at every point. -/
import proofs.«104107_j50560355009131_1_alg».proof.Proof.Gen.Kernel.Launch
import proofs.«104107_j50560355009131_1_alg».proof.Proof.Gen.Kernel.Skeleton
import proofs.«104107_j50560355009131_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk23 (c : Dev nD) (w : Fin cfg23.W) (t : Fin cfg23.N) : ((cfg23.win w).xblock (cfg23.grid.coords t)).Idx → Elt F (cfg23.win w).elt :=
  ((cfg23.win w).blk t).view.read (Elt F) (V c (Pipeline.arrRef spec23 w))

/-- The staging buffer of the rows holds its block of 2000 rows of segment sums at every point. -/
theorem before23_0_of {c : Dev nD} (dat : Dat τ (Elt F) Unit ℕ (UR sig nD τ) ℕ cfg23 c) (hA : dat.A 0 = V c (Pipeline.arrRef spec23 0))
    (hafter : ∀ t, dat.after 0 t = iblk23 V c 0 t) (t : Fin cfg23.N) (d) : dat.before 0 t d = iblk23 V c 0 t :=
  (dat.before_in_eq_fetched 0 rfl (fun _ => rfl) (fun _ _ _ => rfl) (fun t => by rw [hafter]; unfold Dat.blockOf iblk23; rw [hA]; try rfl) t d).trans
    (by unfold Dat.fetched Dat.blockOf iblk23; rw [hA]; try rfl)
/-- The bias's staging buffer holds the whole row b[1,3] at every point, fetched there or not (its block index
    never moves). -/
theorem before23_1_of {c : Dev nD} (dat : Dat τ (Elt F) Unit ℕ (UR sig nD τ) ℕ cfg23 c) (hA : dat.A 1 = V c (Pipeline.arrRef spec23 1))
    (hafter : ∀ t, dat.after 1 t = iblk23 V c 1 t) (t : Fin cfg23.N) (d) : dat.before 1 t d = iblk23 V c 1 t :=
  (dat.before_in_eq_fetched 1 rfl (fun _ => rfl) (fun _ _ _ => rfl) (fun t => by rw [hafter]; unfold Dat.blockOf iblk23; rw [hA]; try rfl) t d).trans
    (by unfold Dat.fetched Dat.blockOf iblk23; rw [hA]; try rfl)

/-- The whole block of 2000 rows, and the whole one-row bias, as rectangles. -/
abbrev r23_0 : Rect S2000x128 := Rect.unit (s := S2000x128) ![0, 0] S2000x128.size inb_S2000x128_S2000x128_0_0
abbrev r23_1 : Rect S1x128 := Rect.unit (s := S1x128) ![0, 0] S1x128.size inb_S1x128_S1x128_0_0

/-- What the body leaves in the output block: its one store, the rows it read plus the bias row, cut off below at
    zero. -/
def out23_2 (x0 : Vec F S2000x128 .f32) (x1 : Vec F S1x128 .f32) : Vec F S2000x128 .f32 :=
  View.canon [⟨r23_0, k23_pay1 (View.ld x0 r23_0) (View.ld x1 r23_1)⟩]

/-- The one store covers the output block. -/
theorem cover23_2 (p0 : Vec F S2000x128 .f32) (y : S2000x128.Idx) :
    ∃ pc ∈ ([⟨r23_0, p0⟩] : List (View.Piece (Elt F) S2000x128 .f32)), y ∈ pc.1.set :=
  View.cover_of_tiled [⟨r23_0, p0⟩] S2000x128.size (by rfl) y

set_option maxHeartbeats 1000000 in
/-- The body on whole staging memrefs, the inputs' at contents `x0`, `x1` and the output's at anything, runs to the
    continuation with the inputs' as they were and the output's at `out23_2 x0 x1`. The body also reads the output
    block before it stores over the whole of it; what it read there is not used. -/
theorem sound_kernel23 (c : Dev nD) (E : Set ℕ) (i : grid23.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out23_2 x0 x1)) -∗ K ⟨⟩))
      ⊢ wp frame (wpE (defs₀ (F := F)) Variants.none c none) E (cc23__bias_act_kernel i arg1 harg1 arg2 harg2 arg3 harg3) K := by
  simp only [cc23__bias_act_kernel_eq_skeleton]; unfold cc23__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover23_2 _)

/-- The pipeline's proof data on core `c`: the arrays as the region finds them; after the body at point `t` each
    input's buffer at its block and the output's at the rows plus the bias row, cut off below at zero; the class
    invariant; nothing owed; full shares. -/
def dat23 (c : Dev nD) : Dat τ (Elt F) Unit ℕ (UR sig nD τ) ℕ cfg23 c where
  A w := V c (Pipeline.arrRef spec23 w)
  after w t := match w with
    | ⟨0, _⟩ => iblk23 V c 0 t
    | ⟨1, _⟩ => iblk23 V c 1 t
    | ⟨2, _⟩ => out23_2 (iblk23 V c 0 t) (iblk23 V c 1 t)
  Φ _ := Pipeline.ΦA spec23 c
  q _ := fullShare
  owed _ := 0

theorem A_eq23 (c : Dev nD) (w : Fin cfg23.W) : (dat23 V c).A w = V c (Pipeline.arrRef spec23 w) := by
  dsimp only [dat23]
theorem after23_0 (c : Dev nD) (t : Fin cfg23.N) : (dat23 V c).after 0 t = iblk23 V c 0 t := by dsimp only [dat23]
theorem after23_1 (c : Dev nD) (t : Fin cfg23.N) : (dat23 V c).after 1 t = iblk23 V c 1 t := by dsimp only [dat23]
theorem after23_2 (c : Dev nD) (t : Fin cfg23.N) : (dat23 V c).after 2 t = out23_2 (iblk23 V c 0 t) (iblk23 V c 1 t) := by dsimp only [dat23]
theorem before23_0 (c : Dev nD) (t : Fin cfg23.N) (d) : (dat23 V c).before 0 t d = iblk23 V c 0 t :=
  before23_0_of V (dat23 V c) (A_eq23 V c 0) (after23_0 V c) t d
theorem before23_1 (c : Dev nD) (t : Fin cfg23.N) (d) : (dat23 V c).before 1 t d = iblk23 V c 1 t :=
  before23_1_of V (dat23 V c) (A_eq23 V c 1) (after23_1 V c) t d

/-- What the body is called with at point `t`, -/
def bodyPre23 (c : Dev nD) (t : Fin cfg23.N) : sProp 𝕄 :=
  iprop((dat23 V c).Φ t.castSucc ∗ (dat23 V c).owesAt () t.castSucc
    ∗ (∃ d, owns (c : Thread nD τ) (st23_0 t) fullShare ((dat23 V c).before 0 t d))
    ∗ (∃ d, owns (c : Thread nD τ) (st23_1 t) fullShare ((dat23 V c).before 1 t d))
    ∗ (∃ d, owns (c : Thread nD τ) (st23_2 t) fullShare ((dat23 V c).before 2 t d)))

/-- and what it returns. -/
def bodyPost23 (c : Dev nD) (t : Fin cfg23.N) : sProp 𝕄 :=
  iprop((dat23 V c).Φ t.succ ∗ (dat23 V c).owesAt () t.succ
    ∗ owns (c : Thread nD τ) (st23_0 t) fullShare ((dat23 V c).after 0 t)
    ∗ owns (c : Thread nD τ) (st23_1 t) fullShare ((dat23 V c).after 1 t)
    ∗ owns (c : Thread nD τ) (st23_2 t) fullShare ((dat23 V c).after 2 t))

/-- The body at any point: the inputs' memrefs hold their blocks, so `sound_kernel23` applies; the invariant and
    the core's dues pass through unread. -/
theorem sound_body23 (c : Dev nD) (t : Fin cfg23.N) :
    bodyPre23 V c t ⊢ wp frame (wpE (defs₀ (F := F)) Variants.none c none) Set.univ (bodyAt23 t) (fun _ => bodyPost23 V c t) := by
  unfold bodyPre23 bodyPost23 bodyAt23
  simp only [before23_0, before23_1]
  rw [show (dat23 V c).Φ t.succ = (dat23 V c).Φ t.castSucc from rfl,
    show (dat23 V c).owesAt () t.succ = (dat23 V c).owesAt () t.castSucc from rfl,
    after23_0, after23_1, after23_2]
  iintro ⟨HΦ, Ho, ⟨%d0, H0⟩, ⟨%d1, H1⟩, ⟨%d2, H2⟩⟩
  iapply (sound_kernel23 c Set.univ (grid23.coords t) _ _ _ _ _ _ (iblk23 V c 0 t) (iblk23 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation23 (c : Dev nD) : BodyObligation (dat23 (F := F) V c) (defs₀ (F := F)) Variants.none () Set.univ := fun t => by
  rw [bigSep_W23, bigSep_W23]
  exact sound_body23 V c t

end Cert.Kernel.Hand

end
-- ==== Proof.K.Fold.lean ====
/- The contents of the buffers between the items of @main, for all 24 regions.
   @main is 49 items: host stretch 0, region 0, host stretch 1, …, region 23, host stretch 24. `W j c` is what core
   `c`'s unscoped buffers hold after item j-1 (W0: the launch memory): a host stretch applies its operations; region K
   changes ONE array, its output window's, to what the pipeline's write-backs leave there — the proof data's
   `arrAt 2 N` at the contents the region was entered from — and nothing else. `outs` names those region outputs in the
   form the conditional frame is stated over, and `V_j_eq` identifies its valuations with `W j`, item by item. -/
import proofs.«104107_j50560355009131_1_alg».proof.Proof.KernelRegions
import proofs.«104107_j50560355009131_1_alg».proof.Proof.K.Body0
import proofs.«104107_j50560355009131_1_alg».proof.Proof.K.Body1
import proofs.«104107_j50560355009131_1_alg».proof.Proof.K.Body2
import proofs.«104107_j50560355009131_1_alg».proof.Proof.K.Body3
import proofs.«104107_j50560355009131_1_alg».proof.Proof.K.Body4
import proofs.«104107_j50560355009131_1_alg».proof.Proof.K.Body5
import proofs.«104107_j50560355009131_1_alg».proof.Proof.K.Body6
import proofs.«104107_j50560355009131_1_alg».proof.Proof.K.Body7
import proofs.«104107_j50560355009131_1_alg».proof.Proof.K.Body8
import proofs.«104107_j50560355009131_1_alg».proof.Proof.K.Body9
import proofs.«104107_j50560355009131_1_alg».proof.Proof.K.Body10
import proofs.«104107_j50560355009131_1_alg».proof.Proof.K.Body11
import proofs.«104107_j50560355009131_1_alg».proof.Proof.K.Body12
import proofs.«104107_j50560355009131_1_alg».proof.Proof.K.Body13
import proofs.«104107_j50560355009131_1_alg».proof.Proof.K.Body14
import proofs.«104107_j50560355009131_1_alg».proof.Proof.K.Body15
import proofs.«104107_j50560355009131_1_alg».proof.Proof.K.Body16
import proofs.«104107_j50560355009131_1_alg».proof.Proof.K.Body17
import proofs.«104107_j50560355009131_1_alg».proof.Proof.K.Body18
import proofs.«104107_j50560355009131_1_alg».proof.Proof.K.Body19
import proofs.«104107_j50560355009131_1_alg».proof.Proof.K.Body20
import proofs.«104107_j50560355009131_1_alg».proof.Proof.K.Body21
import proofs.«104107_j50560355009131_1_alg».proof.Proof.K.Body22
import proofs.«104107_j50560355009131_1_alg».proof.Proof.K.Body23

set_option maxRecDepth 16384

noncomputable section

namespace Cert.Kernel.Hand

open Idealize.ShloMosaic Idealize.ShloMosaic.TcCoe
open Idealize.SL Idealize.SL.Sem
open Idealize.ShloMosaic.Pipeline (Dat)
open Cert.Kernel Cert.Kernel.Gen

variable {F : FTy → Type} [FloatOps F]

variable (m : (ℓ : Loc nD τ sig) → Buf (Elt F) ℓ)

/-- A core's buffers read at the TensorCore's references. -/
abbrev TcVal (F : FTy → Type) [FloatOps F] : Type := (c : Dev nD) → (b : Ref sig .tc) → Buf (Elt F) ((c : Thread nD τ).loc b)

abbrev W0 (c : Dev nD) : Valuation τ sig (Elt F) := fun b => m (c, b)

/-! ## Layer 1, block 0: regions 0, 1, 2 -/
abbrev W1 (c : Dev nD) : Valuation τ sig (Elt F) := StableHlo.after hostOps0 (W0 m c)
abbrev U1 : TcVal F := fun c b => W1 m c b
def W2 (c : Dev nD) : Valuation τ sig (Elt F) := Function.update (W1 m c) main_v2 ((dat0 (U1 m) c).arrAt 2 cfg0.N)
abbrev U2 : TcVal F := fun c b => W2 m c b
abbrev W3 (c : Dev nD) : Valuation τ sig (Elt F) := StableHlo.after hostOps1 (W2 m c)
abbrev U3 : TcVal F := fun c b => W3 m c b
def W4 (c : Dev nD) : Valuation τ sig (Elt F) := Function.update (W3 m c) main_v11 ((dat1 (U3 m) c).arrAt 2 cfg1.N)
abbrev U4 : TcVal F := fun c b => W4 m c b
abbrev W5 (c : Dev nD) : Valuation τ sig (Elt F) := StableHlo.after hostOps2 (W4 m c)
abbrev U5 : TcVal F := fun c b => W5 m c b
def W6 (c : Dev nD) : Valuation τ sig (Elt F) := Function.update (W5 m c) main_v18 ((dat2 (U5 m) c).arrAt 2 cfg2.N)
abbrev U6 : TcVal F := fun c b => W6 m c b
/-! ## Layer 1, block 1: regions 3, 4, 5 -/
abbrev W7 (c : Dev nD) : Valuation τ sig (Elt F) := StableHlo.after hostOps3 (W6 m c)
abbrev U7 : TcVal F := fun c b => W7 m c b
def W8 (c : Dev nD) : Valuation τ sig (Elt F) := Function.update (W7 m c) main_v21 ((dat3 (U7 m) c).arrAt 2 cfg3.N)
abbrev U8 : TcVal F := fun c b => W8 m c b
abbrev W9 (c : Dev nD) : Valuation τ sig (Elt F) := StableHlo.after hostOps4 (W8 m c)
abbrev U9 : TcVal F := fun c b => W9 m c b
def W10 (c : Dev nD) : Valuation τ sig (Elt F) := Function.update (W9 m c) main_v30 ((dat4 (U9 m) c).arrAt 2 cfg4.N)
abbrev U10 : TcVal F := fun c b => W10 m c b
abbrev W11 (c : Dev nD) : Valuation τ sig (Elt F) := StableHlo.after hostOps5 (W10 m c)
abbrev U11 : TcVal F := fun c b => W11 m c b
def W12 (c : Dev nD) : Valuation τ sig (Elt F) := Function.update (W11 m c) main_v37 ((dat5 (U11 m) c).arrAt 2 cfg5.N)
abbrev U12 : TcVal F := fun c b => W12 m c b
/-! ## Layer 1, block 2: regions 6, 7, 8 -/
abbrev W13 (c : Dev nD) : Valuation τ sig (Elt F) := StableHlo.after hostOps6 (W12 m c)
abbrev U13 : TcVal F := fun c b => W13 m c b
def W14 (c : Dev nD) : Valuation τ sig (Elt F) := Function.update (W13 m c) main_v40 ((dat6 (U13 m) c).arrAt 2 cfg6.N)
abbrev U14 : TcVal F := fun c b => W14 m c b
abbrev W15 (c : Dev nD) : Valuation τ sig (Elt F) := StableHlo.after hostOps7 (W14 m c)
abbrev U15 : TcVal F := fun c b => W15 m c b
def W16 (c : Dev nD) : Valuation τ sig (Elt F) := Function.update (W15 m c) main_v49 ((dat7 (U15 m) c).arrAt 2 cfg7.N)
abbrev U16 : TcVal F := fun c b => W16 m c b
abbrev W17 (c : Dev nD) : Valuation τ sig (Elt F) := StableHlo.after hostOps8 (W16 m c)
abbrev U17 : TcVal F := fun c b => W17 m c b
def W18 (c : Dev nD) : Valuation τ sig (Elt F) := Function.update (W17 m c) main_v56 ((dat8 (U17 m) c).arrAt 2 cfg8.N)
abbrev U18 : TcVal F := fun c b => W18 m c b
/-! ## Layer 1, block 3: regions 9, 10, 11 -/
abbrev W19 (c : Dev nD) : Valuation τ sig (Elt F) := StableHlo.after hostOps9 (W18 m c)
abbrev U19 : TcVal F := fun c b => W19 m c b
def W20 (c : Dev nD) : Valuation τ sig (Elt F) := Function.update (W19 m c) main_v59 ((dat9 (U19 m) c).arrAt 2 cfg9.N)
abbrev U20 : TcVal F := fun c b => W20 m c b
abbrev W21 (c : Dev nD) : Valuation τ sig (Elt F) := StableHlo.after hostOps10 (W20 m c)
abbrev U21 : TcVal F := fun c b => W21 m c b
def W22 (c : Dev nD) : Valuation τ sig (Elt F) := Function.update (W21 m c) main_v68 ((dat10 (U21 m) c).arrAt 2 cfg10.N)
abbrev U22 : TcVal F := fun c b => W22 m c b
abbrev W23 (c : Dev nD) : Valuation τ sig (Elt F) := StableHlo.after hostOps11 (W22 m c)
abbrev U23 : TcVal F := fun c b => W23 m c b
def W24 (c : Dev nD) : Valuation τ sig (Elt F) := Function.update (W23 m c) main_v75 ((dat11 (U23 m) c).arrAt 2 cfg11.N)
abbrev U24 : TcVal F := fun c b => W24 m c b
/-! ## Layer 2, block 0: regions 12, 13, 14 -/
abbrev W25 (c : Dev nD) : Valuation τ sig (Elt F) := StableHlo.after hostOps12 (W24 m c)
abbrev U25 : TcVal F := fun c b => W25 m c b
def W26 (c : Dev nD) : Valuation τ sig (Elt F) := Function.update (W25 m c) main_v78 ((dat12 (U25 m) c).arrAt 2 cfg12.N)
abbrev U26 : TcVal F := fun c b => W26 m c b
abbrev W27 (c : Dev nD) : Valuation τ sig (Elt F) := StableHlo.after hostOps13 (W26 m c)
abbrev U27 : TcVal F := fun c b => W27 m c b
def W28 (c : Dev nD) : Valuation τ sig (Elt F) := Function.update (W27 m c) main_v87 ((dat13 (U27 m) c).arrAt 2 cfg13.N)
abbrev U28 : TcVal F := fun c b => W28 m c b
abbrev W29 (c : Dev nD) : Valuation τ sig (Elt F) := StableHlo.after hostOps14 (W28 m c)
abbrev U29 : TcVal F := fun c b => W29 m c b
def W30 (c : Dev nD) : Valuation τ sig (Elt F) := Function.update (W29 m c) main_v94 ((dat14 (U29 m) c).arrAt 2 cfg14.N)
abbrev U30 : TcVal F := fun c b => W30 m c b
/-! ## Layer 2, block 1: regions 15, 16, 17 -/
abbrev W31 (c : Dev nD) : Valuation τ sig (Elt F) := StableHlo.after hostOps15 (W30 m c)
abbrev U31 : TcVal F := fun c b => W31 m c b
def W32 (c : Dev nD) : Valuation τ sig (Elt F) := Function.update (W31 m c) main_v97 ((dat15 (U31 m) c).arrAt 2 cfg15.N)
abbrev U32 : TcVal F := fun c b => W32 m c b
abbrev W33 (c : Dev nD) : Valuation τ sig (Elt F) := StableHlo.after hostOps16 (W32 m c)
abbrev U33 : TcVal F := fun c b => W33 m c b
def W34 (c : Dev nD) : Valuation τ sig (Elt F) := Function.update (W33 m c) main_v106 ((dat16 (U33 m) c).arrAt 2 cfg16.N)
abbrev U34 : TcVal F := fun c b => W34 m c b
abbrev W35 (c : Dev nD) : Valuation τ sig (Elt F) := StableHlo.after hostOps17 (W34 m c)
abbrev U35 : TcVal F := fun c b => W35 m c b
def W36 (c : Dev nD) : Valuation τ sig (Elt F) := Function.update (W35 m c) main_v113 ((dat17 (U35 m) c).arrAt 2 cfg17.N)
abbrev U36 : TcVal F := fun c b => W36 m c b
/-! ## Layer 2, block 2: regions 18, 19, 20 -/
abbrev W37 (c : Dev nD) : Valuation τ sig (Elt F) := StableHlo.after hostOps18 (W36 m c)
abbrev U37 : TcVal F := fun c b => W37 m c b
def W38 (c : Dev nD) : Valuation τ sig (Elt F) := Function.update (W37 m c) main_v116 ((dat18 (U37 m) c).arrAt 2 cfg18.N)
abbrev U38 : TcVal F := fun c b => W38 m c b
abbrev W39 (c : Dev nD) : Valuation τ sig (Elt F) := StableHlo.after hostOps19 (W38 m c)
abbrev U39 : TcVal F := fun c b => W39 m c b
def W40 (c : Dev nD) : Valuation τ sig (Elt F) := Function.update (W39 m c) main_v125 ((dat19 (U39 m) c).arrAt 2 cfg19.N)
abbrev U40 : TcVal F := fun c b => W40 m c b
abbrev W41 (c : Dev nD) : Valuation τ sig (Elt F) := StableHlo.after hostOps20 (W40 m c)
abbrev U41 : TcVal F := fun c b => W41 m c b
def W42 (c : Dev nD) : Valuation τ sig (Elt F) := Function.update (W41 m c) main_v132 ((dat20 (U41 m) c).arrAt 2 cfg20.N)
abbrev U42 : TcVal F := fun c b => W42 m c b
/-! ## Layer 2, block 3: regions 21, 22, 23, and the last stretch -/
abbrev W43 (c : Dev nD) : Valuation τ sig (Elt F) := StableHlo.after hostOps21 (W42 m c)
abbrev U43 : TcVal F := fun c b => W43 m c b
def W44 (c : Dev nD) : Valuation τ sig (Elt F) := Function.update (W43 m c) main_v135 ((dat21 (U43 m) c).arrAt 2 cfg21.N)
abbrev U44 : TcVal F := fun c b => W44 m c b
abbrev W45 (c : Dev nD) : Valuation τ sig (Elt F) := StableHlo.after hostOps22 (W44 m c)
abbrev U45 : TcVal F := fun c b => W45 m c b
def W46 (c : Dev nD) : Valuation τ sig (Elt F) := Function.update (W45 m c) main_v144 ((dat22 (U45 m) c).arrAt 2 cfg22.N)
abbrev U46 : TcVal F := fun c b => W46 m c b
abbrev W47 (c : Dev nD) : Valuation τ sig (Elt F) := StableHlo.after hostOps23 (W46 m c)
abbrev U47 : TcVal F := fun c b => W47 m c b
def W48 (c : Dev nD) : Valuation τ sig (Elt F) := Function.update (W47 m c) main_v151 ((dat23 (U47 m) c).arrAt 2 cfg23.N)
abbrev U48 : TcVal F := fun c b => W48 m c b
abbrev W49 (c : Dev nD) : Valuation τ sig (Elt F) := StableHlo.after hostOps24 (W48 m c)

/-! ## A region changes its output array, and nothing else -/

theorem W2_self (c : Dev nD) : W2 m c main_v2 = (dat0 (U1 m) c).arrAt 2 cfg0.N := by unfold W2; exact Function.update_self ..
theorem W2_of_ne (c : Dev nD) (b : Ref sig .tc) (h : b ≠ main_v2) : W2 m c b = W1 m c b := by unfold W2; exact Function.update_of_ne (StableHlo.devRef_ne_of_ne h) ..
theorem W4_self (c : Dev nD) : W4 m c main_v11 = (dat1 (U3 m) c).arrAt 2 cfg1.N := by unfold W4; exact Function.update_self ..
theorem W4_of_ne (c : Dev nD) (b : Ref sig .tc) (h : b ≠ main_v11) : W4 m c b = W3 m c b := by unfold W4; exact Function.update_of_ne (StableHlo.devRef_ne_of_ne h) ..
theorem W6_self (c : Dev nD) : W6 m c main_v18 = (dat2 (U5 m) c).arrAt 2 cfg2.N := by unfold W6; exact Function.update_self ..
theorem W6_of_ne (c : Dev nD) (b : Ref sig .tc) (h : b ≠ main_v18) : W6 m c b = W5 m c b := by unfold W6; exact Function.update_of_ne (StableHlo.devRef_ne_of_ne h) ..
theorem W8_self (c : Dev nD) : W8 m c main_v21 = (dat3 (U7 m) c).arrAt 2 cfg3.N := by unfold W8; exact Function.update_self ..
theorem W8_of_ne (c : Dev nD) (b : Ref sig .tc) (h : b ≠ main_v21) : W8 m c b = W7 m c b := by unfold W8; exact Function.update_of_ne (StableHlo.devRef_ne_of_ne h) ..
theorem W10_self (c : Dev nD) : W10 m c main_v30 = (dat4 (U9 m) c).arrAt 2 cfg4.N := by unfold W10; exact Function.update_self ..
theorem W10_of_ne (c : Dev nD) (b : Ref sig .tc) (h : b ≠ main_v30) : W10 m c b = W9 m c b := by unfold W10; exact Function.update_of_ne (StableHlo.devRef_ne_of_ne h) ..
theorem W12_self (c : Dev nD) : W12 m c main_v37 = (dat5 (U11 m) c).arrAt 2 cfg5.N := by unfold W12; exact Function.update_self ..
theorem W12_of_ne (c : Dev nD) (b : Ref sig .tc) (h : b ≠ main_v37) : W12 m c b = W11 m c b := by unfold W12; exact Function.update_of_ne (StableHlo.devRef_ne_of_ne h) ..
theorem W14_self (c : Dev nD) : W14 m c main_v40 = (dat6 (U13 m) c).arrAt 2 cfg6.N := by unfold W14; exact Function.update_self ..
theorem W14_of_ne (c : Dev nD) (b : Ref sig .tc) (h : b ≠ main_v40) : W14 m c b = W13 m c b := by unfold W14; exact Function.update_of_ne (StableHlo.devRef_ne_of_ne h) ..
theorem W16_self (c : Dev nD) : W16 m c main_v49 = (dat7 (U15 m) c).arrAt 2 cfg7.N := by unfold W16; exact Function.update_self ..
theorem W16_of_ne (c : Dev nD) (b : Ref sig .tc) (h : b ≠ main_v49) : W16 m c b = W15 m c b := by unfold W16; exact Function.update_of_ne (StableHlo.devRef_ne_of_ne h) ..
theorem W18_self (c : Dev nD) : W18 m c main_v56 = (dat8 (U17 m) c).arrAt 2 cfg8.N := by unfold W18; exact Function.update_self ..
theorem W18_of_ne (c : Dev nD) (b : Ref sig .tc) (h : b ≠ main_v56) : W18 m c b = W17 m c b := by unfold W18; exact Function.update_of_ne (StableHlo.devRef_ne_of_ne h) ..
theorem W20_self (c : Dev nD) : W20 m c main_v59 = (dat9 (U19 m) c).arrAt 2 cfg9.N := by unfold W20; exact Function.update_self ..
theorem W20_of_ne (c : Dev nD) (b : Ref sig .tc) (h : b ≠ main_v59) : W20 m c b = W19 m c b := by unfold W20; exact Function.update_of_ne (StableHlo.devRef_ne_of_ne h) ..
theorem W22_self (c : Dev nD) : W22 m c main_v68 = (dat10 (U21 m) c).arrAt 2 cfg10.N := by unfold W22; exact Function.update_self ..
theorem W22_of_ne (c : Dev nD) (b : Ref sig .tc) (h : b ≠ main_v68) : W22 m c b = W21 m c b := by unfold W22; exact Function.update_of_ne (StableHlo.devRef_ne_of_ne h) ..
theorem W24_self (c : Dev nD) : W24 m c main_v75 = (dat11 (U23 m) c).arrAt 2 cfg11.N := by unfold W24; exact Function.update_self ..
theorem W24_of_ne (c : Dev nD) (b : Ref sig .tc) (h : b ≠ main_v75) : W24 m c b = W23 m c b := by unfold W24; exact Function.update_of_ne (StableHlo.devRef_ne_of_ne h) ..
theorem W26_self (c : Dev nD) : W26 m c main_v78 = (dat12 (U25 m) c).arrAt 2 cfg12.N := by unfold W26; exact Function.update_self ..
theorem W26_of_ne (c : Dev nD) (b : Ref sig .tc) (h : b ≠ main_v78) : W26 m c b = W25 m c b := by unfold W26; exact Function.update_of_ne (StableHlo.devRef_ne_of_ne h) ..
theorem W28_self (c : Dev nD) : W28 m c main_v87 = (dat13 (U27 m) c).arrAt 2 cfg13.N := by unfold W28; exact Function.update_self ..
theorem W28_of_ne (c : Dev nD) (b : Ref sig .tc) (h : b ≠ main_v87) : W28 m c b = W27 m c b := by unfold W28; exact Function.update_of_ne (StableHlo.devRef_ne_of_ne h) ..
theorem W30_self (c : Dev nD) : W30 m c main_v94 = (dat14 (U29 m) c).arrAt 2 cfg14.N := by unfold W30; exact Function.update_self ..
theorem W30_of_ne (c : Dev nD) (b : Ref sig .tc) (h : b ≠ main_v94) : W30 m c b = W29 m c b := by unfold W30; exact Function.update_of_ne (StableHlo.devRef_ne_of_ne h) ..
theorem W32_self (c : Dev nD) : W32 m c main_v97 = (dat15 (U31 m) c).arrAt 2 cfg15.N := by unfold W32; exact Function.update_self ..
theorem W32_of_ne (c : Dev nD) (b : Ref sig .tc) (h : b ≠ main_v97) : W32 m c b = W31 m c b := by unfold W32; exact Function.update_of_ne (StableHlo.devRef_ne_of_ne h) ..
theorem W34_self (c : Dev nD) : W34 m c main_v106 = (dat16 (U33 m) c).arrAt 2 cfg16.N := by unfold W34; exact Function.update_self ..
theorem W34_of_ne (c : Dev nD) (b : Ref sig .tc) (h : b ≠ main_v106) : W34 m c b = W33 m c b := by unfold W34; exact Function.update_of_ne (StableHlo.devRef_ne_of_ne h) ..
theorem W36_self (c : Dev nD) : W36 m c main_v113 = (dat17 (U35 m) c).arrAt 2 cfg17.N := by unfold W36; exact Function.update_self ..
theorem W36_of_ne (c : Dev nD) (b : Ref sig .tc) (h : b ≠ main_v113) : W36 m c b = W35 m c b := by unfold W36; exact Function.update_of_ne (StableHlo.devRef_ne_of_ne h) ..
theorem W38_self (c : Dev nD) : W38 m c main_v116 = (dat18 (U37 m) c).arrAt 2 cfg18.N := by unfold W38; exact Function.update_self ..
theorem W38_of_ne (c : Dev nD) (b : Ref sig .tc) (h : b ≠ main_v116) : W38 m c b = W37 m c b := by unfold W38; exact Function.update_of_ne (StableHlo.devRef_ne_of_ne h) ..
theorem W40_self (c : Dev nD) : W40 m c main_v125 = (dat19 (U39 m) c).arrAt 2 cfg19.N := by unfold W40; exact Function.update_self ..
theorem W40_of_ne (c : Dev nD) (b : Ref sig .tc) (h : b ≠ main_v125) : W40 m c b = W39 m c b := by unfold W40; exact Function.update_of_ne (StableHlo.devRef_ne_of_ne h) ..
theorem W42_self (c : Dev nD) : W42 m c main_v132 = (dat20 (U41 m) c).arrAt 2 cfg20.N := by unfold W42; exact Function.update_self ..
theorem W42_of_ne (c : Dev nD) (b : Ref sig .tc) (h : b ≠ main_v132) : W42 m c b = W41 m c b := by unfold W42; exact Function.update_of_ne (StableHlo.devRef_ne_of_ne h) ..
theorem W44_self (c : Dev nD) : W44 m c main_v135 = (dat21 (U43 m) c).arrAt 2 cfg21.N := by unfold W44; exact Function.update_self ..
theorem W44_of_ne (c : Dev nD) (b : Ref sig .tc) (h : b ≠ main_v135) : W44 m c b = W43 m c b := by unfold W44; exact Function.update_of_ne (StableHlo.devRef_ne_of_ne h) ..
theorem W46_self (c : Dev nD) : W46 m c main_v144 = (dat22 (U45 m) c).arrAt 2 cfg22.N := by unfold W46; exact Function.update_self ..
theorem W46_of_ne (c : Dev nD) (b : Ref sig .tc) (h : b ≠ main_v144) : W46 m c b = W45 m c b := by unfold W46; exact Function.update_of_ne (StableHlo.devRef_ne_of_ne h) ..
theorem W48_self (c : Dev nD) : W48 m c main_v151 = (dat23 (U47 m) c).arrAt 2 cfg23.N := by unfold W48; exact Function.update_self ..
theorem W48_of_ne (c : Dev nD) (b : Ref sig .tc) (h : b ≠ main_v151) : W48 m c b = W47 m c b := by unfold W48; exact Function.update_of_ne (StableHlo.devRef_ne_of_ne h) ..

/-! ## The region outputs, as the conditional frame names them -/

/-- What is in reference `r` on core `c` after item `n - 1`; read only at the even `n` (after a region), at that
    region's output array. -/
def outs : GenP.Outs (F := F) := fun n r c =>
  match n with
  | 2 => W2 m c r | 4 => W4 m c r | 6 => W6 m c r | 8 => W8 m c r | 10 => W10 m c r | 12 => W12 m c r
  | 14 => W14 m c r | 16 => W16 m c r | 18 => W18 m c r | 20 => W20 m c r | 22 => W22 m c r | 24 => W24 m c r
  | 26 => W26 m c r | 28 => W28 m c r | 30 => W30 m c r | 32 => W32 m c r | 34 => W34 m c r | 36 => W36 m c r
  | 38 => W38 m c r | 40 => W40 m c r | 42 => W42 m c r | 44 => W44 m c r | 46 => W46 m c r | 48 => W48 m c r
  | _ => m ((c : Thread nD τ).loc r)

/-! ## The conditional frame's valuations at these outputs are the contents above, item by item -/

theorem V1_eq (c : Dev nD) : GenP.V1 m c = W1 m c := rfl
theorem V2_eq (c : Dev nD) : GenP.V2 m (outs m) c = W2 m c := by
  show Function.update (GenP.V1 m c) main_v2 (W2 m c main_v2) = W2 m c
  rw [V1_eq, W2_self]; rfl
theorem V3_eq (c : Dev nD) : GenP.V3 m (outs m) c = W3 m c := by
  show StableHlo.after hostOps1 (GenP.V2 m (outs m) c) = W3 m c
  rw [V2_eq]
theorem V4_eq (c : Dev nD) : GenP.V4 m (outs m) c = W4 m c := by
  show Function.update (GenP.V3 m (outs m) c) main_v11 (W4 m c main_v11) = W4 m c
  rw [V3_eq, W4_self]; rfl
theorem V5_eq (c : Dev nD) : GenP.V5 m (outs m) c = W5 m c := by
  show StableHlo.after hostOps2 (GenP.V4 m (outs m) c) = W5 m c
  rw [V4_eq]
theorem V6_eq (c : Dev nD) : GenP.V6 m (outs m) c = W6 m c := by
  show Function.update (GenP.V5 m (outs m) c) main_v18 (W6 m c main_v18) = W6 m c
  rw [V5_eq, W6_self]; rfl
theorem V7_eq (c : Dev nD) : GenP.V7 m (outs m) c = W7 m c := by
  show StableHlo.after hostOps3 (GenP.V6 m (outs m) c) = W7 m c
  rw [V6_eq]
theorem V8_eq (c : Dev nD) : GenP.V8 m (outs m) c = W8 m c := by
  show Function.update (GenP.V7 m (outs m) c) main_v21 (W8 m c main_v21) = W8 m c
  rw [V7_eq, W8_self]; rfl
theorem V9_eq (c : Dev nD) : GenP.V9 m (outs m) c = W9 m c := by
  show StableHlo.after hostOps4 (GenP.V8 m (outs m) c) = W9 m c
  rw [V8_eq]
theorem V10_eq (c : Dev nD) : GenP.V10 m (outs m) c = W10 m c := by
  show Function.update (GenP.V9 m (outs m) c) main_v30 (W10 m c main_v30) = W10 m c
  rw [V9_eq, W10_self]; rfl
theorem V11_eq (c : Dev nD) : GenP.V11 m (outs m) c = W11 m c := by
  show StableHlo.after hostOps5 (GenP.V10 m (outs m) c) = W11 m c
  rw [V10_eq]
theorem V12_eq (c : Dev nD) : GenP.V12 m (outs m) c = W12 m c := by
  show Function.update (GenP.V11 m (outs m) c) main_v37 (W12 m c main_v37) = W12 m c
  rw [V11_eq, W12_self]; rfl
theorem V13_eq (c : Dev nD) : GenP.V13 m (outs m) c = W13 m c := by
  show StableHlo.after hostOps6 (GenP.V12 m (outs m) c) = W13 m c
  rw [V12_eq]
theorem V14_eq (c : Dev nD) : GenP.V14 m (outs m) c = W14 m c := by
  show Function.update (GenP.V13 m (outs m) c) main_v40 (W14 m c main_v40) = W14 m c
  rw [V13_eq, W14_self]; rfl
theorem V15_eq (c : Dev nD) : GenP.V15 m (outs m) c = W15 m c := by
  show StableHlo.after hostOps7 (GenP.V14 m (outs m) c) = W15 m c
  rw [V14_eq]
theorem V16_eq (c : Dev nD) : GenP.V16 m (outs m) c = W16 m c := by
  show Function.update (GenP.V15 m (outs m) c) main_v49 (W16 m c main_v49) = W16 m c
  rw [V15_eq, W16_self]; rfl
theorem V17_eq (c : Dev nD) : GenP.V17 m (outs m) c = W17 m c := by
  show StableHlo.after hostOps8 (GenP.V16 m (outs m) c) = W17 m c
  rw [V16_eq]
theorem V18_eq (c : Dev nD) : GenP.V18 m (outs m) c = W18 m c := by
  show Function.update (GenP.V17 m (outs m) c) main_v56 (W18 m c main_v56) = W18 m c
  rw [V17_eq, W18_self]; rfl
theorem V19_eq (c : Dev nD) : GenP.V19 m (outs m) c = W19 m c := by
  show StableHlo.after hostOps9 (GenP.V18 m (outs m) c) = W19 m c
  rw [V18_eq]
theorem V20_eq (c : Dev nD) : GenP.V20 m (outs m) c = W20 m c := by
  show Function.update (GenP.V19 m (outs m) c) main_v59 (W20 m c main_v59) = W20 m c
  rw [V19_eq, W20_self]; rfl
theorem V21_eq (c : Dev nD) : GenP.V21 m (outs m) c = W21 m c := by
  show StableHlo.after hostOps10 (GenP.V20 m (outs m) c) = W21 m c
  rw [V20_eq]
theorem V22_eq (c : Dev nD) : GenP.V22 m (outs m) c = W22 m c := by
  show Function.update (GenP.V21 m (outs m) c) main_v68 (W22 m c main_v68) = W22 m c
  rw [V21_eq, W22_self]; rfl
theorem V23_eq (c : Dev nD) : GenP.V23 m (outs m) c = W23 m c := by
  show StableHlo.after hostOps11 (GenP.V22 m (outs m) c) = W23 m c
  rw [V22_eq]
theorem V24_eq (c : Dev nD) : GenP.V24 m (outs m) c = W24 m c := by
  show Function.update (GenP.V23 m (outs m) c) main_v75 (W24 m c main_v75) = W24 m c
  rw [V23_eq, W24_self]; rfl
theorem V25_eq (c : Dev nD) : GenP.V25 m (outs m) c = W25 m c := by
  show StableHlo.after hostOps12 (GenP.V24 m (outs m) c) = W25 m c
  rw [V24_eq]
theorem V26_eq (c : Dev nD) : GenP.V26 m (outs m) c = W26 m c := by
  show Function.update (GenP.V25 m (outs m) c) main_v78 (W26 m c main_v78) = W26 m c
  rw [V25_eq, W26_self]; rfl
theorem V27_eq (c : Dev nD) : GenP.V27 m (outs m) c = W27 m c := by
  show StableHlo.after hostOps13 (GenP.V26 m (outs m) c) = W27 m c
  rw [V26_eq]
theorem V28_eq (c : Dev nD) : GenP.V28 m (outs m) c = W28 m c := by
  show Function.update (GenP.V27 m (outs m) c) main_v87 (W28 m c main_v87) = W28 m c
  rw [V27_eq, W28_self]; rfl
theorem V29_eq (c : Dev nD) : GenP.V29 m (outs m) c = W29 m c := by
  show StableHlo.after hostOps14 (GenP.V28 m (outs m) c) = W29 m c
  rw [V28_eq]
theorem V30_eq (c : Dev nD) : GenP.V30 m (outs m) c = W30 m c := by
  show Function.update (GenP.V29 m (outs m) c) main_v94 (W30 m c main_v94) = W30 m c
  rw [V29_eq, W30_self]; rfl
theorem V31_eq (c : Dev nD) : GenP.V31 m (outs m) c = W31 m c := by
  show StableHlo.after hostOps15 (GenP.V30 m (outs m) c) = W31 m c
  rw [V30_eq]
theorem V32_eq (c : Dev nD) : GenP.V32 m (outs m) c = W32 m c := by
  show Function.update (GenP.V31 m (outs m) c) main_v97 (W32 m c main_v97) = W32 m c
  rw [V31_eq, W32_self]; rfl
theorem V33_eq (c : Dev nD) : GenP.V33 m (outs m) c = W33 m c := by
  show StableHlo.after hostOps16 (GenP.V32 m (outs m) c) = W33 m c
  rw [V32_eq]
theorem V34_eq (c : Dev nD) : GenP.V34 m (outs m) c = W34 m c := by
  show Function.update (GenP.V33 m (outs m) c) main_v106 (W34 m c main_v106) = W34 m c
  rw [V33_eq, W34_self]; rfl
theorem V35_eq (c : Dev nD) : GenP.V35 m (outs m) c = W35 m c := by
  show StableHlo.after hostOps17 (GenP.V34 m (outs m) c) = W35 m c
  rw [V34_eq]
theorem V36_eq (c : Dev nD) : GenP.V36 m (outs m) c = W36 m c := by
  show Function.update (GenP.V35 m (outs m) c) main_v113 (W36 m c main_v113) = W36 m c
  rw [V35_eq, W36_self]; rfl
theorem V37_eq (c : Dev nD) : GenP.V37 m (outs m) c = W37 m c := by
  show StableHlo.after hostOps18 (GenP.V36 m (outs m) c) = W37 m c
  rw [V36_eq]
theorem V38_eq (c : Dev nD) : GenP.V38 m (outs m) c = W38 m c := by
  show Function.update (GenP.V37 m (outs m) c) main_v116 (W38 m c main_v116) = W38 m c
  rw [V37_eq, W38_self]; rfl
theorem V39_eq (c : Dev nD) : GenP.V39 m (outs m) c = W39 m c := by
  show StableHlo.after hostOps19 (GenP.V38 m (outs m) c) = W39 m c
  rw [V38_eq]
theorem V40_eq (c : Dev nD) : GenP.V40 m (outs m) c = W40 m c := by
  show Function.update (GenP.V39 m (outs m) c) main_v125 (W40 m c main_v125) = W40 m c
  rw [V39_eq, W40_self]; rfl
theorem V41_eq (c : Dev nD) : GenP.V41 m (outs m) c = W41 m c := by
  show StableHlo.after hostOps20 (GenP.V40 m (outs m) c) = W41 m c
  rw [V40_eq]
theorem V42_eq (c : Dev nD) : GenP.V42 m (outs m) c = W42 m c := by
  show Function.update (GenP.V41 m (outs m) c) main_v132 (W42 m c main_v132) = W42 m c
  rw [V41_eq, W42_self]; rfl
theorem V43_eq (c : Dev nD) : GenP.V43 m (outs m) c = W43 m c := by
  show StableHlo.after hostOps21 (GenP.V42 m (outs m) c) = W43 m c
  rw [V42_eq]
theorem V44_eq (c : Dev nD) : GenP.V44 m (outs m) c = W44 m c := by
  show Function.update (GenP.V43 m (outs m) c) main_v135 (W44 m c main_v135) = W44 m c
  rw [V43_eq, W44_self]; rfl
theorem V45_eq (c : Dev nD) : GenP.V45 m (outs m) c = W45 m c := by
  show StableHlo.after hostOps22 (GenP.V44 m (outs m) c) = W45 m c
  rw [V44_eq]
theorem V46_eq (c : Dev nD) : GenP.V46 m (outs m) c = W46 m c := by
  show Function.update (GenP.V45 m (outs m) c) main_v144 (W46 m c main_v144) = W46 m c
  rw [V45_eq, W46_self]; rfl
theorem V47_eq (c : Dev nD) : GenP.V47 m (outs m) c = W47 m c := by
  show StableHlo.after hostOps23 (GenP.V46 m (outs m) c) = W47 m c
  rw [V46_eq]
theorem V48_eq (c : Dev nD) : GenP.V48 m (outs m) c = W48 m c := by
  show Function.update (GenP.V47 m (outs m) c) main_v151 (W48 m c main_v151) = W48 m c
  rw [V47_eq, W48_self]; rfl
theorem V49_eq (c : Dev nD) : GenP.V49 m (outs m) c = W49 m c := by
  show StableHlo.after hostOps24 (GenP.V48 m (outs m) c) = W49 m c
  rw [V48_eq]

end Cert.Kernel.Hand

end
-- ==== Proof.K.Pdats.lean ====
/- The pipelines' proof data, each at the contents its region is entered from, and what a region's exit needs of
   them: each of its three arrays holds, in the contents after the region, what the pipeline leaves there (the two
   input arrays are as entered; the output array is the one the region changes), and every other buffer is as entered. -/
import proofs.«104107_j50560355009131_1_alg».proof.Proof.K.Fold
import Idealize.ShloMosaic.Lib.Pipeline.RegionsLoop

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Every pipeline's proof data, each at its region's entry contents. -/
def pdats : (p : Fin 24) → (c : Dev nD) → Dat τ (Elt F) Unit ℕ (UR sig nD τ) ℕ (cfgs p) c
  | ⟨0, _⟩ => fun c => dat0 (U1 m) c
  | ⟨1, _⟩ => fun c => dat1 (U3 m) c
  | ⟨2, _⟩ => fun c => dat2 (U5 m) c
  | ⟨3, _⟩ => fun c => dat3 (U7 m) c
  | ⟨4, _⟩ => fun c => dat4 (U9 m) c
  | ⟨5, _⟩ => fun c => dat5 (U11 m) c
  | ⟨6, _⟩ => fun c => dat6 (U13 m) c
  | ⟨7, _⟩ => fun c => dat7 (U15 m) c
  | ⟨8, _⟩ => fun c => dat8 (U17 m) c
  | ⟨9, _⟩ => fun c => dat9 (U19 m) c
  | ⟨10, _⟩ => fun c => dat10 (U21 m) c
  | ⟨11, _⟩ => fun c => dat11 (U23 m) c
  | ⟨12, _⟩ => fun c => dat12 (U25 m) c
  | ⟨13, _⟩ => fun c => dat13 (U27 m) c
  | ⟨14, _⟩ => fun c => dat14 (U29 m) c
  | ⟨15, _⟩ => fun c => dat15 (U31 m) c
  | ⟨16, _⟩ => fun c => dat16 (U33 m) c
  | ⟨17, _⟩ => fun c => dat17 (U35 m) c
  | ⟨18, _⟩ => fun c => dat18 (U37 m) c
  | ⟨19, _⟩ => fun c => dat19 (U39 m) c
  | ⟨20, _⟩ => fun c => dat20 (U41 m) c
  | ⟨21, _⟩ => fun c => dat21 (U43 m) c
  | ⟨22, _⟩ => fun c => dat22 (U45 m) c
  | ⟨23, _⟩ => fun c => dat23 (U47 m) c
  | ⟨_ + 24, h⟩ => absurd h (Nat.not_lt.2 (Nat.le_add_left _ _))

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)

/-! ## At a region's exit -/

theorem hF0 (c : Dev nD) (w : Fin cfg0.W) : (dat0 (U1 m) c).arrAt w cfg0.N = U2 m c (Pipeline.arrRef spec0 w) :=
  match w with
  | ⟨0, _⟩ => ((dat0 (U1 m) c).arrAt_in 0 rfl _).trans ((A_eq0 (U1 m) c 0).trans (W2_of_ne m c _ (by decide)).symm)
  | ⟨1, _⟩ => ((dat0 (U1 m) c).arrAt_in 1 rfl _).trans ((A_eq0 (U1 m) c 1).trans (W2_of_ne m c _ (by decide)).symm)
  | ⟨2, _⟩ => (W2_self m c).symm
theorem hrest0 (c : Dev nD) : ∀ b, b ∉ Finset.univ.image (Pipeline.arrRef spec0) → U2 m c b = U1 m c b :=
  fun b hb => W2_of_ne m c b fun e => hb (Finset.mem_image.mpr ⟨2, Finset.mem_univ _, e.symm⟩)
theorem hF1 (c : Dev nD) (w : Fin cfg1.W) : (dat1 (U3 m) c).arrAt w cfg1.N = U4 m c (Pipeline.arrRef spec1 w) :=
  match w with
  | ⟨0, _⟩ => ((dat1 (U3 m) c).arrAt_in 0 rfl _).trans ((A_eq1 (U3 m) c 0).trans (W4_of_ne m c _ (by decide)).symm)
  | ⟨1, _⟩ => ((dat1 (U3 m) c).arrAt_in 1 rfl _).trans ((A_eq1 (U3 m) c 1).trans (W4_of_ne m c _ (by decide)).symm)
  | ⟨2, _⟩ => (W4_self m c).symm
theorem hrest1 (c : Dev nD) : ∀ b, b ∉ Finset.univ.image (Pipeline.arrRef spec1) → U4 m c b = U3 m c b :=
  fun b hb => W4_of_ne m c b fun e => hb (Finset.mem_image.mpr ⟨2, Finset.mem_univ _, e.symm⟩)
theorem hF2 (c : Dev nD) (w : Fin cfg2.W) : (dat2 (U5 m) c).arrAt w cfg2.N = U6 m c (Pipeline.arrRef spec2 w) :=
  match w with
  | ⟨0, _⟩ => ((dat2 (U5 m) c).arrAt_in 0 rfl _).trans ((A_eq2 (U5 m) c 0).trans (W6_of_ne m c _ (by decide)).symm)
  | ⟨1, _⟩ => ((dat2 (U5 m) c).arrAt_in 1 rfl _).trans ((A_eq2 (U5 m) c 1).trans (W6_of_ne m c _ (by decide)).symm)
  | ⟨2, _⟩ => (W6_self m c).symm
theorem hrest2 (c : Dev nD) : ∀ b, b ∉ Finset.univ.image (Pipeline.arrRef spec2) → U6 m c b = U5 m c b :=
  fun b hb => W6_of_ne m c b fun e => hb (Finset.mem_image.mpr ⟨2, Finset.mem_univ _, e.symm⟩)
theorem hF3 (c : Dev nD) (w : Fin cfg3.W) : (dat3 (U7 m) c).arrAt w cfg3.N = U8 m c (Pipeline.arrRef spec3 w) :=
  match w with
  | ⟨0, _⟩ => ((dat3 (U7 m) c).arrAt_in 0 rfl _).trans ((A_eq3 (U7 m) c 0).trans (W8_of_ne m c _ (by decide)).symm)
  | ⟨1, _⟩ => ((dat3 (U7 m) c).arrAt_in 1 rfl _).trans ((A_eq3 (U7 m) c 1).trans (W8_of_ne m c _ (by decide)).symm)
  | ⟨2, _⟩ => (W8_self m c).symm
theorem hrest3 (c : Dev nD) : ∀ b, b ∉ Finset.univ.image (Pipeline.arrRef spec3) → U8 m c b = U7 m c b :=
  fun b hb => W8_of_ne m c b fun e => hb (Finset.mem_image.mpr ⟨2, Finset.mem_univ _, e.symm⟩)
theorem hF4 (c : Dev nD) (w : Fin cfg4.W) : (dat4 (U9 m) c).arrAt w cfg4.N = U10 m c (Pipeline.arrRef spec4 w) :=
  match w with
  | ⟨0, _⟩ => ((dat4 (U9 m) c).arrAt_in 0 rfl _).trans ((A_eq4 (U9 m) c 0).trans (W10_of_ne m c _ (by decide)).symm)
  | ⟨1, _⟩ => ((dat4 (U9 m) c).arrAt_in 1 rfl _).trans ((A_eq4 (U9 m) c 1).trans (W10_of_ne m c _ (by decide)).symm)
  | ⟨2, _⟩ => (W10_self m c).symm
theorem hrest4 (c : Dev nD) : ∀ b, b ∉ Finset.univ.image (Pipeline.arrRef spec4) → U10 m c b = U9 m c b :=
  fun b hb => W10_of_ne m c b fun e => hb (Finset.mem_image.mpr ⟨2, Finset.mem_univ _, e.symm⟩)
theorem hF5 (c : Dev nD) (w : Fin cfg5.W) : (dat5 (U11 m) c).arrAt w cfg5.N = U12 m c (Pipeline.arrRef spec5 w) :=
  match w with
  | ⟨0, _⟩ => ((dat5 (U11 m) c).arrAt_in 0 rfl _).trans ((A_eq5 (U11 m) c 0).trans (W12_of_ne m c _ (by decide)).symm)
  | ⟨1, _⟩ => ((dat5 (U11 m) c).arrAt_in 1 rfl _).trans ((A_eq5 (U11 m) c 1).trans (W12_of_ne m c _ (by decide)).symm)
  | ⟨2, _⟩ => (W12_self m c).symm
theorem hrest5 (c : Dev nD) : ∀ b, b ∉ Finset.univ.image (Pipeline.arrRef spec5) → U12 m c b = U11 m c b :=
  fun b hb => W12_of_ne m c b fun e => hb (Finset.mem_image.mpr ⟨2, Finset.mem_univ _, e.symm⟩)
theorem hF6 (c : Dev nD) (w : Fin cfg6.W) : (dat6 (U13 m) c).arrAt w cfg6.N = U14 m c (Pipeline.arrRef spec6 w) :=
  match w with
  | ⟨0, _⟩ => ((dat6 (U13 m) c).arrAt_in 0 rfl _).trans ((A_eq6 (U13 m) c 0).trans (W14_of_ne m c _ (by decide)).symm)
  | ⟨1, _⟩ => ((dat6 (U13 m) c).arrAt_in 1 rfl _).trans ((A_eq6 (U13 m) c 1).trans (W14_of_ne m c _ (by decide)).symm)
  | ⟨2, _⟩ => (W14_self m c).symm
theorem hrest6 (c : Dev nD) : ∀ b, b ∉ Finset.univ.image (Pipeline.arrRef spec6) → U14 m c b = U13 m c b :=
  fun b hb => W14_of_ne m c b fun e => hb (Finset.mem_image.mpr ⟨2, Finset.mem_univ _, e.symm⟩)
theorem hF7 (c : Dev nD) (w : Fin cfg7.W) : (dat7 (U15 m) c).arrAt w cfg7.N = U16 m c (Pipeline.arrRef spec7 w) :=
  match w with
  | ⟨0, _⟩ => ((dat7 (U15 m) c).arrAt_in 0 rfl _).trans ((A_eq7 (U15 m) c 0).trans (W16_of_ne m c _ (by decide)).symm)
  | ⟨1, _⟩ => ((dat7 (U15 m) c).arrAt_in 1 rfl _).trans ((A_eq7 (U15 m) c 1).trans (W16_of_ne m c _ (by decide)).symm)
  | ⟨2, _⟩ => (W16_self m c).symm
theorem hrest7 (c : Dev nD) : ∀ b, b ∉ Finset.univ.image (Pipeline.arrRef spec7) → U16 m c b = U15 m c b :=
  fun b hb => W16_of_ne m c b fun e => hb (Finset.mem_image.mpr ⟨2, Finset.mem_univ _, e.symm⟩)
theorem hF8 (c : Dev nD) (w : Fin cfg8.W) : (dat8 (U17 m) c).arrAt w cfg8.N = U18 m c (Pipeline.arrRef spec8 w) :=
  match w with
  | ⟨0, _⟩ => ((dat8 (U17 m) c).arrAt_in 0 rfl _).trans ((A_eq8 (U17 m) c 0).trans (W18_of_ne m c _ (by decide)).symm)
  | ⟨1, _⟩ => ((dat8 (U17 m) c).arrAt_in 1 rfl _).trans ((A_eq8 (U17 m) c 1).trans (W18_of_ne m c _ (by decide)).symm)
  | ⟨2, _⟩ => (W18_self m c).symm
theorem hrest8 (c : Dev nD) : ∀ b, b ∉ Finset.univ.image (Pipeline.arrRef spec8) → U18 m c b = U17 m c b :=
  fun b hb => W18_of_ne m c b fun e => hb (Finset.mem_image.mpr ⟨2, Finset.mem_univ _, e.symm⟩)
theorem hF9 (c : Dev nD) (w : Fin cfg9.W) : (dat9 (U19 m) c).arrAt w cfg9.N = U20 m c (Pipeline.arrRef spec9 w) :=
  match w with
  | ⟨0, _⟩ => ((dat9 (U19 m) c).arrAt_in 0 rfl _).trans ((A_eq9 (U19 m) c 0).trans (W20_of_ne m c _ (by decide)).symm)
  | ⟨1, _⟩ => ((dat9 (U19 m) c).arrAt_in 1 rfl _).trans ((A_eq9 (U19 m) c 1).trans (W20_of_ne m c _ (by decide)).symm)
  | ⟨2, _⟩ => (W20_self m c).symm
theorem hrest9 (c : Dev nD) : ∀ b, b ∉ Finset.univ.image (Pipeline.arrRef spec9) → U20 m c b = U19 m c b :=
  fun b hb => W20_of_ne m c b fun e => hb (Finset.mem_image.mpr ⟨2, Finset.mem_univ _, e.symm⟩)
theorem hF10 (c : Dev nD) (w : Fin cfg10.W) : (dat10 (U21 m) c).arrAt w cfg10.N = U22 m c (Pipeline.arrRef spec10 w) :=
  match w with
  | ⟨0, _⟩ => ((dat10 (U21 m) c).arrAt_in 0 rfl _).trans ((A_eq10 (U21 m) c 0).trans (W22_of_ne m c _ (by decide)).symm)
  | ⟨1, _⟩ => ((dat10 (U21 m) c).arrAt_in 1 rfl _).trans ((A_eq10 (U21 m) c 1).trans (W22_of_ne m c _ (by decide)).symm)
  | ⟨2, _⟩ => (W22_self m c).symm
theorem hrest10 (c : Dev nD) : ∀ b, b ∉ Finset.univ.image (Pipeline.arrRef spec10) → U22 m c b = U21 m c b :=
  fun b hb => W22_of_ne m c b fun e => hb (Finset.mem_image.mpr ⟨2, Finset.mem_univ _, e.symm⟩)
theorem hF11 (c : Dev nD) (w : Fin cfg11.W) : (dat11 (U23 m) c).arrAt w cfg11.N = U24 m c (Pipeline.arrRef spec11 w) :=
  match w with
  | ⟨0, _⟩ => ((dat11 (U23 m) c).arrAt_in 0 rfl _).trans ((A_eq11 (U23 m) c 0).trans (W24_of_ne m c _ (by decide)).symm)
  | ⟨1, _⟩ => ((dat11 (U23 m) c).arrAt_in 1 rfl _).trans ((A_eq11 (U23 m) c 1).trans (W24_of_ne m c _ (by decide)).symm)
  | ⟨2, _⟩ => (W24_self m c).symm
theorem hrest11 (c : Dev nD) : ∀ b, b ∉ Finset.univ.image (Pipeline.arrRef spec11) → U24 m c b = U23 m c b :=
  fun b hb => W24_of_ne m c b fun e => hb (Finset.mem_image.mpr ⟨2, Finset.mem_univ _, e.symm⟩)
theorem hF12 (c : Dev nD) (w : Fin cfg12.W) : (dat12 (U25 m) c).arrAt w cfg12.N = U26 m c (Pipeline.arrRef spec12 w) :=
  match w with
  | ⟨0, _⟩ => ((dat12 (U25 m) c).arrAt_in 0 rfl _).trans ((A_eq12 (U25 m) c 0).trans (W26_of_ne m c _ (by decide)).symm)
  | ⟨1, _⟩ => ((dat12 (U25 m) c).arrAt_in 1 rfl _).trans ((A_eq12 (U25 m) c 1).trans (W26_of_ne m c _ (by decide)).symm)
  | ⟨2, _⟩ => (W26_self m c).symm
theorem hrest12 (c : Dev nD) : ∀ b, b ∉ Finset.univ.image (Pipeline.arrRef spec12) → U26 m c b = U25 m c b :=
  fun b hb => W26_of_ne m c b fun e => hb (Finset.mem_image.mpr ⟨2, Finset.mem_univ _, e.symm⟩)
theorem hF13 (c : Dev nD) (w : Fin cfg13.W) : (dat13 (U27 m) c).arrAt w cfg13.N = U28 m c (Pipeline.arrRef spec13 w) :=
  match w with
  | ⟨0, _⟩ => ((dat13 (U27 m) c).arrAt_in 0 rfl _).trans ((A_eq13 (U27 m) c 0).trans (W28_of_ne m c _ (by decide)).symm)
  | ⟨1, _⟩ => ((dat13 (U27 m) c).arrAt_in 1 rfl _).trans ((A_eq13 (U27 m) c 1).trans (W28_of_ne m c _ (by decide)).symm)
  | ⟨2, _⟩ => (W28_self m c).symm
theorem hrest13 (c : Dev nD) : ∀ b, b ∉ Finset.univ.image (Pipeline.arrRef spec13) → U28 m c b = U27 m c b :=
  fun b hb => W28_of_ne m c b fun e => hb (Finset.mem_image.mpr ⟨2, Finset.mem_univ _, e.symm⟩)
theorem hF14 (c : Dev nD) (w : Fin cfg14.W) : (dat14 (U29 m) c).arrAt w cfg14.N = U30 m c (Pipeline.arrRef spec14 w) :=
  match w with
  | ⟨0, _⟩ => ((dat14 (U29 m) c).arrAt_in 0 rfl _).trans ((A_eq14 (U29 m) c 0).trans (W30_of_ne m c _ (by decide)).symm)
  | ⟨1, _⟩ => ((dat14 (U29 m) c).arrAt_in 1 rfl _).trans ((A_eq14 (U29 m) c 1).trans (W30_of_ne m c _ (by decide)).symm)
  | ⟨2, _⟩ => (W30_self m c).symm
theorem hrest14 (c : Dev nD) : ∀ b, b ∉ Finset.univ.image (Pipeline.arrRef spec14) → U30 m c b = U29 m c b :=
  fun b hb => W30_of_ne m c b fun e => hb (Finset.mem_image.mpr ⟨2, Finset.mem_univ _, e.symm⟩)
theorem hF15 (c : Dev nD) (w : Fin cfg15.W) : (dat15 (U31 m) c).arrAt w cfg15.N = U32 m c (Pipeline.arrRef spec15 w) :=
  match w with
  | ⟨0, _⟩ => ((dat15 (U31 m) c).arrAt_in 0 rfl _).trans ((A_eq15 (U31 m) c 0).trans (W32_of_ne m c _ (by decide)).symm)
  | ⟨1, _⟩ => ((dat15 (U31 m) c).arrAt_in 1 rfl _).trans ((A_eq15 (U31 m) c 1).trans (W32_of_ne m c _ (by decide)).symm)
  | ⟨2, _⟩ => (W32_self m c).symm
theorem hrest15 (c : Dev nD) : ∀ b, b ∉ Finset.univ.image (Pipeline.arrRef spec15) → U32 m c b = U31 m c b :=
  fun b hb => W32_of_ne m c b fun e => hb (Finset.mem_image.mpr ⟨2, Finset.mem_univ _, e.symm⟩)
theorem hF16 (c : Dev nD) (w : Fin cfg16.W) : (dat16 (U33 m) c).arrAt w cfg16.N = U34 m c (Pipeline.arrRef spec16 w) :=
  match w with
  | ⟨0, _⟩ => ((dat16 (U33 m) c).arrAt_in 0 rfl _).trans ((A_eq16 (U33 m) c 0).trans (W34_of_ne m c _ (by decide)).symm)
  | ⟨1, _⟩ => ((dat16 (U33 m) c).arrAt_in 1 rfl _).trans ((A_eq16 (U33 m) c 1).trans (W34_of_ne m c _ (by decide)).symm)
  | ⟨2, _⟩ => (W34_self m c).symm
theorem hrest16 (c : Dev nD) : ∀ b, b ∉ Finset.univ.image (Pipeline.arrRef spec16) → U34 m c b = U33 m c b :=
  fun b hb => W34_of_ne m c b fun e => hb (Finset.mem_image.mpr ⟨2, Finset.mem_univ _, e.symm⟩)
theorem hF17 (c : Dev nD) (w : Fin cfg17.W) : (dat17 (U35 m) c).arrAt w cfg17.N = U36 m c (Pipeline.arrRef spec17 w) :=
  match w with
  | ⟨0, _⟩ => ((dat17 (U35 m) c).arrAt_in 0 rfl _).trans ((A_eq17 (U35 m) c 0).trans (W36_of_ne m c _ (by decide)).symm)
  | ⟨1, _⟩ => ((dat17 (U35 m) c).arrAt_in 1 rfl _).trans ((A_eq17 (U35 m) c 1).trans (W36_of_ne m c _ (by decide)).symm)
  | ⟨2, _⟩ => (W36_self m c).symm
theorem hrest17 (c : Dev nD) : ∀ b, b ∉ Finset.univ.image (Pipeline.arrRef spec17) → U36 m c b = U35 m c b :=
  fun b hb => W36_of_ne m c b fun e => hb (Finset.mem_image.mpr ⟨2, Finset.mem_univ _, e.symm⟩)
theorem hF18 (c : Dev nD) (w : Fin cfg18.W) : (dat18 (U37 m) c).arrAt w cfg18.N = U38 m c (Pipeline.arrRef spec18 w) :=
  match w with
  | ⟨0, _⟩ => ((dat18 (U37 m) c).arrAt_in 0 rfl _).trans ((A_eq18 (U37 m) c 0).trans (W38_of_ne m c _ (by decide)).symm)
  | ⟨1, _⟩ => ((dat18 (U37 m) c).arrAt_in 1 rfl _).trans ((A_eq18 (U37 m) c 1).trans (W38_of_ne m c _ (by decide)).symm)
  | ⟨2, _⟩ => (W38_self m c).symm
theorem hrest18 (c : Dev nD) : ∀ b, b ∉ Finset.univ.image (Pipeline.arrRef spec18) → U38 m c b = U37 m c b :=
  fun b hb => W38_of_ne m c b fun e => hb (Finset.mem_image.mpr ⟨2, Finset.mem_univ _, e.symm⟩)
theorem hF19 (c : Dev nD) (w : Fin cfg19.W) : (dat19 (U39 m) c).arrAt w cfg19.N = U40 m c (Pipeline.arrRef spec19 w) :=
  match w with
  | ⟨0, _⟩ => ((dat19 (U39 m) c).arrAt_in 0 rfl _).trans ((A_eq19 (U39 m) c 0).trans (W40_of_ne m c _ (by decide)).symm)
  | ⟨1, _⟩ => ((dat19 (U39 m) c).arrAt_in 1 rfl _).trans ((A_eq19 (U39 m) c 1).trans (W40_of_ne m c _ (by decide)).symm)
  | ⟨2, _⟩ => (W40_self m c).symm
theorem hrest19 (c : Dev nD) : ∀ b, b ∉ Finset.univ.image (Pipeline.arrRef spec19) → U40 m c b = U39 m c b :=
  fun b hb => W40_of_ne m c b fun e => hb (Finset.mem_image.mpr ⟨2, Finset.mem_univ _, e.symm⟩)
theorem hF20 (c : Dev nD) (w : Fin cfg20.W) : (dat20 (U41 m) c).arrAt w cfg20.N = U42 m c (Pipeline.arrRef spec20 w) :=
  match w with
  | ⟨0, _⟩ => ((dat20 (U41 m) c).arrAt_in 0 rfl _).trans ((A_eq20 (U41 m) c 0).trans (W42_of_ne m c _ (by decide)).symm)
  | ⟨1, _⟩ => ((dat20 (U41 m) c).arrAt_in 1 rfl _).trans ((A_eq20 (U41 m) c 1).trans (W42_of_ne m c _ (by decide)).symm)
  | ⟨2, _⟩ => (W42_self m c).symm
theorem hrest20 (c : Dev nD) : ∀ b, b ∉ Finset.univ.image (Pipeline.arrRef spec20) → U42 m c b = U41 m c b :=
  fun b hb => W42_of_ne m c b fun e => hb (Finset.mem_image.mpr ⟨2, Finset.mem_univ _, e.symm⟩)
theorem hF21 (c : Dev nD) (w : Fin cfg21.W) : (dat21 (U43 m) c).arrAt w cfg21.N = U44 m c (Pipeline.arrRef spec21 w) :=
  match w with
  | ⟨0, _⟩ => ((dat21 (U43 m) c).arrAt_in 0 rfl _).trans ((A_eq21 (U43 m) c 0).trans (W44_of_ne m c _ (by decide)).symm)
  | ⟨1, _⟩ => ((dat21 (U43 m) c).arrAt_in 1 rfl _).trans ((A_eq21 (U43 m) c 1).trans (W44_of_ne m c _ (by decide)).symm)
  | ⟨2, _⟩ => (W44_self m c).symm
theorem hrest21 (c : Dev nD) : ∀ b, b ∉ Finset.univ.image (Pipeline.arrRef spec21) → U44 m c b = U43 m c b :=
  fun b hb => W44_of_ne m c b fun e => hb (Finset.mem_image.mpr ⟨2, Finset.mem_univ _, e.symm⟩)
theorem hF22 (c : Dev nD) (w : Fin cfg22.W) : (dat22 (U45 m) c).arrAt w cfg22.N = U46 m c (Pipeline.arrRef spec22 w) :=
  match w with
  | ⟨0, _⟩ => ((dat22 (U45 m) c).arrAt_in 0 rfl _).trans ((A_eq22 (U45 m) c 0).trans (W46_of_ne m c _ (by decide)).symm)
  | ⟨1, _⟩ => ((dat22 (U45 m) c).arrAt_in 1 rfl _).trans ((A_eq22 (U45 m) c 1).trans (W46_of_ne m c _ (by decide)).symm)
  | ⟨2, _⟩ => (W46_self m c).symm
theorem hrest22 (c : Dev nD) : ∀ b, b ∉ Finset.univ.image (Pipeline.arrRef spec22) → U46 m c b = U45 m c b :=
  fun b hb => W46_of_ne m c b fun e => hb (Finset.mem_image.mpr ⟨2, Finset.mem_univ _, e.symm⟩)
theorem hF23 (c : Dev nD) (w : Fin cfg23.W) : (dat23 (U47 m) c).arrAt w cfg23.N = U48 m c (Pipeline.arrRef spec23 w) :=
  match w with
  | ⟨0, _⟩ => ((dat23 (U47 m) c).arrAt_in 0 rfl _).trans ((A_eq23 (U47 m) c 0).trans (W48_of_ne m c _ (by decide)).symm)
  | ⟨1, _⟩ => ((dat23 (U47 m) c).arrAt_in 1 rfl _).trans ((A_eq23 (U47 m) c 1).trans (W48_of_ne m c _ (by decide)).symm)
  | ⟨2, _⟩ => (W48_self m c).symm
theorem hrest23 (c : Dev nD) : ∀ b, b ∉ Finset.univ.image (Pipeline.arrRef spec23) → U48 m c b = U47 m c b :=
  fun b hb => W48_of_ne m c b fun e => hb (Finset.mem_image.mpr ⟨2, Finset.mem_univ _, e.symm⟩)

end Cert.Kernel.Hand

end
-- ==== Proof.K.RegsA.lean ====
/- Regions 0 to 5 of @main as segments of its run: layer 0, blocks 0 and 1 — for each block k the matrix product
   x · W[0,k], the per-edge scaling of the gathered rows, and the bias b[0,k] added to the summed rows (no relu). -/
import proofs.«104107_j50560355009131_1_alg».proof.Proof.K.Pdats

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 0 over the thread state: entered from every unscoped buffer at `W1`, left at `W2`. Its three arrays are split
    out of the unscoped buffers at entry and put back at the exit contents; the generator register goes into the class
    invariant and comes out; nothing is owed; the kernel has no semaphore of its own. -/
def reg0 : Pipeline.RegionSeg (pcfgs (F := F)) GenP.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) GenP.adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its three arrays are split
    out of the unscoped buffers at entry and put back at the exit contents; the generator register goes into the class
    invariant and comes out; nothing is owed; the kernel has no semaphore of its own. -/
def reg1 : Pipeline.RegionSeg (pcfgs (F := F)) GenP.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) GenP.adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its three arrays are split
    out of the unscoped buffers at entry and put back at the exit contents; the generator register goes into the class
    invariant and comes out; nothing is owed; the kernel has no semaphore of its own. -/
def reg2 : Pipeline.RegionSeg (pcfgs (F := F)) GenP.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) GenP.adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) GenP.adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W7`, left at `W8`. Its three arrays are split
    out of the unscoped buffers at entry and put back at the exit contents; the generator register goes into the class
    invariant and comes out; nothing is owed; the kernel has no semaphore of its own. -/
def reg3 : Pipeline.RegionSeg (pcfgs (F := F)) GenP.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (U7 m c)
  hentry c := by
    rw [Pipeline.ownSems0_none]
    have hsplit := Pipeline.arrays_of_unscopedBufs (p := 3) (pcfgs (F := F)) GenP.adm (pdats m) launch3.win launch3.arr_whole c
      ((pdats m 3 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) GenP.adm (Ix := Unit) (Name := ℕ) (U := UR sig nD τ) (Lvl := ℕ)
      launch3.win launch3.arr_whole c (pdats m) ((pdats m 3 c).share_full fun _ => rfl)
      (U7 m c) (U8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W9`, left at `W10`. Its three arrays are
    split out of the unscoped buffers at entry and put back at the exit contents; the generator register goes into the
    class invariant and comes out; nothing is owed; the kernel has no semaphore of its own. -/
def reg4 : Pipeline.RegionSeg (pcfgs (F := F)) GenP.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (U9 m c)
  hentry c := by
    rw [Pipeline.ownSems0_none]
    have hsplit := Pipeline.arrays_of_unscopedBufs (p := 4) (pcfgs (F := F)) GenP.adm (pdats m) launch4.win launch4.arr_whole c
      ((pdats m 4 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) GenP.adm (Ix := Unit) (Name := ℕ) (U := UR sig nD τ) (Lvl := ℕ)
      launch4.win launch4.arr_whole c (pdats m) ((pdats m 4 c).share_full fun _ => rfl)
      (U9 m c) (U10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W11`, left at `W12`. Its three arrays are
    split out of the unscoped buffers at entry and put back at the exit contents; the generator register goes into the
    class invariant and comes out; nothing is owed; the kernel has no semaphore of its own. -/
def reg5 : Pipeline.RegionSeg (pcfgs (F := F)) GenP.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U11 m) c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (U11 m c)
  hentry c := by
    rw [Pipeline.ownSems0_none]
    have hsplit := Pipeline.arrays_of_unscopedBufs (p := 5) (pcfgs (F := F)) GenP.adm (pdats m) launch5.win launch5.arr_whole c
      ((pdats m 5 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) GenP.adm (Ix := Unit) (Name := ℕ) (U := UR sig nD τ) (Lvl := ℕ)
      launch5.win launch5.arr_whole c (pdats m) ((pdats m 5 c).share_full fun _ => rfl)
      (U11 m c) (U12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RegsB.lean ====
/- Regions 6 to 11 of @main as segments of its run: layer 0, blocks 2 and 3 — for each block k the matrix product
   x · W[0,k], the per-edge scaling of the gathered rows, and the bias b[0,k] added to the summed rows, then relu. -/
import proofs.«104107_j50560355009131_1_alg».proof.Proof.K.Pdats

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 6 over the thread state: entered from every unscoped buffer at `W13`, left at `W14`. Its three arrays are
    split out of the unscoped buffers at entry and put back at the exit contents; the generator register goes into the
    class invariant and comes out; nothing is owed; the kernel has no semaphore of its own. -/
def reg6 : Pipeline.RegionSeg (pcfgs (F := F)) GenP.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (U13 m) c).loose
  hwaits := Pipeline.hwaits_of_owed_zero _ _ _ _ L lv 6 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec6 c (U13 m c)
  hentry c := by
    rw [Pipeline.ownSems0_none]
    have hsplit := Pipeline.arrays_of_unscopedBufs (p := 6) (pcfgs (F := F)) GenP.adm (pdats m) launch6.win launch6.arr_whole c
      ((pdats m 6 c).share_full fun _ => rfl) (U13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) GenP.adm (Ix := Unit) (Name := ℕ) (U := UR sig nD τ) (Lvl := ℕ)
      launch6.win launch6.arr_whole c (pdats m) ((pdats m 6 c).share_full fun _ => rfl)
      (U13 m c) (U14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 7 over the thread state: entered from every unscoped buffer at `W15`, left at `W16`. Its three arrays are
    split out of the unscoped buffers at entry and put back at the exit contents; the generator register goes into the
    class invariant and comes out; nothing is owed; the kernel has no semaphore of its own. -/
def reg7 : Pipeline.RegionSeg (pcfgs (F := F)) GenP.adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (U15 m) c).loose
  hwaits := Pipeline.hwaits_of_owed_zero _ _ _ _ L lv 7 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec7 c (U15 m c)
  hentry c := by
    rw [Pipeline.ownSems0_none]
    have hsplit := Pipeline.arrays_of_unscopedBufs (p := 7) (pcfgs (F := F)) GenP.adm (pdats m) launch7.win launch7.arr_whole c
      ((pdats m 7 c).share_full fun _ => rfl) (U15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) GenP.adm (Ix := Unit) (Name := ℕ) (U := UR sig nD τ) (Lvl := ℕ)
      launch7.win launch7.arr_whole c (pdats m) ((pdats m 7 c).share_full fun _ => rfl)
      (U15 m c) (U16 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 8 over the thread state: entered from every unscoped buffer at `W17`, left at `W18`. Its three arrays are
    split out of the unscoped buffers at entry and put back at the exit contents; the generator register goes into the
    class invariant and comes out; nothing is owed; the kernel has no semaphore of its own. -/
def reg8 : Pipeline.RegionSeg (pcfgs (F := F)) GenP.adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (U17 m) c).loose
  hwaits := Pipeline.hwaits_of_owed_zero _ _ _ _ L lv 8 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec8 c (U17 m c)
  hentry c := by
    rw [Pipeline.ownSems0_none]
    have hsplit := Pipeline.arrays_of_unscopedBufs (p := 8) (pcfgs (F := F)) GenP.adm (pdats m) launch8.win launch8.arr_whole c
      ((pdats m 8 c).share_full fun _ => rfl) (U17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) GenP.adm (Ix := Unit) (Name := ℕ) (U := UR sig nD τ) (Lvl := ℕ)
      launch8.win launch8.arr_whole c (pdats m) ((pdats m 8 c).share_full fun _ => rfl)
      (U17 m c) (U18 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 9 over the thread state: entered from every unscoped buffer at `W19`, left at `W20`. Its three arrays are
    split out of the unscoped buffers at entry and put back at the exit contents; the generator register goes into the
    class invariant and comes out; nothing is owed; the kernel has no semaphore of its own. -/
def reg9 : Pipeline.RegionSeg (pcfgs (F := F)) GenP.adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (U19 m) c).loose
  hwaits := Pipeline.hwaits_of_owed_zero _ _ _ _ L lv 9 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec9 c (U19 m c)
  hentry c := by
    rw [Pipeline.ownSems0_none]
    have hsplit := Pipeline.arrays_of_unscopedBufs (p := 9) (pcfgs (F := F)) GenP.adm (pdats m) launch9.win launch9.arr_whole c
      ((pdats m 9 c).share_full fun _ => rfl) (U19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) GenP.adm (Ix := Unit) (Name := ℕ) (U := UR sig nD τ) (Lvl := ℕ)
      launch9.win launch9.arr_whole c (pdats m) ((pdats m 9 c).share_full fun _ => rfl)
      (U19 m c) (U20 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 10 over the thread state: entered from every unscoped buffer at `W21`, left at `W22`. Its three arrays are
    split out of the unscoped buffers at entry and put back at the exit contents; the generator register goes into the
    class invariant and comes out; nothing is owed; the kernel has no semaphore of its own. -/
def reg10 : Pipeline.RegionSeg (pcfgs (F := F)) GenP.adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (U21 m) c).loose
  hwaits := Pipeline.hwaits_of_owed_zero _ _ _ _ L lv 10 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec10 c (U21 m c)
  hentry c := by
    rw [Pipeline.ownSems0_none]
    have hsplit := Pipeline.arrays_of_unscopedBufs (p := 10) (pcfgs (F := F)) GenP.adm (pdats m) launch10.win launch10.arr_whole c
      ((pdats m 10 c).share_full fun _ => rfl) (U21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) GenP.adm (Ix := Unit) (Name := ℕ) (U := UR sig nD τ) (Lvl := ℕ)
      launch10.win launch10.arr_whole c (pdats m) ((pdats m 10 c).share_full fun _ => rfl)
      (U21 m c) (U22 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 11 over the thread state: entered from every unscoped buffer at `W23`, left at `W24`. Its three arrays are
    split out of the unscoped buffers at entry and put back at the exit contents; the generator register goes into the
    class invariant and comes out; nothing is owed; the kernel has no semaphore of its own. -/
def reg11 : Pipeline.RegionSeg (pcfgs (F := F)) GenP.adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (U23 m) c).loose
  hwaits := Pipeline.hwaits_of_owed_zero _ _ _ _ L lv 11 fun _ _ => rfl
  pre c := iprop(StableHlo.held (c : Thread nD τ) (Pipeline.ucRefs τ sig) (W23 m c) ∗ R c)
  post c := iprop(StableHlo.held (c : Thread nD τ) (Pipeline.ucRefs τ sig) (W24 m c) ∗ R c)
  X c := iprop(∃ r, prngReg c r)
  Y c := iprop(∃ r, prngReg c r)
  Z c := Pipeline.unscopedRest (Ix := Unit) (Name := ℕ) (U := UR sig nD τ) (Lvl := ℕ) spec11 c (U23 m c)
  hentry c := by
    rw [Pipeline.ownSems0_none]
    have hsplit := Pipeline.arrays_of_unscopedBufs (p := 11) (pcfgs (F := F)) GenP.adm (pdats m) launch11.win launch11.arr_whole c
      ((pdats m 11 c).share_full fun _ => rfl) (U23 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) GenP.adm (Ix := Unit) (Name := ℕ) (U := UR sig nD τ) (Lvl := ℕ)
      launch11.win launch11.arr_whole c (pdats m) ((pdats m 11 c).share_full fun _ => rfl)
      (U23 m c) (U24 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RegsC.lean ====
/- The segments of @main's run for regions 12 to 17, the first half of layer 1: block 0 is the product u · W[1,0] (12), the
   per-edge scaling of its gathered rows (13) and the bias b[1,0] (14); block 1 is v · W[1,1] (15), its scaling (16), b[1,1] (17). -/
import proofs.«104107_j50560355009131_1_alg».proof.Proof.K.Pdats

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

-- In each record below a library lemma stated over the pinned configuration has to unify with the printed one, which
-- needs plain definitions unfolded inside a metavariable's type; hence the option in front of each.
set_option backward.isDefEq.respectTransparency.types false in
/-- REGION 12 (u · W[1,0]) over the thread state: entered from every unscoped buffer at `W25`, left at `W26`. Its three
    arrays are split out of the unscoped buffers at entry and put back at the exit contents; the generator register goes
    into the class invariant and comes out; nothing is owed; the kernel has no semaphore of its own. -/
def reg12 : Pipeline.RegionSeg (pcfgs (F := F)) GenP.adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (U25 m) c).loose
  hwaits := Pipeline.hwaits_of_owed_zero _ _ _ _ L lv 12 fun _ _ => rfl
  pre c := iprop(StableHlo.held (c : Thread nD τ) (Pipeline.ucRefs τ sig) (W25 m c) ∗ R c)
  post c := iprop(StableHlo.held (c : Thread nD τ) (Pipeline.ucRefs τ sig) (W26 m c) ∗ R c)
  X c := iprop(∃ r, prngReg c r)
  Y c := iprop(∃ r, prngReg c r)
  Z c := Pipeline.unscopedRest (Ix := Unit) (Name := ℕ) (U := UR sig nD τ) (Lvl := ℕ) spec12 c (U25 m c)
  hentry c := by
    rw [Pipeline.ownSems0_none]
    have hsplit := Pipeline.arrays_of_unscopedBufs (p := 12) (pcfgs (F := F)) GenP.adm (pdats m) launch12.win launch12.arr_whole c
      ((pdats m 12 c).share_full fun _ => rfl) (U25 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) GenP.adm (Ix := Unit) (Name := ℕ) (U := UR sig nD τ) (Lvl := ℕ)
      launch12.win launch12.arr_whole c (pdats m) ((pdats m 12 c).share_full fun _ => rfl)
      (U25 m c) (U26 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 13 (the gathered rows of region 12's product, each scaled by its edge weight) over the thread state: entered
    from every unscoped buffer at `W27`, left at `W28`. Its three arrays are split out of the unscoped buffers at entry and
    put back at the exit contents; the generator register goes into the class invariant and comes out; nothing is owed;
    the kernel has no semaphore of its own. -/
def reg13 : Pipeline.RegionSeg (pcfgs (F := F)) GenP.adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (U27 m) c).loose
  hwaits := Pipeline.hwaits_of_owed_zero _ _ _ _ L lv 13 fun _ _ => rfl
  pre c := iprop(StableHlo.held (c : Thread nD τ) (Pipeline.ucRefs τ sig) (W27 m c) ∗ R c)
  post c := iprop(StableHlo.held (c : Thread nD τ) (Pipeline.ucRefs τ sig) (W28 m c) ∗ R c)
  X c := iprop(∃ r, prngReg c r)
  Y c := iprop(∃ r, prngReg c r)
  Z c := Pipeline.unscopedRest (Ix := Unit) (Name := ℕ) (U := UR sig nD τ) (Lvl := ℕ) spec13 c (U27 m c)
  hentry c := by
    rw [Pipeline.ownSems0_none]
    have hsplit := Pipeline.arrays_of_unscopedBufs (p := 13) (pcfgs (F := F)) GenP.adm (pdats m) launch13.win launch13.arr_whole c
      ((pdats m 13 c).share_full fun _ => rfl) (U27 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) GenP.adm (Ix := Unit) (Name := ℕ) (U := UR sig nD τ) (Lvl := ℕ)
      launch13.win launch13.arr_whole c (pdats m) ((pdats m 13 c).share_full fun _ => rfl)
      (U27 m c) (U28 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 14 (the segment sums plus the bias row b[1,0]) over the thread state: entered from every unscoped buffer at
    `W29`, left at `W30`. Its three arrays are split out of the unscoped buffers at entry and put back at the exit
    contents; the generator register goes into the class invariant and comes out; nothing is owed; the kernel has no
    semaphore of its own. -/
def reg14 : Pipeline.RegionSeg (pcfgs (F := F)) GenP.adm (pdats m) () defs₀ 𝒱₀ L lv 14 where
  win := launch14.win.to₀
  block_pos := launch14.block_pos
  stage_whole := launch14.stage_whole
  K := PEmpty
  osem k := k.elim
  ho := Pipeline.OwnSemFacts.none _
  hbody c := (body_obligation14 (U29 m) c).loose
  hwaits := Pipeline.hwaits_of_owed_zero _ _ _ _ L lv 14 fun _ _ => rfl
  pre c := iprop(StableHlo.held (c : Thread nD τ) (Pipeline.ucRefs τ sig) (W29 m c) ∗ R c)
  post c := iprop(StableHlo.held (c : Thread nD τ) (Pipeline.ucRefs τ sig) (W30 m c) ∗ R c)
  X c := iprop(∃ r, prngReg c r)
  Y c := iprop(∃ r, prngReg c r)
  Z c := Pipeline.unscopedRest (Ix := Unit) (Name := ℕ) (U := UR sig nD τ) (Lvl := ℕ) spec14 c (U29 m c)
  hentry c := by
    rw [Pipeline.ownSems0_none]
    have hsplit := Pipeline.arrays_of_unscopedBufs (p := 14) (pcfgs (F := F)) GenP.adm (pdats m) launch14.win launch14.arr_whole c
      ((pdats m 14 c).share_full fun _ => rfl) (U29 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) GenP.adm (Ix := Unit) (Name := ℕ) (U := UR sig nD τ) (Lvl := ℕ)
      launch14.win launch14.arr_whole c (pdats m) ((pdats m 14 c).share_full fun _ => rfl)
      (U29 m c) (U30 m c) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 15 (v · W[1,1]) over the thread state: entered from every unscoped buffer at `W31`, left at `W32`. Its three
    arrays are split out of the unscoped buffers at entry and put back at the exit contents; the generator register goes
    into the class invariant and comes out; nothing is owed; the kernel has no semaphore of its own. -/
def reg15 : Pipeline.RegionSeg (pcfgs (F := F)) GenP.adm (pdats m) () defs₀ 𝒱₀ L lv 15 where
  win := launch15.win.to₀
  block_pos := launch15.block_pos
  stage_whole := launch15.stage_whole
  K := PEmpty
  osem k := k.elim
  ho := Pipeline.OwnSemFacts.none _
  hbody c := (body_obligation15 (U31 m) c).loose
  hwaits := Pipeline.hwaits_of_owed_zero _ _ _ _ L lv 15 fun _ _ => rfl
  pre c := iprop(StableHlo.held (c : Thread nD τ) (Pipeline.ucRefs τ sig) (W31 m c) ∗ R c)
  post c := iprop(StableHlo.held (c : Thread nD τ) (Pipeline.ucRefs τ sig) (W32 m c) ∗ R c)
  X c := iprop(∃ r, prngReg c r)
  Y c := iprop(∃ r, prngReg c r)
  Z c := Pipeline.unscopedRest (Ix := Unit) (Name := ℕ) (U := UR sig nD τ) (Lvl := ℕ) spec15 c (U31 m c)
  hentry c := by
    rw [Pipeline.ownSems0_none]
    have hsplit := Pipeline.arrays_of_unscopedBufs (p := 15) (pcfgs (F := F)) GenP.adm (pdats m) launch15.win launch15.arr_whole c
      ((pdats m 15 c).share_full fun _ => rfl) (U31 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) GenP.adm (Ix := Unit) (Name := ℕ) (U := UR sig nD τ) (Lvl := ℕ)
      launch15.win launch15.arr_whole c (pdats m) ((pdats m 15 c).share_full fun _ => rfl)
      (U31 m c) (U32 m c) ((pdats m 15 c).arrAt · cfg15.N) (hF15 m c) (hrest15 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 16 (the gathered rows of region 15's product, each scaled by its edge weight) over the thread state: entered
    from every unscoped buffer at `W33`, left at `W34`. Its three arrays are split out of the unscoped buffers at entry and
    put back at the exit contents; the generator register goes into the class invariant and comes out; nothing is owed;
    the kernel has no semaphore of its own. -/
def reg16 : Pipeline.RegionSeg (pcfgs (F := F)) GenP.adm (pdats m) () defs₀ 𝒱₀ L lv 16 where
  win := launch16.win.to₀
  block_pos := launch16.block_pos
  stage_whole := launch16.stage_whole
  K := PEmpty
  osem k := k.elim
  ho := Pipeline.OwnSemFacts.none _
  hbody c := (body_obligation16 (U33 m) c).loose
  hwaits := Pipeline.hwaits_of_owed_zero _ _ _ _ L lv 16 fun _ _ => rfl
  pre c := iprop(StableHlo.held (c : Thread nD τ) (Pipeline.ucRefs τ sig) (W33 m c) ∗ R c)
  post c := iprop(StableHlo.held (c : Thread nD τ) (Pipeline.ucRefs τ sig) (W34 m c) ∗ R c)
  X c := iprop(∃ r, prngReg c r)
  Y c := iprop(∃ r, prngReg c r)
  Z c := Pipeline.unscopedRest (Ix := Unit) (Name := ℕ) (U := UR sig nD τ) (Lvl := ℕ) spec16 c (U33 m c)
  hentry c := by
    rw [Pipeline.ownSems0_none]
    have hsplit := Pipeline.arrays_of_unscopedBufs (p := 16) (pcfgs (F := F)) GenP.adm (pdats m) launch16.win launch16.arr_whole c
      ((pdats m 16 c).share_full fun _ => rfl) (U33 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) GenP.adm (Ix := Unit) (Name := ℕ) (U := UR sig nD τ) (Lvl := ℕ)
      launch16.win launch16.arr_whole c (pdats m) ((pdats m 16 c).share_full fun _ => rfl)
      (U33 m c) (U34 m c) ((pdats m 16 c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 17 (the segment sums plus the bias row b[1,1]) over the thread state: entered from every unscoped buffer at
    `W35`, left at `W36`. Its three arrays are split out of the unscoped buffers at entry and put back at the exit
    contents; the generator register goes into the class invariant and comes out; nothing is owed; the kernel has no
    semaphore of its own. -/
def reg17 : Pipeline.RegionSeg (pcfgs (F := F)) GenP.adm (pdats m) () defs₀ 𝒱₀ L lv 17 where
  win := launch17.win.to₀
  block_pos := launch17.block_pos
  stage_whole := launch17.stage_whole
  K := PEmpty
  osem k := k.elim
  ho := Pipeline.OwnSemFacts.none _
  hbody c := (body_obligation17 (U35 m) c).loose
  hwaits := Pipeline.hwaits_of_owed_zero _ _ _ _ L lv 17 fun _ _ => rfl
  pre c := iprop(StableHlo.held (c : Thread nD τ) (Pipeline.ucRefs τ sig) (W35 m c) ∗ R c)
  post c := iprop(StableHlo.held (c : Thread nD τ) (Pipeline.ucRefs τ sig) (W36 m c) ∗ R c)
  X c := iprop(∃ r, prngReg c r)
  Y c := iprop(∃ r, prngReg c r)
  Z c := Pipeline.unscopedRest (Ix := Unit) (Name := ℕ) (U := UR sig nD τ) (Lvl := ℕ) spec17 c (U35 m c)
  hentry c := by
    rw [Pipeline.ownSems0_none]
    have hsplit := Pipeline.arrays_of_unscopedBufs (p := 17) (pcfgs (F := F)) GenP.adm (pdats m) launch17.win launch17.arr_whole c
      ((pdats m 17 c).share_full fun _ => rfl) (U35 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 17 c).Φ 0 = Pipeline.ΦA spec17 c from rfl]; unfold Pipeline.ΦA
    iintro ⟨Hp, -, Hr⟩
    isplitl [Hr]; · iexact Hr
    iexact Hp
  hout c := by
    rw [Pipeline.ownSems0_none, show (pdats m 17 c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := 17) (pcfgs (F := F)) GenP.adm (Ix := Unit) (Name := ℕ) (U := UR sig nD τ) (Lvl := ℕ)
      launch17.win launch17.arr_whole c (pdats m) ((pdats m 17 c).share_full fun _ => rfl)
      (U35 m c) (U36 m c) ((pdats m 17 c).arrAt · cfg17.N) (hF17 m c) (hrest17 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RegsD.lean ====
/- The segments of @main's run for regions 18 to 23, the second half of layer 1: block 2 is the product user_ho · W[1,2] (18), the
   per-edge scaling of its gathered rows (19) and the bias b[1,2] with relu (20); block 3 is item_ho · W[1,3] (21), its scaling (22), b[1,3] with relu (23). -/
import proofs.«104107_j50560355009131_1_alg».proof.Proof.K.Pdats

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

-- In each record below a library lemma stated over the pinned configuration has to unify with the printed one, which
-- needs plain definitions unfolded inside a metavariable's type; hence the option in front of each.
set_option backward.isDefEq.respectTransparency.types false in
/-- REGION 18 (user_ho · W[1,2]) over the thread state: entered from every unscoped buffer at `W37`, left at `W38`. Its
    three arrays are split out of the unscoped buffers at entry and put back at the exit contents; the generator register
    goes into the class invariant and comes out; nothing is owed; the kernel has no semaphore of its own. -/
def reg18 : Pipeline.RegionSeg (pcfgs (F := F)) GenP.adm (pdats m) () defs₀ 𝒱₀ L lv 18 where
  win := launch18.win.to₀
  block_pos := launch18.block_pos
  stage_whole := launch18.stage_whole
  K := PEmpty
  osem k := k.elim
  ho := Pipeline.OwnSemFacts.none _
  hbody c := (body_obligation18 (U37 m) c).loose
  hwaits := Pipeline.hwaits_of_owed_zero _ _ _ _ L lv 18 fun _ _ => rfl
  pre c := iprop(StableHlo.held (c : Thread nD τ) (Pipeline.ucRefs τ sig) (W37 m c) ∗ R c)
  post c := iprop(StableHlo.held (c : Thread nD τ) (Pipeline.ucRefs τ sig) (W38 m c) ∗ R c)
  X c := iprop(∃ r, prngReg c r)
  Y c := iprop(∃ r, prngReg c r)
  Z c := Pipeline.unscopedRest (Ix := Unit) (Name := ℕ) (U := UR sig nD τ) (Lvl := ℕ) spec18 c (U37 m c)
  hentry c := by
    rw [Pipeline.ownSems0_none]
    have hsplit := Pipeline.arrays_of_unscopedBufs (p := 18) (pcfgs (F := F)) GenP.adm (pdats m) launch18.win launch18.arr_whole c
      ((pdats m 18 c).share_full fun _ => rfl) (U37 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 18 c).Φ 0 = Pipeline.ΦA spec18 c from rfl]; unfold Pipeline.ΦA
    iintro ⟨Hp, -, Hr⟩
    isplitl [Hr]; · iexact Hr
    iexact Hp
  hout c := by
    rw [Pipeline.ownSems0_none, show (pdats m 18 c).Φ (Fin.last _) = Pipeline.ΦA spec18 c from rfl]; unfold Pipeline.ΦA
    iintro ⟨Hr, Hp⟩
    isplitl [Hp]; · iexact Hp
    isplitr; · iempintro
    iexact Hr
  hexit c := by
    have hjoin := Pipeline.unscopedBufs_of_arrays (p := 18) (pcfgs (F := F)) GenP.adm (Ix := Unit) (Name := ℕ) (U := UR sig nD τ) (Lvl := ℕ)
      launch18.win launch18.arr_whole c (pdats m) ((pdats m 18 c).share_full fun _ => rfl)
      (U37 m c) (U38 m c) ((pdats m 18 c).arrAt · cfg18.N) (hF18 m c) (hrest18 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 19 (the gathered rows of region 18's product, each scaled by its edge weight) over the thread state: entered
    from every unscoped buffer at `W39`, left at `W40`. Its three arrays are split out of the unscoped buffers at entry and
    put back at the exit contents; the generator register goes into the class invariant and comes out; nothing is owed;
    the kernel has no semaphore of its own. -/
def reg19 : Pipeline.RegionSeg (pcfgs (F := F)) GenP.adm (pdats m) () defs₀ 𝒱₀ L lv 19 where
  win := launch19.win.to₀
  block_pos := launch19.block_pos
  stage_whole := launch19.stage_whole
  K := PEmpty
  osem k := k.elim
  ho := Pipeline.OwnSemFacts.none _
  hbody c := (body_obligation19 (U39 m) c).loose
  hwaits := Pipeline.hwaits_of_owed_zero _ _ _ _ L lv 19 fun _ _ => rfl
  pre c := iprop(StableHlo.held (c : Thread nD τ) (Pipeline.ucRefs τ sig) (W39 m c) ∗ R c)
  post c := iprop(StableHlo.held (c : Thread nD τ) (Pipeline.ucRefs τ sig) (W40 m c) ∗ R c)
  X c := iprop(∃ r, prngReg c r)
  Y c := iprop(∃ r, prngReg c r)
  Z c := Pipeline.unscopedRest (Ix := Unit) (Name := ℕ) (U := UR sig nD τ) (Lvl := ℕ) spec19 c (U39 m c)
  hentry c := by
    rw [Pipeline.ownSems0_none]
    have hsplit := Pipeline.arrays_of_unscopedBufs (p := 19) (pcfgs (F := F)) GenP.adm (pdats m) launch19.win launch19.arr_whole c
      ((pdats m 19 c).share_full fun _ => rfl) (U39 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 19 c).Φ 0 = Pipeline.ΦA spec19 c from rfl]; unfold Pipeline.ΦA
    iintro ⟨Hp, -, Hr⟩
    isplitl [Hr]; · iexact Hr
    iexact Hp
  hout c := by
    rw [Pipeline.ownSems0_none, show (pdats m 19 c).Φ (Fin.last _) = Pipeline.ΦA spec19 c from rfl]; unfold Pipeline.ΦA
    iintro ⟨Hr, Hp⟩
    isplitl [Hp]; · iexact Hp
    isplitr; · iempintro
    iexact Hr
  hexit c := by
    have hjoin := Pipeline.unscopedBufs_of_arrays (p := 19) (pcfgs (F := F)) GenP.adm (Ix := Unit) (Name := ℕ) (U := UR sig nD τ) (Lvl := ℕ)
      launch19.win launch19.arr_whole c (pdats m) ((pdats m 19 c).share_full fun _ => rfl)
      (U39 m c) (U40 m c) ((pdats m 19 c).arrAt · cfg19.N) (hF19 m c) (hrest19 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 20 (the segment sums plus the bias row b[1,2], cut off below at zero) over the thread state: entered from every
    unscoped buffer at `W41`, left at `W42`. Its three arrays are split out of the unscoped buffers at entry and put back
    at the exit contents; the generator register goes into the class invariant and comes out; nothing is owed; the kernel
    has no semaphore of its own. -/
def reg20 : Pipeline.RegionSeg (pcfgs (F := F)) GenP.adm (pdats m) () defs₀ 𝒱₀ L lv 20 where
  win := launch20.win.to₀
  block_pos := launch20.block_pos
  stage_whole := launch20.stage_whole
  K := PEmpty
  osem k := k.elim
  ho := Pipeline.OwnSemFacts.none _
  hbody c := (body_obligation20 (U41 m) c).loose
  hwaits := Pipeline.hwaits_of_owed_zero _ _ _ _ L lv 20 fun _ _ => rfl
  pre c := iprop(StableHlo.held (c : Thread nD τ) (Pipeline.ucRefs τ sig) (W41 m c) ∗ R c)
  post c := iprop(StableHlo.held (c : Thread nD τ) (Pipeline.ucRefs τ sig) (W42 m c) ∗ R c)
  X c := iprop(∃ r, prngReg c r)
  Y c := iprop(∃ r, prngReg c r)
  Z c := Pipeline.unscopedRest (Ix := Unit) (Name := ℕ) (U := UR sig nD τ) (Lvl := ℕ) spec20 c (U41 m c)
  hentry c := by
    rw [Pipeline.ownSems0_none]
    have hsplit := Pipeline.arrays_of_unscopedBufs (p := 20) (pcfgs (F := F)) GenP.adm (pdats m) launch20.win launch20.arr_whole c
      ((pdats m 20 c).share_full fun _ => rfl) (U41 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 20 c).Φ 0 = Pipeline.ΦA spec20 c from rfl]; unfold Pipeline.ΦA
    iintro ⟨Hp, -, Hr⟩
    isplitl [Hr]; · iexact Hr
    iexact Hp
  hout c := by
    rw [Pipeline.ownSems0_none, show (pdats m 20 c).Φ (Fin.last _) = Pipeline.ΦA spec20 c from rfl]; unfold Pipeline.ΦA
    iintro ⟨Hr, Hp⟩
    isplitl [Hp]; · iexact Hp
    isplitr; · iempintro
    iexact Hr
  hexit c := by
    have hjoin := Pipeline.unscopedBufs_of_arrays (p := 20) (pcfgs (F := F)) GenP.adm (Ix := Unit) (Name := ℕ) (U := UR sig nD τ) (Lvl := ℕ)
      launch20.win launch20.arr_whole c (pdats m) ((pdats m 20 c).share_full fun _ => rfl)
      (U41 m c) (U42 m c) ((pdats m 20 c).arrAt · cfg20.N) (hF20 m c) (hrest20 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 21 (item_ho · W[1,3]) over the thread state: entered from every unscoped buffer at `W43`, left at `W44`. Its
    three arrays are split out of the unscoped buffers at entry and put back at the exit contents; the generator register
    goes into the class invariant and comes out; nothing is owed; the kernel has no semaphore of its own. -/
def reg21 : Pipeline.RegionSeg (pcfgs (F := F)) GenP.adm (pdats m) () defs₀ 𝒱₀ L lv 21 where
  win := launch21.win.to₀
  block_pos := launch21.block_pos
  stage_whole := launch21.stage_whole
  K := PEmpty
  osem k := k.elim
  ho := Pipeline.OwnSemFacts.none _
  hbody c := (body_obligation21 (U43 m) c).loose
  hwaits := Pipeline.hwaits_of_owed_zero _ _ _ _ L lv 21 fun _ _ => rfl
  pre c := iprop(StableHlo.held (c : Thread nD τ) (Pipeline.ucRefs τ sig) (W43 m c) ∗ R c)
  post c := iprop(StableHlo.held (c : Thread nD τ) (Pipeline.ucRefs τ sig) (W44 m c) ∗ R c)
  X c := iprop(∃ r, prngReg c r)
  Y c := iprop(∃ r, prngReg c r)
  Z c := Pipeline.unscopedRest (Ix := Unit) (Name := ℕ) (U := UR sig nD τ) (Lvl := ℕ) spec21 c (U43 m c)
  hentry c := by
    rw [Pipeline.ownSems0_none]
    have hsplit := Pipeline.arrays_of_unscopedBufs (p := 21) (pcfgs (F := F)) GenP.adm (pdats m) launch21.win launch21.arr_whole c
      ((pdats m 21 c).share_full fun _ => rfl) (U43 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 21 c).Φ 0 = Pipeline.ΦA spec21 c from rfl]; unfold Pipeline.ΦA
    iintro ⟨Hp, -, Hr⟩
    isplitl [Hr]; · iexact Hr
    iexact Hp
  hout c := by
    rw [Pipeline.ownSems0_none, show (pdats m 21 c).Φ (Fin.last _) = Pipeline.ΦA spec21 c from rfl]; unfold Pipeline.ΦA
    iintro ⟨Hr, Hp⟩
    isplitl [Hp]; · iexact Hp
    isplitr; · iempintro
    iexact Hr
  hexit c := by
    have hjoin := Pipeline.unscopedBufs_of_arrays (p := 21) (pcfgs (F := F)) GenP.adm (Ix := Unit) (Name := ℕ) (U := UR sig nD τ) (Lvl := ℕ)
      launch21.win launch21.arr_whole c (pdats m) ((pdats m 21 c).share_full fun _ => rfl)
      (U43 m c) (U44 m c) ((pdats m 21 c).arrAt · cfg21.N) (hF21 m c) (hrest21 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 22 (the gathered rows of region 21's product, each scaled by its edge weight) over the thread state: entered
    from every unscoped buffer at `W45`, left at `W46`. Its three arrays are split out of the unscoped buffers at entry and
    put back at the exit contents; the generator register goes into the class invariant and comes out; nothing is owed;
    the kernel has no semaphore of its own. -/
def reg22 : Pipeline.RegionSeg (pcfgs (F := F)) GenP.adm (pdats m) () defs₀ 𝒱₀ L lv 22 where
  win := launch22.win.to₀
  block_pos := launch22.block_pos
  stage_whole := launch22.stage_whole
  K := PEmpty
  osem k := k.elim
  ho := Pipeline.OwnSemFacts.none _
  hbody c := (body_obligation22 (U45 m) c).loose
  hwaits := Pipeline.hwaits_of_owed_zero _ _ _ _ L lv 22 fun _ _ => rfl
  pre c := iprop(StableHlo.held (c : Thread nD τ) (Pipeline.ucRefs τ sig) (W45 m c) ∗ R c)
  post c := iprop(StableHlo.held (c : Thread nD τ) (Pipeline.ucRefs τ sig) (W46 m c) ∗ R c)
  X c := iprop(∃ r, prngReg c r)
  Y c := iprop(∃ r, prngReg c r)
  Z c := Pipeline.unscopedRest (Ix := Unit) (Name := ℕ) (U := UR sig nD τ) (Lvl := ℕ) spec22 c (U45 m c)
  hentry c := by
    rw [Pipeline.ownSems0_none]
    have hsplit := Pipeline.arrays_of_unscopedBufs (p := 22) (pcfgs (F := F)) GenP.adm (pdats m) launch22.win launch22.arr_whole c
      ((pdats m 22 c).share_full fun _ => rfl) (U45 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 22 c).Φ 0 = Pipeline.ΦA spec22 c from rfl]; unfold Pipeline.ΦA
    iintro ⟨Hp, -, Hr⟩
    isplitl [Hr]; · iexact Hr
    iexact Hp
  hout c := by
    rw [Pipeline.ownSems0_none, show (pdats m 22 c).Φ (Fin.last _) = Pipeline.ΦA spec22 c from rfl]; unfold Pipeline.ΦA
    iintro ⟨Hr, Hp⟩
    isplitl [Hp]; · iexact Hp
    isplitr; · iempintro
    iexact Hr
  hexit c := by
    have hjoin := Pipeline.unscopedBufs_of_arrays (p := 22) (pcfgs (F := F)) GenP.adm (Ix := Unit) (Name := ℕ) (U := UR sig nD τ) (Lvl := ℕ)
      launch22.win launch22.arr_whole c (pdats m) ((pdats m 22 c).share_full fun _ => rfl)
      (U45 m c) (U46 m c) ((pdats m 22 c).arrAt · cfg22.N) (hF22 m c) (hrest22 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 23 (the segment sums plus the bias row b[1,3], cut off below at zero) over the thread state: entered from every
    unscoped buffer at `W47`, left at `W48`. Its three arrays are split out of the unscoped buffers at entry and put back
    at the exit contents; the generator register goes into the class invariant and comes out; nothing is owed; the kernel
    has no semaphore of its own. -/
def reg23 : Pipeline.RegionSeg (pcfgs (F := F)) GenP.adm (pdats m) () defs₀ 𝒱₀ L lv 23 where
  win := launch23.win.to₀
  block_pos := launch23.block_pos
  stage_whole := launch23.stage_whole
  K := PEmpty
  osem k := k.elim
  ho := Pipeline.OwnSemFacts.none _
  hbody c := (body_obligation23 (U47 m) c).loose
  hwaits := Pipeline.hwaits_of_owed_zero _ _ _ _ L lv 23 fun _ _ => rfl
  pre c := iprop(StableHlo.held (c : Thread nD τ) (Pipeline.ucRefs τ sig) (W47 m c) ∗ R c)
  post c := iprop(StableHlo.held (c : Thread nD τ) (Pipeline.ucRefs τ sig) (W48 m c) ∗ R c)
  X c := iprop(∃ r, prngReg c r)
  Y c := iprop(∃ r, prngReg c r)
  Z c := Pipeline.unscopedRest (Ix := Unit) (Name := ℕ) (U := UR sig nD τ) (Lvl := ℕ) spec23 c (U47 m c)
  hentry c := by
    rw [Pipeline.ownSems0_none]
    have hsplit := Pipeline.arrays_of_unscopedBufs (p := 23) (pcfgs (F := F)) GenP.adm (pdats m) launch23.win launch23.arr_whole c
      ((pdats m 23 c).share_full fun _ => rfl) (U47 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 23 c).Φ 0 = Pipeline.ΦA spec23 c from rfl]; unfold Pipeline.ΦA
    iintro ⟨Hp, -, Hr⟩
    isplitl [Hr]; · iexact Hr
    iexact Hp
  hout c := by
    rw [Pipeline.ownSems0_none, show (pdats m 23 c).Φ (Fin.last _) = Pipeline.ΦA spec23 c from rfl]; unfold Pipeline.ΦA
    iintro ⟨Hr, Hp⟩
    isplitl [Hp]; · iexact Hp
    isplitr; · iempintro
    iexact Hr
  hexit c := by
    have hjoin := Pipeline.unscopedBufs_of_arrays (p := 23) (pcfgs (F := F)) GenP.adm (Ix := Unit) (Name := ℕ) (U := UR sig nD τ) (Lvl := ℕ)
      launch23.win launch23.arr_whole c (pdats m) ((pdats m 23 c).share_full fun _ => rfl)
      (U47 m c) (U48 m c) ((pdats m 23 c).arrAt · cfg23.N) (hF23 m c) (hrest23 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
/- The run of @main over its 49 items: 25 host stretches and 24 regions, each region by its segment record, the
   buffers' contents at every boundary the ones of Fold.lean. Every weakly fair execution from a memory `m` with zero
   counters terminates without a fault, and in every final memory each unscoped buffer holds the last boundary's
   contents. The argument arrays are then read back to their launch contents (no item writes one), and the two result
   arrays are read at what the last host stretch leaves in them. -/
import proofs.«104107_j50560355009131_1_alg».proof.Proof.K.RegsA
import proofs.«104107_j50560355009131_1_alg».proof.Proof.K.RegsB
import proofs.«104107_j50560355009131_1_alg».proof.Proof.K.RegsC
import proofs.«104107_j50560355009131_1_alg».proof.Proof.K.RegsD

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Two names of one valuation hold the same buffers. -/
theorem held_of_eq {c : Dev nD} {V W : Valuation τ sig (Elt F)} (h : V = W) (X : sProp 𝕄) :
    iprop(StableHlo.held (c : Thread nD τ) (Pipeline.ucRefs τ sig) V ∗ X) ⊢ iprop(StableHlo.held (c : Thread nD τ) (Pipeline.ucRefs τ sig) W ∗ X) :=
  h ▸ .rfl

/-- What rides beside the buffers is the same at every boundary. -/
abbrev Erest : Fin 25 → Dev nD → sProp 𝕄 := fun _ c => R c

/-- @main's items as segments: the host stretches of the conditional frame, the regions' records. -/
abbrev allSegs (c : Dev nD) : List (Seg (pcfgs (F := F)) GenP.adm (pdats m) () defs₀ 𝒱₀ L lv) :=
  GenP.segs m (outs m) 𝒱₀ L lv Erest () (pdats m) (reg0 m) (reg1 m) (reg2 m) (reg3 m) (reg4 m) (reg5 m) (reg6 m) (reg7 m) (reg8 m)
    (reg9 m) (reg10 m) (reg11 m) (reg12 m) (reg13 m) (reg14 m) (reg15 m) (reg16 m) (reg17 m) (reg18 m) (reg19 m) (reg20 m)
    (reg21 m) (reg22 m) (reg23 m) c

set_option maxHeartbeats 0 in
set_option backward.isDefEq.respectTransparency.types false in
/-- THE RUN: every weakly fair execution of @main terminates, nothing faulting, with every unscoped buffer of every core
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W49 m c b) := by
  refine Pipeline.θ_run_regions_kit_dev (pcfgs (F := F)) GenP.adm (pdats m) () cellOf_inj emb₁ defs₀ 𝒱₀ L lv m ρ main
    (allSegs m)
    (fun c Q => by
      rewrite [main_chain c, Seg.run_eq_chain,
        show (allSegs m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          Prog.lift (.customCall (Pipeline.entry 15) ()),
          StableHlo.seq hostOps16,
          Prog.lift (.customCall (Pipeline.entry 16) ()),
          StableHlo.seq hostOps17,
          Prog.lift (.customCall (Pipeline.entry 17) ()),
          StableHlo.seq hostOps18,
          Prog.lift (.customCall (Pipeline.entry 18) ()),
          StableHlo.seq hostOps19,
          Prog.lift (.customCall (Pipeline.entry 19) ()),
          StableHlo.seq hostOps20,
          Prog.lift (.customCall (Pipeline.entry 20) ()),
          StableHlo.seq hostOps21,
          Prog.lift (.customCall (Pipeline.entry 21) ()),
          StableHlo.seq hostOps22,
          Prog.lift (.customCall (Pipeline.entry 22) ()),
          StableHlo.seq hostOps23,
          Prog.lift (.customCall (Pipeline.entry 23) ()),
          StableHlo.seq hostOps24 ] from rfl]
      exact .rfl)
    (fun c => by simp only [allSegs, GenP.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (GenP.V0 m c) ∗ R c))
    (Tₙ := fun c => StableHlo.held (c : Thread nD τ) (Pipeline.ucRefs τ sig) (W49 m c))
    (hch := fun c => ⟨.rfl,
      held_of_eq (V1_eq m c) (R c), held_of_eq (V2_eq m c).symm (R c),
      held_of_eq (V3_eq m c) (R c), held_of_eq (V4_eq m c).symm (R c),
      held_of_eq (V5_eq m c) (R c), held_of_eq (V6_eq m c).symm (R c),
      held_of_eq (V7_eq m c) (R c), held_of_eq (V8_eq m c).symm (R c),
      held_of_eq (V9_eq m c) (R c), held_of_eq (V10_eq m c).symm (R c),
      held_of_eq (V11_eq m c) (R c), held_of_eq (V12_eq m c).symm (R c),
      held_of_eq (V13_eq m c) (R c), held_of_eq (V14_eq m c).symm (R c),
      held_of_eq (V15_eq m c) (R c), held_of_eq (V16_eq m c).symm (R c),
      held_of_eq (V17_eq m c) (R c), held_of_eq (V18_eq m c).symm (R c),
      held_of_eq (V19_eq m c) (R c), held_of_eq (V20_eq m c).symm (R c),
      held_of_eq (V21_eq m c) (R c), held_of_eq (V22_eq m c).symm (R c),
      held_of_eq (V23_eq m c) (R c), held_of_eq (V24_eq m c).symm (R c),
      held_of_eq (V25_eq m c) (R c), held_of_eq (V26_eq m c).symm (R c),
      held_of_eq (V27_eq m c) (R c), held_of_eq (V28_eq m c).symm (R c),
      held_of_eq (V29_eq m c) (R c), held_of_eq (V30_eq m c).symm (R c),
      held_of_eq (V31_eq m c) (R c), held_of_eq (V32_eq m c).symm (R c),
      held_of_eq (V33_eq m c) (R c), held_of_eq (V34_eq m c).symm (R c),
      held_of_eq (V35_eq m c) (R c), held_of_eq (V36_eq m c).symm (R c),
      held_of_eq (V37_eq m c) (R c), held_of_eq (V38_eq m c).symm (R c),
      held_of_eq (V39_eq m c) (R c), held_of_eq (V40_eq m c).symm (R c),
      held_of_eq (V41_eq m c) (R c), held_of_eq (V42_eq m c).symm (R c),
      held_of_eq (V43_eq m c) (R c), held_of_eq (V44_eq m c).symm (R c),
      held_of_eq (V45_eq m c) (R c), held_of_eq (V46_eq m c).symm (R c),
      held_of_eq (V47_eq m c) (R c), held_of_eq (V48_eq m c).symm (R c),
      (held_of_eq (V49_eq m c) (R c)).trans (sep_mono .rfl (by iintro ⟨-, H⟩; iexact H))⟩)
    (hinit := ?_) (QY := fun c s => ∀ b ∈ Pipeline.ucRefs τ sig, s.mem (((c : Thread nD τ)).1, b) = W49 m c b)
    (hfin := fun c s' => ?_) (hQ := fun _ h => h)
  · -- the launch: every core's unscoped buffers are held at the launch contents, its generator register is somewhere,
    -- and it owes nothing
    refine Pipeline.initEach L lv fun c => ?_
    rw [show unscopedBufs c (fun b => m ((c : Thread nD τ).loc b)) = StableHlo.held (c : Thread nD τ) (Pipeline.ucRefs τ sig) (GenP.V0 m c)
      from Pipeline.unscopedBufs_held c (GenP.V0 m c)]
    iintro ⟨⟨Hh, -, HO, -, Hp, -⟩, -⟩
    imodintro
    isplitl [Hh]; · iexact Hh
    isplitl [Hp]; · iexists _; iexact Hp
    iexists ∅; iexact HO
  · -- the end: the last thread state read against the final memory
    iintro ⟨Hh, HSI⟩
    unfold StableHlo.held
    imodintro
    iapply (pointsTo_read_all (Pipeline.ucRefs τ sig) (fun b => (((c : Thread nD τ)).1, b)) (W49 m c) s')
    isplitl [Hh] <;> iassumption

end Cert.Kernel.Hand

end
-- ==== Proof.K.Keep.lean ====
/- Across one item of @main a buffer the item does not write is unchanged: a host stretch writes the results of its own
   operations, a region its output array. So the seven argument arrays, which no item writes, hold their launch
   contents at every boundary. -/
import proofs.«104107_j50560355009131_1_alg».proof.Proof.K.Fold

set_option maxRecDepth 16384

noncomputable section

namespace Cert.Kernel.Hand

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ)

/-! ## One item at a time -/

theorem keep1 (c : Dev nD) (r : Ref sig .tc) (h : r ∉ GenP.hostOps0_W) : W1 m c r = W0 m c r := GenP.V1_of m c r h
theorem keep2 (c : Dev nD) (r : Ref sig .tc) (h : r ≠ main_v2) : W2 m c r = W1 m c r := W2_of_ne m c r h
theorem keep3 (c : Dev nD) (r : Ref sig .tc) (h : r ∉ GenP.hostOps1_W) : W3 m c r = W2 m c r := by
  have e := GenP.V3_of m (outs m) c r h; rwa [V3_eq, V2_eq] at e
theorem keep4 (c : Dev nD) (r : Ref sig .tc) (h : r ≠ main_v11) : W4 m c r = W3 m c r := W4_of_ne m c r h
theorem keep5 (c : Dev nD) (r : Ref sig .tc) (h : r ∉ GenP.hostOps2_W) : W5 m c r = W4 m c r := by
  have e := GenP.V5_of m (outs m) c r h; rwa [V5_eq, V4_eq] at e
theorem keep6 (c : Dev nD) (r : Ref sig .tc) (h : r ≠ main_v18) : W6 m c r = W5 m c r := W6_of_ne m c r h
theorem keep7 (c : Dev nD) (r : Ref sig .tc) (h : r ∉ GenP.hostOps3_W) : W7 m c r = W6 m c r := by
  have e := GenP.V7_of m (outs m) c r h; rwa [V7_eq, V6_eq] at e
theorem keep8 (c : Dev nD) (r : Ref sig .tc) (h : r ≠ main_v21) : W8 m c r = W7 m c r := W8_of_ne m c r h
theorem keep9 (c : Dev nD) (r : Ref sig .tc) (h : r ∉ GenP.hostOps4_W) : W9 m c r = W8 m c r := by
  have e := GenP.V9_of m (outs m) c r h; rwa [V9_eq, V8_eq] at e
theorem keep10 (c : Dev nD) (r : Ref sig .tc) (h : r ≠ main_v30) : W10 m c r = W9 m c r := W10_of_ne m c r h
theorem keep11 (c : Dev nD) (r : Ref sig .tc) (h : r ∉ GenP.hostOps5_W) : W11 m c r = W10 m c r := by
  have e := GenP.V11_of m (outs m) c r h; rwa [V11_eq, V10_eq] at e
theorem keep12 (c : Dev nD) (r : Ref sig .tc) (h : r ≠ main_v37) : W12 m c r = W11 m c r := W12_of_ne m c r h
theorem keep13 (c : Dev nD) (r : Ref sig .tc) (h : r ∉ GenP.hostOps6_W) : W13 m c r = W12 m c r := by
  have e := GenP.V13_of m (outs m) c r h; rwa [V13_eq, V12_eq] at e
theorem keep14 (c : Dev nD) (r : Ref sig .tc) (h : r ≠ main_v40) : W14 m c r = W13 m c r := W14_of_ne m c r h
theorem keep15 (c : Dev nD) (r : Ref sig .tc) (h : r ∉ GenP.hostOps7_W) : W15 m c r = W14 m c r := by
  have e := GenP.V15_of m (outs m) c r h; rwa [V15_eq, V14_eq] at e
theorem keep16 (c : Dev nD) (r : Ref sig .tc) (h : r ≠ main_v49) : W16 m c r = W15 m c r := W16_of_ne m c r h
theorem keep17 (c : Dev nD) (r : Ref sig .tc) (h : r ∉ GenP.hostOps8_W) : W17 m c r = W16 m c r := by
  have e := GenP.V17_of m (outs m) c r h; rwa [V17_eq, V16_eq] at e
theorem keep18 (c : Dev nD) (r : Ref sig .tc) (h : r ≠ main_v56) : W18 m c r = W17 m c r := W18_of_ne m c r h
theorem keep19 (c : Dev nD) (r : Ref sig .tc) (h : r ∉ GenP.hostOps9_W) : W19 m c r = W18 m c r := by
  have e := GenP.V19_of m (outs m) c r h; rwa [V19_eq, V18_eq] at e
theorem keep20 (c : Dev nD) (r : Ref sig .tc) (h : r ≠ main_v59) : W20 m c r = W19 m c r := W20_of_ne m c r h
theorem keep21 (c : Dev nD) (r : Ref sig .tc) (h : r ∉ GenP.hostOps10_W) : W21 m c r = W20 m c r := by
  have e := GenP.V21_of m (outs m) c r h; rwa [V21_eq, V20_eq] at e
theorem keep22 (c : Dev nD) (r : Ref sig .tc) (h : r ≠ main_v68) : W22 m c r = W21 m c r := W22_of_ne m c r h
theorem keep23 (c : Dev nD) (r : Ref sig .tc) (h : r ∉ GenP.hostOps11_W) : W23 m c r = W22 m c r := by
  have e := GenP.V23_of m (outs m) c r h; rwa [V23_eq, V22_eq] at e
theorem keep24 (c : Dev nD) (r : Ref sig .tc) (h : r ≠ main_v75) : W24 m c r = W23 m c r := W24_of_ne m c r h
theorem keep25 (c : Dev nD) (r : Ref sig .tc) (h : r ∉ GenP.hostOps12_W) : W25 m c r = W24 m c r := by
  have e := GenP.V25_of m (outs m) c r h; rwa [V25_eq, V24_eq] at e
theorem keep26 (c : Dev nD) (r : Ref sig .tc) (h : r ≠ main_v78) : W26 m c r = W25 m c r := W26_of_ne m c r h
theorem keep27 (c : Dev nD) (r : Ref sig .tc) (h : r ∉ GenP.hostOps13_W) : W27 m c r = W26 m c r := by
  have e := GenP.V27_of m (outs m) c r h; rwa [V27_eq, V26_eq] at e
theorem keep28 (c : Dev nD) (r : Ref sig .tc) (h : r ≠ main_v87) : W28 m c r = W27 m c r := W28_of_ne m c r h
theorem keep29 (c : Dev nD) (r : Ref sig .tc) (h : r ∉ GenP.hostOps14_W) : W29 m c r = W28 m c r := by
  have e := GenP.V29_of m (outs m) c r h; rwa [V29_eq, V28_eq] at e
theorem keep30 (c : Dev nD) (r : Ref sig .tc) (h : r ≠ main_v94) : W30 m c r = W29 m c r := W30_of_ne m c r h
theorem keep31 (c : Dev nD) (r : Ref sig .tc) (h : r ∉ GenP.hostOps15_W) : W31 m c r = W30 m c r := by
  have e := GenP.V31_of m (outs m) c r h; rwa [V31_eq, V30_eq] at e
theorem keep32 (c : Dev nD) (r : Ref sig .tc) (h : r ≠ main_v97) : W32 m c r = W31 m c r := W32_of_ne m c r h
theorem keep33 (c : Dev nD) (r : Ref sig .tc) (h : r ∉ GenP.hostOps16_W) : W33 m c r = W32 m c r := by
  have e := GenP.V33_of m (outs m) c r h; rwa [V33_eq, V32_eq] at e
theorem keep34 (c : Dev nD) (r : Ref sig .tc) (h : r ≠ main_v106) : W34 m c r = W33 m c r := W34_of_ne m c r h
theorem keep35 (c : Dev nD) (r : Ref sig .tc) (h : r ∉ GenP.hostOps17_W) : W35 m c r = W34 m c r := by
  have e := GenP.V35_of m (outs m) c r h; rwa [V35_eq, V34_eq] at e
theorem keep36 (c : Dev nD) (r : Ref sig .tc) (h : r ≠ main_v113) : W36 m c r = W35 m c r := W36_of_ne m c r h
theorem keep37 (c : Dev nD) (r : Ref sig .tc) (h : r ∉ GenP.hostOps18_W) : W37 m c r = W36 m c r := by
  have e := GenP.V37_of m (outs m) c r h; rwa [V37_eq, V36_eq] at e
theorem keep38 (c : Dev nD) (r : Ref sig .tc) (h : r ≠ main_v116) : W38 m c r = W37 m c r := W38_of_ne m c r h
theorem keep39 (c : Dev nD) (r : Ref sig .tc) (h : r ∉ GenP.hostOps19_W) : W39 m c r = W38 m c r := by
  have e := GenP.V39_of m (outs m) c r h; rwa [V39_eq, V38_eq] at e
theorem keep40 (c : Dev nD) (r : Ref sig .tc) (h : r ≠ main_v125) : W40 m c r = W39 m c r := W40_of_ne m c r h
theorem keep41 (c : Dev nD) (r : Ref sig .tc) (h : r ∉ GenP.hostOps20_W) : W41 m c r = W40 m c r := by
  have e := GenP.V41_of m (outs m) c r h; rwa [V41_eq, V40_eq] at e
theorem keep42 (c : Dev nD) (r : Ref sig .tc) (h : r ≠ main_v132) : W42 m c r = W41 m c r := W42_of_ne m c r h
theorem keep43 (c : Dev nD) (r : Ref sig .tc) (h : r ∉ GenP.hostOps21_W) : W43 m c r = W42 m c r := by
  have e := GenP.V43_of m (outs m) c r h; rwa [V43_eq, V42_eq] at e
theorem keep44 (c : Dev nD) (r : Ref sig .tc) (h : r ≠ main_v135) : W44 m c r = W43 m c r := W44_of_ne m c r h
theorem keep45 (c : Dev nD) (r : Ref sig .tc) (h : r ∉ GenP.hostOps22_W) : W45 m c r = W44 m c r := by
  have e := GenP.V45_of m (outs m) c r h; rwa [V45_eq, V44_eq] at e
theorem keep46 (c : Dev nD) (r : Ref sig .tc) (h : r ≠ main_v144) : W46 m c r = W45 m c r := W46_of_ne m c r h
theorem keep47 (c : Dev nD) (r : Ref sig .tc) (h : r ∉ GenP.hostOps23_W) : W47 m c r = W46 m c r := by
  have e := GenP.V47_of m (outs m) c r h; rwa [V47_eq, V46_eq] at e
theorem keep48 (c : Dev nD) (r : Ref sig .tc) (h : r ≠ main_v151) : W48 m c r = W47 m c r := W48_of_ne m c r h
theorem keep49 (c : Dev nD) (r : Ref sig .tc) (h : r ∉ GenP.hostOps24_W) : W49 m c r = W48 m c r := by
  have e := GenP.V49_of m (outs m) c r h; rwa [V49_eq, V48_eq] at e

/-! ## The arguments at every boundary -/

/-- The seven argument arrays. -/
abbrev argRefs : List (Ref sig .tc) := [main_arg0, main_arg1, main_arg2, main_arg3, main_arg4, main_arg5, main_arg6]

theorem args0 (c : Dev nD) : ∀ r ∈ argRefs, W0 m c r = m ((c : Thread nD τ).loc r) := fun _ _ => rfl
theorem args1 (c : Dev nD) : ∀ r ∈ argRefs, W1 m c r = m ((c : Thread nD τ).loc r) := fun r hr =>
  (keep1 m c r ((by decide : ∀ r ∈ argRefs, r ∉ GenP.hostOps0_W) r hr)).trans (args0 m c r hr)
theorem args2 (c : Dev nD) : ∀ r ∈ argRefs, W2 m c r = m ((c : Thread nD τ).loc r) := fun r hr =>
  (keep2 m c r ((by decide : ∀ r ∈ argRefs, r ≠ main_v2) r hr)).trans (args1 m c r hr)
theorem args3 (c : Dev nD) : ∀ r ∈ argRefs, W3 m c r = m ((c : Thread nD τ).loc r) := fun r hr =>
  (keep3 m c r ((by decide : ∀ r ∈ argRefs, r ∉ GenP.hostOps1_W) r hr)).trans (args2 m c r hr)
theorem args4 (c : Dev nD) : ∀ r ∈ argRefs, W4 m c r = m ((c : Thread nD τ).loc r) := fun r hr =>
  (keep4 m c r ((by decide : ∀ r ∈ argRefs, r ≠ main_v11) r hr)).trans (args3 m c r hr)
theorem args5 (c : Dev nD) : ∀ r ∈ argRefs, W5 m c r = m ((c : Thread nD τ).loc r) := fun r hr =>
  (keep5 m c r ((by decide : ∀ r ∈ argRefs, r ∉ GenP.hostOps2_W) r hr)).trans (args4 m c r hr)
theorem args6 (c : Dev nD) : ∀ r ∈ argRefs, W6 m c r = m ((c : Thread nD τ).loc r) := fun r hr =>
  (keep6 m c r ((by decide : ∀ r ∈ argRefs, r ≠ main_v18) r hr)).trans (args5 m c r hr)
theorem args7 (c : Dev nD) : ∀ r ∈ argRefs, W7 m c r = m ((c : Thread nD τ).loc r) := fun r hr =>
  (keep7 m c r ((by decide : ∀ r ∈ argRefs, r ∉ GenP.hostOps3_W) r hr)).trans (args6 m c r hr)
theorem args8 (c : Dev nD) : ∀ r ∈ argRefs, W8 m c r = m ((c : Thread nD τ).loc r) := fun r hr =>
  (keep8 m c r ((by decide : ∀ r ∈ argRefs, r ≠ main_v21) r hr)).trans (args7 m c r hr)
theorem args9 (c : Dev nD) : ∀ r ∈ argRefs, W9 m c r = m ((c : Thread nD τ).loc r) := fun r hr =>
  (keep9 m c r ((by decide : ∀ r ∈ argRefs, r ∉ GenP.hostOps4_W) r hr)).trans (args8 m c r hr)
theorem args10 (c : Dev nD) : ∀ r ∈ argRefs, W10 m c r = m ((c : Thread nD τ).loc r) := fun r hr =>
  (keep10 m c r ((by decide : ∀ r ∈ argRefs, r ≠ main_v30) r hr)).trans (args9 m c r hr)
theorem args11 (c : Dev nD) : ∀ r ∈ argRefs, W11 m c r = m ((c : Thread nD τ).loc r) := fun r hr =>
  (keep11 m c r ((by decide : ∀ r ∈ argRefs, r ∉ GenP.hostOps5_W) r hr)).trans (args10 m c r hr)
theorem args12 (c : Dev nD) : ∀ r ∈ argRefs, W12 m c r = m ((c : Thread nD τ).loc r) := fun r hr =>
  (keep12 m c r ((by decide : ∀ r ∈ argRefs, r ≠ main_v37) r hr)).trans (args11 m c r hr)
theorem args13 (c : Dev nD) : ∀ r ∈ argRefs, W13 m c r = m ((c : Thread nD τ).loc r) := fun r hr =>
  (keep13 m c r ((by decide : ∀ r ∈ argRefs, r ∉ GenP.hostOps6_W) r hr)).trans (args12 m c r hr)
theorem args14 (c : Dev nD) : ∀ r ∈ argRefs, W14 m c r = m ((c : Thread nD τ).loc r) := fun r hr =>
  (keep14 m c r ((by decide : ∀ r ∈ argRefs, r ≠ main_v40) r hr)).trans (args13 m c r hr)
theorem args15 (c : Dev nD) : ∀ r ∈ argRefs, W15 m c r = m ((c : Thread nD τ).loc r) := fun r hr =>
  (keep15 m c r ((by decide : ∀ r ∈ argRefs, r ∉ GenP.hostOps7_W) r hr)).trans (args14 m c r hr)
theorem args16 (c : Dev nD) : ∀ r ∈ argRefs, W16 m c r = m ((c : Thread nD τ).loc r) := fun r hr =>
  (keep16 m c r ((by decide : ∀ r ∈ argRefs, r ≠ main_v49) r hr)).trans (args15 m c r hr)
theorem args17 (c : Dev nD) : ∀ r ∈ argRefs, W17 m c r = m ((c : Thread nD τ).loc r) := fun r hr =>
  (keep17 m c r ((by decide : ∀ r ∈ argRefs, r ∉ GenP.hostOps8_W) r hr)).trans (args16 m c r hr)
theorem args18 (c : Dev nD) : ∀ r ∈ argRefs, W18 m c r = m ((c : Thread nD τ).loc r) := fun r hr =>
  (keep18 m c r ((by decide : ∀ r ∈ argRefs, r ≠ main_v56) r hr)).trans (args17 m c r hr)
theorem args19 (c : Dev nD) : ∀ r ∈ argRefs, W19 m c r = m ((c : Thread nD τ).loc r) := fun r hr =>
  (keep19 m c r ((by decide : ∀ r ∈ argRefs, r ∉ GenP.hostOps9_W) r hr)).trans (args18 m c r hr)
theorem args20 (c : Dev nD) : ∀ r ∈ argRefs, W20 m c r = m ((c : Thread nD τ).loc r) := fun r hr =>
  (keep20 m c r ((by decide : ∀ r ∈ argRefs, r ≠ main_v59) r hr)).trans (args19 m c r hr)
theorem args21 (c : Dev nD) : ∀ r ∈ argRefs, W21 m c r = m ((c : Thread nD τ).loc r) := fun r hr =>
  (keep21 m c r ((by decide : ∀ r ∈ argRefs, r ∉ GenP.hostOps10_W) r hr)).trans (args20 m c r hr)
theorem args22 (c : Dev nD) : ∀ r ∈ argRefs, W22 m c r = m ((c : Thread nD τ).loc r) := fun r hr =>
  (keep22 m c r ((by decide : ∀ r ∈ argRefs, r ≠ main_v68) r hr)).trans (args21 m c r hr)
theorem args23 (c : Dev nD) : ∀ r ∈ argRefs, W23 m c r = m ((c : Thread nD τ).loc r) := fun r hr =>
  (keep23 m c r ((by decide : ∀ r ∈ argRefs, r ∉ GenP.hostOps11_W) r hr)).trans (args22 m c r hr)
theorem args24 (c : Dev nD) : ∀ r ∈ argRefs, W24 m c r = m ((c : Thread nD τ).loc r) := fun r hr =>
  (keep24 m c r ((by decide : ∀ r ∈ argRefs, r ≠ main_v75) r hr)).trans (args23 m c r hr)
theorem args25 (c : Dev nD) : ∀ r ∈ argRefs, W25 m c r = m ((c : Thread nD τ).loc r) := fun r hr =>
  (keep25 m c r ((by decide : ∀ r ∈ argRefs, r ∉ GenP.hostOps12_W) r hr)).trans (args24 m c r hr)
theorem args26 (c : Dev nD) : ∀ r ∈ argRefs, W26 m c r = m ((c : Thread nD τ).loc r) := fun r hr =>
  (keep26 m c r ((by decide : ∀ r ∈ argRefs, r ≠ main_v78) r hr)).trans (args25 m c r hr)
theorem args27 (c : Dev nD) : ∀ r ∈ argRefs, W27 m c r = m ((c : Thread nD τ).loc r) := fun r hr =>
  (keep27 m c r ((by decide : ∀ r ∈ argRefs, r ∉ GenP.hostOps13_W) r hr)).trans (args26 m c r hr)
theorem args28 (c : Dev nD) : ∀ r ∈ argRefs, W28 m c r = m ((c : Thread nD τ).loc r) := fun r hr =>
  (keep28 m c r ((by decide : ∀ r ∈ argRefs, r ≠ main_v87) r hr)).trans (args27 m c r hr)
theorem args29 (c : Dev nD) : ∀ r ∈ argRefs, W29 m c r = m ((c : Thread nD τ).loc r) := fun r hr =>
  (keep29 m c r ((by decide : ∀ r ∈ argRefs, r ∉ GenP.hostOps14_W) r hr)).trans (args28 m c r hr)
theorem args30 (c : Dev nD) : ∀ r ∈ argRefs, W30 m c r = m ((c : Thread nD τ).loc r) := fun r hr =>
  (keep30 m c r ((by decide : ∀ r ∈ argRefs, r ≠ main_v94) r hr)).trans (args29 m c r hr)
theorem args31 (c : Dev nD) : ∀ r ∈ argRefs, W31 m c r = m ((c : Thread nD τ).loc r) := fun r hr =>
  (keep31 m c r ((by decide : ∀ r ∈ argRefs, r ∉ GenP.hostOps15_W) r hr)).trans (args30 m c r hr)
theorem args32 (c : Dev nD) : ∀ r ∈ argRefs, W32 m c r = m ((c : Thread nD τ).loc r) := fun r hr =>
  (keep32 m c r ((by decide : ∀ r ∈ argRefs, r ≠ main_v97) r hr)).trans (args31 m c r hr)
theorem args33 (c : Dev nD) : ∀ r ∈ argRefs, W33 m c r = m ((c : Thread nD τ).loc r) := fun r hr =>
  (keep33 m c r ((by decide : ∀ r ∈ argRefs, r ∉ GenP.hostOps16_W) r hr)).trans (args32 m c r hr)
theorem args34 (c : Dev nD) : ∀ r ∈ argRefs, W34 m c r = m ((c : Thread nD τ).loc r) := fun r hr =>
  (keep34 m c r ((by decide : ∀ r ∈ argRefs, r ≠ main_v106) r hr)).trans (args33 m c r hr)
theorem args35 (c : Dev nD) : ∀ r ∈ argRefs, W35 m c r = m ((c : Thread nD τ).loc r) := fun r hr =>
  (keep35 m c r ((by decide : ∀ r ∈ argRefs, r ∉ GenP.hostOps17_W) r hr)).trans (args34 m c r hr)
theorem args36 (c : Dev nD) : ∀ r ∈ argRefs, W36 m c r = m ((c : Thread nD τ).loc r) := fun r hr =>
  (keep36 m c r ((by decide : ∀ r ∈ argRefs, r ≠ main_v113) r hr)).trans (args35 m c r hr)
theorem args37 (c : Dev nD) : ∀ r ∈ argRefs, W37 m c r = m ((c : Thread nD τ).loc r) := fun r hr =>
  (keep37 m c r ((by decide : ∀ r ∈ argRefs, r ∉ GenP.hostOps18_W) r hr)).trans (args36 m c r hr)
theorem args38 (c : Dev nD) : ∀ r ∈ argRefs, W38 m c r = m ((c : Thread nD τ).loc r) := fun r hr =>
  (keep38 m c r ((by decide : ∀ r ∈ argRefs, r ≠ main_v116) r hr)).trans (args37 m c r hr)
theorem args39 (c : Dev nD) : ∀ r ∈ argRefs, W39 m c r = m ((c : Thread nD τ).loc r) := fun r hr =>
  (keep39 m c r ((by decide : ∀ r ∈ argRefs, r ∉ GenP.hostOps19_W) r hr)).trans (args38 m c r hr)
theorem args40 (c : Dev nD) : ∀ r ∈ argRefs, W40 m c r = m ((c : Thread nD τ).loc r) := fun r hr =>
  (keep40 m c r ((by decide : ∀ r ∈ argRefs, r ≠ main_v125) r hr)).trans (args39 m c r hr)
theorem args41 (c : Dev nD) : ∀ r ∈ argRefs, W41 m c r = m ((c : Thread nD τ).loc r) := fun r hr =>
  (keep41 m c r ((by decide : ∀ r ∈ argRefs, r ∉ GenP.hostOps20_W) r hr)).trans (args40 m c r hr)
theorem args42 (c : Dev nD) : ∀ r ∈ argRefs, W42 m c r = m ((c : Thread nD τ).loc r) := fun r hr =>
  (keep42 m c r ((by decide : ∀ r ∈ argRefs, r ≠ main_v132) r hr)).trans (args41 m c r hr)
theorem args43 (c : Dev nD) : ∀ r ∈ argRefs, W43 m c r = m ((c : Thread nD τ).loc r) := fun r hr =>
  (keep43 m c r ((by decide : ∀ r ∈ argRefs, r ∉ GenP.hostOps21_W) r hr)).trans (args42 m c r hr)
theorem args44 (c : Dev nD) : ∀ r ∈ argRefs, W44 m c r = m ((c : Thread nD τ).loc r) := fun r hr =>
  (keep44 m c r ((by decide : ∀ r ∈ argRefs, r ≠ main_v135) r hr)).trans (args43 m c r hr)
theorem args45 (c : Dev nD) : ∀ r ∈ argRefs, W45 m c r = m ((c : Thread nD τ).loc r) := fun r hr =>
  (keep45 m c r ((by decide : ∀ r ∈ argRefs, r ∉ GenP.hostOps22_W) r hr)).trans (args44 m c r hr)
theorem args46 (c : Dev nD) : ∀ r ∈ argRefs, W46 m c r = m ((c : Thread nD τ).loc r) := fun r hr =>
  (keep46 m c r ((by decide : ∀ r ∈ argRefs, r ≠ main_v144) r hr)).trans (args45 m c r hr)
theorem args47 (c : Dev nD) : ∀ r ∈ argRefs, W47 m c r = m ((c : Thread nD τ).loc r) := fun r hr =>
  (keep47 m c r ((by decide : ∀ r ∈ argRefs, r ∉ GenP.hostOps23_W) r hr)).trans (args46 m c r hr)
theorem args48 (c : Dev nD) : ∀ r ∈ argRefs, W48 m c r = m ((c : Thread nD τ).loc r) := fun r hr =>
  (keep48 m c r ((by decide : ∀ r ∈ argRefs, r ≠ main_v151) r hr)).trans (args47 m c r hr)
theorem args49 (c : Dev nD) : ∀ r ∈ argRefs, W49 m c r = m ((c : Thread nD τ).loc r) := fun r hr =>
  (keep49 m c r ((by decide : ∀ r ∈ argRefs, r ∉ GenP.hostOps24_W) r hr)).trans (args48 m c r hr)

end Cert.Kernel.Hand

end
-- ==== Proof.K.Frame.lean ====
/- The frame claim of the program: every weakly fair execution of @main terminates, nothing faulting, and every final
   memory holds each of the seven argument arrays as launched — the run of Run.lean read at the arguments, which no
   item writes (Keep.lean). -/
import proofs.«104107_j50560355009131_1_alg».proof.Proof.K.Run
import proofs.«104107_j50560355009131_1_alg».proof.Proof.K.Keep

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (args49 m c main_arg0 (by decide)),
     (h c _ (mem_uc main_arg1 (by decide))).trans (args49 m c main_arg1 (by decide)),
     (h c _ (mem_uc main_arg2 (by decide))).trans (args49 m c main_arg2 (by decide)),
     (h c _ (mem_uc main_arg3 (by decide))).trans (args49 m c main_arg3 (by decide)),
     (h c _ (mem_uc main_arg4 (by decide))).trans (args49 m c main_arg4 (by decide)),
     (h c _ (mem_uc main_arg5 (by decide))).trans (args49 m c main_arg5 (by decide)),
     (h c _ (mem_uc main_arg6 (by decide))).trans (args49 m c main_arg6 (by decide))⟩) (run_all m ρ)

end Cert.Kernel.Hand

end
-- ==== Proof.KI.Body0.lean ====
/- Region 0 of @main: one row block of the product u · W[0,0] per grid point.
   The pipeline has three windows: the rows of the left operand (a block of 2000 rows at point t), the whole
   128 x 128 right operand (the same block at every point, fetched once) and the rows of the result. The body
   reads both input blocks, multiplies them on the matrix unit into a zero accumulator and stores the product
   over the whole output block. Stated at the contents `V` the buffers hold when the region is entered:
   the block each window holds at a point, what the body leaves in the output block as a function of the two
   input blocks, the body's triple, the pipeline's proof data and the body obligation at every point. -/
import proofs.«104107_j50560355009131_1_alg».proof.Proof.Gen.KernelIdeal.Launch
import proofs.«104107_j50560355009131_1_alg».proof.Proof.Gen.KernelIdeal.Skeleton
import proofs.«104107_j50560355009131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block of rows at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The right operand's staging buffer holds the whole matrix at every point, fetched there or not (its block
    index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole block of 2000 rows, and the whole right operand, as rectangles. -/
abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0

/-- What the body leaves in the output block: its one store, the product of the two blocks it read. -/
def out0_2 (x0 : Vec F S2000x128 .f32) (x1 : Vec F S128x128 .f32) : Vec F S2000x128 .f32 :=
  View.canon [⟨r0_0, k0_pay1 (View.ld x0 r0_0) (View.ld x1 r0_1)⟩]

/-- The one store covers the output block. -/
theorem cover0_2 (p0 : Vec F S2000x128 .f32) (y : S2000x128.Idx) :
    ∃ pc ∈ ([⟨r0_0, p0⟩] : List (View.Piece (Elt F) S2000x128 .f32)), y ∈ pc.1.set :=
  View.cover_of_tiled [⟨r0_0, p0⟩] S2000x128.size (by rfl) y

set_option maxHeartbeats 1000000 in
/-- The body on whole staging memrefs, the inputs' at contents `x0`, `x1` and the output's at anything, runs to the
    continuation with the inputs' as they were and the output's at `out0_2 x0 x1`. -/
theorem sound_kernel0 (c : Dev nD) (E : Set ℕ) (i : grid0.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the region finds them; after the body at point `t` each
    input's buffer at its block and the output's at the product of the two blocks; the class invariant; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/- Region 1 of @main: the edge scaling of layer 0, block 0. The rows of u · W[0,0] have been gathered along the
   edges (row e is the product's row at edge e's user index); this region multiplies row e by the edge weight
   w[e], 8000 edges per grid point. The pipeline has three windows: the gathered rows (a block of 8000 rows at
   point t), the matching 8000 entries of the 600000 x 1 column of edge weights (a new block at every point)
   and the rows of the result. The body reads both input blocks, spreads the column along each row and stores
   the entrywise product over the whole output block. Stated at the contents `V` the buffers hold when the
   region is entered: the block each window holds at a point, what the body leaves in the output block as a
   function of the two input blocks, the body's triple, the pipeline's proof data and the body obligation at
   every point. -/
import proofs.«104107_j50560355009131_1_alg».proof.Proof.Gen.KernelIdeal.Launch
import proofs.«104107_j50560355009131_1_alg».proof.Proof.Gen.KernelIdeal.Skeleton
import proofs.«104107_j50560355009131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The gathered rows' staging buffer holds its block of 8000 rows at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The edge weights' staging buffer holds the 8000 weights of the same edges at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole block of 8000 rows, and the whole block of 8000 weights, as rectangles. -/
abbrev r1_0 : Rect S8000x128 := Rect.unit (s := S8000x128) ![0, 0] S8000x128.size inb_S8000x128_S8000x128_0_0
abbrev r1_1 : Rect S8000x1 := Rect.unit (s := S8000x1) ![0, 0] S8000x1.size inb_S8000x1_S8000x1_0_0

/-- What the body leaves in the output block: its one store, each row it read times that row's weight. -/
def out1_2 (x0 : Vec F S8000x128 .f32) (x1 : Vec F S8000x1 .f32) : Vec F S8000x128 .f32 :=
  View.canon [⟨r1_0, k1_pay1 (View.ld x0 r1_0) (View.ld x1 r1_1)⟩]

/-- The one store covers the output block. -/
theorem cover1_2 (p0 : Vec F S8000x128 .f32) (y : S8000x128.Idx) :
    ∃ pc ∈ ([⟨r1_0, p0⟩] : List (View.Piece (Elt F) S8000x128 .f32)), y ∈ pc.1.set :=
  View.cover_of_tiled [⟨r1_0, p0⟩] S8000x128.size (by rfl) y

set_option maxHeartbeats 1000000 in
/-- The body on whole staging memrefs, the inputs' at contents `x0`, `x1` and the output's at anything, runs to the
    continuation with the inputs' as they were and the output's at `out1_2 x0 x1`. -/
theorem sound_kernel1 (c : Dev nD) (E : Set ℕ) (i : grid1.Coords) (arg1 : Memref sig .tc .vmem S8000x128 .f32) (harg1 : arg1.IsWhole) (arg2 : Memref sig .tc .vmem S8000x1 .f32) (harg2 : arg2.IsWhole) (arg3 : Memref sig .tc .vmem S8000x128 .f32) (harg3 : arg3.IsWhole)
    (x0 : Vec F S8000x128 .f32) (x1 : Vec F S8000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__scale_kernel i arg1 harg1 arg2 harg2 arg3 harg3) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The pipeline's proof data on core `c`: the arrays as the region finds them; after the body at point `t` each
    input's buffer at its block and the output's at the rows of the first block scaled by the weights of the
    second; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/- Region 2 of @main: the bias step of layer 0, block 0. The scaled rows of region 1 have been summed into one
   row per item (row n is the sum of the scaled rows of the edges whose item index is n, 50000 rows); this
   region adds the bias b[0,0] to every row, 2000 rows per grid point, with no activation after it. The
   pipeline has three windows: the summed rows (a block of 2000 rows at point t), the bias as a 1 x 128 row
   (the same block at every point, fetched once) and the rows of the result. The body reads both input blocks,
   repeats the one row down the 2000 rows and stores the entrywise sum over the whole output block. Stated at
   the contents `V` the buffers hold when the region is entered: the block each window holds at a point, what
   the body leaves in the output block as a function of the two input blocks, the body's triple, the
   pipeline's proof data and the body obligation at every point. -/
import proofs.«104107_j50560355009131_1_alg».proof.Proof.Gen.KernelIdeal.Launch
import proofs.«104107_j50560355009131_1_alg».proof.Proof.Gen.KernelIdeal.Skeleton
import proofs.«104107_j50560355009131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The summed rows' staging buffer holds its block of 2000 rows at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The bias row's staging buffer holds the whole row at every point, fetched there or not (its block index
    never moves). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole block of 2000 rows, and the whole bias row, as rectangles. -/
abbrev r2_0 : Rect S2000x128 := Rect.unit (s := S2000x128) ![0, 0] S2000x128.size inb_S2000x128_S2000x128_0_0
abbrev r2_1 : Rect S1x128 := Rect.unit (s := S1x128) ![0, 0] S1x128.size inb_S1x128_S1x128_0_0

/-- What the body leaves in the output block: its one store, each row it read plus the bias row. -/
def out2_2 (x0 : Vec F S2000x128 .f32) (x1 : Vec F S1x128 .f32) : Vec F S2000x128 .f32 :=
  View.canon [⟨r2_0, k2_pay1 (View.ld x0 r2_0) (View.ld x1 r2_1)⟩]

/-- The one store covers the output block. -/
theorem cover2_2 (p0 : Vec F S2000x128 .f32) (y : S2000x128.Idx) :
    ∃ pc ∈ ([⟨r2_0, p0⟩] : List (View.Piece (Elt F) S2000x128 .f32)), y ∈ pc.1.set :=
  View.cover_of_tiled [⟨r2_0, p0⟩] S2000x128.size (by rfl) y

set_option maxHeartbeats 1000000 in
/-- The body on whole staging memrefs, the inputs' at contents `x0`, `x1` and the output's at anything, runs to the
    continuation with the inputs' as they were and the output's at `out2_2 x0 x1`. -/
theorem sound_kernel2 (c : Dev nD) (E : Set ℕ) (i : grid2.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__bias_act_kernel i arg1 harg1 arg2 harg2 arg3 harg3) K := by
  simp only [cc2__bias_act_kernel_eq_skeleton]; unfold cc2__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the region finds them; after the body at point `t` each
    input's buffer at its block and the output's at the rows of the first block each plus the bias row; the
    class invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Body3.lean ====
/- Region 3 of @main: one row block of the product v · W[0,1] per grid point, v the second feature matrix
   (50000 rows, 25 blocks of 2000).
   The pipeline has three windows: the rows of the left operand (a block of 2000 rows at point t), the whole
   128 x 128 right operand (the same block at every point, fetched once) and the rows of the result. The body
   reads both input blocks, rounds each to bf16, multiplies them on the matrix unit into a zero f32 accumulator
   and stores the product over the whole output block. Stated at the contents `V` the buffers hold when the
   region is entered: the block each window holds at a point, what the body leaves in the output block as a
   function of the two input blocks, the body's triple, the pipeline's proof data and the body obligation at
   every point. -/
import proofs.«104107_j50560355009131_1_alg».proof.Proof.Gen.KernelIdeal.Launch
import proofs.«104107_j50560355009131_1_alg».proof.Proof.Gen.KernelIdeal.Skeleton
import proofs.«104107_j50560355009131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left operand's staging buffer holds its block of rows of v at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The right operand's staging buffer holds the whole of W[0,1] at every point, fetched there or not (its block
    index never moves). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole block of 2000 rows, and the whole right operand, as rectangles. -/
abbrev r3_0 : Rect S2000x128 := Rect.unit (s := S2000x128) ![0, 0] S2000x128.size inb_S2000x128_S2000x128_0_0
abbrev r3_1 : Rect S128x128 := Rect.unit (s := S128x128) ![0, 0] S128x128.size inb_S128x128_S128x128_0_0

/-- What the body leaves in the output block: its one store, the product of the two blocks it read. -/
def out3_2 (x0 : Vec F S2000x128 .f32) (x1 : Vec F S128x128 .f32) : Vec F S2000x128 .f32 :=
  View.canon [⟨r3_0, k3_pay1 (View.ld x0 r3_0) (View.ld x1 r3_1)⟩]

/-- The one store covers the output block. -/
theorem cover3_2 (p0 : Vec F S2000x128 .f32) (y : S2000x128.Idx) :
    ∃ pc ∈ ([⟨r3_0, p0⟩] : List (View.Piece (Elt F) S2000x128 .f32)), y ∈ pc.1.set :=
  View.cover_of_tiled [⟨r3_0, p0⟩] S2000x128.size (by rfl) y

set_option maxHeartbeats 1000000 in
/-- The body on whole staging memrefs, the inputs' at contents `x0`, `x1` and the output's at anything, runs to the
    continuation with the inputs' as they were and the output's at `out3_2 x0 x1`. The body also reads the output
    block before it stores over the whole of it; what it read there is not used. -/
theorem sound_kernel3 (c : Dev nD) (E : Set ℕ) (i : grid3.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data on core `c`: the arrays as the region finds them; after the body at point `t` each
    input's buffer at its block and the output's at the product of the two blocks; the class invariant; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Body4.lean ====
/- Region 4 of @main: the edge scaling of layer 0, block 1. The rows of v · W[0,1] have been gathered along the
   edges (row e is the product's row at edge e's item index); this region multiplies row e by the edge weight
   w[e], 8000 edges per grid point. The pipeline has three windows: the gathered rows (a block of 8000 rows at
   point t), the matching 8000 entries of the 600000 x 1 column of edge weights (a new block at every point)
   and the rows of the result. The body reads both input blocks, spreads the column along each row and stores
   the entrywise product over the whole output block. Stated at the contents `V` the buffers hold when the
   region is entered: the block each window holds at a point, what the body leaves in the output block as a
   function of the two input blocks, the body's triple, the pipeline's proof data and the body obligation at
   every point. -/
import proofs.«104107_j50560355009131_1_alg».proof.Proof.Gen.KernelIdeal.Launch
import proofs.«104107_j50560355009131_1_alg».proof.Proof.Gen.KernelIdeal.Skeleton
import proofs.«104107_j50560355009131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The gathered rows' staging buffer holds its block of 8000 rows at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The edge weights' staging buffer holds the 8000 weights of the same edges at every point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The whole block of 8000 rows, and the whole block of 8000 weights, as rectangles. -/
abbrev r4_0 : Rect S8000x128 := Rect.unit (s := S8000x128) ![0, 0] S8000x128.size inb_S8000x128_S8000x128_0_0
abbrev r4_1 : Rect S8000x1 := Rect.unit (s := S8000x1) ![0, 0] S8000x1.size inb_S8000x1_S8000x1_0_0

/-- What the body leaves in the output block: its one store, each row it read times that row's weight. -/
def out4_2 (x0 : Vec F S8000x128 .f32) (x1 : Vec F S8000x1 .f32) : Vec F S8000x128 .f32 :=
  View.canon [⟨r4_0, k4_pay1 (View.ld x0 r4_0) (View.ld x1 r4_1)⟩]

/-- The one store covers the output block. -/
theorem cover4_2 (p0 : Vec F S8000x128 .f32) (y : S8000x128.Idx) :
    ∃ pc ∈ ([⟨r4_0, p0⟩] : List (View.Piece (Elt F) S8000x128 .f32)), y ∈ pc.1.set :=
  View.cover_of_tiled [⟨r4_0, p0⟩] S8000x128.size (by rfl) y

set_option maxHeartbeats 1000000 in
/-- The body on whole staging memrefs, the inputs' at contents `x0`, `x1` and the output's at anything, runs to the
    continuation with the inputs' as they were and the output's at `out4_2 x0 x1`. -/
theorem sound_kernel4 (c : Dev nD) (E : Set ℕ) (i : grid4.Coords) (arg1 : Memref sig .tc .vmem S8000x128 .f32) (harg1 : arg1.IsWhole) (arg2 : Memref sig .tc .vmem S8000x1 .f32) (harg2 : arg2.IsWhole) (arg3 : Memref sig .tc .vmem S8000x128 .f32) (harg3 : arg3.IsWhole)
    (x0 : Vec F S8000x128 .f32) (x1 : Vec F S8000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__scale_kernel i arg1 harg1 arg2 harg2 arg3 harg3) K := by
  simp only [cc4__scale_kernel_eq_skeleton]; unfold cc4__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The pipeline's proof data on core `c`: the arrays as the region finds them; after the body at point `t` each
    input's buffer at its block and the output's at the rows of the first block scaled by the weights of the
    second; the class invariant; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so `sound_kernel4` applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Body5.lean ====
/- Region 5 of @main: the bias step of layer 0, block 1. The scaled rows of region 4 have been summed into one
   row per user (row n is the sum of the scaled rows of the edges whose user index is n, 100000 rows); this
   region adds the bias b[0,1] to every row, 2000 rows per grid point, with no activation after it. The
   pipeline has three windows: the summed rows (a block of 2000 rows at point t), the bias as a 1 x 128 row
   (the same block at every point, fetched once) and the rows of the result. The body reads both input blocks,
   repeats the one row down the 2000 rows and stores the entrywise sum over the whole output block. Stated at
   the contents `V` the buffers hold when the region is entered: the block each window holds at a point, what
   the body leaves in the output block as a function of the two input blocks, the body's triple, the
   pipeline's proof data and the body obligation at every point. -/
import proofs.«104107_j50560355009131_1_alg».proof.Proof.Gen.KernelIdeal.Launch
import proofs.«104107_j50560355009131_1_alg».proof.Proof.Gen.KernelIdeal.Skeleton
import proofs.«104107_j50560355009131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The summed rows' staging buffer holds its block of 2000 rows at every point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The bias row's staging buffer holds the whole row at every point, fetched there or not (its block index
    never moves). -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The whole block of 2000 rows, and the whole bias row, as rectangles. -/
abbrev r5_0 : Rect S2000x128 := Rect.unit (s := S2000x128) ![0, 0] S2000x128.size inb_S2000x128_S2000x128_0_0
abbrev r5_1 : Rect S1x128 := Rect.unit (s := S1x128) ![0, 0] S1x128.size inb_S1x128_S1x128_0_0

/-- What the body leaves in the output block: its one store, each row it read plus the bias row. -/
def out5_2 (x0 : Vec F S2000x128 .f32) (x1 : Vec F S1x128 .f32) : Vec F S2000x128 .f32 :=
  View.canon [⟨r5_0, k5_pay1 (View.ld x0 r5_0) (View.ld x1 r5_1)⟩]

/-- The one store covers the output block. -/
theorem cover5_2 (p0 : Vec F S2000x128 .f32) (y : S2000x128.Idx) :
    ∃ pc ∈ ([⟨r5_0, p0⟩] : List (View.Piece (Elt F) S2000x128 .f32)), y ∈ pc.1.set :=
  View.cover_of_tiled [⟨r5_0, p0⟩] S2000x128.size (by rfl) y

set_option maxHeartbeats 1000000 in
/-- The body on whole staging memrefs, the inputs' at contents `x0`, `x1` and the output's at anything, runs to the
    continuation with the inputs' as they were and the output's at `out5_2 x0 x1`. -/
theorem sound_kernel5 (c : Dev nD) (E : Set ℕ) (i : grid5.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out5_2 x0 x1)) -∗ K ⟨⟩))
      ⊢ wp frame (wpE (defs₀ (F := F)) Variants.none c none) E (cc5__bias_act_kernel i arg1 harg1 arg2 harg2 arg3 harg3) K := by
  simp only [cc5__bias_act_kernel_eq_skeleton]; unfold cc5__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The pipeline's proof data on core `c`: the arrays as the region finds them; after the body at point `t` each
    input's buffer at its block and the output's at the rows of the first block each plus the bias row; the
    class invariant; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so `sound_kernel5` applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ (grid5.coords t) _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Body6.lean ====
/- Region 6 of @main: one row block of the product user_ho · W[0,2] per grid point, user_ho the 50000 rows that
   layer 0's block 0 ends with (segment sums plus b[0,0]; 25 blocks of 2000).
   The pipeline has three windows: the rows of the left operand (a block of 2000 rows at point t), the whole
   128 x 128 right operand (the same block at every point, fetched once) and the rows of the result. The body
   reads both input blocks, rounds each to bf16, multiplies them on the matrix unit into a zero f32 accumulator
   and stores the product over the whole output block. Stated at the contents `V` the buffers hold when the
   region is entered: the block each window holds at a point, what the body leaves in the output block as a
   function of the two input blocks, the body's triple, the pipeline's proof data and the body obligation at
   every point. -/
import proofs.«104107_j50560355009131_1_alg».proof.Proof.Gen.KernelIdeal.Launch
import proofs.«104107_j50560355009131_1_alg».proof.Proof.Gen.KernelIdeal.Skeleton
import proofs.«104107_j50560355009131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The left operand's staging buffer holds its block of rows of user_ho at every point. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- The right operand's staging buffer holds the whole of W[0,2] at every point, fetched there or not (its block
    index never moves). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- The whole block of 2000 rows, and the whole right operand, as rectangles. -/
abbrev r6_0 : Rect S2000x128 := Rect.unit (s := S2000x128) ![0, 0] S2000x128.size inb_S2000x128_S2000x128_0_0
abbrev r6_1 : Rect S128x128 := Rect.unit (s := S128x128) ![0, 0] S128x128.size inb_S128x128_S128x128_0_0

/-- What the body leaves in the output block: its one store, the product of the two blocks it read. -/
def out6_2 (x0 : Vec F S2000x128 .f32) (x1 : Vec F S128x128 .f32) : Vec F S2000x128 .f32 :=
  View.canon [⟨r6_0, k6_pay1 (View.ld x0 r6_0) (View.ld x1 r6_1)⟩]

/-- The one store covers the output block. -/
theorem cover6_2 (p0 : Vec F S2000x128 .f32) (y : S2000x128.Idx) :
    ∃ pc ∈ ([⟨r6_0, p0⟩] : List (View.Piece (Elt F) S2000x128 .f32)), y ∈ pc.1.set :=
  View.cover_of_tiled [⟨r6_0, p0⟩] S2000x128.size (by rfl) y

set_option maxHeartbeats 1000000 in
/-- The body on whole staging memrefs, the inputs' at contents `x0`, `x1` and the output's at anything, runs to the
    continuation with the inputs' as they were and the output's at `out6_2 x0 x1`. The body also reads the output
    block before it stores over the whole of it; what it read there is not used. -/
theorem sound_kernel6 (c : Dev nD) (E : Set ℕ) (i : grid6.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-- The pipeline's proof data on core `c`: the arrays as the region finds them; after the body at point `t` each
    input's buffer at its block and the output's at the product of the two blocks; the class invariant; nothing
    owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so `sound_kernel6` applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Body7.lean ====
/- Region 7 of @main: the edge scaling of layer 0, block 2. The rows of h · W[0,2], h the result of block 0
   (region 2), have been gathered along the edges (row e is the product's row at edge e's item index); this
   region multiplies row e by the edge weight w[e], 8000 edges per grid point. The pipeline has three windows:
   the gathered rows (a block of 8000 rows at point t), the matching 8000 entries of the 600000 x 1 column of
   edge weights (a new block at every point) and the rows of the result. The body reads both input blocks,
   spreads the column along each row and stores the entrywise product over the whole output block. Stated at
   the contents `V` the buffers hold when the region is entered: the block each window holds at a point, what
   the body leaves in the output block as a function of the two input blocks, the body's triple, the
   pipeline's proof data and the body obligation at every point. -/
import proofs.«104107_j50560355009131_1_alg».proof.Proof.Gen.KernelIdeal.Launch
import proofs.«104107_j50560355009131_1_alg».proof.Proof.Gen.KernelIdeal.Skeleton
import proofs.«104107_j50560355009131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The gathered rows' staging buffer holds its block of 8000 rows at every point. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- The edge weights' staging buffer holds the 8000 weights of the same edges at every point. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- The whole block of 8000 rows, and the whole block of 8000 weights, as rectangles. -/
abbrev r7_0 : Rect S8000x128 := Rect.unit (s := S8000x128) ![0, 0] S8000x128.size inb_S8000x128_S8000x128_0_0
abbrev r7_1 : Rect S8000x1 := Rect.unit (s := S8000x1) ![0, 0] S8000x1.size inb_S8000x1_S8000x1_0_0

/-- What the body leaves in the output block: its one store, each row it read times that row's weight. -/
def out7_2 (x0 : Vec F S8000x128 .f32) (x1 : Vec F S8000x1 .f32) : Vec F S8000x128 .f32 :=
  View.canon [⟨r7_0, k7_pay1 (View.ld x0 r7_0) (View.ld x1 r7_1)⟩]

/-- The one store covers the output block. -/
theorem cover7_2 (p0 : Vec F S8000x128 .f32) (y : S8000x128.Idx) :
    ∃ pc ∈ ([⟨r7_0, p0⟩] : List (View.Piece (Elt F) S8000x128 .f32)), y ∈ pc.1.set :=
  View.cover_of_tiled [⟨r7_0, p0⟩] S8000x128.size (by rfl) y

set_option maxHeartbeats 1000000 in
/-- The body on whole staging memrefs, the inputs' at contents `x0`, `x1` and the output's at anything, runs to the
    continuation with the inputs' as they were and the output's at `out7_2 x0 x1`. -/
theorem sound_kernel7 (c : Dev nD) (E : Set ℕ) (i : grid7.Coords) (arg1 : Memref sig .tc .vmem S8000x128 .f32) (harg1 : arg1.IsWhole) (arg2 : Memref sig .tc .vmem S8000x1 .f32) (harg2 : arg2.IsWhole) (arg3 : Memref sig .tc .vmem S8000x128 .f32) (harg3 : arg3.IsWhole)
    (x0 : Vec F S8000x128 .f32) (x1 : Vec F S8000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out7_2 x0 x1)) -∗ K ⟨⟩))
      ⊢ wp frame (wpE (defs₀ (F := F)) Variants.none c none) E (cc7__scale_kernel i arg1 harg1 arg2 harg2 arg3 harg3) K := by
  simp only [cc7__scale_kernel_eq_skeleton]; unfold cc7__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

/-- The pipeline's proof data on core `c`: the arrays as the region finds them; after the body at point `t` each
    input's buffer at its block and the output's at the rows of the first block scaled by the weights of the
    second; the class invariant; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t))

/-- The body at any point: the inputs' memrefs hold their blocks, so `sound_kernel7` applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ (grid7.coords t) _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Body8.lean ====
/- Region 8 of @main: one row block of relu(s + b[0,2]) per grid point, s the 100000 rows of segment sums of the
   scaled gathered rows of user_ho · W[0,2] (50 blocks of 2000) and b[0,2] the 128 biases of layer 0, block 2; the
   result is the u that layer 1 starts from.
   The pipeline has three windows: the rows of s (a block of 2000 rows at point t), the one-row bias (the same
   1 x 128 block at every point, fetched once) and the rows of the result. The body reads both input blocks, adds
   the bias row to every row of the block, takes the maximum with zero entrywise and stores that over the whole
   output block. Stated at the contents `V` the buffers hold when the region is entered: the block each window
   holds at a point, what the body leaves in the output block as a function of the two input blocks, the body's
   triple, the pipeline's proof data and the body obligation at every point. -/
import proofs.«104107_j50560355009131_1_alg».proof.Proof.Gen.KernelIdeal.Launch
import proofs.«104107_j50560355009131_1_alg».proof.Proof.Gen.KernelIdeal.Skeleton
import proofs.«104107_j50560355009131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The staging buffer of the rows holds its block of 2000 rows of segment sums at every point. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- The bias's staging buffer holds the whole row b[0,2] at every point, fetched there or not (its block index
    never moves). -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- The whole block of 2000 rows, and the whole one-row bias, as rectangles. -/
abbrev r8_0 : Rect S2000x128 := Rect.unit (s := S2000x128) ![0, 0] S2000x128.size inb_S2000x128_S2000x128_0_0
abbrev r8_1 : Rect S1x128 := Rect.unit (s := S1x128) ![0, 0] S1x128.size inb_S1x128_S1x128_0_0

/-- What the body leaves in the output block: its one store, the rows it read plus the bias row, cut off below at
    zero. -/
def out8_2 (x0 : Vec F S2000x128 .f32) (x1 : Vec F S1x128 .f32) : Vec F S2000x128 .f32 :=
  View.canon [⟨r8_0, k8_pay1 (View.ld x0 r8_0) (View.ld x1 r8_1)⟩]

/-- The one store covers the output block. -/
theorem cover8_2 (p0 : Vec F S2000x128 .f32) (y : S2000x128.Idx) :
    ∃ pc ∈ ([⟨r8_0, p0⟩] : List (View.Piece (Elt F) S2000x128 .f32)), y ∈ pc.1.set :=
  View.cover_of_tiled [⟨r8_0, p0⟩] S2000x128.size (by rfl) y

set_option maxHeartbeats 1000000 in
/-- The body on whole staging memrefs, the inputs' at contents `x0`, `x1` and the output's at anything, runs to the
    continuation with the inputs' as they were and the output's at `out8_2 x0 x1`. The body also reads the output
    block before it stores over the whole of it; what it read there is not used. -/
theorem sound_kernel8 (c : Dev nD) (E : Set ℕ) (i : grid8.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out8_2 x0 x1)) -∗ K ⟨⟩))
      ⊢ wp frame (wpE (defs₀ (F := F)) Variants.none c none) E (cc8__bias_act_kernel i arg1 harg1 arg2 harg2 arg3 harg3) K := by
  simp only [cc8__bias_act_kernel_eq_skeleton]; unfold cc8__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-- The pipeline's proof data on core `c`: the arrays as the region finds them; after the body at point `t` each
    input's buffer at its block and the output's at the rows plus the bias row, cut off below at zero; the class
    invariant; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by
  dsimp only [dat8]
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' memrefs hold their blocks, so `sound_kernel8` applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ (grid8.coords t) _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Body9.lean ====
/- Region 9 of @main: one row block of the product item_ho · W[0,3] per grid point, item_ho the 100000 rows that
   layer 0's block 1 ends with (segment sums plus b[0,1]; 50 blocks of 2000).
   The pipeline has three windows: the rows of the left operand (a block of 2000 rows at point t), the whole
   128 x 128 right operand (the same block at every point, fetched once) and the rows of the result. The body
   reads both input blocks, rounds each to bf16, multiplies them on the matrix unit into a zero f32 accumulator
   and stores the product over the whole output block. Stated at the contents `V` the buffers hold when the
   region is entered: the block each window holds at a point, what the body leaves in the output block as a
   function of the two input blocks, the body's triple, the pipeline's proof data and the body obligation at
   every point. -/
import proofs.«104107_j50560355009131_1_alg».proof.Proof.Gen.KernelIdeal.Launch
import proofs.«104107_j50560355009131_1_alg».proof.Proof.Gen.KernelIdeal.Skeleton
import proofs.«104107_j50560355009131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The left operand's staging buffer holds its block of rows of item_ho at every point. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
/-- The right operand's staging buffer holds the whole of W[0,3] at every point, fetched there or not (its block
    index never moves). -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- The whole block of 2000 rows, and the whole right operand, as rectangles. -/
abbrev r9_0 : Rect S2000x128 := Rect.unit (s := S2000x128) ![0, 0] S2000x128.size inb_S2000x128_S2000x128_0_0
abbrev r9_1 : Rect S128x128 := Rect.unit (s := S128x128) ![0, 0] S128x128.size inb_S128x128_S128x128_0_0

/-- What the body leaves in the output block: its one store, the product of the two blocks it read. -/
def out9_2 (x0 : Vec F S2000x128 .f32) (x1 : Vec F S128x128 .f32) : Vec F S2000x128 .f32 :=
  View.canon [⟨r9_0, k9_pay1 (View.ld x0 r9_0) (View.ld x1 r9_1)⟩]

/-- The one store covers the output block. -/
theorem cover9_2 (p0 : Vec F S2000x128 .f32) (y : S2000x128.Idx) :
    ∃ pc ∈ ([⟨r9_0, p0⟩] : List (View.Piece (Elt F) S2000x128 .f32)), y ∈ pc.1.set :=
  View.cover_of_tiled [⟨r9_0, p0⟩] S2000x128.size (by rfl) y

set_option maxHeartbeats 1000000 in
/-- The body on whole staging memrefs, the inputs' at contents `x0`, `x1` and the output's at anything, runs to the
    continuation with the inputs' as they were and the output's at `out9_2 x0 x1`. The body also reads the output
    block before it stores over the whole of it; what it read there is not used. -/
theorem sound_kernel9 (c : Dev nD) (E : Set ℕ) (i : grid9.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9__matmul_kernel i arg1 harg1 arg2 harg2 arg3 harg3) K := by
  simp only [cc9__matmul_kernel_eq_skeleton]; unfold cc9__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

/-- The pipeline's proof data on core `c`: the arrays as the region finds them; after the body at point `t` each
    input's buffer at its block and the output's at the product of the two blocks; the class invariant; nothing
    owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

/-- The body at any point: the inputs' memrefs hold their blocks, so `sound_kernel9` applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ (grid9.coords t) _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.Body10.lean ====
/- Region 10 of @main: the edge scaling of layer 0, block 3. The rows of h · W[0,3], h the result of block 1
   (region 5), have been gathered along the edges (row e is the product's row at edge e's user index); this
   region multiplies row e by the edge weight w[e], 8000 edges per grid point. The pipeline has three windows:
   the gathered rows (a block of 8000 rows at point t), the matching 8000 entries of the 600000 x 1 column of
   edge weights (a new block at every point) and the rows of the result. The body reads both input blocks,
   spreads the column along each row and stores the entrywise product over the whole output block. Stated at
   the contents `V` the buffers hold when the region is entered: the block each window holds at a point, what
   the body leaves in the output block as a function of the two input blocks, the body's triple, the
   pipeline's proof data and the body obligation at every point. -/
import proofs.«104107_j50560355009131_1_alg».proof.Proof.Gen.KernelIdeal.Launch
import proofs.«104107_j50560355009131_1_alg».proof.Proof.Gen.KernelIdeal.Skeleton
import proofs.«104107_j50560355009131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The gathered rows' staging buffer holds its block of 8000 rows at every point. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
/-- The edge weights' staging buffer holds the 8000 weights of the same edges at every point. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- The whole block of 8000 rows, and the whole block of 8000 weights, as rectangles. -/
abbrev r10_0 : Rect S8000x128 := Rect.unit (s := S8000x128) ![0, 0] S8000x128.size inb_S8000x128_S8000x128_0_0
abbrev r10_1 : Rect S8000x1 := Rect.unit (s := S8000x1) ![0, 0] S8000x1.size inb_S8000x1_S8000x1_0_0

/-- What the body leaves in the output block: its one store, each row it read times that row's weight. -/
def out10_2 (x0 : Vec F S8000x128 .f32) (x1 : Vec F S8000x1 .f32) : Vec F S8000x128 .f32 :=
  View.canon [⟨r10_0, k10_pay1 (View.ld x0 r10_0) (View.ld x1 r10_1)⟩]

/-- The one store covers the output block. -/
theorem cover10_2 (p0 : Vec F S8000x128 .f32) (y : S8000x128.Idx) :
    ∃ pc ∈ ([⟨r10_0, p0⟩] : List (View.Piece (Elt F) S8000x128 .f32)), y ∈ pc.1.set :=
  View.cover_of_tiled [⟨r10_0, p0⟩] S8000x128.size (by rfl) y

set_option maxHeartbeats 1000000 in
/-- The body on whole staging memrefs, the inputs' at contents `x0`, `x1` and the output's at anything, runs to the
    continuation with the inputs' as they were and the output's at `out10_2 x0 x1`. -/
theorem sound_kernel10 (c : Dev nD) (E : Set ℕ) (i : grid10.Coords) (arg1 : Memref sig .tc .vmem S8000x128 .f32) (harg1 : arg1.IsWhole) (arg2 : Memref sig .tc .vmem S8000x1 .f32) (harg2 : arg2.IsWhole) (arg3 : Memref sig .tc .vmem S8000x128 .f32) (harg3 : arg3.IsWhole)
    (x0 : Vec F S8000x128 .f32) (x1 : Vec F S8000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out10_2 x0 x1)) -∗ K ⟨⟩))
      ⊢ wp frame (wpE (defs₀ (F := F)) Variants.none c none) E (cc10__scale_kernel i arg1 harg1 arg2 harg2 arg3 harg3) K := by
  simp only [cc10__scale_kernel_eq_skeleton]; unfold cc10__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-- The pipeline's proof data on core `c`: the arrays as the region finds them; after the body at point `t` each
    input's buffer at its block and the output's at the rows of the first block scaled by the weights of the
    second; the class invariant; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the inputs' memrefs hold their blocks, so `sound_kernel10` applies; the invariant and
    the core's dues pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ (grid10.coords t) _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KI.Body11.lean ====
/- Region 11 of @main: one row block of relu(s + b[0,3]) per grid point, s the 50000 rows of segment sums of the
   scaled gathered rows of item_ho · W[0,3] (25 blocks of 2000) and b[0,3] the 128 biases of layer 0, block 3; the
   result is the v that layer 1 starts from.
   The pipeline has three windows: the rows of s (a block of 2000 rows at point t), the one-row bias (the same
   1 x 128 block at every point, fetched once) and the rows of the result. The body reads both input blocks, adds
   the bias row to every row of the block, takes the maximum with zero entrywise and stores that over the whole
   output block. Stated at the contents `V` the buffers hold when the region is entered: the block each window
   holds at a point, what the body leaves in the output block as a function of the two input blocks, the body's
   triple, the pipeline's proof data and the body obligation at every point. -/
import proofs.«104107_j50560355009131_1_alg».proof.Proof.Gen.KernelIdeal.Launch
import proofs.«104107_j50560355009131_1_alg».proof.Proof.Gen.KernelIdeal.Skeleton
import proofs.«104107_j50560355009131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- The staging buffer of the rows holds its block of 2000 rows of segment sums at every point. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- The bias's staging buffer holds the whole row b[0,3] at every point, fetched there or not (its block index
    never moves). -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- The whole block of 2000 rows, and the whole one-row bias, as rectangles. -/
abbrev r11_0 : Rect S2000x128 := Rect.unit (s := S2000x128) ![0, 0] S2000x128.size inb_S2000x128_S2000x128_0_0
abbrev r11_1 : Rect S1x128 := Rect.unit (s := S1x128) ![0, 0] S1x128.size inb_S1x128_S1x128_0_0

/-- What the body leaves in the output block: its one store, the rows it read plus the bias row, cut off below at
    zero. -/
def out11_2 (x0 : Vec F S2000x128 .f32) (x1 : Vec F S1x128 .f32) : Vec F S2000x128 .f32 :=
  View.canon [⟨r11_0, k11_pay1 (View.ld x0 r11_0) (View.ld x1 r11_1)⟩]

/-- The one store covers the output block. -/
theorem cover11_2 (p0 : Vec F S2000x128 .f32) (y : S2000x128.Idx) :
    ∃ pc ∈ ([⟨r11_0, p0⟩] : List (View.Piece (Elt F) S2000x128 .f32)), y ∈ pc.1.set :=
  View.cover_of_tiled [⟨r11_0, p0⟩] S2000x128.size (by rfl) y

set_option maxHeartbeats 1000000 in
/-- The body on whole staging memrefs, the inputs' at contents `x0`, `x1` and the output's at anything, runs to the
    continuation with the inputs' as they were and the output's at `out11_2 x0 x1`. The body also reads the output
    block before it stores over the whole of it; what it read there is not used. -/
theorem sound_kernel11 (c : Dev nD) (E : Set ℕ) (i : grid11.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out11_2 x0 x1)) -∗ K ⟨⟩))
      ⊢ wp frame (wpE (defs₀ (F := F)) Variants.none c none) E (cc11__bias_act_kernel i arg1 harg1 arg2 harg2 arg3 harg3) K := by
  simp only [cc11__bias_act_kernel_eq_skeleton]; unfold cc11__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover11_2 _)

/-- The pipeline's proof data on core `c`: the arrays as the region finds them; after the body at point `t` each
    input's buffer at its block and the output's at the rows plus the bias row, cut off below at zero; the class
    invariant; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out11_2 (iblk11 V c 0 t) (iblk11 V c 1 t)
  Φ _ := Pipeline.ΦA spec11 c
  q _ := fullShare
  owed _ := 0

theorem A_eq11 (c : Dev nD) (w : Fin cfg11.W) : (dat11 V c).A w = V c (Pipeline.arrRef spec11 w) := by
  dsimp only [dat11]
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = out11_2 (iblk11 V c 0 t) (iblk11 V c 1 t) := by dsimp only [dat11]
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

/-- What the body is called with at point `t`, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t))

/-- The body at any point: the inputs' memrefs hold their blocks, so `sound_kernel11` applies; the invariant and
    the core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).Φ t.succ = (dat11 V c).Φ t.castSucc from rfl,
    show (dat11 V c).owesAt () t.succ = (dat11 V c).owesAt () t.castSucc from rfl,
    after11_0, after11_1, after11_2]
  iintro ⟨HΦ, Ho, ⟨%d0, H0⟩, ⟨%d1, H1⟩, ⟨%d2, H2⟩⟩
  iapply (sound_kernel11 c Set.univ (grid11.coords t) _ _ _ _ _ _ (iblk11 V c 0 t) (iblk11 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.KI.Body12.lean ====
/- Region 12 of @main: one row block of the product u · W[1,0] per grid point, u the 100000 rows that layer 1
   starts from (layer 0's block 2 after its bias and relu; 50 blocks of 2000).
   The pipeline has three windows: the rows of the left operand (a block of 2000 rows at point t), the whole
   128 x 128 right operand (the same block at every point, fetched once) and the rows of the result. The body
   reads both input blocks, rounds each to bf16, multiplies them on the matrix unit into a zero f32 accumulator
   and stores the product over the whole output block. Stated at the contents `V` the buffers hold when the
   region is entered: the block each window holds at a point, what the body leaves in the output block as a
   function of the two input blocks, the body's triple, the pipeline's proof data and the body obligation at
   every point. -/
import proofs.«104107_j50560355009131_1_alg».proof.Proof.Gen.KernelIdeal.Launch
import proofs.«104107_j50560355009131_1_alg».proof.Proof.Gen.KernelIdeal.Skeleton
import proofs.«104107_j50560355009131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- The left operand's staging buffer holds its block of rows of u at every point. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
/-- The right operand's staging buffer holds the whole of W[1,0] at every point, fetched there or not (its block
    index never moves). -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- The whole block of 2000 rows, and the whole right operand, as rectangles. -/
abbrev r12_0 : Rect S2000x128 := Rect.unit (s := S2000x128) ![0, 0] S2000x128.size inb_S2000x128_S2000x128_0_0
abbrev r12_1 : Rect S128x128 := Rect.unit (s := S128x128) ![0, 0] S128x128.size inb_S128x128_S128x128_0_0

/-- What the body leaves in the output block: its one store, the product of the two blocks it read. -/
def out12_2 (x0 : Vec F S2000x128 .f32) (x1 : Vec F S128x128 .f32) : Vec F S2000x128 .f32 :=
  View.canon [⟨r12_0, k12_pay1 (View.ld x0 r12_0) (View.ld x1 r12_1)⟩]

/-- The one store covers the output block. -/
theorem cover12_2 (p0 : Vec F S2000x128 .f32) (y : S2000x128.Idx) :
    ∃ pc ∈ ([⟨r12_0, p0⟩] : List (View.Piece (Elt F) S2000x128 .f32)), y ∈ pc.1.set :=
  View.cover_of_tiled [⟨r12_0, p0⟩] S2000x128.size (by rfl) y

set_option maxHeartbeats 1000000 in
/-- The body on whole staging memrefs, the inputs' at contents `x0`, `x1` and the output's at anything, runs to the
    continuation with the inputs' as they were and the output's at `out12_2 x0 x1`. The body also reads the output
    block before it stores over the whole of it; what it read there is not used. -/
theorem sound_kernel12 (c : Dev nD) (E : Set ℕ) (i : grid12.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out12_2 x0 x1)) -∗ K ⟨⟩))
      ⊢ wp frame (wpE (defs₀ (F := F)) Variants.none c none) E (cc12__matmul_kernel i arg1 harg1 arg2 harg2 arg3 harg3) K := by
  simp only [cc12__matmul_kernel_eq_skeleton]; unfold cc12__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

/-- The pipeline's proof data on core `c`: the arrays as the region finds them; after the body at point `t` each
    input's buffer at its block and the output's at the product of the two blocks; the class invariant; nothing
    owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by
  dsimp only [dat12]
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = out12_2 (iblk12 V c 0 t) (iblk12 V c 1 t) := by dsimp only [dat12]
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-- What the body is called with at point `t`, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

/-- The body at any point: the inputs' memrefs hold their blocks, so `sound_kernel12` applies; the invariant and
    the core's dues pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ (grid12.coords t) _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation12 (c : Dev nD) : BodyObligation (dat12 (F := F) V c) (defs₀ (F := F)) Variants.none () Set.univ := fun t => by
  rw [bigSep_W12, bigSep_W12]
  exact sound_body12 V c t

end Cert.KernelIdeal.Hand

end
-- ==== Proof.KI.Body13.lean ====
/- Region 13 of @main: the edge scaling of layer 1, block 0. The rows of u' · W[1,0], u' the user rows layer 0
   leaves (the result of region 8), have been gathered along the edges (row e is the product's row at edge e's
   user index); this region multiplies row e by the edge weight w[e], 8000 edges per grid point. The pipeline
   has three windows: the gathered rows (a block of 8000 rows at point t), the matching 8000 entries of the
   600000 x 1 column of edge weights (a new block at every point) and the rows of the result. The body reads
   both input blocks, spreads the column along each row and stores the entrywise product over the whole output
   block. Stated at the contents `V` the buffers hold when the region is entered: the block each window holds
   at a point, what the body leaves in the output block as a function of the two input blocks, the body's
   triple, the pipeline's proof data and the body obligation at every point. -/
import proofs.«104107_j50560355009131_1_alg».proof.Proof.Gen.KernelIdeal.Launch
import proofs.«104107_j50560355009131_1_alg».proof.Proof.Gen.KernelIdeal.Skeleton
import proofs.«104107_j50560355009131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- The gathered rows' staging buffer holds its block of 8000 rows at every point. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
/-- The edge weights' staging buffer holds the 8000 weights of the same edges at every point. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- The whole block of 8000 rows, and the whole block of 8000 weights, as rectangles. -/
abbrev r13_0 : Rect S8000x128 := Rect.unit (s := S8000x128) ![0, 0] S8000x128.size inb_S8000x128_S8000x128_0_0
abbrev r13_1 : Rect S8000x1 := Rect.unit (s := S8000x1) ![0, 0] S8000x1.size inb_S8000x1_S8000x1_0_0

/-- What the body leaves in the output block: its one store, each row it read times that row's weight. -/
def out13_2 (x0 : Vec F S8000x128 .f32) (x1 : Vec F S8000x1 .f32) : Vec F S8000x128 .f32 :=
  View.canon [⟨r13_0, k13_pay1 (View.ld x0 r13_0) (View.ld x1 r13_1)⟩]

/-- The one store covers the output block. -/
theorem cover13_2 (p0 : Vec F S8000x128 .f32) (y : S8000x128.Idx) :
    ∃ pc ∈ ([⟨r13_0, p0⟩] : List (View.Piece (Elt F) S8000x128 .f32)), y ∈ pc.1.set :=
  View.cover_of_tiled [⟨r13_0, p0⟩] S8000x128.size (by rfl) y

set_option maxHeartbeats 1000000 in
/-- The body on whole staging memrefs, the inputs' at contents `x0`, `x1` and the output's at anything, runs to the
    continuation with the inputs' as they were and the output's at `out13_2 x0 x1`. -/
theorem sound_kernel13 (c : Dev nD) (E : Set ℕ) (i : grid13.Coords) (arg1 : Memref sig .tc .vmem S8000x128 .f32) (harg1 : arg1.IsWhole) (arg2 : Memref sig .tc .vmem S8000x1 .f32) (harg2 : arg2.IsWhole) (arg3 : Memref sig .tc .vmem S8000x128 .f32) (harg3 : arg3.IsWhole)
    (x0 : Vec F S8000x128 .f32) (x1 : Vec F S8000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out13_2 x0 x1)) -∗ K ⟨⟩))
      ⊢ wp frame (wpE (defs₀ (F := F)) Variants.none c none) E (cc13__scale_kernel i arg1 harg1 arg2 harg2 arg3 harg3) K := by
  simp only [cc13__scale_kernel_eq_skeleton]; unfold cc13__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover13_2 _)

/-- The pipeline's proof data on core `c`: the arrays as the region finds them; after the body at point `t` each
    input's buffer at its block and the output's at the rows of the first block scaled by the weights of the
    second; the class invariant; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => out13_2 (iblk13 V c 0 t) (iblk13 V c 1 t)
  Φ _ := Pipeline.ΦA spec13 c
  q _ := fullShare
  owed _ := 0

theorem A_eq13 (c : Dev nD) (w : Fin cfg13.W) : (dat13 V c).A w = V c (Pipeline.arrRef spec13 w) := by
  dsimp only [dat13]
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = out13_2 (iblk13 V c 0 t) (iblk13 V c 1 t) := by dsimp only [dat13]
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-- What the body is called with at point `t`, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t))

/-- The body at any point: the inputs' memrefs hold their blocks, so `sound_kernel13` applies; the invariant and
    the core's dues pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).Φ t.succ = (dat13 V c).Φ t.castSucc from rfl,
    show (dat13 V c).owesAt () t.succ = (dat13 V c).owesAt () t.castSucc from rfl,
    after13_0, after13_1, after13_2]
  iintro ⟨HΦ, Ho, ⟨%d0, H0⟩, ⟨%d1, H1⟩, ⟨%d2, H2⟩⟩
  iapply (sound_kernel13 c Set.univ (grid13.coords t) _ _ _ _ _ _ (iblk13 V c 0 t) (iblk13 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation13 (c : Dev nD) : BodyObligation (dat13 (F := F) V c) (defs₀ (F := F)) Variants.none () Set.univ := fun t => by
  rw [bigSep_W13, bigSep_W13]
  exact sound_body13 V c t

end Cert.KernelIdeal.Hand

end
-- ==== Proof.KI.Body14.lean ====
/- Region 14 of @main: the bias step of layer 1, block 0. The scaled rows of region 13 have been summed into one
   row per item (row n is the sum of the scaled rows of the edges whose item index is n, 50000 rows); this
   region adds the bias b[1,0] to every row, 2000 rows per grid point, with no activation after it. The
   pipeline has three windows: the summed rows (a block of 2000 rows at point t), the bias as a 1 x 128 row
   (the same block at every point, fetched once) and the rows of the result. The body reads both input blocks,
   repeats the one row down the 2000 rows and stores the entrywise sum over the whole output block. Stated at
   the contents `V` the buffers hold when the region is entered: the block each window holds at a point, what
   the body leaves in the output block as a function of the two input blocks, the body's triple, the
   pipeline's proof data and the body obligation at every point. -/
import proofs.«104107_j50560355009131_1_alg».proof.Proof.Gen.KernelIdeal.Launch
import proofs.«104107_j50560355009131_1_alg».proof.Proof.Gen.KernelIdeal.Skeleton
import proofs.«104107_j50560355009131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- The summed rows' staging buffer holds its block of 2000 rows at every point. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
/-- The bias row's staging buffer holds the whole row at every point, fetched there or not (its block index
    never moves). -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- The whole block of 2000 rows, and the whole bias row, as rectangles. -/
abbrev r14_0 : Rect S2000x128 := Rect.unit (s := S2000x128) ![0, 0] S2000x128.size inb_S2000x128_S2000x128_0_0
abbrev r14_1 : Rect S1x128 := Rect.unit (s := S1x128) ![0, 0] S1x128.size inb_S1x128_S1x128_0_0

/-- What the body leaves in the output block: its one store, each row it read plus the bias row. -/
def out14_2 (x0 : Vec F S2000x128 .f32) (x1 : Vec F S1x128 .f32) : Vec F S2000x128 .f32 :=
  View.canon [⟨r14_0, k14_pay1 (View.ld x0 r14_0) (View.ld x1 r14_1)⟩]

/-- The one store covers the output block. -/
theorem cover14_2 (p0 : Vec F S2000x128 .f32) (y : S2000x128.Idx) :
    ∃ pc ∈ ([⟨r14_0, p0⟩] : List (View.Piece (Elt F) S2000x128 .f32)), y ∈ pc.1.set :=
  View.cover_of_tiled [⟨r14_0, p0⟩] S2000x128.size (by rfl) y

set_option maxHeartbeats 1000000 in
/-- The body on whole staging memrefs, the inputs' at contents `x0`, `x1` and the output's at anything, runs to the
    continuation with the inputs' as they were and the output's at `out14_2 x0 x1`. -/
theorem sound_kernel14 (c : Dev nD) (E : Set ℕ) (i : grid14.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out14_2 x0 x1)) -∗ K ⟨⟩))
      ⊢ wp frame (wpE (defs₀ (F := F)) Variants.none c none) E (cc14__bias_act_kernel i arg1 harg1 arg2 harg2 arg3 harg3) K := by
  simp only [cc14__bias_act_kernel_eq_skeleton]; unfold cc14__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover14_2 _)

/-- The pipeline's proof data on core `c`: the arrays as the region finds them; after the body at point `t` each
    input's buffer at its block and the output's at the rows of the first block each plus the bias row; the
    class invariant; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => out14_2 (iblk14 V c 0 t) (iblk14 V c 1 t)
  Φ _ := Pipeline.ΦA spec14 c
  q _ := fullShare
  owed _ := 0

theorem A_eq14 (c : Dev nD) (w : Fin cfg14.W) : (dat14 V c).A w = V c (Pipeline.arrRef spec14 w) := by
  dsimp only [dat14]
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = out14_2 (iblk14 V c 0 t) (iblk14 V c 1 t) := by dsimp only [dat14]
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d

/-- What the body is called with at point `t`, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t))

/-- The body at any point: the inputs' memrefs hold their blocks, so `sound_kernel14` applies; the invariant and
    the core's dues pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1]
  rw [show (dat14 V c).Φ t.succ = (dat14 V c).Φ t.castSucc from rfl,
    show (dat14 V c).owesAt () t.succ = (dat14 V c).owesAt () t.castSucc from rfl,
    after14_0, after14_1, after14_2]
  iintro ⟨HΦ, Ho, ⟨%d0, H0⟩, ⟨%d1, H1⟩, ⟨%d2, H2⟩⟩
  iapply (sound_kernel14 c Set.univ (grid14.coords t) _ _ _ _ _ _ (iblk14 V c 0 t) (iblk14 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation14 (c : Dev nD) : BodyObligation (dat14 (F := F) V c) (defs₀ (F := F)) Variants.none () Set.univ := fun t => by
  rw [bigSep_W14, bigSep_W14]
  exact sound_body14 V c t

end Cert.KernelIdeal.Hand

end
-- ==== Proof.KI.Body15.lean ====
/- Region 15 of @main: one row block of the product v · W[1,1] per grid point, v the 50000 rows that layer 1
   starts from (layer 0's block 3 after its bias and relu; 25 blocks of 2000).
   The pipeline has three windows: the rows of the left operand (a block of 2000 rows at point t), the whole
   128 x 128 right operand (the same block at every point, fetched once) and the rows of the result. The body
   reads both input blocks, rounds each to bf16, multiplies them on the matrix unit into a zero f32 accumulator
   and stores the product over the whole output block. Stated at the contents `V` the buffers hold when the
   region is entered: the block each window holds at a point, what the body leaves in the output block as a
   function of the two input blocks, the body's triple, the pipeline's proof data and the body obligation at
   every point. -/
import proofs.«104107_j50560355009131_1_alg».proof.Proof.Gen.KernelIdeal.Launch
import proofs.«104107_j50560355009131_1_alg».proof.Proof.Gen.KernelIdeal.Skeleton
import proofs.«104107_j50560355009131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

/-- The left operand's staging buffer holds its block of rows of v at every point. -/
theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
/-- The right operand's staging buffer holds the whole of W[1,1] at every point, fetched there or not (its block
    index never moves). -/
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)

/-- The whole block of 2000 rows, and the whole right operand, as rectangles. -/
abbrev r15_0 : Rect S2000x128 := Rect.unit (s := S2000x128) ![0, 0] S2000x128.size inb_S2000x128_S2000x128_0_0
abbrev r15_1 : Rect S128x128 := Rect.unit (s := S128x128) ![0, 0] S128x128.size inb_S128x128_S128x128_0_0

/-- What the body leaves in the output block: its one store, the product of the two blocks it read. -/
def out15_2 (x0 : Vec F S2000x128 .f32) (x1 : Vec F S128x128 .f32) : Vec F S2000x128 .f32 :=
  View.canon [⟨r15_0, k15_pay1 (View.ld x0 r15_0) (View.ld x1 r15_1)⟩]

/-- The one store covers the output block. -/
theorem cover15_2 (p0 : Vec F S2000x128 .f32) (y : S2000x128.Idx) :
    ∃ pc ∈ ([⟨r15_0, p0⟩] : List (View.Piece (Elt F) S2000x128 .f32)), y ∈ pc.1.set :=
  View.cover_of_tiled [⟨r15_0, p0⟩] S2000x128.size (by rfl) y

set_option maxHeartbeats 1000000 in
/-- The body on whole staging memrefs, the inputs' at contents `x0`, `x1` and the output's at anything, runs to the
    continuation with the inputs' as they were and the output's at `out15_2 x0 x1`. The body also reads the output
    block before it stores over the whole of it; what it read there is not used. -/
theorem sound_kernel15 (c : Dev nD) (E : Set ℕ) (i : grid15.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out15_2 x0 x1)) -∗ K ⟨⟩))
      ⊢ wp frame (wpE (defs₀ (F := F)) Variants.none c none) E (cc15__matmul_kernel i arg1 harg1 arg2 harg2 arg3 harg3) K := by
  simp only [cc15__matmul_kernel_eq_skeleton]; unfold cc15__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover15_2 _)

/-- The pipeline's proof data on core `c`: the arrays as the region finds them; after the body at point `t` each
    input's buffer at its block and the output's at the product of the two blocks; the class invariant; nothing
    owed; full shares. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => out15_2 (iblk15 V c 0 t) (iblk15 V c 1 t)
  Φ _ := Pipeline.ΦA spec15 c
  q _ := fullShare
  owed _ := 0

theorem A_eq15 (c : Dev nD) (w : Fin cfg15.W) : (dat15 V c).A w = V c (Pipeline.arrRef spec15 w) := by
  dsimp only [dat15]
theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = out15_2 (iblk15 V c 0 t) (iblk15 V c 1 t) := by dsimp only [dat15]
theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d

/-- What the body is called with at point `t`, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t))

/-- The body at any point: the inputs' memrefs hold their blocks, so `sound_kernel15` applies; the invariant and
    the core's dues pass through unread. -/
theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1]
  rw [show (dat15 V c).Φ t.succ = (dat15 V c).Φ t.castSucc from rfl,
    show (dat15 V c).owesAt () t.succ = (dat15 V c).owesAt () t.castSucc from rfl,
    after15_0, after15_1, after15_2]
  iintro ⟨HΦ, Ho, ⟨%d0, H0⟩, ⟨%d1, H1⟩, ⟨%d2, H2⟩⟩
  iapply (sound_kernel15 c Set.univ (grid15.coords t) _ _ _ _ _ _ (iblk15 V c 0 t) (iblk15 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation15 (c : Dev nD) : BodyObligation (dat15 (F := F) V c) (defs₀ (F := F)) Variants.none () Set.univ := fun t => by
  rw [bigSep_W15, bigSep_W15]
  exact sound_body15 V c t

end Cert.KernelIdeal.Hand

end
-- ==== Proof.KI.Body16.lean ====
/- Region 16 of @main: the edge scaling of layer 1, block 1. The rows of v' · W[1,1], v' the item rows layer 0
   leaves (the result of region 11), have been gathered along the edges (row e is the product's row at edge
   e's item index); this region multiplies row e by the edge weight w[e], 8000 edges per grid point. The
   pipeline has three windows: the gathered rows (a block of 8000 rows at point t), the matching 8000 entries
   of the 600000 x 1 column of edge weights (a new block at every point) and the rows of the result. The body
   reads both input blocks, spreads the column along each row and stores the entrywise product over the whole
   output block. Stated at the contents `V` the buffers hold when the region is entered: the block each window
   holds at a point, what the body leaves in the output block as a function of the two input blocks, the
   body's triple, the pipeline's proof data and the body obligation at every point. -/
import proofs.«104107_j50560355009131_1_alg».proof.Proof.Gen.KernelIdeal.Launch
import proofs.«104107_j50560355009131_1_alg».proof.Proof.Gen.KernelIdeal.Skeleton
import proofs.«104107_j50560355009131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

/-- The gathered rows' staging buffer holds its block of 8000 rows at every point. -/
theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)
/-- The edge weights' staging buffer holds the 8000 weights of the same edges at every point. -/
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)

/-- The whole block of 8000 rows, and the whole block of 8000 weights, as rectangles. -/
abbrev r16_0 : Rect S8000x128 := Rect.unit (s := S8000x128) ![0, 0] S8000x128.size inb_S8000x128_S8000x128_0_0
abbrev r16_1 : Rect S8000x1 := Rect.unit (s := S8000x1) ![0, 0] S8000x1.size inb_S8000x1_S8000x1_0_0

/-- What the body leaves in the output block: its one store, each row it read times that row's weight. -/
def out16_2 (x0 : Vec F S8000x128 .f32) (x1 : Vec F S8000x1 .f32) : Vec F S8000x128 .f32 :=
  View.canon [⟨r16_0, k16_pay1 (View.ld x0 r16_0) (View.ld x1 r16_1)⟩]

/-- The one store covers the output block. -/
theorem cover16_2 (p0 : Vec F S8000x128 .f32) (y : S8000x128.Idx) :
    ∃ pc ∈ ([⟨r16_0, p0⟩] : List (View.Piece (Elt F) S8000x128 .f32)), y ∈ pc.1.set :=
  View.cover_of_tiled [⟨r16_0, p0⟩] S8000x128.size (by rfl) y

set_option maxHeartbeats 1000000 in
/-- The body on whole staging memrefs, the inputs' at contents `x0`, `x1` and the output's at anything, runs to the
    continuation with the inputs' as they were and the output's at `out16_2 x0 x1`. -/
theorem sound_kernel16 (c : Dev nD) (E : Set ℕ) (i : grid16.Coords) (arg1 : Memref sig .tc .vmem S8000x128 .f32) (harg1 : arg1.IsWhole) (arg2 : Memref sig .tc .vmem S8000x1 .f32) (harg2 : arg2.IsWhole) (arg3 : Memref sig .tc .vmem S8000x128 .f32) (harg3 : arg3.IsWhole)
    (x0 : Vec F S8000x128 .f32) (x1 : Vec F S8000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out16_2 x0 x1)) -∗ K ⟨⟩))
      ⊢ wp frame (wpE (defs₀ (F := F)) Variants.none c none) E (cc16__scale_kernel i arg1 harg1 arg2 harg2 arg3 harg3) K := by
  simp only [cc16__scale_kernel_eq_skeleton]; unfold cc16__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover16_2 _)

/-- The pipeline's proof data on core `c`: the arrays as the region finds them; after the body at point `t` each
    input's buffer at its block and the output's at the rows of the first block scaled by the weights of the
    second; the class invariant; nothing owed; full shares. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => out16_2 (iblk16 V c 0 t) (iblk16 V c 1 t)
  Φ _ := Pipeline.ΦA spec16 c
  q _ := fullShare
  owed _ := 0

theorem A_eq16 (c : Dev nD) (w : Fin cfg16.W) : (dat16 V c).A w = V c (Pipeline.arrRef spec16 w) := by
  dsimp only [dat16]
theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = out16_2 (iblk16 V c 0 t) (iblk16 V c 1 t) := by dsimp only [dat16]
theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d

/-- What the body is called with at point `t`, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d)))

/-- and what it returns. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t))

/-- The body at any point: the inputs' memrefs hold their blocks, so `sound_kernel16` applies; the invariant and
    the core's dues pass through unread. -/
theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1]
  rw [show (dat16 V c).Φ t.succ = (dat16 V c).Φ t.castSucc from rfl,
    show (dat16 V c).owesAt () t.succ = (dat16 V c).owesAt () t.castSucc from rfl,
    after16_0, after16_1, after16_2]
  iintro ⟨HΦ, Ho, ⟨%d0, H0⟩, ⟨%d1, H1⟩, ⟨%d2, H2⟩⟩
  iapply (sound_kernel16 c Set.univ (grid16.coords t) _ _ _ _ _ _ (iblk16 V c 0 t) (iblk16 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation16 (c : Dev nD) : BodyObligation (dat16 (F := F) V c) (defs₀ (F := F)) Variants.none () Set.univ := fun t => by
  rw [bigSep_W16, bigSep_W16]
  exact sound_body16 V c t

end Cert.KernelIdeal.Hand

end
-- ==== Proof.KI.Body17.lean ====
/- Region 17 of @main: the bias step of layer 1, block 1. The scaled rows of region 16 have been summed into one
   row per user (row n is the sum of the scaled rows of the edges whose user index is n, 100000 rows); this
   region adds the bias b[1,1] to every row, 2000 rows per grid point, with no activation after it. The
   pipeline has three windows: the summed rows (a block of 2000 rows at point t), the bias as a 1 x 128 row
   (the same block at every point, fetched once) and the rows of the result. The body reads both input blocks,
   repeats the one row down the 2000 rows and stores the entrywise sum over the whole output block. Stated at
   the contents `V` the buffers hold when the region is entered: the block each window holds at a point, what
   the body leaves in the output block as a function of the two input blocks, the body's triple, the
   pipeline's proof data and the body obligation at every point. -/
import proofs.«104107_j50560355009131_1_alg».proof.Proof.Gen.KernelIdeal.Launch
import proofs.«104107_j50560355009131_1_alg».proof.Proof.Gen.KernelIdeal.Skeleton
import proofs.«104107_j50560355009131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

/-- The summed rows' staging buffer holds its block of 2000 rows at every point. -/
theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)
/-- The bias row's staging buffer holds the whole row at every point, fetched there or not (its block index
    never moves). -/
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)

/-- The whole block of 2000 rows, and the whole bias row, as rectangles. -/
abbrev r17_0 : Rect S2000x128 := Rect.unit (s := S2000x128) ![0, 0] S2000x128.size inb_S2000x128_S2000x128_0_0
abbrev r17_1 : Rect S1x128 := Rect.unit (s := S1x128) ![0, 0] S1x128.size inb_S1x128_S1x128_0_0

/-- What the body leaves in the output block: its one store, each row it read plus the bias row. -/
def out17_2 (x0 : Vec F S2000x128 .f32) (x1 : Vec F S1x128 .f32) : Vec F S2000x128 .f32 :=
  View.canon [⟨r17_0, k17_pay1 (View.ld x0 r17_0) (View.ld x1 r17_1)⟩]

/-- The one store covers the output block. -/
theorem cover17_2 (p0 : Vec F S2000x128 .f32) (y : S2000x128.Idx) :
    ∃ pc ∈ ([⟨r17_0, p0⟩] : List (View.Piece (Elt F) S2000x128 .f32)), y ∈ pc.1.set :=
  View.cover_of_tiled [⟨r17_0, p0⟩] S2000x128.size (by rfl) y

set_option maxHeartbeats 1000000 in
/-- The body on whole staging memrefs, the inputs' at contents `x0`, `x1` and the output's at anything, runs to the
    continuation with the inputs' as they were and the output's at `out17_2 x0 x1`. -/
theorem sound_kernel17 (c : Dev nD) (E : Set ℕ) (i : grid17.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out17_2 x0 x1)) -∗ K ⟨⟩))
      ⊢ wp frame (wpE (defs₀ (F := F)) Variants.none c none) E (cc17__bias_act_kernel i arg1 harg1 arg2 harg2 arg3 harg3) K := by
  simp only [cc17__bias_act_kernel_eq_skeleton]; unfold cc17__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover17_2 _)

/-- The pipeline's proof data on core `c`: the arrays as the region finds them; after the body at point `t` each
    input's buffer at its block and the output's at the rows of the first block each plus the bias row; the
    class invariant; nothing owed; full shares. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => out17_2 (iblk17 V c 0 t) (iblk17 V c 1 t)
  Φ _ := Pipeline.ΦA spec17 c
  q _ := fullShare
  owed _ := 0

theorem A_eq17 (c : Dev nD) (w : Fin cfg17.W) : (dat17 V c).A w = V c (Pipeline.arrRef spec17 w) := by
  dsimp only [dat17]
theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = out17_2 (iblk17 V c 0 t) (iblk17 V c 1 t) := by dsimp only [dat17]
theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d

/-- What the body is called with at point `t`, -/
def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d)))

/-- and what it returns. -/
def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t))

/-- The body at any point: the inputs' memrefs hold their blocks, so `sound_kernel17` applies; the invariant and
    the core's dues pass through unread. -/
theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1]
  rw [show (dat17 V c).Φ t.succ = (dat17 V c).Φ t.castSucc from rfl,
    show (dat17 V c).owesAt () t.succ = (dat17 V c).owesAt () t.castSucc from rfl,
    after17_0, after17_1, after17_2]
  iintro ⟨HΦ, Ho, ⟨%d0, H0⟩, ⟨%d1, H1⟩, ⟨%d2, H2⟩⟩
  iapply (sound_kernel17 c Set.univ (grid17.coords t) _ _ _ _ _ _ (iblk17 V c 0 t) (iblk17 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation17 (c : Dev nD) : BodyObligation (dat17 (F := F) V c) (defs₀ (F := F)) Variants.none () Set.univ := fun t => by
  rw [bigSep_W17, bigSep_W17]
  exact sound_body17 V c t

end Cert.KernelIdeal.Hand

end
-- ==== Proof.KI.Body18.lean ====
/- Region 18 of @main: one row block of the product user_ho · W[1,2] per grid point, user_ho the 50000 rows that
   layer 1's block 0 ends with (segment sums plus b[1,0]; 25 blocks of 2000).
   The pipeline has three windows: the rows of the left operand (a block of 2000 rows at point t), the whole
   128 x 128 right operand (the same block at every point, fetched once) and the rows of the result. The body
   reads both input blocks, rounds each to bf16, multiplies them on the matrix unit into a zero f32 accumulator
   and stores the product over the whole output block. Stated at the contents `V` the buffers hold when the
   region is entered: the block each window holds at a point, what the body leaves in the output block as a
   function of the two input blocks, the body's triple, the pipeline's proof data and the body obligation at
   every point. -/
import proofs.«104107_j50560355009131_1_alg».proof.Proof.Gen.KernelIdeal.Launch
import proofs.«104107_j50560355009131_1_alg».proof.Proof.Gen.KernelIdeal.Skeleton
import proofs.«104107_j50560355009131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

/-- The left operand's staging buffer holds its block of rows of user_ho at every point. -/
theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)
/-- The right operand's staging buffer holds the whole of W[1,2] at every point, fetched there or not (its block
    index never moves). -/
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)

/-- The whole block of 2000 rows, and the whole right operand, as rectangles. -/
abbrev r18_0 : Rect S2000x128 := Rect.unit (s := S2000x128) ![0, 0] S2000x128.size inb_S2000x128_S2000x128_0_0
abbrev r18_1 : Rect S128x128 := Rect.unit (s := S128x128) ![0, 0] S128x128.size inb_S128x128_S128x128_0_0

/-- What the body leaves in the output block: its one store, the product of the two blocks it read. -/
def out18_2 (x0 : Vec F S2000x128 .f32) (x1 : Vec F S128x128 .f32) : Vec F S2000x128 .f32 :=
  View.canon [⟨r18_0, k18_pay1 (View.ld x0 r18_0) (View.ld x1 r18_1)⟩]

/-- The one store covers the output block. -/
theorem cover18_2 (p0 : Vec F S2000x128 .f32) (y : S2000x128.Idx) :
    ∃ pc ∈ ([⟨r18_0, p0⟩] : List (View.Piece (Elt F) S2000x128 .f32)), y ∈ pc.1.set :=
  View.cover_of_tiled [⟨r18_0, p0⟩] S2000x128.size (by rfl) y

set_option maxHeartbeats 1000000 in
/-- The body on whole staging memrefs, the inputs' at contents `x0`, `x1` and the output's at anything, runs to the
    continuation with the inputs' as they were and the output's at `out18_2 x0 x1`. The body also reads the output
    block before it stores over the whole of it; what it read there is not used. -/
theorem sound_kernel18 (c : Dev nD) (E : Set ℕ) (i : grid18.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out18_2 x0 x1)) -∗ K ⟨⟩))
      ⊢ wp frame (wpE (defs₀ (F := F)) Variants.none c none) E (cc18__matmul_kernel i arg1 harg1 arg2 harg2 arg3 harg3) K := by
  simp only [cc18__matmul_kernel_eq_skeleton]; unfold cc18__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover18_2 _)

/-- The pipeline's proof data on core `c`: the arrays as the region finds them; after the body at point `t` each
    input's buffer at its block and the output's at the product of the two blocks; the class invariant; nothing
    owed; full shares. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => out18_2 (iblk18 V c 0 t) (iblk18 V c 1 t)
  Φ _ := Pipeline.ΦA spec18 c
  q _ := fullShare
  owed _ := 0

theorem A_eq18 (c : Dev nD) (w : Fin cfg18.W) : (dat18 V c).A w = V c (Pipeline.arrRef spec18 w) := by
  dsimp only [dat18]
theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = out18_2 (iblk18 V c 0 t) (iblk18 V c 1 t) := by dsimp only [dat18]
theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d

/-- What the body is called with at point `t`, -/
def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d)))

/-- and what it returns. -/
def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t))

/-- The body at any point: the inputs' memrefs hold their blocks, so `sound_kernel18` applies; the invariant and
    the core's dues pass through unread. -/
theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1]
  rw [show (dat18 V c).Φ t.succ = (dat18 V c).Φ t.castSucc from rfl,
    show (dat18 V c).owesAt () t.succ = (dat18 V c).owesAt () t.castSucc from rfl,
    after18_0, after18_1, after18_2]
  iintro ⟨HΦ, Ho, ⟨%d0, H0⟩, ⟨%d1, H1⟩, ⟨%d2, H2⟩⟩
  iapply (sound_kernel18 c Set.univ (grid18.coords t) _ _ _ _ _ _ (iblk18 V c 0 t) (iblk18 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation18 (c : Dev nD) : BodyObligation (dat18 (F := F) V c) (defs₀ (F := F)) Variants.none () Set.univ := fun t => by
  rw [bigSep_W18, bigSep_W18]
  exact sound_body18 V c t

end Cert.KernelIdeal.Hand

end
-- ==== Proof.KI.Body19.lean ====
/- Region 19 of @main: the edge scaling of layer 1, block 2. The rows of h · W[1,2], h the result of block 0 of
   this layer (region 14), have been gathered along the edges (row e is the product's row at edge e's item
   index); this region multiplies row e by the edge weight w[e], 8000 edges per grid point. The pipeline has
   three windows: the gathered rows (a block of 8000 rows at point t), the matching 8000 entries of the
   600000 x 1 column of edge weights (a new block at every point) and the rows of the result. The body reads
   both input blocks, spreads the column along each row and stores the entrywise product over the whole output
   block. Stated at the contents `V` the buffers hold when the region is entered: the block each window holds
   at a point, what the body leaves in the output block as a function of the two input blocks, the body's
   triple, the pipeline's proof data and the body obligation at every point. -/
import proofs.«104107_j50560355009131_1_alg».proof.Proof.Gen.KernelIdeal.Launch
import proofs.«104107_j50560355009131_1_alg».proof.Proof.Gen.KernelIdeal.Skeleton
import proofs.«104107_j50560355009131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

/-- The gathered rows' staging buffer holds its block of 8000 rows at every point. -/
theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)
/-- The edge weights' staging buffer holds the 8000 weights of the same edges at every point. -/
theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)

/-- The whole block of 8000 rows, and the whole block of 8000 weights, as rectangles. -/
abbrev r19_0 : Rect S8000x128 := Rect.unit (s := S8000x128) ![0, 0] S8000x128.size inb_S8000x128_S8000x128_0_0
abbrev r19_1 : Rect S8000x1 := Rect.unit (s := S8000x1) ![0, 0] S8000x1.size inb_S8000x1_S8000x1_0_0

/-- What the body leaves in the output block: its one store, each row it read times that row's weight. -/
def out19_2 (x0 : Vec F S8000x128 .f32) (x1 : Vec F S8000x1 .f32) : Vec F S8000x128 .f32 :=
  View.canon [⟨r19_0, k19_pay1 (View.ld x0 r19_0) (View.ld x1 r19_1)⟩]

/-- The one store covers the output block. -/
theorem cover19_2 (p0 : Vec F S8000x128 .f32) (y : S8000x128.Idx) :
    ∃ pc ∈ ([⟨r19_0, p0⟩] : List (View.Piece (Elt F) S8000x128 .f32)), y ∈ pc.1.set :=
  View.cover_of_tiled [⟨r19_0, p0⟩] S8000x128.size (by rfl) y

set_option maxHeartbeats 1000000 in
/-- The body on whole staging memrefs, the inputs' at contents `x0`, `x1` and the output's at anything, runs to the
    continuation with the inputs' as they were and the output's at `out19_2 x0 x1`. -/
theorem sound_kernel19 (c : Dev nD) (E : Set ℕ) (i : grid19.Coords) (arg1 : Memref sig .tc .vmem S8000x128 .f32) (harg1 : arg1.IsWhole) (arg2 : Memref sig .tc .vmem S8000x1 .f32) (harg2 : arg2.IsWhole) (arg3 : Memref sig .tc .vmem S8000x128 .f32) (harg3 : arg3.IsWhole)
    (x0 : Vec F S8000x128 .f32) (x1 : Vec F S8000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out19_2 x0 x1)) -∗ K ⟨⟩))
      ⊢ wp frame (wpE (defs₀ (F := F)) Variants.none c none) E (cc19__scale_kernel i arg1 harg1 arg2 harg2 arg3 harg3) K := by
  simp only [cc19__scale_kernel_eq_skeleton]; unfold cc19__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover19_2 _)

/-- The pipeline's proof data on core `c`: the arrays as the region finds them; after the body at point `t` each
    input's buffer at its block and the output's at the rows of the first block scaled by the weights of the
    second; the class invariant; nothing owed; full shares. -/
def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => out19_2 (iblk19 V c 0 t) (iblk19 V c 1 t)
  Φ _ := Pipeline.ΦA spec19 c
  q _ := fullShare
  owed _ := 0

theorem A_eq19 (c : Dev nD) (w : Fin cfg19.W) : (dat19 V c).A w = V c (Pipeline.arrRef spec19 w) := by
  dsimp only [dat19]
theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = out19_2 (iblk19 V c 0 t) (iblk19 V c 1 t) := by dsimp only [dat19]
theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d

/-- What the body is called with at point `t`, -/
def bodyPre19 (c : Dev nD) (t : Fin cfg19.N) : sProp 𝕄 :=
  iprop((dat19 V c).Φ t.castSucc ∗ (dat19 V c).owesAt () t.castSucc
    ∗ (∃ d, owns (c : Thread nD τ) (st19_0 t) fullShare ((dat19 V c).before 0 t d))
    ∗ (∃ d, owns (c : Thread nD τ) (st19_1 t) fullShare ((dat19 V c).before 1 t d))
    ∗ (∃ d, owns (c : Thread nD τ) (st19_2 t) fullShare ((dat19 V c).before 2 t d)))

/-- and what it returns. -/
def bodyPost19 (c : Dev nD) (t : Fin cfg19.N) : sProp 𝕄 :=
  iprop((dat19 V c).Φ t.succ ∗ (dat19 V c).owesAt () t.succ
    ∗ owns (c : Thread nD τ) (st19_0 t) fullShare ((dat19 V c).after 0 t)
    ∗ owns (c : Thread nD τ) (st19_1 t) fullShare ((dat19 V c).after 1 t)
    ∗ owns (c : Thread nD τ) (st19_2 t) fullShare ((dat19 V c).after 2 t))

/-- The body at any point: the inputs' memrefs hold their blocks, so `sound_kernel19` applies; the invariant and
    the core's dues pass through unread. -/
theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1]
  rw [show (dat19 V c).Φ t.succ = (dat19 V c).Φ t.castSucc from rfl,
    show (dat19 V c).owesAt () t.succ = (dat19 V c).owesAt () t.castSucc from rfl,
    after19_0, after19_1, after19_2]
  iintro ⟨HΦ, Ho, ⟨%d0, H0⟩, ⟨%d1, H1⟩, ⟨%d2, H2⟩⟩
  iapply (sound_kernel19 c Set.univ (grid19.coords t) _ _ _ _ _ _ (iblk19 V c 0 t) (iblk19 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation19 (c : Dev nD) : BodyObligation (dat19 (F := F) V c) (defs₀ (F := F)) Variants.none () Set.univ := fun t => by
  rw [bigSep_W19, bigSep_W19]
  exact sound_body19 V c t

end Cert.KernelIdeal.Hand

end
-- ==== Proof.KI.Body20.lean ====
/- Region 20 of @main: one row block of relu(s + b[1,2]) per grid point, s the 100000 rows of segment sums of the
   scaled gathered rows of user_ho · W[1,2] (50 blocks of 2000) and b[1,2] the 128 biases of layer 1, block 2; the
   result is the u that layer 1 ends with.
   The pipeline has three windows: the rows of s (a block of 2000 rows at point t), the one-row bias (the same
   1 x 128 block at every point, fetched once) and the rows of the result. The body reads both input blocks, adds
   the bias row to every row of the block, takes the maximum with zero entrywise and stores that over the whole
   output block. Stated at the contents `V` the buffers hold when the region is entered: the block each window
   holds at a point, what the body leaves in the output block as a function of the two input blocks, the body's
   triple, the pipeline's proof data and the body obligation at every point. -/
import proofs.«104107_j50560355009131_1_alg».proof.Proof.Gen.KernelIdeal.Launch
import proofs.«104107_j50560355009131_1_alg».proof.Proof.Gen.KernelIdeal.Skeleton
import proofs.«104107_j50560355009131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

/-- The staging buffer of the rows holds its block of 2000 rows of segment sums at every point. -/
theorem before20_0_of {c : Dev nD} (dat : Dat τ (Elt F) Unit ℕ (UR sig nD τ) ℕ cfg20 c) (hA : dat.A 0 = V c (Pipeline.arrRef spec20 0))
    (hafter : ∀ t, dat.after 0 t = iblk20 V c 0 t) (t : Fin cfg20.N) (d) : dat.before 0 t d = iblk20 V c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)
/-- The bias's staging buffer holds the whole row b[1,2] at every point, fetched there or not (its block index
    never moves). -/
theorem before20_1_of {c : Dev nD} (dat : Dat τ (Elt F) Unit ℕ (UR sig nD τ) ℕ cfg20 c) (hA : dat.A 1 = V c (Pipeline.arrRef spec20 1))
    (hafter : ∀ t, dat.after 1 t = iblk20 V c 1 t) (t : Fin cfg20.N) (d) : dat.before 1 t d = iblk20 V c 1 t :=
  (dat.before_in_eq_fetched 1 rfl (fun _ => rfl) (fun _ _ _ => rfl) (fun t => by rw [hafter]; unfold Dat.blockOf iblk20; rw [hA]; try rfl) t d).trans
    (by unfold Dat.fetched Dat.blockOf iblk20; rw [hA]; try rfl)

/-- The whole block of 2000 rows, and the whole one-row bias, as rectangles. -/
abbrev r20_0 : Rect S2000x128 := Rect.unit (s := S2000x128) ![0, 0] S2000x128.size inb_S2000x128_S2000x128_0_0
abbrev r20_1 : Rect S1x128 := Rect.unit (s := S1x128) ![0, 0] S1x128.size inb_S1x128_S1x128_0_0

/-- What the body leaves in the output block: its one store, the rows it read plus the bias row, cut off below at
    zero. -/
def out20_2 (x0 : Vec F S2000x128 .f32) (x1 : Vec F S1x128 .f32) : Vec F S2000x128 .f32 :=
  View.canon [⟨r20_0, k20_pay1 (View.ld x0 r20_0) (View.ld x1 r20_1)⟩]

/-- The one store covers the output block. -/
theorem cover20_2 (p0 : Vec F S2000x128 .f32) (y : S2000x128.Idx) :
    ∃ pc ∈ ([⟨r20_0, p0⟩] : List (View.Piece (Elt F) S2000x128 .f32)), y ∈ pc.1.set :=
  View.cover_of_tiled [⟨r20_0, p0⟩] S2000x128.size (by rfl) y

set_option maxHeartbeats 1000000 in
/-- The body on whole staging memrefs, the inputs' at contents `x0`, `x1` and the output's at anything, runs to the
    continuation with the inputs' as they were and the output's at `out20_2 x0 x1`. The body also reads the output
    block before it stores over the whole of it; what it read there is not used. -/
theorem sound_kernel20 (c : Dev nD) (E : Set ℕ) (i : grid20.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out20_2 x0 x1)) -∗ K ⟨⟩))
      ⊢ wp frame (wpE (defs₀ (F := F)) Variants.none c none) E (cc20__bias_act_kernel i arg1 harg1 arg2 harg2 arg3 harg3) K := by
  simp only [cc20__bias_act_kernel_eq_skeleton]; unfold cc20__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover20_2 _)

/-- The pipeline's proof data on core `c`: the arrays as the region finds them; after the body at point `t` each
    input's buffer at its block and the output's at the rows plus the bias row, cut off below at zero; the class
    invariant; nothing owed; full shares. -/
def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => out20_2 (iblk20 V c 0 t) (iblk20 V c 1 t)
  Φ _ := Pipeline.ΦA spec20 c
  q _ := fullShare
  owed _ := 0

theorem A_eq20 (c : Dev nD) (w : Fin cfg20.W) : (dat20 V c).A w = V c (Pipeline.arrRef spec20 w) := by
  dsimp only [dat20]
theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = out20_2 (iblk20 V c 0 t) (iblk20 V c 1 t) := by dsimp only [dat20]
theorem before20_0 (c : Dev nD) (t : Fin cfg20.N) (d) : (dat20 V c).before 0 t d = iblk20 V c 0 t :=
  before20_0_of V (dat20 V c) (A_eq20 V c 0) (after20_0 V c) t d
theorem before20_1 (c : Dev nD) (t : Fin cfg20.N) (d) : (dat20 V c).before 1 t d = iblk20 V c 1 t :=
  before20_1_of V (dat20 V c) (A_eq20 V c 1) (after20_1 V c) t d

/-- What the body is called with at point `t`, -/
def bodyPre20 (c : Dev nD) (t : Fin cfg20.N) : sProp 𝕄 :=
  iprop((dat20 V c).Φ t.castSucc ∗ (dat20 V c).owesAt () t.castSucc
    ∗ (∃ d, owns (c : Thread nD τ) (st20_0 t) fullShare ((dat20 V c).before 0 t d))
    ∗ (∃ d, owns (c : Thread nD τ) (st20_1 t) fullShare ((dat20 V c).before 1 t d))
    ∗ (∃ d, owns (c : Thread nD τ) (st20_2 t) fullShare ((dat20 V c).before 2 t d)))

/-- and what it returns. -/
def bodyPost20 (c : Dev nD) (t : Fin cfg20.N) : sProp 𝕄 :=
  iprop((dat20 V c).Φ t.succ ∗ (dat20 V c).owesAt () t.succ
    ∗ owns (c : Thread nD τ) (st20_0 t) fullShare ((dat20 V c).after 0 t)
    ∗ owns (c : Thread nD τ) (st20_1 t) fullShare ((dat20 V c).after 1 t)
    ∗ owns (c : Thread nD τ) (st20_2 t) fullShare ((dat20 V c).after 2 t))

/-- The body at any point: the inputs' memrefs hold their blocks, so `sound_kernel20` applies; the invariant and
    the core's dues pass through unread. -/
theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1]
  rw [show (dat20 V c).Φ t.succ = (dat20 V c).Φ t.castSucc from rfl,
    show (dat20 V c).owesAt () t.succ = (dat20 V c).owesAt () t.castSucc from rfl,
    after20_0, after20_1, after20_2]
  iintro ⟨HΦ, Ho, ⟨%d0, H0⟩, ⟨%d1, H1⟩, ⟨%d2, H2⟩⟩
  iapply (sound_kernel20 c Set.univ (grid20.coords t) _ _ _ _ _ _ (iblk20 V c 0 t) (iblk20 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation20 (c : Dev nD) : BodyObligation (dat20 (F := F) V c) (defs₀ (F := F)) Variants.none () Set.univ := fun t => by
  rw [bigSep_W20, bigSep_W20]
  exact sound_body20 V c t

end Cert.KernelIdeal.Hand

end
-- ==== Proof.KI.Body21.lean ====
/- Region 21 of @main: one row block of the product item_ho · W[1,3] per grid point, item_ho the 100000 rows that
   layer 1's block 1 ends with (segment sums plus b[1,1]; 50 blocks of 2000).
   The pipeline has three windows: the rows of the left operand (a block of 2000 rows at point t), the whole
   128 x 128 right operand (the same block at every point, fetched once) and the rows of the result. The body
   reads both input blocks, rounds each to bf16, multiplies them on the matrix unit into a zero f32 accumulator
   and stores the product over the whole output block. Stated at the contents `V` the buffers hold when the
   region is entered: the block each window holds at a point, what the body leaves in the output block as a
   function of the two input blocks, the body's triple, the pipeline's proof data and the body obligation at
   every point. -/
import proofs.«104107_j50560355009131_1_alg».proof.Proof.Gen.KernelIdeal.Launch
import proofs.«104107_j50560355009131_1_alg».proof.Proof.Gen.KernelIdeal.Skeleton
import proofs.«104107_j50560355009131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

/-- The left operand's staging buffer holds its block of rows of item_ho at every point. -/
theorem before21_0_of {c : Dev nD} (dat : Dat τ (Elt F) Unit ℕ (UR sig nD τ) ℕ cfg21 c) (hA : dat.A 0 = V c (Pipeline.arrRef spec21 0))
    (hafter : ∀ t, dat.after 0 t = iblk21 V c 0 t) (t : Fin cfg21.N) (d) : dat.before 0 t d = iblk21 V c 0 t :=
  (dat.before_in_eq_fetched 0 rfl (fun _ => rfl) (fun _ _ _ => rfl) (fun t => by rw [hafter]; unfold Dat.blockOf iblk21; rw [hA]; try rfl) t d).trans
    (by unfold Dat.fetched Dat.blockOf iblk21; rw [hA]; try rfl)
/-- The right operand's staging buffer holds the whole of W[1,3] at every point, fetched there or not (its block
    index never moves). -/
theorem before21_1_of {c : Dev nD} (dat : Dat τ (Elt F) Unit ℕ (UR sig nD τ) ℕ cfg21 c) (hA : dat.A 1 = V c (Pipeline.arrRef spec21 1))
    (hafter : ∀ t, dat.after 1 t = iblk21 V c 1 t) (t : Fin cfg21.N) (d) : dat.before 1 t d = iblk21 V c 1 t :=
  (dat.before_in_eq_fetched 1 rfl (fun _ => rfl) (fun _ _ _ => rfl) (fun t => by rw [hafter]; unfold Dat.blockOf iblk21; rw [hA]; try rfl) t d).trans
    (by unfold Dat.fetched Dat.blockOf iblk21; rw [hA]; try rfl)

/-- The whole block of 2000 rows, and the whole right operand, as rectangles. -/
abbrev r21_0 : Rect S2000x128 := Rect.unit (s := S2000x128) ![0, 0] S2000x128.size inb_S2000x128_S2000x128_0_0
abbrev r21_1 : Rect S128x128 := Rect.unit (s := S128x128) ![0, 0] S128x128.size inb_S128x128_S128x128_0_0

/-- What the body leaves in the output block: its one store, the product of the two blocks it read. -/
def out21_2 (x0 : Vec F S2000x128 .f32) (x1 : Vec F S128x128 .f32) : Vec F S2000x128 .f32 :=
  View.canon [⟨r21_0, k21_pay1 (View.ld x0 r21_0) (View.ld x1 r21_1)⟩]

/-- The one store covers the output block. -/
theorem cover21_2 (p0 : Vec F S2000x128 .f32) (y : S2000x128.Idx) :
    ∃ pc ∈ ([⟨r21_0, p0⟩] : List (View.Piece (Elt F) S2000x128 .f32)), y ∈ pc.1.set :=
  View.cover_of_tiled [⟨r21_0, p0⟩] S2000x128.size (by rfl) y

set_option maxHeartbeats 1000000 in
/-- The body on whole staging memrefs, the inputs' at contents `x0`, `x1` and the output's at anything, runs to the
    continuation with the inputs' as they were and the output's at `out21_2 x0 x1`. The body also reads the output
    block before it stores over the whole of it; what it read there is not used. -/
theorem sound_kernel21 (c : Dev nD) (E : Set ℕ) (i : grid21.Coords) (arg1 : Memref sig .tc .vmem S2000x128 .f32) (harg1 : arg1.IsWhole) (arg2 : Memref sig .tc .vmem S128x128 .f32) (harg2 : arg2.IsWhole) (arg3 : Memref sig .tc .vmem S2000x128 .f32) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out21_2 x0 x1)) -∗ K ⟨⟩))
      ⊢ wp frame (wpE (defs₀ (F := F)) Variants.none c none) E (cc21__matmul_kernel i arg1 harg1 arg2 harg2 arg3 harg3) K := by
  simp only [cc21__matmul_kernel_eq_skeleton]; unfold cc21__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover21_2 _)

/-- The pipeline's proof data on core `c`: the arrays as the region finds them; after the body at point `t` each
    input's buffer at its block and the output's at the product of the two blocks; the class invariant; nothing
    owed; full shares. -/
def dat21 (c : Dev nD) : Dat τ (Elt F) Unit ℕ (UR sig nD τ) ℕ cfg21 c where
  A w := V c (Pipeline.arrRef spec21 w)
  after w t := match w with
    | ⟨0, _⟩ => iblk21 V c 0 t
    | ⟨1, _⟩ => iblk21 V c 1 t
    | ⟨2, _⟩ => out21_2 (iblk21 V c 0 t) (iblk21 V c 1 t)
  Φ _ := Pipeline.ΦA spec21 c
  q _ := fullShare
  owed _ := 0

theorem A_eq21 (c : Dev nD) (w : Fin cfg21.W) : (dat21 V c).A w = V c (Pipeline.arrRef spec21 w) := by
  dsimp only [dat21]
theorem after21_0 (c : Dev nD) (t : Fin cfg21.N) : (dat21 V c).after 0 t = iblk21 V c 0 t := by dsimp only [dat21]
theorem after21_1 (c : Dev nD) (t : Fin cfg21.N) : (dat21 V c).after 1 t = iblk21 V c 1 t := by dsimp only [dat21]
theorem after21_2 (c : Dev nD) (t : Fin cfg21.N) : (dat21 V c).after 2 t = out21_2 (iblk21 V c 0 t) (iblk21 V c 1 t) := by dsimp only [dat21]
theorem before21_0 (c : Dev nD) (t : Fin cfg21.N) (d) : (dat21 V c).before 0 t d = iblk21 V c 0 t :=
  before21_0_of V (dat21 V c) (A_eq21 V c 0) (after21_0 V c) t d
theorem before21_1 (c : Dev nD) (t : Fin cfg21.N) (d) : (dat21 V c).before 1 t d = iblk21 V c 1 t :=
  before21_1_of V (dat21 V c) (A_eq21 V c 1) (after21_1 V c) t d

/-- What the body is called with at point `t`, -/
def bodyPre21 (c : Dev nD) (t : Fin cfg21.N) : sProp 𝕄 :=
  iprop((dat21 V c).Φ t.castSucc ∗ (dat21 V c).owesAt () t.castSucc
    ∗ (∃ d, owns (c : Thread nD τ) (st21_0 t) fullShare ((dat21 V c).before 0 t d))
    ∗ (∃ d, owns (c : Thread nD τ) (st21_1 t) fullShare ((dat21 V c).before 1 t d))
    ∗ (∃ d, owns (c : Thread nD τ) (st21_2 t) fullShare ((dat21 V c).before 2 t d)))

/-- and what it returns. -/
def bodyPost21 (c : Dev nD) (t : Fin cfg21.N) : sProp 𝕄 :=
  iprop((dat21 V c).Φ t.succ ∗ (dat21 V c).owesAt () t.succ
    ∗ owns (c : Thread nD τ) (st21_0 t) fullShare ((dat21 V c).after 0 t)
    ∗ owns (c : Thread nD τ) (st21_1 t) fullShare ((dat21 V c).after 1 t)
    ∗ owns (c : Thread nD τ) (st21_2 t) fullShare ((dat21 V c).after 2 t))

/-- The body at any point: the inputs' memrefs hold their blocks, so `sound_kernel21` applies; the invariant and
    the core's dues pass through unread. -/
theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0, before21_1]
  rw [show (dat21 V c).Φ t.succ = (dat21 V c).Φ t.castSucc from rfl,
    show (dat21 V c).owesAt () t.succ = (dat21 V c).owesAt () t.castSucc from rfl,
    after21_0, after21_1, after21_2]
  iintro ⟨HΦ, Ho, ⟨%d0, H0⟩, ⟨%d1, H1⟩, ⟨%d2, H2⟩⟩
  iapply (sound_kernel21 c Set.univ (grid21.coords t) _ _ _ _ _ _ (iblk21 V c 0 t) (iblk21 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation21 (c : Dev nD) : BodyObligation (dat21 (F := F) V c) (defs₀ (F := F)) Variants.none () Set.univ := fun t => by
  rw [bigSep_W21, bigSep_W21]
  exact sound_body21 V c t

end Cert.KernelIdeal.Hand

end
-- ==== Proof.KI.Body22.lean ====
/- Region 22 of @main: the edge scaling of layer 1, block 3. The rows of h · W[1,3], h the result of block 1 of
   this layer (region 17), have been gathered along the edges (row e is the product's row at edge e's user
   index); this region multiplies row e by the edge weight w[e], 8000 edges per grid point. The pipeline has
   three windows: the gathered rows (a block of 8000 rows at point t), the matching 8000 entries of the
   600000 x 1 column of edge weights (a new block at every point) and the rows of the result. The body reads
   both input blocks, spreads the column along each row and stores the entrywise product over the whole output
   block. Stated at the contents `V` the buffers hold when the region is entered: the block each window holds
   at a point, what the body leaves in the output block as a function of the two input blocks, the body's
   triple, the pipeline's proof data and the body obligation at every point. -/
import proofs.«104107_j50560355009131_1_alg».proof.Proof.Gen.KernelIdeal.Launch
import proofs.«104107_j50560355009131_1_alg».proof.Proof.Gen.KernelIdeal.Skeleton
import proofs.«104107_j50560355009131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk22 (c : Dev nD) (w : Fin cfg22.W) (t : Fin cfg22.N) : ((cfg22.win w).xblock (cfg22.grid.coords t)).Idx → Elt F (cfg22.win w).elt :=
  ((cfg22.win w).blk t).view.read (Elt F) (V c (Pipeline.arrRef spec22 w))

/-- The gathered rows' staging buffer holds its block of 8000 rows at every point. -/
theorem before22_0_of {c : Dev nD} (dat : Dat τ (Elt F) Unit ℕ (UR sig nD τ) ℕ cfg22 c) (hA : dat.A 0 = V c (Pipeline.arrRef spec22 0))
    (hafter : ∀ t, dat.after 0 t = iblk22 V c 0 t) (t : Fin cfg22.N) (d) : dat.before 0 t d = iblk22 V c 0 t :=
  (dat.before_in_eq_fetched 0 rfl (fun _ => rfl) (fun _ _ _ => rfl) (fun t => by rw [hafter]; unfold Dat.blockOf iblk22; rw [hA]; try rfl) t d).trans
    (by unfold Dat.fetched Dat.blockOf iblk22; rw [hA]; try rfl)
/-- The edge weights' staging buffer holds the 8000 weights of the same edges at every point. -/
theorem before22_1_of {c : Dev nD} (dat : Dat τ (Elt F) Unit ℕ (UR sig nD τ) ℕ cfg22 c) (hA : dat.A 1 = V c (Pipeline.arrRef spec22 1))
    (hafter : ∀ t, dat.after 1 t = iblk22 V c 1 t) (t : Fin cfg22.N) (d) : dat.before 1 t d = iblk22 V c 1 t :=
  (dat.before_in_eq_fetched 1 rfl (fun _ => rfl) (fun _ _ _ => rfl) (fun t => by rw [hafter]; unfold Dat.blockOf iblk22; rw [hA]; try rfl) t d).trans
    (by unfold Dat.fetched Dat.blockOf iblk22; rw [hA]; try rfl)

/-- The whole block of 8000 rows, and the whole block of 8000 weights, as rectangles. -/
abbrev r22_0 : Rect S8000x128 := Rect.unit (s := S8000x128) ![0, 0] S8000x128.size inb_S8000x128_S8000x128_0_0
abbrev r22_1 : Rect S8000x1 := Rect.unit (s := S8000x1) ![0, 0] S8000x1.size inb_S8000x1_S8000x1_0_0

/-- What the body leaves in the output block: its one store, each row it read times that row's weight. -/
def out22_2 (x0 : Vec F S8000x128 .f32) (x1 : Vec F S8000x1 .f32) : Vec F S8000x128 .f32 :=
  View.canon [⟨r22_0, k22_pay1 (View.ld x0 r22_0) (View.ld x1 r22_1)⟩]

/-- The one store covers the output block. -/
theorem cover22_2 (p0 : Vec F S8000x128 .f32) (y : S8000x128.Idx) :
    ∃ pc ∈ ([⟨r22_0, p0⟩] : List (View.Piece (Elt F) S8000x128 .f32)), y ∈ pc.1.set :=
  View.cover_of_tiled [⟨r22_0, p0⟩] S8000x128.size (by rfl) y

set_option maxHeartbeats 1000000 in
/-- The body on whole staging memrefs, the inputs' at contents `x0`, `x1` and the output's at anything, runs to the
    continuation with the inputs' as they were and the output's at `out22_2 x0 x1`. -/
theorem sound_kernel22 (c : Dev nD) (E : Set ℕ) (i : grid22.Coords) (arg1 : Memref sig .tc .vmem S8000x128 .f32) (harg1 : arg1.IsWhole) (arg2 : Memref sig .tc .vmem S8000x1 .f32) (harg2 : arg2.IsWhole) (arg3 : Memref sig .tc .vmem S8000x128 .f32) (harg3 : arg3.IsWhole)
    (x0 : Vec F S8000x128 .f32) (x1 : Vec F S8000x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out22_2 x0 x1)) -∗ K ⟨⟩))
      ⊢ wp frame (wpE (defs₀ (F := F)) Variants.none c none) E (cc22__scale_kernel i arg1 harg1 arg2 harg2 arg3 harg3) K := by
  simp only [cc22__scale_kernel_eq_skeleton]; unfold cc22__scale_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover22_2 _)

/-- The pipeline's proof data on core `c`: the arrays as the region finds them; after the body at point `t` each
    input's buffer at its block and the output's at the rows of the first block scaled by the weights of the
    second; the class invariant; nothing owed; full shares. -/
def dat22 (c : Dev nD) : Dat τ (Elt F) Unit ℕ (UR sig nD τ) ℕ cfg22 c where
  A w := V c (Pipeline.arrRef spec22 w)
  after w t := match w with
    | ⟨0, _⟩ => iblk22 V c 0 t
    | ⟨1, _⟩ => iblk22 V c 1 t
    | ⟨2, _⟩ => out22_2 (iblk22 V c 0 t) (iblk22 V c 1 t)
  Φ _ := Pipeline.ΦA spec22 c
  q _ := fullShare
  owed _ := 0

theorem A_eq22 (c : Dev nD) (w : Fin cfg22.W) : (dat22 V c).A w = V c (Pipeline.arrRef spec22 w) := by
  dsimp only [dat22]
theorem after22_0 (c : Dev nD) (t : Fin cfg22.N) : (dat22 V c).after 0 t = iblk22 V c 0 t := by dsimp only [dat22]
theorem after22_1 (c : Dev nD) (t : Fin cfg22.N) : (dat22 V c).after 1 t = iblk22 V c 1 t := by dsimp only [dat22]
theorem after22_2 (c : Dev nD) (t : Fin cfg22.N) : (dat22 V c).after 2 t = out22_2 (iblk22 V c 0 t) (iblk22 V c 1 t) := by dsimp only [dat22]
theorem before22_0 (c : Dev nD) (t : Fin cfg22.N) (d) : (dat22 V c).before 0 t d = iblk22 V c 0 t :=
  before22_0_of V (dat22 V c) (A_eq22 V c 0) (after22_0 V c) t d
theorem before22_1 (c : Dev nD) (t : Fin cfg22.N) (d) : (dat22 V c).before 1 t d = iblk22 V c 1 t :=
  before22_1_of V (dat22 V c) (A_eq22 V c 1) (after22_1 V c) t d

/-- What the body is called with at point `t`, -/
def bodyPre22 (c : Dev nD) (t : Fin cfg22.N) : sProp 𝕄 :=
  iprop((dat22 V c).Φ t.castSucc ∗ (dat22 V c).owesAt () t.castSucc
    ∗ (∃ d, owns (c : Thread nD τ) (st22_0 t) fullShare ((dat22 V c).before 0 t d))
    ∗ (∃ d, owns (c : Thread nD τ) (st22_1 t) fullShare ((dat22 V c).before 1 t d))
    ∗ (∃ d, owns (c : Thread nD τ) (st22_2 t) fullShare ((dat22 V c).before 2 t d)))

/-- and what it returns. -/
def bodyPost22 (c : Dev nD) (t : Fin cfg22.N) : sProp 𝕄 :=
  iprop((dat22 V c).Φ t.succ ∗ (dat22 V c).owesAt () t.succ
    ∗ owns (c : Thread nD τ) (st22_0 t) fullShare ((dat22 V c).after 0 t)
    ∗ owns (c : Thread nD τ) (st22_1 t) fullShare ((dat22 V c).after 1 t)
    ∗ owns (c : Thread nD τ) (st22_2 t) fullShare ((dat22 V c).after 2 t))

/-- The body at any point: the inputs' memrefs hold their blocks, so `sound_kernel22` applies; the invariant and
    the core's dues pass through unread. -/
theorem sound_body22 (c : Dev nD) (t : Fin cfg22.N) :
    bodyPre22 V c t ⊢ wp frame (wpE (defs₀ (F := F)) Variants.none c none) Set.univ (bodyAt22 t) (fun _ => bodyPost22 V c t) := by
  unfold bodyPre22 bodyPost22 bodyAt22
  simp only [before22_0, before22_1]
  rw [show (dat22 V c).Φ t.succ = (dat22 V c).Φ t.castSucc from rfl,
    show (dat22 V c).owesAt () t.succ = (dat22 V c).owesAt () t.castSucc from rfl,
    after22_0, after22_1, after22_2]
  iintro ⟨HΦ, Ho, ⟨%d0, H0⟩, ⟨%d1, H1⟩, ⟨%d2, H2⟩⟩
  iapply (sound_kernel22 c Set.univ (grid22.coords t) _ _ _ _ _ _ (iblk22 V c 0 t) (iblk22 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation22 (c : Dev nD) : BodyObligation (dat22 (F := F) V c) (defs₀ (F := F)) Variants.none () Set.univ := fun t => by
  rw [bigSep_W22, bigSep_W22]
  exact sound_body22 V c t

end Cert.KernelIdeal.Hand

end
-- ==== Proof.KI.Body23.lean ====
/- Region 23 of @main: one row block of relu(s + b[1,3]) per grid point, s the 50000 rows of segment sums of the
   scaled gathered rows of item_ho · W[1,3] (25 blocks of 2000) and b[1,3] the 128 biases of layer 1, block 3; the
   result is the v that layer 1 ends with.
   The pipeline has three windows: the rows of s (a block of 2000 rows at point t), the one-row bias (the same
   1 x 128 block at every point, fetched once) and the rows of the result. The body reads both input blocks, adds
   the bias row to every row of the block, takes the maximum with zero entrywise and stores that over the whole
   output block. Stated at the contents `V` the buffers hold when the region is entered: the block each window
   holds at a point, what the body leaves in the output block as a function of the two input blocks, the body's
   triple, the pipeline's proof data and the body obligation at every point. -/
import proofs.«104107_j50560355009131_1_alg».proof.Proof.Gen.KernelIdeal.Launch
import proofs.«104107_j50560355009131_1_alg».proof.Proof.Gen.KernelIdeal.Skeleton
import proofs.«104107_j50560355009131_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk23 (c : Dev nD) (w : Fin cfg23.W) (t : Fin cfg23.N) : ((cfg23.win w).xblock (cfg23.grid.coords t)).Idx → Elt F (cfg23.win w).elt :=
  ((cfg23.win w).blk t).view.read (Elt F) (V c (Pipeline.arrRef spec23 w))

/-- The staging buffer of the rows holds its block of 2000 rows of segment sums at every point. -/
theorem before23_0_of {c : Dev nD} (dat : Dat τ (Elt F) Unit ℕ (UR sig nD τ) ℕ cfg23 c) (hA : dat.A 0 = V c (Pipeline.arrRef spec23 0))
    (hafter : ∀ t, dat.after 0 t = iblk23 V c 0 t) (t : Fin cfg23.N) (d) : dat.before 0 t d = iblk23 V c 0 t :=
  (dat.before_in_eq_fetched 0 rfl (fun _ => rfl) (fun _ _ _ => rfl) (fun t => by rw [hafter]; unfold Dat.blockOf iblk23; rw [hA]; try rfl) t d).trans
    (by unfold Dat.fetched Dat.blockOf iblk23; rw [hA]; try rfl)
/-- The bias's staging buffer holds the whole row b[1,3] at every point, fetched there or not (its block index
    never moves). -/
theorem before23_1_of {c : Dev nD} (dat : Dat τ (Elt F) Unit ℕ (UR sig nD τ) ℕ cfg23 c) (hA : dat.A 1 = V c (Pipeline.arrRef spec23 1))
    (hafter : ∀ t, dat.after 1 t = iblk23 V c 1 t) (t : Fin cfg23.N) (d) : dat.before 1 t d = iblk23 V c 1 t :=
  (dat.before_in_eq_fetched 1 rfl (fun _ => rfl) (fun _ _ _ => rfl) (fun t => by rw [hafter]; unfold Dat.blockOf iblk23; rw [hA]; try rfl) t d).trans
    (by unfold Dat.fetched Dat.blockOf iblk23; rw [hA]; try rfl)

/-- The whole block of 2000 rows, and the whole one-row bias, as rectangles. -/
abbrev r23_0 : Rect S2000x128 := Rect.unit (s := S2000x128) ![0, 0] S2000x128.size inb_S2000x128_S2000x128_0_0
abbrev r23_1 : Rect S1x128 := Rect.unit (s := S1x128) ![0, 0] S1x128.size inb_S1x128_S1x128_0_0

/-- What the body leaves in the output block: its one store, the rows it read plus the bias row, cut off below at
    zero. -/
def out23_2 (x0 : Vec F S2000x128 .f32) (x1 : Vec F S1x128 .f32) : Vec F S2000x128 .f32 :=
  View.canon [⟨r23_0, k23_pay1 (View.ld x0 r23_0) (View.ld x1 r23_1)⟩]

/-- The one store covers the output block. -/
theorem cover23_2 (p0 : Vec F S2000x128 .f32) (y : S2000x128.Idx) :
    ∃ pc ∈ ([⟨r23_0, p0⟩] : List (View.Piece (Elt F) S2000x128 .f32)), y ∈ pc.1.set :=
  View.cover_of_tiled [⟨r23_0, p0⟩] S2000x128.size (by rfl) y

set_option maxHeartbeats 1000000 in
/-- The body on whole staging memrefs, the inputs' at contents `x0`, `x1` and the output's at anything, runs to the
    continuation with the inputs' as they were and the output's at `out23_2 x0 x1`. The body also reads the output
    block before it stores over the whole of it; what it read there is not used. -/
theorem sound_kernel23 (c : Dev nD) (E : Set ℕ) (i : grid23.Coords) (arg1 : Memref sig .tc .vmem S2000x128 .f32) (harg1 : arg1.IsWhole) (arg2 : Memref sig .tc .vmem S1x128 .f32) (harg2 : arg2.IsWhole) (arg3 : Memref sig .tc .vmem S2000x128 .f32) (harg3 : arg3.IsWhole)
    (x0 : Vec F S2000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out23_2 x0 x1)) -∗ K ⟨⟩))
      ⊢ wp frame (wpE (defs₀ (F := F)) Variants.none c none) E (cc23__bias_act_kernel i arg1 harg1 arg2 harg2 arg3 harg3) K := by
  simp only [cc23__bias_act_kernel_eq_skeleton]; unfold cc23__bias_act_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover23_2 _)

/-- The pipeline's proof data on core `c`: the arrays as the region finds them; after the body at point `t` each
    input's buffer at its block and the output's at the rows plus the bias row, cut off below at zero; the class
    invariant; nothing owed; full shares. -/
def dat23 (c : Dev nD) : Dat τ (Elt F) Unit ℕ (UR sig nD τ) ℕ cfg23 c where
  A w := V c (Pipeline.arrRef spec23 w)
  after w t := match w with
    | ⟨0, _⟩ => iblk23 V c 0 t
    | ⟨1, _⟩ => iblk23 V c 1 t
    | ⟨2, _⟩ => out23_2 (iblk23 V c 0 t) (iblk23 V c 1 t)
  Φ _ := Pipeline.ΦA spec23 c
  q _ := fullShare
  owed _ := 0

theorem A_eq23 (c : Dev nD) (w : Fin cfg23.W) : (dat23 V c).A w = V c (Pipeline.arrRef spec23 w) := by
  dsimp only [dat23]
theorem after23_0 (c : Dev nD) (t : Fin cfg23.N) : (dat23 V c).after 0 t = iblk23 V c 0 t := by dsimp only [dat23]
theorem after23_1 (c : Dev nD) (t : Fin cfg23.N) : (dat23 V c).after 1 t = iblk23 V c 1 t := by dsimp only [dat23]
theorem after23_2 (c : Dev nD) (t : Fin cfg23.N) : (dat23 V c).after 2 t = out23_2 (iblk23 V c 0 t) (iblk23 V c 1 t) := by dsimp only [dat23]
theorem before23_0 (c : Dev nD) (t : Fin cfg23.N) (d) : (dat23 V c).before 0 t d = iblk23 V c 0 t :=
  before23_0_of V (dat23 V c) (A_eq23 V c 0) (after23_0 V c) t d
theorem before23_1 (c : Dev nD) (t : Fin cfg23.N) (d) : (dat23 V c).before 1 t d = iblk23 V c 1 t :=
  before23_1_of V (dat23 V c) (A_eq23 V c 1) (after23_1 V c) t d

/-- What the body is called with at point `t`, -/
def bodyPre23 (c : Dev nD) (t : Fin cfg23.N) : sProp 𝕄 :=
  iprop((dat23 V c).Φ t.castSucc ∗ (dat23 V c).owesAt () t.castSucc
    ∗ (∃ d, owns (c : Thread nD τ) (st23_0 t) fullShare ((dat23 V c).before 0 t d))
    ∗ (∃ d, owns (c : Thread nD τ) (st23_1 t) fullShare ((dat23 V c).before 1 t d))
    ∗ (∃ d, owns (c : Thread nD τ) (st23_2 t) fullShare ((dat23 V c).before 2 t d)))

/-- and what it returns. -/
def bodyPost23 (c : Dev nD) (t : Fin cfg23.N) : sProp 𝕄 :=
  iprop((dat23 V c).Φ t.succ ∗ (dat23 V c).owesAt () t.succ
    ∗ owns (c : Thread nD τ) (st23_0 t) fullShare ((dat23 V c).after 0 t)
    ∗ owns (c : Thread nD τ) (st23_1 t) fullShare ((dat23 V c).after 1 t)
    ∗ owns (c : Thread nD τ) (st23_2 t) fullShare ((dat23 V c).after 2 t))

/-- The body at any point: the inputs' memrefs hold their blocks, so `sound_kernel23` applies; the invariant and
    the core's dues pass through unread. -/
theorem sound_body23 (c : Dev nD) (t : Fin cfg23.N) :
    bodyPre23 V c t ⊢ wp frame (wpE (defs₀ (F := F)) Variants.none c none) Set.univ (bodyAt23 t) (fun _ => bodyPost23 V c t) := by
  unfold bodyPre23 bodyPost23 bodyAt23
  simp only [before23_0, before23_1]
  rw [show (dat23 V c).Φ t.succ = (dat23 V c).Φ t.castSucc from rfl,
    show (dat23 V c).owesAt () t.succ = (dat23 V c).owesAt () t.castSucc from rfl,
    after23_0, after23_1, after23_2]
  iintro ⟨HΦ, Ho, ⟨%d0, H0⟩, ⟨%d1, H1⟩, ⟨%d2, H2⟩⟩
  iapply (sound_kernel23 c Set.univ (grid23.coords t) _ _ _ _ _ _ (iblk23 V c 0 t) (iblk23 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation23 (c : Dev nD) : BodyObligation (dat23 (F := F) V c) (defs₀ (F := F)) Variants.none () Set.univ := fun t => by
  rw [bigSep_W23, bigSep_W23]
  exact sound_body23 V c t

end Cert.KernelIdeal.Hand

end
-- ==== Proof.KI.Fold.lean ====
/- The contents of the buffers between the items of @main, for all 24 regions.
   @main is 49 items: host stretch 0, region 0, host stretch 1, …, region 23, host stretch 24. `W j c` is what core
   `c`'s unscoped buffers hold after item j-1 (W0: the launch memory): a host stretch applies its operations; region K
   changes ONE array, its output window's, to what the pipeline's write-backs leave there — the proof data's
   `arrAt 2 N` at the contents the region was entered from — and nothing else. `outs` names those region outputs in the
   form the conditional frame is stated over, and `V_j_eq` identifies its valuations with `W j`, item by item. -/
import proofs.«104107_j50560355009131_1_alg».proof.Proof.KernelIdealRegions
import proofs.«104107_j50560355009131_1_alg».proof.Proof.KI.Body0
import proofs.«104107_j50560355009131_1_alg».proof.Proof.KI.Body1
import proofs.«104107_j50560355009131_1_alg».proof.Proof.KI.Body2
import proofs.«104107_j50560355009131_1_alg».proof.Proof.KI.Body3
import proofs.«104107_j50560355009131_1_alg».proof.Proof.KI.Body4
import proofs.«104107_j50560355009131_1_alg».proof.Proof.KI.Body5
import proofs.«104107_j50560355009131_1_alg».proof.Proof.KI.Body6
import proofs.«104107_j50560355009131_1_alg».proof.Proof.KI.Body7
import proofs.«104107_j50560355009131_1_alg».proof.Proof.KI.Body8
import proofs.«104107_j50560355009131_1_alg».proof.Proof.KI.Body9
import proofs.«104107_j50560355009131_1_alg».proof.Proof.KI.Body10
import proofs.«104107_j50560355009131_1_alg».proof.Proof.KI.Body11
import proofs.«104107_j50560355009131_1_alg».proof.Proof.KI.Body12
import proofs.«104107_j50560355009131_1_alg».proof.Proof.KI.Body13
import proofs.«104107_j50560355009131_1_alg».proof.Proof.KI.Body14
import proofs.«104107_j50560355009131_1_alg».proof.Proof.KI.Body15
import proofs.«104107_j50560355009131_1_alg».proof.Proof.KI.Body16
import proofs.«104107_j50560355009131_1_alg».proof.Proof.KI.Body17
import proofs.«104107_j50560355009131_1_alg».proof.Proof.KI.Body18
import proofs.«104107_j50560355009131_1_alg».proof.Proof.KI.Body19
import proofs.«104107_j50560355009131_1_alg».proof.Proof.KI.Body20
import proofs.«104107_j50560355009131_1_alg».proof.Proof.KI.Body21
import proofs.«104107_j50560355009131_1_alg».proof.Proof.KI.Body22
import proofs.«104107_j50560355009131_1_alg».proof.Proof.KI.Body23

set_option maxRecDepth 16384

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]

variable (m : (ℓ : Loc nD τ sig) → Buf (Elt F) ℓ)

/-- A core's buffers read at the TensorCore's references. -/
abbrev TcVal (F : FTy → Type) [FloatOps F] : Type := (c : Dev nD) → (b : Ref sig .tc) → Buf (Elt F) ((c : Thread nD τ).loc b)

abbrev W0 (c : Dev nD) : Valuation τ sig (Elt F) := fun b => m (c, b)

/-! ## Layer 1, block 0: regions 0, 1, 2 -/
abbrev W1 (c : Dev nD) : Valuation τ sig (Elt F) := StableHlo.after hostOps0 (W0 m c)
abbrev U1 : TcVal F := fun c b => W1 m c b
def W2 (c : Dev nD) : Valuation τ sig (Elt F) := Function.update (W1 m c) main_v2 ((dat0 (U1 m) c).arrAt 2 cfg0.N)
abbrev U2 : TcVal F := fun c b => W2 m c b
abbrev W3 (c : Dev nD) : Valuation τ sig (Elt F) := StableHlo.after hostOps1 (W2 m c)
abbrev U3 : TcVal F := fun c b => W3 m c b
def W4 (c : Dev nD) : Valuation τ sig (Elt F) := Function.update (W3 m c) main_v11 ((dat1 (U3 m) c).arrAt 2 cfg1.N)
abbrev U4 : TcVal F := fun c b => W4 m c b
abbrev W5 (c : Dev nD) : Valuation τ sig (Elt F) := StableHlo.after hostOps2 (W4 m c)
abbrev U5 : TcVal F := fun c b => W5 m c b
def W6 (c : Dev nD) : Valuation τ sig (Elt F) := Function.update (W5 m c) main_v18 ((dat2 (U5 m) c).arrAt 2 cfg2.N)
abbrev U6 : TcVal F := fun c b => W6 m c b
/-! ## Layer 1, block 1: regions 3, 4, 5 -/
abbrev W7 (c : Dev nD) : Valuation τ sig (Elt F) := StableHlo.after hostOps3 (W6 m c)
abbrev U7 : TcVal F := fun c b => W7 m c b
def W8 (c : Dev nD) : Valuation τ sig (Elt F) := Function.update (W7 m c) main_v21 ((dat3 (U7 m) c).arrAt 2 cfg3.N)
abbrev U8 : TcVal F := fun c b => W8 m c b
abbrev W9 (c : Dev nD) : Valuation τ sig (Elt F) := StableHlo.after hostOps4 (W8 m c)
abbrev U9 : TcVal F := fun c b => W9 m c b
def W10 (c : Dev nD) : Valuation τ sig (Elt F) := Function.update (W9 m c) main_v30 ((dat4 (U9 m) c).arrAt 2 cfg4.N)
abbrev U10 : TcVal F := fun c b => W10 m c b
abbrev W11 (c : Dev nD) : Valuation τ sig (Elt F) := StableHlo.after hostOps5 (W10 m c)
abbrev U11 : TcVal F := fun c b => W11 m c b
def W12 (c : Dev nD) : Valuation τ sig (Elt F) := Function.update (W11 m c) main_v37 ((dat5 (U11 m) c).arrAt 2 cfg5.N)
abbrev U12 : TcVal F := fun c b => W12 m c b
/-! ## Layer 1, block 2: regions 6, 7, 8 -/
abbrev W13 (c : Dev nD) : Valuation τ sig (Elt F) := StableHlo.after hostOps6 (W12 m c)
abbrev U13 : TcVal F := fun c b => W13 m c b
def W14 (c : Dev nD) : Valuation τ sig (Elt F) := Function.update (W13 m c) main_v40 ((dat6 (U13 m) c).arrAt 2 cfg6.N)
abbrev U14 : TcVal F := fun c b => W14 m c b
abbrev W15 (c : Dev nD) : Valuation τ sig (Elt F) := StableHlo.after hostOps7 (W14 m c)
abbrev U15 : TcVal F := fun c b => W15 m c b
def W16 (c : Dev nD) : Valuation τ sig (Elt F) := Function.update (W15 m c) main_v49 ((dat7 (U15 m) c).arrAt 2 cfg7.N)
abbrev U16 : TcVal F := fun c b => W16 m c b
abbrev W17 (c : Dev nD) : Valuation τ sig (Elt F) := StableHlo.after hostOps8 (W16 m c)
abbrev U17 : TcVal F := fun c b => W17 m c b
def W18 (c : Dev nD) : Valuation τ sig (Elt F) := Function.update (W17 m c) main_v56 ((dat8 (U17 m) c).arrAt 2 cfg8.N)
abbrev U18 : TcVal F := fun c b => W18 m c b
/-! ## Layer 1, block 3: regions 9, 10, 11 -/
abbrev W19 (c : Dev nD) : Valuation τ sig (Elt F) := StableHlo.after hostOps9 (W18 m c)
abbrev U19 : TcVal F := fun c b => W19 m c b
def W20 (c : Dev nD) : Valuation τ sig (Elt F) := Function.update (W19 m c) main_v59 ((dat9 (U19 m) c).arrAt 2 cfg9.N)
abbrev U20 : TcVal F := fun c b => W20 m c b
abbrev W21 (c : Dev nD) : Valuation τ sig (Elt F) := StableHlo.after hostOps10 (W20 m c)
abbrev U21 : TcVal F := fun c b => W21 m c b
def W22 (c : Dev nD) : Valuation τ sig (Elt F) := Function.update (W21 m c) main_v68 ((dat10 (U21 m) c).arrAt 2 cfg10.N)
abbrev U22 : TcVal F := fun c b => W22 m c b
abbrev W23 (c : Dev nD) : Valuation τ sig (Elt F) := StableHlo.after hostOps11 (W22 m c)
abbrev U23 : TcVal F := fun c b => W23 m c b
def W24 (c : Dev nD) : Valuation τ sig (Elt F) := Function.update (W23 m c) main_v75 ((dat11 (U23 m) c).arrAt 2 cfg11.N)
abbrev U24 : TcVal F := fun c b => W24 m c b
/-! ## Layer 2, block 0: regions 12, 13, 14 -/
abbrev W25 (c : Dev nD) : Valuation τ sig (Elt F) := StableHlo.after hostOps12 (W24 m c)
abbrev U25 : TcVal F := fun c b => W25 m c b
def W26 (c : Dev nD) : Valuation τ sig (Elt F) := Function.update (W25 m c) main_v78 ((dat12 (U25 m) c).arrAt 2 cfg12.N)
abbrev U26 : TcVal F := fun c b => W26 m c b
abbrev W27 (c : Dev nD) : Valuation τ sig (Elt F) := StableHlo.after hostOps13 (W26 m c)
abbrev U27 : TcVal F := fun c b => W27 m c b
def W28 (c : Dev nD) : Valuation τ sig (Elt F) := Function.update (W27 m c) main_v87 ((dat13 (U27 m) c).arrAt 2 cfg13.N)
abbrev U28 : TcVal F := fun c b => W28 m c b
abbrev W29 (c : Dev nD) : Valuation τ sig (Elt F) := StableHlo.after hostOps14 (W28 m c)
abbrev U29 : TcVal F := fun c b => W29 m c b
def W30 (c : Dev nD) : Valuation τ sig (Elt F) := Function.update (W29 m c) main_v94 ((dat14 (U29 m) c).arrAt 2 cfg14.N)
abbrev U30 : TcVal F := fun c b => W30 m c b
/-! ## Layer 2, block 1: regions 15, 16, 17 -/
abbrev W31 (c : Dev nD) : Valuation τ sig (Elt F) := StableHlo.after hostOps15 (W30 m c)
abbrev U31 : TcVal F := fun c b => W31 m c b
def W32 (c : Dev nD) : Valuation τ sig (Elt F) := Function.update (W31 m c) main_v97 ((dat15 (U31 m) c).arrAt 2 cfg15.N)
abbrev U32 : TcVal F := fun c b => W32 m c b
abbrev W33 (c : Dev nD) : Valuation τ sig (Elt F) := StableHlo.after hostOps16 (W32 m c)
abbrev U33 : TcVal F := fun c b => W33 m c b
def W34 (c : Dev nD) : Valuation τ sig (Elt F) := Function.update (W33 m c) main_v106 ((dat16 (U33 m) c).arrAt 2 cfg16.N)
abbrev U34 : TcVal F := fun c b => W34 m c b
abbrev W35 (c : Dev nD) : Valuation τ sig (Elt F) := StableHlo.after hostOps17 (W34 m c)
abbrev U35 : TcVal F := fun c b => W35 m c b
def W36 (c : Dev nD) : Valuation τ sig (Elt F) := Function.update (W35 m c) main_v113 ((dat17 (U35 m) c).arrAt 2 cfg17.N)
abbrev U36 : TcVal F := fun c b => W36 m c b
/-! ## Layer 2, block 2: regions 18, 19, 20 -/
abbrev W37 (c : Dev nD) : Valuation τ sig (Elt F) := StableHlo.after hostOps18 (W36 m c)
abbrev U37 : TcVal F := fun c b => W37 m c b
def W38 (c : Dev nD) : Valuation τ sig (Elt F) := Function.update (W37 m c) main_v116 ((dat18 (U37 m) c).arrAt 2 cfg18.N)
abbrev U38 : TcVal F := fun c b => W38 m c b
abbrev W39 (c : Dev nD) : Valuation τ sig (Elt F) := StableHlo.after hostOps19 (W38 m c)
abbrev U39 : TcVal F := fun c b => W39 m c b
def W40 (c : Dev nD) : Valuation τ sig (Elt F) := Function.update (W39 m c) main_v125 ((dat19 (U39 m) c).arrAt 2 cfg19.N)
abbrev U40 : TcVal F := fun c b => W40 m c b
abbrev W41 (c : Dev nD) : Valuation τ sig (Elt F) := StableHlo.after hostOps20 (W40 m c)
abbrev U41 : TcVal F := fun c b => W41 m c b
def W42 (c : Dev nD) : Valuation τ sig (Elt F) := Function.update (W41 m c) main_v132 ((dat20 (U41 m) c).arrAt 2 cfg20.N)
abbrev U42 : TcVal F := fun c b => W42 m c b
/-! ## Layer 2, block 3: regions 21, 22, 23, and the last stretch -/
abbrev W43 (c : Dev nD) : Valuation τ sig (Elt F) := StableHlo.after hostOps21 (W42 m c)
abbrev U43 : TcVal F := fun c b => W43 m c b
def W44 (c : Dev nD) : Valuation τ sig (Elt F) := Function.update (W43 m c) main_v135 ((dat21 (U43 m) c).arrAt 2 cfg21.N)
abbrev U44 : TcVal F := fun c b => W44 m c b
abbrev W45 (c : Dev nD) : Valuation τ sig (Elt F) := StableHlo.after hostOps22 (W44 m c)
abbrev U45 : TcVal F := fun c b => W45 m c b
def W46 (c : Dev nD) : Valuation τ sig (Elt F) := Function.update (W45 m c) main_v144 ((dat22 (U45 m) c).arrAt 2 cfg22.N)
abbrev U46 : TcVal F := fun c b => W46 m c b
abbrev W47 (c : Dev nD) : Valuation τ sig (Elt F) := StableHlo.after hostOps23 (W46 m c)
abbrev U47 : TcVal F := fun c b => W47 m c b
def W48 (c : Dev nD) : Valuation τ sig (Elt F) := Function.update (W47 m c) main_v151 ((dat23 (U47 m) c).arrAt 2 cfg23.N)
abbrev U48 : TcVal F := fun c b => W48 m c b
abbrev W49 (c : Dev nD) : Valuation τ sig (Elt F) := StableHlo.after hostOps24 (W48 m c)

/-! ## A region changes its output array, and nothing else -/

theorem W2_self (c : Dev nD) : W2 m c main_v2 = (dat0 (U1 m) c).arrAt 2 cfg0.N := by unfold W2; exact Function.update_self ..
theorem W2_of_ne (c : Dev nD) (b : Ref sig .tc) (h : b ≠ main_v2) : W2 m c b = W1 m c b := by unfold W2; exact Function.update_of_ne (StableHlo.devRef_ne_of_ne h) ..
theorem W4_self (c : Dev nD) : W4 m c main_v11 = (dat1 (U3 m) c).arrAt 2 cfg1.N := by unfold W4; exact Function.update_self ..
theorem W4_of_ne (c : Dev nD) (b : Ref sig .tc) (h : b ≠ main_v11) : W4 m c b = W3 m c b := by unfold W4; exact Function.update_of_ne (StableHlo.devRef_ne_of_ne h) ..
theorem W6_self (c : Dev nD) : W6 m c main_v18 = (dat2 (U5 m) c).arrAt 2 cfg2.N := by unfold W6; exact Function.update_self ..
theorem W6_of_ne (c : Dev nD) (b : Ref sig .tc) (h : b ≠ main_v18) : W6 m c b = W5 m c b := by unfold W6; exact Function.update_of_ne (StableHlo.devRef_ne_of_ne h) ..
theorem W8_self (c : Dev nD) : W8 m c main_v21 = (dat3 (U7 m) c).arrAt 2 cfg3.N := by unfold W8; exact Function.update_self ..
theorem W8_of_ne (c : Dev nD) (b : Ref sig .tc) (h : b ≠ main_v21) : W8 m c b = W7 m c b := by unfold W8; exact Function.update_of_ne (StableHlo.devRef_ne_of_ne h) ..
theorem W10_self (c : Dev nD) : W10 m c main_v30 = (dat4 (U9 m) c).arrAt 2 cfg4.N := by unfold W10; exact Function.update_self ..
theorem W10_of_ne (c : Dev nD) (b : Ref sig .tc) (h : b ≠ main_v30) : W10 m c b = W9 m c b := by unfold W10; exact Function.update_of_ne (StableHlo.devRef_ne_of_ne h) ..
theorem W12_self (c : Dev nD) : W12 m c main_v37 = (dat5 (U11 m) c).arrAt 2 cfg5.N := by unfold W12; exact Function.update_self ..
theorem W12_of_ne (c : Dev nD) (b : Ref sig .tc) (h : b ≠ main_v37) : W12 m c b = W11 m c b := by unfold W12; exact Function.update_of_ne (StableHlo.devRef_ne_of_ne h) ..
theorem W14_self (c : Dev nD) : W14 m c main_v40 = (dat6 (U13 m) c).arrAt 2 cfg6.N := by unfold W14; exact Function.update_self ..
theorem W14_of_ne (c : Dev nD) (b : Ref sig .tc) (h : b ≠ main_v40) : W14 m c b = W13 m c b := by unfold W14; exact Function.update_of_ne (StableHlo.devRef_ne_of_ne h) ..
theorem W16_self (c : Dev nD) : W16 m c main_v49 = (dat7 (U15 m) c).arrAt 2 cfg7.N := by unfold W16; exact Function.update_self ..
theorem W16_of_ne (c : Dev nD) (b : Ref sig .tc) (h : b ≠ main_v49) : W16 m c b = W15 m c b := by unfold W16; exact Function.update_of_ne (StableHlo.devRef_ne_of_ne h) ..
theorem W18_self (c : Dev nD) : W18 m c main_v56 = (dat8 (U17 m) c).arrAt 2 cfg8.N := by unfold W18; exact Function.update_self ..
theorem W18_of_ne (c : Dev nD) (b : Ref sig .tc) (h : b ≠ main_v56) : W18 m c b = W17 m c b := by unfold W18; exact Function.update_of_ne (StableHlo.devRef_ne_of_ne h) ..
theorem W20_self (c : Dev nD) : W20 m c main_v59 = (dat9 (U19 m) c).arrAt 2 cfg9.N := by unfold W20; exact Function.update_self ..
theorem W20_of_ne (c : Dev nD) (b : Ref sig .tc) (h : b ≠ main_v59) : W20 m c b = W19 m c b := by unfold W20; exact Function.update_of_ne (StableHlo.devRef_ne_of_ne h) ..
theorem W22_self (c : Dev nD) : W22 m c main_v68 = (dat10 (U21 m) c).arrAt 2 cfg10.N := by unfold W22; exact Function.update_self ..
theorem W22_of_ne (c : Dev nD) (b : Ref sig .tc) (h : b ≠ main_v68) : W22 m c b = W21 m c b := by unfold W22; exact Function.update_of_ne (StableHlo.devRef_ne_of_ne h) ..
theorem W24_self (c : Dev nD) : W24 m c main_v75 = (dat11 (U23 m) c).arrAt 2 cfg11.N := by unfold W24; exact Function.update_self ..
theorem W24_of_ne (c : Dev nD) (b : Ref sig .tc) (h : b ≠ main_v75) : W24 m c b = W23 m c b := by unfold W24; exact Function.update_of_ne (StableHlo.devRef_ne_of_ne h) ..
theorem W26_self (c : Dev nD) : W26 m c main_v78 = (dat12 (U25 m) c).arrAt 2 cfg12.N := by unfold W26; exact Function.update_self ..
theorem W26_of_ne (c : Dev nD) (b : Ref sig .tc) (h : b ≠ main_v78) : W26 m c b = W25 m c b := by unfold W26; exact Function.update_of_ne (StableHlo.devRef_ne_of_ne h) ..
theorem W28_self (c : Dev nD) : W28 m c main_v87 = (dat13 (U27 m) c).arrAt 2 cfg13.N := by unfold W28; exact Function.update_self ..
theorem W28_of_ne (c : Dev nD) (b : Ref sig .tc) (h : b ≠ main_v87) : W28 m c b = W27 m c b := by unfold W28; exact Function.update_of_ne (StableHlo.devRef_ne_of_ne h) ..
theorem W30_self (c : Dev nD) : W30 m c main_v94 = (dat14 (U29 m) c).arrAt 2 cfg14.N := by unfold W30; exact Function.update_self ..
theorem W30_of_ne (c : Dev nD) (b : Ref sig .tc) (h : b ≠ main_v94) : W30 m c b = W29 m c b := by unfold W30; exact Function.update_of_ne (StableHlo.devRef_ne_of_ne h) ..
theorem W32_self (c : Dev nD) : W32 m c main_v97 = (dat15 (U31 m) c).arrAt 2 cfg15.N := by unfold W32; exact Function.update_self ..
theorem W32_of_ne (c : Dev nD) (b : Ref sig .tc) (h : b ≠ main_v97) : W32 m c b = W31 m c b := by unfold W32; exact Function.update_of_ne (StableHlo.devRef_ne_of_ne h) ..
theorem W34_self (c : Dev nD) : W34 m c main_v106 = (dat16 (U33 m) c).arrAt 2 cfg16.N := by unfold W34; exact Function.update_self ..
theorem W34_of_ne (c : Dev nD) (b : Ref sig .tc) (h : b ≠ main_v106) : W34 m c b = W33 m c b := by unfold W34; exact Function.update_of_ne (StableHlo.devRef_ne_of_ne h) ..
theorem W36_self (c : Dev nD) : W36 m c main_v113 = (dat17 (U35 m) c).arrAt 2 cfg17.N := by unfold W36; exact Function.update_self ..
theorem W36_of_ne (c : Dev nD) (b : Ref sig .tc) (h : b ≠ main_v113) : W36 m c b = W35 m c b := by unfold W36; exact Function.update_of_ne (StableHlo.devRef_ne_of_ne h) ..
theorem W38_self (c : Dev nD) : W38 m c main_v116 = (dat18 (U37 m) c).arrAt 2 cfg18.N := by unfold W38; exact Function.update_self ..
theorem W38_of_ne (c : Dev nD) (b : Ref sig .tc) (h : b ≠ main_v116) : W38 m c b = W37 m c b := by unfold W38; exact Function.update_of_ne (StableHlo.devRef_ne_of_ne h) ..
theorem W40_self (c : Dev nD) : W40 m c main_v125 = (dat19 (U39 m) c).arrAt 2 cfg19.N := by unfold W40; exact Function.update_self ..
theorem W40_of_ne (c : Dev nD) (b : Ref sig .tc) (h : b ≠ main_v125) : W40 m c b = W39 m c b := by unfold W40; exact Function.update_of_ne (StableHlo.devRef_ne_of_ne h) ..
theorem W42_self (c : Dev nD) : W42 m c main_v132 = (dat20 (U41 m) c).arrAt 2 cfg20.N := by unfold W42; exact Function.update_self ..
theorem W42_of_ne (c : Dev nD) (b : Ref sig .tc) (h : b ≠ main_v132) : W42 m c b = W41 m c b := by unfold W42; exact Function.update_of_ne (StableHlo.devRef_ne_of_ne h) ..
theorem W44_self (c : Dev nD) : W44 m c main_v135 = (dat21 (U43 m) c).arrAt 2 cfg21.N := by unfold W44; exact Function.update_self ..
theorem W44_of_ne (c : Dev nD) (b : Ref sig .tc) (h : b ≠ main_v135) : W44 m c b = W43 m c b := by unfold W44; exact Function.update_of_ne (StableHlo.devRef_ne_of_ne h) ..
theorem W46_self (c : Dev nD) : W46 m c main_v144 = (dat22 (U45 m) c).arrAt 2 cfg22.N := by unfold W46; exact Function.update_self ..
theorem W46_of_ne (c : Dev nD) (b : Ref sig .tc) (h : b ≠ main_v144) : W46 m c b = W45 m c b := by unfold W46; exact Function.update_of_ne (StableHlo.devRef_ne_of_ne h) ..
theorem W48_self (c : Dev nD) : W48 m c main_v151 = (dat23 (U47 m) c).arrAt 2 cfg23.N := by unfold W48; exact Function.update_self ..
theorem W48_of_ne (c : Dev nD) (b : Ref sig .tc) (h : b ≠ main_v151) : W48 m c b = W47 m c b := by unfold W48; exact Function.update_of_ne (StableHlo.devRef_ne_of_ne h) ..

/-! ## The region outputs, as the conditional frame names them -/

/-- What is in reference `r` on core `c` after item `n - 1`; read only at the even `n` (after a region), at that
    region's output array. -/
def outs : GenP.Outs (F := F) := fun n r c =>
  match n with
  | 2 => W2 m c r | 4 => W4 m c r | 6 => W6 m c r | 8 => W8 m c r | 10 => W10 m c r | 12 => W12 m c r
  | 14 => W14 m c r | 16 => W16 m c r | 18 => W18 m c r | 20 => W20 m c r | 22 => W22 m c r | 24 => W24 m c r
  | 26 => W26 m c r | 28 => W28 m c r | 30 => W30 m c r | 32 => W32 m c r | 34 => W34 m c r | 36 => W36 m c r
  | 38 => W38 m c r | 40 => W40 m c r | 42 => W42 m c r | 44 => W44 m c r | 46 => W46 m c r | 48 => W48 m c r
  | _ => m ((c : Thread nD τ).loc r)

/-! ## The conditional frame's valuations at these outputs are the contents above, item by item -/

theorem V1_eq (c : Dev nD) : GenP.V1 m c = W1 m c := rfl
theorem V2_eq (c : Dev nD) : GenP.V2 m (outs m) c = W2 m c := by
  show Function.update (GenP.V1 m c) main_v2 (W2 m c main_v2) = W2 m c
  rw [V1_eq, W2_self]; rfl
theorem V3_eq (c : Dev nD) : GenP.V3 m (outs m) c = W3 m c := by
  show StableHlo.after hostOps1 (GenP.V2 m (outs m) c) = W3 m c
  rw [V2_eq]
theorem V4_eq (c : Dev nD) : GenP.V4 m (outs m) c = W4 m c := by
  show Function.update (GenP.V3 m (outs m) c) main_v11 (W4 m c main_v11) = W4 m c
  rw [V3_eq, W4_self]; rfl
theorem V5_eq (c : Dev nD) : GenP.V5 m (outs m) c = W5 m c := by
  show StableHlo.after hostOps2 (GenP.V4 m (outs m) c) = W5 m c
  rw [V4_eq]
theorem V6_eq (c : Dev nD) : GenP.V6 m (outs m) c = W6 m c := by
  show Function.update (GenP.V5 m (outs m) c) main_v18 (W6 m c main_v18) = W6 m c
  rw [V5_eq, W6_self]; rfl
theorem V7_eq (c : Dev nD) : GenP.V7 m (outs m) c = W7 m c := by
  show StableHlo.after hostOps3 (GenP.V6 m (outs m) c) = W7 m c
  rw [V6_eq]
theorem V8_eq (c : Dev nD) : GenP.V8 m (outs m) c = W8 m c := by
  show Function.update (GenP.V7 m (outs m) c) main_v21 (W8 m c main_v21) = W8 m c
  rw [V7_eq, W8_self]; rfl
theorem V9_eq (c : Dev nD) : GenP.V9 m (outs m) c = W9 m c := by
  show StableHlo.after hostOps4 (GenP.V8 m (outs m) c) = W9 m c
  rw [V8_eq]
theorem V10_eq (c : Dev nD) : GenP.V10 m (outs m) c = W10 m c := by
  show Function.update (GenP.V9 m (outs m) c) main_v30 (W10 m c main_v30) = W10 m c
  rw [V9_eq, W10_self]; rfl
theorem V11_eq (c : Dev nD) : GenP.V11 m (outs m) c = W11 m c := by
  show StableHlo.after hostOps5 (GenP.V10 m (outs m) c) = W11 m c
  rw [V10_eq]
theorem V12_eq (c : Dev nD) : GenP.V12 m (outs m) c = W12 m c := by
  show Function.update (GenP.V11 m (outs m) c) main_v37 (W12 m c main_v37) = W12 m c
  rw [V11_eq, W12_self]; rfl
theorem V13_eq (c : Dev nD) : GenP.V13 m (outs m) c = W13 m c := by
  show StableHlo.after hostOps6 (GenP.V12 m (outs m) c) = W13 m c
  rw [V12_eq]
theorem V14_eq (c : Dev nD) : GenP.V14 m (outs m) c = W14 m c := by
  show Function.update (GenP.V13 m (outs m) c) main_v40 (W14 m c main_v40) = W14 m c
  rw [V13_eq, W14_self]; rfl
theorem V15_eq (c : Dev nD) : GenP.V15 m (outs m) c = W15 m c := by
  show StableHlo.after hostOps7 (GenP.V14 m (outs m) c) = W15 m c
  rw [V14_eq]
theorem V16_eq (c : Dev nD) : GenP.V16 m (outs m) c = W16 m c := by
  show Function.update (GenP.V15 m (outs m) c) main_v49 (W16 m c main_v49) = W16 m c
  rw [V15_eq, W16_self]; rfl
theorem V17_eq (c : Dev nD) : GenP.V17 m (outs m) c = W17 m c := by
  show StableHlo.after hostOps8 (GenP.V16 m (outs m) c) = W17 m c
  rw [V16_eq]
theorem V18_eq (c : Dev nD) : GenP.V18 m (outs m) c = W18 m c := by
  show Function.update (GenP.V17 m (outs m) c) main_v56 (W18 m c main_v56) = W18 m c
  rw [V17_eq, W18_self]; rfl
theorem V19_eq (c : Dev nD) : GenP.V19 m (outs m) c = W19 m c := by
  show StableHlo.after hostOps9 (GenP.V18 m (outs m) c) = W19 m c
  rw [V18_eq]
theorem V20_eq (c : Dev nD) : GenP.V20 m (outs m) c = W20 m c := by
  show Function.update (GenP.V19 m (outs m) c) main_v59 (W20 m c main_v59) = W20 m c
  rw [V19_eq, W20_self]; rfl
theorem V21_eq (c : Dev nD) : GenP.V21 m (outs m) c = W21 m c := by
  show StableHlo.after hostOps10 (GenP.V20 m (outs m) c) = W21 m c
  rw [V20_eq]
theorem V22_eq (c : Dev nD) : GenP.V22 m (outs m) c = W22 m c := by
  show Function.update (GenP.V21 m (outs m) c) main_v68 (W22 m c main_v68) = W22 m c
  rw [V21_eq, W22_self]; rfl
theorem V23_eq (c : Dev nD) : GenP.V23 m (outs m) c = W23 m c := by
  show StableHlo.after hostOps11 (GenP.V22 m (outs m) c) = W23 m c
  rw [V22_eq]
theorem V24_eq (c : Dev nD) : GenP.V24 m (outs m) c = W24 m c := by
  show Function.update (GenP.V23 m (outs m) c) main_v75 (W24 m c main_v75) = W24 m c
  rw [V23_eq, W24_self]; rfl
theorem V25_eq (c : Dev nD) : GenP.V25 m (outs m) c = W25 m c := by
  show StableHlo.after hostOps12 (GenP.V24 m (outs m) c) = W25 m c
  rw [V24_eq]
theorem V26_eq (c : Dev nD) : GenP.V26 m (outs m) c = W26 m c := by
  show Function.update (GenP.V25 m (outs m) c) main_v78 (W26 m c main_v78) = W26 m c
  rw [V25_eq, W26_self]; rfl
theorem V27_eq (c : Dev nD) : GenP.V27 m (outs m) c = W27 m c := by
  show StableHlo.after hostOps13 (GenP.V26 m (outs m) c) = W27 m c
  rw [V26_eq]
theorem V28_eq (c : Dev nD) : GenP.V28 m (outs m) c = W28 m c := by
  show Function.update (GenP.V27 m (outs m) c) main_v87 (W28 m c main_v87) = W28 m c
  rw [V27_eq, W28_self]; rfl
theorem V29_eq (c : Dev nD) : GenP.V29 m (outs m) c = W29 m c := by
  show StableHlo.after hostOps14 (GenP.V28 m (outs m) c) = W29 m c
  rw [V28_eq]
theorem V30_eq (c : Dev nD) : GenP.V30 m (outs m) c = W30 m c := by
  show Function.update (GenP.V29 m (outs m) c) main_v94 (W30 m c main_v94) = W30 m c
  rw [V29_eq, W30_self]; rfl
theorem V31_eq (c : Dev nD) : GenP.V31 m (outs m) c = W31 m c := by
  show StableHlo.after hostOps15 (GenP.V30 m (outs m) c) = W31 m c
  rw [V30_eq]
theorem V32_eq (c : Dev nD) : GenP.V32 m (outs m) c = W32 m c := by
  show Function.update (GenP.V31 m (outs m) c) main_v97 (W32 m c main_v97) = W32 m c
  rw [V31_eq, W32_self]; rfl
theorem V33_eq (c : Dev nD) : GenP.V33 m (outs m) c = W33 m c := by
  show StableHlo.after hostOps16 (GenP.V32 m (outs m) c) = W33 m c
  rw [V32_eq]
theorem V34_eq (c : Dev nD) : GenP.V34 m (outs m) c = W34 m c := by
  show Function.update (GenP.V33 m (outs m) c) main_v106 (W34 m c main_v106) = W34 m c
  rw [V33_eq, W34_self]; rfl
theorem V35_eq (c : Dev nD) : GenP.V35 m (outs m) c = W35 m c := by
  show StableHlo.after hostOps17 (GenP.V34 m (outs m) c) = W35 m c
  rw [V34_eq]
theorem V36_eq (c : Dev nD) : GenP.V36 m (outs m) c = W36 m c := by
  show Function.update (GenP.V35 m (outs m) c) main_v113 (W36 m c main_v113) = W36 m c
  rw [V35_eq, W36_self]; rfl
theorem V37_eq (c : Dev nD) : GenP.V37 m (outs m) c = W37 m c := by
  show StableHlo.after hostOps18 (GenP.V36 m (outs m) c) = W37 m c
  rw [V36_eq]
theorem V38_eq (c : Dev nD) : GenP.V38 m (outs m) c = W38 m c := by
  show Function.update (GenP.V37 m (outs m) c) main_v116 (W38 m c main_v116) = W38 m c
  rw [V37_eq, W38_self]; rfl
theorem V39_eq (c : Dev nD) : GenP.V39 m (outs m) c = W39 m c := by
  show StableHlo.after hostOps19 (GenP.V38 m (outs m) c) = W39 m c
  rw [V38_eq]
theorem V40_eq (c : Dev nD) : GenP.V40 m (outs m) c = W40 m c := by
  show Function.update (GenP.V39 m (outs m) c) main_v125 (W40 m c main_v125) = W40 m c
  rw [V39_eq, W40_self]; rfl
theorem V41_eq (c : Dev nD) : GenP.V41 m (outs m) c = W41 m c := by
  show StableHlo.after hostOps20 (GenP.V40 m (outs m) c) = W41 m c
  rw [V40_eq]
theorem V42_eq (c : Dev nD) : GenP.V42 m (outs m) c = W42 m c := by
  show Function.update (GenP.V41 m (outs m) c) main_v132 (W42 m c main_v132) = W42 m c
  rw [V41_eq, W42_self]; rfl
theorem V43_eq (c : Dev nD) : GenP.V43 m (outs m) c = W43 m c := by
  show StableHlo.after hostOps21 (GenP.V42 m (outs m) c) = W43 m c
  rw [V42_eq]
theorem V44_eq (c : Dev nD) : GenP.V44 m (outs m) c = W44 m c := by
  show Function.update (GenP.V43 m (outs m) c) main_v135 (W44 m c main_v135) = W44 m c
  rw [V43_eq, W44_self]; rfl
theorem V45_eq (c : Dev nD) : GenP.V45 m (outs m) c = W45 m c := by
  show StableHlo.after hostOps22 (GenP.V44 m (outs m) c) = W45 m c
  rw [V44_eq]
theorem V46_eq (c : Dev nD) : GenP.V46 m (outs m) c = W46 m c := by
  show Function.update (GenP.V45 m (outs m) c) main_v144 (W46 m c main_v144) = W46 m c
  rw [V45_eq, W46_self]; rfl
theorem V47_eq (c : Dev nD) : GenP.V47 m (outs m) c = W47 m c := by
  show StableHlo.after hostOps23 (GenP.V46 m (outs m) c) = W47 m c
  rw [V46_eq]
theorem V48_eq (c : Dev nD) : GenP.V48 m (outs m) c = W48 m c := by
  show Function.update (GenP.V47 m (outs m) c) main_v151 (W48 m c main_v151) = W48 m c
  rw [V47_eq, W48_self]; rfl
theorem V49_eq (c : Dev nD) : GenP.V49 m (outs m) c = W49 m c := by
  show StableHlo.after hostOps24 (GenP.V48 m (outs m) c) = W49 m c
  rw [V48_eq]

end Cert.KernelIdeal.Hand

end
-- ==== Proof.KI.Pdats.lean ====
/- The pipelines' proof data, each at the contents its region is entered from, and what a region's exit needs of
   them: each of its three arrays holds, in the contents after the region, what the pipeline leaves there (the two
   input arrays are as entered; the output array is the one the region changes), and every other buffer is as entered. -/
import proofs.«104107_j50560355009131_1_alg».proof.Proof.KI.Fold
import Idealize.ShloMosaic.Lib.Pipeline.RegionsLoop

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Every pipeline's proof data, each at its region's entry contents. -/
def pdats : (p : Fin 24) → (c : Dev nD) → Dat τ (Elt F) Unit ℕ (UR sig nD τ) ℕ (cfgs p) c
  | ⟨0, _⟩ => fun c => dat0 (U1 m) c
  | ⟨1, _⟩ => fun c => dat1 (U3 m) c
  | ⟨2, _⟩ => fun c => dat2 (U5 m) c
  | ⟨3, _⟩ => fun c => dat3 (U7 m) c
  | ⟨4, _⟩ => fun c => dat4 (U9 m) c
  | ⟨5, _⟩ => fun c => dat5 (U11 m) c
  | ⟨6, _⟩ => fun c => dat6 (U13 m) c
  | ⟨7, _⟩ => fun c => dat7 (U15 m) c
  | ⟨8, _⟩ => fun c => dat8 (U17 m) c
  | ⟨9, _⟩ => fun c => dat9 (U19 m) c
  | ⟨10, _⟩ => fun c => dat10 (U21 m) c
  | ⟨11, _⟩ => fun c => dat11 (U23 m) c
  | ⟨12, _⟩ => fun c => dat12 (U25 m) c
  | ⟨13, _⟩ => fun c => dat13 (U27 m) c
  | ⟨14, _⟩ => fun c => dat14 (U29 m) c
  | ⟨15, _⟩ => fun c => dat15 (U31 m) c
  | ⟨16, _⟩ => fun c => dat16 (U33 m) c
  | ⟨17, _⟩ => fun c => dat17 (U35 m) c
  | ⟨18, _⟩ => fun c => dat18 (U37 m) c
  | ⟨19, _⟩ => fun c => dat19 (U39 m) c
  | ⟨20, _⟩ => fun c => dat20 (U41 m) c
  | ⟨21, _⟩ => fun c => dat21 (U43 m) c
  | ⟨22, _⟩ => fun c => dat22 (U45 m) c
  | ⟨23, _⟩ => fun c => dat23 (U47 m) c
  | ⟨_ + 24, h⟩ => absurd h (Nat.not_lt.2 (Nat.le_add_left _ _))

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)

/-! ## At a region's exit -/

theorem hF0 (c : Dev nD) (w : Fin cfg0.W) : (dat0 (U1 m) c).arrAt w cfg0.N = U2 m c (Pipeline.arrRef spec0 w) :=
  match w with
  | ⟨0, _⟩ => ((dat0 (U1 m) c).arrAt_in 0 rfl _).trans ((A_eq0 (U1 m) c 0).trans (W2_of_ne m c _ (by decide)).symm)
  | ⟨1, _⟩ => ((dat0 (U1 m) c).arrAt_in 1 rfl _).trans ((A_eq0 (U1 m) c 1).trans (W2_of_ne m c _ (by decide)).symm)
  | ⟨2, _⟩ => (W2_self m c).symm
theorem hrest0 (c : Dev nD) : ∀ b, b ∉ Finset.univ.image (Pipeline.arrRef spec0) → U2 m c b = U1 m c b :=
  fun b hb => W2_of_ne m c b fun e => hb (Finset.mem_image.mpr ⟨2, Finset.mem_univ _, e.symm⟩)
theorem hF1 (c : Dev nD) (w : Fin cfg1.W) : (dat1 (U3 m) c).arrAt w cfg1.N = U4 m c (Pipeline.arrRef spec1 w) :=
  match w with
  | ⟨0, _⟩ => ((dat1 (U3 m) c).arrAt_in 0 rfl _).trans ((A_eq1 (U3 m) c 0).trans (W4_of_ne m c _ (by decide)).symm)
  | ⟨1, _⟩ => ((dat1 (U3 m) c).arrAt_in 1 rfl _).trans ((A_eq1 (U3 m) c 1).trans (W4_of_ne m c _ (by decide)).symm)
  | ⟨2, _⟩ => (W4_self m c).symm
theorem hrest1 (c : Dev nD) : ∀ b, b ∉ Finset.univ.image (Pipeline.arrRef spec1) → U4 m c b = U3 m c b :=
  fun b hb => W4_of_ne m c b fun e => hb (Finset.mem_image.mpr ⟨2, Finset.mem_univ _, e.symm⟩)
theorem hF2 (c : Dev nD) (w : Fin cfg2.W) : (dat2 (U5 m) c).arrAt w cfg2.N = U6 m c (Pipeline.arrRef spec2 w) :=
  match w with
  | ⟨0, _⟩ => ((dat2 (U5 m) c).arrAt_in 0 rfl _).trans ((A_eq2 (U5 m) c 0).trans (W6_of_ne m c _ (by decide)).symm)
  | ⟨1, _⟩ => ((dat2 (U5 m) c).arrAt_in 1 rfl _).trans ((A_eq2 (U5 m) c 1).trans (W6_of_ne m c _ (by decide)).symm)
  | ⟨2, _⟩ => (W6_self m c).symm
theorem hrest2 (c : Dev nD) : ∀ b, b ∉ Finset.univ.image (Pipeline.arrRef spec2) → U6 m c b = U5 m c b :=
  fun b hb => W6_of_ne m c b fun e => hb (Finset.mem_image.mpr ⟨2, Finset.mem_univ _, e.symm⟩)
theorem hF3 (c : Dev nD) (w : Fin cfg3.W) : (dat3 (U7 m) c).arrAt w cfg3.N = U8 m c (Pipeline.arrRef spec3 w) :=
  match w with
  | ⟨0, _⟩ => ((dat3 (U7 m) c).arrAt_in 0 rfl _).trans ((A_eq3 (U7 m) c 0).trans (W8_of_ne m c _ (by decide)).symm)
  | ⟨1, _⟩ => ((dat3 (U7 m) c).arrAt_in 1 rfl _).trans ((A_eq3 (U7 m) c 1).trans (W8_of_ne m c _ (by decide)).symm)
  | ⟨2, _⟩ => (W8_self m c).symm
theorem hrest3 (c : Dev nD) : ∀ b, b ∉ Finset.univ.image (Pipeline.arrRef spec3) → U8 m c b = U7 m c b :=
  fun b hb => W8_of_ne m c b fun e => hb (Finset.mem_image.mpr ⟨2, Finset.mem_univ _, e.symm⟩)
theorem hF4 (c : Dev nD) (w : Fin cfg4.W) : (dat4 (U9 m) c).arrAt w cfg4.N = U10 m c (Pipeline.arrRef spec4 w) :=
  match w with
  | ⟨0, _⟩ => ((dat4 (U9 m) c).arrAt_in 0 rfl _).trans ((A_eq4 (U9 m) c 0).trans (W10_of_ne m c _ (by decide)).symm)
  | ⟨1, _⟩ => ((dat4 (U9 m) c).arrAt_in 1 rfl _).trans ((A_eq4 (U9 m) c 1).trans (W10_of_ne m c _ (by decide)).symm)
  | ⟨2, _⟩ => (W10_self m c).symm
theorem hrest4 (c : Dev nD) : ∀ b, b ∉ Finset.univ.image (Pipeline.arrRef spec4) → U10 m c b = U9 m c b :=
  fun b hb => W10_of_ne m c b fun e => hb (Finset.mem_image.mpr ⟨2, Finset.mem_univ _, e.symm⟩)
theorem hF5 (c : Dev nD) (w : Fin cfg5.W) : (dat5 (U11 m) c).arrAt w cfg5.N = U12 m c (Pipeline.arrRef spec5 w) :=
  match w with
  | ⟨0, _⟩ => ((dat5 (U11 m) c).arrAt_in 0 rfl _).trans ((A_eq5 (U11 m) c 0).trans (W12_of_ne m c _ (by decide)).symm)
  | ⟨1, _⟩ => ((dat5 (U11 m) c).arrAt_in 1 rfl _).trans ((A_eq5 (U11 m) c 1).trans (W12_of_ne m c _ (by decide)).symm)
  | ⟨2, _⟩ => (W12_self m c).symm
theorem hrest5 (c : Dev nD) : ∀ b, b ∉ Finset.univ.image (Pipeline.arrRef spec5) → U12 m c b = U11 m c b :=
  fun b hb => W12_of_ne m c b fun e => hb (Finset.mem_image.mpr ⟨2, Finset.mem_univ _, e.symm⟩)
theorem hF6 (c : Dev nD) (w : Fin cfg6.W) : (dat6 (U13 m) c).arrAt w cfg6.N = U14 m c (Pipeline.arrRef spec6 w) :=
  match w with
  | ⟨0, _⟩ => ((dat6 (U13 m) c).arrAt_in 0 rfl _).trans ((A_eq6 (U13 m) c 0).trans (W14_of_ne m c _ (by decide)).symm)
  | ⟨1, _⟩ => ((dat6 (U13 m) c).arrAt_in 1 rfl _).trans ((A_eq6 (U13 m) c 1).trans (W14_of_ne m c _ (by decide)).symm)
  | ⟨2, _⟩ => (W14_self m c).symm
theorem hrest6 (c : Dev nD) : ∀ b, b ∉ Finset.univ.image (Pipeline.arrRef spec6) → U14 m c b = U13 m c b :=
  fun b hb => W14_of_ne m c b fun e => hb (Finset.mem_image.mpr ⟨2, Finset.mem_univ _, e.symm⟩)
theorem hF7 (c : Dev nD) (w : Fin cfg7.W) : (dat7 (U15 m) c).arrAt w cfg7.N = U16 m c (Pipeline.arrRef spec7 w) :=
  match w with
  | ⟨0, _⟩ => ((dat7 (U15 m) c).arrAt_in 0 rfl _).trans ((A_eq7 (U15 m) c 0).trans (W16_of_ne m c _ (by decide)).symm)
  | ⟨1, _⟩ => ((dat7 (U15 m) c).arrAt_in 1 rfl _).trans ((A_eq7 (U15 m) c 1).trans (W16_of_ne m c _ (by decide)).symm)
  | ⟨2, _⟩ => (W16_self m c).symm
theorem hrest7 (c : Dev nD) : ∀ b, b ∉ Finset.univ.image (Pipeline.arrRef spec7) → U16 m c b = U15 m c b :=
  fun b hb => W16_of_ne m c b fun e => hb (Finset.mem_image.mpr ⟨2, Finset.mem_univ _, e.symm⟩)
theorem hF8 (c : Dev nD) (w : Fin cfg8.W) : (dat8 (U17 m) c).arrAt w cfg8.N = U18 m c (Pipeline.arrRef spec8 w) :=
  match w with
  | ⟨0, _⟩ => ((dat8 (U17 m) c).arrAt_in 0 rfl _).trans ((A_eq8 (U17 m) c 0).trans (W18_of_ne m c _ (by decide)).symm)
  | ⟨1, _⟩ => ((dat8 (U17 m) c).arrAt_in 1 rfl _).trans ((A_eq8 (U17 m) c 1).trans (W18_of_ne m c _ (by decide)).symm)
  | ⟨2, _⟩ => (W18_self m c).symm
theorem hrest8 (c : Dev nD) : ∀ b, b ∉ Finset.univ.image (Pipeline.arrRef spec8) → U18 m c b = U17 m c b :=
  fun b hb => W18_of_ne m c b fun e => hb (Finset.mem_image.mpr ⟨2, Finset.mem_univ _, e.symm⟩)
theorem hF9 (c : Dev nD) (w : Fin cfg9.W) : (dat9 (U19 m) c).arrAt w cfg9.N = U20 m c (Pipeline.arrRef spec9 w) :=
  match w with
  | ⟨0, _⟩ => ((dat9 (U19 m) c).arrAt_in 0 rfl _).trans ((A_eq9 (U19 m) c 0).trans (W20_of_ne m c _ (by decide)).symm)
  | ⟨1, _⟩ => ((dat9 (U19 m) c).arrAt_in 1 rfl _).trans ((A_eq9 (U19 m) c 1).trans (W20_of_ne m c _ (by decide)).symm)
  | ⟨2, _⟩ => (W20_self m c).symm
theorem hrest9 (c : Dev nD) : ∀ b, b ∉ Finset.univ.image (Pipeline.arrRef spec9) → U20 m c b = U19 m c b :=
  fun b hb => W20_of_ne m c b fun e => hb (Finset.mem_image.mpr ⟨2, Finset.mem_univ _, e.symm⟩)
theorem hF10 (c : Dev nD) (w : Fin cfg10.W) : (dat10 (U21 m) c).arrAt w cfg10.N = U22 m c (Pipeline.arrRef spec10 w) :=
  match w with
  | ⟨0, _⟩ => ((dat10 (U21 m) c).arrAt_in 0 rfl _).trans ((A_eq10 (U21 m) c 0).trans (W22_of_ne m c _ (by decide)).symm)
  | ⟨1, _⟩ => ((dat10 (U21 m) c).arrAt_in 1 rfl _).trans ((A_eq10 (U21 m) c 1).trans (W22_of_ne m c _ (by decide)).symm)
  | ⟨2, _⟩ => (W22_self m c).symm
theorem hrest10 (c : Dev nD) : ∀ b, b ∉ Finset.univ.image (Pipeline.arrRef spec10) → U22 m c b = U21 m c b :=
  fun b hb => W22_of_ne m c b fun e => hb (Finset.mem_image.mpr ⟨2, Finset.mem_univ _, e.symm⟩)
theorem hF11 (c : Dev nD) (w : Fin cfg11.W) : (dat11 (U23 m) c).arrAt w cfg11.N = U24 m c (Pipeline.arrRef spec11 w) :=
  match w with
  | ⟨0, _⟩ => ((dat11 (U23 m) c).arrAt_in 0 rfl _).trans ((A_eq11 (U23 m) c 0).trans (W24_of_ne m c _ (by decide)).symm)
  | ⟨1, _⟩ => ((dat11 (U23 m) c).arrAt_in 1 rfl _).trans ((A_eq11 (U23 m) c 1).trans (W24_of_ne m c _ (by decide)).symm)
  | ⟨2, _⟩ => (W24_self m c).symm
theorem hrest11 (c : Dev nD) : ∀ b, b ∉ Finset.univ.image (Pipeline.arrRef spec11) → U24 m c b = U23 m c b :=
  fun b hb => W24_of_ne m c b fun e => hb (Finset.mem_image.mpr ⟨2, Finset.mem_univ _, e.symm⟩)
theorem hF12 (c : Dev nD) (w : Fin cfg12.W) : (dat12 (U25 m) c).arrAt w cfg12.N = U26 m c (Pipeline.arrRef spec12 w) :=
  match w with
  | ⟨0, _⟩ => ((dat12 (U25 m) c).arrAt_in 0 rfl _).trans ((A_eq12 (U25 m) c 0).trans (W26_of_ne m c _ (by decide)).symm)
  | ⟨1, _⟩ => ((dat12 (U25 m) c).arrAt_in 1 rfl _).trans ((A_eq12 (U25 m) c 1).trans (W26_of_ne m c _ (by decide)).symm)
  | ⟨2, _⟩ => (W26_self m c).symm
theorem hrest12 (c : Dev nD) : ∀ b, b ∉ Finset.univ.image (Pipeline.arrRef spec12) → U26 m c b = U25 m c b :=
  fun b hb => W26_of_ne m c b fun e => hb (Finset.mem_image.mpr ⟨2, Finset.mem_univ _, e.symm⟩)
theorem hF13 (c : Dev nD) (w : Fin cfg13.W) : (dat13 (U27 m) c).arrAt w cfg13.N = U28 m c (Pipeline.arrRef spec13 w) :=
  match w with
  | ⟨0, _⟩ => ((dat13 (U27 m) c).arrAt_in 0 rfl _).trans ((A_eq13 (U27 m) c 0).trans (W28_of_ne m c _ (by decide)).symm)
  | ⟨1, _⟩ => ((dat13 (U27 m) c).arrAt_in 1 rfl _).trans ((A_eq13 (U27 m) c 1).trans (W28_of_ne m c _ (by decide)).symm)
  | ⟨2, _⟩ => (W28_self m c).symm
theorem hrest13 (c : Dev nD) : ∀ b, b ∉ Finset.univ.image (Pipeline.arrRef spec13) → U28 m c b = U27 m c b :=
  fun b hb => W28_of_ne m c b fun e => hb (Finset.mem_image.mpr ⟨2, Finset.mem_univ _, e.symm⟩)
theorem hF14 (c : Dev nD) (w : Fin cfg14.W) : (dat14 (U29 m) c).arrAt w cfg14.N = U30 m c (Pipeline.arrRef spec14 w) :=
  match w with
  | ⟨0, _⟩ => ((dat14 (U29 m) c).arrAt_in 0 rfl _).trans ((A_eq14 (U29 m) c 0).trans (W30_of_ne m c _ (by decide)).symm)
  | ⟨1, _⟩ => ((dat14 (U29 m) c).arrAt_in 1 rfl _).trans ((A_eq14 (U29 m) c 1).trans (W30_of_ne m c _ (by decide)).symm)
  | ⟨2, _⟩ => (W30_self m c).symm
theorem hrest14 (c : Dev nD) : ∀ b, b ∉ Finset.univ.image (Pipeline.arrRef spec14) → U30 m c b = U29 m c b :=
  fun b hb => W30_of_ne m c b fun e => hb (Finset.mem_image.mpr ⟨2, Finset.mem_univ _, e.symm⟩)
theorem hF15 (c : Dev nD) (w : Fin cfg15.W) : (dat15 (U31 m) c).arrAt w cfg15.N = U32 m c (Pipeline.arrRef spec15 w) :=
  match w with
  | ⟨0, _⟩ => ((dat15 (U31 m) c).arrAt_in 0 rfl _).trans ((A_eq15 (U31 m) c 0).trans (W32_of_ne m c _ (by decide)).symm)
  | ⟨1, _⟩ => ((dat15 (U31 m) c).arrAt_in 1 rfl _).trans ((A_eq15 (U31 m) c 1).trans (W32_of_ne m c _ (by decide)).symm)
  | ⟨2, _⟩ => (W32_self m c).symm
theorem hrest15 (c : Dev nD) : ∀ b, b ∉ Finset.univ.image (Pipeline.arrRef spec15) → U32 m c b = U31 m c b :=
  fun b hb => W32_of_ne m c b fun e => hb (Finset.mem_image.mpr ⟨2, Finset.mem_univ _, e.symm⟩)
theorem hF16 (c : Dev nD) (w : Fin cfg16.W) : (dat16 (U33 m) c).arrAt w cfg16.N = U34 m c (Pipeline.arrRef spec16 w) :=
  match w with
  | ⟨0, _⟩ => ((dat16 (U33 m) c).arrAt_in 0 rfl _).trans ((A_eq16 (U33 m) c 0).trans (W34_of_ne m c _ (by decide)).symm)
  | ⟨1, _⟩ => ((dat16 (U33 m) c).arrAt_in 1 rfl _).trans ((A_eq16 (U33 m) c 1).trans (W34_of_ne m c _ (by decide)).symm)
  | ⟨2, _⟩ => (W34_self m c).symm
theorem hrest16 (c : Dev nD) : ∀ b, b ∉ Finset.univ.image (Pipeline.arrRef spec16) → U34 m c b = U33 m c b :=
  fun b hb => W34_of_ne m c b fun e => hb (Finset.mem_image.mpr ⟨2, Finset.mem_univ _, e.symm⟩)
theorem hF17 (c : Dev nD) (w : Fin cfg17.W) : (dat17 (U35 m) c).arrAt w cfg17.N = U36 m c (Pipeline.arrRef spec17 w) :=
  match w with
  | ⟨0, _⟩ => ((dat17 (U35 m) c).arrAt_in 0 rfl _).trans ((A_eq17 (U35 m) c 0).trans (W36_of_ne m c _ (by decide)).symm)
  | ⟨1, _⟩ => ((dat17 (U35 m) c).arrAt_in 1 rfl _).trans ((A_eq17 (U35 m) c 1).trans (W36_of_ne m c _ (by decide)).symm)
  | ⟨2, _⟩ => (W36_self m c).symm
theorem hrest17 (c : Dev nD) : ∀ b, b ∉ Finset.univ.image (Pipeline.arrRef spec17) → U36 m c b = U35 m c b :=
  fun b hb => W36_of_ne m c b fun e => hb (Finset.mem_image.mpr ⟨2, Finset.mem_univ _, e.symm⟩)
theorem hF18 (c : Dev nD) (w : Fin cfg18.W) : (dat18 (U37 m) c).arrAt w cfg18.N = U38 m c (Pipeline.arrRef spec18 w) :=
  match w with
  | ⟨0, _⟩ => ((dat18 (U37 m) c).arrAt_in 0 rfl _).trans ((A_eq18 (U37 m) c 0).trans (W38_of_ne m c _ (by decide)).symm)
  | ⟨1, _⟩ => ((dat18 (U37 m) c).arrAt_in 1 rfl _).trans ((A_eq18 (U37 m) c 1).trans (W38_of_ne m c _ (by decide)).symm)
  | ⟨2, _⟩ => (W38_self m c).symm
theorem hrest18 (c : Dev nD) : ∀ b, b ∉ Finset.univ.image (Pipeline.arrRef spec18) → U38 m c b = U37 m c b :=
  fun b hb => W38_of_ne m c b fun e => hb (Finset.mem_image.mpr ⟨2, Finset.mem_univ _, e.symm⟩)
theorem hF19 (c : Dev nD) (w : Fin cfg19.W) : (dat19 (U39 m) c).arrAt w cfg19.N = U40 m c (Pipeline.arrRef spec19 w) :=
  match w with
  | ⟨0, _⟩ => ((dat19 (U39 m) c).arrAt_in 0 rfl _).trans ((A_eq19 (U39 m) c 0).trans (W40_of_ne m c _ (by decide)).symm)
  | ⟨1, _⟩ => ((dat19 (U39 m) c).arrAt_in 1 rfl _).trans ((A_eq19 (U39 m) c 1).trans (W40_of_ne m c _ (by decide)).symm)
  | ⟨2, _⟩ => (W40_self m c).symm
theorem hrest19 (c : Dev nD) : ∀ b, b ∉ Finset.univ.image (Pipeline.arrRef spec19) → U40 m c b = U39 m c b :=
  fun b hb => W40_of_ne m c b fun e => hb (Finset.mem_image.mpr ⟨2, Finset.mem_univ _, e.symm⟩)
theorem hF20 (c : Dev nD) (w : Fin cfg20.W) : (dat20 (U41 m) c).arrAt w cfg20.N = U42 m c (Pipeline.arrRef spec20 w) :=
  match w with
  | ⟨0, _⟩ => ((dat20 (U41 m) c).arrAt_in 0 rfl _).trans ((A_eq20 (U41 m) c 0).trans (W42_of_ne m c _ (by decide)).symm)
  | ⟨1, _⟩ => ((dat20 (U41 m) c).arrAt_in 1 rfl _).trans ((A_eq20 (U41 m) c 1).trans (W42_of_ne m c _ (by decide)).symm)
  | ⟨2, _⟩ => (W42_self m c).symm
theorem hrest20 (c : Dev nD) : ∀ b, b ∉ Finset.univ.image (Pipeline.arrRef spec20) → U42 m c b = U41 m c b :=
  fun b hb => W42_of_ne m c b fun e => hb (Finset.mem_image.mpr ⟨2, Finset.mem_univ _, e.symm⟩)
theorem hF21 (c : Dev nD) (w : Fin cfg21.W) : (dat21 (U43 m) c).arrAt w cfg21.N = U44 m c (Pipeline.arrRef spec21 w) :=
  match w with
  | ⟨0, _⟩ => ((dat21 (U43 m) c).arrAt_in 0 rfl _).trans ((A_eq21 (U43 m) c 0).trans (W44_of_ne m c _ (by decide)).symm)
  | ⟨1, _⟩ => ((dat21 (U43 m) c).arrAt_in 1 rfl _).trans ((A_eq21 (U43 m) c 1).trans (W44_of_ne m c _ (by decide)).symm)
  | ⟨2, _⟩ => (W44_self m c).symm
theorem hrest21 (c : Dev nD) : ∀ b, b ∉ Finset.univ.image (Pipeline.arrRef spec21) → U44 m c b = U43 m c b :=
  fun b hb => W44_of_ne m c b fun e => hb (Finset.mem_image.mpr ⟨2, Finset.mem_univ _, e.symm⟩)
theorem hF22 (c : Dev nD) (w : Fin cfg22.W) : (dat22 (U45 m) c).arrAt w cfg22.N = U46 m c (Pipeline.arrRef spec22 w) :=
  match w with
  | ⟨0, _⟩ => ((dat22 (U45 m) c).arrAt_in 0 rfl _).trans ((A_eq22 (U45 m) c 0).trans (W46_of_ne m c _ (by decide)).symm)
  | ⟨1, _⟩ => ((dat22 (U45 m) c).arrAt_in 1 rfl _).trans ((A_eq22 (U45 m) c 1).trans (W46_of_ne m c _ (by decide)).symm)
  | ⟨2, _⟩ => (W46_self m c).symm
theorem hrest22 (c : Dev nD) : ∀ b, b ∉ Finset.univ.image (Pipeline.arrRef spec22) → U46 m c b = U45 m c b :=
  fun b hb => W46_of_ne m c b fun e => hb (Finset.mem_image.mpr ⟨2, Finset.mem_univ _, e.symm⟩)
theorem hF23 (c : Dev nD) (w : Fin cfg23.W) : (dat23 (U47 m) c).arrAt w cfg23.N = U48 m c (Pipeline.arrRef spec23 w) :=
  match w with
  | ⟨0, _⟩ => ((dat23 (U47 m) c).arrAt_in 0 rfl _).trans ((A_eq23 (U47 m) c 0).trans (W48_of_ne m c _ (by decide)).symm)
  | ⟨1, _⟩ => ((dat23 (U47 m) c).arrAt_in 1 rfl _).trans ((A_eq23 (U47 m) c 1).trans (W48_of_ne m c _ (by decide)).symm)
  | ⟨2, _⟩ => (W48_self m c).symm
theorem hrest23 (c : Dev nD) : ∀ b, b ∉ Finset.univ.image (Pipeline.arrRef spec23) → U48 m c b = U47 m c b :=
  fun b hb => W48_of_ne m c b fun e => hb (Finset.mem_image.mpr ⟨2, Finset.mem_univ _, e.symm⟩)

end Cert.KernelIdeal.Hand

end
-- ==== Proof.KI.RegsA.lean ====
/- Regions 0 to 5 of @main as segments of its run: layer 0, blocks 0 and 1 — for each block k the matrix product
   x · W[0,k], the per-edge scaling of the gathered rows, and the bias b[0,k] added to the summed rows (no relu). -/
import proofs.«104107_j50560355009131_1_alg».proof.Proof.KI.Pdats

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 0 over the thread state: entered from every unscoped buffer at `W1`, left at `W2`. Its three arrays are split
    out of the unscoped buffers at entry and put back at the exit contents; the generator register goes into the class
    invariant and comes out; nothing is owed; the kernel has no semaphore of its own. -/
def reg0 : Pipeline.RegionSeg (pcfgs (F := F)) GenP.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) GenP.adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenP.adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its three arrays are split
    out of the unscoped buffers at entry and put back at the exit contents; the generator register goes into the class
    invariant and comes out; nothing is owed; the kernel has no semaphore of its own. -/
def reg1 : Pipeline.RegionSeg (pcfgs (F := F)) GenP.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) GenP.adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) GenP.adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its three arrays are split
    out of the unscoped buffers at entry and put back at the exit contents; the generator register goes into the class
    invariant and comes out; nothing is owed; the kernel has no semaphore of its own. -/
def reg2 : Pipeline.RegionSeg (pcfgs (F := F)) GenP.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) GenP.adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) GenP.adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W7`, left at `W8`. Its three arrays are split
    out of the unscoped buffers at entry and put back at the exit contents; the generator register goes into the class
    invariant and comes out; nothing is owed; the kernel has no semaphore of its own. -/
def reg3 : Pipeline.RegionSeg (pcfgs (F := F)) GenP.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (U7 m c)
  hentry c := by
    rw [Pipeline.ownSems0_none]
    have hsplit := Pipeline.arrays_of_unscopedBufs (p := 3) (pcfgs (F := F)) GenP.adm (pdats m) launch3.win launch3.arr_whole c
      ((pdats m 3 c).share_full fun _ => rfl) (U7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) GenP.adm (Ix := Unit) (Name := ℕ) (U := UR sig nD τ) (Lvl := ℕ)
      launch3.win launch3.arr_whole c (pdats m) ((pdats m 3 c).share_full fun _ => rfl)
      (U7 m c) (U8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W9`, left at `W10`. Its three arrays are
    split out of the unscoped buffers at entry and put back at the exit contents; the generator register goes into the
    class invariant and comes out; nothing is owed; the kernel has no semaphore of its own. -/
def reg4 : Pipeline.RegionSeg (pcfgs (F := F)) GenP.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (U9 m c)
  hentry c := by
    rw [Pipeline.ownSems0_none]
    have hsplit := Pipeline.arrays_of_unscopedBufs (p := 4) (pcfgs (F := F)) GenP.adm (pdats m) launch4.win launch4.arr_whole c
      ((pdats m 4 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) GenP.adm (Ix := Unit) (Name := ℕ) (U := UR sig nD τ) (Lvl := ℕ)
      launch4.win launch4.arr_whole c (pdats m) ((pdats m 4 c).share_full fun _ => rfl)
      (U9 m c) (U10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W11`, left at `W12`. Its three arrays are
    split out of the unscoped buffers at entry and put back at the exit contents; the generator register goes into the
    class invariant and comes out; nothing is owed; the kernel has no semaphore of its own. -/
def reg5 : Pipeline.RegionSeg (pcfgs (F := F)) GenP.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (U11 m) c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (U11 m c)
  hentry c := by
    rw [Pipeline.ownSems0_none]
    have hsplit := Pipeline.arrays_of_unscopedBufs (p := 5) (pcfgs (F := F)) GenP.adm (pdats m) launch5.win launch5.arr_whole c
      ((pdats m 5 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) GenP.adm (Ix := Unit) (Name := ℕ) (U := UR sig nD τ) (Lvl := ℕ)
      launch5.win launch5.arr_whole c (pdats m) ((pdats m 5 c).share_full fun _ => rfl)
      (U11 m c) (U12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RegsB.lean ====
/- Regions 6 to 11 of @main as segments of its run: layer 0, blocks 2 and 3 — for each block k the matrix product
   x · W[0,k], the per-edge scaling of the gathered rows, and the bias b[0,k] added to the summed rows, then relu. -/
import proofs.«104107_j50560355009131_1_alg».proof.Proof.KI.Pdats

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

-- a library lemma stated over the pinned configuration unifies with the printed one only when unification may unfold
-- plain definitions in a metavariable's type
set_option backward.isDefEq.respectTransparency.types false in
/-- REGION 6 over the thread state: entered from every unscoped buffer at `W13`, left at `W14`. Its three arrays are
    split out of the unscoped buffers at entry and put back at the exit contents; the generator register goes into the
    class invariant and comes out; nothing is owed; the kernel has no semaphore of its own. -/
def reg6 : Pipeline.RegionSeg (pcfgs (F := F)) GenP.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (U13 m) c).loose
  hwaits := Pipeline.hwaits_of_owed_zero _ _ _ _ L lv 6 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec6 c (U13 m c)
  hentry c := by
    rw [Pipeline.ownSems0_none]
    have hsplit := Pipeline.arrays_of_unscopedBufs (p := 6) (pcfgs (F := F)) GenP.adm (pdats m) launch6.win launch6.arr_whole c
      ((pdats m 6 c).share_full fun _ => rfl) (U13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) GenP.adm (Ix := Unit) (Name := ℕ) (U := UR sig nD τ) (Lvl := ℕ)
      launch6.win launch6.arr_whole c (pdats m) ((pdats m 6 c).share_full fun _ => rfl)
      (U13 m c) (U14 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 7 over the thread state: entered from every unscoped buffer at `W15`, left at `W16`. Its three arrays are
    split out of the unscoped buffers at entry and put back at the exit contents; the generator register goes into the
    class invariant and comes out; nothing is owed; the kernel has no semaphore of its own. -/
def reg7 : Pipeline.RegionSeg (pcfgs (F := F)) GenP.adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (U15 m) c).loose
  hwaits := Pipeline.hwaits_of_owed_zero _ _ _ _ L lv 7 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec7 c (U15 m c)
  hentry c := by
    rw [Pipeline.ownSems0_none]
    have hsplit := Pipeline.arrays_of_unscopedBufs (p := 7) (pcfgs (F := F)) GenP.adm (pdats m) launch7.win launch7.arr_whole c
      ((pdats m 7 c).share_full fun _ => rfl) (U15 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) GenP.adm (Ix := Unit) (Name := ℕ) (U := UR sig nD τ) (Lvl := ℕ)
      launch7.win launch7.arr_whole c (pdats m) ((pdats m 7 c).share_full fun _ => rfl)
      (U15 m c) (U16 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 8 over the thread state: entered from every unscoped buffer at `W17`, left at `W18`. Its three arrays are
    split out of the unscoped buffers at entry and put back at the exit contents; the generator register goes into the
    class invariant and comes out; nothing is owed; the kernel has no semaphore of its own. -/
def reg8 : Pipeline.RegionSeg (pcfgs (F := F)) GenP.adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (U17 m) c).loose
  hwaits := Pipeline.hwaits_of_owed_zero _ _ _ _ L lv 8 fun _ _ => rfl
  pre c := iprop(StableHlo.held (c : Thread nD τ) (Pipeline.ucRefs τ sig) (W17 m c) ∗ R c)
  post c := iprop(StableHlo.held (c : Thread nD τ) (Pipeline.ucRefs τ sig) (W18 m c) ∗ R c)
  X c := iprop(∃ r, prngReg c r)
  Y c := iprop(∃ r, prngReg c r)
  Z c := Pipeline.unscopedRest (Ix := Unit) (Name := ℕ) (U := UR sig nD τ) (Lvl := ℕ) spec8 c (U17 m c)
  hentry c := by
    rw [Pipeline.ownSems0_none]
    have hsplit := Pipeline.arrays_of_unscopedBufs (p := 8) (pcfgs (F := F)) GenP.adm (pdats m) launch8.win launch8.arr_whole c
      ((pdats m 8 c).share_full fun _ => rfl) (U17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) GenP.adm (Ix := Unit) (Name := ℕ) (U := UR sig nD τ) (Lvl := ℕ)
      launch8.win launch8.arr_whole c (pdats m) ((pdats m 8 c).share_full fun _ => rfl)
      (U17 m c) (U18 m c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 9 over the thread state: entered from every unscoped buffer at `W19`, left at `W20`. Its three arrays are
    split out of the unscoped buffers at entry and put back at the exit contents; the generator register goes into the
    class invariant and comes out; nothing is owed; the kernel has no semaphore of its own. -/
def reg9 : Pipeline.RegionSeg (pcfgs (F := F)) GenP.adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (U19 m) c).loose
  hwaits := Pipeline.hwaits_of_owed_zero _ _ _ _ L lv 9 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec9 c (U19 m c)
  hentry c := by
    rw [Pipeline.ownSems0_none]
    have hsplit := Pipeline.arrays_of_unscopedBufs (p := 9) (pcfgs (F := F)) GenP.adm (pdats m) launch9.win launch9.arr_whole c
      ((pdats m 9 c).share_full fun _ => rfl) (U19 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) GenP.adm (Ix := Unit) (Name := ℕ) (U := UR sig nD τ) (Lvl := ℕ)
      launch9.win launch9.arr_whole c (pdats m) ((pdats m 9 c).share_full fun _ => rfl)
      (U19 m c) (U20 m c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 10 over the thread state: entered from every unscoped buffer at `W21`, left at `W22`. Its three arrays are
    split out of the unscoped buffers at entry and put back at the exit contents; the generator register goes into the
    class invariant and comes out; nothing is owed; the kernel has no semaphore of its own. -/
def reg10 : Pipeline.RegionSeg (pcfgs (F := F)) GenP.adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (U21 m) c).loose
  hwaits := Pipeline.hwaits_of_owed_zero _ _ _ _ L lv 10 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec10 c (U21 m c)
  hentry c := by
    rw [Pipeline.ownSems0_none]
    have hsplit := Pipeline.arrays_of_unscopedBufs (p := 10) (pcfgs (F := F)) GenP.adm (pdats m) launch10.win launch10.arr_whole c
      ((pdats m 10 c).share_full fun _ => rfl) (U21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) GenP.adm (Ix := Unit) (Name := ℕ) (U := UR sig nD τ) (Lvl := ℕ)
      launch10.win launch10.arr_whole c (pdats m) ((pdats m 10 c).share_full fun _ => rfl)
      (U21 m c) (U22 m c) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 11 over the thread state: entered from every unscoped buffer at `W23`, left at `W24`. Its three arrays are
    split out of the unscoped buffers at entry and put back at the exit contents; the generator register goes into the
    class invariant and comes out; nothing is owed; the kernel has no semaphore of its own. -/
def reg11 : Pipeline.RegionSeg (pcfgs (F := F)) GenP.adm (pdats m) () defs₀ 𝒱₀ L lv 11 where
  win := launch11.win.to₀
  block_pos := launch11.block_pos
  stage_whole := launch11.stage_whole
  K := PEmpty
  osem k := k.elim
  ho := Pipeline.OwnSemFacts.none _
  hbody c := (body_obligation11 (U23 m) c).loose
  hwaits := Pipeline.hwaits_of_owed_zero _ _ _ _ L lv 11 fun _ _ => rfl
  pre c := iprop(StableHlo.held (c : Thread nD τ) (Pipeline.ucRefs τ sig) (W23 m c) ∗ R c)
  post c := iprop(StableHlo.held (c : Thread nD τ) (Pipeline.ucRefs τ sig) (W24 m c) ∗ R c)
  X c := iprop(∃ r, prngReg c r)
  Y c := iprop(∃ r, prngReg c r)
  Z c := Pipeline.unscopedRest (Ix := Unit) (Name := ℕ) (U := UR sig nD τ) (Lvl := ℕ) spec11 c (U23 m c)
  hentry c := by
    rw [Pipeline.ownSems0_none]
    have hsplit := Pipeline.arrays_of_unscopedBufs (p := 11) (pcfgs (F := F)) GenP.adm (pdats m) launch11.win launch11.arr_whole c
      ((pdats m 11 c).share_full fun _ => rfl) (U23 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) GenP.adm (Ix := Unit) (Name := ℕ) (U := UR sig nD τ) (Lvl := ℕ)
      launch11.win launch11.arr_whole c (pdats m) ((pdats m 11 c).share_full fun _ => rfl)
      (U23 m c) (U24 m c) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RegsC.lean ====
/- The segments of @main's run for regions 12 to 17, the first half of layer 1: block 0 is the product u · W[1,0] (12), the
   per-edge scaling of its gathered rows (13) and the bias b[1,0] (14); block 1 is v · W[1,1] (15), its scaling (16), b[1,1] (17). -/
import proofs.«104107_j50560355009131_1_alg».proof.Proof.KI.Pdats

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

-- In each record below a library lemma stated over the pinned configuration has to unify with the printed one, which
-- needs plain definitions unfolded inside a metavariable's type; hence the option in front of each.
set_option backward.isDefEq.respectTransparency.types false in
/-- REGION 12 (u · W[1,0]) over the thread state: entered from every unscoped buffer at `W25`, left at `W26`. Its three
    arrays are split out of the unscoped buffers at entry and put back at the exit contents; the generator register goes
    into the class invariant and comes out; nothing is owed; the kernel has no semaphore of its own. -/
def reg12 : Pipeline.RegionSeg (pcfgs (F := F)) GenP.adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (U25 m) c).loose
  hwaits := Pipeline.hwaits_of_owed_zero _ _ _ _ L lv 12 fun _ _ => rfl
  pre c := iprop(StableHlo.held (c : Thread nD τ) (Pipeline.ucRefs τ sig) (W25 m c) ∗ R c)
  post c := iprop(StableHlo.held (c : Thread nD τ) (Pipeline.ucRefs τ sig) (W26 m c) ∗ R c)
  X c := iprop(∃ r, prngReg c r)
  Y c := iprop(∃ r, prngReg c r)
  Z c := Pipeline.unscopedRest (Ix := Unit) (Name := ℕ) (U := UR sig nD τ) (Lvl := ℕ) spec12 c (U25 m c)
  hentry c := by
    rw [Pipeline.ownSems0_none]
    have hsplit := Pipeline.arrays_of_unscopedBufs (p := 12) (pcfgs (F := F)) GenP.adm (pdats m) launch12.win launch12.arr_whole c
      ((pdats m 12 c).share_full fun _ => rfl) (U25 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) GenP.adm (Ix := Unit) (Name := ℕ) (U := UR sig nD τ) (Lvl := ℕ)
      launch12.win launch12.arr_whole c (pdats m) ((pdats m 12 c).share_full fun _ => rfl)
      (U25 m c) (U26 m c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 13 (the gathered rows of region 12's product, each scaled by its edge weight) over the thread state: entered
    from every unscoped buffer at `W27`, left at `W28`. Its three arrays are split out of the unscoped buffers at entry and
    put back at the exit contents; the generator register goes into the class invariant and comes out; nothing is owed;
    the kernel has no semaphore of its own. -/
def reg13 : Pipeline.RegionSeg (pcfgs (F := F)) GenP.adm (pdats m) () defs₀ 𝒱₀ L lv 13 where
  win := launch13.win.to₀
  block_pos := launch13.block_pos
  stage_whole := launch13.stage_whole
  K := PEmpty
  osem k := k.elim
  ho := Pipeline.OwnSemFacts.none _
  hbody c := (body_obligation13 (U27 m) c).loose
  hwaits := Pipeline.hwaits_of_owed_zero _ _ _ _ L lv 13 fun _ _ => rfl
  pre c := iprop(StableHlo.held (c : Thread nD τ) (Pipeline.ucRefs τ sig) (W27 m c) ∗ R c)
  post c := iprop(StableHlo.held (c : Thread nD τ) (Pipeline.ucRefs τ sig) (W28 m c) ∗ R c)
  X c := iprop(∃ r, prngReg c r)
  Y c := iprop(∃ r, prngReg c r)
  Z c := Pipeline.unscopedRest (Ix := Unit) (Name := ℕ) (U := UR sig nD τ) (Lvl := ℕ) spec13 c (U27 m c)
  hentry c := by
    rw [Pipeline.ownSems0_none]
    have hsplit := Pipeline.arrays_of_unscopedBufs (p := 13) (pcfgs (F := F)) GenP.adm (pdats m) launch13.win launch13.arr_whole c
      ((pdats m 13 c).share_full fun _ => rfl) (U27 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) GenP.adm (Ix := Unit) (Name := ℕ) (U := UR sig nD τ) (Lvl := ℕ)
      launch13.win launch13.arr_whole c (pdats m) ((pdats m 13 c).share_full fun _ => rfl)
      (U27 m c) (U28 m c) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 14 (the segment sums plus the bias row b[1,0]) over the thread state: entered from every unscoped buffer at
    `W29`, left at `W30`. Its three arrays are split out of the unscoped buffers at entry and put back at the exit
    contents; the generator register goes into the class invariant and comes out; nothing is owed; the kernel has no
    semaphore of its own. -/
def reg14 : Pipeline.RegionSeg (pcfgs (F := F)) GenP.adm (pdats m) () defs₀ 𝒱₀ L lv 14 where
  win := launch14.win.to₀
  block_pos := launch14.block_pos
  stage_whole := launch14.stage_whole
  K := PEmpty
  osem k := k.elim
  ho := Pipeline.OwnSemFacts.none _
  hbody c := (body_obligation14 (U29 m) c).loose
  hwaits := Pipeline.hwaits_of_owed_zero _ _ _ _ L lv 14 fun _ _ => rfl
  pre c := iprop(StableHlo.held (c : Thread nD τ) (Pipeline.ucRefs τ sig) (W29 m c) ∗ R c)
  post c := iprop(StableHlo.held (c : Thread nD τ) (Pipeline.ucRefs τ sig) (W30 m c) ∗ R c)
  X c := iprop(∃ r, prngReg c r)
  Y c := iprop(∃ r, prngReg c r)
  Z c := Pipeline.unscopedRest (Ix := Unit) (Name := ℕ) (U := UR sig nD τ) (Lvl := ℕ) spec14 c (U29 m c)
  hentry c := by
    rw [Pipeline.ownSems0_none]
    have hsplit := Pipeline.arrays_of_unscopedBufs (p := 14) (pcfgs (F := F)) GenP.adm (pdats m) launch14.win launch14.arr_whole c
      ((pdats m 14 c).share_full fun _ => rfl) (U29 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) GenP.adm (Ix := Unit) (Name := ℕ) (U := UR sig nD τ) (Lvl := ℕ)
      launch14.win launch14.arr_whole c (pdats m) ((pdats m 14 c).share_full fun _ => rfl)
      (U29 m c) (U30 m c) ((pdats m 14 c).arrAt · cfg14.N) (hF14 m c) (hrest14 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 15 (v · W[1,1]) over the thread state: entered from every unscoped buffer at `W31`, left at `W32`. Its three
    arrays are split out of the unscoped buffers at entry and put back at the exit contents; the generator register goes
    into the class invariant and comes out; nothing is owed; the kernel has no semaphore of its own. -/
def reg15 : Pipeline.RegionSeg (pcfgs (F := F)) GenP.adm (pdats m) () defs₀ 𝒱₀ L lv 15 where
  win := launch15.win.to₀
  block_pos := launch15.block_pos
  stage_whole := launch15.stage_whole
  K := PEmpty
  osem k := k.elim
  ho := Pipeline.OwnSemFacts.none _
  hbody c := (body_obligation15 (U31 m) c).loose
  hwaits := Pipeline.hwaits_of_owed_zero _ _ _ _ L lv 15 fun _ _ => rfl
  pre c := iprop(StableHlo.held (c : Thread nD τ) (Pipeline.ucRefs τ sig) (W31 m c) ∗ R c)
  post c := iprop(StableHlo.held (c : Thread nD τ) (Pipeline.ucRefs τ sig) (W32 m c) ∗ R c)
  X c := iprop(∃ r, prngReg c r)
  Y c := iprop(∃ r, prngReg c r)
  Z c := Pipeline.unscopedRest (Ix := Unit) (Name := ℕ) (U := UR sig nD τ) (Lvl := ℕ) spec15 c (U31 m c)
  hentry c := by
    rw [Pipeline.ownSems0_none]
    have hsplit := Pipeline.arrays_of_unscopedBufs (p := 15) (pcfgs (F := F)) GenP.adm (pdats m) launch15.win launch15.arr_whole c
      ((pdats m 15 c).share_full fun _ => rfl) (U31 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) GenP.adm (Ix := Unit) (Name := ℕ) (U := UR sig nD τ) (Lvl := ℕ)
      launch15.win launch15.arr_whole c (pdats m) ((pdats m 15 c).share_full fun _ => rfl)
      (U31 m c) (U32 m c) ((pdats m 15 c).arrAt · cfg15.N) (hF15 m c) (hrest15 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 16 (the gathered rows of region 15's product, each scaled by its edge weight) over the thread state: entered
    from every unscoped buffer at `W33`, left at `W34`. Its three arrays are split out of the unscoped buffers at entry and
    put back at the exit contents; the generator register goes into the class invariant and comes out; nothing is owed;
    the kernel has no semaphore of its own. -/
def reg16 : Pipeline.RegionSeg (pcfgs (F := F)) GenP.adm (pdats m) () defs₀ 𝒱₀ L lv 16 where
  win := launch16.win.to₀
  block_pos := launch16.block_pos
  stage_whole := launch16.stage_whole
  K := PEmpty
  osem k := k.elim
  ho := Pipeline.OwnSemFacts.none _
  hbody c := (body_obligation16 (U33 m) c).loose
  hwaits := Pipeline.hwaits_of_owed_zero _ _ _ _ L lv 16 fun _ _ => rfl
  pre c := iprop(StableHlo.held (c : Thread nD τ) (Pipeline.ucRefs τ sig) (W33 m c) ∗ R c)
  post c := iprop(StableHlo.held (c : Thread nD τ) (Pipeline.ucRefs τ sig) (W34 m c) ∗ R c)
  X c := iprop(∃ r, prngReg c r)
  Y c := iprop(∃ r, prngReg c r)
  Z c := Pipeline.unscopedRest (Ix := Unit) (Name := ℕ) (U := UR sig nD τ) (Lvl := ℕ) spec16 c (U33 m c)
  hentry c := by
    rw [Pipeline.ownSems0_none]
    have hsplit := Pipeline.arrays_of_unscopedBufs (p := 16) (pcfgs (F := F)) GenP.adm (pdats m) launch16.win launch16.arr_whole c
      ((pdats m 16 c).share_full fun _ => rfl) (U33 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) GenP.adm (Ix := Unit) (Name := ℕ) (U := UR sig nD τ) (Lvl := ℕ)
      launch16.win launch16.arr_whole c (pdats m) ((pdats m 16 c).share_full fun _ => rfl)
      (U33 m c) (U34 m c) ((pdats m 16 c).arrAt · cfg16.N) (hF16 m c) (hrest16 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 17 (the segment sums plus the bias row b[1,1]) over the thread state: entered from every unscoped buffer at
    `W35`, left at `W36`. Its three arrays are split out of the unscoped buffers at entry and put back at the exit
    contents; the generator register goes into the class invariant and comes out; nothing is owed; the kernel has no
    semaphore of its own. -/
def reg17 : Pipeline.RegionSeg (pcfgs (F := F)) GenP.adm (pdats m) () defs₀ 𝒱₀ L lv 17 where
  win := launch17.win.to₀
  block_pos := launch17.block_pos
  stage_whole := launch17.stage_whole
  K := PEmpty
  osem k := k.elim
  ho := Pipeline.OwnSemFacts.none _
  hbody c := (body_obligation17 (U35 m) c).loose
  hwaits := Pipeline.hwaits_of_owed_zero _ _ _ _ L lv 17 fun _ _ => rfl
  pre c := iprop(StableHlo.held (c : Thread nD τ) (Pipeline.ucRefs τ sig) (W35 m c) ∗ R c)
  post c := iprop(StableHlo.held (c : Thread nD τ) (Pipeline.ucRefs τ sig) (W36 m c) ∗ R c)
  X c := iprop(∃ r, prngReg c r)
  Y c := iprop(∃ r, prngReg c r)
  Z c := Pipeline.unscopedRest (Ix := Unit) (Name := ℕ) (U := UR sig nD τ) (Lvl := ℕ) spec17 c (U35 m c)
  hentry c := by
    rw [Pipeline.ownSems0_none]
    have hsplit := Pipeline.arrays_of_unscopedBufs (p := 17) (pcfgs (F := F)) GenP.adm (pdats m) launch17.win launch17.arr_whole c
      ((pdats m 17 c).share_full fun _ => rfl) (U35 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 17 c).Φ 0 = Pipeline.ΦA spec17 c from rfl]; unfold Pipeline.ΦA
    iintro ⟨Hp, -, Hr⟩
    isplitl [Hr]; · iexact Hr
    iexact Hp
  hout c := by
    rw [Pipeline.ownSems0_none, show (pdats m 17 c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := 17) (pcfgs (F := F)) GenP.adm (Ix := Unit) (Name := ℕ) (U := UR sig nD τ) (Lvl := ℕ)
      launch17.win launch17.arr_whole c (pdats m) ((pdats m 17 c).share_full fun _ => rfl)
      (U35 m c) (U36 m c) ((pdats m 17 c).arrAt · cfg17.N) (hF17 m c) (hrest17 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RegsD.lean ====
/- The segments of @main's run for regions 18 to 23, the second half of layer 1: block 2 is the product user_ho · W[1,2] (18), the
   per-edge scaling of its gathered rows (19) and the bias b[1,2] with relu (20); block 3 is item_ho · W[1,3] (21), its scaling (22), b[1,3] with relu (23). -/
import proofs.«104107_j50560355009131_1_alg».proof.Proof.KI.Pdats

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

-- In each record below a library lemma stated over the pinned configuration has to unify with the printed one, which
-- needs plain definitions unfolded inside a metavariable's type; hence the option in front of each.
set_option backward.isDefEq.respectTransparency.types false in
/-- REGION 18 (user_ho · W[1,2]) over the thread state: entered from every unscoped buffer at `W37`, left at `W38`. Its
    three arrays are split out of the unscoped buffers at entry and put back at the exit contents; the generator register
    goes into the class invariant and comes out; nothing is owed; the kernel has no semaphore of its own. -/
def reg18 : Pipeline.RegionSeg (pcfgs (F := F)) GenP.adm (pdats m) () defs₀ 𝒱₀ L lv 18 where
  win := launch18.win.to₀
  block_pos := launch18.block_pos
  stage_whole := launch18.stage_whole
  K := PEmpty
  osem k := k.elim
  ho := Pipeline.OwnSemFacts.none _
  hbody c := (body_obligation18 (U37 m) c).loose
  hwaits := Pipeline.hwaits_of_owed_zero _ _ _ _ L lv 18 fun _ _ => rfl
  pre c := iprop(StableHlo.held (c : Thread nD τ) (Pipeline.ucRefs τ sig) (W37 m c) ∗ R c)
  post c := iprop(StableHlo.held (c : Thread nD τ) (Pipeline.ucRefs τ sig) (W38 m c) ∗ R c)
  X c := iprop(∃ r, prngReg c r)
  Y c := iprop(∃ r, prngReg c r)
  Z c := Pipeline.unscopedRest (Ix := Unit) (Name := ℕ) (U := UR sig nD τ) (Lvl := ℕ) spec18 c (U37 m c)
  hentry c := by
    rw [Pipeline.ownSems0_none]
    have hsplit := Pipeline.arrays_of_unscopedBufs (p := 18) (pcfgs (F := F)) GenP.adm (pdats m) launch18.win launch18.arr_whole c
      ((pdats m 18 c).share_full fun _ => rfl) (U37 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 18 c).Φ 0 = Pipeline.ΦA spec18 c from rfl]; unfold Pipeline.ΦA
    iintro ⟨Hp, -, Hr⟩
    isplitl [Hr]; · iexact Hr
    iexact Hp
  hout c := by
    rw [Pipeline.ownSems0_none, show (pdats m 18 c).Φ (Fin.last _) = Pipeline.ΦA spec18 c from rfl]; unfold Pipeline.ΦA
    iintro ⟨Hr, Hp⟩
    isplitl [Hp]; · iexact Hp
    isplitr; · iempintro
    iexact Hr
  hexit c := by
    have hjoin := Pipeline.unscopedBufs_of_arrays (p := 18) (pcfgs (F := F)) GenP.adm (Ix := Unit) (Name := ℕ) (U := UR sig nD τ) (Lvl := ℕ)
      launch18.win launch18.arr_whole c (pdats m) ((pdats m 18 c).share_full fun _ => rfl)
      (U37 m c) (U38 m c) ((pdats m 18 c).arrAt · cfg18.N) (hF18 m c) (hrest18 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 19 (the gathered rows of region 18's product, each scaled by its edge weight) over the thread state: entered
    from every unscoped buffer at `W39`, left at `W40`. Its three arrays are split out of the unscoped buffers at entry and
    put back at the exit contents; the generator register goes into the class invariant and comes out; nothing is owed;
    the kernel has no semaphore of its own. -/
def reg19 : Pipeline.RegionSeg (pcfgs (F := F)) GenP.adm (pdats m) () defs₀ 𝒱₀ L lv 19 where
  win := launch19.win.to₀
  block_pos := launch19.block_pos
  stage_whole := launch19.stage_whole
  K := PEmpty
  osem k := k.elim
  ho := Pipeline.OwnSemFacts.none _
  hbody c := (body_obligation19 (U39 m) c).loose
  hwaits := Pipeline.hwaits_of_owed_zero _ _ _ _ L lv 19 fun _ _ => rfl
  pre c := iprop(StableHlo.held (c : Thread nD τ) (Pipeline.ucRefs τ sig) (W39 m c) ∗ R c)
  post c := iprop(StableHlo.held (c : Thread nD τ) (Pipeline.ucRefs τ sig) (W40 m c) ∗ R c)
  X c := iprop(∃ r, prngReg c r)
  Y c := iprop(∃ r, prngReg c r)
  Z c := Pipeline.unscopedRest (Ix := Unit) (Name := ℕ) (U := UR sig nD τ) (Lvl := ℕ) spec19 c (U39 m c)
  hentry c := by
    rw [Pipeline.ownSems0_none]
    have hsplit := Pipeline.arrays_of_unscopedBufs (p := 19) (pcfgs (F := F)) GenP.adm (pdats m) launch19.win launch19.arr_whole c
      ((pdats m 19 c).share_full fun _ => rfl) (U39 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 19 c).Φ 0 = Pipeline.ΦA spec19 c from rfl]; unfold Pipeline.ΦA
    iintro ⟨Hp, -, Hr⟩
    isplitl [Hr]; · iexact Hr
    iexact Hp
  hout c := by
    rw [Pipeline.ownSems0_none, show (pdats m 19 c).Φ (Fin.last _) = Pipeline.ΦA spec19 c from rfl]; unfold Pipeline.ΦA
    iintro ⟨Hr, Hp⟩
    isplitl [Hp]; · iexact Hp
    isplitr; · iempintro
    iexact Hr
  hexit c := by
    have hjoin := Pipeline.unscopedBufs_of_arrays (p := 19) (pcfgs (F := F)) GenP.adm (Ix := Unit) (Name := ℕ) (U := UR sig nD τ) (Lvl := ℕ)
      launch19.win launch19.arr_whole c (pdats m) ((pdats m 19 c).share_full fun _ => rfl)
      (U39 m c) (U40 m c) ((pdats m 19 c).arrAt · cfg19.N) (hF19 m c) (hrest19 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 20 (the segment sums plus the bias row b[1,2], cut off below at zero) over the thread state: entered from every
    unscoped buffer at `W41`, left at `W42`. Its three arrays are split out of the unscoped buffers at entry and put back
    at the exit contents; the generator register goes into the class invariant and comes out; nothing is owed; the kernel
    has no semaphore of its own. -/
def reg20 : Pipeline.RegionSeg (pcfgs (F := F)) GenP.adm (pdats m) () defs₀ 𝒱₀ L lv 20 where
  win := launch20.win.to₀
  block_pos := launch20.block_pos
  stage_whole := launch20.stage_whole
  K := PEmpty
  osem k := k.elim
  ho := Pipeline.OwnSemFacts.none _
  hbody c := (body_obligation20 (U41 m) c).loose
  hwaits := Pipeline.hwaits_of_owed_zero _ _ _ _ L lv 20 fun _ _ => rfl
  pre c := iprop(StableHlo.held (c : Thread nD τ) (Pipeline.ucRefs τ sig) (W41 m c) ∗ R c)
  post c := iprop(StableHlo.held (c : Thread nD τ) (Pipeline.ucRefs τ sig) (W42 m c) ∗ R c)
  X c := iprop(∃ r, prngReg c r)
  Y c := iprop(∃ r, prngReg c r)
  Z c := Pipeline.unscopedRest (Ix := Unit) (Name := ℕ) (U := UR sig nD τ) (Lvl := ℕ) spec20 c (U41 m c)
  hentry c := by
    rw [Pipeline.ownSems0_none]
    have hsplit := Pipeline.arrays_of_unscopedBufs (p := 20) (pcfgs (F := F)) GenP.adm (pdats m) launch20.win launch20.arr_whole c
      ((pdats m 20 c).share_full fun _ => rfl) (U41 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 20 c).Φ 0 = Pipeline.ΦA spec20 c from rfl]; unfold Pipeline.ΦA
    iintro ⟨Hp, -, Hr⟩
    isplitl [Hr]; · iexact Hr
    iexact Hp
  hout c := by
    rw [Pipeline.ownSems0_none, show (pdats m 20 c).Φ (Fin.last _) = Pipeline.ΦA spec20 c from rfl]; unfold Pipeline.ΦA
    iintro ⟨Hr, Hp⟩
    isplitl [Hp]; · iexact Hp
    isplitr; · iempintro
    iexact Hr
  hexit c := by
    have hjoin := Pipeline.unscopedBufs_of_arrays (p := 20) (pcfgs (F := F)) GenP.adm (Ix := Unit) (Name := ℕ) (U := UR sig nD τ) (Lvl := ℕ)
      launch20.win launch20.arr_whole c (pdats m) ((pdats m 20 c).share_full fun _ => rfl)
      (U41 m c) (U42 m c) ((pdats m 20 c).arrAt · cfg20.N) (hF20 m c) (hrest20 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 21 (item_ho · W[1,3]) over the thread state: entered from every unscoped buffer at `W43`, left at `W44`. Its
    three arrays are split out of the unscoped buffers at entry and put back at the exit contents; the generator register
    goes into the class invariant and comes out; nothing is owed; the kernel has no semaphore of its own. -/
def reg21 : Pipeline.RegionSeg (pcfgs (F := F)) GenP.adm (pdats m) () defs₀ 𝒱₀ L lv 21 where
  win := launch21.win.to₀
  block_pos := launch21.block_pos
  stage_whole := launch21.stage_whole
  K := PEmpty
  osem k := k.elim
  ho := Pipeline.OwnSemFacts.none _
  hbody c := (body_obligation21 (U43 m) c).loose
  hwaits := Pipeline.hwaits_of_owed_zero _ _ _ _ L lv 21 fun _ _ => rfl
  pre c := iprop(StableHlo.held (c : Thread nD τ) (Pipeline.ucRefs τ sig) (W43 m c) ∗ R c)
  post c := iprop(StableHlo.held (c : Thread nD τ) (Pipeline.ucRefs τ sig) (W44 m c) ∗ R c)
  X c := iprop(∃ r, prngReg c r)
  Y c := iprop(∃ r, prngReg c r)
  Z c := Pipeline.unscopedRest (Ix := Unit) (Name := ℕ) (U := UR sig nD τ) (Lvl := ℕ) spec21 c (U43 m c)
  hentry c := by
    rw [Pipeline.ownSems0_none]
    have hsplit := Pipeline.arrays_of_unscopedBufs (p := 21) (pcfgs (F := F)) GenP.adm (pdats m) launch21.win launch21.arr_whole c
      ((pdats m 21 c).share_full fun _ => rfl) (U43 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 21 c).Φ 0 = Pipeline.ΦA spec21 c from rfl]; unfold Pipeline.ΦA
    iintro ⟨Hp, -, Hr⟩
    isplitl [Hr]; · iexact Hr
    iexact Hp
  hout c := by
    rw [Pipeline.ownSems0_none, show (pdats m 21 c).Φ (Fin.last _) = Pipeline.ΦA spec21 c from rfl]; unfold Pipeline.ΦA
    iintro ⟨Hr, Hp⟩
    isplitl [Hp]; · iexact Hp
    isplitr; · iempintro
    iexact Hr
  hexit c := by
    have hjoin := Pipeline.unscopedBufs_of_arrays (p := 21) (pcfgs (F := F)) GenP.adm (Ix := Unit) (Name := ℕ) (U := UR sig nD τ) (Lvl := ℕ)
      launch21.win launch21.arr_whole c (pdats m) ((pdats m 21 c).share_full fun _ => rfl)
      (U43 m c) (U44 m c) ((pdats m 21 c).arrAt · cfg21.N) (hF21 m c) (hrest21 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 22 (the gathered rows of region 21's product, each scaled by its edge weight) over the thread state: entered
    from every unscoped buffer at `W45`, left at `W46`. Its three arrays are split out of the unscoped buffers at entry and
    put back at the exit contents; the generator register goes into the class invariant and comes out; nothing is owed;
    the kernel has no semaphore of its own. -/
def reg22 : Pipeline.RegionSeg (pcfgs (F := F)) GenP.adm (pdats m) () defs₀ 𝒱₀ L lv 22 where
  win := launch22.win.to₀
  block_pos := launch22.block_pos
  stage_whole := launch22.stage_whole
  K := PEmpty
  osem k := k.elim
  ho := Pipeline.OwnSemFacts.none _
  hbody c := (body_obligation22 (U45 m) c).loose
  hwaits := Pipeline.hwaits_of_owed_zero _ _ _ _ L lv 22 fun _ _ => rfl
  pre c := iprop(StableHlo.held (c : Thread nD τ) (Pipeline.ucRefs τ sig) (W45 m c) ∗ R c)
  post c := iprop(StableHlo.held (c : Thread nD τ) (Pipeline.ucRefs τ sig) (W46 m c) ∗ R c)
  X c := iprop(∃ r, prngReg c r)
  Y c := iprop(∃ r, prngReg c r)
  Z c := Pipeline.unscopedRest (Ix := Unit) (Name := ℕ) (U := UR sig nD τ) (Lvl := ℕ) spec22 c (U45 m c)
  hentry c := by
    rw [Pipeline.ownSems0_none]
    have hsplit := Pipeline.arrays_of_unscopedBufs (p := 22) (pcfgs (F := F)) GenP.adm (pdats m) launch22.win launch22.arr_whole c
      ((pdats m 22 c).share_full fun _ => rfl) (U45 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 22 c).Φ 0 = Pipeline.ΦA spec22 c from rfl]; unfold Pipeline.ΦA
    iintro ⟨Hp, -, Hr⟩
    isplitl [Hr]; · iexact Hr
    iexact Hp
  hout c := by
    rw [Pipeline.ownSems0_none, show (pdats m 22 c).Φ (Fin.last _) = Pipeline.ΦA spec22 c from rfl]; unfold Pipeline.ΦA
    iintro ⟨Hr, Hp⟩
    isplitl [Hp]; · iexact Hp
    isplitr; · iempintro
    iexact Hr
  hexit c := by
    have hjoin := Pipeline.unscopedBufs_of_arrays (p := 22) (pcfgs (F := F)) GenP.adm (Ix := Unit) (Name := ℕ) (U := UR sig nD τ) (Lvl := ℕ)
      launch22.win launch22.arr_whole c (pdats m) ((pdats m 22 c).share_full fun _ => rfl)
      (U45 m c) (U46 m c) ((pdats m 22 c).arrAt · cfg22.N) (hF22 m c) (hrest22 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 23 (the segment sums plus the bias row b[1,3], cut off below at zero) over the thread state: entered from every
    unscoped buffer at `W47`, left at `W48`. Its three arrays are split out of the unscoped buffers at entry and put back
    at the exit contents; the generator register goes into the class invariant and comes out; nothing is owed; the kernel
    has no semaphore of its own. -/
def reg23 : Pipeline.RegionSeg (pcfgs (F := F)) GenP.adm (pdats m) () defs₀ 𝒱₀ L lv 23 where
  win := launch23.win.to₀
  block_pos := launch23.block_pos
  stage_whole := launch23.stage_whole
  K := PEmpty
  osem k := k.elim
  ho := Pipeline.OwnSemFacts.none _
  hbody c := (body_obligation23 (U47 m) c).loose
  hwaits := Pipeline.hwaits_of_owed_zero _ _ _ _ L lv 23 fun _ _ => rfl
  pre c := iprop(StableHlo.held (c : Thread nD τ) (Pipeline.ucRefs τ sig) (W47 m c) ∗ R c)
  post c := iprop(StableHlo.held (c : Thread nD τ) (Pipeline.ucRefs τ sig) (W48 m c) ∗ R c)
  X c := iprop(∃ r, prngReg c r)
  Y c := iprop(∃ r, prngReg c r)
  Z c := Pipeline.unscopedRest (Ix := Unit) (Name := ℕ) (U := UR sig nD τ) (Lvl := ℕ) spec23 c (U47 m c)
  hentry c := by
    rw [Pipeline.ownSems0_none]
    have hsplit := Pipeline.arrays_of_unscopedBufs (p := 23) (pcfgs (F := F)) GenP.adm (pdats m) launch23.win launch23.arr_whole c
      ((pdats m 23 c).share_full fun _ => rfl) (U47 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 23 c).Φ 0 = Pipeline.ΦA spec23 c from rfl]; unfold Pipeline.ΦA
    iintro ⟨Hp, -, Hr⟩
    isplitl [Hr]; · iexact Hr
    iexact Hp
  hout c := by
    rw [Pipeline.ownSems0_none, show (pdats m 23 c).Φ (Fin.last _) = Pipeline.ΦA spec23 c from rfl]; unfold Pipeline.ΦA
    iintro ⟨Hr, Hp⟩
    isplitl [Hp]; · iexact Hp
    isplitr; · iempintro
    iexact Hr
  hexit c := by
    have hjoin := Pipeline.unscopedBufs_of_arrays (p := 23) (pcfgs (F := F)) GenP.adm (Ix := Unit) (Name := ℕ) (U := UR sig nD τ) (Lvl := ℕ)
      launch23.win launch23.arr_whole c (pdats m) ((pdats m 23 c).share_full fun _ => rfl)
      (U47 m c) (U48 m c) ((pdats m 23 c).arrAt · cfg23.N) (hF23 m c) (hrest23 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/- The run of @main over its 49 items: 25 host stretches and 24 regions, each region by its segment record, the
   buffers' contents at every boundary the ones of Fold.lean. Every weakly fair execution from a memory `m` with zero
   counters terminates without a fault, and in every final memory each unscoped buffer holds the last boundary's
   contents. The argument arrays are then read back to their launch contents (no item writes one), and the two result
   arrays are read at what the last host stretch leaves in them. -/
import proofs.«104107_j50560355009131_1_alg».proof.Proof.KI.RegsA
import proofs.«104107_j50560355009131_1_alg».proof.Proof.KI.RegsB
import proofs.«104107_j50560355009131_1_alg».proof.Proof.KI.RegsC
import proofs.«104107_j50560355009131_1_alg».proof.Proof.KI.RegsD

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Two names of one valuation hold the same buffers. -/
theorem held_of_eq {c : Dev nD} {V W : Valuation τ sig (Elt F)} (h : V = W) (X : sProp 𝕄) :
    iprop(StableHlo.held (c : Thread nD τ) (Pipeline.ucRefs τ sig) V ∗ X) ⊢ iprop(StableHlo.held (c : Thread nD τ) (Pipeline.ucRefs τ sig) W ∗ X) :=
  h ▸ .rfl

/-- What rides beside the buffers is the same at every boundary. -/
abbrev Erest : Fin 25 → Dev nD → sProp 𝕄 := fun _ c => R c

/-- @main's items as segments: the host stretches of the conditional frame, the regions' records. -/
abbrev allSegs (c : Dev nD) : List (Seg (pcfgs (F := F)) GenP.adm (pdats m) () defs₀ 𝒱₀ L lv) :=
  GenP.segs m (outs m) 𝒱₀ L lv Erest () (pdats m) (reg0 m) (reg1 m) (reg2 m) (reg3 m) (reg4 m) (reg5 m) (reg6 m) (reg7 m) (reg8 m)
    (reg9 m) (reg10 m) (reg11 m) (reg12 m) (reg13 m) (reg14 m) (reg15 m) (reg16 m) (reg17 m) (reg18 m) (reg19 m) (reg20 m)
    (reg21 m) (reg22 m) (reg23 m) c

set_option maxHeartbeats 0 in
set_option backward.isDefEq.respectTransparency.types false in
/-- THE RUN: every weakly fair execution of @main terminates, nothing faulting, with every unscoped buffer of every core
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W49 m c b) := by
  refine Pipeline.θ_run_regions_kit_dev (pcfgs (F := F)) GenP.adm (pdats m) () cellOf_inj emb₁ defs₀ 𝒱₀ L lv m ρ main
    (allSegs m)
    (fun c Q => by
      rewrite [main_chain c, Seg.run_eq_chain,
        show (allSegs m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          Prog.lift (.customCall (Pipeline.entry 15) ()),
          StableHlo.seq hostOps16,
          Prog.lift (.customCall (Pipeline.entry 16) ()),
          StableHlo.seq hostOps17,
          Prog.lift (.customCall (Pipeline.entry 17) ()),
          StableHlo.seq hostOps18,
          Prog.lift (.customCall (Pipeline.entry 18) ()),
          StableHlo.seq hostOps19,
          Prog.lift (.customCall (Pipeline.entry 19) ()),
          StableHlo.seq hostOps20,
          Prog.lift (.customCall (Pipeline.entry 20) ()),
          StableHlo.seq hostOps21,
          Prog.lift (.customCall (Pipeline.entry 21) ()),
          StableHlo.seq hostOps22,
          Prog.lift (.customCall (Pipeline.entry 22) ()),
          StableHlo.seq hostOps23,
          Prog.lift (.customCall (Pipeline.entry 23) ()),
          StableHlo.seq hostOps24 ] from rfl]
      exact .rfl)
    (fun c => by simp only [allSegs, GenP.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (GenP.V0 m c) ∗ R c))
    (Tₙ := fun c => StableHlo.held (c : Thread nD τ) (Pipeline.ucRefs τ sig) (W49 m c))
    (hch := fun c => ⟨.rfl,
      held_of_eq (V1_eq m c) (R c), held_of_eq (V2_eq m c).symm (R c),
      held_of_eq (V3_eq m c) (R c), held_of_eq (V4_eq m c).symm (R c),
      held_of_eq (V5_eq m c) (R c), held_of_eq (V6_eq m c).symm (R c),
      held_of_eq (V7_eq m c) (R c), held_of_eq (V8_eq m c).symm (R c),
      held_of_eq (V9_eq m c) (R c), held_of_eq (V10_eq m c).symm (R c),
      held_of_eq (V11_eq m c) (R c), held_of_eq (V12_eq m c).symm (R c),
      held_of_eq (V13_eq m c) (R c), held_of_eq (V14_eq m c).symm (R c),
      held_of_eq (V15_eq m c) (R c), held_of_eq (V16_eq m c).symm (R c),
      held_of_eq (V17_eq m c) (R c), held_of_eq (V18_eq m c).symm (R c),
      held_of_eq (V19_eq m c) (R c), held_of_eq (V20_eq m c).symm (R c),
      held_of_eq (V21_eq m c) (R c), held_of_eq (V22_eq m c).symm (R c),
      held_of_eq (V23_eq m c) (R c), held_of_eq (V24_eq m c).symm (R c),
      held_of_eq (V25_eq m c) (R c), held_of_eq (V26_eq m c).symm (R c),
      held_of_eq (V27_eq m c) (R c), held_of_eq (V28_eq m c).symm (R c),
      held_of_eq (V29_eq m c) (R c), held_of_eq (V30_eq m c).symm (R c),
      held_of_eq (V31_eq m c) (R c), held_of_eq (V32_eq m c).symm (R c),
      held_of_eq (V33_eq m c) (R c), held_of_eq (V34_eq m c).symm (R c),
      held_of_eq (V35_eq m c) (R c), held_of_eq (V36_eq m c).symm (R c),
      held_of_eq (V37_eq m c) (R c), held_of_eq (V38_eq m c).symm (R c),
      held_of_eq (V39_eq m c) (R c), held_of_eq (V40_eq m c).symm (R c),
      held_of_eq (V41_eq m c) (R c), held_of_eq (V42_eq m c).symm (R c),
      held_of_eq (V43_eq m c) (R c), held_of_eq (V44_eq m c).symm (R c),
      held_of_eq (V45_eq m c) (R c), held_of_eq (V46_eq m c).symm (R c),
      held_of_eq (V47_eq m c) (R c), held_of_eq (V48_eq m c).symm (R c),
      (held_of_eq (V49_eq m c) (R c)).trans (sep_mono .rfl (by iintro ⟨-, H⟩; iexact H))⟩)
    (hinit := ?_) (QY := fun c s => ∀ b ∈ Pipeline.ucRefs τ sig, s.mem (((c : Thread nD τ)).1, b) = W49 m c b)
    (hfin := fun c s' => ?_) (hQ := fun _ h => h)
  · -- the launch: every core's unscoped buffers are held at the launch contents, its generator register is somewhere,
    -- and it owes nothing
    refine Pipeline.initEach L lv fun c => ?_
    rw [show unscopedBufs c (fun b => m ((c : Thread nD τ).loc b)) = StableHlo.held (c : Thread nD τ) (Pipeline.ucRefs τ sig) (GenP.V0 m c)
      from Pipeline.unscopedBufs_held c (GenP.V0 m c)]
    iintro ⟨⟨Hh, -, HO, -, Hp, -⟩, -⟩
    imodintro
    isplitl [Hh]; · iexact Hh
    isplitl [Hp]; · iexists _; iexact Hp
    iexists ∅; iexact HO
  · -- the end: the last thread state read against the final memory
    iintro ⟨Hh, HSI⟩
    unfold StableHlo.held
    imodintro
    iapply (pointsTo_read_all (Pipeline.ucRefs τ sig) (fun b => (((c : Thread nD τ)).1, b)) (W49 m c) s')
    isplitl [Hh] <;> iassumption

end Cert.KernelIdeal.Hand

end
-- ==== Proof.KI.Keep.lean ====
/- Across one item of @main a buffer the item does not write is unchanged: a host stretch writes the results of its own
   operations, a region its output array. So the seven argument arrays, which no item writes, hold their launch
   contents at every boundary. -/
import proofs.«104107_j50560355009131_1_alg».proof.Proof.KI.Fold

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ)

/-! ## One item at a time -/

theorem keep1 (c : Dev nD) (r : Ref sig .tc) (h : r ∉ GenP.hostOps0_W) : W1 m c r = W0 m c r := GenP.V1_of m c r h
theorem keep2 (c : Dev nD) (r : Ref sig .tc) (h : r ≠ main_v2) : W2 m c r = W1 m c r := W2_of_ne m c r h
theorem keep3 (c : Dev nD) (r : Ref sig .tc) (h : r ∉ GenP.hostOps1_W) : W3 m c r = W2 m c r := by
  have e := GenP.V3_of m (outs m) c r h; rwa [V3_eq, V2_eq] at e
theorem keep4 (c : Dev nD) (r : Ref sig .tc) (h : r ≠ main_v11) : W4 m c r = W3 m c r := W4_of_ne m c r h
theorem keep5 (c : Dev nD) (r : Ref sig .tc) (h : r ∉ GenP.hostOps2_W) : W5 m c r = W4 m c r := by
  have e := GenP.V5_of m (outs m) c r h; rwa [V5_eq, V4_eq] at e
theorem keep6 (c : Dev nD) (r : Ref sig .tc) (h : r ≠ main_v18) : W6 m c r = W5 m c r := W6_of_ne m c r h
theorem keep7 (c : Dev nD) (r : Ref sig .tc) (h : r ∉ GenP.hostOps3_W) : W7 m c r = W6 m c r := by
  have e := GenP.V7_of m (outs m) c r h; rwa [V7_eq, V6_eq] at e
theorem keep8 (c : Dev nD) (r : Ref sig .tc) (h : r ≠ main_v21) : W8 m c r = W7 m c r := W8_of_ne m c r h
theorem keep9 (c : Dev nD) (r : Ref sig .tc) (h : r ∉ GenP.hostOps4_W) : W9 m c r = W8 m c r := by
  have e := GenP.V9_of m (outs m) c r h; rwa [V9_eq, V8_eq] at e
theorem keep10 (c : Dev nD) (r : Ref sig .tc) (h : r ≠ main_v30) : W10 m c r = W9 m c r := W10_of_ne m c r h
theorem keep11 (c : Dev nD) (r : Ref sig .tc) (h : r ∉ GenP.hostOps5_W) : W11 m c r = W10 m c r := by
  have e := GenP.V11_of m (outs m) c r h; rwa [V11_eq, V10_eq] at e
theorem keep12 (c : Dev nD) (r : Ref sig .tc) (h : r ≠ main_v37) : W12 m c r = W11 m c r := W12_of_ne m c r h
theorem keep13 (c : Dev nD) (r : Ref sig .tc) (h : r ∉ GenP.hostOps6_W) : W13 m c r = W12 m c r := by
  have e := GenP.V13_of m (outs m) c r h; rwa [V13_eq, V12_eq] at e
theorem keep14 (c : Dev nD) (r : Ref sig .tc) (h : r ≠ main_v40) : W14 m c r = W13 m c r := W14_of_ne m c r h
theorem keep15 (c : Dev nD) (r : Ref sig .tc) (h : r ∉ GenP.hostOps7_W) : W15 m c r = W14 m c r := by
  have e := GenP.V15_of m (outs m) c r h; rwa [V15_eq, V14_eq] at e
theorem keep16 (c : Dev nD) (r : Ref sig .tc) (h : r ≠ main_v49) : W16 m c r = W15 m c r := W16_of_ne m c r h
theorem keep17 (c : Dev nD) (r : Ref sig .tc) (h : r ∉ GenP.hostOps8_W) : W17 m c r = W16 m c r := by
  have e := GenP.V17_of m (outs m) c r h; rwa [V17_eq, V16_eq] at e
theorem keep18 (c : Dev nD) (r : Ref sig .tc) (h : r ≠ main_v56) : W18 m c r = W17 m c r := W18_of_ne m c r h
theorem keep19 (c : Dev nD) (r : Ref sig .tc) (h : r ∉ GenP.hostOps9_W) : W19 m c r = W18 m c r := by
  have e := GenP.V19_of m (outs m) c r h; rwa [V19_eq, V18_eq] at e
theorem keep20 (c : Dev nD) (r : Ref sig .tc) (h : r ≠ main_v59) : W20 m c r = W19 m c r := W20_of_ne m c r h
theorem keep21 (c : Dev nD) (r : Ref sig .tc) (h : r ∉ GenP.hostOps10_W) : W21 m c r = W20 m c r := by
  have e := GenP.V21_of m (outs m) c r h; rwa [V21_eq, V20_eq] at e
theorem keep22 (c : Dev nD) (r : Ref sig .tc) (h : r ≠ main_v68) : W22 m c r = W21 m c r := W22_of_ne m c r h
theorem keep23 (c : Dev nD) (r : Ref sig .tc) (h : r ∉ GenP.hostOps11_W) : W23 m c r = W22 m c r := by
  have e := GenP.V23_of m (outs m) c r h; rwa [V23_eq, V22_eq] at e
theorem keep24 (c : Dev nD) (r : Ref sig .tc) (h : r ≠ main_v75) : W24 m c r = W23 m c r := W24_of_ne m c r h
theorem keep25 (c : Dev nD) (r : Ref sig .tc) (h : r ∉ GenP.hostOps12_W) : W25 m c r = W24 m c r := by
  have e := GenP.V25_of m (outs m) c r h; rwa [V25_eq, V24_eq] at e
theorem keep26 (c : Dev nD) (r : Ref sig .tc) (h : r ≠ main_v78) : W26 m c r = W25 m c r := W26_of_ne m c r h
theorem keep27 (c : Dev nD) (r : Ref sig .tc) (h : r ∉ GenP.hostOps13_W) : W27 m c r = W26 m c r := by
  have e := GenP.V27_of m (outs m) c r h; rwa [V27_eq, V26_eq] at e
theorem keep28 (c : Dev nD) (r : Ref sig .tc) (h : r ≠ main_v87) : W28 m c r = W27 m c r := W28_of_ne m c r h
theorem keep29 (c : Dev nD) (r : Ref sig .tc) (h : r ∉ GenP.hostOps14_W) : W29 m c r = W28 m c r := by
  have e := GenP.V29_of m (outs m) c r h; rwa [V29_eq, V28_eq] at e
theorem keep30 (c : Dev nD) (r : Ref sig .tc) (h : r ≠ main_v94) : W30 m c r = W29 m c r := W30_of_ne m c r h
theorem keep31 (c : Dev nD) (r : Ref sig .tc) (h : r ∉ GenP.hostOps15_W) : W31 m c r = W30 m c r := by
  have e := GenP.V31_of m (outs m) c r h; rwa [V31_eq, V30_eq] at e
theorem keep32 (c : Dev nD) (r : Ref sig .tc) (h : r ≠ main_v97) : W32 m c r = W31 m c r := W32_of_ne m c r h
theorem keep33 (c : Dev nD) (r : Ref sig .tc) (h : r ∉ GenP.hostOps16_W) : W33 m c r = W32 m c r := by
  have e := GenP.V33_of m (outs m) c r h; rwa [V33_eq, V32_eq] at e
theorem keep34 (c : Dev nD) (r : Ref sig .tc) (h : r ≠ main_v106) : W34 m c r = W33 m c r := W34_of_ne m c r h
theorem keep35 (c : Dev nD) (r : Ref sig .tc) (h : r ∉ GenP.hostOps17_W) : W35 m c r = W34 m c r := by
  have e := GenP.V35_of m (outs m) c r h; rwa [V35_eq, V34_eq] at e
theorem keep36 (c : Dev nD) (r : Ref sig .tc) (h : r ≠ main_v113) : W36 m c r = W35 m c r := W36_of_ne m c r h
theorem keep37 (c : Dev nD) (r : Ref sig .tc) (h : r ∉ GenP.hostOps18_W) : W37 m c r = W36 m c r := by
  have e := GenP.V37_of m (outs m) c r h; rwa [V37_eq, V36_eq] at e
theorem keep38 (c : Dev nD) (r : Ref sig .tc) (h : r ≠ main_v116) : W38 m c r = W37 m c r := W38_of_ne m c r h
theorem keep39 (c : Dev nD) (r : Ref sig .tc) (h : r ∉ GenP.hostOps19_W) : W39 m c r = W38 m c r := by
  have e := GenP.V39_of m (outs m) c r h; rwa [V39_eq, V38_eq] at e
theorem keep40 (c : Dev nD) (r : Ref sig .tc) (h : r ≠ main_v125) : W40 m c r = W39 m c r := W40_of_ne m c r h
theorem keep41 (c : Dev nD) (r : Ref sig .tc) (h : r ∉ GenP.hostOps20_W) : W41 m c r = W40 m c r := by
  have e := GenP.V41_of m (outs m) c r h; rwa [V41_eq, V40_eq] at e
theorem keep42 (c : Dev nD) (r : Ref sig .tc) (h : r ≠ main_v132) : W42 m c r = W41 m c r := W42_of_ne m c r h
theorem keep43 (c : Dev nD) (r : Ref sig .tc) (h : r ∉ GenP.hostOps21_W) : W43 m c r = W42 m c r := by
  have e := GenP.V43_of m (outs m) c r h; rwa [V43_eq, V42_eq] at e
theorem keep44 (c : Dev nD) (r : Ref sig .tc) (h : r ≠ main_v135) : W44 m c r = W43 m c r := W44_of_ne m c r h
theorem keep45 (c : Dev nD) (r : Ref sig .tc) (h : r ∉ GenP.hostOps22_W) : W45 m c r = W44 m c r := by
  have e := GenP.V45_of m (outs m) c r h; rwa [V45_eq, V44_eq] at e
theorem keep46 (c : Dev nD) (r : Ref sig .tc) (h : r ≠ main_v144) : W46 m c r = W45 m c r := W46_of_ne m c r h
theorem keep47 (c : Dev nD) (r : Ref sig .tc) (h : r ∉ GenP.hostOps23_W) : W47 m c r = W46 m c r := by
  have e := GenP.V47_of m (outs m) c r h; rwa [V47_eq, V46_eq] at e
theorem keep48 (c : Dev nD) (r : Ref sig .tc) (h : r ≠ main_v151) : W48 m c r = W47 m c r := W48_of_ne m c r h
theorem keep49 (c : Dev nD) (r : Ref sig .tc) (h : r ∉ GenP.hostOps24_W) : W49 m c r = W48 m c r := by
  have e := GenP.V49_of m (outs m) c r h; rwa [V49_eq, V48_eq] at e

/-! ## The arguments at every boundary -/

/-- The seven argument arrays. -/
abbrev argRefs : List (Ref sig .tc) := [main_arg0, main_arg1, main_arg2, main_arg3, main_arg4, main_arg5, main_arg6]

theorem args0 (c : Dev nD) : ∀ r ∈ argRefs, W0 m c r = m ((c : Thread nD τ).loc r) := fun _ _ => rfl
theorem args1 (c : Dev nD) : ∀ r ∈ argRefs, W1 m c r = m ((c : Thread nD τ).loc r) := fun r hr =>
  (keep1 m c r ((by decide : ∀ r ∈ argRefs, r ∉ GenP.hostOps0_W) r hr)).trans (args0 m c r hr)
theorem args2 (c : Dev nD) : ∀ r ∈ argRefs, W2 m c r = m ((c : Thread nD τ).loc r) := fun r hr =>
  (keep2 m c r ((by decide : ∀ r ∈ argRefs, r ≠ main_v2) r hr)).trans (args1 m c r hr)
theorem args3 (c : Dev nD) : ∀ r ∈ argRefs, W3 m c r = m ((c : Thread nD τ).loc r) := fun r hr =>
  (keep3 m c r ((by decide : ∀ r ∈ argRefs, r ∉ GenP.hostOps1_W) r hr)).trans (args2 m c r hr)
theorem args4 (c : Dev nD) : ∀ r ∈ argRefs, W4 m c r = m ((c : Thread nD τ).loc r) := fun r hr =>
  (keep4 m c r ((by decide : ∀ r ∈ argRefs, r ≠ main_v11) r hr)).trans (args3 m c r hr)
theorem args5 (c : Dev nD) : ∀ r ∈ argRefs, W5 m c r = m ((c : Thread nD τ).loc r) := fun r hr =>
  (keep5 m c r ((by decide : ∀ r ∈ argRefs, r ∉ GenP.hostOps2_W) r hr)).trans (args4 m c r hr)
theorem args6 (c : Dev nD) : ∀ r ∈ argRefs, W6 m c r = m ((c : Thread nD τ).loc r) := fun r hr =>
  (keep6 m c r ((by decide : ∀ r ∈ argRefs, r ≠ main_v18) r hr)).trans (args5 m c r hr)
theorem args7 (c : Dev nD) : ∀ r ∈ argRefs, W7 m c r = m ((c : Thread nD τ).loc r) := fun r hr =>
  (keep7 m c r ((by decide : ∀ r ∈ argRefs, r ∉ GenP.hostOps3_W) r hr)).trans (args6 m c r hr)
theorem args8 (c : Dev nD) : ∀ r ∈ argRefs, W8 m c r = m ((c : Thread nD τ).loc r) := fun r hr =>
  (keep8 m c r ((by decide : ∀ r ∈ argRefs, r ≠ main_v21) r hr)).trans (args7 m c r hr)
theorem args9 (c : Dev nD) : ∀ r ∈ argRefs, W9 m c r = m ((c : Thread nD τ).loc r) := fun r hr =>
  (keep9 m c r ((by decide : ∀ r ∈ argRefs, r ∉ GenP.hostOps4_W) r hr)).trans (args8 m c r hr)
theorem args10 (c : Dev nD) : ∀ r ∈ argRefs, W10 m c r = m ((c : Thread nD τ).loc r) := fun r hr =>
  (keep10 m c r ((by decide : ∀ r ∈ argRefs, r ≠ main_v30) r hr)).trans (args9 m c r hr)
theorem args11 (c : Dev nD) : ∀ r ∈ argRefs, W11 m c r = m ((c : Thread nD τ).loc r) := fun r hr =>
  (keep11 m c r ((by decide : ∀ r ∈ argRefs, r ∉ GenP.hostOps5_W) r hr)).trans (args10 m c r hr)
theorem args12 (c : Dev nD) : ∀ r ∈ argRefs, W12 m c r = m ((c : Thread nD τ).loc r) := fun r hr =>
  (keep12 m c r ((by decide : ∀ r ∈ argRefs, r ≠ main_v37) r hr)).trans (args11 m c r hr)
theorem args13 (c : Dev nD) : ∀ r ∈ argRefs, W13 m c r = m ((c : Thread nD τ).loc r) := fun r hr =>
  (keep13 m c r ((by decide : ∀ r ∈ argRefs, r ∉ GenP.hostOps6_W) r hr)).trans (args12 m c r hr)
theorem args14 (c : Dev nD) : ∀ r ∈ argRefs, W14 m c r = m ((c : Thread nD τ).loc r) := fun r hr =>
  (keep14 m c r ((by decide : ∀ r ∈ argRefs, r ≠ main_v40) r hr)).trans (args13 m c r hr)
theorem args15 (c : Dev nD) : ∀ r ∈ argRefs, W15 m c r = m ((c : Thread nD τ).loc r) := fun r hr =>
  (keep15 m c r ((by decide : ∀ r ∈ argRefs, r ∉ GenP.hostOps7_W) r hr)).trans (args14 m c r hr)
theorem args16 (c : Dev nD) : ∀ r ∈ argRefs, W16 m c r = m ((c : Thread nD τ).loc r) := fun r hr =>
  (keep16 m c r ((by decide : ∀ r ∈ argRefs, r ≠ main_v49) r hr)).trans (args15 m c r hr)
theorem args17 (c : Dev nD) : ∀ r ∈ argRefs, W17 m c r = m ((c : Thread nD τ).loc r) := fun r hr =>
  (keep17 m c r ((by decide : ∀ r ∈ argRefs, r ∉ GenP.hostOps8_W) r hr)).trans (args16 m c r hr)
theorem args18 (c : Dev nD) : ∀ r ∈ argRefs, W18 m c r = m ((c : Thread nD τ).loc r) := fun r hr =>
  (keep18 m c r ((by decide : ∀ r ∈ argRefs, r ≠ main_v56) r hr)).trans (args17 m c r hr)
theorem args19 (c : Dev nD) : ∀ r ∈ argRefs, W19 m c r = m ((c : Thread nD τ).loc r) := fun r hr =>
  (keep19 m c r ((by decide : ∀ r ∈ argRefs, r ∉ GenP.hostOps9_W) r hr)).trans (args18 m c r hr)
theorem args20 (c : Dev nD) : ∀ r ∈ argRefs, W20 m c r = m ((c : Thread nD τ).loc r) := fun r hr =>
  (keep20 m c r ((by decide : ∀ r ∈ argRefs, r ≠ main_v59) r hr)).trans (args19 m c r hr)
theorem args21 (c : Dev nD) : ∀ r ∈ argRefs, W21 m c r = m ((c : Thread nD τ).loc r) := fun r hr =>
  (keep21 m c r ((by decide : ∀ r ∈ argRefs, r ∉ GenP.hostOps10_W) r hr)).trans (args20 m c r hr)
theorem args22 (c : Dev nD) : ∀ r ∈ argRefs, W22 m c r = m ((c : Thread nD τ).loc r) := fun r hr =>
  (keep22 m c r ((by decide : ∀ r ∈ argRefs, r ≠ main_v68) r hr)).trans (args21 m c r hr)
theorem args23 (c : Dev nD) : ∀ r ∈ argRefs, W23 m c r = m ((c : Thread nD τ).loc r) := fun r hr =>
  (keep23 m c r ((by decide : ∀ r ∈ argRefs, r ∉ GenP.hostOps11_W) r hr)).trans (args22 m c r hr)
theorem args24 (c : Dev nD) : ∀ r ∈ argRefs, W24 m c r = m ((c : Thread nD τ).loc r) := fun r hr =>
  (keep24 m c r ((by decide : ∀ r ∈ argRefs, r ≠ main_v75) r hr)).trans (args23 m c r hr)
theorem args25 (c : Dev nD) : ∀ r ∈ argRefs, W25 m c r = m ((c : Thread nD τ).loc r) := fun r hr =>
  (keep25 m c r ((by decide : ∀ r ∈ argRefs, r ∉ GenP.hostOps12_W) r hr)).trans (args24 m c r hr)
theorem args26 (c : Dev nD) : ∀ r ∈ argRefs, W26 m c r = m ((c : Thread nD τ).loc r) := fun r hr =>
  (keep26 m c r ((by decide : ∀ r ∈ argRefs, r ≠ main_v78) r hr)).trans (args25 m c r hr)
theorem args27 (c : Dev nD) : ∀ r ∈ argRefs, W27 m c r = m ((c : Thread nD τ).loc r) := fun r hr =>
  (keep27 m c r ((by decide : ∀ r ∈ argRefs, r ∉ GenP.hostOps13_W) r hr)).trans (args26 m c r hr)
theorem args28 (c : Dev nD) : ∀ r ∈ argRefs, W28 m c r = m ((c : Thread nD τ).loc r) := fun r hr =>
  (keep28 m c r ((by decide : ∀ r ∈ argRefs, r ≠ main_v87) r hr)).trans (args27 m c r hr)
theorem args29 (c : Dev nD) : ∀ r ∈ argRefs, W29 m c r = m ((c : Thread nD τ).loc r) := fun r hr =>
  (keep29 m c r ((by decide : ∀ r ∈ argRefs, r ∉ GenP.hostOps14_W) r hr)).trans (args28 m c r hr)
theorem args30 (c : Dev nD) : ∀ r ∈ argRefs, W30 m c r = m ((c : Thread nD τ).loc r) := fun r hr =>
  (keep30 m c r ((by decide : ∀ r ∈ argRefs, r ≠ main_v94) r hr)).trans (args29 m c r hr)
theorem args31 (c : Dev nD) : ∀ r ∈ argRefs, W31 m c r = m ((c : Thread nD τ).loc r) := fun r hr =>
  (keep31 m c r ((by decide : ∀ r ∈ argRefs, r ∉ GenP.hostOps15_W) r hr)).trans (args30 m c r hr)
theorem args32 (c : Dev nD) : ∀ r ∈ argRefs, W32 m c r = m ((c : Thread nD τ).loc r) := fun r hr =>
  (keep32 m c r ((by decide : ∀ r ∈ argRefs, r ≠ main_v97) r hr)).trans (args31 m c r hr)
theorem args33 (c : Dev nD) : ∀ r ∈ argRefs, W33 m c r = m ((c : Thread nD τ).loc r) := fun r hr =>
  (keep33 m c r ((by decide : ∀ r ∈ argRefs, r ∉ GenP.hostOps16_W) r hr)).trans (args32 m c r hr)
theorem args34 (c : Dev nD) : ∀ r ∈ argRefs, W34 m c r = m ((c : Thread nD τ).loc r) := fun r hr =>
  (keep34 m c r ((by decide : ∀ r ∈ argRefs, r ≠ main_v106) r hr)).trans (args33 m c r hr)
theorem args35 (c : Dev nD) : ∀ r ∈ argRefs, W35 m c r = m ((c : Thread nD τ).loc r) := fun r hr =>
  (keep35 m c r ((by decide : ∀ r ∈ argRefs, r ∉ GenP.hostOps17_W) r hr)).trans (args34 m c r hr)
theorem args36 (c : Dev nD) : ∀ r ∈ argRefs, W36 m c r = m ((c : Thread nD τ).loc r) := fun r hr =>
  (keep36 m c r ((by decide : ∀ r ∈ argRefs, r ≠ main_v113) r hr)).trans (args35 m c r hr)
theorem args37 (c : Dev nD) : ∀ r ∈ argRefs, W37 m c r = m ((c : Thread nD τ).loc r) := fun r hr =>
  (keep37 m c r ((by decide : ∀ r ∈ argRefs, r ∉ GenP.hostOps18_W) r hr)).trans (args36 m c r hr)
theorem args38 (c : Dev nD) : ∀ r ∈ argRefs, W38 m c r = m ((c : Thread nD τ).loc r) := fun r hr =>
  (keep38 m c r ((by decide : ∀ r ∈ argRefs, r ≠ main_v116) r hr)).trans (args37 m c r hr)
theorem args39 (c : Dev nD) : ∀ r ∈ argRefs, W39 m c r = m ((c : Thread nD τ).loc r) := fun r hr =>
  (keep39 m c r ((by decide : ∀ r ∈ argRefs, r ∉ GenP.hostOps19_W) r hr)).trans (args38 m c r hr)
theorem args40 (c : Dev nD) : ∀ r ∈ argRefs, W40 m c r = m ((c : Thread nD τ).loc r) := fun r hr =>
  (keep40 m c r ((by decide : ∀ r ∈ argRefs, r ≠ main_v125) r hr)).trans (args39 m c r hr)
theorem args41 (c : Dev nD) : ∀ r ∈ argRefs, W41 m c r = m ((c : Thread nD τ).loc r) := fun r hr =>
  (keep41 m c r ((by decide : ∀ r ∈ argRefs, r ∉ GenP.hostOps20_W) r hr)).trans (args40 m c r hr)
theorem args42 (c : Dev nD) : ∀ r ∈ argRefs, W42 m c r = m ((c : Thread nD τ).loc r) := fun r hr =>
  (keep42 m c r ((by decide : ∀ r ∈ argRefs, r ≠ main_v132) r hr)).trans (args41 m c r hr)
theorem args43 (c : Dev nD) : ∀ r ∈ argRefs, W43 m c r = m ((c : Thread nD τ).loc r) := fun r hr =>
  (keep43 m c r ((by decide : ∀ r ∈ argRefs, r ∉ GenP.hostOps21_W) r hr)).trans (args42 m c r hr)
theorem args44 (c : Dev nD) : ∀ r ∈ argRefs, W44 m c r = m ((c : Thread nD τ).loc r) := fun r hr =>
  (keep44 m c r ((by decide : ∀ r ∈ argRefs, r ≠ main_v135) r hr)).trans (args43 m c r hr)
theorem args45 (c : Dev nD) : ∀ r ∈ argRefs, W45 m c r = m ((c : Thread nD τ).loc r) := fun r hr =>
  (keep45 m c r ((by decide : ∀ r ∈ argRefs, r ∉ GenP.hostOps22_W) r hr)).trans (args44 m c r hr)
theorem args46 (c : Dev nD) : ∀ r ∈ argRefs, W46 m c r = m ((c : Thread nD τ).loc r) := fun r hr =>
  (keep46 m c r ((by decide : ∀ r ∈ argRefs, r ≠ main_v144) r hr)).trans (args45 m c r hr)
theorem args47 (c : Dev nD) : ∀ r ∈ argRefs, W47 m c r = m ((c : Thread nD τ).loc r) := fun r hr =>
  (keep47 m c r ((by decide : ∀ r ∈ argRefs, r ∉ GenP.hostOps23_W) r hr)).trans (args46 m c r hr)
theorem args48 (c : Dev nD) : ∀ r ∈ argRefs, W48 m c r = m ((c : Thread nD τ).loc r) := fun r hr =>
  (keep48 m c r ((by decide : ∀ r ∈ argRefs, r ≠ main_v151) r hr)).trans (args47 m c r hr)
theorem args49 (c : Dev nD) : ∀ r ∈ argRefs, W49 m c r = m ((c : Thread nD τ).loc r) := fun r hr =>
  (keep49 m c r ((by decide : ∀ r ∈ argRefs, r ∉ GenP.hostOps24_W) r hr)).trans (args48 m c r hr)

end Cert.KernelIdeal.Hand

end
-- ==== Proof.KI.Frame.lean ====
/- The frame claim of the program: every weakly fair execution of @main terminates, nothing faulting, and every final
   memory holds each of the seven argument arrays as launched — the run of Run.lean read at the arguments, which no
   item writes (Keep.lean). -/
import proofs.«104107_j50560355009131_1_alg».proof.Proof.KI.Run
import proofs.«104107_j50560355009131_1_alg».proof.Proof.KI.Keep

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (args49 m c main_arg0 (by decide)),
     (h c _ (mem_uc main_arg1 (by decide))).trans (args49 m c main_arg1 (by decide)),
     (h c _ (mem_uc main_arg2 (by decide))).trans (args49 m c main_arg2 (by decide)),
     (h c _ (mem_uc main_arg3 (by decide))).trans (args49 m c main_arg3 (by decide)),
     (h c _ (mem_uc main_arg4 (by decide))).trans (args49 m c main_arg4 (by decide)),
     (h c _ (mem_uc main_arg5 (by decide))).trans (args49 m c main_arg5 (by decide)),
     (h c _ (mem_uc main_arg6 (by decide))).trans (args49 m c main_arg6 (by decide))⟩) (run_all m ρ)

end Cert.KernelIdeal.Hand

end
-- ==== Proof.LibMatmulPlain.lean ====
/-
  A plain matrix product (`p @ v`: an `M × K` left operand, a `K × N` right operand, an `M × N` result, dimension
  numbers `<[1], [0], [0], [1], [0, 0, 1, 1], [], []>`), read at one entry over the extended reals.

  Whatever record of dimension numbers carries those six lists, the left operand is read at row `p` of the result
  index and column `k` of the contraction, the right operand at row `k` and column `q`; the contraction index is
  one coordinate, so the sum over it is a sum over `Fin K`.  Into a zero accumulator the product's entry `(p, q)`
  is therefore `∑ k, l (p, k) · r (k, q)`; into any accumulator it is the accumulator's entry plus that sum.
-/
import Idealize.ShloMosaic.PureOps.Ideal
import Idealize.ShloMosaic.PureOps.Ideal.Laws
import Idealize.ShloMosaic.Lib.ValueIdx

noncomputable section

namespace Idealize.ShloMosaic.MatmulPlain

open Idealize.ShloMosaic Idealize.ShloMosaic.ValueIdx
open scoped BigOperators

variable {M N K : Nat}

/-- The six lists of dimension numbers of `p @ v`. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

theorem IsPlain.rank_contr (h : IsPlain D) : D.contr.rank = 1 := by
  rw [D.rank_contr, h.lc]; rfl

theorem IsPlain.size_contr (h : IsPlain D) : D.contr.size ⟨0, by rw [h.rank_contr]; exact Nat.one_pos⟩ = K := by
  have e := D.size_contr 0 (by rw [h.lc]; exact Nat.one_pos)
  rw [e]
  simp only [h.lc]
  rfl

/-- The left operand's row is the result's row. -/
theorem IsPlain.lhs_row (h : IsPlain D) (j : (⟨2, ![M, N]⟩ : Shape).Idx) (k : D.contr.Idx) :
    (D.lhsIdx j k 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's column is the result's column. -/
theorem IsPlain.rhs_col (h : IsPlain D) (j : (⟨2, ![M, N]⟩ : Shape).Idx) (k : D.contr.Idx) :
    (D.rhsIdx j k 1).val = (j 1).val := by
  have hb : (1 : Fin (⟨2, ![K, N]⟩ : Shape).rank) ∉ D.rhsBatch := by rw [h.rb]; exact List.not_mem_nil
  have hn : (1 : Fin (⟨2, ![K, N]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsPlain.contrEquiv (h : IsPlain D) : D.contr.Idx ≃ Fin K :=
  contrEquiv1 D K h.rank_contr h.size_contr

/-- The two operands' indices at result entry `(p, q)` and contraction coordinate `k`. -/
theorem IsPlain.lhsIdx_eq (h : IsPlain D) (p : Fin M) (q : Fin N) (k : Fin K) :
    D.lhsIdx (ix2 p q) (h.contrEquiv.symm k) = ix2 p k := by
  funext a
  apply Fin.ext
  match a with
  | ⟨0, _⟩ => exact h.lhs_row (ix2 p q) _
  | ⟨1, _⟩ =>
    show (D.lhsIdx (ix2 p q) (h.contrEquiv.symm k) 1).val = k.val
    rw [D.lhsIdx_val_of_single h.lc]
    exact contrEquiv1_symm_val D K h.rank_contr h.size_contr k

theorem IsPlain.rhsIdx_eq (h : IsPlain D) (p : Fin M) (q : Fin N) (k : Fin K) :
    D.rhsIdx (ix2 p q) (h.contrEquiv.symm k) = ix2 k q := by
  funext a
  apply Fin.ext
  match a with
  | ⟨0, _⟩ =>
    show (D.rhsIdx (ix2 p q) (h.contrEquiv.symm k) 0).val = k.val
    rw [D.rhsIdx_val_of_single h.rc]
    exact contrEquiv1_symm_val D K h.rank_contr h.size_contr k
  | ⟨1, _⟩ => exact h.rhs_col (ix2 p q) _

/-- The product into an accumulator, read at entry `(p, q)`: the accumulator there plus the sum over the shared
    axis of the operands' products. -/
theorem matmul_apply (h : IsPlain D) {φ₁ φ₂ : FTy} (prec : Option ContractPrecision)
    (l : FVec Ideal ⟨2, ![M, K]⟩ φ₁) (r : FVec Ideal ⟨2, ![K, N]⟩ φ₂) (acc : FVec Ideal ⟨2, ![M, N]⟩ .f32)
    (p : Fin M) (q : Fin N) :
    FloatOps.matmul D prec l r acc (ix2 p q) = acc (ix2 p q) + ∑ k : Fin K, l (ix2 p k) * r (ix2 k q) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q)
      = ∑ k : Fin K, l (ix2 p k) * r (ix2 k q) := by
  rw [matmul_apply h]
  show Ideal.ofBits .f32 0x00000000#32 + _ = _
  rw [Ideal.ofBits_zero_f32, zero_add]

end Idealize.ShloMosaic.MatmulPlain

end
-- ==== Proof.LibPlainProduct.lean ====
/-
  The matrix product as ONE function of its two operands, and the two spellings a program gives it.

  `prod l r` is the `M × N` array whose entry `(p, q)` is `∑ k, l (p, k) · r (k, q)`, a sum over the shared axis of
  extent `K`, taken over the extended reals.  A `tpu.matmul` into the zero accumulator and the host's `dot_general`,
  each carrying the dimension numbers of a plain product (`IsPlain`), are both `prod` of their operands — whatever the
  operands' float formats, and for the host whatever its schedule key.  So a kernel that multiplies row blocks and a
  reference that multiplies the whole array meet at `prod`: row `p` of the product depends on row `p` of the left
  operand only.
-/
import proofs.«104107_j50560355009131_1_alg».proof.Proof.LibMatmulPlain

noncomputable section

namespace Idealize.ShloMosaic.MatmulPlain

open Idealize.ShloMosaic Idealize.ShloMosaic.ValueIdx
open scoped BigOperators

variable {M N K : Nat} {D : DotDims ⟨2, ![M, K]⟩ ⟨2, ![K, N]⟩ ⟨2, ![M, N]⟩}

/-- The product of an `M × K` and a `K × N` array: entry `j` is the sum over the shared axis of the products of row
    `j 0` of the left operand with column `j 1` of the right one. -/
def prod {φ₁ φ₂ : FTy} (l : FVec Ideal ⟨2, ![M, K]⟩ φ₁) (r : FVec Ideal ⟨2, ![K, N]⟩ φ₂) : FVec Ideal ⟨2, ![M, N]⟩ .f32 :=
  fun j => ∑ k : Fin K, l (ix2 (j 0) k) * r (ix2 k (j 1))

theorem prod_apply {φ₁ φ₂ : FTy} (l : FVec Ideal ⟨2, ![M, K]⟩ φ₁) (r : FVec Ideal ⟨2, ![K, N]⟩ φ₂) (p : Fin M) (q : Fin N) :
    prod l r (ix2 p q) = ∑ k : Fin K, l (ix2 p k) * r (ix2 k q) := rfl

/-- The host's `dot_general` with a plain product's dimension numbers, read at entry `(p, q)`. -/
theorem dotGeneral_apply (h : IsPlain D) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) := by
  rw [Ideal.dotGeneral_apply, ← Equiv.sum_comp h.contrEquiv.symm]
  refine Finset.sum_congr rfl fun k _ => ?_
  rw [h.lhsIdx_eq, h.rhsIdx_eq]

/-- A `tpu.matmul` into the zero accumulator is the product. -/
theorem matmul_zero_eq_prod (h : IsPlain D) {φ₁ φ₂ : FTy} (prec : Option ContractPrecision)
    (l : FVec Ideal ⟨2, ![M, K]⟩ φ₁) (r : FVec Ideal ⟨2, ![K, N]⟩ φ₂) :
    FloatOps.matmul D prec l r (constant ⟨2, ![M, N]⟩ .f32 0x00000000#32) = prod l r := by
  funext j
  obtain ⟨p, q, rfl⟩ : ∃ (p : Fin M) (q : Fin N), j = ix2 p q := ⟨j 0, j 1, eq_ix2 j⟩
  exact matmul_zero_apply h prec l r p q

/-- The host's `dot_general` is the product. -/
theorem dotGeneral_eq_prod (h : IsPlain D) {φ₁ φ₂ : FTy} (prec : Option ContractPrecision) (sched : HostSchedule)
    (l : FVec Ideal ⟨2, ![M, K]⟩ φ₁) (r : FVec Ideal ⟨2, ![K, N]⟩ φ₂) :
    FloatOps.dotGeneral D prec sched l r = prod l r := by
  funext j
  obtain ⟨p, q, rfl⟩ : ∃ (p : Fin M) (q : Fin N), j = ix2 p q := ⟨j 0, j 1, eq_ix2 j⟩
  exact dotGeneral_apply h prec sched l r p q

/-- Row `p` of the product is the product of row `p`: if two left operands agree on a row (here: a row of a block and
    the row of the whole array it was cut from), the products agree on that row. -/
theorem prod_row_congr {M' : Nat} {φ₁ φ₁' φ₂ : FTy} (l : FVec Ideal ⟨2, ![M, K]⟩ φ₁) (l' : FVec Ideal ⟨2, ![M', K]⟩ φ₁')
    (r : FVec Ideal ⟨2, ![K, N]⟩ φ₂) (p : Fin M) (p' : Fin M') (q : Fin N)
    (hrow : ∀ k : Fin K, l (ix2 p k) = l' (ix2 p' k)) :
    prod l r (ix2 p q) = prod l' r (ix2 p' q) := by
  rw [prod_apply, prod_apply]
  exact Finset.sum_congr rfl fun k _ => by rw [hrow k]

end Idealize.ShloMosaic.MatmulPlain

end
-- ==== Proof.LibProdEntries.lean ====
/-
  An entry of a matrix product depends on one row of the left operand and one column of the right one.

  If row `j 0` of `l` is row `j' 0` of `l'` and column `j 1` of `r` is column `j' 1` of `r'`, then entry `j` of
  `l · r` is entry `j'` of `l' · r'`: the two sums over the shared axis agree term by term.  This is how a product
  taken on a block of rows is read as a block of the product of the whole arrays.
-/
import proofs.«104107_j50560355009131_1_alg».proof.Proof.LibPlainProduct

noncomputable section

namespace Idealize.ShloMosaic.MatmulPlain

open Idealize.ShloMosaic Idealize.ShloMosaic.ValueIdx
open scoped BigOperators

/-- Entry `j` of `l · r` is entry `j'` of `l' · r'` when row `j 0` of `l` is row `j' 0` of `l'` and column `j 1` of `r` is
    column `j' 1` of `r'` (the operands may have different numbers of rows and of columns, and any float formats). -/
theorem prod_entry_congr {M M' K N N' : Nat} {φ₁ φ₁' φ₂ φ₂' : FTy}
    (l : FVec Ideal ⟨2, ![M, K]⟩ φ₁) (r : FVec Ideal ⟨2, ![K, N]⟩ φ₂)
    (l' : FVec Ideal ⟨2, ![M', K]⟩ φ₁') (r' : FVec Ideal ⟨2, ![K, N']⟩ φ₂')
    (j : (⟨2, ![M, N]⟩ : Shape).Idx) (j' : (⟨2, ![M', N']⟩ : Shape).Idx)
    (hl : ∀ k : Fin K, l (ix2 (j 0) k) = l' (ix2 (j' 0) k))
    (hr : ∀ k : Fin K, r (ix2 k (j 1)) = r' (ix2 k (j' 1))) :
    prod l r j = prod l' r' j' := by
  show ∑ k : Fin K, l (ix2 (j 0) k) * r (ix2 k (j 1)) = ∑ k : Fin K, l' (ix2 (j' 0) k) * r' (ix2 k (j' 1))
  exact Finset.sum_congr rfl fun k _ => by rw [hl k, hr k]

end Idealize.ShloMosaic.MatmulPlain

end
-- ==== Proof.LibLayerOps.lean ====
/-
  The pointwise steps of a graph-convolution layer around its matrix product, over the extended reals, for any
  extents, each as ONE function of its operands read at an entry — and the spellings a program gives them.

  * `scaleRows g s`: row `r` of `g` multiplied by the one entry of row `r` of the one-column array `s`
    (the per-edge normalisation of the gathered features);
  * `addRow a b`: the one-row array `b` added to every row of `a` (the bias);
  * `biasRelu a b`: the larger of `addRow a b` and zero;
  * `addCols p a b o`: `p` plus the columns `o, o+1, …` of `addRow a b` (the last layer's output added to the
    node positions and to the node types).

  An entry of each depends on the same row of the row-indexed operands and the same column of the bias only
  (`*_entry_congr`), so the step taken on a block of rows is that block of the step taken on the whole arrays.
  The host spells a one-column scale as two `broadcast_in_dim`s and a product, a bias as two `broadcast_in_dim`s
  and a sum, zero as a broadcast scalar; the vector unit spells them with `vector.broadcast`. A vector laid out as
  a column or as a row by a reshape is the same array as the one a `broadcast_in_dim` along the other axis gives.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Layer

open Idealize.ShloMosaic Idealize.ShloMosaic.ValueIdx

variable {n n' p w : Nat}

/-! ## The steps -/

/-- Row `r` of `g` times the entry of row `r` of the one-column array `s`. -/
def scaleRows (g : FVec Ideal ⟨2, ![n, p]⟩ .f32) (s : FVec Ideal ⟨2, ![n, 1]⟩ .f32) : FVec Ideal ⟨2, ![n, p]⟩ .f32 :=
  fun i => g i * s (ix2 (i 0) (0 : Fin 1))

/-- The one-row array `b` added to every row of `a`. -/
def addRow (a : FVec Ideal ⟨2, ![n, p]⟩ .f32) (b : FVec Ideal ⟨2, ![1, p]⟩ .f32) : FVec Ideal ⟨2, ![n, p]⟩ .f32 :=
  fun i => a i + b (ix2 (0 : Fin 1) (i 1))

/-- The larger of `a + b` (the bias row added to every row) and zero. -/
def biasRelu (a : FVec Ideal ⟨2, ![n, p]⟩ .f32) (b : FVec Ideal ⟨2, ![1, p]⟩ .f32) : FVec Ideal ⟨2, ![n, p]⟩ .f32 :=
  fun i => max (addRow a b i) 0

/-- `x` plus the `w` columns of `a + b` that start at column `o`. -/
def addCols (o : Nat) (ho : o + w ≤ p) (x : FVec Ideal ⟨2, ![n, w]⟩ .f32) (a : FVec Ideal ⟨2, ![n, p]⟩ .f32)
    (b : FVec Ideal ⟨2, ![1, p]⟩ .f32) : FVec Ideal ⟨2, ![n, w]⟩ .f32 :=
  fun i => x i + addRow a b (ix2 (i 0) (⟨o + (i 1).val, by have := (i 1).isLt; show o + (i 1).val < p; have h2 : (i 1).val < w := this; omega⟩ : Fin p))

/-! ## An entry depends on one row of the row-indexed operands -/

theorem scaleRows_entry_congr (g : FVec Ideal ⟨2, ![n, p]⟩ .f32) (s : FVec Ideal ⟨2, ![n, 1]⟩ .f32)
    (g' : FVec Ideal ⟨2, ![n', p]⟩ .f32) (s' : FVec Ideal ⟨2, ![n', 1]⟩ .f32)
    (i : (⟨2, ![n, p]⟩ : Shape).Idx) (i' : (⟨2, ![n', p]⟩ : Shape).Idx)
    (hg : g i = g' i') (hs : s (ix2 (i 0) (0 : Fin 1)) = s' (ix2 (i' 0) (0 : Fin 1))) :
    scaleRows g s i = scaleRows g' s' i' := by
  show g i * s _ = g' i' * s' _
  rw [hg, hs]

theorem addRow_entry_congr (a : FVec Ideal ⟨2, ![n, p]⟩ .f32) (b : FVec Ideal ⟨2, ![1, p]⟩ .f32)
    (a' : FVec Ideal ⟨2, ![n', p]⟩ .f32) (b' : FVec Ideal ⟨2, ![1, p]⟩ .f32)
    (i : (⟨2, ![n, p]⟩ : Shape).Idx) (i' : (⟨2, ![n', p]⟩ : Shape).Idx)
    (ha : a i = a' i') (hb : b (ix2 (0 : Fin 1) (i 1)) = b' (ix2 (0 : Fin 1) (i' 1))) :
    addRow a b i = addRow a' b' i' := by
  show a i + b _ = a' i' + b' _
  rw [ha, hb]

theorem biasRelu_entry_congr (a : FVec Ideal ⟨2, ![n, p]⟩ .f32) (b : FVec Ideal ⟨2, ![1, p]⟩ .f32)
    (a' : FVec Ideal ⟨2, ![n', p]⟩ .f32) (b' : FVec Ideal ⟨2, ![1, p]⟩ .f32)
    (i : (⟨2, ![n, p]⟩ : Shape).Idx) (i' : (⟨2, ![n', p]⟩ : Shape).Idx)
    (ha : a i = a' i') (hb : b (ix2 (0 : Fin 1) (i 1)) = b' (ix2 (0 : Fin 1) (i' 1))) :
    biasRelu a b i = biasRelu a' b' i' := by
  show max (addRow a b i) 0 = max (addRow a' b' i') 0
  rw [addRow_entry_congr a b a' b' i i' ha hb]

theorem addCols_entry_congr (o : Nat) (ho : o + w ≤ p)
    (x : FVec Ideal ⟨2, ![n, w]⟩ .f32) (a : FVec Ideal ⟨2, ![n, p]⟩ .f32) (b : FVec Ideal ⟨2, ![1, p]⟩ .f32)
    (x' : FVec Ideal ⟨2, ![n', w]⟩ .f32) (a' : FVec Ideal ⟨2, ![n', p]⟩ .f32) (b' : FVec Ideal ⟨2, ![1, p]⟩ .f32)
    (i : (⟨2, ![n, w]⟩ : Shape).Idx) (i' : (⟨2, ![n', w]⟩ : Shape).Idx)
    (hcol : (i 1).val = (i' 1).val)
    (hx : x i = x' i')
    (ha : ∀ q : Fin p, a (ix2 (i 0) q) = a' (ix2 (i' 0) q)) (hb : b = b') :
    addCols o ho x a b i = addCols o ho x' a' b' i' := by
  subst hb
  show x i + (a _ + b _) = x' i' + (a' _ + b _)
  have hq : (⟨o + (i 1).val, by have := (i 1).isLt; show o + (i 1).val < p; have h2 : (i 1).val < w := this; omega⟩ : Fin p)
      = ⟨o + (i' 1).val, by have := (i' 1).isLt; show o + (i' 1).val < p; have h2 : (i' 1).val < w := this; omega⟩ :=
    Fin.ext (by show o + (i 1).val = o + (i' 1).val; rw [hcol])
  rw [hx, ha, hq]
  rfl

/-! ## Layout steps read at an entry -/

section Layout
variable {α : Type}

/-- A one-column array spread over `p` columns by the vector unit reads, at `(r, q)`, the column's entry of row `r`. -/
theorem colSpreadTo_apply (s : (⟨2, ![n, 1]⟩ : Shape).Idx → α) (h : (⟨2, ![n, 1]⟩ : Shape).Broadcasts ⟨2, ![n, p]⟩)
    (r : Fin n) (q : Fin p) : broadcastTo ⟨2, ![n, p]⟩ s h (ix2 r q) = s (ix2 r (0 : Fin 1)) := by
  refine broadcastTo_apply s h (ix2 r q) (ix2 r (0 : Fin 1)) fun ax => ?_
  match ax with
  | ⟨0, _⟩ =>
    show r.val = if n = 1 then 0 else r.val
    split
    · have := r.isLt; omega
    · rfl
  | ⟨1, _⟩ => show 0 = if (1 : Nat) = 1 then 0 else q.val; rw [if_pos rfl]

/-- The same spread spelt by the host (`broadcast_in_dim` along both axes). -/
theorem colSpread_apply (s : (⟨2, ![n, 1]⟩ : Shape).Idx → α) (h : (⟨2, ![n, 1]⟩ : Shape).BroadcastsInDim ⟨2, ![n, p]⟩ ![0, 1])
    (r : Fin n) (q : Fin p) : broadcastInDim ⟨2, ![n, p]⟩ ![0, 1] h s (ix2 r q) = s (ix2 r (0 : Fin 1)) := by
  refine broadcastInDim_apply _ h s (ix2 r q) (ix2 r (0 : Fin 1)) fun ax => ?_
  match ax with
  | ⟨0, _⟩ =>
    show r.val = if n = 1 then 0 else r.val
    split
    · have := r.isLt; omega
    · rfl
  | ⟨1, _⟩ => show 0 = if (1 : Nat) = 1 then 0 else q.val; rw [if_pos rfl]

/-- A one-row array spread down `n` rows by the host reads, at `(r, q)`, the row's entry of column `q`. -/
theorem rowSpread_apply (b : (⟨2, ![1, p]⟩ : Shape).Idx → α) (h : (⟨2, ![1, p]⟩ : Shape).BroadcastsInDim ⟨2, ![n, p]⟩ ![0, 1])
    (r : Fin n) (q : Fin p) : broadcastInDim ⟨2, ![n, p]⟩ ![0, 1] h b (ix2 r q) = b (ix2 (0 : Fin 1) q) := by
  refine broadcastInDim_apply _ h b (ix2 r q) (ix2 (0 : Fin 1) q) fun ax => ?_
  match ax with
  | ⟨0, _⟩ => show 0 = if (1 : Nat) = 1 then 0 else r.val; rw [if_pos rfl]
  | ⟨1, _⟩ =>
    show q.val = if p = 1 then 0 else q.val
    split
    · have := q.isLt; omega
    · rfl

/-- A vector laid out as a column by the host (`broadcast_in_dim` along axis 0) reads, at `(r, u)`, the vector at `r`. -/
theorem colOf_apply (v : (⟨1, ![n]⟩ : Shape).Idx → α) (h : (⟨1, ![n]⟩ : Shape).BroadcastsInDim ⟨2, ![n, 1]⟩ ![0])
    (r : Fin n) (u : Fin 1) : broadcastInDim ⟨2, ![n, 1]⟩ ![0] h v (ix2 r u) = v (ix1 r) := by
  refine broadcastInDim_apply _ h v (ix2 r u) (ix1 r) fun ax => ?_
  match ax with
  | ⟨0, _⟩ =>
    show r.val = if n = 1 then 0 else r.val
    split
    · have := r.isLt; omega
    · rfl

/-- A vector laid out as a column by a reshape reads, at `(r, u)`, the vector at `r`. -/
theorem colCast_apply (v : (⟨1, ![n]⟩ : Shape).Idx → α) (h : (⟨1, ![n]⟩ : Shape).ShapeCasts ⟨2, ![n, 1]⟩)
    (r : Fin n) (u : Fin 1) : shapeCast ⟨2, ![n, 1]⟩ v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A vector laid out as a row by the host (`broadcast_in_dim` along axis 1) reads, at `(u, q)`, the vector at `q`. -/
theorem rowOf_apply (v : (⟨1, ![p]⟩ : Shape).Idx → α) (h : (⟨1, ![p]⟩ : Shape).BroadcastsInDim ⟨2, ![1, p]⟩ ![1])
    (u : Fin 1) (q : Fin p) : broadcastInDim ⟨2, ![1, p]⟩ ![1] h v (ix2 u q) = v (ix1 q) := by
  refine broadcastInDim_apply _ h v (ix2 u q) (ix1 q) fun ax => ?_
  match ax with
  | ⟨0, _⟩ =>
    show q.val = if p = 1 then 0 else q.val
    split
    · have := q.isLt; omega
    · rfl

/-- The reshape of a vector to a column IS its `broadcast_in_dim` along axis 0. -/
theorem colCast_eq_colOf (v : (⟨1, ![n]⟩ : Shape).Idx → α) (h : (⟨1, ![n]⟩ : Shape).ShapeCasts ⟨2, ![n, 1]⟩)
    (h' : (⟨1, ![n]⟩ : Shape).BroadcastsInDim ⟨2, ![n, 1]⟩ ![0]) :
    shapeCast ⟨2, ![n, 1]⟩ v h = broadcastInDim ⟨2, ![n, 1]⟩ ![0] h' v := by
  funext j
  obtain ⟨r, u, rfl⟩ : ∃ (r : Fin n) (u : Fin 1), j = ix2 r u := ⟨j 0, j 1, eq_ix2 j⟩
  rw [colCast_apply, colOf_apply]

/-- The reshape of a vector to a row IS its `broadcast_in_dim` along axis 1. -/
theorem rowCast_eq_rowOf (v : (⟨1, ![p]⟩ : Shape).Idx → α) (h : (⟨1, ![p]⟩ : Shape).ShapeCasts ⟨2, ![1, p]⟩)
    (h' : (⟨1, ![p]⟩ : Shape).BroadcastsInDim ⟨2, ![1, p]⟩ ![1]) :
    shapeCast ⟨2, ![1, p]⟩ v h = broadcastInDim ⟨2, ![1, p]⟩ ![1] h' v := by
  funext j
  obtain ⟨u, q, rfl⟩ : ∃ (u : Fin 1) (q : Fin p), j = ix2 u q := ⟨j 0, j 1, eq_ix2 j⟩
  rw [shapeCast_a_1a_apply, rowOf_apply]

end Layout

/-! ## The host's spellings -/

/-- The host's per-row scale: the product with the one-column array spread over the columns. -/
theorem host_scaleRows (g : FVec Ideal ⟨2, ![n, p]⟩ .f32) (s : FVec Ideal ⟨2, ![n, 1]⟩ .f32)
    (h : (⟨2, ![n, 1]⟩ : Shape).BroadcastsInDim ⟨2, ![n, p]⟩ ![0, 1]) :
    mulf g (broadcastInDim ⟨2, ![n, p]⟩ ![0, 1] h s) = scaleRows g s := by
  funext j
  obtain ⟨r, q, rfl⟩ : ∃ (r : Fin n) (q : Fin p), j = ix2 r q := ⟨j 0, j 1, eq_ix2 j⟩
  show g (ix2 r q) * broadcastInDim ⟨2, ![n, p]⟩ ![0, 1] h s (ix2 r q) = g (ix2 r q) * s (ix2 r (0 : Fin 1))
  rw [colSpread_apply]

/-- The host's bias: the sum with the one-row array spread down the rows. -/
theorem host_addRow (a : FVec Ideal ⟨2, ![n, p]⟩ .f32) (b : FVec Ideal ⟨2, ![1, p]⟩ .f32)
    (h : (⟨2, ![1, p]⟩ : Shape).BroadcastsInDim ⟨2, ![n, p]⟩ ![0, 1]) :
    addf a (broadcastInDim ⟨2, ![n, p]⟩ ![0, 1] h b) = addRow a b := by
  funext j
  obtain ⟨r, q, rfl⟩ : ∃ (r : Fin n) (q : Fin p), j = ix2 r q := ⟨j 0, j 1, eq_ix2 j⟩
  show a (ix2 r q) + broadcastInDim ⟨2, ![n, p]⟩ ![0, 1] h b (ix2 r q) = a (ix2 r q) + b (ix2 (0 : Fin 1) q)
  rw [rowSpread_apply]

/-- The host's relu of a biased array: the maximum with a broadcast scalar zero. -/
theorem host_biasRelu (a : FVec Ideal ⟨2, ![n, p]⟩ .f32) (b : FVec Ideal ⟨2, ![1, p]⟩ .f32)
    (h : (⟨2, ![1, p]⟩ : Shape).BroadcastsInDim ⟨2, ![n, p]⟩ ![0, 1])
    (h0 : (⟨0, ![]⟩ : Shape).BroadcastsInDim ⟨2, ![n, p]⟩ ![]) :
    maximumf (addf a (broadcastInDim ⟨2, ![n, p]⟩ ![0, 1] h b))
        (broadcastInDim ⟨2, ![n, p]⟩ ![] h0 (constant (F := Ideal) ⟨0, ![]⟩ .f32 0x00000000#32)) = biasRelu a b := by
  rw [host_addRow]
  funext j
  show max (addRow a b j) (broadcastInDim ⟨2, ![n, p]⟩ ![] h0 (constant (F := Ideal) ⟨0, ![]⟩ .f32 0x00000000#32) j) = max (addRow a b j) 0
  rw [broadcastInDim_apply _ h0 _ j ix0 (fun ax => ax.elim0)]
  show max (addRow a b j) (Ideal.ofBits .f32 0x00000000#32) = _
  rw [Ideal.ofBits_zero_f32]

/-- The host's last step: `x` plus a slice of columns of the biased array. -/
theorem host_addCols (o : Nat) (ho : o + w ≤ p) (x : FVec Ideal ⟨2, ![n, w]⟩ .f32) (a : FVec Ideal ⟨2, ![n, p]⟩ .f32)
    (b : FVec Ideal ⟨2, ![1, p]⟩ .f32) (h : (⟨2, ![1, p]⟩ : Shape).BroadcastsInDim ⟨2, ![n, p]⟩ ![0, 1])
    (hs : (⟨2, ![n, p]⟩ : Shape).Slices ![0, o] ⟨2, ![n, w]⟩) :
    addf x (extractStridedSlice ⟨2, ![n, w]⟩ ![0, o] (addf a (broadcastInDim ⟨2, ![n, p]⟩ ![0, 1] h b)) hs) = addCols o ho x a b := by
  rw [host_addRow]
  funext j
  obtain ⟨r, q, rfl⟩ : ∃ (r : Fin n) (q : Fin w), j = ix2 r q := ⟨j 0, j 1, eq_ix2 j⟩
  show x (ix2 r q) + extractStridedSlice ⟨2, ![n, w]⟩ ![0, o] (addRow a b) hs (ix2 r q) = x (ix2 r q) + addRow a b (ix2 r _)
  rw [slice2_axis1_apply o (addRow a b) hs r q ⟨o + q.val, by have := q.isLt; omega⟩ rfl]
  rfl

end Cert.Layer

end
-- ==== Proof.LibLayerSpell.lean ====
/-
  The kernel lays a layer's bias out as one row, and the per-edge normalisation as one column, by a RESHAPE of the
  vector; the reference lays them out by a `broadcast_in_dim` along the other axis and then spreads them by a second
  `broadcast_in_dim`. The reshape and the first broadcast are the same array, so a step taken with the kernel's
  layout is the host's spelling of it.
-/
import proofs.«104107_j50560355009131_1_alg».proof.Proof.LibLayerOps

noncomputable section

namespace Cert.Layer

open Idealize.ShloMosaic Idealize.ShloMosaic.ValueIdx

variable {n p w : Nat}

/-- Rows scaled by a vector reshaped to a column: the host's product with the vector broadcast to a column and spread. -/
theorem scaleRows_colCast (g : FVec Ideal ⟨2, ![n, p]⟩ .f32) (v : FVec Ideal ⟨1, ![n]⟩ .f32)
    (h : (⟨1, ![n]⟩ : Shape).ShapeCasts ⟨2, ![n, 1]⟩) (h1 : (⟨1, ![n]⟩ : Shape).BroadcastsInDim ⟨2, ![n, 1]⟩ ![0])
    (h2 : (⟨2, ![n, 1]⟩ : Shape).BroadcastsInDim ⟨2, ![n, p]⟩ ![0, 1]) :
    scaleRows g (shapeCast ⟨2, ![n, 1]⟩ v h)
      = mulf g (broadcastInDim ⟨2, ![n, p]⟩ ![0, 1] h2 (broadcastInDim ⟨2, ![n, 1]⟩ ![0] h1 v)) := by
  rw [host_scaleRows, colCast_eq_colOf v h h1]

/-- A bias vector reshaped to a row, added and clamped: the host's maximum of the sum with the broadcast vector and zero. -/
theorem biasRelu_rowCast (a : FVec Ideal ⟨2, ![n, p]⟩ .f32) (v : FVec Ideal ⟨1, ![p]⟩ .f32)
    (h : (⟨1, ![p]⟩ : Shape).ShapeCasts ⟨2, ![1, p]⟩) (h1 : (⟨1, ![p]⟩ : Shape).BroadcastsInDim ⟨2, ![1, p]⟩ ![1])
    (h2 : (⟨2, ![1, p]⟩ : Shape).BroadcastsInDim ⟨2, ![n, p]⟩ ![0, 1]) (h0 : (⟨0, ![]⟩ : Shape).BroadcastsInDim ⟨2, ![n, p]⟩ ![]) :
    biasRelu a (shapeCast ⟨2, ![1, p]⟩ v h)
      = maximumf (addf a (broadcastInDim ⟨2, ![n, p]⟩ ![0, 1] h2 (broadcastInDim ⟨2, ![1, p]⟩ ![1] h1 v)))
          (broadcastInDim ⟨2, ![n, p]⟩ ![] h0 (constant (F := Ideal) ⟨0, ![]⟩ .f32 0x00000000#32)) := by
  rw [host_biasRelu, rowCast_eq_rowOf v h h1]

/-- The last step with the bias vector reshaped to a row: the host's sum with a slice of the biased array. -/
theorem addCols_rowCast (o : Nat) (ho : o + w ≤ p) (x : FVec Ideal ⟨2, ![n, w]⟩ .f32) (a : FVec Ideal ⟨2, ![n, p]⟩ .f32)
    (v : FVec Ideal ⟨1, ![p]⟩ .f32)
    (h : (⟨1, ![p]⟩ : Shape).ShapeCasts ⟨2, ![1, p]⟩) (h1 : (⟨1, ![p]⟩ : Shape).BroadcastsInDim ⟨2, ![1, p]⟩ ![1])
    (h2 : (⟨2, ![1, p]⟩ : Shape).BroadcastsInDim ⟨2, ![n, p]⟩ ![0, 1])
    (hs : (⟨2, ![n, p]⟩ : Shape).Slices ![0, o] ⟨2, ![n, w]⟩) :
    addCols o ho x a (shapeCast ⟨2, ![1, p]⟩ v h)
      = addf x (extractStridedSlice ⟨2, ![n, w]⟩ ![0, o] (addf a (broadcastInDim ⟨2, ![n, p]⟩ ![0, 1] h2 (broadcastInDim ⟨2, ![1, p]⟩ ![1] h1 v))) hs) := by
  rw [host_addCols o ho, rowCast_eq_rowOf v h h1]

end Cert.Layer

end
-- ==== Proof.Spec.lean ====
/-
  What both programs compute, as ONE function of the seven arguments, over the extended reals.

  A bipartite graph has 100000 users and 50000 items and 600000 weighted edges (user `eu e`, item `ei e`, weight `ew e`).
  One graph convolution takes node features `x`, a 128 x 128 weight `w` and a bias row `r`: the rows of the product
  `x · w` are gathered along the edges, each gathered row is scaled by its edge's weight, the scaled rows are summed
  into the node at the edge's other end, and the bias row is added to every row (`convVU`: from users into items;
  `convUV`: from items into users; the `…R` forms then take the larger of the result and zero).
  A layer `l` is four convolutions: `h_i = convVU u W[l,0] b[l,0]`, `h_u = convUV v W[l,1] b[l,1]`,
  `u' = convUVR h_i W[l,2] b[l,2]`, `v' = convVUR h_u W[l,3] b[l,3]`. The result is, for the users, the mean of the input
  features and the two layers' user features, and the same for the items.
  The gather (a row index read signed, negative indices wrapped by the number of rows), the segment sum (a scatter-add
  into a zero array) and the mean of three arrays (stacked, summed along the new axis, divided by three) are the
  host's own operations: both programs spell them with the same operations, so they are named here and never opened.
-/
import proofs.«104107_j50560355009131_1_alg».proof.KernelIdeal
import proofs.«104107_j50560355009131_1_alg».proof.Proof.LibProdEntries
import proofs.«104107_j50560355009131_1_alg».proof.Proof.LibLayerSpell

noncomputable section

namespace Cert.Spec

open Idealize.ShloMosaic Cert.KernelIdeal Cert.Layer Idealize.ShloMosaic.MatmulPlain

-- the shapes' stated side conditions (all of them propositions), as the printed program takes them
variable [Cert.KernelIdeal.Facts]
open Cert.KernelIdeal.Facts₀ Cert.KernelIdeal.Facts

/-- User-shaped and item-shaped feature arrays, per-edge arrays, the weights and the biases. -/
abbrev AU := FVec Ideal S100000x128 .f32
abbrev AV := FVec Ideal S50000x128 .f32
abbrev EF := FVec Ideal S600000x128 .f32
abbrev EW := FVec Ideal S600000 .f32
abbrev EI := (⟨S600000, .i32⟩ : BufTy).Contents (Elt Ideal)
abbrev WT := FVec Ideal S2x4x128x128 .f32
abbrev BT := FVec Ideal S2x4x128 .f32
abbrev M128 := FVec Ideal S128x128 .f32
abbrev R128 := FVec Ideal S1x128 .f32

/-- The rows of a user-shaped array along an edge index (a negative index counts from the end). -/
def rowsOfU (x : AU) (idx : EI) : EF :=
  Host.gather gather_S100000x128_S600000x1_S600000x128_1_0_n_n_0_1_1128 x
    (broadcastInDim S600000x1 ![0] bcast_S600000_S600000x1_0
      (select (cmpi .slt idx (broadcastInDim S600000 ![] bcast_S_S600000 (constantI S_ 32 0#32)))
        (addi idx (broadcastInDim S600000 ![] bcast_S_S600000 (constantI S_ 32 100000#32))) idx))

/-- The rows of an item-shaped array along an edge index. -/
def rowsOfV (x : AV) (idx : EI) : EF :=
  Host.gather gather_S50000x128_S600000x1_S600000x128_1_0_n_n_0_1_1128 x
    (broadcastInDim S600000x1 ![0] bcast_S600000_S600000x1_0
      (select (cmpi .slt idx (broadcastInDim S600000 ![] bcast_S_S600000 (constantI S_ 32 0#32)))
        (addi idx (broadcastInDim S600000 ![] bcast_S_S600000 (constantI S_ 32 50000#32))) idx))

/-- Per-edge rows summed into the users, and into the items, their edges name. -/
def sumIntoU (msg : EF) (idx : EI) : AU :=
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 idx) msg
def sumIntoV (msg : EF) (idx : EI) : AV :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0 idx) msg

/-- The edge weights laid out as a column. -/
def wcol (ew : EW) : FVec Ideal S600000x1 .f32 := shapeCast S600000x1 ew shapeCasts_S600000_S600000x1

/-- The four convolutions' shapes. -/
def convVU (x : AU) (w : M128) (r : R128) (eu ei : EI) (ew : EW) : AV :=
  addRow (sumIntoV (scaleRows (rowsOfU (prod x w) eu) (wcol ew)) ei) r
def convUV (x : AV) (w : M128) (r : R128) (eu ei : EI) (ew : EW) : AU :=
  addRow (sumIntoU (scaleRows (rowsOfV (prod x w) ei) (wcol ew)) eu) r
def convVUR (x : AU) (w : M128) (r : R128) (eu ei : EI) (ew : EW) : AV :=
  biasRelu (sumIntoV (scaleRows (rowsOfU (prod x w) eu) (wcol ew)) ei) r
def convUVR (x : AV) (w : M128) (r : R128) (eu ei : EI) (ew : EW) : AU :=
  biasRelu (sumIntoU (scaleRows (rowsOfV (prod x w) ei) (wcol ew)) eu) r

/-- The weight `W[l,k]` and the bias row `b[l,k]`, one definition per literal position. -/
def w00 (W : WT) : M128 := shapeCast S128x128 (extractStridedSlice S1x1x128x128 ![0, 0, 0, 0] W slices_S2x4x128x128_S1x1x128x128_0_0_0_0) shapeCasts_S1x1x128x128_S128x128
def w01 (W : WT) : M128 := shapeCast S128x128 (extractStridedSlice S1x1x128x128 ![0, 1, 0, 0] W slices_S2x4x128x128_S1x1x128x128_0_1_0_0) shapeCasts_S1x1x128x128_S128x128
def w02 (W : WT) : M128 := shapeCast S128x128 (extractStridedSlice S1x1x128x128 ![0, 2, 0, 0] W slices_S2x4x128x128_S1x1x128x128_0_2_0_0) shapeCasts_S1x1x128x128_S128x128
def w03 (W : WT) : M128 := shapeCast S128x128 (extractStridedSlice S1x1x128x128 ![0, 3, 0, 0] W slices_S2x4x128x128_S1x1x128x128_0_3_0_0) shapeCasts_S1x1x128x128_S128x128
def w10 (W : WT) : M128 := shapeCast S128x128 (extractStridedSlice S1x1x128x128 ![1, 0, 0, 0] W slices_S2x4x128x128_S1x1x128x128_1_0_0_0) shapeCasts_S1x1x128x128_S128x128
def w11 (W : WT) : M128 := shapeCast S128x128 (extractStridedSlice S1x1x128x128 ![1, 1, 0, 0] W slices_S2x4x128x128_S1x1x128x128_1_1_0_0) shapeCasts_S1x1x128x128_S128x128
def w12 (W : WT) : M128 := shapeCast S128x128 (extractStridedSlice S1x1x128x128 ![1, 2, 0, 0] W slices_S2x4x128x128_S1x1x128x128_1_2_0_0) shapeCasts_S1x1x128x128_S128x128
def w13 (W : WT) : M128 := shapeCast S128x128 (extractStridedSlice S1x1x128x128 ![1, 3, 0, 0] W slices_S2x4x128x128_S1x1x128x128_1_3_0_0) shapeCasts_S1x1x128x128_S128x128
def r00 (b : BT) : R128 := shapeCast S1x128 (shapeCast S128 (extractStridedSlice S1x1x128 ![0, 0, 0] b slices_S2x4x128_S1x1x128_0_0_0) shapeCasts_S1x1x128_S128) shapeCasts_S128_S1x128
def r01 (b : BT) : R128 := shapeCast S1x128 (shapeCast S128 (extractStridedSlice S1x1x128 ![0, 1, 0] b slices_S2x4x128_S1x1x128_0_1_0) shapeCasts_S1x1x128_S128) shapeCasts_S128_S1x128
def r02 (b : BT) : R128 := shapeCast S1x128 (shapeCast S128 (extractStridedSlice S1x1x128 ![0, 2, 0] b slices_S2x4x128_S1x1x128_0_2_0) shapeCasts_S1x1x128_S128) shapeCasts_S128_S1x128
def r03 (b : BT) : R128 := shapeCast S1x128 (shapeCast S128 (extractStridedSlice S1x1x128 ![0, 3, 0] b slices_S2x4x128_S1x1x128_0_3_0) shapeCasts_S1x1x128_S128) shapeCasts_S128_S1x128
def r10 (b : BT) : R128 := shapeCast S1x128 (shapeCast S128 (extractStridedSlice S1x1x128 ![1, 0, 0] b slices_S2x4x128_S1x1x128_1_0_0) shapeCasts_S1x1x128_S128) shapeCasts_S128_S1x128
def r11 (b : BT) : R128 := shapeCast S1x128 (shapeCast S128 (extractStridedSlice S1x1x128 ![1, 1, 0] b slices_S2x4x128_S1x1x128_1_1_0) shapeCasts_S1x1x128_S128) shapeCasts_S128_S1x128
def r12 (b : BT) : R128 := shapeCast S1x128 (shapeCast S128 (extractStridedSlice S1x1x128 ![1, 2, 0] b slices_S2x4x128_S1x1x128_1_2_0) shapeCasts_S1x1x128_S128) shapeCasts_S128_S1x128
def r13 (b : BT) : R128 := shapeCast S1x128 (shapeCast S128 (extractStridedSlice S1x1x128 ![1, 3, 0] b slices_S2x4x128_S1x1x128_1_3_0) shapeCasts_S1x1x128_S128) shapeCasts_S128_S1x128

/-- The first layer's four arrays, then the second layer's, each from the arguments. -/
def hi0 (u : AU) (eu ei : EI) (ew : EW) (W : WT) (b : BT) : AV := convVU u (w00 W) (r00 b) eu ei ew
def hu0 (v : AV) (eu ei : EI) (ew : EW) (W : WT) (b : BT) : AU := convUV v (w01 W) (r01 b) eu ei ew
def u1 (u : AU) (eu ei : EI) (ew : EW) (W : WT) (b : BT) : AU := convUVR (hi0 u eu ei ew W b) (w02 W) (r02 b) eu ei ew
def v1 (v : AV) (eu ei : EI) (ew : EW) (W : WT) (b : BT) : AV := convVUR (hu0 v eu ei ew W b) (w03 W) (r03 b) eu ei ew
def hi1 (u : AU) (eu ei : EI) (ew : EW) (W : WT) (b : BT) : AV := convVU (u1 u eu ei ew W b) (w10 W) (r10 b) eu ei ew
def hu1 (v : AV) (eu ei : EI) (ew : EW) (W : WT) (b : BT) : AU := convUV (v1 v eu ei ew W b) (w11 W) (r11 b) eu ei ew
def u2 (u : AU) (eu ei : EI) (ew : EW) (W : WT) (b : BT) : AU := convUVR (hi1 u eu ei ew W b) (w12 W) (r12 b) eu ei ew
def v2 (v : AV) (eu ei : EI) (ew : EW) (W : WT) (b : BT) : AV := convVUR (hu1 v eu ei ew W b) (w13 W) (r13 b) eu ei ew

/-- The mean of three user-shaped, and of three item-shaped, arrays: stacked along a new middle axis, summed along
    it from zero, divided by three. -/
def mean3U (a b c : AU) : AU :=
  Host.divf (Host.reduceAdd (concatenate S100000x3x128 1
      [⟨S100000x1x128, broadcastInDim S100000x1x128 ![0, 2] bcast_S100000x128_S100000x1x128_0_2 a⟩,
       ⟨S100000x1x128, broadcastInDim S100000x1x128 ![0, 2] bcast_S100000x128_S100000x1x128_0_2 b⟩,
       ⟨S100000x1x128, broadcastInDim S100000x1x128 ![0, 2] bcast_S100000x128_S100000x1x128_0_2 c⟩]
      concatenates_S100000x1x128_S100000x1x128_S100000x1x128_S100000x3x128_d1)
      (constant (F := Ideal) S_ .f32 0x00000000#32) reducesTo_S100000x3x128_S100000x128_d1 h_S_)
    (broadcastInDim S100000x128 ![] bcast_S_S100000x128 (constant (F := Ideal) S_ .f32 0x40400000#32))
def mean3V (a b c : AV) : AV :=
  Host.divf (Host.reduceAdd (concatenate S50000x3x128 1
      [⟨S50000x1x128, broadcastInDim S50000x1x128 ![0, 2] bcast_S50000x128_S50000x1x128_0_2 a⟩,
       ⟨S50000x1x128, broadcastInDim S50000x1x128 ![0, 2] bcast_S50000x128_S50000x1x128_0_2 b⟩,
       ⟨S50000x1x128, broadcastInDim S50000x1x128 ![0, 2] bcast_S50000x128_S50000x1x128_0_2 c⟩]
      concatenates_S50000x1x128_S50000x1x128_S50000x1x128_S50000x3x128_d1)
      (constant (F := Ideal) S_ .f32 0x00000000#32) reducesTo_S50000x3x128_S50000x128_d1 h_S_)
    (broadcastInDim S50000x128 ![] bcast_S_S50000x128 (constant (F := Ideal) S_ .f32 0x40400000#32))

/-- The two results. -/
def outU (u : AU) (v : AV) (eu ei : EI) (ew : EW) (W : WT) (b : BT) : AU :=
  mean3U u (u1 u eu ei ew W b) (u2 u eu ei ew W b)
def outV (u : AU) (v : AV) (eu ei : EI) (ew : EW) (W : WT) (b : BT) : AV :=
  mean3V v (v1 v eu ei ew W b) (v2 v eu ei ew W b)

end Cert.Spec

end
-- ==== Proof.KI.FinalMATMULLib.lean ====
/- The matrix-product regions of @main: what they share.
   Each of them multiplies a block of 2000 rows of its left operand by the whole 128 x 128 right operand on the
   matrix unit, into a zero accumulator, after rounding both operands to bf16. Over the extended reals the rounding
   is the identity, so the block the body stores is the product of the two blocks it read. Stated here once, over
   variables of the blocks' types: the dimension numbers are those of a plain product, the zero offsets, and the
   rounded product as `prod`. -/
import proofs.«104107_j50560355009131_1_alg».proof.Proof.Gen.KernelIdeal
import proofs.«104107_j50560355009131_1_alg».proof.Proof.LibProdEntries
import Idealize.ShloMosaic.Lib.ValueIdx

set_option maxRecDepth 16384

noncomputable section

namespace Cert.KernelIdeal.Hand

open Idealize.ShloMosaic Idealize.SL.Sem
open Idealize.ShloMosaic.ValueIdx Idealize.ShloMosaic.MatmulPlain
open Cert.KernelIdeal Cert.KernelIdeal.Gen

/-- The product's dimension numbers: contract the left operand's columns with the right operand's rows, keep the
    left operand's rows and the right operand's columns, no batch axes. -/
theorem matmul_dims_plain : IsPlain (M := 2000) (K := 128) (N := 128) dot_S2000x128_S128x128_S2000x128_1_0_0_1_n_n :=
  ⟨rfl, rfl, rfl, rfl, rfl, rfl⟩

/-- The offsets of a whole-block load or store, both zero. -/
theorem matmul_zero_offsets : (![0, 0] : Fin 2 → Nat) = fun _ => 0 := funext fun a => by fin_cases a <;> rfl

/-- Over the extended reals a change of float format is the identity, so the product of the two operands rounded
    to bf16, taken into the zero accumulator, is the product of the operands: entry (p, q) is the sum over k of
    x0 (p, k) * x1 (k, q). -/
theorem matmul_rounded_eq_prod (x0 : Vec Ideal S2000x128 .f32) (x1 : Vec Ideal S128x128 .f32)
    (h : FTy.bits .bf16 < FTy.bits .f32) :
    matmul dot_S2000x128_S128x128_S2000x128_1_0_0_1_n_n none (truncf .bf16 x0 h) (truncf .bf16 x1 h)
        (constant S2000x128 .f32 0x00000000#32)
      = prod (M := 2000) (K := 128) (N := 128) (φ₁ := .f32) (φ₂ := .f32) x0 x1 :=
  matmul_zero_eq_prod matmul_dims_plain none _ _

end Cert.KernelIdeal.Hand

end
-- ==== Proof.KI.Final0.lean ====
/- Region 0 of @main, read as a value: the array the region leaves in main_v2 is the matrix product of main_arg0
   (100000 x 128) and main_v1 (128 x 128) as the region found them.
   Grid point t multiplies rows 2000 t … 2000 t + 1999 of the left operand by the whole right operand and writes the
   result back to the same rows of the output. Row p of a product depends on row p of the left operand only, so what
   point t writes back is its block of rows of the product of the whole arrays; the 50 blocks of rows tile the
   output, the block that holds row r being block r / 2000. -/
import proofs.«104107_j50560355009131_1_alg».proof.Proof.KI.Body0
import proofs.«104107_j50560355009131_1_alg».proof.Proof.KI.FinalMATMULLib
import Idealize.ShloMosaic.Lib.Pipeline.Value

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx Idealize.ShloMosaic.MatmulPlain
open Cert.KernelIdeal Cert.KernelIdeal.Gen

/-- What the body stores, over the extended reals: the product of the block of rows and the right operand. -/
theorem pay0_eq_prod (x0 : Vec Ideal S2000x128 .f32) (x1 : Vec Ideal S128x128 .f32) :
    k0_pay1 (F := Ideal) x0 x1 = prod (M := 2000) (K := 128) (N := 128) (φ₁ := .f32) (φ₂ := .f32) x0 x1 := by
  unfold k0_pay1
  rw [shapeCast_self]
  exact matmul_rounded_eq_prod x0 x1 _

/-- The three index maps over the grid: at point t the left operand's and the output's block of rows is block t, on
    the column axis every block index is 0, and the right operand's block is block (0, 0). -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the product of the whole arrays: entry (p, q) of the block product is
    the sum over k of left (2000 t + p, k) * right (k, q), which is entry (2000 t + p, q) of the whole product. -/
theorem flushed0_eq_prod (c : Dev nD) (t : Fin cfg0.N) :
    (dat0 (F := Ideal) V c).flushed 2 t
      = ((cfg0.win 2).blk t).view.read (Elt Ideal)
          (prod (M := 100000) (K := 128) (N := 128) (φ₁ := .f32) (φ₂ := .f32) (V c main_arg0) (V c main_v1)) := by
  show (cfg0.win 2).cut (grid0.coords t) ((dat0 V c).after 2 t) = _
  rw [after0_2]
  unfold out0_2
  rw [View.canon_unit_zero matmul_zero_offsets]
  simp only [View.ld_unit_zero (S := S2000x128) matmul_zero_offsets, View.ld_unit_zero (S := S128x128) matmul_zero_offsets]
  rw [pay0_eq_prod]
  refine funext fun (j : S2000x128.Idx) => ?_
  obtain ⟨p, q, rfl⟩ : ∃ (p : Fin 2000) (q : Fin 128), j = ix2 p q := ⟨j 0, j 1, eq_ix2 j⟩
  show prod (iblk0 V c 0 t) (iblk0 V c 1 t) (ix2 p q)
    = prod (V c main_arg0) (V c main_v1) (((cfg0.win 2).blk t).view.emb (ix2 p q))
  obtain ⟨e00, e01, e10, e11, e20, e21⟩ := index_facts0 t
  refine prod_entry_congr _ _ _ _ (ix2 p q) _ (fun k => ?_) (fun k => ?_)
  · -- row p of the left block is row 2000 t + p of the left operand
    show V c main_arg0 (((cfg0.win 0).blk t).view.emb (ix2 p k)) = V c main_arg0 _
    refine congrArg _ (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  · -- column q of the right block is column q of the right operand
    show V c main_v1 (((cfg0.win 1).blk t).view.emb (ix2 k q)) = V c main_v1 _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An index of the output is in point t's block iff each coordinate is in the block's range on its axis. -/
theorem mem_out_blk0 (t : Fin cfg0.N) (i : S100000x128.Idx) :
    i ∈ ((cfg0.win 2).blk t).view.set
      ↔ ∀ a : Fin 2, win0_2.index t a * S2000x128.size a ≤ (i a).val
          ∧ (i a).val < win0_2.index t a * S2000x128.size a + S2000x128.size a := by
  show i ∈ ((View.whole main_v2).slice (win0_2.rect t)).set ↔ _
  rw [View.set_slice_whole, Rect.mem_set_unit]
  exact Iff.rfl

/-- The blocks of rows tile the output: row r is in block r / 2000, and r / 2000 < 50 because r < 100000. -/
theorem rows_covered0 (i : S100000x128.Idx) :
    ∃ t : Fin cfg0.N, (cfg0.win 2).flush t = true ∧ i ∈ ((cfg0.win 2).blk t).view.set := by
  have hN : cfg0.N = 50 := N_0
  have hi0 : (i 0).val < 100000 := (i 0).isLt
  have hi1 : (i 1).val < 128 := (i 1).isLt
  obtain ⟨t, ht⟩ : ∃ t : Fin cfg0.N, t.val = (i 0).val / 2000 := ⟨⟨(i 0).val / 2000, by rw [hN]; omega⟩, rfl⟩
  obtain ⟨-, -, -, -, e20, e21⟩ := index_facts0 t
  refine ⟨t, flush0_2 t, ?_⟩
  rw [mem_out_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the region main_v2 holds the product of main_arg0 and main_v1. -/
theorem final0 (c : Dev nD) :
    (dat0 (F := Ideal) V c).arrAt 2 cfg0.N
      = prod (M := 100000) (K := 128) (N := 128) (φ₁ := .f32) (φ₂ := .f32) (V c main_arg0) (V c main_v1) :=
  (dat0 (F := Ideal) V c).arrAt_eq_of_cover 2 _ (fun t _ => flushed0_eq_prod V c t) rows_covered0

end Cert.KernelIdeal.Hand

end
-- ==== Proof.KI.Final1.lean ====
/- Region 1 of @main at the ideal instance (floats are extended reals): the value its pipeline leaves in the
   output window's array. The region scales the gathered rows of layer 0, block 0 by the edge weights: the output
   array is ONE function of the two input arrays as the region finds them, row e of the gathered rows times the
   one entry of row e of the 600000 x 1 column of weights (`Cert.Layer.scaleRows`). Three steps. On a block: the
   body's payload (the product of the block of rows with the block of weights spread along each row) is
   `scaleRows` of the two blocks. At a point t: all three windows sit at block row t, block column 0 of their
   arrays, so an entry of what t writes back depends on the same row of both input arrays as the entry of
   `scaleRows` of the whole arrays at that place does. Over the grid: row r of the output lies in the block of
   point r / 8000, so the 75 blocks of 8000 rows cover the 600000 rows and the array ends at `scaleRows`. -/
import proofs.«104107_j50560355009131_1_alg».proof.Proof.KI.Body1
import proofs.«104107_j50560355009131_1_alg».proof.Proof.LibLayerOps
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The offsets of a rectangle that is its whole block are zero on both axes. -/
theorem zero_offsets1 : (![0, 0] : Fin 2 → Nat) = fun _ => 0 := funext fun a => by fin_cases a <;> rfl

/-- On a block: the product of the 8000 rows with the 8000 weights spread along each row is row r times the
    weight of row r. -/
theorem pay1_eq_scaleRows (x0 : Vec Ideal S8000x128 .f32) (x1 : Vec Ideal S8000x1 .f32) :
    k1_pay1 (F := Ideal) x0 x1 = Cert.Layer.scaleRows (n := 8000) (p := 128) x0 x1 := by
  funext j
  obtain ⟨r, q, rfl⟩ : ∃ (r : Fin 8000) (q : Fin 128), j = ix2 r q := ⟨j 0, j 1, eq_ix2 j⟩
  unfold k1_pay1
  show shapeCast S8000x128 x0 shapeCasts_S8000x128_S8000x128 (ix2 r q)
      * broadcastTo S8000x128 (shapeCast S8000x1 x1 shapeCasts_S8000x1_S8000x1) broadcasts_S8000x1_S8000x128 (ix2 r q)
    = x0 (ix2 r q) * x1 (ix2 r (0 : Fin 1))
  rw [shapeCast_self, shapeCast_self, Cert.Layer.colSpreadTo_apply]

/-- Where the three windows' blocks sit at point t: block row t, block column 0 of their arrays. -/
theorem block_places1 : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = 0
    ∧ win1_2.index t (0 : Fin 2) = t.val
    ∧ win1_2.index t (1 : Fin 2) = 0 :=
  (by decide +kernel : ∀ t : Fin grid1.N, _)

/-- What point t writes back is block t of `scaleRows` of the two input arrays as the region finds them. -/
theorem flushed1_eq (c : Dev nD) (t : Fin cfg1.N) :
    (dat1 (F := Ideal) V c).flushed 2 t
      = ((cfg1.win 2).blk t).view.read (Elt Ideal) (Cert.Layer.scaleRows (n := 600000) (p := 128) (V c main_v9) (V c main_v10)) := by
  show (cfg1.win 2).cut (grid1.coords t) ((dat1 (F := Ideal) V c).after 2 t) = _
  rw [after1_2]
  unfold out1_2
  rw [View.canon_unit_zero zero_offsets1]
  simp only [View.ld_unit_zero (S := S8000x128) zero_offsets1, View.ld_unit_zero (S := S8000x1) zero_offsets1]
  rw [pay1_eq_scaleRows]
  obtain ⟨e0, e1, e2, e3, e4, e5⟩ := block_places1 t
  refine funext fun (j : S8000x128.Idx) => ?_
  -- the entry (j 0, j 1) of the block is the entry (8000 t + j 0, j 1) of the array
  refine Cert.Layer.scaleRows_entry_congr (n := 8000) (n' := 600000) (p := 128) (iblk1 V c 0 t) (iblk1 V c 1 t)
    (V c main_v9) (V c main_v10) j (((cfg1.win 2).blk t).view.emb j) ?_ ?_
  · -- the rows: window 0's block is read where the output's block is written
    show V c main_v9 (((cfg1.win 0).blk t).view.emb j) = V c main_v9 (((cfg1.win 2).blk t).view.emb j)
    refine congrArg (V c main_v9) ?_
    funext a; apply Fin.ext
    match a with
    | ⟨0, _⟩ => show win1_0.index t (0 : Fin 2) * 8000 + 1 * (j 0).val = win1_2.index t (0 : Fin 2) * 8000 + 1 * (j 0).val; omega
    | ⟨1, _⟩ => show win1_0.index t (1 : Fin 2) * 128 + 1 * (j 1).val = win1_2.index t (1 : Fin 2) * 128 + 1 * (j 1).val; omega
  · -- the weights: window 1's block holds the weights of the same 8000 rows
    show V c main_v10 (((cfg1.win 1).blk t).view.emb (ix2 (j 0) (0 : Fin 1)))
      = V c main_v10 (ix2 ((((cfg1.win 2).blk t).view.emb j) 0) (0 : Fin 1))
    refine congrArg (V c main_v10) ?_
    funext a; apply Fin.ext
    match a with
    | ⟨0, _⟩ => show win1_1.index t (0 : Fin 2) * 8000 + 1 * (j 0).val = win1_2.index t (0 : Fin 2) * 8000 + 1 * (j 0).val; omega
    | ⟨1, _⟩ => show win1_1.index t (1 : Fin 2) * 1 + 1 * 0 = 0; omega

/-- An index of the output array is in point t's block iff on each axis its coordinate is among the block's. -/
theorem mem_blk1 (t : Fin cfg1.N) (i : S600000x128.Idx) :
    i ∈ ((cfg1.win 2).blk t).view.set ↔ ∀ a : Fin 2, win1_2.index t a * S8000x128.size a ≤ (i a).val
      ∧ (i a).val < win1_2.index t a * S8000x128.size a + S8000x128.size a := by
  show i ∈ ((View.whole main_v11).slice (win1_2.rect t)).set ↔ _
  rw [View.set_slice_whole, Rect.mem_set_unit]
  exact Iff.rfl

/-- Row r of the output lies in the block of point r / 8000: the 75 blocks of 8000 rows cover the array. -/
theorem cover1 (i : S600000x128.Idx) :
    ∃ t : Fin cfg1.N, (cfg1.win 2).flush t = true ∧ i ∈ ((cfg1.win 2).blk t).view.set := by
  have hr : (i 0).val < 600000 := (i 0).isLt
  have hq : (i 1).val < 128 := (i 1).isLt
  have hN : cfg1.N = 75 := N_1
  obtain ⟨t, ht⟩ : ∃ t : Fin cfg1.N, t.val = (i 0).val / 8000 := ⟨⟨(i 0).val / 8000, by rw [hN]; omega⟩, rfl⟩
  obtain ⟨e0, e1, e2, e3, e4, e5⟩ := block_places1 t
  refine ⟨t, flush1_2 t, ?_⟩
  rw [mem_blk1]
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 128 ≤ (i 1).val ∧ (i 1).val < win1_2.index t (1 : Fin 2) * 128 + 128; omega

/-- THE ARRAY region 1 leaves in its output window: the gathered rows, row e scaled by the weight of edge e. -/
theorem final1 (c : Dev nD) :
    (dat1 (F := Ideal) V c).arrAt 2 cfg1.N = Cert.Layer.scaleRows (n := 600000) (p := 128) (V c main_v9) (V c main_v10) :=
  (dat1 (F := Ideal) V c).arrAt_eq_of_cover 2 (Cert.Layer.scaleRows (n := 600000) (p := 128) (V c main_v9) (V c main_v10))
    (fun t _ => flushed1_eq V c t) cover1

end Cert.KernelIdeal.Hand

end
-- ==== Proof.KI.Final2.lean ====
/- Region 2 of @main, read as a value. The bias step of layer 0, block 0 runs over 25 grid points; at point t
   its body adds the 1 x 128 bias row to each of rows 2000 t … 2000 t + 1999 of the summed rows and the
   output window writes those 2000 rows back. Here: the body's payload on a block is the bias row added to
   every row of the block; what point t writes back is rows 2000 t … 2000 t + 1999 of ONE array, the summed
   rows (50000 of them) with the bias row added to every row; the 25 blocks tile the 50000 rows (row r is
   in block r / 2000); so the output array ends as that one array. -/
import proofs.«104107_j50560355009131_1_alg».proof.Proof.KI.Body2
import proofs.«104107_j50560355009131_1_alg».proof.Proof.LibLayerOps
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

/-- The offsets of a whole-block rectangle are zero on both axes. -/
theorem zero_offsets2 : (![0, 0] : Fin 2 → Nat) = fun _ => 0 := funext fun a => by fin_cases a <;> rfl

/-- The body's payload on a block: the casts to the same shape change nothing, the one row is repeated down
    the 2000 rows, and the sum is taken entry by entry — the bias row added to every row of the block. -/
theorem pay2_eq (x0 : FVec Ideal ⟨2, ![2000, 128]⟩ .f32) (x1 : FVec Ideal ⟨2, ![1, 128]⟩ .f32) :
    k2_pay1 (F := Ideal) x0 x1 = Cert.Layer.addRow x0 x1 := by
  funext j
  obtain ⟨p, q, rfl⟩ : ∃ (p : Fin 2000) (q : Fin 128), j = ix2 p q := ⟨j 0, j 1, eq_ix2 j⟩
  unfold k2_pay1
  show shapeCast S2000x128 x0 shapeCasts_S2000x128_S2000x128 (ix2 p q)
      + broadcastTo S2000x128 (shapeCast S1x128 x1 shapeCasts_S1x128_S1x128) broadcasts_S1x128_S2000x128 (ix2 p q)
    = x0 (ix2 p q) + x1 (ix2 (0 : Fin 1) q)
  rw [shapeCast_self, shapeCast_self, broadcastTo_1b_ab_apply]

/-- The printed index maps, decided over the 25 points: the summed rows' block moves with the output's block,
    which is block t of the rows; the bias row's block never moves; every block starts at column 0. -/
theorem index_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

variable (V : (c : Dev nD) → (b : Ref sig .tc) → Buf (Elt Ideal) ((c : Thread nD τ).loc b))

/-- What point t writes back is block t of the summed rows with the bias row added to every row: an entry of
    the sum depends on the same row of the summed rows and the same column of the bias row only, the summed
    rows' block sits where the output's block sits, and the bias row's block is the whole row. -/
theorem flushed2_eq (c : Dev nD) (t : Fin cfg2.N) :
    (dat2 (F := Ideal) V c).flushed 2 t
      = ((cfg2.win 2).blk t).view.read (Elt Ideal) (Cert.Layer.addRow (V c main_v14) (V c main_v17)) := by
  show (cfg2.win 2).cut (grid2.coords t) ((dat2 (F := Ideal) V c).after 2 t) = _
  rw [after2_2]
  unfold out2_2
  rw [View.canon_unit_zero zero_offsets2]
  simp only [View.ld_unit_zero (S := S2000x128) zero_offsets2, View.ld_unit_zero (S := S1x128) zero_offsets2]
  rw [pay2_eq]
  obtain ⟨e0, e1, e2, e3, e4, e5⟩ := index_facts2 t
  funext j
  show Cert.Layer.addRow (iblk2 V c 0 t) (iblk2 V c 1 t) j
    = Cert.Layer.addRow (V c main_v14) (V c main_v17) (((cfg2.win 2).blk t).view.emb j)
  refine Cert.Layer.addRow_entry_congr _ _ _ _ j (((cfg2.win 2).blk t).view.emb j) ?_ ?_
  · show V c main_v14 (((cfg2.win 0).blk t).view.emb j) = V c main_v14 (((cfg2.win 2).blk t).view.emb j)
    refine congrArg (V c main_v14) (funext fun a => Fin.ext ?_)
    match a with
    | ⟨0, _⟩ =>
      show win2_0.index t (0 : Fin 2) * 2000 + 1 * (j 0).val = win2_2.index t (0 : Fin 2) * 2000 + 1 * (j 0).val
      rw [e0]
    | ⟨1, _⟩ =>
      show win2_0.index t (1 : Fin 2) * 128 + 1 * (j 1).val = win2_2.index t (1 : Fin 2) * 128 + 1 * (j 1).val
      rw [e1, e5]
  · show V c main_v17 (((cfg2.win 1).blk t).view.emb (ix2 (0 : Fin 1) (j 1)))
      = V c main_v17 (ix2 (0 : Fin 1) ((((cfg2.win 2).blk t).view.emb j) 1))
    refine congrArg (V c main_v17) (funext fun a => Fin.ext ?_)
    match a with
    | ⟨0, _⟩ =>
      show win2_1.index t (0 : Fin 2) * 1 + 1 * 0 = 0
      rw [e2]
    | ⟨1, _⟩ =>
      show win2_1.index t (1 : Fin 2) * 128 + 1 * (j 1).val = win2_2.index t (1 : Fin 2) * 128 + 1 * (j 1).val
      rw [e3, e5]

/-- An entry of the output array is in point t's block iff, on each axis, its coordinate is in the block's range. -/
theorem mem_rows2 (t : Fin cfg2.N) (i : S50000x128.Idx) :
    i ∈ ((cfg2.win 2).blk t).view.set
      ↔ ∀ a : Fin 2, win2_2.index t a * S2000x128.size a ≤ (i a).val
          ∧ (i a).val < win2_2.index t a * S2000x128.size a + S2000x128.size a := by
  show i ∈ ((View.whole main_v18).slice (win2_2.rect t)).set ↔ _
  rw [View.set_slice_whole, Rect.mem_set_unit]
  exact Iff.rfl

/-- The 25 blocks of 2000 rows tile the 50000 rows: row r is in the block of point r / 2000, which writes back. -/
theorem rows_cover2 (i : S50000x128.Idx) :
    ∃ t : Fin cfg2.N, (cfg2.win 2).flush t = true ∧ i ∈ ((cfg2.win 2).blk t).view.set := by
  have hN : cfg2.N = 25 := N_2
  have hi0 : (i 0).val < 50000 := (i 0).isLt
  have hi1 : (i 1).val < 128 := (i 1).isLt
  obtain ⟨t, ht⟩ : ∃ t : Fin cfg2.N, t.val = (i 0).val / 2000 := ⟨⟨(i 0).val / 2000, by rw [hN]; omega⟩, rfl⟩
  obtain ⟨-, -, -, -, e4, e5⟩ := index_facts2 t
  refine ⟨t, flush2_2 t, ?_⟩
  rw [mem_rows2]
  intro a
  match a with
  | ⟨0, _⟩ =>
    show win2_2.index t (0 : Fin 2) * 2000 ≤ (i 0).val ∧ (i 0).val < win2_2.index t (0 : Fin 2) * 2000 + 2000
    rw [e4, ht]; omega
  | ⟨1, _⟩ =>
    show win2_2.index t (1 : Fin 2) * 128 ≤ (i 1).val ∧ (i 1).val < win2_2.index t (1 : Fin 2) * 128 + 128
    rw [e5]; omega

/-- The array region 2 leaves in its output window: the summed rows it found with the bias row it found added
    to every row. -/
theorem final2 (c : Dev nD) :
    (dat2 (F := Ideal) V c).arrAt 2 cfg2.N = Cert.Layer.addRow (V c main_v14) (V c main_v17) :=
  (dat2 (F := Ideal) V c).arrAt_eq_of_cover 2 (Cert.Layer.addRow (V c main_v14) (V c main_v17))
    (fun t _ => flushed2_eq V c t) rows_cover2

end Cert.KernelIdeal.Hand

end
-- ==== Proof.KI.Final3.lean ====
/- Region 3 of @main, read as a value: the array the region leaves in main_v21 is the matrix product of main_arg1
   (50000 x 128) and main_v20 (128 x 128) as the region found them.
   Grid point t multiplies rows 2000 t … 2000 t + 1999 of the left operand by the whole right operand and writes the
   result back to the same rows of the output. Row p of a product depends on row p of the left operand only, so what
   point t writes back is its block of rows of the product of the whole arrays; the 25 blocks of rows tile the
   output, the block that holds row r being block r / 2000. -/
import proofs.«104107_j50560355009131_1_alg».proof.Proof.KI.Body3
import proofs.«104107_j50560355009131_1_alg».proof.Proof.KI.FinalMATMULLib
import Idealize.ShloMosaic.Lib.Pipeline.Value

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx Idealize.ShloMosaic.MatmulPlain
open Cert.KernelIdeal Cert.KernelIdeal.Gen

/-- What the body stores, over the extended reals: the product of the block of rows and the right operand. -/
theorem pay3_eq_prod (x0 : Vec Ideal S2000x128 .f32) (x1 : Vec Ideal S128x128 .f32) :
    k3_pay1 (F := Ideal) x0 x1 = prod (M := 2000) (K := 128) (N := 128) (φ₁ := .f32) (φ₂ := .f32) x0 x1 := by
  unfold k3_pay1
  rw [shapeCast_self]
  exact matmul_rounded_eq_prod x0 x1 _

/-- The three index maps over the grid: at point t the left operand's and the output's block of rows is block t, on
    the column axis every block index is 0, and the right operand's block is block (0, 0). -/
theorem index_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- What point t writes back is block t of the product of the whole arrays: entry (p, q) of the block product is
    the sum over k of left (2000 t + p, k) * right (k, q), which is entry (2000 t + p, q) of the whole product. -/
theorem flushed3_eq_prod (c : Dev nD) (t : Fin cfg3.N) :
    (dat3 (F := Ideal) V c).flushed 2 t
      = ((cfg3.win 2).blk t).view.read (Elt Ideal)
          (prod (M := 50000) (K := 128) (N := 128) (φ₁ := .f32) (φ₂ := .f32) (V c main_arg1) (V c main_v20)) := by
  show (cfg3.win 2).cut (grid3.coords t) ((dat3 V c).after 2 t) = _
  rw [after3_2]
  unfold out3_2
  rw [View.canon_unit_zero matmul_zero_offsets]
  simp only [View.ld_unit_zero (S := S2000x128) matmul_zero_offsets, View.ld_unit_zero (S := S128x128) matmul_zero_offsets]
  rw [pay3_eq_prod]
  refine funext fun (j : S2000x128.Idx) => ?_
  obtain ⟨p, q, rfl⟩ : ∃ (p : Fin 2000) (q : Fin 128), j = ix2 p q := ⟨j 0, j 1, eq_ix2 j⟩
  show prod (iblk3 V c 0 t) (iblk3 V c 1 t) (ix2 p q)
    = prod (V c main_arg1) (V c main_v20) (((cfg3.win 2).blk t).view.emb (ix2 p q))
  obtain ⟨e00, e01, e10, e11, e20, e21⟩ := index_facts3 t
  refine prod_entry_congr _ _ _ _ (ix2 p q) _ (fun k => ?_) (fun k => ?_)
  · -- row p of the left block is row 2000 t + p of the left operand
    show V c main_arg1 (((cfg3.win 0).blk t).view.emb (ix2 p k)) = V c main_arg1 _
    refine congrArg _ (funext fun a => Fin.ext ?_)
    match a with
    | ⟨0, _⟩ => show win3_0.index t (0 : Fin 2) * 2000 + 1 * p.val = win3_2.index t (0 : Fin 2) * 2000 + 1 * p.val; omega
    | ⟨1, _⟩ => show win3_0.index t (1 : Fin 2) * 128 + 1 * k.val = k.val; omega
  · -- column q of the right block is column q of the right operand
    show V c main_v20 (((cfg3.win 1).blk t).view.emb (ix2 k q)) = V c main_v20 _
    refine congrArg _ (funext fun a => Fin.ext ?_)
    match a with
    | ⟨0, _⟩ => show win3_1.index t (0 : Fin 2) * 128 + 1 * k.val = k.val; omega
    | ⟨1, _⟩ => show win3_1.index t (1 : Fin 2) * 128 + 1 * q.val = win3_2.index t (1 : Fin 2) * 128 + 1 * q.val; omega

/-- An index of the output is in point t's block iff each coordinate is in the block's range on its axis. -/
theorem mem_out_blk3 (t : Fin cfg3.N) (i : S50000x128.Idx) :
    i ∈ ((cfg3.win 2).blk t).view.set
      ↔ ∀ a : Fin 2, win3_2.index t a * S2000x128.size a ≤ (i a).val
          ∧ (i a).val < win3_2.index t a * S2000x128.size a + S2000x128.size a := by
  show i ∈ ((View.whole main_v21).slice (win3_2.rect t)).set ↔ _
  rw [View.set_slice_whole, Rect.mem_set_unit]
  exact Iff.rfl

/-- The blocks of rows tile the output: row r is in block r / 2000, and r / 2000 < 25 because r < 50000. -/
theorem rows_covered3 (i : S50000x128.Idx) :
    ∃ t : Fin cfg3.N, (cfg3.win 2).flush t = true ∧ i ∈ ((cfg3.win 2).blk t).view.set := by
  have hN : cfg3.N = 25 := N_3
  have hi0 : (i 0).val < 50000 := (i 0).isLt
  have hi1 : (i 1).val < 128 := (i 1).isLt
  obtain ⟨t, ht⟩ : ∃ t : Fin cfg3.N, t.val = (i 0).val / 2000 := ⟨⟨(i 0).val / 2000, by rw [hN]; omega⟩, rfl⟩
  obtain ⟨-, -, -, -, e20, e21⟩ := index_facts3 t
  refine ⟨t, flush3_2 t, ?_⟩
  rw [mem_out_blk3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- After the region main_v21 holds the product of main_arg1 and main_v20. -/
theorem final3 (c : Dev nD) :
    (dat3 (F := Ideal) V c).arrAt 2 cfg3.N
      = prod (M := 50000) (K := 128) (N := 128) (φ₁ := .f32) (φ₂ := .f32) (V c main_arg1) (V c main_v20) :=
  (dat3 (F := Ideal) V c).arrAt_eq_of_cover 2 _ (fun t _ => flushed3_eq_prod V c t) rows_covered3

end Cert.KernelIdeal.Hand

end
-- ==== Proof.KI.Final4.lean ====
/- Region 4 of @main at the ideal instance (floats are extended reals): the value its pipeline leaves in the
   output window's array. The region scales the gathered rows of layer 0, block 1 (the rows of v · W[0,1] at the
   edges' item indices) by the edge weights: the output array is ONE function of the two input arrays as the
   region finds them, row e of the gathered rows times the one entry of row e of the 600000 x 1 column of
   weights (`Cert.Layer.scaleRows`). Three steps. On a block: the body's payload (the product of the block of
   rows with the block of weights spread along each row) is `scaleRows` of the two blocks. At a point t: all
   three windows sit at block row t, block column 0 of their arrays, so an entry of what t writes back depends
   on the same row of both input arrays as the entry of `scaleRows` of the whole arrays at that place does.
   Over the grid: row r of the output lies in the block of point r / 8000, so the 75 blocks of 8000 rows cover
   the 600000 rows and the array ends at `scaleRows`. -/
import proofs.«104107_j50560355009131_1_alg».proof.Proof.KI.Body4
import proofs.«104107_j50560355009131_1_alg».proof.Proof.LibLayerOps
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The offsets of a rectangle that is its whole block are zero on both axes. -/
theorem zero_offsets4 : (![0, 0] : Fin 2 → Nat) = fun _ => 0 := funext fun a => by fin_cases a <;> rfl

/-- On a block: the product of the 8000 rows with the 8000 weights spread along each row is row r times the
    weight of row r. -/
theorem pay4_eq_scaleRows (x0 : Vec Ideal S8000x128 .f32) (x1 : Vec Ideal S8000x1 .f32) :
    k4_pay1 (F := Ideal) x0 x1 = Cert.Layer.scaleRows (n := 8000) (p := 128) x0 x1 := by
  funext j
  obtain ⟨r, q, rfl⟩ : ∃ (r : Fin 8000) (q : Fin 128), j = ix2 r q := ⟨j 0, j 1, eq_ix2 j⟩
  unfold k4_pay1
  show shapeCast S8000x128 x0 shapeCasts_S8000x128_S8000x128 (ix2 r q)
      * broadcastTo S8000x128 (shapeCast S8000x1 x1 shapeCasts_S8000x1_S8000x1) broadcasts_S8000x1_S8000x128 (ix2 r q)
    = x0 (ix2 r q) * x1 (ix2 r (0 : Fin 1))
  rw [shapeCast_self, shapeCast_self, Cert.Layer.colSpreadTo_apply]

/-- Where the three windows' blocks sit at point t: block row t, block column 0 of their arrays. -/
theorem block_places4 : ∀ t : Fin cfg4.N, win4_0.index t (0 : Fin 2) = win4_2.index t (0 : Fin 2)
    ∧ win4_0.index t (1 : Fin 2) = win4_2.index t (1 : Fin 2)
    ∧ win4_1.index t (0 : Fin 2) = win4_2.index t (0 : Fin 2)
    ∧ win4_1.index t (1 : Fin 2) = 0
    ∧ win4_2.index t (0 : Fin 2) = t.val
    ∧ win4_2.index t (1 : Fin 2) = 0 :=
  (by decide +kernel : ∀ t : Fin grid4.N, _)

/-- What point t writes back is block t of `scaleRows` of the two input arrays as the region finds them. -/
theorem flushed4_eq (c : Dev nD) (t : Fin cfg4.N) :
    (dat4 (F := Ideal) V c).flushed 2 t
      = ((cfg4.win 2).blk t).view.read (Elt Ideal) (Cert.Layer.scaleRows (n := 600000) (p := 128) (V c main_v28) (V c main_v29)) := by
  show (cfg4.win 2).cut (grid4.coords t) ((dat4 (F := Ideal) V c).after 2 t) = _
  rw [after4_2]
  unfold out4_2
  rw [View.canon_unit_zero zero_offsets4]
  simp only [View.ld_unit_zero (S := S8000x128) zero_offsets4, View.ld_unit_zero (S := S8000x1) zero_offsets4]
  rw [pay4_eq_scaleRows]
  obtain ⟨e0, e1, e2, e3, e4, e5⟩ := block_places4 t
  refine funext fun (j : S8000x128.Idx) => ?_
  -- the entry (j 0, j 1) of the block is the entry (8000 t + j 0, j 1) of the array
  refine Cert.Layer.scaleRows_entry_congr (n := 8000) (n' := 600000) (p := 128) (iblk4 V c 0 t) (iblk4 V c 1 t)
    (V c main_v28) (V c main_v29) j (((cfg4.win 2).blk t).view.emb j) ?_ ?_
  · -- the rows: window 0's block is read where the output's block is written
    show V c main_v28 (((cfg4.win 0).blk t).view.emb j) = V c main_v28 (((cfg4.win 2).blk t).view.emb j)
    refine congrArg (V c main_v28) ?_
    funext a; apply Fin.ext
    match a with
    | ⟨0, _⟩ => show win4_0.index t (0 : Fin 2) * 8000 + 1 * (j 0).val = win4_2.index t (0 : Fin 2) * 8000 + 1 * (j 0).val; omega
    | ⟨1, _⟩ => show win4_0.index t (1 : Fin 2) * 128 + 1 * (j 1).val = win4_2.index t (1 : Fin 2) * 128 + 1 * (j 1).val; omega
  · -- the weights: window 1's block holds the weights of the same 8000 rows
    show V c main_v29 (((cfg4.win 1).blk t).view.emb (ix2 (j 0) (0 : Fin 1)))
      = V c main_v29 (ix2 ((((cfg4.win 2).blk t).view.emb j) 0) (0 : Fin 1))
    refine congrArg (V c main_v29) ?_
    funext a; apply Fin.ext
    match a with
    | ⟨0, _⟩ => show win4_1.index t (0 : Fin 2) * 8000 + 1 * (j 0).val = win4_2.index t (0 : Fin 2) * 8000 + 1 * (j 0).val; omega
    | ⟨1, _⟩ => show win4_1.index t (1 : Fin 2) * 1 + 1 * 0 = 0; omega

/-- An index of the output array is in point t's block iff on each axis its coordinate is among the block's. -/
theorem mem_blk4 (t : Fin cfg4.N) (i : S600000x128.Idx) :
    i ∈ ((cfg4.win 2).blk t).view.set ↔ ∀ a : Fin 2, win4_2.index t a * S8000x128.size a ≤ (i a).val
      ∧ (i a).val < win4_2.index t a * S8000x128.size a + S8000x128.size a := by
  show i ∈ ((View.whole main_v30).slice (win4_2.rect t)).set ↔ _
  rw [View.set_slice_whole, Rect.mem_set_unit]
  exact Iff.rfl

/-- Row r of the output lies in the block of point r / 8000: the 75 blocks of 8000 rows cover the array. -/
theorem cover4 (i : S600000x128.Idx) :
    ∃ t : Fin cfg4.N, (cfg4.win 2).flush t = true ∧ i ∈ ((cfg4.win 2).blk t).view.set := by
  have hr : (i 0).val < 600000 := (i 0).isLt
  have hq : (i 1).val < 128 := (i 1).isLt
  have hN : cfg4.N = 75 := N_4
  obtain ⟨t, ht⟩ : ∃ t : Fin cfg4.N, t.val = (i 0).val / 8000 := ⟨⟨(i 0).val / 8000, by rw [hN]; omega⟩, rfl⟩
  obtain ⟨e0, e1, e2, e3, e4, e5⟩ := block_places4 t
  refine ⟨t, flush4_2 t, ?_⟩
  rw [mem_blk4]
  intro a
  match a with
  | ⟨0, _⟩ => show win4_2.index t (0 : Fin 2) * 8000 ≤ (i 0).val ∧ (i 0).val < win4_2.index t (0 : Fin 2) * 8000 + 8000; omega
  | ⟨1, _⟩ => show win4_2.index t (1 : Fin 2) * 128 ≤ (i 1).val ∧ (i 1).val < win4_2.index t (1 : Fin 2) * 128 + 128; omega

/-- THE ARRAY region 4 leaves in its output window: the gathered rows, row e scaled by the weight of edge e. -/
theorem final4 (c : Dev nD) :
    (dat4 (F := Ideal) V c).arrAt 2 cfg4.N = Cert.Layer.scaleRows (n := 600000) (p := 128) (V c main_v28) (V c main_v29) :=
  (dat4 (F := Ideal) V c).arrAt_eq_of_cover 2 (Cert.Layer.scaleRows (n := 600000) (p := 128) (V c main_v28) (V c main_v29))
    (fun t _ => flushed4_eq V c t) cover4

end Cert.KernelIdeal.Hand

end
-- ==== Proof.KI.Final5.lean ====
/- Region 5 of @main, read as a value. This bias step runs over 50 grid points; at point t its body adds the
   1 x 128 bias row to each of rows 2000 t … 2000 t + 1999 of the rows it is given and the output window
   writes those 2000 rows back. Here: the body's payload on a block is the bias row added to every row of the
   block; what point t writes back is rows 2000 t … 2000 t + 1999 of ONE array, the given rows (100000 of
   them) with the bias row added to every row; the 50 blocks tile the 100000 rows (row r is in block
   r / 2000); so the output array ends as that one array. -/
import proofs.«104107_j50560355009131_1_alg».proof.Proof.KI.Body5
import proofs.«104107_j50560355009131_1_alg».proof.Proof.LibLayerOps
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

/-- The offsets of a whole-block rectangle are zero on both axes. -/
theorem zero_offsets5 : (![0, 0] : Fin 2 → Nat) = fun _ => 0 := funext fun a => by fin_cases a <;> rfl

/-- The body's payload on a block: the casts to the same shape change nothing, the one row is repeated down
    the 2000 rows, and the sum is taken entry by entry — the bias row added to every row of the block. -/
theorem pay5_eq (x0 : FVec Ideal ⟨2, ![2000, 128]⟩ .f32) (x1 : FVec Ideal ⟨2, ![1, 128]⟩ .f32) :
    k5_pay1 (F := Ideal) x0 x1 = Cert.Layer.addRow x0 x1 := by
  funext j
  obtain ⟨p, q, rfl⟩ : ∃ (p : Fin 2000) (q : Fin 128), j = ix2 p q := ⟨j 0, j 1, eq_ix2 j⟩
  unfold k5_pay1
  show shapeCast S2000x128 x0 shapeCasts_S2000x128_S2000x128 (ix2 p q)
      + broadcastTo S2000x128 (shapeCast S1x128 x1 shapeCasts_S1x128_S1x128) broadcasts_S1x128_S2000x128 (ix2 p q)
    = x0 (ix2 p q) + x1 (ix2 (0 : Fin 1) q)
  rw [shapeCast_self, shapeCast_self, broadcastTo_1b_ab_apply]

/-- The printed index maps, decided over the 50 points: the given rows' block moves with the output's block,
    which is block t of the rows; the bias row's block never moves; every block starts at column 0. -/
theorem index_facts5 : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

variable (V : (c : Dev nD) → (b : Ref sig .tc) → Buf (Elt Ideal) ((c : Thread nD τ).loc b))

/-- What point t writes back is block t of the given rows with the bias row added to every row: an entry of
    the sum depends on the same row of the given rows and the same column of the bias row only, the given
    rows' block sits where the output's block sits, and the bias row's block is the whole row. -/
theorem flushed5_eq (c : Dev nD) (t : Fin cfg5.N) :
    (dat5 (F := Ideal) V c).flushed 2 t
      = ((cfg5.win 2).blk t).view.read (Elt Ideal) (Cert.Layer.addRow (V c main_v33) (V c main_v36)) := by
  show (cfg5.win 2).cut (grid5.coords t) ((dat5 (F := Ideal) V c).after 2 t) = _
  rw [after5_2]
  unfold out5_2
  rw [View.canon_unit_zero zero_offsets5]
  simp only [View.ld_unit_zero (S := S2000x128) zero_offsets5, View.ld_unit_zero (S := S1x128) zero_offsets5]
  rw [pay5_eq]
  obtain ⟨e0, e1, e2, e3, e4, e5⟩ := index_facts5 t
  funext j
  show Cert.Layer.addRow (iblk5 V c 0 t) (iblk5 V c 1 t) j
    = Cert.Layer.addRow (V c main_v33) (V c main_v36) (((cfg5.win 2).blk t).view.emb j)
  refine Cert.Layer.addRow_entry_congr _ _ _ _ j (((cfg5.win 2).blk t).view.emb j) ?_ ?_
  · show V c main_v33 (((cfg5.win 0).blk t).view.emb j) = V c main_v33 (((cfg5.win 2).blk t).view.emb j)
    refine congrArg (V c main_v33) (funext fun a => Fin.ext ?_)
    match a with
    | ⟨0, _⟩ =>
      show win5_0.index t (0 : Fin 2) * 2000 + 1 * (j 0).val = win5_2.index t (0 : Fin 2) * 2000 + 1 * (j 0).val
      rw [e0]
    | ⟨1, _⟩ =>
      show win5_0.index t (1 : Fin 2) * 128 + 1 * (j 1).val = win5_2.index t (1 : Fin 2) * 128 + 1 * (j 1).val
      rw [e1, e5]
  · show V c main_v36 (((cfg5.win 1).blk t).view.emb (ix2 (0 : Fin 1) (j 1)))
      = V c main_v36 (ix2 (0 : Fin 1) ((((cfg5.win 2).blk t).view.emb j) 1))
    refine congrArg (V c main_v36) (funext fun a => Fin.ext ?_)
    match a with
    | ⟨0, _⟩ =>
      show win5_1.index t (0 : Fin 2) * 1 + 1 * 0 = 0
      rw [e2]
    | ⟨1, _⟩ =>
      show win5_1.index t (1 : Fin 2) * 128 + 1 * (j 1).val = win5_2.index t (1 : Fin 2) * 128 + 1 * (j 1).val
      rw [e3, e5]

/-- An entry of the output array is in point t's block iff, on each axis, its coordinate is in the block's range. -/
theorem mem_rows5 (t : Fin cfg5.N) (i : S100000x128.Idx) :
    i ∈ ((cfg5.win 2).blk t).view.set
      ↔ ∀ a : Fin 2, win5_2.index t a * S2000x128.size a ≤ (i a).val
          ∧ (i a).val < win5_2.index t a * S2000x128.size a + S2000x128.size a := by
  show i ∈ ((View.whole main_v37).slice (win5_2.rect t)).set ↔ _
  rw [View.set_slice_whole, Rect.mem_set_unit]
  exact Iff.rfl

/-- The 50 blocks of 2000 rows tile the 100000 rows: row r is in the block of point r / 2000, which writes back. -/
theorem rows_cover5 (i : S100000x128.Idx) :
    ∃ t : Fin cfg5.N, (cfg5.win 2).flush t = true ∧ i ∈ ((cfg5.win 2).blk t).view.set := by
  have hN : cfg5.N = 50 := N_5
  have hi0 : (i 0).val < 100000 := (i 0).isLt
  have hi1 : (i 1).val < 128 := (i 1).isLt
  obtain ⟨t, ht⟩ : ∃ t : Fin cfg5.N, t.val = (i 0).val / 2000 := ⟨⟨(i 0).val / 2000, by rw [hN]; omega⟩, rfl⟩
  obtain ⟨-, -, -, -, e4, e5⟩ := index_facts5 t
  refine ⟨t, flush5_2 t, ?_⟩
  rw [mem_rows5]
  intro a
  match a with
  | ⟨0, _⟩ =>
    show win5_2.index t (0 : Fin 2) * 2000 ≤ (i 0).val ∧ (i 0).val < win5_2.index t (0 : Fin 2) * 2000 + 2000
    rw [e4, ht]; omega
  | ⟨1, _⟩ =>
    show win5_2.index t (1 : Fin 2) * 128 ≤ (i 1).val ∧ (i 1).val < win5_2.index t (1 : Fin 2) * 128 + 128
    rw [e5]; omega

/-- The array region 5 leaves in its output window: the rows it found with the bias row it found added to
    every row. -/
theorem final5 (c : Dev nD) :
    (dat5 (F := Ideal) V c).arrAt 2 cfg5.N = Cert.Layer.addRow (V c main_v33) (V c main_v36) :=
  (dat5 (F := Ideal) V c).arrAt_eq_of_cover 2 (Cert.Layer.addRow (V c main_v33) (V c main_v36))
    (fun t _ => flushed5_eq V c t) rows_cover5

end Cert.KernelIdeal.Hand

end
-- ==== Proof.KI.Final6.lean ====
/- Region 6 of @main, read as a value: the array the region leaves in main_v40 is the matrix product of main_v18
   (50000 x 128) and main_v39 (128 x 128) as the region found them.
   Grid point t multiplies rows 2000 t … 2000 t + 1999 of the left operand by the whole right operand and writes the
   result back to the same rows of the output. Row p of a product depends on row p of the left operand only, so what
   point t writes back is its block of rows of the product of the whole arrays; the 25 blocks of rows tile the
   output, the block that holds row r being block r / 2000. -/
import proofs.«104107_j50560355009131_1_alg».proof.Proof.KI.Body6
import proofs.«104107_j50560355009131_1_alg».proof.Proof.KI.FinalMATMULLib
import Idealize.ShloMosaic.Lib.Pipeline.Value

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx Idealize.ShloMosaic.MatmulPlain
open Cert.KernelIdeal Cert.KernelIdeal.Gen

/-- What the body stores, over the extended reals: the product of the block of rows and the right operand (the
    casts of both blocks to their own shapes change nothing). -/
theorem pay6_eq_prod (x0 : Vec Ideal S2000x128 .f32) (x1 : Vec Ideal S128x128 .f32) :
    k6_pay1 (F := Ideal) x0 x1 = prod (M := 2000) (K := 128) (N := 128) (φ₁ := .f32) (φ₂ := .f32) x0 x1 := by
  unfold k6_pay1
  rw [shapeCast_self, shapeCast_self]
  exact matmul_rounded_eq_prod x0 x1 _

/-- The three index maps over the grid: at point t the left operand's and the output's block of rows is block t, on
    the column axis every block index is 0, and the right operand's block is block (0, 0). -/
theorem index_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

variable (V : (c : Dev nD) → (b : Ref sig .tc) → Buf (Elt Ideal) ((c : Thread nD τ).loc b))

/-- What point t writes back is block t of the product of the whole arrays: entry (p, q) of the block product is
    the sum over k of left (2000 t + p, k) * right (k, q), which is entry (2000 t + p, q) of the whole product. -/
theorem flushed6_eq_prod (c : Dev nD) (t : Fin cfg6.N) :
    (dat6 (F := Ideal) V c).flushed 2 t
      = ((cfg6.win 2).blk t).view.read (Elt Ideal)
          (prod (M := 50000) (K := 128) (N := 128) (φ₁ := .f32) (φ₂ := .f32) (V c main_v18) (V c main_v39)) := by
  show (cfg6.win 2).cut (grid6.coords t) ((dat6 V c).after 2 t) = _
  rw [after6_2]
  unfold out6_2
  rw [View.canon_unit_zero matmul_zero_offsets]
  simp only [View.ld_unit_zero (S := S2000x128) matmul_zero_offsets, View.ld_unit_zero (S := S128x128) matmul_zero_offsets]
  rw [pay6_eq_prod]
  refine funext fun (j : S2000x128.Idx) => ?_
  obtain ⟨p, q, rfl⟩ : ∃ (p : Fin 2000) (q : Fin 128), j = ix2 p q := ⟨j 0, j 1, eq_ix2 j⟩
  show prod (iblk6 V c 0 t) (iblk6 V c 1 t) (ix2 p q)
    = prod (V c main_v18) (V c main_v39) (((cfg6.win 2).blk t).view.emb (ix2 p q))
  obtain ⟨e00, e01, e10, e11, e20, e21⟩ := index_facts6 t
  refine prod_entry_congr _ _ _ _ (ix2 p q) _ (fun k => ?_) (fun k => ?_)
  · -- row p of the left block is row 2000 t + p of the left operand
    show V c main_v18 (((cfg6.win 0).blk t).view.emb (ix2 p k)) = V c main_v18 _
    refine congrArg _ (funext fun a => Fin.ext ?_)
    match a with
    | ⟨0, _⟩ => show win6_0.index t (0 : Fin 2) * 2000 + 1 * p.val = win6_2.index t (0 : Fin 2) * 2000 + 1 * p.val; omega
    | ⟨1, _⟩ => show win6_0.index t (1 : Fin 2) * 128 + 1 * k.val = k.val; omega
  · -- column q of the right block is column q of the right operand
    show V c main_v39 (((cfg6.win 1).blk t).view.emb (ix2 k q)) = V c main_v39 _
    refine congrArg _ (funext fun a => Fin.ext ?_)
    match a with
    | ⟨0, _⟩ => show win6_1.index t (0 : Fin 2) * 128 + 1 * k.val = k.val; omega
    | ⟨1, _⟩ => show win6_1.index t (1 : Fin 2) * 128 + 1 * q.val = win6_2.index t (1 : Fin 2) * 128 + 1 * q.val; omega

/-- An index of the output is in point t's block iff each coordinate is in the block's range on its axis. -/
theorem mem_out_blk6 (t : Fin cfg6.N) (i : S50000x128.Idx) :
    i ∈ ((cfg6.win 2).blk t).view.set
      ↔ ∀ a : Fin 2, win6_2.index t a * S2000x128.size a ≤ (i a).val
          ∧ (i a).val < win6_2.index t a * S2000x128.size a + S2000x128.size a := by
  show i ∈ ((View.whole main_v40).slice (win6_2.rect t)).set ↔ _
  rw [View.set_slice_whole, Rect.mem_set_unit]
  exact Iff.rfl

/-- The blocks of rows tile the output: row r is in block r / 2000, and r / 2000 < 25 because r < 50000. -/
theorem rows_covered6 (i : S50000x128.Idx) :
    ∃ t : Fin cfg6.N, (cfg6.win 2).flush t = true ∧ i ∈ ((cfg6.win 2).blk t).view.set := by
  have hN : cfg6.N = 25 := N_6
  have hi0 : (i 0).val < 50000 := (i 0).isLt
  have hi1 : (i 1).val < 128 := (i 1).isLt
  obtain ⟨t, ht⟩ : ∃ t : Fin cfg6.N, t.val = (i 0).val / 2000 := ⟨⟨(i 0).val / 2000, by rw [hN]; omega⟩, rfl⟩
  obtain ⟨-, -, -, -, e20, e21⟩ := index_facts6 t
  refine ⟨t, flush6_2 t, ?_⟩
  rw [mem_out_blk6]
  intro a
  match a with
  | ⟨0, _⟩ => show win6_2.index t (0 : Fin 2) * 2000 ≤ (i 0).val ∧ (i 0).val < win6_2.index t (0 : Fin 2) * 2000 + 2000; omega
  | ⟨1, _⟩ => show win6_2.index t (1 : Fin 2) * 128 ≤ (i 1).val ∧ (i 1).val < win6_2.index t (1 : Fin 2) * 128 + 128; omega

/-- After the region main_v40 holds the product of main_v18 and main_v39. -/
theorem final6 (c : Dev nD) :
    (dat6 (F := Ideal) V c).arrAt 2 cfg6.N
      = prod (M := 50000) (K := 128) (N := 128) (φ₁ := .f32) (φ₂ := .f32) (V c main_v18) (V c main_v39) :=
  (dat6 (F := Ideal) V c).arrAt_eq_of_cover 2 _ (fun t _ => flushed6_eq_prod V c t) rows_covered6

end Cert.KernelIdeal.Hand

end
-- ==== Proof.KI.Final7.lean ====
/- Region 7 of @main at the ideal instance (floats are extended reals): the value its pipeline leaves in the
   output window's array. The region scales the gathered rows of layer 0, block 2 (the rows of h · W[0,2], h the
   result of block 0, at the edges' item indices) by the edge weights: the output array is ONE function of the
   two input arrays as the region finds them, row e of the gathered rows times the one entry of row e of the
   600000 x 1 column of weights (`Cert.Layer.scaleRows`). Three steps. On a block: the body's payload (the
   product of the block of rows with the block of weights spread along each row) is `scaleRows` of the two
   blocks. At a point t: all three windows sit at block row t, block column 0 of their arrays, so an entry of
   what t writes back depends on the same row of both input arrays as the entry of `scaleRows` of the whole
   arrays at that place does. Over the grid: row r of the output lies in the block of point r / 8000, so the 75
   blocks of 8000 rows cover the 600000 rows and the array ends at `scaleRows`. -/
import proofs.«104107_j50560355009131_1_alg».proof.Proof.KI.Body7
import proofs.«104107_j50560355009131_1_alg».proof.Proof.LibLayerOps
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The offsets of a rectangle that is its whole block are zero on both axes. -/
theorem zero_offsets7 : (![0, 0] : Fin 2 → Nat) = fun _ => 0 := funext fun a => by fin_cases a <;> rfl

/-- On a block: the product of the 8000 rows with the 8000 weights spread along each row is row r times the
    weight of row r. -/
theorem pay7_eq_scaleRows (x0 : Vec Ideal S8000x128 .f32) (x1 : Vec Ideal S8000x1 .f32) :
    k7_pay1 (F := Ideal) x0 x1 = Cert.Layer.scaleRows (n := 8000) (p := 128) x0 x1 := by
  funext j
  obtain ⟨r, q, rfl⟩ : ∃ (r : Fin 8000) (q : Fin 128), j = ix2 r q := ⟨j 0, j 1, eq_ix2 j⟩
  unfold k7_pay1
  show shapeCast S8000x128 x0 shapeCasts_S8000x128_S8000x128 (ix2 r q)
      * broadcastTo S8000x128 (shapeCast S8000x1 x1 shapeCasts_S8000x1_S8000x1) broadcasts_S8000x1_S8000x128 (ix2 r q)
    = x0 (ix2 r q) * x1 (ix2 r (0 : Fin 1))
  rw [shapeCast_self, shapeCast_self, Cert.Layer.colSpreadTo_apply]

/-- Where the three windows' blocks sit at point t: block row t, block column 0 of their arrays. -/
theorem block_places7 : ∀ t : Fin cfg7.N, win7_0.index t (0 : Fin 2) = win7_2.index t (0 : Fin 2)
    ∧ win7_0.index t (1 : Fin 2) = win7_2.index t (1 : Fin 2)
    ∧ win7_1.index t (0 : Fin 2) = win7_2.index t (0 : Fin 2)
    ∧ win7_1.index t (1 : Fin 2) = 0
    ∧ win7_2.index t (0 : Fin 2) = t.val
    ∧ win7_2.index t (1 : Fin 2) = 0 :=
  (by decide +kernel : ∀ t : Fin grid7.N, _)

/-- What point t writes back is block t of `scaleRows` of the two input arrays as the region finds them. -/
theorem flushed7_eq (c : Dev nD) (t : Fin cfg7.N) :
    (dat7 (F := Ideal) V c).flushed 2 t
      = ((cfg7.win 2).blk t).view.read (Elt Ideal) (Cert.Layer.scaleRows (n := 600000) (p := 128) (V c main_v47) (V c main_v48)) := by
  show (cfg7.win 2).cut (grid7.coords t) ((dat7 (F := Ideal) V c).after 2 t) = _
  rw [after7_2]
  unfold out7_2
  rw [View.canon_unit_zero zero_offsets7]
  simp only [View.ld_unit_zero (S := S8000x128) zero_offsets7, View.ld_unit_zero (S := S8000x1) zero_offsets7]
  rw [pay7_eq_scaleRows]
  obtain ⟨e0, e1, e2, e3, e4, e5⟩ := block_places7 t
  refine funext fun (j : S8000x128.Idx) => ?_
  -- the entry (j 0, j 1) of the block is the entry (8000 t + j 0, j 1) of the array
  refine Cert.Layer.scaleRows_entry_congr (n := 8000) (n' := 600000) (p := 128) (iblk7 V c 0 t) (iblk7 V c 1 t)
    (V c main_v47) (V c main_v48) j (((cfg7.win 2).blk t).view.emb j) ?_ ?_
  · -- the rows: window 0's block is read where the output's block is written
    show V c main_v47 (((cfg7.win 0).blk t).view.emb j) = V c main_v47 (((cfg7.win 2).blk t).view.emb j)
    refine congrArg (V c main_v47) ?_
    funext a; apply Fin.ext
    match a with
    | ⟨0, _⟩ => show win7_0.index t (0 : Fin 2) * 8000 + 1 * (j 0).val = win7_2.index t (0 : Fin 2) * 8000 + 1 * (j 0).val; omega
    | ⟨1, _⟩ => show win7_0.index t (1 : Fin 2) * 128 + 1 * (j 1).val = win7_2.index t (1 : Fin 2) * 128 + 1 * (j 1).val; omega
  · -- the weights: window 1's block holds the weights of the same 8000 rows
    show V c main_v48 (((cfg7.win 1).blk t).view.emb (ix2 (j 0) (0 : Fin 1)))
      = V c main_v48 (ix2 ((((cfg7.win 2).blk t).view.emb j) 0) (0 : Fin 1))
    refine congrArg (V c main_v48) ?_
    funext a; apply Fin.ext
    match a with
    | ⟨0, _⟩ => show win7_1.index t (0 : Fin 2) * 8000 + 1 * (j 0).val = win7_2.index t (0 : Fin 2) * 8000 + 1 * (j 0).val; omega
    | ⟨1, _⟩ => show win7_1.index t (1 : Fin 2) * 1 + 1 * 0 = 0; omega

/-- An index of the output array is in point t's block iff on each axis its coordinate is among the block's. -/
theorem mem_blk7 (t : Fin cfg7.N) (i : S600000x128.Idx) :
    i ∈ ((cfg7.win 2).blk t).view.set ↔ ∀ a : Fin 2, win7_2.index t a * S8000x128.size a ≤ (i a).val
      ∧ (i a).val < win7_2.index t a * S8000x128.size a + S8000x128.size a := by
  show i ∈ ((View.whole main_v49).slice (win7_2.rect t)).set ↔ _
  rw [View.set_slice_whole, Rect.mem_set_unit]
  exact Iff.rfl

/-- Row r of the output lies in the block of point r / 8000: the 75 blocks of 8000 rows cover the array. -/
theorem cover7 (i : S600000x128.Idx) :
    ∃ t : Fin cfg7.N, (cfg7.win 2).flush t = true ∧ i ∈ ((cfg7.win 2).blk t).view.set := by
  have hr : (i 0).val < 600000 := (i 0).isLt
  have hq : (i 1).val < 128 := (i 1).isLt
  have hN : cfg7.N = 75 := N_7
  obtain ⟨t, ht⟩ : ∃ t : Fin cfg7.N, t.val = (i 0).val / 8000 := ⟨⟨(i 0).val / 8000, by rw [hN]; omega⟩, rfl⟩
  obtain ⟨e0, e1, e2, e3, e4, e5⟩ := block_places7 t
  refine ⟨t, flush7_2 t, ?_⟩
  rw [mem_blk7]
  intro a
  match a with
  | ⟨0, _⟩ => show win7_2.index t (0 : Fin 2) * 8000 ≤ (i 0).val ∧ (i 0).val < win7_2.index t (0 : Fin 2) * 8000 + 8000; omega
  | ⟨1, _⟩ => show win7_2.index t (1 : Fin 2) * 128 ≤ (i 1).val ∧ (i 1).val < win7_2.index t (1 : Fin 2) * 128 + 128; omega

/-- THE ARRAY region 7 leaves in its output window: the gathered rows, row e scaled by the weight of edge e. -/
theorem final7 (c : Dev nD) :
    (dat7 (F := Ideal) V c).arrAt 2 cfg7.N = Cert.Layer.scaleRows (n := 600000) (p := 128) (V c main_v47) (V c main_v48) :=
  (dat7 (F := Ideal) V c).arrAt_eq_of_cover 2 (Cert.Layer.scaleRows (n := 600000) (p := 128) (V c main_v47) (V c main_v48))
    (fun t _ => flushed7_eq V c t) cover7

end Cert.KernelIdeal.Hand

end
-- ==== Proof.KI.Final8.lean ====
/- Region 8 of @main, read as a value. This bias-and-activation step runs over 50 grid points; at point t its
   body adds the 1 x 128 bias row to each of rows 2000 t … 2000 t + 1999 of the rows it is given, takes the
   larger of each entry and zero, and the output window writes those 2000 rows back. Here: the body's payload
   on a block is the larger of zero and the block with the bias row added to every row; what point t writes
   back is rows 2000 t … 2000 t + 1999 of ONE array, the larger of zero and the given rows (100000 of them)
   with the bias row added to every row; the 50 blocks tile the 100000 rows (row r is in block r / 2000); so
   the output array ends as that one array. -/
import proofs.«104107_j50560355009131_1_alg».proof.Proof.KI.Body8
import proofs.«104107_j50560355009131_1_alg».proof.Proof.LibLayerOps
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

/-- The offsets of a whole-block rectangle are zero on both axes. -/
theorem zero_offsets8 : (![0, 0] : Fin 2 → Nat) = fun _ => 0 := funext fun a => by fin_cases a <;> rfl

/-- The body's payload on a block: the casts to the same shape change nothing, the one row is repeated down
    the 2000 rows, the sum is taken entry by entry, and each entry is compared with the scalar whose word is
    the zero pattern, which denotes zero — the larger of zero and the block with the bias row added to every
    row. -/
theorem pay8_eq (x0 : FVec Ideal ⟨2, ![2000, 128]⟩ .f32) (x1 : FVec Ideal ⟨2, ![1, 128]⟩ .f32) :
    k8_pay1 (F := Ideal) x0 x1 = Cert.Layer.biasRelu x0 x1 := by
  funext j
  obtain ⟨p, q, rfl⟩ : ∃ (p : Fin 2000) (q : Fin 128), j = ix2 p q := ⟨j 0, j 1, eq_ix2 j⟩
  unfold k8_pay1
  show max (shapeCast S2000x128 x0 shapeCasts_S2000x128_S2000x128 (ix2 p q)
        + broadcastTo S2000x128 (shapeCast S1x128 x1 shapeCasts_S1x128_S1x128) broadcasts_S1x128_S2000x128 (ix2 p q))
      (Ideal.ofBits .f32 0x00000000#32)
    = max (x0 (ix2 p q) + x1 (ix2 (0 : Fin 1) q)) 0
  rw [shapeCast_self, shapeCast_self, broadcastTo_1b_ab_apply, Ideal.ofBits_zero_f32]

/-- The printed index maps, decided over the 50 points: the given rows' block moves with the output's block,
    which is block t of the rows; the bias row's block never moves; every block starts at column 0. -/
theorem index_facts8 : ∀ t : Fin cfg8.N, win8_0.index t (0 : Fin 2) = win8_2.index t (0 : Fin 2)
    ∧ win8_0.index t (1 : Fin 2) = 0
    ∧ win8_1.index t (0 : Fin 2) = 0
    ∧ win8_1.index t (1 : Fin 2) = 0
    ∧ win8_2.index t (0 : Fin 2) = t.val
    ∧ win8_2.index t (1 : Fin 2) = 0 :=
  (by decide +kernel : ∀ t : Fin grid8.N, _)

variable (V : (c : Dev nD) → (b : Ref sig .tc) → Buf (Elt Ideal) ((c : Thread nD τ).loc b))

/-- What point t writes back is block t of the larger of zero and the given rows with the bias row added to
    every row: an entry of it depends on the same row of the given rows and the same column of the bias row
    only, the given rows' block sits where the output's block sits, and the bias row's block is the whole row. -/
theorem flushed8_eq (c : Dev nD) (t : Fin cfg8.N) :
    (dat8 (F := Ideal) V c).flushed 2 t
      = ((cfg8.win 2).blk t).view.read (Elt Ideal) (Cert.Layer.biasRelu (V c main_v52) (V c main_v55)) := by
  show (cfg8.win 2).cut (grid8.coords t) ((dat8 (F := Ideal) V c).after 2 t) = _
  rw [after8_2]
  unfold out8_2
  rw [View.canon_unit_zero zero_offsets8]
  simp only [View.ld_unit_zero (S := S2000x128) zero_offsets8, View.ld_unit_zero (S := S1x128) zero_offsets8]
  rw [pay8_eq]
  obtain ⟨e0, e1, e2, e3, e4, e5⟩ := index_facts8 t
  funext j
  show Cert.Layer.biasRelu (iblk8 V c 0 t) (iblk8 V c 1 t) j
    = Cert.Layer.biasRelu (V c main_v52) (V c main_v55) (((cfg8.win 2).blk t).view.emb j)
  refine Cert.Layer.biasRelu_entry_congr _ _ _ _ j (((cfg8.win 2).blk t).view.emb j) ?_ ?_
  · show V c main_v52 (((cfg8.win 0).blk t).view.emb j) = V c main_v52 (((cfg8.win 2).blk t).view.emb j)
    refine congrArg (V c main_v52) (funext fun a => Fin.ext ?_)
    match a with
    | ⟨0, _⟩ =>
      show win8_0.index t (0 : Fin 2) * 2000 + 1 * (j 0).val = win8_2.index t (0 : Fin 2) * 2000 + 1 * (j 0).val
      rw [e0]
    | ⟨1, _⟩ =>
      show win8_0.index t (1 : Fin 2) * 128 + 1 * (j 1).val = win8_2.index t (1 : Fin 2) * 128 + 1 * (j 1).val
      rw [e1, e5]
  · show V c main_v55 (((cfg8.win 1).blk t).view.emb (ix2 (0 : Fin 1) (j 1)))
      = V c main_v55 (ix2 (0 : Fin 1) ((((cfg8.win 2).blk t).view.emb j) 1))
    refine congrArg (V c main_v55) (funext fun a => Fin.ext ?_)
    match a with
    | ⟨0, _⟩ =>
      show win8_1.index t (0 : Fin 2) * 1 + 1 * 0 = 0
      rw [e2]
    | ⟨1, _⟩ =>
      show win8_1.index t (1 : Fin 2) * 128 + 1 * (j 1).val = win8_2.index t (1 : Fin 2) * 128 + 1 * (j 1).val
      rw [e3, e5]

/-- An entry of the output array is in point t's block iff, on each axis, its coordinate is in the block's range. -/
theorem mem_rows8 (t : Fin cfg8.N) (i : S100000x128.Idx) :
    i ∈ ((cfg8.win 2).blk t).view.set
      ↔ ∀ a : Fin 2, win8_2.index t a * S2000x128.size a ≤ (i a).val
          ∧ (i a).val < win8_2.index t a * S2000x128.size a + S2000x128.size a := by
  show i ∈ ((View.whole main_v56).slice (win8_2.rect t)).set ↔ _
  rw [View.set_slice_whole, Rect.mem_set_unit]
  exact Iff.rfl

/-- The 50 blocks of 2000 rows tile the 100000 rows: row r is in the block of point r / 2000, which writes back. -/
theorem rows_cover8 (i : S100000x128.Idx) :
    ∃ t : Fin cfg8.N, (cfg8.win 2).flush t = true ∧ i ∈ ((cfg8.win 2).blk t).view.set := by
  have hN : cfg8.N = 50 := N_8
  have hi0 : (i 0).val < 100000 := (i 0).isLt
  have hi1 : (i 1).val < 128 := (i 1).isLt
  obtain ⟨t, ht⟩ : ∃ t : Fin cfg8.N, t.val = (i 0).val / 2000 := ⟨⟨(i 0).val / 2000, by rw [hN]; omega⟩, rfl⟩
  obtain ⟨-, -, -, -, e4, e5⟩ := index_facts8 t
  refine ⟨t, flush8_2 t, ?_⟩
  rw [mem_rows8]
  intro a
  match a with
  | ⟨0, _⟩ =>
    show win8_2.index t (0 : Fin 2) * 2000 ≤ (i 0).val ∧ (i 0).val < win8_2.index t (0 : Fin 2) * 2000 + 2000
    rw [e4, ht]; omega
  | ⟨1, _⟩ =>
    show win8_2.index t (1 : Fin 2) * 128 ≤ (i 1).val ∧ (i 1).val < win8_2.index t (1 : Fin 2) * 128 + 128
    rw [e5]; omega

/-- The array region 8 leaves in its output window: the larger of zero and the rows it found with the bias row
    it found added to every row. -/
theorem final8 (c : Dev nD) :
    (dat8 (F := Ideal) V c).arrAt 2 cfg8.N = Cert.Layer.biasRelu (V c main_v52) (V c main_v55) :=
  (dat8 (F := Ideal) V c).arrAt_eq_of_cover 2 (Cert.Layer.biasRelu (V c main_v52) (V c main_v55))
    (fun t _ => flushed8_eq V c t) rows_cover8

end Cert.KernelIdeal.Hand

end
-- ==== Proof.KI.Final9.lean ====
/- Region 9 of @main, read as a value: the array the region leaves in main_v59 is the matrix product of main_v37
   (100000 x 128) and main_v58 (128 x 128) as the region found them.
   Grid point t multiplies rows 2000 t … 2000 t + 1999 of the left operand by the whole right operand and writes the
   result back to the same rows of the output. Row p of a product depends on row p of the left operand only, so what
   point t writes back is its block of rows of the product of the whole arrays; the 50 blocks of rows tile the
   output, the block that holds row r being block r / 2000. -/
import proofs.«104107_j50560355009131_1_alg».proof.Proof.KI.Body9
import proofs.«104107_j50560355009131_1_alg».proof.Proof.KI.FinalMATMULLib
import Idealize.ShloMosaic.Lib.Pipeline.Value

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx Idealize.ShloMosaic.MatmulPlain
open Cert.KernelIdeal Cert.KernelIdeal.Gen

/-- What the body stores, over the extended reals: the product of the block of rows and the right operand (the
    casts of both blocks to their own shapes change nothing). -/
theorem pay9_eq_prod (x0 : Vec Ideal S2000x128 .f32) (x1 : Vec Ideal S128x128 .f32) :
    k9_pay1 (F := Ideal) x0 x1 = prod (M := 2000) (K := 128) (N := 128) (φ₁ := .f32) (φ₂ := .f32) x0 x1 := by
  unfold k9_pay1
  rw [shapeCast_self, shapeCast_self]
  exact matmul_rounded_eq_prod x0 x1 _

/-- The three index maps over the grid: at point t the left operand's and the output's block of rows is block t, on
    the column axis every block index is 0, and the right operand's block is block (0, 0). -/
theorem index_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

variable (V : (c : Dev nD) → (b : Ref sig .tc) → Buf (Elt Ideal) ((c : Thread nD τ).loc b))

/-- What point t writes back is block t of the product of the whole arrays: entry (p, q) of the block product is
    the sum over k of left (2000 t + p, k) * right (k, q), which is entry (2000 t + p, q) of the whole product. -/
theorem flushed9_eq_prod (c : Dev nD) (t : Fin cfg9.N) :
    (dat9 (F := Ideal) V c).flushed 2 t
      = ((cfg9.win 2).blk t).view.read (Elt Ideal)
          (prod (M := 100000) (K := 128) (N := 128) (φ₁ := .f32) (φ₂ := .f32) (V c main_v37) (V c main_v58)) := by
  show (cfg9.win 2).cut (grid9.coords t) ((dat9 V c).after 2 t) = _
  rw [after9_2]
  unfold out9_2
  rw [View.canon_unit_zero matmul_zero_offsets]
  simp only [View.ld_unit_zero (S := S2000x128) matmul_zero_offsets, View.ld_unit_zero (S := S128x128) matmul_zero_offsets]
  rw [pay9_eq_prod]
  refine funext fun (j : S2000x128.Idx) => ?_
  obtain ⟨p, q, rfl⟩ : ∃ (p : Fin 2000) (q : Fin 128), j = ix2 p q := ⟨j 0, j 1, eq_ix2 j⟩
  show prod (iblk9 V c 0 t) (iblk9 V c 1 t) (ix2 p q)
    = prod (V c main_v37) (V c main_v58) (((cfg9.win 2).blk t).view.emb (ix2 p q))
  obtain ⟨e00, e01, e10, e11, e20, e21⟩ := index_facts9 t
  refine prod_entry_congr _ _ _ _ (ix2 p q) _ (fun k => ?_) (fun k => ?_)
  · -- row p of the left block is row 2000 t + p of the left operand
    show V c main_v37 (((cfg9.win 0).blk t).view.emb (ix2 p k)) = V c main_v37 _
    refine congrArg _ (funext fun a => Fin.ext ?_)
    match a with
    | ⟨0, _⟩ => show win9_0.index t (0 : Fin 2) * 2000 + 1 * p.val = win9_2.index t (0 : Fin 2) * 2000 + 1 * p.val; omega
    | ⟨1, _⟩ => show win9_0.index t (1 : Fin 2) * 128 + 1 * k.val = k.val; omega
  · -- column q of the right block is column q of the right operand
    show V c main_v58 (((cfg9.win 1).blk t).view.emb (ix2 k q)) = V c main_v58 _
    refine congrArg _ (funext fun a => Fin.ext ?_)
    match a with
    | ⟨0, _⟩ => show win9_1.index t (0 : Fin 2) * 128 + 1 * k.val = k.val; omega
    | ⟨1, _⟩ => show win9_1.index t (1 : Fin 2) * 128 + 1 * q.val = win9_2.index t (1 : Fin 2) * 128 + 1 * q.val; omega

/-- An index of the output is in point t's block iff each coordinate is in the block's range on its axis. -/
theorem mem_out_blk9 (t : Fin cfg9.N) (i : S100000x128.Idx) :
    i ∈ ((cfg9.win 2).blk t).view.set
      ↔ ∀ a : Fin 2, win9_2.index t a * S2000x128.size a ≤ (i a).val
          ∧ (i a).val < win9_2.index t a * S2000x128.size a + S2000x128.size a := by
  show i ∈ ((View.whole main_v59).slice (win9_2.rect t)).set ↔ _
  rw [View.set_slice_whole, Rect.mem_set_unit]
  exact Iff.rfl

/-- The blocks of rows tile the output: row r is in block r / 2000, and r / 2000 < 50 because r < 100000. -/
theorem rows_covered9 (i : S100000x128.Idx) :
    ∃ t : Fin cfg9.N, (cfg9.win 2).flush t = true ∧ i ∈ ((cfg9.win 2).blk t).view.set := by
  have hN : cfg9.N = 50 := N_9
  have hi0 : (i 0).val < 100000 := (i 0).isLt
  have hi1 : (i 1).val < 128 := (i 1).isLt
  obtain ⟨t, ht⟩ : ∃ t : Fin cfg9.N, t.val = (i 0).val / 2000 := ⟨⟨(i 0).val / 2000, by rw [hN]; omega⟩, rfl⟩
  obtain ⟨-, -, -, -, e20, e21⟩ := index_facts9 t
  refine ⟨t, flush9_2 t, ?_⟩
  rw [mem_out_blk9]
  intro a
  match a with
  | ⟨0, _⟩ => show win9_2.index t (0 : Fin 2) * 2000 ≤ (i 0).val ∧ (i 0).val < win9_2.index t (0 : Fin 2) * 2000 + 2000; omega
  | ⟨1, _⟩ => show win9_2.index t (1 : Fin 2) * 128 ≤ (i 1).val ∧ (i 1).val < win9_2.index t (1 : Fin 2) * 128 + 128; omega

/-- After the region main_v59 holds the product of main_v37 and main_v58. -/
theorem final9 (c : Dev nD) :
    (dat9 (F := Ideal) V c).arrAt 2 cfg9.N
      = prod (M := 100000) (K := 128) (N := 128) (φ₁ := .f32) (φ₂ := .f32) (V c main_v37) (V c main_v58) :=
  (dat9 (F := Ideal) V c).arrAt_eq_of_cover 2 _ (fun t _ => flushed9_eq_prod V c t) rows_covered9

end Cert.KernelIdeal.Hand

end
-- ==== Proof.KI.Final10.lean ====
/- Region 10 of @main at the ideal instance (floats are extended reals): the value its pipeline leaves in the
   output window's array. The region scales the gathered rows of layer 0, block 3 (the rows of h · W[0,3], h the
   result of block 1, at the edges' user indices) by the edge weights: the output array is ONE function of the
   two input arrays as the region finds them, row e of the gathered rows times the one entry of row e of the
   600000 x 1 column of weights (`Cert.Layer.scaleRows`). Three steps. On a block: the body's payload (the
   product of the block of rows with the block of weights spread along each row) is `scaleRows` of the two
   blocks. At a point t: all three windows sit at block row t, block column 0 of their arrays, so an entry of
   what t writes back depends on the same row of both input arrays as the entry of `scaleRows` of the whole
   arrays at that place does. Over the grid: row r of the output lies in the block of point r / 8000, so the 75
   blocks of 8000 rows cover the 600000 rows and the array ends at `scaleRows`. -/
import proofs.«104107_j50560355009131_1_alg».proof.Proof.KI.Body10
import proofs.«104107_j50560355009131_1_alg».proof.Proof.LibLayerOps
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The offsets of a rectangle that is its whole block are zero on both axes. -/
theorem zero_offsets10 : (![0, 0] : Fin 2 → Nat) = fun _ => 0 := funext fun a => by fin_cases a <;> rfl

/-- On a block: the product of the 8000 rows with the 8000 weights spread along each row is row r times the
    weight of row r. -/
theorem pay10_eq_scaleRows (x0 : Vec Ideal S8000x128 .f32) (x1 : Vec Ideal S8000x1 .f32) :
    k10_pay1 (F := Ideal) x0 x1 = Cert.Layer.scaleRows (n := 8000) (p := 128) x0 x1 := by
  funext j
  obtain ⟨r, q, rfl⟩ : ∃ (r : Fin 8000) (q : Fin 128), j = ix2 r q := ⟨j 0, j 1, eq_ix2 j⟩
  unfold k10_pay1
  show shapeCast S8000x128 x0 shapeCasts_S8000x128_S8000x128 (ix2 r q)
      * broadcastTo S8000x128 (shapeCast S8000x1 x1 shapeCasts_S8000x1_S8000x1) broadcasts_S8000x1_S8000x128 (ix2 r q)
    = x0 (ix2 r q) * x1 (ix2 r (0 : Fin 1))
  rw [shapeCast_self, shapeCast_self, Cert.Layer.colSpreadTo_apply]

/-- Where the three windows' blocks sit at point t: block row t, block column 0 of their arrays. -/
theorem block_places10 : ∀ t : Fin cfg10.N, win10_0.index t (0 : Fin 2) = win10_2.index t (0 : Fin 2)
    ∧ win10_0.index t (1 : Fin 2) = win10_2.index t (1 : Fin 2)
    ∧ win10_1.index t (0 : Fin 2) = win10_2.index t (0 : Fin 2)
    ∧ win10_1.index t (1 : Fin 2) = 0
    ∧ win10_2.index t (0 : Fin 2) = t.val
    ∧ win10_2.index t (1 : Fin 2) = 0 :=
  (by decide +kernel : ∀ t : Fin grid10.N, _)

/-- What point t writes back is block t of `scaleRows` of the two input arrays as the region finds them. -/
theorem flushed10_eq (c : Dev nD) (t : Fin cfg10.N) :
    (dat10 (F := Ideal) V c).flushed 2 t
      = ((cfg10.win 2).blk t).view.read (Elt Ideal) (Cert.Layer.scaleRows (n := 600000) (p := 128) (V c main_v66) (V c main_v67)) := by
  show (cfg10.win 2).cut (grid10.coords t) ((dat10 (F := Ideal) V c).after 2 t) = _
  rw [after10_2]
  unfold out10_2
  rw [View.canon_unit_zero zero_offsets10]
  simp only [View.ld_unit_zero (S := S8000x128) zero_offsets10, View.ld_unit_zero (S := S8000x1) zero_offsets10]
  rw [pay10_eq_scaleRows]
  obtain ⟨e0, e1, e2, e3, e4, e5⟩ := block_places10 t
  refine funext fun (j : S8000x128.Idx) => ?_
  -- the entry (j 0, j 1) of the block is the entry (8000 t + j 0, j 1) of the array
  refine Cert.Layer.scaleRows_entry_congr (n := 8000) (n' := 600000) (p := 128) (iblk10 V c 0 t) (iblk10 V c 1 t)
    (V c main_v66) (V c main_v67) j (((cfg10.win 2).blk t).view.emb j) ?_ ?_
  · -- the rows: window 0's block is read where the output's block is written
    show V c main_v66 (((cfg10.win 0).blk t).view.emb j) = V c main_v66 (((cfg10.win 2).blk t).view.emb j)
    refine congrArg (V c main_v66) ?_
    funext a; apply Fin.ext
    match a with
    | ⟨0, _⟩ => show win10_0.index t (0 : Fin 2) * 8000 + 1 * (j 0).val = win10_2.index t (0 : Fin 2) * 8000 + 1 * (j 0).val; omega
    | ⟨1, _⟩ => show win10_0.index t (1 : Fin 2) * 128 + 1 * (j 1).val = win10_2.index t (1 : Fin 2) * 128 + 1 * (j 1).val; omega
  · -- the weights: window 1's block holds the weights of the same 8000 rows
    show V c main_v67 (((cfg10.win 1).blk t).view.emb (ix2 (j 0) (0 : Fin 1)))
      = V c main_v67 (ix2 ((((cfg10.win 2).blk t).view.emb j) 0) (0 : Fin 1))
    refine congrArg (V c main_v67) ?_
    funext a; apply Fin.ext
    match a with
    | ⟨0, _⟩ => show win10_1.index t (0 : Fin 2) * 8000 + 1 * (j 0).val = win10_2.index t (0 : Fin 2) * 8000 + 1 * (j 0).val; omega
    | ⟨1, _⟩ => show win10_1.index t (1 : Fin 2) * 1 + 1 * 0 = 0; omega

/-- An index of the output array is in point t's block iff on each axis its coordinate is among the block's. -/
theorem mem_blk10 (t : Fin cfg10.N) (i : S600000x128.Idx) :
    i ∈ ((cfg10.win 2).blk t).view.set ↔ ∀ a : Fin 2, win10_2.index t a * S8000x128.size a ≤ (i a).val
      ∧ (i a).val < win10_2.index t a * S8000x128.size a + S8000x128.size a := by
  show i ∈ ((View.whole main_v68).slice (win10_2.rect t)).set ↔ _
  rw [View.set_slice_whole, Rect.mem_set_unit]
  exact Iff.rfl

/-- Row r of the output lies in the block of point r / 8000: the 75 blocks of 8000 rows cover the array. -/
theorem cover10 (i : S600000x128.Idx) :
    ∃ t : Fin cfg10.N, (cfg10.win 2).flush t = true ∧ i ∈ ((cfg10.win 2).blk t).view.set := by
  have hr : (i 0).val < 600000 := (i 0).isLt
  have hq : (i 1).val < 128 := (i 1).isLt
  have hN : cfg10.N = 75 := N_10
  obtain ⟨t, ht⟩ : ∃ t : Fin cfg10.N, t.val = (i 0).val / 8000 := ⟨⟨(i 0).val / 8000, by rw [hN]; omega⟩, rfl⟩
  obtain ⟨e0, e1, e2, e3, e4, e5⟩ := block_places10 t
  refine ⟨t, flush10_2 t, ?_⟩
  rw [mem_blk10]
  intro a
  match a with
  | ⟨0, _⟩ => show win10_2.index t (0 : Fin 2) * 8000 ≤ (i 0).val ∧ (i 0).val < win10_2.index t (0 : Fin 2) * 8000 + 8000; omega
  | ⟨1, _⟩ => show win10_2.index t (1 : Fin 2) * 128 ≤ (i 1).val ∧ (i 1).val < win10_2.index t (1 : Fin 2) * 128 + 128; omega

/-- THE ARRAY region 10 leaves in its output window: the gathered rows, row e scaled by the weight of edge e. -/
theorem final10 (c : Dev nD) :
    (dat10 (F := Ideal) V c).arrAt 2 cfg10.N = Cert.Layer.scaleRows (n := 600000) (p := 128) (V c main_v66) (V c main_v67) :=
  (dat10 (F := Ideal) V c).arrAt_eq_of_cover 2 (Cert.Layer.scaleRows (n := 600000) (p := 128) (V c main_v66) (V c main_v67))
    (fun t _ => flushed10_eq V c t) cover10

end Cert.KernelIdeal.Hand

end
-- ==== Proof.KI.Final11.lean ====
/- Region 11 of @main, read as a value. This bias-and-activation step runs over 25 grid points; at point t its
   body adds the 1 x 128 bias row to each of rows 2000 t … 2000 t + 1999 of the rows it is given, takes the
   larger of each entry and zero, and the output window writes those 2000 rows back. Here: the body's payload
   on a block is the larger of zero and the block with the bias row added to every row; what point t writes
   back is rows 2000 t … 2000 t + 1999 of ONE array, the larger of zero and the given rows (50000 of them)
   with the bias row added to every row; the 25 blocks tile the 50000 rows (row r is in block r / 2000); so
   the output array ends as that one array. -/
import proofs.«104107_j50560355009131_1_alg».proof.Proof.KI.Body11
import proofs.«104107_j50560355009131_1_alg».proof.Proof.LibLayerOps
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

/-- The offsets of a whole-block rectangle are zero on both axes. -/
theorem zero_offsets11 : (![0, 0] : Fin 2 → Nat) = fun _ => 0 := funext fun a => by fin_cases a <;> rfl

/-- The body's payload on a block: the casts to the same shape change nothing, the one row is repeated down
    the 2000 rows, the sum is taken entry by entry, and each entry is compared with the scalar whose word is
    the zero pattern, which denotes zero — the larger of zero and the block with the bias row added to every
    row. -/
theorem pay11_eq (x0 : FVec Ideal ⟨2, ![2000, 128]⟩ .f32) (x1 : FVec Ideal ⟨2, ![1, 128]⟩ .f32) :
    k11_pay1 (F := Ideal) x0 x1 = Cert.Layer.biasRelu x0 x1 := by
  funext j
  obtain ⟨p, q, rfl⟩ : ∃ (p : Fin 2000) (q : Fin 128), j = ix2 p q := ⟨j 0, j 1, eq_ix2 j⟩
  unfold k11_pay1
  show max (shapeCast S2000x128 x0 shapeCasts_S2000x128_S2000x128 (ix2 p q)
        + broadcastTo S2000x128 (shapeCast S1x128 x1 shapeCasts_S1x128_S1x128) broadcasts_S1x128_S2000x128 (ix2 p q))
      (Ideal.ofBits .f32 0x00000000#32)
    = max (x0 (ix2 p q) + x1 (ix2 (0 : Fin 1) q)) 0
  rw [shapeCast_self, shapeCast_self, broadcastTo_1b_ab_apply, Ideal.ofBits_zero_f32]

/-- The printed index maps, decided over the 25 points: the given rows' block moves with the output's block,
    which is block t of the rows; the bias row's block never moves; every block starts at column 0. -/
theorem index_facts11 : ∀ t : Fin cfg11.N, win11_0.index t (0 : Fin 2) = win11_2.index t (0 : Fin 2)
    ∧ win11_0.index t (1 : Fin 2) = 0
    ∧ win11_1.index t (0 : Fin 2) = 0
    ∧ win11_1.index t (1 : Fin 2) = 0
    ∧ win11_2.index t (0 : Fin 2) = t.val
    ∧ win11_2.index t (1 : Fin 2) = 0 :=
  (by decide +kernel : ∀ t : Fin grid11.N, _)

variable (V : (c : Dev nD) → (b : Ref sig .tc) → Buf (Elt Ideal) ((c : Thread nD τ).loc b))

/-- What point t writes back is block t of the larger of zero and the given rows with the bias row added to
    every row: an entry of it depends on the same row of the given rows and the same column of the bias row
    only, the given rows' block sits where the output's block sits, and the bias row's block is the whole row. -/
theorem flushed11_eq (c : Dev nD) (t : Fin cfg11.N) :
    (dat11 (F := Ideal) V c).flushed 2 t
      = ((cfg11.win 2).blk t).view.read (Elt Ideal) (Cert.Layer.biasRelu (V c main_v71) (V c main_v74)) := by
  show (cfg11.win 2).cut (grid11.coords t) ((dat11 (F := Ideal) V c).after 2 t) = _
  rw [after11_2]
  unfold out11_2
  rw [View.canon_unit_zero zero_offsets11]
  simp only [View.ld_unit_zero (S := S2000x128) zero_offsets11, View.ld_unit_zero (S := S1x128) zero_offsets11]
  rw [pay11_eq]
  obtain ⟨e0, e1, e2, e3, e4, e5⟩ := index_facts11 t
  funext j
  show Cert.Layer.biasRelu (iblk11 V c 0 t) (iblk11 V c 1 t) j
    = Cert.Layer.biasRelu (V c main_v71) (V c main_v74) (((cfg11.win 2).blk t).view.emb j)
  refine Cert.Layer.biasRelu_entry_congr _ _ _ _ j (((cfg11.win 2).blk t).view.emb j) ?_ ?_
  · show V c main_v71 (((cfg11.win 0).blk t).view.emb j) = V c main_v71 (((cfg11.win 2).blk t).view.emb j)
    refine congrArg (V c main_v71) (funext fun a => Fin.ext ?_)
    match a with
    | ⟨0, _⟩ =>
      show win11_0.index t (0 : Fin 2) * 2000 + 1 * (j 0).val = win11_2.index t (0 : Fin 2) * 2000 + 1 * (j 0).val
      rw [e0]
    | ⟨1, _⟩ =>
      show win11_0.index t (1 : Fin 2) * 128 + 1 * (j 1).val = win11_2.index t (1 : Fin 2) * 128 + 1 * (j 1).val
      rw [e1, e5]
  · show V c main_v74 (((cfg11.win 1).blk t).view.emb (ix2 (0 : Fin 1) (j 1)))
      = V c main_v74 (ix2 (0 : Fin 1) ((((cfg11.win 2).blk t).view.emb j) 1))
    refine congrArg (V c main_v74) (funext fun a => Fin.ext ?_)
    match a with
    | ⟨0, _⟩ =>
      show win11_1.index t (0 : Fin 2) * 1 + 1 * 0 = 0
      rw [e2]
    | ⟨1, _⟩ =>
      show win11_1.index t (1 : Fin 2) * 128 + 1 * (j 1).val = win11_2.index t (1 : Fin 2) * 128 + 1 * (j 1).val
      rw [e3, e5]

/-- An entry of the output array is in point t's block iff, on each axis, its coordinate is in the block's range. -/
theorem mem_rows11 (t : Fin cfg11.N) (i : S50000x128.Idx) :
    i ∈ ((cfg11.win 2).blk t).view.set
      ↔ ∀ a : Fin 2, win11_2.index t a * S2000x128.size a ≤ (i a).val
          ∧ (i a).val < win11_2.index t a * S2000x128.size a + S2000x128.size a := by
  show i ∈ ((View.whole main_v75).slice (win11_2.rect t)).set ↔ _
  rw [View.set_slice_whole, Rect.mem_set_unit]
  exact Iff.rfl

/-- The 25 blocks of 2000 rows tile the 50000 rows: row r is in the block of point r / 2000, which writes back. -/
theorem rows_cover11 (i : S50000x128.Idx) :
    ∃ t : Fin cfg11.N, (cfg11.win 2).flush t = true ∧ i ∈ ((cfg11.win 2).blk t).view.set := by
  have hN : cfg11.N = 25 := N_11
  have hi0 : (i 0).val < 50000 := (i 0).isLt
  have hi1 : (i 1).val < 128 := (i 1).isLt
  obtain ⟨t, ht⟩ : ∃ t : Fin cfg11.N, t.val = (i 0).val / 2000 := ⟨⟨(i 0).val / 2000, by rw [hN]; omega⟩, rfl⟩
  obtain ⟨-, -, -, -, e4, e5⟩ := index_facts11 t
  refine ⟨t, flush11_2 t, ?_⟩
  rw [mem_rows11]
  intro a
  match a with
  | ⟨0, _⟩ =>
    show win11_2.index t (0 : Fin 2) * 2000 ≤ (i 0).val ∧ (i 0).val < win11_2.index t (0 : Fin 2) * 2000 + 2000
    rw [e4, ht]; omega
  | ⟨1, _⟩ =>
    show win11_2.index t (1 : Fin 2) * 128 ≤ (i 1).val ∧ (i 1).val < win11_2.index t (1 : Fin 2) * 128 + 128
    rw [e5]; omega

/-- The array region 11 leaves in its output window: the larger of zero and the rows it found with the bias
    row it found added to every row. -/
theorem final11 (c : Dev nD) :
    (dat11 (F := Ideal) V c).arrAt 2 cfg11.N = Cert.Layer.biasRelu (V c main_v71) (V c main_v74) :=
  (dat11 (F := Ideal) V c).arrAt_eq_of_cover 2 (Cert.Layer.biasRelu (V c main_v71) (V c main_v74))
    (fun t _ => flushed11_eq V c t) rows_cover11

end Cert.KernelIdeal.Hand

end
-- ==== Proof.KI.Final12.lean ====
/- Region 12 of @main, read as a value: the array the region leaves in main_v78 is the matrix product of main_v56
   (100000 x 128) and main_v77 (128 x 128) as the region found them.
   Grid point t multiplies rows 2000 t … 2000 t + 1999 of the left operand by the whole right operand and writes the
   result back to the same rows of the output. Row p of a product depends on row p of the left operand only, so what
   point t writes back is its block of rows of the product of the whole arrays; the 50 blocks of rows tile the
   output, the block that holds row r being block r / 2000. -/
import proofs.«104107_j50560355009131_1_alg».proof.Proof.KI.Body12
import proofs.«104107_j50560355009131_1_alg».proof.Proof.KI.FinalMATMULLib
import Idealize.ShloMosaic.Lib.Pipeline.Value

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx Idealize.ShloMosaic.MatmulPlain
open Cert.KernelIdeal Cert.KernelIdeal.Gen

/-- What the body stores, over the extended reals: the product of the block of rows and the right operand (the
    casts of both blocks to their own shapes change nothing). -/
theorem pay12_eq_prod (x0 : Vec Ideal S2000x128 .f32) (x1 : Vec Ideal S128x128 .f32) :
    k12_pay1 (F := Ideal) x0 x1 = prod (M := 2000) (K := 128) (N := 128) (φ₁ := .f32) (φ₂ := .f32) x0 x1 := by
  unfold k12_pay1
  rw [shapeCast_self, shapeCast_self]
  exact matmul_rounded_eq_prod x0 x1 _

/-- The three index maps over the grid: at point t the left operand's and the output's block of rows is block t, on
    the column axis every block index is 0, and the right operand's block is block (0, 0). -/
theorem index_facts12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = t.val ∧ win12_2.index t (1 : Fin 2) = 0 :=
  (by decide +kernel : ∀ t : Fin grid12.N, _)

variable (V : (c : Dev nD) → (b : Ref sig .tc) → Buf (Elt Ideal) ((c : Thread nD τ).loc b))

/-- What point t writes back is block t of the product of the whole arrays: entry (p, q) of the block product is
    the sum over k of left (2000 t + p, k) * right (k, q), which is entry (2000 t + p, q) of the whole product. -/
theorem flushed12_eq_prod (c : Dev nD) (t : Fin cfg12.N) :
    (dat12 (F := Ideal) V c).flushed 2 t
      = ((cfg12.win 2).blk t).view.read (Elt Ideal)
          (prod (M := 100000) (K := 128) (N := 128) (φ₁ := .f32) (φ₂ := .f32) (V c main_v56) (V c main_v77)) := by
  show (cfg12.win 2).cut (grid12.coords t) ((dat12 V c).after 2 t) = _
  rw [after12_2]
  unfold out12_2
  rw [View.canon_unit_zero matmul_zero_offsets]
  simp only [View.ld_unit_zero (S := S2000x128) matmul_zero_offsets, View.ld_unit_zero (S := S128x128) matmul_zero_offsets]
  rw [pay12_eq_prod]
  refine funext fun (j : S2000x128.Idx) => ?_
  obtain ⟨p, q, rfl⟩ : ∃ (p : Fin 2000) (q : Fin 128), j = ix2 p q := ⟨j 0, j 1, eq_ix2 j⟩
  show prod (iblk12 V c 0 t) (iblk12 V c 1 t) (ix2 p q)
    = prod (V c main_v56) (V c main_v77) (((cfg12.win 2).blk t).view.emb (ix2 p q))
  obtain ⟨e00, e01, e10, e11, e20, e21⟩ := index_facts12 t
  refine prod_entry_congr _ _ _ _ (ix2 p q) _ (fun k => ?_) (fun k => ?_)
  · -- row p of the left block is row 2000 t + p of the left operand
    show V c main_v56 (((cfg12.win 0).blk t).view.emb (ix2 p k)) = V c main_v56 _
    refine congrArg _ (funext fun a => Fin.ext ?_)
    match a with
    | ⟨0, _⟩ => show win12_0.index t (0 : Fin 2) * 2000 + 1 * p.val = win12_2.index t (0 : Fin 2) * 2000 + 1 * p.val; omega
    | ⟨1, _⟩ => show win12_0.index t (1 : Fin 2) * 128 + 1 * k.val = k.val; omega
  · -- column q of the right block is column q of the right operand
    show V c main_v77 (((cfg12.win 1).blk t).view.emb (ix2 k q)) = V c main_v77 _
    refine congrArg _ (funext fun a => Fin.ext ?_)
    match a with
    | ⟨0, _⟩ => show win12_1.index t (0 : Fin 2) * 128 + 1 * k.val = k.val; omega
    | ⟨1, _⟩ => show win12_1.index t (1 : Fin 2) * 128 + 1 * q.val = win12_2.index t (1 : Fin 2) * 128 + 1 * q.val; omega

/-- An index of the output is in point t's block iff each coordinate is in the block's range on its axis. -/
theorem mem_out_blk12 (t : Fin cfg12.N) (i : S100000x128.Idx) :
    i ∈ ((cfg12.win 2).blk t).view.set
      ↔ ∀ a : Fin 2, win12_2.index t a * S2000x128.size a ≤ (i a).val
          ∧ (i a).val < win12_2.index t a * S2000x128.size a + S2000x128.size a := by
  show i ∈ ((View.whole main_v78).slice (win12_2.rect t)).set ↔ _
  rw [View.set_slice_whole, Rect.mem_set_unit]
  exact Iff.rfl

/-- The blocks of rows tile the output: row r is in block r / 2000, and r / 2000 < 50 because r < 100000. -/
theorem rows_covered12 (i : S100000x128.Idx) :
    ∃ t : Fin cfg12.N, (cfg12.win 2).flush t = true ∧ i ∈ ((cfg12.win 2).blk t).view.set := by
  have hN : cfg12.N = 50 := N_12
  have hi0 : (i 0).val < 100000 := (i 0).isLt
  have hi1 : (i 1).val < 128 := (i 1).isLt
  obtain ⟨t, ht⟩ : ∃ t : Fin cfg12.N, t.val = (i 0).val / 2000 := ⟨⟨(i 0).val / 2000, by rw [hN]; omega⟩, rfl⟩
  obtain ⟨-, -, -, -, e20, e21⟩ := index_facts12 t
  refine ⟨t, flush12_2 t, ?_⟩
  rw [mem_out_blk12]
  intro a
  match a with
  | ⟨0, _⟩ => show win12_2.index t (0 : Fin 2) * 2000 ≤ (i 0).val ∧ (i 0).val < win12_2.index t (0 : Fin 2) * 2000 + 2000; omega
  | ⟨1, _⟩ => show win12_2.index t (1 : Fin 2) * 128 ≤ (i 1).val ∧ (i 1).val < win12_2.index t (1 : Fin 2) * 128 + 128; omega

/-- After the region main_v78 holds the product of main_v56 and main_v77. -/
theorem final12 (c : Dev nD) :
    (dat12 (F := Ideal) V c).arrAt 2 cfg12.N
      = prod (M := 100000) (K := 128) (N := 128) (φ₁ := .f32) (φ₂ := .f32) (V c main_v56) (V c main_v77) :=
  (dat12 (F := Ideal) V c).arrAt_eq_of_cover 2 _ (fun t _ => flushed12_eq_prod V c t) rows_covered12

end Cert.KernelIdeal.Hand

end
-- ==== Proof.KI.Final13.lean ====
/- Region 13 of @main at the ideal instance (floats are extended reals): the value its pipeline leaves in the
   output window's array. The region scales the gathered rows of layer 1, block 0 (the rows of u' · W[1,0], u' the
   user rows layer 0 leaves, at the edges' user indices) by the edge weights: the output array is ONE function
   of the two input arrays as the region finds them, row e of the gathered rows times the one entry of row e of
   the 600000 x 1 column of weights (`Cert.Layer.scaleRows`). Three steps. On a block: the body's payload (the
   product of the block of rows with the block of weights spread along each row) is `scaleRows` of the two
   blocks. At a point t: all three windows sit at block row t, block column 0 of their arrays, so an entry of
   what t writes back depends on the same row of both input arrays as the entry of `scaleRows` of the whole
   arrays at that place does. Over the grid: row r of the output lies in the block of point r / 8000, so the 75
   blocks of 8000 rows cover the 600000 rows and the array ends at `scaleRows`. -/
import proofs.«104107_j50560355009131_1_alg».proof.Proof.KI.Body13
import proofs.«104107_j50560355009131_1_alg».proof.Proof.LibLayerOps
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The offsets of a rectangle that is its whole block are zero on both axes. -/
theorem zero_offsets13 : (![0, 0] : Fin 2 → Nat) = fun _ => 0 := funext fun a => by fin_cases a <;> rfl

/-- On a block: the product of the 8000 rows with the 8000 weights spread along each row is row r times the
    weight of row r. -/
theorem pay13_eq_scaleRows (x0 : Vec Ideal S8000x128 .f32) (x1 : Vec Ideal S8000x1 .f32) :
    k13_pay1 (F := Ideal) x0 x1 = Cert.Layer.scaleRows (n := 8000) (p := 128) x0 x1 := by
  funext j
  obtain ⟨r, q, rfl⟩ : ∃ (r : Fin 8000) (q : Fin 128), j = ix2 r q := ⟨j 0, j 1, eq_ix2 j⟩
  unfold k13_pay1
  show shapeCast S8000x128 x0 shapeCasts_S8000x128_S8000x128 (ix2 r q)
      * broadcastTo S8000x128 (shapeCast S8000x1 x1 shapeCasts_S8000x1_S8000x1) broadcasts_S8000x1_S8000x128 (ix2 r q)
    = x0 (ix2 r q) * x1 (ix2 r (0 : Fin 1))
  rw [shapeCast_self, shapeCast_self, Cert.Layer.colSpreadTo_apply]

/-- Where the three windows' blocks sit at point t: block row t, block column 0 of their arrays. -/
theorem block_places13 : ∀ t : Fin cfg13.N, win13_0.index t (0 : Fin 2) = win13_2.index t (0 : Fin 2)
    ∧ win13_0.index t (1 : Fin 2) = win13_2.index t (1 : Fin 2)
    ∧ win13_1.index t (0 : Fin 2) = win13_2.index t (0 : Fin 2)
    ∧ win13_1.index t (1 : Fin 2) = 0
    ∧ win13_2.index t (0 : Fin 2) = t.val
    ∧ win13_2.index t (1 : Fin 2) = 0 :=
  (by decide +kernel : ∀ t : Fin grid13.N, _)

/-- What point t writes back is block t of `scaleRows` of the two input arrays as the region finds them. -/
theorem flushed13_eq (c : Dev nD) (t : Fin cfg13.N) :
    (dat13 (F := Ideal) V c).flushed 2 t
      = ((cfg13.win 2).blk t).view.read (Elt Ideal) (Cert.Layer.scaleRows (n := 600000) (p := 128) (V c main_v85) (V c main_v86)) := by
  show (cfg13.win 2).cut (grid13.coords t) ((dat13 (F := Ideal) V c).after 2 t) = _
  rw [after13_2]
  unfold out13_2
  rw [View.canon_unit_zero zero_offsets13]
  simp only [View.ld_unit_zero (S := S8000x128) zero_offsets13, View.ld_unit_zero (S := S8000x1) zero_offsets13]
  rw [pay13_eq_scaleRows]
  obtain ⟨e0, e1, e2, e3, e4, e5⟩ := block_places13 t
  refine funext fun (j : S8000x128.Idx) => ?_
  -- the entry (j 0, j 1) of the block is the entry (8000 t + j 0, j 1) of the array
  refine Cert.Layer.scaleRows_entry_congr (n := 8000) (n' := 600000) (p := 128) (iblk13 V c 0 t) (iblk13 V c 1 t)
    (V c main_v85) (V c main_v86) j (((cfg13.win 2).blk t).view.emb j) ?_ ?_
  · -- the rows: window 0's block is read where the output's block is written
    show V c main_v85 (((cfg13.win 0).blk t).view.emb j) = V c main_v85 (((cfg13.win 2).blk t).view.emb j)
    refine congrArg (V c main_v85) ?_
    funext a; apply Fin.ext
    match a with
    | ⟨0, _⟩ => show win13_0.index t (0 : Fin 2) * 8000 + 1 * (j 0).val = win13_2.index t (0 : Fin 2) * 8000 + 1 * (j 0).val; omega
    | ⟨1, _⟩ => show win13_0.index t (1 : Fin 2) * 128 + 1 * (j 1).val = win13_2.index t (1 : Fin 2) * 128 + 1 * (j 1).val; omega
  · -- the weights: window 1's block holds the weights of the same 8000 rows
    show V c main_v86 (((cfg13.win 1).blk t).view.emb (ix2 (j 0) (0 : Fin 1)))
      = V c main_v86 (ix2 ((((cfg13.win 2).blk t).view.emb j) 0) (0 : Fin 1))
    refine congrArg (V c main_v86) ?_
    funext a; apply Fin.ext
    match a with
    | ⟨0, _⟩ => show win13_1.index t (0 : Fin 2) * 8000 + 1 * (j 0).val = win13_2.index t (0 : Fin 2) * 8000 + 1 * (j 0).val; omega
    | ⟨1, _⟩ => show win13_1.index t (1 : Fin 2) * 1 + 1 * 0 = 0; omega

/-- An index of the output array is in point t's block iff on each axis its coordinate is among the block's. -/
theorem mem_blk13 (t : Fin cfg13.N) (i : S600000x128.Idx) :
    i ∈ ((cfg13.win 2).blk t).view.set ↔ ∀ a : Fin 2, win13_2.index t a * S8000x128.size a ≤ (i a).val
      ∧ (i a).val < win13_2.index t a * S8000x128.size a + S8000x128.size a := by
  show i ∈ ((View.whole main_v87).slice (win13_2.rect t)).set ↔ _
  rw [View.set_slice_whole, Rect.mem_set_unit]
  exact Iff.rfl

/-- Row r of the output lies in the block of point r / 8000: the 75 blocks of 8000 rows cover the array. -/
theorem cover13 (i : S600000x128.Idx) :
    ∃ t : Fin cfg13.N, (cfg13.win 2).flush t = true ∧ i ∈ ((cfg13.win 2).blk t).view.set := by
  have hr : (i 0).val < 600000 := (i 0).isLt
  have hq : (i 1).val < 128 := (i 1).isLt
  have hN : cfg13.N = 75 := N_13
  obtain ⟨t, ht⟩ : ∃ t : Fin cfg13.N, t.val = (i 0).val / 8000 := ⟨⟨(i 0).val / 8000, by rw [hN]; omega⟩, rfl⟩
  obtain ⟨e0, e1, e2, e3, e4, e5⟩ := block_places13 t
  refine ⟨t, flush13_2 t, ?_⟩
  rw [mem_blk13]
  intro a
  match a with
  | ⟨0, _⟩ => show win13_2.index t (0 : Fin 2) * 8000 ≤ (i 0).val ∧ (i 0).val < win13_2.index t (0 : Fin 2) * 8000 + 8000; omega
  | ⟨1, _⟩ => show win13_2.index t (1 : Fin 2) * 128 ≤ (i 1).val ∧ (i 1).val < win13_2.index t (1 : Fin 2) * 128 + 128; omega

/-- THE ARRAY region 13 leaves in its output window: the gathered rows, row e scaled by the weight of edge e. -/
theorem final13 (c : Dev nD) :
    (dat13 (F := Ideal) V c).arrAt 2 cfg13.N = Cert.Layer.scaleRows (n := 600000) (p := 128) (V c main_v85) (V c main_v86) :=
  (dat13 (F := Ideal) V c).arrAt_eq_of_cover 2 (Cert.Layer.scaleRows (n := 600000) (p := 128) (V c main_v85) (V c main_v86))
    (fun t _ => flushed13_eq V c t) cover13

end Cert.KernelIdeal.Hand

end
-- ==== Proof.KI.Final14.lean ====
/- Region 14 of @main, read as a value. This bias step runs over 25 grid points; at point t its body adds the
   1 x 128 bias row to each of rows 2000 t … 2000 t + 1999 of the rows it is given and the output window
   writes those 2000 rows back. Here: the body's payload on a block is the bias row added to every row of the
   block; what point t writes back is rows 2000 t … 2000 t + 1999 of ONE array, the given rows (50000 of
   them) with the bias row added to every row; the 25 blocks tile the 50000 rows (row r is in block
   r / 2000); so the output array ends as that one array. -/
import proofs.«104107_j50560355009131_1_alg».proof.Proof.KI.Body14
import proofs.«104107_j50560355009131_1_alg».proof.Proof.LibLayerOps
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

/-- The offsets of a whole-block rectangle are zero on both axes. -/
theorem zero_offsets14 : (![0, 0] : Fin 2 → Nat) = fun _ => 0 := funext fun a => by fin_cases a <;> rfl

/-- The body's payload on a block: the casts to the same shape change nothing, the one row is repeated down
    the 2000 rows, and the sum is taken entry by entry — the bias row added to every row of the block. -/
theorem pay14_eq (x0 : FVec Ideal ⟨2, ![2000, 128]⟩ .f32) (x1 : FVec Ideal ⟨2, ![1, 128]⟩ .f32) :
    k14_pay1 (F := Ideal) x0 x1 = Cert.Layer.addRow x0 x1 := by
  funext j
  obtain ⟨p, q, rfl⟩ : ∃ (p : Fin 2000) (q : Fin 128), j = ix2 p q := ⟨j 0, j 1, eq_ix2 j⟩
  unfold k14_pay1
  show shapeCast S2000x128 x0 shapeCasts_S2000x128_S2000x128 (ix2 p q)
      + broadcastTo S2000x128 (shapeCast S1x128 x1 shapeCasts_S1x128_S1x128) broadcasts_S1x128_S2000x128 (ix2 p q)
    = x0 (ix2 p q) + x1 (ix2 (0 : Fin 1) q)
  rw [shapeCast_self, shapeCast_self, broadcastTo_1b_ab_apply]

/-- The printed index maps, decided over the 25 points: the given rows' block moves with the output's block,
    which is block t of the rows; the bias row's block never moves; every block starts at column 0. -/
theorem index_facts14 : ∀ t : Fin cfg14.N, win14_0.index t (0 : Fin 2) = win14_2.index t (0 : Fin 2)
    ∧ win14_0.index t (1 : Fin 2) = 0
    ∧ win14_1.index t (0 : Fin 2) = 0
    ∧ win14_1.index t (1 : Fin 2) = 0
    ∧ win14_2.index t (0 : Fin 2) = t.val
    ∧ win14_2.index t (1 : Fin 2) = 0 :=
  (by decide +kernel : ∀ t : Fin grid14.N, _)

variable (V : (c : Dev nD) → (b : Ref sig .tc) → Buf (Elt Ideal) ((c : Thread nD τ).loc b))

/-- What point t writes back is block t of the given rows with the bias row added to every row: an entry of
    the sum depends on the same row of the given rows and the same column of the bias row only, the given
    rows' block sits where the output's block sits, and the bias row's block is the whole row. -/
theorem flushed14_eq (c : Dev nD) (t : Fin cfg14.N) :
    (dat14 (F := Ideal) V c).flushed 2 t
      = ((cfg14.win 2).blk t).view.read (Elt Ideal) (Cert.Layer.addRow (V c main_v90) (V c main_v93)) := by
  show (cfg14.win 2).cut (grid14.coords t) ((dat14 (F := Ideal) V c).after 2 t) = _
  rw [after14_2]
  unfold out14_2
  rw [View.canon_unit_zero zero_offsets14]
  simp only [View.ld_unit_zero (S := S2000x128) zero_offsets14, View.ld_unit_zero (S := S1x128) zero_offsets14]
  rw [pay14_eq]
  obtain ⟨e0, e1, e2, e3, e4, e5⟩ := index_facts14 t
  funext j
  show Cert.Layer.addRow (iblk14 V c 0 t) (iblk14 V c 1 t) j
    = Cert.Layer.addRow (V c main_v90) (V c main_v93) (((cfg14.win 2).blk t).view.emb j)
  refine Cert.Layer.addRow_entry_congr _ _ _ _ j (((cfg14.win 2).blk t).view.emb j) ?_ ?_
  · show V c main_v90 (((cfg14.win 0).blk t).view.emb j) = V c main_v90 (((cfg14.win 2).blk t).view.emb j)
    refine congrArg (V c main_v90) (funext fun a => Fin.ext ?_)
    match a with
    | ⟨0, _⟩ =>
      show win14_0.index t (0 : Fin 2) * 2000 + 1 * (j 0).val = win14_2.index t (0 : Fin 2) * 2000 + 1 * (j 0).val
      rw [e0]
    | ⟨1, _⟩ =>
      show win14_0.index t (1 : Fin 2) * 128 + 1 * (j 1).val = win14_2.index t (1 : Fin 2) * 128 + 1 * (j 1).val
      rw [e1, e5]
  · show V c main_v93 (((cfg14.win 1).blk t).view.emb (ix2 (0 : Fin 1) (j 1)))
      = V c main_v93 (ix2 (0 : Fin 1) ((((cfg14.win 2).blk t).view.emb j) 1))
    refine congrArg (V c main_v93) (funext fun a => Fin.ext ?_)
    match a with
    | ⟨0, _⟩ =>
      show win14_1.index t (0 : Fin 2) * 1 + 1 * 0 = 0
      rw [e2]
    | ⟨1, _⟩ =>
      show win14_1.index t (1 : Fin 2) * 128 + 1 * (j 1).val = win14_2.index t (1 : Fin 2) * 128 + 1 * (j 1).val
      rw [e3, e5]

/-- An entry of the output array is in point t's block iff, on each axis, its coordinate is in the block's range. -/
theorem mem_rows14 (t : Fin cfg14.N) (i : S50000x128.Idx) :
    i ∈ ((cfg14.win 2).blk t).view.set
      ↔ ∀ a : Fin 2, win14_2.index t a * S2000x128.size a ≤ (i a).val
          ∧ (i a).val < win14_2.index t a * S2000x128.size a + S2000x128.size a := by
  show i ∈ ((View.whole main_v94).slice (win14_2.rect t)).set ↔ _
  rw [View.set_slice_whole, Rect.mem_set_unit]
  exact Iff.rfl

/-- The 25 blocks of 2000 rows tile the 50000 rows: row r is in the block of point r / 2000, which writes back. -/
theorem rows_cover14 (i : S50000x128.Idx) :
    ∃ t : Fin cfg14.N, (cfg14.win 2).flush t = true ∧ i ∈ ((cfg14.win 2).blk t).view.set := by
  have hN : cfg14.N = 25 := N_14
  have hi0 : (i 0).val < 50000 := (i 0).isLt
  have hi1 : (i 1).val < 128 := (i 1).isLt
  obtain ⟨t, ht⟩ : ∃ t : Fin cfg14.N, t.val = (i 0).val / 2000 := ⟨⟨(i 0).val / 2000, by rw [hN]; omega⟩, rfl⟩
  obtain ⟨-, -, -, -, e4, e5⟩ := index_facts14 t
  refine ⟨t, flush14_2 t, ?_⟩
  rw [mem_rows14]
  intro a
  match a with
  | ⟨0, _⟩ =>
    show win14_2.index t (0 : Fin 2) * 2000 ≤ (i 0).val ∧ (i 0).val < win14_2.index t (0 : Fin 2) * 2000 + 2000
    rw [e4, ht]; omega
  | ⟨1, _⟩ =>
    show win14_2.index t (1 : Fin 2) * 128 ≤ (i 1).val ∧ (i 1).val < win14_2.index t (1 : Fin 2) * 128 + 128
    rw [e5]; omega

/-- The array region 14 leaves in its output window: the rows it found with the bias row it found added to
    every row. -/
theorem final14 (c : Dev nD) :
    (dat14 (F := Ideal) V c).arrAt 2 cfg14.N = Cert.Layer.addRow (V c main_v90) (V c main_v93) :=
  (dat14 (F := Ideal) V c).arrAt_eq_of_cover 2 (Cert.Layer.addRow (V c main_v90) (V c main_v93))
    (fun t _ => flushed14_eq V c t) rows_cover14

end Cert.KernelIdeal.Hand

end
-- ==== Proof.KI.Final15.lean ====
/- Region 15 of @main, read as a value: the array the region leaves in main_v97 is the matrix product of main_v75
   (50000 x 128) and main_v96 (128 x 128) as the region found them.
   Grid point t multiplies rows 2000 t … 2000 t + 1999 of the left operand by the whole right operand and writes the
   result back to the same rows of the output. Row p of a product depends on row p of the left operand only, so what
   point t writes back is its block of rows of the product of the whole arrays; the 25 blocks of rows tile the
   output, the block that holds row r being block r / 2000. -/
import proofs.«104107_j50560355009131_1_alg».proof.Proof.KI.Body15
import proofs.«104107_j50560355009131_1_alg».proof.Proof.KI.FinalMATMULLib
import Idealize.ShloMosaic.Lib.Pipeline.Value

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx Idealize.ShloMosaic.MatmulPlain
open Cert.KernelIdeal Cert.KernelIdeal.Gen

/-- What the body stores, over the extended reals: the product of the block of rows and the right operand (the
    casts of both blocks to their own shapes change nothing). -/
theorem pay15_eq_prod (x0 : Vec Ideal S2000x128 .f32) (x1 : Vec Ideal S128x128 .f32) :
    k15_pay1 (F := Ideal) x0 x1 = prod (M := 2000) (K := 128) (N := 128) (φ₁ := .f32) (φ₂ := .f32) x0 x1 := by
  unfold k15_pay1
  rw [shapeCast_self, shapeCast_self]
  exact matmul_rounded_eq_prod x0 x1 _

/-- The three index maps over the grid: at point t the left operand's and the output's block of rows is block t, on
    the column axis every block index is 0, and the right operand's block is block (0, 0). -/
theorem index_facts15 : ∀ t : Fin cfg15.N, win15_0.index t (0 : Fin 2) = t.val ∧ win15_0.index t (1 : Fin 2) = 0
    ∧ win15_1.index t (0 : Fin 2) = 0 ∧ win15_1.index t (1 : Fin 2) = 0
    ∧ win15_2.index t (0 : Fin 2) = t.val ∧ win15_2.index t (1 : Fin 2) = 0 :=
  (by decide +kernel : ∀ t : Fin grid15.N, _)

variable (V : (c : Dev nD) → (b : Ref sig .tc) → Buf (Elt Ideal) ((c : Thread nD τ).loc b))

/-- What point t writes back is block t of the product of the whole arrays: entry (p, q) of the block product is
    the sum over k of left (2000 t + p, k) * right (k, q), which is entry (2000 t + p, q) of the whole product. -/
theorem flushed15_eq_prod (c : Dev nD) (t : Fin cfg15.N) :
    (dat15 (F := Ideal) V c).flushed 2 t
      = ((cfg15.win 2).blk t).view.read (Elt Ideal)
          (prod (M := 50000) (K := 128) (N := 128) (φ₁ := .f32) (φ₂ := .f32) (V c main_v75) (V c main_v96)) := by
  show (cfg15.win 2).cut (grid15.coords t) ((dat15 V c).after 2 t) = _
  rw [after15_2]
  unfold out15_2
  rw [View.canon_unit_zero matmul_zero_offsets]
  simp only [View.ld_unit_zero (S := S2000x128) matmul_zero_offsets, View.ld_unit_zero (S := S128x128) matmul_zero_offsets]
  rw [pay15_eq_prod]
  refine funext fun (j : S2000x128.Idx) => ?_
  obtain ⟨p, q, rfl⟩ : ∃ (p : Fin 2000) (q : Fin 128), j = ix2 p q := ⟨j 0, j 1, eq_ix2 j⟩
  show prod (iblk15 V c 0 t) (iblk15 V c 1 t) (ix2 p q)
    = prod (V c main_v75) (V c main_v96) (((cfg15.win 2).blk t).view.emb (ix2 p q))
  obtain ⟨e00, e01, e10, e11, e20, e21⟩ := index_facts15 t
  refine prod_entry_congr _ _ _ _ (ix2 p q) _ (fun k => ?_) (fun k => ?_)
  · -- row p of the left block is row 2000 t + p of the left operand
    show V c main_v75 (((cfg15.win 0).blk t).view.emb (ix2 p k)) = V c main_v75 _
    refine congrArg _ (funext fun a => Fin.ext ?_)
    match a with
    | ⟨0, _⟩ => show win15_0.index t (0 : Fin 2) * 2000 + 1 * p.val = win15_2.index t (0 : Fin 2) * 2000 + 1 * p.val; omega
    | ⟨1, _⟩ => show win15_0.index t (1 : Fin 2) * 128 + 1 * k.val = k.val; omega
  · -- column q of the right block is column q of the right operand
    show V c main_v96 (((cfg15.win 1).blk t).view.emb (ix2 k q)) = V c main_v96 _
    refine congrArg _ (funext fun a => Fin.ext ?_)
    match a with
    | ⟨0, _⟩ => show win15_1.index t (0 : Fin 2) * 128 + 1 * k.val = k.val; omega
    | ⟨1, _⟩ => show win15_1.index t (1 : Fin 2) * 128 + 1 * q.val = win15_2.index t (1 : Fin 2) * 128 + 1 * q.val; omega

/-- An index of the output is in point t's block iff each coordinate is in the block's range on its axis. -/
theorem mem_out_blk15 (t : Fin cfg15.N) (i : S50000x128.Idx) :
    i ∈ ((cfg15.win 2).blk t).view.set
      ↔ ∀ a : Fin 2, win15_2.index t a * S2000x128.size a ≤ (i a).val
          ∧ (i a).val < win15_2.index t a * S2000x128.size a + S2000x128.size a := by
  show i ∈ ((View.whole main_v97).slice (win15_2.rect t)).set ↔ _
  rw [View.set_slice_whole, Rect.mem_set_unit]
  exact Iff.rfl

/-- The blocks of rows tile the output: row r is in block r / 2000, and r / 2000 < 25 because r < 50000. -/
theorem rows_covered15 (i : S50000x128.Idx) :
    ∃ t : Fin cfg15.N, (cfg15.win 2).flush t = true ∧ i ∈ ((cfg15.win 2).blk t).view.set := by
  have hN : cfg15.N = 25 := N_15
  have hi0 : (i 0).val < 50000 := (i 0).isLt
  have hi1 : (i 1).val < 128 := (i 1).isLt
  obtain ⟨t, ht⟩ : ∃ t : Fin cfg15.N, t.val = (i 0).val / 2000 := ⟨⟨(i 0).val / 2000, by rw [hN]; omega⟩, rfl⟩
  obtain ⟨-, -, -, -, e20, e21⟩ := index_facts15 t
  refine ⟨t, flush15_2 t, ?_⟩
  rw [mem_out_blk15]
  intro a
  match a with
  | ⟨0, _⟩ => show win15_2.index t (0 : Fin 2) * 2000 ≤ (i 0).val ∧ (i 0).val < win15_2.index t (0 : Fin 2) * 2000 + 2000; omega
  | ⟨1, _⟩ => show win15_2.index t (1 : Fin 2) * 128 ≤ (i 1).val ∧ (i 1).val < win15_2.index t (1 : Fin 2) * 128 + 128; omega

/-- After the region main_v97 holds the product of main_v75 and main_v96. -/
theorem final15 (c : Dev nD) :
    (dat15 (F := Ideal) V c).arrAt 2 cfg15.N
      = prod (M := 50000) (K := 128) (N := 128) (φ₁ := .f32) (φ₂ := .f32) (V c main_v75) (V c main_v96) :=
  (dat15 (F := Ideal) V c).arrAt_eq_of_cover 2 _ (fun t _ => flushed15_eq_prod V c t) rows_covered15

end Cert.KernelIdeal.Hand

end
-- ==== Proof.KI.Final16.lean ====
/- Region 16 of @main at the ideal instance (floats are extended reals): the value its pipeline leaves in the
   output window's array. The region scales the gathered rows of layer 1, block 1 (the rows of v' · W[1,1], v' the
   item rows layer 0 leaves, at the edges' item indices) by the edge weights: the output array is ONE function
   of the two input arrays as the region finds them, row e of the gathered rows times the one entry of row e of
   the 600000 x 1 column of weights (`Cert.Layer.scaleRows`). Three steps. On a block: the body's payload (the
   product of the block of rows with the block of weights spread along each row) is `scaleRows` of the two
   blocks. At a point t: all three windows sit at block row t, block column 0 of their arrays, so an entry of
   what t writes back depends on the same row of both input arrays as the entry of `scaleRows` of the whole
   arrays at that place does. Over the grid: row r of the output lies in the block of point r / 8000, so the 75
   blocks of 8000 rows cover the 600000 rows and the array ends at `scaleRows`. -/
import proofs.«104107_j50560355009131_1_alg».proof.Proof.KI.Body16
import proofs.«104107_j50560355009131_1_alg».proof.Proof.LibLayerOps
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The offsets of a rectangle that is its whole block are zero on both axes. -/
theorem zero_offsets16 : (![0, 0] : Fin 2 → Nat) = fun _ => 0 := funext fun a => by fin_cases a <;> rfl

/-- On a block: the product of the 8000 rows with the 8000 weights spread along each row is row r times the
    weight of row r. -/
theorem pay16_eq_scaleRows (x0 : Vec Ideal S8000x128 .f32) (x1 : Vec Ideal S8000x1 .f32) :
    k16_pay1 (F := Ideal) x0 x1 = Cert.Layer.scaleRows (n := 8000) (p := 128) x0 x1 := by
  funext j
  obtain ⟨r, q, rfl⟩ : ∃ (r : Fin 8000) (q : Fin 128), j = ix2 r q := ⟨j 0, j 1, eq_ix2 j⟩
  unfold k16_pay1
  show shapeCast S8000x128 x0 shapeCasts_S8000x128_S8000x128 (ix2 r q)
      * broadcastTo S8000x128 (shapeCast S8000x1 x1 shapeCasts_S8000x1_S8000x1) broadcasts_S8000x1_S8000x128 (ix2 r q)
    = x0 (ix2 r q) * x1 (ix2 r (0 : Fin 1))
  rw [shapeCast_self, shapeCast_self, Cert.Layer.colSpreadTo_apply]

/-- Where the three windows' blocks sit at point t: block row t, block column 0 of their arrays. -/
theorem block_places16 : ∀ t : Fin cfg16.N, win16_0.index t (0 : Fin 2) = win16_2.index t (0 : Fin 2)
    ∧ win16_0.index t (1 : Fin 2) = win16_2.index t (1 : Fin 2)
    ∧ win16_1.index t (0 : Fin 2) = win16_2.index t (0 : Fin 2)
    ∧ win16_1.index t (1 : Fin 2) = 0
    ∧ win16_2.index t (0 : Fin 2) = t.val
    ∧ win16_2.index t (1 : Fin 2) = 0 :=
  (by decide +kernel : ∀ t : Fin grid16.N, _)

/-- What point t writes back is block t of `scaleRows` of the two input arrays as the region finds them. -/
theorem flushed16_eq (c : Dev nD) (t : Fin cfg16.N) :
    (dat16 (F := Ideal) V c).flushed 2 t
      = ((cfg16.win 2).blk t).view.read (Elt Ideal) (Cert.Layer.scaleRows (n := 600000) (p := 128) (V c main_v104) (V c main_v105)) := by
  show (cfg16.win 2).cut (grid16.coords t) ((dat16 (F := Ideal) V c).after 2 t) = _
  rw [after16_2]
  unfold out16_2
  rw [View.canon_unit_zero zero_offsets16]
  simp only [View.ld_unit_zero (S := S8000x128) zero_offsets16, View.ld_unit_zero (S := S8000x1) zero_offsets16]
  rw [pay16_eq_scaleRows]
  obtain ⟨e0, e1, e2, e3, e4, e5⟩ := block_places16 t
  refine funext fun (j : S8000x128.Idx) => ?_
  -- the entry (j 0, j 1) of the block is the entry (8000 t + j 0, j 1) of the array
  refine Cert.Layer.scaleRows_entry_congr (n := 8000) (n' := 600000) (p := 128) (iblk16 V c 0 t) (iblk16 V c 1 t)
    (V c main_v104) (V c main_v105) j (((cfg16.win 2).blk t).view.emb j) ?_ ?_
  · -- the rows: window 0's block is read where the output's block is written
    show V c main_v104 (((cfg16.win 0).blk t).view.emb j) = V c main_v104 (((cfg16.win 2).blk t).view.emb j)
    refine congrArg (V c main_v104) ?_
    funext a; apply Fin.ext
    match a with
    | ⟨0, _⟩ => show win16_0.index t (0 : Fin 2) * 8000 + 1 * (j 0).val = win16_2.index t (0 : Fin 2) * 8000 + 1 * (j 0).val; omega
    | ⟨1, _⟩ => show win16_0.index t (1 : Fin 2) * 128 + 1 * (j 1).val = win16_2.index t (1 : Fin 2) * 128 + 1 * (j 1).val; omega
  · -- the weights: window 1's block holds the weights of the same 8000 rows
    show V c main_v105 (((cfg16.win 1).blk t).view.emb (ix2 (j 0) (0 : Fin 1)))
      = V c main_v105 (ix2 ((((cfg16.win 2).blk t).view.emb j) 0) (0 : Fin 1))
    refine congrArg (V c main_v105) ?_
    funext a; apply Fin.ext
    match a with
    | ⟨0, _⟩ => show win16_1.index t (0 : Fin 2) * 8000 + 1 * (j 0).val = win16_2.index t (0 : Fin 2) * 8000 + 1 * (j 0).val; omega
    | ⟨1, _⟩ => show win16_1.index t (1 : Fin 2) * 1 + 1 * 0 = 0; omega

/-- An index of the output array is in point t's block iff on each axis its coordinate is among the block's. -/
theorem mem_blk16 (t : Fin cfg16.N) (i : S600000x128.Idx) :
    i ∈ ((cfg16.win 2).blk t).view.set ↔ ∀ a : Fin 2, win16_2.index t a * S8000x128.size a ≤ (i a).val
      ∧ (i a).val < win16_2.index t a * S8000x128.size a + S8000x128.size a := by
  show i ∈ ((View.whole main_v106).slice (win16_2.rect t)).set ↔ _
  rw [View.set_slice_whole, Rect.mem_set_unit]
  exact Iff.rfl

/-- Row r of the output lies in the block of point r / 8000: the 75 blocks of 8000 rows cover the array. -/
theorem cover16 (i : S600000x128.Idx) :
    ∃ t : Fin cfg16.N, (cfg16.win 2).flush t = true ∧ i ∈ ((cfg16.win 2).blk t).view.set := by
  have hr : (i 0).val < 600000 := (i 0).isLt
  have hq : (i 1).val < 128 := (i 1).isLt
  have hN : cfg16.N = 75 := N_16
  obtain ⟨t, ht⟩ : ∃ t : Fin cfg16.N, t.val = (i 0).val / 8000 := ⟨⟨(i 0).val / 8000, by rw [hN]; omega⟩, rfl⟩
  obtain ⟨e0, e1, e2, e3, e4, e5⟩ := block_places16 t
  refine ⟨t, flush16_2 t, ?_⟩
  rw [mem_blk16]
  intro a
  match a with
  | ⟨0, _⟩ => show win16_2.index t (0 : Fin 2) * 8000 ≤ (i 0).val ∧ (i 0).val < win16_2.index t (0 : Fin 2) * 8000 + 8000; omega
  | ⟨1, _⟩ => show win16_2.index t (1 : Fin 2) * 128 ≤ (i 1).val ∧ (i 1).val < win16_2.index t (1 : Fin 2) * 128 + 128; omega

/-- THE ARRAY region 16 leaves in its output window: the gathered rows, row e scaled by the weight of edge e. -/
theorem final16 (c : Dev nD) :
    (dat16 (F := Ideal) V c).arrAt 2 cfg16.N = Cert.Layer.scaleRows (n := 600000) (p := 128) (V c main_v104) (V c main_v105) :=
  (dat16 (F := Ideal) V c).arrAt_eq_of_cover 2 (Cert.Layer.scaleRows (n := 600000) (p := 128) (V c main_v104) (V c main_v105))
    (fun t _ => flushed16_eq V c t) cover16

end Cert.KernelIdeal.Hand

end
-- ==== Proof.KI.Final17.lean ====
/- Region 17 of @main, read as a value. This bias step runs over 50 grid points; at point t its body adds the
   1 x 128 bias row to each of rows 2000 t … 2000 t + 1999 of the rows it is given and the output window
   writes those 2000 rows back. Here: the body's payload on a block is the bias row added to every row of the
   block; what point t writes back is rows 2000 t … 2000 t + 1999 of ONE array, the given rows (100000 of
   them) with the bias row added to every row; the 50 blocks tile the 100000 rows (row r is in block
   r / 2000); so the output array ends as that one array. -/
import proofs.«104107_j50560355009131_1_alg».proof.Proof.KI.Body17
import proofs.«104107_j50560355009131_1_alg».proof.Proof.LibLayerOps
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

/-- The offsets of a whole-block rectangle are zero on both axes. -/
theorem zero_offsets17 : (![0, 0] : Fin 2 → Nat) = fun _ => 0 := funext fun a => by fin_cases a <;> rfl

/-- The body's payload on a block: the casts to the same shape change nothing, the one row is repeated down
    the 2000 rows, and the sum is taken entry by entry — the bias row added to every row of the block. -/
theorem pay17_eq (x0 : FVec Ideal ⟨2, ![2000, 128]⟩ .f32) (x1 : FVec Ideal ⟨2, ![1, 128]⟩ .f32) :
    k17_pay1 (F := Ideal) x0 x1 = Cert.Layer.addRow x0 x1 := by
  funext j
  obtain ⟨p, q, rfl⟩ : ∃ (p : Fin 2000) (q : Fin 128), j = ix2 p q := ⟨j 0, j 1, eq_ix2 j⟩
  unfold k17_pay1
  show shapeCast S2000x128 x0 shapeCasts_S2000x128_S2000x128 (ix2 p q)
      + broadcastTo S2000x128 (shapeCast S1x128 x1 shapeCasts_S1x128_S1x128) broadcasts_S1x128_S2000x128 (ix2 p q)
    = x0 (ix2 p q) + x1 (ix2 (0 : Fin 1) q)
  rw [shapeCast_self, shapeCast_self, broadcastTo_1b_ab_apply]

/-- The printed index maps, decided over the 50 points: the given rows' block moves with the output's block,
    which is block t of the rows; the bias row's block never moves; every block starts at column 0. -/
theorem index_facts17 : ∀ t : Fin cfg17.N, win17_0.index t (0 : Fin 2) = win17_2.index t (0 : Fin 2)
    ∧ win17_0.index t (1 : Fin 2) = 0
    ∧ win17_1.index t (0 : Fin 2) = 0
    ∧ win17_1.index t (1 : Fin 2) = 0
    ∧ win17_2.index t (0 : Fin 2) = t.val
    ∧ win17_2.index t (1 : Fin 2) = 0 :=
  (by decide +kernel : ∀ t : Fin grid17.N, _)

variable (V : (c : Dev nD) → (b : Ref sig .tc) → Buf (Elt Ideal) ((c : Thread nD τ).loc b))

/-- What point t writes back is block t of the given rows with the bias row added to every row: an entry of
    the sum depends on the same row of the given rows and the same column of the bias row only, the given
    rows' block sits where the output's block sits, and the bias row's block is the whole row. -/
theorem flushed17_eq (c : Dev nD) (t : Fin cfg17.N) :
    (dat17 (F := Ideal) V c).flushed 2 t
      = ((cfg17.win 2).blk t).view.read (Elt Ideal) (Cert.Layer.addRow (V c main_v109) (V c main_v112)) := by
  show (cfg17.win 2).cut (grid17.coords t) ((dat17 (F := Ideal) V c).after 2 t) = _
  rw [after17_2]
  unfold out17_2
  rw [View.canon_unit_zero zero_offsets17]
  simp only [View.ld_unit_zero (S := S2000x128) zero_offsets17, View.ld_unit_zero (S := S1x128) zero_offsets17]
  rw [pay17_eq]
  obtain ⟨e0, e1, e2, e3, e4, e5⟩ := index_facts17 t
  funext j
  show Cert.Layer.addRow (iblk17 V c 0 t) (iblk17 V c 1 t) j
    = Cert.Layer.addRow (V c main_v109) (V c main_v112) (((cfg17.win 2).blk t).view.emb j)
  refine Cert.Layer.addRow_entry_congr _ _ _ _ j (((cfg17.win 2).blk t).view.emb j) ?_ ?_
  · show V c main_v109 (((cfg17.win 0).blk t).view.emb j) = V c main_v109 (((cfg17.win 2).blk t).view.emb j)
    refine congrArg (V c main_v109) (funext fun a => Fin.ext ?_)
    match a with
    | ⟨0, _⟩ =>
      show win17_0.index t (0 : Fin 2) * 2000 + 1 * (j 0).val = win17_2.index t (0 : Fin 2) * 2000 + 1 * (j 0).val
      rw [e0]
    | ⟨1, _⟩ =>
      show win17_0.index t (1 : Fin 2) * 128 + 1 * (j 1).val = win17_2.index t (1 : Fin 2) * 128 + 1 * (j 1).val
      rw [e1, e5]
  · show V c main_v112 (((cfg17.win 1).blk t).view.emb (ix2 (0 : Fin 1) (j 1)))
      = V c main_v112 (ix2 (0 : Fin 1) ((((cfg17.win 2).blk t).view.emb j) 1))
    refine congrArg (V c main_v112) (funext fun a => Fin.ext ?_)
    match a with
    | ⟨0, _⟩ =>
      show win17_1.index t (0 : Fin 2) * 1 + 1 * 0 = 0
      rw [e2]
    | ⟨1, _⟩ =>
      show win17_1.index t (1 : Fin 2) * 128 + 1 * (j 1).val = win17_2.index t (1 : Fin 2) * 128 + 1 * (j 1).val
      rw [e3, e5]

/-- An entry of the output array is in point t's block iff, on each axis, its coordinate is in the block's range. -/
theorem mem_rows17 (t : Fin cfg17.N) (i : S100000x128.Idx) :
    i ∈ ((cfg17.win 2).blk t).view.set
      ↔ ∀ a : Fin 2, win17_2.index t a * S2000x128.size a ≤ (i a).val
          ∧ (i a).val < win17_2.index t a * S2000x128.size a + S2000x128.size a := by
  show i ∈ ((View.whole main_v113).slice (win17_2.rect t)).set ↔ _
  rw [View.set_slice_whole, Rect.mem_set_unit]
  exact Iff.rfl

/-- The 50 blocks of 2000 rows tile the 100000 rows: row r is in the block of point r / 2000, which writes back. -/
theorem rows_cover17 (i : S100000x128.Idx) :
    ∃ t : Fin cfg17.N, (cfg17.win 2).flush t = true ∧ i ∈ ((cfg17.win 2).blk t).view.set := by
  have hN : cfg17.N = 50 := N_17
  have hi0 : (i 0).val < 100000 := (i 0).isLt
  have hi1 : (i 1).val < 128 := (i 1).isLt
  obtain ⟨t, ht⟩ : ∃ t : Fin cfg17.N, t.val = (i 0).val / 2000 := ⟨⟨(i 0).val / 2000, by rw [hN]; omega⟩, rfl⟩
  obtain ⟨-, -, -, -, e4, e5⟩ := index_facts17 t
  refine ⟨t, flush17_2 t, ?_⟩
  rw [mem_rows17]
  intro a
  match a with
  | ⟨0, _⟩ =>
    show win17_2.index t (0 : Fin 2) * 2000 ≤ (i 0).val ∧ (i 0).val < win17_2.index t (0 : Fin 2) * 2000 + 2000
    rw [e4, ht]; omega
  | ⟨1, _⟩ =>
    show win17_2.index t (1 : Fin 2) * 128 ≤ (i 1).val ∧ (i 1).val < win17_2.index t (1 : Fin 2) * 128 + 128
    rw [e5]; omega

/-- The array region 17 leaves in its output window: the rows it found with the bias row it found added to
    every row. -/
theorem final17 (c : Dev nD) :
    (dat17 (F := Ideal) V c).arrAt 2 cfg17.N = Cert.Layer.addRow (V c main_v109) (V c main_v112) :=
  (dat17 (F := Ideal) V c).arrAt_eq_of_cover 2 (Cert.Layer.addRow (V c main_v109) (V c main_v112))
    (fun t _ => flushed17_eq V c t) rows_cover17

end Cert.KernelIdeal.Hand

end
-- ==== Proof.KI.Final18.lean ====
/- Region 18 of @main, read as a value: the array the region leaves in main_v116 is the matrix product of main_v94
   (50000 x 128) and main_v115 (128 x 128) as the region found them.
   Grid point t multiplies rows 2000 t … 2000 t + 1999 of the left operand by the whole right operand and writes the
   result back to the same rows of the output. Row p of a product depends on row p of the left operand only, so what
   point t writes back is its block of rows of the product of the whole arrays; the 25 blocks of rows tile the
   output, the block that holds row r being block r / 2000. -/
import proofs.«104107_j50560355009131_1_alg».proof.Proof.KI.Body18
import proofs.«104107_j50560355009131_1_alg».proof.Proof.KI.FinalMATMULLib
import Idealize.ShloMosaic.Lib.Pipeline.Value

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx Idealize.ShloMosaic.MatmulPlain
open Cert.KernelIdeal Cert.KernelIdeal.Gen

/-- What the body stores, over the extended reals: the product of the block of rows and the right operand (the
    casts of both blocks to their own shapes change nothing). -/
theorem pay18_eq_prod (x0 : Vec Ideal S2000x128 .f32) (x1 : Vec Ideal S128x128 .f32) :
    k18_pay1 (F := Ideal) x0 x1 = prod (M := 2000) (K := 128) (N := 128) (φ₁ := .f32) (φ₂ := .f32) x0 x1 := by
  unfold k18_pay1
  rw [shapeCast_self, shapeCast_self]
  exact matmul_rounded_eq_prod x0 x1 _

/-- The three index maps over the grid: at point t the left operand's and the output's block of rows is block t, on
    the column axis every block index is 0, and the right operand's block is block (0, 0). -/
theorem index_facts18 : ∀ t : Fin cfg18.N, win18_0.index t (0 : Fin 2) = t.val ∧ win18_0.index t (1 : Fin 2) = 0
    ∧ win18_1.index t (0 : Fin 2) = 0 ∧ win18_1.index t (1 : Fin 2) = 0
    ∧ win18_2.index t (0 : Fin 2) = t.val ∧ win18_2.index t (1 : Fin 2) = 0 :=
  (by decide +kernel : ∀ t : Fin grid18.N, _)

variable (V : (c : Dev nD) → (b : Ref sig .tc) → Buf (Elt Ideal) ((c : Thread nD τ).loc b))

/-- What point t writes back is block t of the product of the whole arrays: entry (p, q) of the block product is
    the sum over k of left (2000 t + p, k) * right (k, q), which is entry (2000 t + p, q) of the whole product. -/
theorem flushed18_eq_prod (c : Dev nD) (t : Fin cfg18.N) :
    (dat18 (F := Ideal) V c).flushed 2 t
      = ((cfg18.win 2).blk t).view.read (Elt Ideal)
          (prod (M := 50000) (K := 128) (N := 128) (φ₁ := .f32) (φ₂ := .f32) (V c main_v94) (V c main_v115)) := by
  show (cfg18.win 2).cut (grid18.coords t) ((dat18 V c).after 2 t) = _
  rw [after18_2]
  unfold out18_2
  rw [View.canon_unit_zero matmul_zero_offsets]
  simp only [View.ld_unit_zero (S := S2000x128) matmul_zero_offsets, View.ld_unit_zero (S := S128x128) matmul_zero_offsets]
  rw [pay18_eq_prod]
  refine funext fun (j : S2000x128.Idx) => ?_
  obtain ⟨p, q, rfl⟩ : ∃ (p : Fin 2000) (q : Fin 128), j = ix2 p q := ⟨j 0, j 1, eq_ix2 j⟩
  show prod (iblk18 V c 0 t) (iblk18 V c 1 t) (ix2 p q)
    = prod (V c main_v94) (V c main_v115) (((cfg18.win 2).blk t).view.emb (ix2 p q))
  obtain ⟨e00, e01, e10, e11, e20, e21⟩ := index_facts18 t
  refine prod_entry_congr _ _ _ _ (ix2 p q) _ (fun k => ?_) (fun k => ?_)
  · -- row p of the left block is row 2000 t + p of the left operand
    show V c main_v94 (((cfg18.win 0).blk t).view.emb (ix2 p k)) = V c main_v94 _
    refine congrArg _ (funext fun a => Fin.ext ?_)
    match a with
    | ⟨0, _⟩ => show win18_0.index t (0 : Fin 2) * 2000 + 1 * p.val = win18_2.index t (0 : Fin 2) * 2000 + 1 * p.val; omega
    | ⟨1, _⟩ => show win18_0.index t (1 : Fin 2) * 128 + 1 * k.val = k.val; omega
  · -- column q of the right block is column q of the right operand
    show V c main_v115 (((cfg18.win 1).blk t).view.emb (ix2 k q)) = V c main_v115 _
    refine congrArg _ (funext fun a => Fin.ext ?_)
    match a with
    | ⟨0, _⟩ => show win18_1.index t (0 : Fin 2) * 128 + 1 * k.val = k.val; omega
    | ⟨1, _⟩ => show win18_1.index t (1 : Fin 2) * 128 + 1 * q.val = win18_2.index t (1 : Fin 2) * 128 + 1 * q.val; omega

/-- An index of the output is in point t's block iff each coordinate is in the block's range on its axis. -/
theorem mem_out_blk18 (t : Fin cfg18.N) (i : S50000x128.Idx) :
    i ∈ ((cfg18.win 2).blk t).view.set
      ↔ ∀ a : Fin 2, win18_2.index t a * S2000x128.size a ≤ (i a).val
          ∧ (i a).val < win18_2.index t a * S2000x128.size a + S2000x128.size a := by
  show i ∈ ((View.whole main_v116).slice (win18_2.rect t)).set ↔ _
  rw [View.set_slice_whole, Rect.mem_set_unit]
  exact Iff.rfl

/-- The blocks of rows tile the output: row r is in block r / 2000, and r / 2000 < 25 because r < 50000. -/
theorem rows_covered18 (i : S50000x128.Idx) :
    ∃ t : Fin cfg18.N, (cfg18.win 2).flush t = true ∧ i ∈ ((cfg18.win 2).blk t).view.set := by
  have hN : cfg18.N = 25 := N_18
  have hi0 : (i 0).val < 50000 := (i 0).isLt
  have hi1 : (i 1).val < 128 := (i 1).isLt
  obtain ⟨t, ht⟩ : ∃ t : Fin cfg18.N, t.val = (i 0).val / 2000 := ⟨⟨(i 0).val / 2000, by rw [hN]; omega⟩, rfl⟩
  obtain ⟨-, -, -, -, e20, e21⟩ := index_facts18 t
  refine ⟨t, flush18_2 t, ?_⟩
  rw [mem_out_blk18]
  intro a
  match a with
  | ⟨0, _⟩ => show win18_2.index t (0 : Fin 2) * 2000 ≤ (i 0).val ∧ (i 0).val < win18_2.index t (0 : Fin 2) * 2000 + 2000; omega
  | ⟨1, _⟩ => show win18_2.index t (1 : Fin 2) * 128 ≤ (i 1).val ∧ (i 1).val < win18_2.index t (1 : Fin 2) * 128 + 128; omega

/-- After the region main_v116 holds the product of main_v94 and main_v115. -/
theorem final18 (c : Dev nD) :
    (dat18 (F := Ideal) V c).arrAt 2 cfg18.N
      = prod (M := 50000) (K := 128) (N := 128) (φ₁ := .f32) (φ₂ := .f32) (V c main_v94) (V c main_v115) :=
  (dat18 (F := Ideal) V c).arrAt_eq_of_cover 2 _ (fun t _ => flushed18_eq_prod V c t) rows_covered18

end Cert.KernelIdeal.Hand

end
-- ==== Proof.KI.Final19.lean ====
/- Region 19 of @main at the ideal instance (floats are extended reals): the value its pipeline leaves in the
   output window's array. The region scales the gathered rows of layer 1, block 2 (the rows of h · W[1,2], h the
   result of block 0 of this layer, at the edges' item indices) by the edge weights: the output array is ONE
   function of the two input arrays as the region finds them, row e of the gathered rows times the one entry of
   row e of the 600000 x 1 column of weights (`Cert.Layer.scaleRows`). Three steps. On a block: the body's
   payload (the product of the block of rows with the block of weights spread along each row) is `scaleRows` of
   the two blocks. At a point t: all three windows sit at block row t, block column 0 of their arrays, so an
   entry of what t writes back depends on the same row of both input arrays as the entry of `scaleRows` of the
   whole arrays at that place does. Over the grid: row r of the output lies in the block of point r / 8000, so
   the 75 blocks of 8000 rows cover the 600000 rows and the array ends at `scaleRows`. -/
import proofs.«104107_j50560355009131_1_alg».proof.Proof.KI.Body19
import proofs.«104107_j50560355009131_1_alg».proof.Proof.LibLayerOps
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The offsets of a rectangle that is its whole block are zero on both axes. -/
theorem zero_offsets19 : (![0, 0] : Fin 2 → Nat) = fun _ => 0 := funext fun a => by fin_cases a <;> rfl

/-- On a block: the product of the 8000 rows with the 8000 weights spread along each row is row r times the
    weight of row r. -/
theorem pay19_eq_scaleRows (x0 : Vec Ideal S8000x128 .f32) (x1 : Vec Ideal S8000x1 .f32) :
    k19_pay1 (F := Ideal) x0 x1 = Cert.Layer.scaleRows (n := 8000) (p := 128) x0 x1 := by
  funext j
  obtain ⟨r, q, rfl⟩ : ∃ (r : Fin 8000) (q : Fin 128), j = ix2 r q := ⟨j 0, j 1, eq_ix2 j⟩
  unfold k19_pay1
  show shapeCast S8000x128 x0 shapeCasts_S8000x128_S8000x128 (ix2 r q)
      * broadcastTo S8000x128 (shapeCast S8000x1 x1 shapeCasts_S8000x1_S8000x1) broadcasts_S8000x1_S8000x128 (ix2 r q)
    = x0 (ix2 r q) * x1 (ix2 r (0 : Fin 1))
  rw [shapeCast_self, shapeCast_self, Cert.Layer.colSpreadTo_apply]

/-- Where the three windows' blocks sit at point t: block row t, block column 0 of their arrays. -/
theorem block_places19 : ∀ t : Fin cfg19.N, win19_0.index t (0 : Fin 2) = win19_2.index t (0 : Fin 2)
    ∧ win19_0.index t (1 : Fin 2) = win19_2.index t (1 : Fin 2)
    ∧ win19_1.index t (0 : Fin 2) = win19_2.index t (0 : Fin 2)
    ∧ win19_1.index t (1 : Fin 2) = 0
    ∧ win19_2.index t (0 : Fin 2) = t.val
    ∧ win19_2.index t (1 : Fin 2) = 0 :=
  (by decide +kernel : ∀ t : Fin grid19.N, _)

/-- What point t writes back is block t of `scaleRows` of the two input arrays as the region finds them. -/
theorem flushed19_eq (c : Dev nD) (t : Fin cfg19.N) :
    (dat19 (F := Ideal) V c).flushed 2 t
      = ((cfg19.win 2).blk t).view.read (Elt Ideal) (Cert.Layer.scaleRows (n := 600000) (p := 128) (V c main_v123) (V c main_v124)) := by
  show (cfg19.win 2).cut (grid19.coords t) ((dat19 (F := Ideal) V c).after 2 t) = _
  rw [after19_2]
  unfold out19_2
  rw [View.canon_unit_zero zero_offsets19]
  simp only [View.ld_unit_zero (S := S8000x128) zero_offsets19, View.ld_unit_zero (S := S8000x1) zero_offsets19]
  rw [pay19_eq_scaleRows]
  obtain ⟨e0, e1, e2, e3, e4, e5⟩ := block_places19 t
  refine funext fun (j : S8000x128.Idx) => ?_
  -- the entry (j 0, j 1) of the block is the entry (8000 t + j 0, j 1) of the array
  refine Cert.Layer.scaleRows_entry_congr (n := 8000) (n' := 600000) (p := 128) (iblk19 V c 0 t) (iblk19 V c 1 t)
    (V c main_v123) (V c main_v124) j (((cfg19.win 2).blk t).view.emb j) ?_ ?_
  · -- the rows: window 0's block is read where the output's block is written
    show V c main_v123 (((cfg19.win 0).blk t).view.emb j) = V c main_v123 (((cfg19.win 2).blk t).view.emb j)
    refine congrArg (V c main_v123) ?_
    funext a; apply Fin.ext
    match a with
    | ⟨0, _⟩ => show win19_0.index t (0 : Fin 2) * 8000 + 1 * (j 0).val = win19_2.index t (0 : Fin 2) * 8000 + 1 * (j 0).val; omega
    | ⟨1, _⟩ => show win19_0.index t (1 : Fin 2) * 128 + 1 * (j 1).val = win19_2.index t (1 : Fin 2) * 128 + 1 * (j 1).val; omega
  · -- the weights: window 1's block holds the weights of the same 8000 rows
    show V c main_v124 (((cfg19.win 1).blk t).view.emb (ix2 (j 0) (0 : Fin 1)))
      = V c main_v124 (ix2 ((((cfg19.win 2).blk t).view.emb j) 0) (0 : Fin 1))
    refine congrArg (V c main_v124) ?_
    funext a; apply Fin.ext
    match a with
    | ⟨0, _⟩ => show win19_1.index t (0 : Fin 2) * 8000 + 1 * (j 0).val = win19_2.index t (0 : Fin 2) * 8000 + 1 * (j 0).val; omega
    | ⟨1, _⟩ => show win19_1.index t (1 : Fin 2) * 1 + 1 * 0 = 0; omega

/-- An index of the output array is in point t's block iff on each axis its coordinate is among the block's. -/
theorem mem_blk19 (t : Fin cfg19.N) (i : S600000x128.Idx) :
    i ∈ ((cfg19.win 2).blk t).view.set ↔ ∀ a : Fin 2, win19_2.index t a * S8000x128.size a ≤ (i a).val
      ∧ (i a).val < win19_2.index t a * S8000x128.size a + S8000x128.size a := by
  show i ∈ ((View.whole main_v125).slice (win19_2.rect t)).set ↔ _
  rw [View.set_slice_whole, Rect.mem_set_unit]
  exact Iff.rfl

/-- Row r of the output lies in the block of point r / 8000: the 75 blocks of 8000 rows cover the array. -/
theorem cover19 (i : S600000x128.Idx) :
    ∃ t : Fin cfg19.N, (cfg19.win 2).flush t = true ∧ i ∈ ((cfg19.win 2).blk t).view.set := by
  have hr : (i 0).val < 600000 := (i 0).isLt
  have hq : (i 1).val < 128 := (i 1).isLt
  have hN : cfg19.N = 75 := N_19
  obtain ⟨t, ht⟩ : ∃ t : Fin cfg19.N, t.val = (i 0).val / 8000 := ⟨⟨(i 0).val / 8000, by rw [hN]; omega⟩, rfl⟩
  obtain ⟨e0, e1, e2, e3, e4, e5⟩ := block_places19 t
  refine ⟨t, flush19_2 t, ?_⟩
  rw [mem_blk19]
  intro a
  match a with
  | ⟨0, _⟩ => show win19_2.index t (0 : Fin 2) * 8000 ≤ (i 0).val ∧ (i 0).val < win19_2.index t (0 : Fin 2) * 8000 + 8000; omega
  | ⟨1, _⟩ => show win19_2.index t (1 : Fin 2) * 128 ≤ (i 1).val ∧ (i 1).val < win19_2.index t (1 : Fin 2) * 128 + 128; omega

/-- THE ARRAY region 19 leaves in its output window: the gathered rows, row e scaled by the weight of edge e. -/
theorem final19 (c : Dev nD) :
    (dat19 (F := Ideal) V c).arrAt 2 cfg19.N = Cert.Layer.scaleRows (n := 600000) (p := 128) (V c main_v123) (V c main_v124) :=
  (dat19 (F := Ideal) V c).arrAt_eq_of_cover 2 (Cert.Layer.scaleRows (n := 600000) (p := 128) (V c main_v123) (V c main_v124))
    (fun t _ => flushed19_eq V c t) cover19

end Cert.KernelIdeal.Hand

end
-- ==== Proof.KI.Final20.lean ====
/- Region 20 of @main, read as a value. This bias-and-activation step runs over 50 grid points; at point t its
   body adds the 1 x 128 bias row to each of rows 2000 t … 2000 t + 1999 of the rows it is given, takes the
   larger of each entry and zero, and the output window writes those 2000 rows back. Here: the body's payload
   on a block is the larger of zero and the block with the bias row added to every row; what point t writes
   back is rows 2000 t … 2000 t + 1999 of ONE array, the larger of zero and the given rows (100000 of them)
   with the bias row added to every row; the 50 blocks tile the 100000 rows (row r is in block r / 2000); so
   the output array ends as that one array. -/
import proofs.«104107_j50560355009131_1_alg».proof.Proof.KI.Body20
import proofs.«104107_j50560355009131_1_alg».proof.Proof.LibLayerOps
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

/-- The offsets of a whole-block rectangle are zero on both axes. -/
theorem zero_offsets20 : (![0, 0] : Fin 2 → Nat) = fun _ => 0 := funext fun a => by fin_cases a <;> rfl

/-- The body's payload on a block: the casts to the same shape change nothing, the one row is repeated down
    the 2000 rows, the sum is taken entry by entry, and each entry is compared with the scalar whose word is
    the zero pattern, which denotes zero — the larger of zero and the block with the bias row added to every
    row. -/
theorem pay20_eq (x0 : FVec Ideal ⟨2, ![2000, 128]⟩ .f32) (x1 : FVec Ideal ⟨2, ![1, 128]⟩ .f32) :
    k20_pay1 (F := Ideal) x0 x1 = Cert.Layer.biasRelu x0 x1 := by
  funext j
  obtain ⟨p, q, rfl⟩ : ∃ (p : Fin 2000) (q : Fin 128), j = ix2 p q := ⟨j 0, j 1, eq_ix2 j⟩
  unfold k20_pay1
  show max (shapeCast S2000x128 x0 shapeCasts_S2000x128_S2000x128 (ix2 p q)
        + broadcastTo S2000x128 (shapeCast S1x128 x1 shapeCasts_S1x128_S1x128) broadcasts_S1x128_S2000x128 (ix2 p q))
      (Ideal.ofBits .f32 0x00000000#32)
    = max (x0 (ix2 p q) + x1 (ix2 (0 : Fin 1) q)) 0
  rw [shapeCast_self, shapeCast_self, broadcastTo_1b_ab_apply, Ideal.ofBits_zero_f32]

/-- The printed index maps, decided over the 50 points: the given rows' block moves with the output's block,
    which is block t of the rows; the bias row's block never moves; every block starts at column 0. -/
theorem index_facts20 : ∀ t : Fin cfg20.N, win20_0.index t (0 : Fin 2) = win20_2.index t (0 : Fin 2)
    ∧ win20_0.index t (1 : Fin 2) = 0
    ∧ win20_1.index t (0 : Fin 2) = 0
    ∧ win20_1.index t (1 : Fin 2) = 0
    ∧ win20_2.index t (0 : Fin 2) = t.val
    ∧ win20_2.index t (1 : Fin 2) = 0 :=
  (by decide +kernel : ∀ t : Fin grid20.N, _)

variable (V : (c : Dev nD) → (b : Ref sig .tc) → Buf (Elt Ideal) ((c : Thread nD τ).loc b))

/-- What point t writes back is block t of the larger of zero and the given rows with the bias row added to
    every row: an entry of it depends on the same row of the given rows and the same column of the bias row
    only, the given rows' block sits where the output's block sits, and the bias row's block is the whole row. -/
theorem flushed20_eq (c : Dev nD) (t : Fin cfg20.N) :
    (dat20 (F := Ideal) V c).flushed 2 t
      = ((cfg20.win 2).blk t).view.read (Elt Ideal) (Cert.Layer.biasRelu (V c main_v128) (V c main_v131)) := by
  show (cfg20.win 2).cut (grid20.coords t) ((dat20 (F := Ideal) V c).after 2 t) = _
  rw [after20_2]
  unfold out20_2
  rw [View.canon_unit_zero zero_offsets20]
  simp only [View.ld_unit_zero (S := S2000x128) zero_offsets20, View.ld_unit_zero (S := S1x128) zero_offsets20]
  rw [pay20_eq]
  obtain ⟨e0, e1, e2, e3, e4, e5⟩ := index_facts20 t
  funext j
  show Cert.Layer.biasRelu (iblk20 V c 0 t) (iblk20 V c 1 t) j
    = Cert.Layer.biasRelu (V c main_v128) (V c main_v131) (((cfg20.win 2).blk t).view.emb j)
  refine Cert.Layer.biasRelu_entry_congr _ _ _ _ j (((cfg20.win 2).blk t).view.emb j) ?_ ?_
  · show V c main_v128 (((cfg20.win 0).blk t).view.emb j) = V c main_v128 (((cfg20.win 2).blk t).view.emb j)
    refine congrArg (V c main_v128) (funext fun a => Fin.ext ?_)
    match a with
    | ⟨0, _⟩ =>
      show win20_0.index t (0 : Fin 2) * 2000 + 1 * (j 0).val = win20_2.index t (0 : Fin 2) * 2000 + 1 * (j 0).val
      rw [e0]
    | ⟨1, _⟩ =>
      show win20_0.index t (1 : Fin 2) * 128 + 1 * (j 1).val = win20_2.index t (1 : Fin 2) * 128 + 1 * (j 1).val
      rw [e1, e5]
  · show V c main_v131 (((cfg20.win 1).blk t).view.emb (ix2 (0 : Fin 1) (j 1)))
      = V c main_v131 (ix2 (0 : Fin 1) ((((cfg20.win 2).blk t).view.emb j) 1))
    refine congrArg (V c main_v131) (funext fun a => Fin.ext ?_)
    match a with
    | ⟨0, _⟩ =>
      show win20_1.index t (0 : Fin 2) * 1 + 1 * 0 = 0
      rw [e2]
    | ⟨1, _⟩ =>
      show win20_1.index t (1 : Fin 2) * 128 + 1 * (j 1).val = win20_2.index t (1 : Fin 2) * 128 + 1 * (j 1).val
      rw [e3, e5]

/-- An entry of the output array is in point t's block iff, on each axis, its coordinate is in the block's range. -/
theorem mem_rows20 (t : Fin cfg20.N) (i : S100000x128.Idx) :
    i ∈ ((cfg20.win 2).blk t).view.set
      ↔ ∀ a : Fin 2, win20_2.index t a * S2000x128.size a ≤ (i a).val
          ∧ (i a).val < win20_2.index t a * S2000x128.size a + S2000x128.size a := by
  show i ∈ ((View.whole main_v132).slice (win20_2.rect t)).set ↔ _
  rw [View.set_slice_whole, Rect.mem_set_unit]
  exact Iff.rfl

/-- The 50 blocks of 2000 rows tile the 100000 rows: row r is in the block of point r / 2000, which writes back. -/
theorem rows_cover20 (i : S100000x128.Idx) :
    ∃ t : Fin cfg20.N, (cfg20.win 2).flush t = true ∧ i ∈ ((cfg20.win 2).blk t).view.set := by
  have hN : cfg20.N = 50 := N_20
  have hi0 : (i 0).val < 100000 := (i 0).isLt
  have hi1 : (i 1).val < 128 := (i 1).isLt
  obtain ⟨t, ht⟩ : ∃ t : Fin cfg20.N, t.val = (i 0).val / 2000 := ⟨⟨(i 0).val / 2000, by rw [hN]; omega⟩, rfl⟩
  obtain ⟨-, -, -, -, e4, e5⟩ := index_facts20 t
  refine ⟨t, flush20_2 t, ?_⟩
  rw [mem_rows20]
  intro a
  match a with
  | ⟨0, _⟩ =>
    show win20_2.index t (0 : Fin 2) * 2000 ≤ (i 0).val ∧ (i 0).val < win20_2.index t (0 : Fin 2) * 2000 + 2000
    rw [e4, ht]; omega
  | ⟨1, _⟩ =>
    show win20_2.index t (1 : Fin 2) * 128 ≤ (i 1).val ∧ (i 1).val < win20_2.index t (1 : Fin 2) * 128 + 128
    rw [e5]; omega

/-- The array region 20 leaves in its output window: the larger of zero and the rows it found with the bias
    row it found added to every row. -/
theorem final20 (c : Dev nD) :
    (dat20 (F := Ideal) V c).arrAt 2 cfg20.N = Cert.Layer.biasRelu (V c main_v128) (V c main_v131) :=
  (dat20 (F := Ideal) V c).arrAt_eq_of_cover 2 (Cert.Layer.biasRelu (V c main_v128) (V c main_v131))
    (fun t _ => flushed20_eq V c t) rows_cover20

end Cert.KernelIdeal.Hand

end
-- ==== Proof.KI.Final21.lean ====
/- Region 21 of @main, read as a value: the array the region leaves in main_v135 is the matrix product of main_v113
   (100000 x 128) and main_v134 (128 x 128) as the region found them.
   Grid point t multiplies rows 2000 t … 2000 t + 1999 of the left operand by the whole right operand and writes the
   result back to the same rows of the output. Row p of a product depends on row p of the left operand only, so what
   point t writes back is its block of rows of the product of the whole arrays; the 50 blocks of rows tile the
   output, the block that holds row r being block r / 2000. -/
import proofs.«104107_j50560355009131_1_alg».proof.Proof.KI.Body21
import proofs.«104107_j50560355009131_1_alg».proof.Proof.KI.FinalMATMULLib
import Idealize.ShloMosaic.Lib.Pipeline.Value

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx Idealize.ShloMosaic.MatmulPlain
open Cert.KernelIdeal Cert.KernelIdeal.Gen

/-- What the body stores, over the extended reals: the product of the block of rows and the right operand (the
    casts of both blocks to their own shapes change nothing). -/
theorem pay21_eq_prod (x0 : Vec Ideal S2000x128 .f32) (x1 : Vec Ideal S128x128 .f32) :
    k21_pay1 (F := Ideal) x0 x1 = prod (M := 2000) (K := 128) (N := 128) (φ₁ := .f32) (φ₂ := .f32) x0 x1 := by
  unfold k21_pay1
  rw [shapeCast_self, shapeCast_self]
  exact matmul_rounded_eq_prod x0 x1 _

/-- The three index maps over the grid: at point t the left operand's and the output's block of rows is block t, on
    the column axis every block index is 0, and the right operand's block is block (0, 0). -/
theorem index_facts21 : ∀ t : Fin cfg21.N, win21_0.index t (0 : Fin 2) = t.val ∧ win21_0.index t (1 : Fin 2) = 0
    ∧ win21_1.index t (0 : Fin 2) = 0 ∧ win21_1.index t (1 : Fin 2) = 0
    ∧ win21_2.index t (0 : Fin 2) = t.val ∧ win21_2.index t (1 : Fin 2) = 0 :=
  (by decide +kernel : ∀ t : Fin grid21.N, _)

variable (V : (c : Dev nD) → (b : Ref sig .tc) → Buf (Elt Ideal) ((c : Thread nD τ).loc b))

/-- What point t writes back is block t of the product of the whole arrays: entry (p, q) of the block product is
    the sum over k of left (2000 t + p, k) * right (k, q), which is entry (2000 t + p, q) of the whole product. -/
theorem flushed21_eq_prod (c : Dev nD) (t : Fin cfg21.N) :
    (dat21 (F := Ideal) V c).flushed 2 t
      = ((cfg21.win 2).blk t).view.read (Elt Ideal)
          (prod (M := 100000) (K := 128) (N := 128) (φ₁ := .f32) (φ₂ := .f32) (V c main_v113) (V c main_v134)) := by
  show (cfg21.win 2).cut (grid21.coords t) ((dat21 V c).after 2 t) = _
  rw [after21_2]
  unfold out21_2
  rw [View.canon_unit_zero matmul_zero_offsets]
  simp only [View.ld_unit_zero (S := S2000x128) matmul_zero_offsets, View.ld_unit_zero (S := S128x128) matmul_zero_offsets]
  rw [pay21_eq_prod]
  refine funext fun (j : S2000x128.Idx) => ?_
  obtain ⟨p, q, rfl⟩ : ∃ (p : Fin 2000) (q : Fin 128), j = ix2 p q := ⟨j 0, j 1, eq_ix2 j⟩
  show prod (iblk21 V c 0 t) (iblk21 V c 1 t) (ix2 p q)
    = prod (V c main_v113) (V c main_v134) (((cfg21.win 2).blk t).view.emb (ix2 p q))
  obtain ⟨e00, e01, e10, e11, e20, e21⟩ := index_facts21 t
  refine prod_entry_congr _ _ _ _ (ix2 p q) _ (fun k => ?_) (fun k => ?_)
  · -- row p of the left block is row 2000 t + p of the left operand
    show V c main_v113 (((cfg21.win 0).blk t).view.emb (ix2 p k)) = V c main_v113 _
    refine congrArg _ (funext fun a => Fin.ext ?_)
    match a with
    | ⟨0, _⟩ => show win21_0.index t (0 : Fin 2) * 2000 + 1 * p.val = win21_2.index t (0 : Fin 2) * 2000 + 1 * p.val; omega
    | ⟨1, _⟩ => show win21_0.index t (1 : Fin 2) * 128 + 1 * k.val = k.val; omega
  · -- column q of the right block is column q of the right operand
    show V c main_v134 (((cfg21.win 1).blk t).view.emb (ix2 k q)) = V c main_v134 _
    refine congrArg _ (funext fun a => Fin.ext ?_)
    match a with
    | ⟨0, _⟩ => show win21_1.index t (0 : Fin 2) * 128 + 1 * k.val = k.val; omega
    | ⟨1, _⟩ => show win21_1.index t (1 : Fin 2) * 128 + 1 * q.val = win21_2.index t (1 : Fin 2) * 128 + 1 * q.val; omega

/-- An index of the output is in point t's block iff each coordinate is in the block's range on its axis. -/
theorem mem_out_blk21 (t : Fin cfg21.N) (i : S100000x128.Idx) :
    i ∈ ((cfg21.win 2).blk t).view.set
      ↔ ∀ a : Fin 2, win21_2.index t a * S2000x128.size a ≤ (i a).val
          ∧ (i a).val < win21_2.index t a * S2000x128.size a + S2000x128.size a := by
  show i ∈ ((View.whole main_v135).slice (win21_2.rect t)).set ↔ _
  rw [View.set_slice_whole, Rect.mem_set_unit]
  exact Iff.rfl

/-- The blocks of rows tile the output: row r is in block r / 2000, and r / 2000 < 50 because r < 100000. -/
theorem rows_covered21 (i : S100000x128.Idx) :
    ∃ t : Fin cfg21.N, (cfg21.win 2).flush t = true ∧ i ∈ ((cfg21.win 2).blk t).view.set := by
  have hN : cfg21.N = 50 := N_21
  have hi0 : (i 0).val < 100000 := (i 0).isLt
  have hi1 : (i 1).val < 128 := (i 1).isLt
  obtain ⟨t, ht⟩ : ∃ t : Fin cfg21.N, t.val = (i 0).val / 2000 := ⟨⟨(i 0).val / 2000, by rw [hN]; omega⟩, rfl⟩
  obtain ⟨-, -, -, -, e20, e21⟩ := index_facts21 t
  refine ⟨t, flush21_2 t, ?_⟩
  rw [mem_out_blk21]
  intro a
  match a with
  | ⟨0, _⟩ => show win21_2.index t (0 : Fin 2) * 2000 ≤ (i 0).val ∧ (i 0).val < win21_2.index t (0 : Fin 2) * 2000 + 2000; omega
  | ⟨1, _⟩ => show win21_2.index t (1 : Fin 2) * 128 ≤ (i 1).val ∧ (i 1).val < win21_2.index t (1 : Fin 2) * 128 + 128; omega

/-- After the region main_v135 holds the product of main_v113 and main_v134. -/
theorem final21 (c : Dev nD) :
    (dat21 (F := Ideal) V c).arrAt 2 cfg21.N
      = prod (M := 100000) (K := 128) (N := 128) (φ₁ := .f32) (φ₂ := .f32) (V c main_v113) (V c main_v134) :=
  (dat21 (F := Ideal) V c).arrAt_eq_of_cover 2 _ (fun t _ => flushed21_eq_prod V c t) rows_covered21

end Cert.KernelIdeal.Hand

end
-- ==== Proof.KI.Final22.lean ====
/- Region 22 of @main at the ideal instance (floats are extended reals): the value its pipeline leaves in the
   output window's array. The region scales the gathered rows of layer 1, block 3 (the rows of h · W[1,3], h the
   result of block 1 of this layer, at the edges' user indices) by the edge weights: the output array is ONE
   function of the two input arrays as the region finds them, row e of the gathered rows times the one entry of
   row e of the 600000 x 1 column of weights (`Cert.Layer.scaleRows`). Three steps. On a block: the body's
   payload (the product of the block of rows with the block of weights spread along each row) is `scaleRows` of
   the two blocks. At a point t: all three windows sit at block row t, block column 0 of their arrays, so an
   entry of what t writes back depends on the same row of both input arrays as the entry of `scaleRows` of the
   whole arrays at that place does. Over the grid: row r of the output lies in the block of point r / 8000, so
   the 75 blocks of 8000 rows cover the 600000 rows and the array ends at `scaleRows`. -/
import proofs.«104107_j50560355009131_1_alg».proof.Proof.KI.Body22
import proofs.«104107_j50560355009131_1_alg».proof.Proof.LibLayerOps
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The offsets of a rectangle that is its whole block are zero on both axes. -/
theorem zero_offsets22 : (![0, 0] : Fin 2 → Nat) = fun _ => 0 := funext fun a => by fin_cases a <;> rfl

/-- On a block: the product of the 8000 rows with the 8000 weights spread along each row is row r times the
    weight of row r. -/
theorem pay22_eq_scaleRows (x0 : Vec Ideal S8000x128 .f32) (x1 : Vec Ideal S8000x1 .f32) :
    k22_pay1 (F := Ideal) x0 x1 = Cert.Layer.scaleRows (n := 8000) (p := 128) x0 x1 := by
  funext j
  obtain ⟨r, q, rfl⟩ : ∃ (r : Fin 8000) (q : Fin 128), j = ix2 r q := ⟨j 0, j 1, eq_ix2 j⟩
  unfold k22_pay1
  show shapeCast S8000x128 x0 shapeCasts_S8000x128_S8000x128 (ix2 r q)
      * broadcastTo S8000x128 (shapeCast S8000x1 x1 shapeCasts_S8000x1_S8000x1) broadcasts_S8000x1_S8000x128 (ix2 r q)
    = x0 (ix2 r q) * x1 (ix2 r (0 : Fin 1))
  rw [shapeCast_self, shapeCast_self, Cert.Layer.colSpreadTo_apply]

/-- Where the three windows' blocks sit at point t: block row t, block column 0 of their arrays. -/
theorem block_places22 : ∀ t : Fin cfg22.N, win22_0.index t (0 : Fin 2) = win22_2.index t (0 : Fin 2)
    ∧ win22_0.index t (1 : Fin 2) = win22_2.index t (1 : Fin 2)
    ∧ win22_1.index t (0 : Fin 2) = win22_2.index t (0 : Fin 2)
    ∧ win22_1.index t (1 : Fin 2) = 0
    ∧ win22_2.index t (0 : Fin 2) = t.val
    ∧ win22_2.index t (1 : Fin 2) = 0 :=
  (by decide +kernel : ∀ t : Fin grid22.N, _)

/-- What point t writes back is block t of `scaleRows` of the two input arrays as the region finds them. -/
theorem flushed22_eq (c : Dev nD) (t : Fin cfg22.N) :
    (dat22 (F := Ideal) V c).flushed 2 t
      = ((cfg22.win 2).blk t).view.read (Elt Ideal) (Cert.Layer.scaleRows (n := 600000) (p := 128) (V c main_v142) (V c main_v143)) := by
  show (cfg22.win 2).cut (grid22.coords t) ((dat22 (F := Ideal) V c).after 2 t) = _
  rw [after22_2]
  unfold out22_2
  rw [View.canon_unit_zero zero_offsets22]
  simp only [View.ld_unit_zero (S := S8000x128) zero_offsets22, View.ld_unit_zero (S := S8000x1) zero_offsets22]
  rw [pay22_eq_scaleRows]
  obtain ⟨e0, e1, e2, e3, e4, e5⟩ := block_places22 t
  refine funext fun (j : S8000x128.Idx) => ?_
  -- the entry (j 0, j 1) of the block is the entry (8000 t + j 0, j 1) of the array
  refine Cert.Layer.scaleRows_entry_congr (n := 8000) (n' := 600000) (p := 128) (iblk22 V c 0 t) (iblk22 V c 1 t)
    (V c main_v142) (V c main_v143) j (((cfg22.win 2).blk t).view.emb j) ?_ ?_
  · -- the rows: window 0's block is read where the output's block is written
    show V c main_v142 (((cfg22.win 0).blk t).view.emb j) = V c main_v142 (((cfg22.win 2).blk t).view.emb j)
    refine congrArg (V c main_v142) ?_
    funext a; apply Fin.ext
    match a with
    | ⟨0, _⟩ => show win22_0.index t (0 : Fin 2) * 8000 + 1 * (j 0).val = win22_2.index t (0 : Fin 2) * 8000 + 1 * (j 0).val; omega
    | ⟨1, _⟩ => show win22_0.index t (1 : Fin 2) * 128 + 1 * (j 1).val = win22_2.index t (1 : Fin 2) * 128 + 1 * (j 1).val; omega
  · -- the weights: window 1's block holds the weights of the same 8000 rows
    show V c main_v143 (((cfg22.win 1).blk t).view.emb (ix2 (j 0) (0 : Fin 1)))
      = V c main_v143 (ix2 ((((cfg22.win 2).blk t).view.emb j) 0) (0 : Fin 1))
    refine congrArg (V c main_v143) ?_
    funext a; apply Fin.ext
    match a with
    | ⟨0, _⟩ => show win22_1.index t (0 : Fin 2) * 8000 + 1 * (j 0).val = win22_2.index t (0 : Fin 2) * 8000 + 1 * (j 0).val; omega
    | ⟨1, _⟩ => show win22_1.index t (1 : Fin 2) * 1 + 1 * 0 = 0; omega

/-- An index of the output array is in point t's block iff on each axis its coordinate is among the block's. -/
theorem mem_blk22 (t : Fin cfg22.N) (i : S600000x128.Idx) :
    i ∈ ((cfg22.win 2).blk t).view.set ↔ ∀ a : Fin 2, win22_2.index t a * S8000x128.size a ≤ (i a).val
      ∧ (i a).val < win22_2.index t a * S8000x128.size a + S8000x128.size a := by
  show i ∈ ((View.whole main_v144).slice (win22_2.rect t)).set ↔ _
  rw [View.set_slice_whole, Rect.mem_set_unit]
  exact Iff.rfl

/-- Row r of the output lies in the block of point r / 8000: the 75 blocks of 8000 rows cover the array. -/
theorem cover22 (i : S600000x128.Idx) :
    ∃ t : Fin cfg22.N, (cfg22.win 2).flush t = true ∧ i ∈ ((cfg22.win 2).blk t).view.set := by
  have hr : (i 0).val < 600000 := (i 0).isLt
  have hq : (i 1).val < 128 := (i 1).isLt
  have hN : cfg22.N = 75 := N_22
  obtain ⟨t, ht⟩ : ∃ t : Fin cfg22.N, t.val = (i 0).val / 8000 := ⟨⟨(i 0).val / 8000, by rw [hN]; omega⟩, rfl⟩
  obtain ⟨e0, e1, e2, e3, e4, e5⟩ := block_places22 t
  refine ⟨t, flush22_2 t, ?_⟩
  rw [mem_blk22]
  intro a
  match a with
  | ⟨0, _⟩ => show win22_2.index t (0 : Fin 2) * 8000 ≤ (i 0).val ∧ (i 0).val < win22_2.index t (0 : Fin 2) * 8000 + 8000; omega
  | ⟨1, _⟩ => show win22_2.index t (1 : Fin 2) * 128 ≤ (i 1).val ∧ (i 1).val < win22_2.index t (1 : Fin 2) * 128 + 128; omega

/-- THE ARRAY region 22 leaves in its output window: the gathered rows, row e scaled by the weight of edge e. -/
theorem final22 (c : Dev nD) :
    (dat22 (F := Ideal) V c).arrAt 2 cfg22.N = Cert.Layer.scaleRows (n := 600000) (p := 128) (V c main_v142) (V c main_v143) :=
  (dat22 (F := Ideal) V c).arrAt_eq_of_cover 2 (Cert.Layer.scaleRows (n := 600000) (p := 128) (V c main_v142) (V c main_v143))
    (fun t _ => flushed22_eq V c t) cover22

end Cert.KernelIdeal.Hand

end
-- ==== Proof.KI.Final23.lean ====
/- Region 23 of @main, read as a value. This bias-and-activation step runs over 25 grid points; at point t its
   body adds the 1 x 128 bias row to each of rows 2000 t … 2000 t + 1999 of the rows it is given, takes the
   larger of each entry and zero, and the output window writes those 2000 rows back. Here: the body's payload
   on a block is the larger of zero and the block with the bias row added to every row; what point t writes
   back is rows 2000 t … 2000 t + 1999 of ONE array, the larger of zero and the given rows (50000 of them)
   with the bias row added to every row; the 25 blocks tile the 50000 rows (row r is in block r / 2000); so
   the output array ends as that one array. -/
import proofs.«104107_j50560355009131_1_alg».proof.Proof.KI.Body23
import proofs.«104107_j50560355009131_1_alg».proof.Proof.LibLayerOps
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

/-- The offsets of a whole-block rectangle are zero on both axes. -/
theorem zero_offsets23 : (![0, 0] : Fin 2 → Nat) = fun _ => 0 := funext fun a => by fin_cases a <;> rfl

/-- The body's payload on a block: the casts to the same shape change nothing, the one row is repeated down
    the 2000 rows, the sum is taken entry by entry, and each entry is compared with the scalar whose word is
    the zero pattern, which denotes zero — the larger of zero and the block with the bias row added to every
    row. -/
theorem pay23_eq (x0 : FVec Ideal ⟨2, ![2000, 128]⟩ .f32) (x1 : FVec Ideal ⟨2, ![1, 128]⟩ .f32) :
    k23_pay1 (F := Ideal) x0 x1 = Cert.Layer.biasRelu x0 x1 := by
  funext j
  obtain ⟨p, q, rfl⟩ : ∃ (p : Fin 2000) (q : Fin 128), j = ix2 p q := ⟨j 0, j 1, eq_ix2 j⟩
  unfold k23_pay1
  show max (shapeCast S2000x128 x0 shapeCasts_S2000x128_S2000x128 (ix2 p q)
        + broadcastTo S2000x128 (shapeCast S1x128 x1 shapeCasts_S1x128_S1x128) broadcasts_S1x128_S2000x128 (ix2 p q))
      (Ideal.ofBits .f32 0x00000000#32)
    = max (x0 (ix2 p q) + x1 (ix2 (0 : Fin 1) q)) 0
  rw [shapeCast_self, shapeCast_self, broadcastTo_1b_ab_apply, Ideal.ofBits_zero_f32]

/-- The printed index maps, decided over the 25 points: the given rows' block moves with the output's block,
    which is block t of the rows; the bias row's block never moves; every block starts at column 0. -/
theorem index_facts23 : ∀ t : Fin cfg23.N, win23_0.index t (0 : Fin 2) = win23_2.index t (0 : Fin 2)
    ∧ win23_0.index t (1 : Fin 2) = 0
    ∧ win23_1.index t (0 : Fin 2) = 0
    ∧ win23_1.index t (1 : Fin 2) = 0
    ∧ win23_2.index t (0 : Fin 2) = t.val
    ∧ win23_2.index t (1 : Fin 2) = 0 :=
  (by decide +kernel : ∀ t : Fin grid23.N, _)

variable (V : (c : Dev nD) → (b : Ref sig .tc) → Buf (Elt Ideal) ((c : Thread nD τ).loc b))

/-- What point t writes back is block t of the larger of zero and the given rows with the bias row added to
    every row: an entry of it depends on the same row of the given rows and the same column of the bias row
    only, the given rows' block sits where the output's block sits, and the bias row's block is the whole row. -/
theorem flushed23_eq (c : Dev nD) (t : Fin cfg23.N) :
    (dat23 (F := Ideal) V c).flushed 2 t
      = ((cfg23.win 2).blk t).view.read (Elt Ideal) (Cert.Layer.biasRelu (V c main_v147) (V c main_v150)) := by
  show (cfg23.win 2).cut (grid23.coords t) ((dat23 (F := Ideal) V c).after 2 t) = _
  rw [after23_2]
  unfold out23_2
  rw [View.canon_unit_zero zero_offsets23]
  simp only [View.ld_unit_zero (S := S2000x128) zero_offsets23, View.ld_unit_zero (S := S1x128) zero_offsets23]
  rw [pay23_eq]
  obtain ⟨e0, e1, e2, e3, e4, e5⟩ := index_facts23 t
  funext j
  show Cert.Layer.biasRelu (iblk23 V c 0 t) (iblk23 V c 1 t) j
    = Cert.Layer.biasRelu (V c main_v147) (V c main_v150) (((cfg23.win 2).blk t).view.emb j)
  refine Cert.Layer.biasRelu_entry_congr _ _ _ _ j (((cfg23.win 2).blk t).view.emb j) ?_ ?_
  · show V c main_v147 (((cfg23.win 0).blk t).view.emb j) = V c main_v147 (((cfg23.win 2).blk t).view.emb j)
    refine congrArg (V c main_v147) (funext fun a => Fin.ext ?_)
    match a with
    | ⟨0, _⟩ =>
      show win23_0.index t (0 : Fin 2) * 2000 + 1 * (j 0).val = win23_2.index t (0 : Fin 2) * 2000 + 1 * (j 0).val
      rw [e0]
    | ⟨1, _⟩ =>
      show win23_0.index t (1 : Fin 2) * 128 + 1 * (j 1).val = win23_2.index t (1 : Fin 2) * 128 + 1 * (j 1).val
      rw [e1, e5]
  · show V c main_v150 (((cfg23.win 1).blk t).view.emb (ix2 (0 : Fin 1) (j 1)))
      = V c main_v150 (ix2 (0 : Fin 1) ((((cfg23.win 2).blk t).view.emb j) 1))
    refine congrArg (V c main_v150) (funext fun a => Fin.ext ?_)
    match a with
    | ⟨0, _⟩ =>
      show win23_1.index t (0 : Fin 2) * 1 + 1 * 0 = 0
      rw [e2]
    | ⟨1, _⟩ =>
      show win23_1.index t (1 : Fin 2) * 128 + 1 * (j 1).val = win23_2.index t (1 : Fin 2) * 128 + 1 * (j 1).val
      rw [e3, e5]

/-- An entry of the output array is in point t's block iff, on each axis, its coordinate is in the block's range. -/
theorem mem_rows23 (t : Fin cfg23.N) (i : S50000x128.Idx) :
    i ∈ ((cfg23.win 2).blk t).view.set
      ↔ ∀ a : Fin 2, win23_2.index t a * S2000x128.size a ≤ (i a).val
          ∧ (i a).val < win23_2.index t a * S2000x128.size a + S2000x128.size a := by
  show i ∈ ((View.whole main_v151).slice (win23_2.rect t)).set ↔ _
  rw [View.set_slice_whole, Rect.mem_set_unit]
  exact Iff.rfl

/-- The 25 blocks of 2000 rows tile the 50000 rows: row r is in the block of point r / 2000, which writes back. -/
theorem rows_cover23 (i : S50000x128.Idx) :
    ∃ t : Fin cfg23.N, (cfg23.win 2).flush t = true ∧ i ∈ ((cfg23.win 2).blk t).view.set := by
  have hN : cfg23.N = 25 := N_23
  have hi0 : (i 0).val < 50000 := (i 0).isLt
  have hi1 : (i 1).val < 128 := (i 1).isLt
  obtain ⟨t, ht⟩ : ∃ t : Fin cfg23.N, t.val = (i 0).val / 2000 := ⟨⟨(i 0).val / 2000, by rw [hN]; omega⟩, rfl⟩
  obtain ⟨-, -, -, -, e4, e5⟩ := index_facts23 t
  refine ⟨t, flush23_2 t, ?_⟩
  rw [mem_rows23]
  intro a
  match a with
  | ⟨0, _⟩ =>
    show win23_2.index t (0 : Fin 2) * 2000 ≤ (i 0).val ∧ (i 0).val < win23_2.index t (0 : Fin 2) * 2000 + 2000
    rw [e4, ht]; omega
  | ⟨1, _⟩ =>
    show win23_2.index t (1 : Fin 2) * 128 ≤ (i 1).val ∧ (i 1).val < win23_2.index t (1 : Fin 2) * 128 + 128
    rw [e5]; omega

/-- The array region 23 leaves in its output window: the larger of zero and the rows it found with the bias
    row it found added to every row. -/
theorem final23 (c : Dev nD) :
    (dat23 (F := Ideal) V c).arrAt 2 cfg23.N = Cert.Layer.biasRelu (V c main_v147) (V c main_v150) :=
  (dat23 (F := Ideal) V c).arrAt_eq_of_cover 2 (Cert.Layer.biasRelu (V c main_v147) (V c main_v150))
    (fun t _ => flushed23_eq V c t) rows_cover23

end Cert.KernelIdeal.Hand

end
-- ==== Proof.KI.Value.lean ====
/- The kernel program's two results as the function of the arguments of Spec.lean, at the ideal instance.
   Item by item: a host stretch leaves in each buffer it writes the operations' value of the buffers it reads (a weight
   W[l,k] or a bias row b[l,k] cut out of the arguments, the rows of an array gathered along an edge index, the edge
   weights as a column, per-edge rows summed into nodes, the mean of three arrays); a region leaves in its output
   array the matrix product, the row scaling or the row bias (with or without the maximum with zero) of its two input
   arrays; the arguments are the launch contents at every boundary; a layer's output is carried unchanged to the items
   that read it later. -/
import proofs.«104107_j50560355009131_1_alg».proof.Proof.KI.Keep
import proofs.«104107_j50560355009131_1_alg».proof.Proof.Spec
import proofs.«104107_j50560355009131_1_alg».proof.Proof.KI.Final0
import proofs.«104107_j50560355009131_1_alg».proof.Proof.KI.Final1
import proofs.«104107_j50560355009131_1_alg».proof.Proof.KI.Final2
import proofs.«104107_j50560355009131_1_alg».proof.Proof.KI.Final3
import proofs.«104107_j50560355009131_1_alg».proof.Proof.KI.Final4
import proofs.«104107_j50560355009131_1_alg».proof.Proof.KI.Final5
import proofs.«104107_j50560355009131_1_alg».proof.Proof.KI.Final6
import proofs.«104107_j50560355009131_1_alg».proof.Proof.KI.Final7
import proofs.«104107_j50560355009131_1_alg».proof.Proof.KI.Final8
import proofs.«104107_j50560355009131_1_alg».proof.Proof.KI.Final9
import proofs.«104107_j50560355009131_1_alg».proof.Proof.KI.Final10
import proofs.«104107_j50560355009131_1_alg».proof.Proof.KI.Final11
import proofs.«104107_j50560355009131_1_alg».proof.Proof.KI.Final12
import proofs.«104107_j50560355009131_1_alg».proof.Proof.KI.Final13
import proofs.«104107_j50560355009131_1_alg».proof.Proof.KI.Final14
import proofs.«104107_j50560355009131_1_alg».proof.Proof.KI.Final15
import proofs.«104107_j50560355009131_1_alg».proof.Proof.KI.Final16
import proofs.«104107_j50560355009131_1_alg».proof.Proof.KI.Final17
import proofs.«104107_j50560355009131_1_alg».proof.Proof.KI.Final18
import proofs.«104107_j50560355009131_1_alg».proof.Proof.KI.Final19
import proofs.«104107_j50560355009131_1_alg».proof.Proof.KI.Final20
import proofs.«104107_j50560355009131_1_alg».proof.Proof.KI.Final21
import proofs.«104107_j50560355009131_1_alg».proof.Proof.KI.Final22
import proofs.«104107_j50560355009131_1_alg».proof.Proof.KI.Final23
import Idealize.ShloMosaic.Lib.StableHlo.Run

set_option maxRecDepth 16384

noncomputable section

namespace Cert.KernelIdeal.Hand

open Idealize.ShloMosaic Idealize.ShloMosaic.TcCoe Idealize.ShloMosaic.StableHlo
open Idealize.SL Idealize.SL.Sem
open Cert.KernelIdeal Cert.KernelIdeal.Gen

variable (m : (ℓ : Loc nD τ sig) → Buf (Elt Ideal) ℓ)

/-! ## What each host stretch leaves in the buffers that are read later -/

-- layer 1, block 0
theorem s0_v1 (c : Dev nD) : W1 m c main_v1 = Cert.Spec.w00 (W0 m c main_arg5) := by
  show StableHlo.after hostOps0 (W0 m c) (Proc.devRef .tc main_v1) = _
  after_results; rfl
theorem s1_v9 (c : Dev nD) : W3 m c main_v9 = Cert.Spec.rowsOfU (W2 m c main_v2) (W2 m c main_arg2) := by
  show StableHlo.after hostOps1 (W2 m c) (Proc.devRef .tc main_v9) = _
  after_results; rfl
theorem s1_v10 (c : Dev nD) : W3 m c main_v10 = Cert.Spec.wcol (W2 m c main_arg4) := by
  show StableHlo.after hostOps1 (W2 m c) (Proc.devRef .tc main_v10) = _
  after_results; rfl
theorem s2_v14 (c : Dev nD) : W5 m c main_v14 = Cert.Spec.sumIntoV (W4 m c main_v11) (W4 m c main_arg3) := by
  show StableHlo.after hostOps2 (W4 m c) (Proc.devRef .tc main_v14) = _
  after_results; rfl
theorem s2_v17 (c : Dev nD) : W5 m c main_v17 = Cert.Spec.r00 (W4 m c main_arg6) := by
  show StableHlo.after hostOps2 (W4 m c) (Proc.devRef .tc main_v17) = _
  after_results; rfl
-- layer 1, block 1
theorem s3_v20 (c : Dev nD) : W7 m c main_v20 = Cert.Spec.w01 (W6 m c main_arg5) := by
  show StableHlo.after hostOps3 (W6 m c) (Proc.devRef .tc main_v20) = _
  after_results; rfl
theorem s4_v28 (c : Dev nD) : W9 m c main_v28 = Cert.Spec.rowsOfV (W8 m c main_v21) (W8 m c main_arg3) := by
  show StableHlo.after hostOps4 (W8 m c) (Proc.devRef .tc main_v28) = _
  after_results; rfl
theorem s4_v29 (c : Dev nD) : W9 m c main_v29 = Cert.Spec.wcol (W8 m c main_arg4) := by
  show StableHlo.after hostOps4 (W8 m c) (Proc.devRef .tc main_v29) = _
  after_results; rfl
theorem s5_v33 (c : Dev nD) : W11 m c main_v33 = Cert.Spec.sumIntoU (W10 m c main_v30) (W10 m c main_arg2) := by
  show StableHlo.after hostOps5 (W10 m c) (Proc.devRef .tc main_v33) = _
  after_results; rfl
theorem s5_v36 (c : Dev nD) : W11 m c main_v36 = Cert.Spec.r01 (W10 m c main_arg6) := by
  show StableHlo.after hostOps5 (W10 m c) (Proc.devRef .tc main_v36) = _
  after_results; rfl
-- layer 1, block 2
theorem s6_v39 (c : Dev nD) : W13 m c main_v39 = Cert.Spec.w02 (W12 m c main_arg5) := by
  show StableHlo.after hostOps6 (W12 m c) (Proc.devRef .tc main_v39) = _
  after_results; rfl
theorem s7_v47 (c : Dev nD) : W15 m c main_v47 = Cert.Spec.rowsOfV (W14 m c main_v40) (W14 m c main_arg3) := by
  show StableHlo.after hostOps7 (W14 m c) (Proc.devRef .tc main_v47) = _
  after_results; rfl
theorem s7_v48 (c : Dev nD) : W15 m c main_v48 = Cert.Spec.wcol (W14 m c main_arg4) := by
  show StableHlo.after hostOps7 (W14 m c) (Proc.devRef .tc main_v48) = _
  after_results; rfl
theorem s8_v52 (c : Dev nD) : W17 m c main_v52 = Cert.Spec.sumIntoU (W16 m c main_v49) (W16 m c main_arg2) := by
  show StableHlo.after hostOps8 (W16 m c) (Proc.devRef .tc main_v52) = _
  after_results; rfl
theorem s8_v55 (c : Dev nD) : W17 m c main_v55 = Cert.Spec.r02 (W16 m c main_arg6) := by
  show StableHlo.after hostOps8 (W16 m c) (Proc.devRef .tc main_v55) = _
  after_results; rfl
-- layer 1, block 3
theorem s9_v58 (c : Dev nD) : W19 m c main_v58 = Cert.Spec.w03 (W18 m c main_arg5) := by
  show StableHlo.after hostOps9 (W18 m c) (Proc.devRef .tc main_v58) = _
  after_results; rfl
theorem s10_v66 (c : Dev nD) : W21 m c main_v66 = Cert.Spec.rowsOfU (W20 m c main_v59) (W20 m c main_arg2) := by
  show StableHlo.after hostOps10 (W20 m c) (Proc.devRef .tc main_v66) = _
  after_results; rfl
theorem s10_v67 (c : Dev nD) : W21 m c main_v67 = Cert.Spec.wcol (W20 m c main_arg4) := by
  show StableHlo.after hostOps10 (W20 m c) (Proc.devRef .tc main_v67) = _
  after_results; rfl
theorem s11_v71 (c : Dev nD) : W23 m c main_v71 = Cert.Spec.sumIntoV (W22 m c main_v68) (W22 m c main_arg3) := by
  show StableHlo.after hostOps11 (W22 m c) (Proc.devRef .tc main_v71) = _
  after_results; rfl
theorem s11_v74 (c : Dev nD) : W23 m c main_v74 = Cert.Spec.r03 (W22 m c main_arg6) := by
  show StableHlo.after hostOps11 (W22 m c) (Proc.devRef .tc main_v74) = _
  after_results; rfl
-- layer 2, block 0
theorem s12_v77 (c : Dev nD) : W25 m c main_v77 = Cert.Spec.w10 (W24 m c main_arg5) := by
  show StableHlo.after hostOps12 (W24 m c) (Proc.devRef .tc main_v77) = _
  after_results; rfl
theorem s13_v85 (c : Dev nD) : W27 m c main_v85 = Cert.Spec.rowsOfU (W26 m c main_v78) (W26 m c main_arg2) := by
  show StableHlo.after hostOps13 (W26 m c) (Proc.devRef .tc main_v85) = _
  after_results; rfl
theorem s13_v86 (c : Dev nD) : W27 m c main_v86 = Cert.Spec.wcol (W26 m c main_arg4) := by
  show StableHlo.after hostOps13 (W26 m c) (Proc.devRef .tc main_v86) = _
  after_results; rfl
theorem s14_v90 (c : Dev nD) : W29 m c main_v90 = Cert.Spec.sumIntoV (W28 m c main_v87) (W28 m c main_arg3) := by
  show StableHlo.after hostOps14 (W28 m c) (Proc.devRef .tc main_v90) = _
  after_results; rfl
theorem s14_v93 (c : Dev nD) : W29 m c main_v93 = Cert.Spec.r10 (W28 m c main_arg6) := by
  show StableHlo.after hostOps14 (W28 m c) (Proc.devRef .tc main_v93) = _
  after_results; rfl
-- layer 2, block 1
theorem s15_v96 (c : Dev nD) : W31 m c main_v96 = Cert.Spec.w11 (W30 m c main_arg5) := by
  show StableHlo.after hostOps15 (W30 m c) (Proc.devRef .tc main_v96) = _
  after_results; rfl
theorem s16_v104 (c : Dev nD) : W33 m c main_v104 = Cert.Spec.rowsOfV (W32 m c main_v97) (W32 m c main_arg3) := by
  show StableHlo.after hostOps16 (W32 m c) (Proc.devRef .tc main_v104) = _
  after_results; rfl
theorem s16_v105 (c : Dev nD) : W33 m c main_v105 = Cert.Spec.wcol (W32 m c main_arg4) := by
  show StableHlo.after hostOps16 (W32 m c) (Proc.devRef .tc main_v105) = _
  after_results; rfl
theorem s17_v109 (c : Dev nD) : W35 m c main_v109 = Cert.Spec.sumIntoU (W34 m c main_v106) (W34 m c main_arg2) := by
  show StableHlo.after hostOps17 (W34 m c) (Proc.devRef .tc main_v109) = _
  after_results; rfl
theorem s17_v112 (c : Dev nD) : W35 m c main_v112 = Cert.Spec.r11 (W34 m c main_arg6) := by
  show StableHlo.after hostOps17 (W34 m c) (Proc.devRef .tc main_v112) = _
  after_results; rfl
-- layer 2, block 2
theorem s18_v115 (c : Dev nD) : W37 m c main_v115 = Cert.Spec.w12 (W36 m c main_arg5) := by
  show StableHlo.after hostOps18 (W36 m c) (Proc.devRef .tc main_v115) = _
  after_results; rfl
theorem s19_v123 (c : Dev nD) : W39 m c main_v123 = Cert.Spec.rowsOfV (W38 m c main_v116) (W38 m c main_arg3) := by
  show StableHlo.after hostOps19 (W38 m c) (Proc.devRef .tc main_v123) = _
  after_results; rfl
theorem s19_v124 (c : Dev nD) : W39 m c main_v124 = Cert.Spec.wcol (W38 m c main_arg4) := by
  show StableHlo.after hostOps19 (W38 m c) (Proc.devRef .tc main_v124) = _
  after_results; rfl
theorem s20_v128 (c : Dev nD) : W41 m c main_v128 = Cert.Spec.sumIntoU (W40 m c main_v125) (W40 m c main_arg2) := by
  show StableHlo.after hostOps20 (W40 m c) (Proc.devRef .tc main_v128) = _
  after_results; rfl
theorem s20_v131 (c : Dev nD) : W41 m c main_v131 = Cert.Spec.r12 (W40 m c main_arg6) := by
  show StableHlo.after hostOps20 (W40 m c) (Proc.devRef .tc main_v131) = _
  after_results; rfl
-- layer 2, block 3
theorem s21_v134 (c : Dev nD) : W43 m c main_v134 = Cert.Spec.w13 (W42 m c main_arg5) := by
  show StableHlo.after hostOps21 (W42 m c) (Proc.devRef .tc main_v134) = _
  after_results; rfl
theorem s22_v142 (c : Dev nD) : W45 m c main_v142 = Cert.Spec.rowsOfU (W44 m c main_v135) (W44 m c main_arg2) := by
  show StableHlo.after hostOps22 (W44 m c) (Proc.devRef .tc main_v142) = _
  after_results; rfl
theorem s22_v143 (c : Dev nD) : W45 m c main_v143 = Cert.Spec.wcol (W44 m c main_arg4) := by
  show StableHlo.after hostOps22 (W44 m c) (Proc.devRef .tc main_v143) = _
  after_results; rfl
theorem s23_v147 (c : Dev nD) : W47 m c main_v147 = Cert.Spec.sumIntoV (W46 m c main_v144) (W46 m c main_arg3) := by
  show StableHlo.after hostOps23 (W46 m c) (Proc.devRef .tc main_v147) = _
  after_results; rfl
theorem s23_v150 (c : Dev nD) : W47 m c main_v150 = Cert.Spec.r13 (W46 m c main_arg6) := by
  show StableHlo.after hostOps23 (W46 m c) (Proc.devRef .tc main_v150) = _
  after_results; rfl
-- the means (18 operations, one of them the three-way stack: the read-back needs a larger budget)
set_option maxHeartbeats 4000000 in
theorem s24_v158 (c : Dev nD) : W49 m c main_v158 = Cert.Spec.mean3U (W48 m c main_arg0) (W48 m c main_v56) (W48 m c main_v132) := by
  show StableHlo.after hostOps24 (W48 m c) (Proc.devRef .tc main_v158) = _
  after_results; rfl
set_option maxHeartbeats 4000000 in
theorem s24_v165 (c : Dev nD) : W49 m c main_v165 = Cert.Spec.mean3V (W48 m c main_arg1) (W48 m c main_v75) (W48 m c main_v151) := by
  show StableHlo.after hostOps24 (W48 m c) (Proc.devRef .tc main_v165) = _
  after_results; rfl

/-! ## What each region leaves in its output array -/

theorem r0_v2 (c : Dev nD) : W2 m c main_v2 = Idealize.ShloMosaic.MatmulPlain.prod (φ₁ := .f32) (φ₂ := .f32) (W1 m c main_arg0) (W1 m c main_v1) := (W2_self m c).trans (final0 (U1 m) c)
theorem r1_v11 (c : Dev nD) : W4 m c main_v11 = Cert.Layer.scaleRows (W3 m c main_v9) (W3 m c main_v10) := (W4_self m c).trans (final1 (U3 m) c)
theorem r2_v18 (c : Dev nD) : W6 m c main_v18 = Cert.Layer.addRow (W5 m c main_v14) (W5 m c main_v17) := (W6_self m c).trans (final2 (U5 m) c)
theorem r3_v21 (c : Dev nD) : W8 m c main_v21 = Idealize.ShloMosaic.MatmulPlain.prod (φ₁ := .f32) (φ₂ := .f32) (W7 m c main_arg1) (W7 m c main_v20) := (W8_self m c).trans (final3 (U7 m) c)
theorem r4_v30 (c : Dev nD) : W10 m c main_v30 = Cert.Layer.scaleRows (W9 m c main_v28) (W9 m c main_v29) := (W10_self m c).trans (final4 (U9 m) c)
theorem r5_v37 (c : Dev nD) : W12 m c main_v37 = Cert.Layer.addRow (W11 m c main_v33) (W11 m c main_v36) := (W12_self m c).trans (final5 (U11 m) c)
theorem r6_v40 (c : Dev nD) : W14 m c main_v40 = Idealize.ShloMosaic.MatmulPlain.prod (φ₁ := .f32) (φ₂ := .f32) (W13 m c main_v18) (W13 m c main_v39) := (W14_self m c).trans (final6 (U13 m) c)
theorem r7_v49 (c : Dev nD) : W16 m c main_v49 = Cert.Layer.scaleRows (W15 m c main_v47) (W15 m c main_v48) := (W16_self m c).trans (final7 (U15 m) c)
theorem r8_v56 (c : Dev nD) : W18 m c main_v56 = Cert.Layer.biasRelu (W17 m c main_v52) (W17 m c main_v55) := (W18_self m c).trans (final8 (U17 m) c)
theorem r9_v59 (c : Dev nD) : W20 m c main_v59 = Idealize.ShloMosaic.MatmulPlain.prod (φ₁ := .f32) (φ₂ := .f32) (W19 m c main_v37) (W19 m c main_v58) := (W20_self m c).trans (final9 (U19 m) c)
theorem r10_v68 (c : Dev nD) : W22 m c main_v68 = Cert.Layer.scaleRows (W21 m c main_v66) (W21 m c main_v67) := (W22_self m c).trans (final10 (U21 m) c)
theorem r11_v75 (c : Dev nD) : W24 m c main_v75 = Cert.Layer.biasRelu (W23 m c main_v71) (W23 m c main_v74) := (W24_self m c).trans (final11 (U23 m) c)
theorem r12_v78 (c : Dev nD) : W26 m c main_v78 = Idealize.ShloMosaic.MatmulPlain.prod (φ₁ := .f32) (φ₂ := .f32) (W25 m c main_v56) (W25 m c main_v77) := (W26_self m c).trans (final12 (U25 m) c)
theorem r13_v87 (c : Dev nD) : W28 m c main_v87 = Cert.Layer.scaleRows (W27 m c main_v85) (W27 m c main_v86) := (W28_self m c).trans (final13 (U27 m) c)
theorem r14_v94 (c : Dev nD) : W30 m c main_v94 = Cert.Layer.addRow (W29 m c main_v90) (W29 m c main_v93) := (W30_self m c).trans (final14 (U29 m) c)
theorem r15_v97 (c : Dev nD) : W32 m c main_v97 = Idealize.ShloMosaic.MatmulPlain.prod (φ₁ := .f32) (φ₂ := .f32) (W31 m c main_v75) (W31 m c main_v96) := (W32_self m c).trans (final15 (U31 m) c)
theorem r16_v106 (c : Dev nD) : W34 m c main_v106 = Cert.Layer.scaleRows (W33 m c main_v104) (W33 m c main_v105) := (W34_self m c).trans (final16 (U33 m) c)
theorem r17_v113 (c : Dev nD) : W36 m c main_v113 = Cert.Layer.addRow (W35 m c main_v109) (W35 m c main_v112) := (W36_self m c).trans (final17 (U35 m) c)
theorem r18_v116 (c : Dev nD) : W38 m c main_v116 = Idealize.ShloMosaic.MatmulPlain.prod (φ₁ := .f32) (φ₂ := .f32) (W37 m c main_v94) (W37 m c main_v115) := (W38_self m c).trans (final18 (U37 m) c)
theorem r19_v125 (c : Dev nD) : W40 m c main_v125 = Cert.Layer.scaleRows (W39 m c main_v123) (W39 m c main_v124) := (W40_self m c).trans (final19 (U39 m) c)
theorem r20_v132 (c : Dev nD) : W42 m c main_v132 = Cert.Layer.biasRelu (W41 m c main_v128) (W41 m c main_v131) := (W42_self m c).trans (final20 (U41 m) c)
theorem r21_v135 (c : Dev nD) : W44 m c main_v135 = Idealize.ShloMosaic.MatmulPlain.prod (φ₁ := .f32) (φ₂ := .f32) (W43 m c main_v113) (W43 m c main_v134) := (W44_self m c).trans (final21 (U43 m) c)
theorem r22_v144 (c : Dev nD) : W46 m c main_v144 = Cert.Layer.scaleRows (W45 m c main_v142) (W45 m c main_v143) := (W46_self m c).trans (final22 (U45 m) c)
theorem r23_v151 (c : Dev nD) : W48 m c main_v151 = Cert.Layer.biasRelu (W47 m c main_v147) (W47 m c main_v150) := (W48_self m c).trans (final23 (U47 m) c)

/-! ## A layer's output is carried unchanged to the items that read it later -/

theorem walk_v18 (c : Dev nD) : W13 m c main_v18 = W6 m c main_v18 :=
  (keep13 m c main_v18 (by decide)).trans <| (keep12 m c main_v18 (by decide)).trans <| (keep11 m c main_v18 (by decide)).trans <|
  (keep10 m c main_v18 (by decide)).trans <| (keep9 m c main_v18 (by decide)).trans <| (keep8 m c main_v18 (by decide)).trans <|
  keep7 m c main_v18 (by decide)
theorem walk_v37 (c : Dev nD) : W19 m c main_v37 = W12 m c main_v37 :=
  (keep19 m c main_v37 (by decide)).trans <| (keep18 m c main_v37 (by decide)).trans <| (keep17 m c main_v37 (by decide)).trans <|
  (keep16 m c main_v37 (by decide)).trans <| (keep15 m c main_v37 (by decide)).trans <| (keep14 m c main_v37 (by decide)).trans <|
  keep13 m c main_v37 (by decide)
theorem walk_v56 (c : Dev nD) : W25 m c main_v56 = W18 m c main_v56 :=
  (keep25 m c main_v56 (by decide)).trans <| (keep24 m c main_v56 (by decide)).trans <| (keep23 m c main_v56 (by decide)).trans <|
  (keep22 m c main_v56 (by decide)).trans <| (keep21 m c main_v56 (by decide)).trans <| (keep20 m c main_v56 (by decide)).trans <|
  keep19 m c main_v56 (by decide)
theorem walk_v56_end (c : Dev nD) : W48 m c main_v56 = W25 m c main_v56 :=
  (keep48 m c main_v56 (by decide)).trans <| (keep47 m c main_v56 (by decide)).trans <| (keep46 m c main_v56 (by decide)).trans <|
  (keep45 m c main_v56 (by decide)).trans <| (keep44 m c main_v56 (by decide)).trans <| (keep43 m c main_v56 (by decide)).trans <|
  (keep42 m c main_v56 (by decide)).trans <| (keep41 m c main_v56 (by decide)).trans <| (keep40 m c main_v56 (by decide)).trans <|
  (keep39 m c main_v56 (by decide)).trans <| (keep38 m c main_v56 (by decide)).trans <| (keep37 m c main_v56 (by decide)).trans <|
  (keep36 m c main_v56 (by decide)).trans <| (keep35 m c main_v56 (by decide)).trans <| (keep34 m c main_v56 (by decide)).trans <|
  (keep33 m c main_v56 (by decide)).trans <| (keep32 m c main_v56 (by decide)).trans <| (keep31 m c main_v56 (by decide)).trans <|
  (keep30 m c main_v56 (by decide)).trans <| (keep29 m c main_v56 (by decide)).trans <| (keep28 m c main_v56 (by decide)).trans <|
  (keep27 m c main_v56 (by decide)).trans <| keep26 m c main_v56 (by decide)
theorem walk_v75 (c : Dev nD) : W31 m c main_v75 = W24 m c main_v75 :=
  (keep31 m c main_v75 (by decide)).trans <| (keep30 m c main_v75 (by decide)).trans <| (keep29 m c main_v75 (by decide)).trans <|
  (keep28 m c main_v75 (by decide)).trans <| (keep27 m c main_v75 (by decide)).trans <| (keep26 m c main_v75 (by decide)).trans <|
  keep25 m c main_v75 (by decide)
theorem walk_v75_end (c : Dev nD) : W48 m c main_v75 = W31 m c main_v75 :=
  (keep48 m c main_v75 (by decide)).trans <| (keep47 m c main_v75 (by decide)).trans <| (keep46 m c main_v75 (by decide)).trans <|
  (keep45 m c main_v75 (by decide)).trans <| (keep44 m c main_v75 (by decide)).trans <| (keep43 m c main_v75 (by decide)).trans <|
  (keep42 m c main_v75 (by decide)).trans <| (keep41 m c main_v75 (by decide)).trans <| (keep40 m c main_v75 (by decide)).trans <|
  (keep39 m c main_v75 (by decide)).trans <| (keep38 m c main_v75 (by decide)).trans <| (keep37 m c main_v75 (by decide)).trans <|
  (keep36 m c main_v75 (by decide)).trans <| (keep35 m c main_v75 (by decide)).trans <| (keep34 m c main_v75 (by decide)).trans <|
  (keep33 m c main_v75 (by decide)).trans <| keep32 m c main_v75 (by decide)
theorem walk_v94 (c : Dev nD) : W37 m c main_v94 = W30 m c main_v94 :=
  (keep37 m c main_v94 (by decide)).trans <| (keep36 m c main_v94 (by decide)).trans <| (keep35 m c main_v94 (by decide)).trans <|
  (keep34 m c main_v94 (by decide)).trans <| (keep33 m c main_v94 (by decide)).trans <| (keep32 m c main_v94 (by decide)).trans <|
  keep31 m c main_v94 (by decide)
theorem walk_v113 (c : Dev nD) : W43 m c main_v113 = W36 m c main_v113 :=
  (keep43 m c main_v113 (by decide)).trans <| (keep42 m c main_v113 (by decide)).trans <| (keep41 m c main_v113 (by decide)).trans <|
  (keep40 m c main_v113 (by decide)).trans <| (keep39 m c main_v113 (by decide)).trans <| (keep38 m c main_v113 (by decide)).trans <|
  keep37 m c main_v113 (by decide)
theorem walk_v132_end (c : Dev nD) : W48 m c main_v132 = W42 m c main_v132 :=
  (keep48 m c main_v132 (by decide)).trans <| (keep47 m c main_v132 (by decide)).trans <| (keep46 m c main_v132 (by decide)).trans <|
  (keep45 m c main_v132 (by decide)).trans <| (keep44 m c main_v132 (by decide)).trans <| keep43 m c main_v132 (by decide)

/-! ## The eight convolutions, and the results -/

/-- Layer 1, block 0 (regions 0, 1, 2): from the users into the items. -/
theorem blk00 (c : Dev nD) : W6 m c main_v18 = Cert.Spec.hi0 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  rw [r2_v18, s2_v14, s2_v17, r1_v11, s1_v9, s1_v10, r0_v2, s0_v1,
    args4 m c main_arg3 (by decide), args4 m c main_arg6 (by decide), args2 m c main_arg2 (by decide),
    args2 m c main_arg4 (by decide), args1 m c main_arg0 (by decide), args0 m c main_arg5 (by decide)]
  rfl
/-- Layer 1, block 1 (regions 3, 4, 5): from the items into the users. -/
theorem blk01 (c : Dev nD) : W12 m c main_v37 = Cert.Spec.hu0 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [r5_v37, s5_v33, s5_v36, r4_v30, s4_v28, s4_v29, r3_v21, s3_v20,
    args10 m c main_arg2 (by decide), args10 m c main_arg6 (by decide), args8 m c main_arg3 (by decide),
    args8 m c main_arg4 (by decide), args7 m c main_arg1 (by decide), args6 m c main_arg5 (by decide)]
  rfl
/-- Layer 1, block 2 (regions 6, 7, 8): block 0's result back into the users, clamped at zero. -/
theorem blk02 (c : Dev nD) : W18 m c main_v56 = Cert.Spec.u1 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  rw [r8_v56, s8_v52, s8_v55, r7_v49, s7_v47, s7_v48, r6_v40, s6_v39, walk_v18, blk00,
    args16 m c main_arg2 (by decide), args16 m c main_arg6 (by decide), args14 m c main_arg3 (by decide),
    args14 m c main_arg4 (by decide), args12 m c main_arg5 (by decide)]
  rfl
/-- Layer 1, block 3 (regions 9, 10, 11): block 1's result back into the items, clamped at zero. -/
theorem blk03 (c : Dev nD) : W24 m c main_v75 = Cert.Spec.v1 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [r11_v75, s11_v71, s11_v74, r10_v68, s10_v66, s10_v67, r9_v59, s9_v58, walk_v37, blk01,
    args22 m c main_arg3 (by decide), args22 m c main_arg6 (by decide), args20 m c main_arg2 (by decide),
    args20 m c main_arg4 (by decide), args18 m c main_arg5 (by decide)]
  rfl
/-- Layer 2, block 0 (regions 12, 13, 14). -/
theorem blk10 (c : Dev nD) : W30 m c main_v94 = Cert.Spec.hi1 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  rw [r14_v94, s14_v90, s14_v93, r13_v87, s13_v85, s13_v86, r12_v78, s12_v77, walk_v56, blk02,
    args28 m c main_arg3 (by decide), args28 m c main_arg6 (by decide), args26 m c main_arg2 (by decide),
    args26 m c main_arg4 (by decide), args24 m c main_arg5 (by decide)]
  rfl
/-- Layer 2, block 1 (regions 15, 16, 17). -/
theorem blk11 (c : Dev nD) : W36 m c main_v113 = Cert.Spec.hu1 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [r17_v113, s17_v109, s17_v112, r16_v106, s16_v104, s16_v105, r15_v97, s15_v96, walk_v75, blk03,
    args34 m c main_arg2 (by decide), args34 m c main_arg6 (by decide), args32 m c main_arg3 (by decide),
    args32 m c main_arg4 (by decide), args30 m c main_arg5 (by decide)]
  rfl
/-- Layer 2, block 2 (regions 18, 19, 20). -/
theorem blk12 (c : Dev nD) : W42 m c main_v132 = Cert.Spec.u2 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  rw [r20_v132, s20_v128, s20_v131, r19_v125, s19_v123, s19_v124, r18_v116, s18_v115, walk_v94, blk10,
    args40 m c main_arg2 (by decide), args40 m c main_arg6 (by decide), args38 m c main_arg3 (by decide),
    args38 m c main_arg4 (by decide), args36 m c main_arg5 (by decide)]
  rfl
/-- Layer 2, block 3 (regions 21, 22, 23). -/
theorem blk13 (c : Dev nD) : W48 m c main_v151 = Cert.Spec.v2 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [r23_v151, s23_v147, s23_v150, r22_v144, s22_v142, s22_v143, r21_v135, s21_v134, walk_v113, blk11,
    args46 m c main_arg3 (by decide), args46 m c main_arg6 (by decide), args44 m c main_arg2 (by decide),
    args44 m c main_arg4 (by decide), args42 m c main_arg5 (by decide)]
  rfl

/-- The users' result: the mean of the input features and the two layers' user features. -/
theorem val_out0 (c : Dev nD) : W49 m c main_v158 = Cert.Spec.outU (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [s24_v158, args48 m c main_arg0 (by decide), walk_v56_end, walk_v56, blk02, walk_v132_end, blk12]
  rfl
/-- The items' result. -/
theorem val_out1 (c : Dev nD) : W49 m c main_v165 = Cert.Spec.outV (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [s24_v165, args48 m c main_arg1 (by decide), walk_v75_end, walk_v75, blk03, blk13]
  rfl

end Cert.KernelIdeal.Hand

end
-- ==== Proof.KI.ValueRun.lean ====
/- The idealized kernel program's run with its results named: every weakly fair execution of @main terminates, nothing
   faulting, with the users' result array at `Cert.Spec.outU` and the items' at `Cert.Spec.outV` of the launch contents of
   the seven arguments, which end unchanged. -/
import proofs.«104107_j50560355009131_1_alg».proof.Proof.KI.Frame
import proofs.«104107_j50560355009131_1_alg».proof.Proof.KI.Value

set_option maxRecDepth 16384

noncomputable section

namespace Cert.KernelIdeal.Hand

open Idealize.ShloMosaic Idealize.ShloMosaic.TcCoe
open Idealize.SL Idealize.SL.Sem
open Cert.KernelIdeal Cert.KernelIdeal.Gen

variable (m : (ℓ : Loc nD τ sig) → Buf (Elt Ideal) ℓ) (ρ : Dev nD → PrngReg)

theorem value_run : θ_run (defs (F := Ideal)) (onTc (τ := τ) (main (F := Ideal))) ⟨m, fun _ => 0, ρ⟩ (fun r => ∀ c : Dev nD,
      r.2.mem ((c.tc : Thread nD τ).loc main_v158) = Cert.Spec.outU (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v165) = Cert.Spec.outV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v158 (by decide))).trans (val_out0 m c),
     (h c _ (mem_uc main_v165 (by decide))).trans (val_out1 m c),
     (h c _ (mem_uc main_arg0 (by decide))).trans (args49 m c main_arg0 (by decide)),
     (h c _ (mem_uc main_arg1 (by decide))).trans (args49 m c main_arg1 (by decide)),
     (h c _ (mem_uc main_arg2 (by decide))).trans (args49 m c main_arg2 (by decide)),
     (h c _ (mem_uc main_arg3 (by decide))).trans (args49 m c main_arg3 (by decide)),
     (h c _ (mem_uc main_arg4 (by decide))).trans (args49 m c main_arg4 (by decide)),
     (h c _ (mem_uc main_arg5 (by decide))).trans (args49 m c main_arg5 (by decide)),
     (h c _ (mem_uc main_arg6 (by decide))).trans (args49 m c main_arg6 (by decide))⟩) (run_all m ρ)

end Cert.KernelIdeal.Hand

end
-- ==== Proof.RefValue.lean ====
/-
  The reference's two results, over the extended reals, are the two functions `Cert.Spec.outU` and `Cert.Spec.outV`
  of its seven arguments.

  The reference writes a graph convolution with the same gather, segment sum and mean as `Cert.Spec`, and differs
  from it in three spellings only:
  * the matrix product is the host's `dot_general` with the dimension numbers of a plain product, which is `prod`;
  * the per-edge scale is the product `weights · rows` with the weight vector laid out as a column by a
    `broadcast_in_dim` and spread over the columns, which is `scaleRows rows (wcol weights)` because the product of
    extended reals commutes and the reshape of a vector to a column is that `broadcast_in_dim`;
  * the bias is the sum with the bias vector laid out as a row by a `broadcast_in_dim` and spread down the rows,
    which is `addRow` of the vector reshaped to a row; followed by the maximum with a broadcast zero it is `biasRelu`.
  Each spelling is rewritten by one lemma stated over variables at the literal shapes; what is left on the two sides
  is one and the same composition of the gather, the segment sum, the slices of the weights and biases, and the mean.
-/
import proofs.«104107_j50560355009131_1_alg».proof.Proof.Spec
import proofs.«104107_j50560355009131_1_alg».proof.Proof.Gen.ReferenceIdeal.Run

noncomputable section

namespace Cert.ReferenceIdeal.RefValue

open Idealize.ShloMosaic Idealize.ShloMosaic.TcCoe Idealize.SL.Sem Idealize.ShloMosaic.StableHlo
open Cert.ReferenceIdeal Cert.ReferenceIdeal.Gen
open Cert.Layer Idealize.ShloMosaic.MatmulPlain

-- the two programs' stated side conditions on their shapes (all of them propositions)
variable [Cert.KernelIdeal.Facts] [Cert.ReferenceIdeal.Facts]

/-! ## The matrix product -/

/-- The reference's two records of dimension numbers are those of a plain product: contraction of axis 1 of the left
    operand with axis 0 of the right one, no batch axis. -/
theorem plainU : IsPlain dot_S100000x128_S128x128_S100000x128_1_0_0_1_n_n := ⟨rfl, rfl, rfl, rfl, rfl, rfl⟩
theorem plainV : IsPlain dot_S50000x128_S128x128_S50000x128_1_0_0_1_n_n := ⟨rfl, rfl, rfl, rfl, rfl, rfl⟩

/-- The host's product of a user-shaped array with a 128 x 128 weight is `prod`. -/
theorem dotU (x : FVec Ideal S100000x128 .f32) (w : FVec Ideal S128x128 .f32) :
    Host.dotGeneral (F := Ideal) dot_S100000x128_S128x128_S100000x128_1_0_0_1_n_n none x w = prod x w :=
  dotGeneral_eq_prod plainU none .single x w

/-- The host's product of an item-shaped array with a 128 x 128 weight is `prod`. -/
theorem dotV (x : FVec Ideal S50000x128 .f32) (w : FVec Ideal S128x128 .f32) :
    Host.dotGeneral (F := Ideal) dot_S50000x128_S128x128_S50000x128_1_0_0_1_n_n none x w = prod x w :=
  dotGeneral_eq_prod plainV none .single x w

/-! ## The per-edge scale -/

/-- The pointwise product of two arrays of extended reals commutes. -/
theorem mulf_swap {s : Shape} (a b : FVec Ideal s .f32) : mulf a b = mulf b a := by
  funext i
  show a i * b i = b i * a i
  exact mul_comm _ _

/-- The weight vector laid out as a column, spread over the 128 columns and multiplied into the gathered rows (the
    weights first) is the rows scaled by the weight column: `![0]` sends the vector's one axis to axis 0 of the column,
    `![0, 1]` the column's two axes to the array's two axes. -/
theorem scaleE (ew : FVec Ideal S600000 .f32) (g : FVec Ideal S600000x128 .f32) :
    mulf (broadcastInDim S600000x128 (![0, 1] : Fin 2 → Fin 2) bcast_S600000x1_S600000x128_0_1
        (broadcastInDim S600000x1 (![0] : Fin 1 → Fin 2) bcast_S600000_S600000x1_0 ew)) g
      = scaleRows g (Cert.Spec.wcol ew) := by
  unfold Cert.Spec.wcol
  rw [scaleRows_colCast g ew _ bcast_S600000_S600000x1_0 bcast_S600000x1_S600000x128_0_1]
  exact mulf_swap _ _

/-! ## The bias and the clamp at zero -/

/-- A vector of 128 entries reshapes to a row. -/
theorem rowCast : S128.ShapeCasts S1x128 := by decide

/-- The bias vector laid out as a row, spread down the rows of a user-shaped array and added to it, is `addRow` of
    the vector reshaped to a row. -/
theorem biasU (a : FVec Ideal S100000x128 .f32) (v : FVec Ideal S128 .f32) :
    addf a (broadcastInDim S100000x128 (![0, 1] : Fin 2 → Fin 2) bcast_S1x128_S100000x128_0_1
        (broadcastInDim S1x128 (![1] : Fin 1 → Fin 2) bcast_S128_S1x128_1 v))
      = addRow a (shapeCast S1x128 v rowCast) := by
  rw [rowCast_eq_rowOf v rowCast bcast_S128_S1x128_1]
  exact host_addRow a _ bcast_S1x128_S100000x128_0_1

/-- The same for an item-shaped array. -/
theorem biasV (a : FVec Ideal S50000x128 .f32) (v : FVec Ideal S128 .f32) :
    addf a (broadcastInDim S50000x128 (![0, 1] : Fin 2 → Fin 2) bcast_S1x128_S50000x128_0_1
        (broadcastInDim S1x128 (![1] : Fin 1 → Fin 2) bcast_S128_S1x128_1 v))
      = addRow a (shapeCast S1x128 v rowCast) := by
  rw [rowCast_eq_rowOf v rowCast bcast_S128_S1x128_1]
  exact host_addRow a _ bcast_S1x128_S50000x128_0_1

/-- The maximum of a biased user-shaped array and the broadcast scalar zero is `biasRelu`. -/
theorem reluU (a : FVec Ideal S100000x128 .f32) (r : FVec Ideal S1x128 .f32) :
    maximumf (addRow a r)
        (broadcastInDim S100000x128 (![] : Fin 0 → Fin 2) bcast_S_S100000x128 (constant (F := Ideal) S_ .f32 0x00000000#32))
      = biasRelu a r := by
  rw [← host_addRow a r bcast_S1x128_S100000x128_0_1]
  exact host_biasRelu a r bcast_S1x128_S100000x128_0_1 bcast_S_S100000x128

/-- The same for an item-shaped array. -/
theorem reluV (a : FVec Ideal S50000x128 .f32) (r : FVec Ideal S1x128 .f32) :
    maximumf (addRow a r)
        (broadcastInDim S50000x128 (![] : Fin 0 → Fin 2) bcast_S_S50000x128 (constant (F := Ideal) S_ .f32 0x00000000#32))
      = biasRelu a r := by
  rw [← host_addRow a r bcast_S1x128_S50000x128_0_1]
  exact host_biasRelu a r bcast_S1x128_S50000x128_0_1 bcast_S_S50000x128

/-! ## The mean of three arrays depends on its second and third array only through their values -/

theorem mean3U_congr (a : Cert.Spec.AU) {b b' c c' : Cert.Spec.AU} (hb : b = b') (hc : c = c') :
    Cert.Spec.mean3U a b c = Cert.Spec.mean3U a b' c' := by
  rw [hb, hc]

theorem mean3V_congr (a : Cert.Spec.AV) {b b' c c' : Cert.Spec.AV} (hb : b = b') (hc : c = c') :
    Cert.Spec.mean3V a b c = Cert.Spec.mean3V a b' c' := by
  rw [hb, hc]

/-! ## The two results -/

/-- The reference's first result is `outU` of its arguments: the mean of the user features, the first layer's user
    features and the second layer's. The mean is the same term on both sides; in each layer's array the three
    spellings are rewritten and the two sides are then the same composition. -/
theorem out0_eq (m : (ℓ : Loc nD τ sig) → Buf (Elt Ideal) ℓ) (c : Dev nD) :
    Cert.ReferenceIdeal.Value.res_out0 (F := Ideal) m c
      = Cert.Spec.outU (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  show Cert.ReferenceIdeal.Value.res_main_v178 m c = _
  unfold Cert.ReferenceIdeal.Value.res_main_v178 Cert.Spec.outU
  refine mean3U_congr _ ?_ ?_
  · simp only [dotU, dotV, scaleE, biasU, biasV, reluU, reluV]
    simp only [Cert.Spec.u1, Cert.Spec.hi0, Cert.Spec.convUVR, Cert.Spec.convVU, Cert.Spec.w00, Cert.Spec.w02,
      Cert.Spec.r00, Cert.Spec.r02, Cert.Spec.rowsOfU, Cert.Spec.rowsOfV, Cert.Spec.sumIntoU, Cert.Spec.sumIntoV]
    rfl
  · simp only [dotU, dotV, scaleE, biasU, biasV, reluU, reluV]
    simp only [Cert.Spec.u2, Cert.Spec.hi1, Cert.Spec.u1, Cert.Spec.hi0, Cert.Spec.convUVR, Cert.Spec.convVU,
      Cert.Spec.w00, Cert.Spec.w02, Cert.Spec.w10, Cert.Spec.w12, Cert.Spec.r00, Cert.Spec.r02, Cert.Spec.r10, Cert.Spec.r12,
      Cert.Spec.rowsOfU, Cert.Spec.rowsOfV, Cert.Spec.sumIntoU, Cert.Spec.sumIntoV]
    rfl

/-- The reference's second result is `outV` of its arguments: the mean of the item features, the first layer's item
    features and the second layer's. -/
theorem out1_eq (m : (ℓ : Loc nD τ sig) → Buf (Elt Ideal) ℓ) (c : Dev nD) :
    Cert.ReferenceIdeal.Value.res_out1 (F := Ideal) m c
      = Cert.Spec.outV (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  show Cert.ReferenceIdeal.Value.res_main_v185 m c = _
  unfold Cert.ReferenceIdeal.Value.res_main_v185 Cert.Spec.outV
  refine mean3V_congr _ ?_ ?_
  · simp only [dotU, dotV, scaleE, biasU, biasV, reluU, reluV]
    simp only [Cert.Spec.v1, Cert.Spec.hu0, Cert.Spec.convVUR, Cert.Spec.convUV, Cert.Spec.w01, Cert.Spec.w03,
      Cert.Spec.r01, Cert.Spec.r03, Cert.Spec.rowsOfU, Cert.Spec.rowsOfV, Cert.Spec.sumIntoU, Cert.Spec.sumIntoV]
    rfl
  · simp only [dotU, dotV, scaleE, biasU, biasV, reluU, reluV]
    simp only [Cert.Spec.v2, Cert.Spec.hu1, Cert.Spec.v1, Cert.Spec.hu0, Cert.Spec.convVUR, Cert.Spec.convUV,
      Cert.Spec.w01, Cert.Spec.w03, Cert.Spec.w11, Cert.Spec.w13, Cert.Spec.r01, Cert.Spec.r03, Cert.Spec.r11, Cert.Spec.r13,
      Cert.Spec.rowsOfU, Cert.Spec.rowsOfV, Cert.Spec.sumIntoU, Cert.Spec.sumIntoV]
    rfl

end Cert.ReferenceIdeal.RefValue

end
-- ==== Proof.lean ====
/- The kernel of a two-layer bipartite graph convolution against its plain reference, over the extended reals.
   Both programs compute, for 100000 users, 50000 items and 600000 weighted edges, two layers of four graph convolutions
   each (a dense 128 x 128 product, a gather of rows along the edges, a scaling of each gathered row by its edge weight,
   a sum of the scaled rows into the node at the other end, a bias row, and for two of the four a maximum with zero) and
   return the mean of the input and the two layers' features, for the users and for the items (Proof/Spec.lean states
   this as ONE function of the seven arguments). The kernel runs the products, the scalings and the bias steps as 24
   pipelined regions on blocks of rows and leaves the gathers, the sums and the means to the host; the reference runs
   everything on the host. At the ideal instance a change of float format is the identity, a matrix product into a zero
   accumulator and the host's contraction are one sum, and a block of rows of a row-wise step is that step on the block
   of rows; the one algebraic law between the two spellings is the commutativity of the product (the kernel scales
   `row * weight`, the reference `weight * row`), which holds on the extended reals with no finiteness, so the precondition
   is never opened.
   The frames of the two kernel programs (at the word level and at the ideal instance) are the run of @main's 49 items
   over the library's run theorem for a program of several regions (Proof/K/…, Proof/KI/…); the reference's frame and value are its generated run. -/
import proofs.«104107_j50560355009131_1_alg».proof.Defs
import proofs.«104107_j50560355009131_1_alg».proof.Proof.Gen.Kernel
import proofs.«104107_j50560355009131_1_alg».proof.Proof.Gen.KernelIdeal
import proofs.«104107_j50560355009131_1_alg».proof.Proof.Gen.ReferenceIdeal
import proofs.«104107_j50560355009131_1_alg».proof.Proof.Gen.ReferenceIdeal.Run
import proofs.«104107_j50560355009131_1_alg».proof.Proof.Gen.Pre_finite_inputs
import proofs.«104107_j50560355009131_1_alg».proof.Proof.K.Frame
import proofs.«104107_j50560355009131_1_alg».proof.Proof.KI.ValueRun
import proofs.«104107_j50560355009131_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both runs end with the users' result at `Cert.Spec.outU` and the items' at `Cert.Spec.outV` of the arguments, which the
    two memories agree on. -/
theorem algebraic : Cert.algebraic_KernelIdeal_ReferenceIdeal := by
  intro m ρ m' ρ' _ hagree
  refine ⟨fun c => Cert.Spec.outU (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.outV (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Hand.value_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6⟩ := hagree c
    rw [show Cert.ReferenceIdeal.Value.res_main_v178 m' c = _ from Cert.ReferenceIdeal.RefValue.out0_eq m' c, h0, h1, h2, h3, h4, h5, h6]
  · obtain ⟨h0, h1, h2, h3, h4, h5, h6⟩ := hagree c
    rw [show Cert.ReferenceIdeal.Value.res_main_v185 m' c = _ from Cert.ReferenceIdeal.RefValue.out1_eq m' c, h0, h1, h2, h3, h4, h5, h6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
